-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S15x128 : Shape := ⟨2, ![15, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S15x128 : S_.BroadcastsInDim S15x128 (![] : Fin 0 → Fin S15x128.rank)
  reducesTo_S15x128_S_d0_1 : S15x128.ReducesTo [0, 1] S_

variable [Facts]

def fn {F : FTy → Type} [FloatOps F] (main_arg0 : FVec F S100000x128 .f32) (main_arg1 : FVec F S15x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S15x128 .f32 := Host.absf main_arg1
  let main_cst_0 : FVec F S_ .f32 := constant S_ .f32 0x7F800000#32
  let main_v5 : FVec F S15x128 .f32 := broadcastInDim S15x128 ![] bcast_S_S15x128 main_cst_0
  let main_v6 : IVec S15x128 1 := cmpf .olt main_v4 main_v5
  let main_c_1 : IVec S_ 1 := constantI S_ 1 1#1
  let main_v7 : IVec S_ 1 := (fun x v => Host.reduce IntOp.andi x v reducesTo_S15x128_S_d0_1 h_S_) main_v6 main_c_1
  let main_v8 : IVec S_ 1 := andi main_v3 main_v7
  main_v8
-- ==== Kernel.lean ====
abbrev S100000x128 : Shape := ⟨2, ![100000, 128]⟩
abbrev S15x128 : Shape := ⟨2, ![15, 128]⟩
abbrev S_ : Shape := ⟨0, ![]⟩
abbrev S1x128 : Shape := ⟨2, ![1, 128]⟩
abbrev S16x128 : Shape := ⟨2, ![16, 128]⟩
abbrev S1x16x1x128 : Shape := ⟨4, ![1, 16, 1, 128]⟩
abbrev S8x16x1x128 : Shape := ⟨4, ![8, 16, 1, 128]⟩
abbrev S128x128 : Shape := ⟨2, ![128, 128]⟩
abbrev S50000x128 : Shape := ⟨2, ![50000, 128]⟩
abbrev S10000x128 : Shape := ⟨2, ![10000, 128]⟩
abbrev S6400000 : Shape := ⟨1, ![6400000]⟩
abbrev S125x12400 : Shape := ⟨2, ![125, 12400]⟩
abbrev S51200 : Shape := ⟨1, ![51200]⟩
abbrev S12400 : Shape := ⟨1, ![12400]⟩
abbrev S16 : Shape := ⟨1, ![16]⟩
abbrev S1x12400 : Shape := ⟨2, ![1, 12400]⟩
abbrev S50000x31 : Shape := ⟨2, ![50000, 31]⟩
abbrev S100000x31 : Shape := ⟨2, ![100000, 31]⟩

abbrev nBuf : Table → Nat
  | .hbm => 17
  | .local .tc .vmem => 10
  | .local .scVector .vmem => 4
  | _ => 0

abbrev bufTy : (tb : Table) → Fin (nBuf tb) → BufTy
  | .hbm, ⟨0, _⟩ => ⟨S100000x128, .f32⟩
  | .hbm, ⟨1, _⟩ => ⟨S15x128, .f32⟩
  | .hbm, ⟨2, _⟩ => ⟨S_, .f32⟩
  | .hbm, ⟨3, _⟩ => ⟨S1x128, .f32⟩
  | .hbm, ⟨4, _⟩ => ⟨S16x128, .f32⟩
  | .hbm, ⟨5, _⟩ => ⟨S1x16x1x128, .f32⟩
  | .hbm, ⟨6, _⟩ => ⟨S8x16x1x128, .f32⟩
  | .hbm, ⟨7, _⟩ => ⟨S128x128, .f32⟩
  | .hbm, ⟨8, _⟩ => ⟨S50000x128, .f32⟩
  | .hbm, ⟨9, _⟩ => ⟨S6400000, .f32⟩
  | .hbm, ⟨10, _⟩ => ⟨S125x12400, .f32⟩
  | .hbm, ⟨11, _⟩ => ⟨S50000x31, .f32⟩
  | .hbm, ⟨12, _⟩ => ⟨S50000x128, .f32⟩
  | .hbm, ⟨13, _⟩ => ⟨S6400000, .f32⟩
  | .hbm, ⟨14, _⟩ => ⟨S125x12400, .f32⟩
  | .hbm, ⟨15, _⟩ => ⟨S50000x31, .f32⟩
  | .hbm, ⟨16, _⟩ => ⟨S100000x31, .f32⟩
  | .local .tc .vmem, ⟨0, _⟩ => ⟨S10000x128, .f32⟩
  | .local .tc .vmem, ⟨1, _⟩ => ⟨S10000x128, .f32⟩
  | .local .tc .vmem, ⟨2, _⟩ => ⟨S128x128, .f32⟩
  | .local .tc .vmem, ⟨3, _⟩ => ⟨S10000x128, .f32⟩
  | .local .tc .vmem, ⟨4, _⟩ => ⟨S10000x128, .f32⟩
  | .local .tc .vmem, ⟨5, _⟩ => ⟨S10000x128, .f32⟩
  | .local .tc .vmem, ⟨6, _⟩ => ⟨S10000x128, .f32⟩
  | .local .tc .vmem, ⟨7, _⟩ => ⟨S128x128, .f32⟩
  | .local .tc .vmem, ⟨8, _⟩ => ⟨S10000x128, .f32⟩
  | .local .tc .vmem, ⟨9, _⟩ => ⟨S10000x128, .f32⟩
  | .local .scVector .vmem, ⟨0, _⟩ => ⟨S51200, .f32⟩
  | .local .scVector .vmem, ⟨1, _⟩ => ⟨S12400, .f32⟩
  | .local .scVector .vmem, ⟨2, _⟩ => ⟨S51200, .f32⟩
  | .local .scVector .vmem, ⟨3, _⟩ => ⟨S12400, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v6_scv : Ref sig .scVector := ⟨.hbm, 9, rfl⟩
abbrev main_v7_scv : Ref sig .scVector := ⟨.hbm, 10, rfl⟩
abbrev main_v10_scv : Ref sig .scVector := ⟨.hbm, 13, rfl⟩
abbrev main_v11_scv : Ref sig .scVector := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

@[reducible] def k1_t1_loop (i : grid1.Coords) : Scf.Loop 32 :=
  let c0_i32_7 : BitVec 32 := 0#32
  let c125_i32 : BitVec 32 := 125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c125_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_9 : BitVec 32 := 1#32
  ⟨c0_i32_7, v26, c1_i32_9⟩
def k1_off1 (i : grid1.Coords) (k1_t1 : Fin (k1_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_9 : BitVec 32 := 1#32
  let arg6 : BitVec 32 := Scf.iv c0_i32_7 c1_i32_9 k1_t1
  let c32_i32_11 : BitVec 32 := 32#32
  let v27 : BitVec 32 := Scalar.muli arg6 c32_i32_11
  let v28 : BitVec 32 := Scalar.addi v1 v27
  let c400_i32 : BitVec 32 := 400#32
  let v29 : BitVec 32 := Scalar.muli v28 c400_i32
  let c8_i32 : BitVec 32 := 8#32
  let v30 : BitVec 32 := Scalar.muli v29 c8_i32
  let c16_i32 : BitVec 32 := 16#32
  let v31 : BitVec 32 := Scalar.muli v30 c16_i32
  ![v31.toNat]
@[reducible] def k1_t2_loop : Scf.Loop 32 :=
  let c0_i32_14 : BitVec 32 := 0#32
  let c25_i32 : BitVec 32 := 25#32
  let v35 : BitVec 32 := Scalar.addi c0_i32_14 c25_i32
  let c1_i32_15 : BitVec 32 := 1#32
  ⟨c0_i32_14, v35, c1_i32_15⟩

def k1_chk1 (v44 : IVec S16 32) : Prop :=
  (∀ a x, ((![v44] : Fin 1 → IVec S16 32) a x).toNat < S51200.size a)
instance k1_chk1.dec : ∀ (v44 : IVec S16 32), Decidable (k1_chk1 v44) := fun v44 => decidable_of_iff' _ (Iff.of_eq (k1_chk1.eq_1 v44))
theorem k1_idx1_inb : ∀ (v44 : IVec S16 32) (k1_hw1 : k1_chk1 v44), ∀ a x, ((![v44] : Fin 1 → IVec S16 32) a x).toNat < S51200.size a := fun v44 k1_hw1 => k1_hw1

def k1_chk2 (v47 : IVec S16 32) : Prop :=
  (∀ a x, ((![v47] : Fin 1 → IVec S16 32) a x).toNat < S51200.size a)
instance k1_chk2.dec : ∀ (v47 : IVec S16 32), Decidable (k1_chk2 v47) := fun v47 => decidable_of_iff' _ (Iff.of_eq (k1_chk2.eq_1 v47))
theorem k1_idx2_inb : ∀ (v47 : IVec S16 32) (k1_hw2 : k1_chk2 v47), ∀ a x, ((![v47] : Fin 1 → IVec S16 32) a x).toNat < S51200.size a := fun v47 k1_hw2 => k1_hw2

def k1_chk3 (v50 : IVec S16 32) : Prop :=
  (∀ a x, ((![v50] : Fin 1 → IVec S16 32) a x).toNat < S51200.size a)
instance k1_chk3.dec : ∀ (v50 : IVec S16 32), Decidable (k1_chk3 v50) := fun v50 => decidable_of_iff' _ (Iff.of_eq (k1_chk3.eq_1 v50))
theorem k1_idx3_inb : ∀ (v50 : IVec S16 32) (k1_hw3 : k1_chk3 v50), ∀ a x, ((![v50] : Fin 1 → IVec S16 32) a x).toNat < S51200.size a := fun v50 k1_hw3 => k1_hw3

def k1_chk4 (v53 : IVec S16 32) : Prop :=
  (∀ a x, ((![v53] : Fin 1 → IVec S16 32) a x).toNat < S51200.size a)
instance k1_chk4.dec : ∀ (v53 : IVec S16 32), Decidable (k1_chk4 v53) := fun v53 => decidable_of_iff' _ (Iff.of_eq (k1_chk4.eq_1 v53))
theorem k1_idx4_inb : ∀ (v53 : IVec S16 32) (k1_hw4 : k1_chk4 v53), ∀ a x, ((![v53] : Fin 1 → IVec S16 32) a x).toNat < S51200.size a := fun v53 k1_hw4 => k1_hw4

def k1_chk5 (v56 : IVec S16 32) : Prop :=
  (∀ a x, ((![v56] : Fin 1 → IVec S16 32) a x).toNat < S51200.size a)
instance k1_chk5.dec : ∀ (v56 : IVec S16 32), Decidable (k1_chk5 v56) := fun v56 => decidable_of_iff' _ (Iff.of_eq (k1_chk5.eq_1 v56))
theorem k1_idx5_inb : ∀ (v56 : IVec S16 32) (k1_hw5 : k1_chk5 v56), ∀ a x, ((![v56] : Fin 1 → IVec S16 32) a x).toNat < S51200.size a := fun v56 k1_hw5 => k1_hw5

def k1_chk6 (v59 : IVec S16 32) : Prop :=
  (∀ a x, ((![v59] : Fin 1 → IVec S16 32) a x).toNat < S51200.size a)
instance k1_chk6.dec : ∀ (v59 : IVec S16 32), Decidable (k1_chk6 v59) := fun v59 => decidable_of_iff' _ (Iff.of_eq (k1_chk6.eq_1 v59))
theorem k1_idx6_inb : ∀ (v59 : IVec S16 32) (k1_hw6 : k1_chk6 v59), ∀ a x, ((![v59] : Fin 1 → IVec S16 32) a x).toNat < S51200.size a := fun v59 k1_hw6 => k1_hw6

def k1_chk7 (v62 : IVec S16 32) : Prop :=
  (∀ a x, ((![v62] : Fin 1 → IVec S16 32) a x).toNat < S51200.size a)
instance k1_chk7.dec : ∀ (v62 : IVec S16 32), Decidable (k1_chk7 v62) := fun v62 => decidable_of_iff' _ (Iff.of_eq (k1_chk7.eq_1 v62))
theorem k1_idx7_inb : ∀ (v62 : IVec S16 32) (k1_hw7 : k1_chk7 v62), ∀ a x, ((![v62] : Fin 1 → IVec S16 32) a x).toNat < S51200.size a := fun v62 k1_hw7 => k1_hw7

def k1_chk8 (v65 : IVec S16 32) : Prop :=
  (∀ a x, ((![v65] : Fin 1 → IVec S16 32) a x).toNat < S51200.size a)
instance k1_chk8.dec : ∀ (v65 : IVec S16 32), Decidable (k1_chk8 v65) := fun v65 => decidable_of_iff' _ (Iff.of_eq (k1_chk8.eq_1 v65))
theorem k1_idx8_inb : ∀ (v65 : IVec S16 32) (k1_hw8 : k1_chk8 v65), ∀ a x, ((![v65] : Fin 1 → IVec S16 32) a x).toNat < S51200.size a := fun v65 k1_hw8 => k1_hw8

def k1_chk9 (v68 : IVec S16 32) : Prop :=
  (∀ a x, ((![v68] : Fin 1 → IVec S16 32) a x).toNat < S51200.size a)
instance k1_chk9.dec : ∀ (v68 : IVec S16 32), Decidable (k1_chk9 v68) := fun v68 => decidable_of_iff' _ (Iff.of_eq (k1_chk9.eq_1 v68))
theorem k1_idx9_inb : ∀ (v68 : IVec S16 32) (k1_hw9 : k1_chk9 v68), ∀ a x, ((![v68] : Fin 1 → IVec S16 32) a x).toNat < S51200.size a := fun v68 k1_hw9 => k1_hw9

def k1_chk10 (v71 : IVec S16 32) : Prop :=
  (∀ a x, ((![v71] : Fin 1 → IVec S16 32) a x).toNat < S51200.size a)
instance k1_chk10.dec : ∀ (v71 : IVec S16 32), Decidable (k1_chk10 v71) := fun v71 => decidable_of_iff' _ (Iff.of_eq (k1_chk10.eq_1 v71))
theorem k1_idx10_inb : ∀ (v71 : IVec S16 32) (k1_hw10 : k1_chk10 v71), ∀ a x, ((![v71] : Fin 1 → IVec S16 32) a x).toNat < S51200.size a := fun v71 k1_hw10 => k1_hw10

def k1_chk11 (v74 : IVec S16 32) : Prop :=
  (∀ a x, ((![v74] : Fin 1 → IVec S16 32) a x).toNat < S51200.size a)
instance k1_chk11.dec : ∀ (v74 : IVec S16 32), Decidable (k1_chk11 v74) := fun v74 => decidable_of_iff' _ (Iff.of_eq (k1_chk11.eq_1 v74))
theorem k1_idx11_inb : ∀ (v74 : IVec S16 32) (k1_hw11 : k1_chk11 v74), ∀ a x, ((![v74] : Fin 1 → IVec S16 32) a x).toNat < S51200.size a := fun v74 k1_hw11 => k1_hw11

def k1_chk12 (v77 : IVec S16 32) : Prop :=
  (∀ a x, ((![v77] : Fin 1 → IVec S16 32) a x).toNat < S51200.size a)
instance k1_chk12.dec : ∀ (v77 : IVec S16 32), Decidable (k1_chk12 v77) := fun v77 => decidable_of_iff' _ (Iff.of_eq (k1_chk12.eq_1 v77))
theorem k1_idx12_inb : ∀ (v77 : IVec S16 32) (k1_hw12 : k1_chk12 v77), ∀ a x, ((![v77] : Fin 1 → IVec S16 32) a x).toNat < S51200.size a := fun v77 k1_hw12 => k1_hw12

def k1_chk13 (v80 : IVec S16 32) : Prop :=
  (∀ a x, ((![v80] : Fin 1 → IVec S16 32) a x).toNat < S51200.size a)
instance k1_chk13.dec : ∀ (v80 : IVec S16 32), Decidable (k1_chk13 v80) := fun v80 => decidable_of_iff' _ (Iff.of_eq (k1_chk13.eq_1 v80))
theorem k1_idx13_inb : ∀ (v80 : IVec S16 32) (k1_hw13 : k1_chk13 v80), ∀ a x, ((![v80] : Fin 1 → IVec S16 32) a x).toNat < S51200.size a := fun v80 k1_hw13 => k1_hw13

def k1_chk14 (v83 : IVec S16 32) : Prop :=
  (∀ a x, ((![v83] : Fin 1 → IVec S16 32) a x).toNat < S51200.size a)
instance k1_chk14.dec : ∀ (v83 : IVec S16 32), Decidable (k1_chk14 v83) := fun v83 => decidable_of_iff' _ (Iff.of_eq (k1_chk14.eq_1 v83))
theorem k1_idx14_inb : ∀ (v83 : IVec S16 32) (k1_hw14 : k1_chk14 v83), ∀ a x, ((![v83] : Fin 1 → IVec S16 32) a x).toNat < S51200.size a := fun v83 k1_hw14 => k1_hw14

def k1_chk15 (v86 : IVec S16 32) : Prop :=
  (∀ a x, ((![v86] : Fin 1 → IVec S16 32) a x).toNat < S51200.size a)
instance k1_chk15.dec : ∀ (v86 : IVec S16 32), Decidable (k1_chk15 v86) := fun v86 => decidable_of_iff' _ (Iff.of_eq (k1_chk15.eq_1 v86))
theorem k1_idx15_inb : ∀ (v86 : IVec S16 32) (k1_hw15 : k1_chk15 v86), ∀ a x, ((![v86] : Fin 1 → IVec S16 32) a x).toNat < S51200.size a := fun v86 k1_hw15 => k1_hw15

def k1_chk16 (v42 : IVec S16 32) : Prop :=
  (∀ a x, ((![v42] : Fin 1 → IVec S16 32) a x).toNat < S12400.size a)
instance k1_chk16.dec : ∀ (v42 : IVec S16 32), Decidable (k1_chk16 v42) := fun v42 => decidable_of_iff' _ (Iff.of_eq (k1_chk16.eq_1 v42))
theorem k1_idx16_inb : ∀ (v42 : IVec S16 32) (k1_hw16 : k1_chk16 v42), ∀ a x, ((![v42] : Fin 1 → IVec S16 32) a x).toNat < S12400.size a := fun v42 k1_hw16 => k1_hw16

def k1_chk17 (v149 : IVec S16 32) : Prop :=
  (∀ a x, ((![v149] : Fin 1 → IVec S16 32) a x).toNat < S12400.size a)
instance k1_chk17.dec : ∀ (v149 : IVec S16 32), Decidable (k1_chk17 v149) := fun v149 => decidable_of_iff' _ (Iff.of_eq (k1_chk17.eq_1 v149))
theorem k1_idx17_inb : ∀ (v149 : IVec S16 32) (k1_hw17 : k1_chk17 v149), ∀ a x, ((![v149] : Fin 1 → IVec S16 32) a x).toNat < S12400.size a := fun v149 k1_hw17 => k1_hw17

def k1_chk18 (v152 : IVec S16 32) : Prop :=
  (∀ a x, ((![v152] : Fin 1 → IVec S16 32) a x).toNat < S12400.size a)
instance k1_chk18.dec : ∀ (v152 : IVec S16 32), Decidable (k1_chk18 v152) := fun v152 => decidable_of_iff' _ (Iff.of_eq (k1_chk18.eq_1 v152))
theorem k1_idx18_inb : ∀ (v152 : IVec S16 32) (k1_hw18 : k1_chk18 v152), ∀ a x, ((![v152] : Fin 1 → IVec S16 32) a x).toNat < S12400.size a := fun v152 k1_hw18 => k1_hw18

def k1_chk19 (v155 : IVec S16 32) : Prop :=
  (∀ a x, ((![v155] : Fin 1 → IVec S16 32) a x).toNat < S12400.size a)
instance k1_chk19.dec : ∀ (v155 : IVec S16 32), Decidable (k1_chk19 v155) := fun v155 => decidable_of_iff' _ (Iff.of_eq (k1_chk19.eq_1 v155))
theorem k1_idx19_inb : ∀ (v155 : IVec S16 32) (k1_hw19 : k1_chk19 v155), ∀ a x, ((![v155] : Fin 1 → IVec S16 32) a x).toNat < S12400.size a := fun v155 k1_hw19 => k1_hw19

def k1_chk20 (v158 : IVec S16 32) : Prop :=
  (∀ a x, ((![v158] : Fin 1 → IVec S16 32) a x).toNat < S12400.size a)
instance k1_chk20.dec : ∀ (v158 : IVec S16 32), Decidable (k1_chk20 v158) := fun v158 => decidable_of_iff' _ (Iff.of_eq (k1_chk20.eq_1 v158))
theorem k1_idx20_inb : ∀ (v158 : IVec S16 32) (k1_hw20 : k1_chk20 v158), ∀ a x, ((![v158] : Fin 1 → IVec S16 32) a x).toNat < S12400.size a := fun v158 k1_hw20 => k1_hw20

def k1_chk21 (v161 : IVec S16 32) : Prop :=
  (∀ a x, ((![v161] : Fin 1 → IVec S16 32) a x).toNat < S12400.size a)
instance k1_chk21.dec : ∀ (v161 : IVec S16 32), Decidable (k1_chk21 v161) := fun v161 => decidable_of_iff' _ (Iff.of_eq (k1_chk21.eq_1 v161))
theorem k1_idx21_inb : ∀ (v161 : IVec S16 32) (k1_hw21 : k1_chk21 v161), ∀ a x, ((![v161] : Fin 1 → IVec S16 32) a x).toNat < S12400.size a := fun v161 k1_hw21 => k1_hw21

def k1_chk22 (v164 : IVec S16 32) : Prop :=
  (∀ a x, ((![v164] : Fin 1 → IVec S16 32) a x).toNat < S12400.size a)
instance k1_chk22.dec : ∀ (v164 : IVec S16 32), Decidable (k1_chk22 v164) := fun v164 => decidable_of_iff' _ (Iff.of_eq (k1_chk22.eq_1 v164))
theorem k1_idx22_inb : ∀ (v164 : IVec S16 32) (k1_hw22 : k1_chk22 v164), ∀ a x, ((![v164] : Fin 1 → IVec S16 32) a x).toNat < S12400.size a := fun v164 k1_hw22 => k1_hw22

def k1_chk23 (v167 : IVec S16 32) : Prop :=
  (∀ a x, ((![v167] : Fin 1 → IVec S16 32) a x).toNat < S12400.size a)
instance k1_chk23.dec : ∀ (v167 : IVec S16 32), Decidable (k1_chk23 v167) := fun v167 => decidable_of_iff' _ (Iff.of_eq (k1_chk23.eq_1 v167))
theorem k1_idx23_inb : ∀ (v167 : IVec S16 32) (k1_hw23 : k1_chk23 v167), ∀ a x, ((![v167] : Fin 1 → IVec S16 32) a x).toNat < S12400.size a := fun v167 k1_hw23 => k1_hw23

def k1_chk24 (v170 : IVec S16 32) : Prop :=
  (∀ a x, ((![v170] : Fin 1 → IVec S16 32) a x).toNat < S12400.size a)
instance k1_chk24.dec : ∀ (v170 : IVec S16 32), Decidable (k1_chk24 v170) := fun v170 => decidable_of_iff' _ (Iff.of_eq (k1_chk24.eq_1 v170))
theorem k1_idx24_inb : ∀ (v170 : IVec S16 32) (k1_hw24 : k1_chk24 v170), ∀ a x, ((![v170] : Fin 1 → IVec S16 32) a x).toNat < S12400.size a := fun v170 k1_hw24 => k1_hw24

def k1_chk25 (v173 : IVec S16 32) : Prop :=
  (∀ a x, ((![v173] : Fin 1 → IVec S16 32) a x).toNat < S12400.size a)
instance k1_chk25.dec : ∀ (v173 : IVec S16 32), Decidable (k1_chk25 v173) := fun v173 => decidable_of_iff' _ (Iff.of_eq (k1_chk25.eq_1 v173))
theorem k1_idx25_inb : ∀ (v173 : IVec S16 32) (k1_hw25 : k1_chk25 v173), ∀ a x, ((![v173] : Fin 1 → IVec S16 32) a x).toNat < S12400.size a := fun v173 k1_hw25 => k1_hw25

def k1_chk26 (v176 : IVec S16 32) : Prop :=
  (∀ a x, ((![v176] : Fin 1 → IVec S16 32) a x).toNat < S12400.size a)
instance k1_chk26.dec : ∀ (v176 : IVec S16 32), Decidable (k1_chk26 v176) := fun v176 => decidable_of_iff' _ (Iff.of_eq (k1_chk26.eq_1 v176))
theorem k1_idx26_inb : ∀ (v176 : IVec S16 32) (k1_hw26 : k1_chk26 v176), ∀ a x, ((![v176] : Fin 1 → IVec S16 32) a x).toNat < S12400.size a := fun v176 k1_hw26 => k1_hw26

def k1_chk27 (v179 : IVec S16 32) : Prop :=
  (∀ a x, ((![v179] : Fin 1 → IVec S16 32) a x).toNat < S12400.size a)
instance k1_chk27.dec : ∀ (v179 : IVec S16 32), Decidable (k1_chk27 v179) := fun v179 => decidable_of_iff' _ (Iff.of_eq (k1_chk27.eq_1 v179))
theorem k1_idx27_inb : ∀ (v179 : IVec S16 32) (k1_hw27 : k1_chk27 v179), ∀ a x, ((![v179] : Fin 1 → IVec S16 32) a x).toNat < S12400.size a := fun v179 k1_hw27 => k1_hw27

def k1_chk28 (v182 : IVec S16 32) : Prop :=
  (∀ a x, ((![v182] : Fin 1 → IVec S16 32) a x).toNat < S12400.size a)
instance k1_chk28.dec : ∀ (v182 : IVec S16 32), Decidable (k1_chk28 v182) := fun v182 => decidable_of_iff' _ (Iff.of_eq (k1_chk28.eq_1 v182))
theorem k1_idx28_inb : ∀ (v182 : IVec S16 32) (k1_hw28 : k1_chk28 v182), ∀ a x, ((![v182] : Fin 1 → IVec S16 32) a x).toNat < S12400.size a := fun v182 k1_hw28 => k1_hw28

def k1_chk29 (v185 : IVec S16 32) : Prop :=
  (∀ a x, ((![v185] : Fin 1 → IVec S16 32) a x).toNat < S12400.size a)
instance k1_chk29.dec : ∀ (v185 : IVec S16 32), Decidable (k1_chk29 v185) := fun v185 => decidable_of_iff' _ (Iff.of_eq (k1_chk29.eq_1 v185))
theorem k1_idx29_inb : ∀ (v185 : IVec S16 32) (k1_hw29 : k1_chk29 v185), ∀ a x, ((![v185] : Fin 1 → IVec S16 32) a x).toNat < S12400.size a := fun v185 k1_hw29 => k1_hw29

def k1_chk30 (v188 : IVec S16 32) : Prop :=
  (∀ a x, ((![v188] : Fin 1 → IVec S16 32) a x).toNat < S12400.size a)
instance k1_chk30.dec : ∀ (v188 : IVec S16 32), Decidable (k1_chk30 v188) := fun v188 => decidable_of_iff' _ (Iff.of_eq (k1_chk30.eq_1 v188))
theorem k1_idx30_inb : ∀ (v188 : IVec S16 32) (k1_hw30 : k1_chk30 v188), ∀ a x, ((![v188] : Fin 1 → IVec S16 32) a x).toNat < S12400.size a := fun v188 k1_hw30 => k1_hw30

def k1_chk31 (v191 : IVec S16 32) : Prop :=
  (∀ a x, ((![v191] : Fin 1 → IVec S16 32) a x).toNat < S12400.size a)
instance k1_chk31.dec : ∀ (v191 : IVec S16 32), Decidable (k1_chk31 v191) := fun v191 => decidable_of_iff' _ (Iff.of_eq (k1_chk31.eq_1 v191))
theorem k1_idx31_inb : ∀ (v191 : IVec S16 32) (k1_hw31 : k1_chk31 v191), ∀ a x, ((![v191] : Fin 1 → IVec S16 32) a x).toNat < S12400.size a := fun v191 k1_hw31 => k1_hw31

def k1_chk32 (v194 : IVec S16 32) : Prop :=
  (∀ a x, ((![v194] : Fin 1 → IVec S16 32) a x).toNat < S12400.size a)
instance k1_chk32.dec : ∀ (v194 : IVec S16 32), Decidable (k1_chk32 v194) := fun v194 => decidable_of_iff' _ (Iff.of_eq (k1_chk32.eq_1 v194))
theorem k1_idx32_inb : ∀ (v194 : IVec S16 32) (k1_hw32 : k1_chk32 v194), ∀ a x, ((![v194] : Fin 1 → IVec S16 32) a x).toNat < S12400.size a := fun v194 k1_hw32 => k1_hw32

def k1_chk33 (v197 : IVec S16 32) : Prop :=
  (∀ a x, ((![v197] : Fin 1 → IVec S16 32) a x).toNat < S12400.size a)
instance k1_chk33.dec : ∀ (v197 : IVec S16 32), Decidable (k1_chk33 v197) := fun v197 => decidable_of_iff' _ (Iff.of_eq (k1_chk33.eq_1 v197))
theorem k1_idx33_inb : ∀ (v197 : IVec S16 32) (k1_hw33 : k1_chk33 v197), ∀ a x, ((![v197] : Fin 1 → IVec S16 32) a x).toNat < S12400.size a := fun v197 k1_hw33 => k1_hw33

def k1_chk34 (v200 : IVec S16 32) : Prop :=
  (∀ a x, ((![v200] : Fin 1 → IVec S16 32) a x).toNat < S12400.size a)
instance k1_chk34.dec : ∀ (v200 : IVec S16 32), Decidable (k1_chk34 v200) := fun v200 => decidable_of_iff' _ (Iff.of_eq (k1_chk34.eq_1 v200))
theorem k1_idx34_inb : ∀ (v200 : IVec S16 32) (k1_hw34 : k1_chk34 v200), ∀ a x, ((![v200] : Fin 1 → IVec S16 32) a x).toNat < S12400.size a := fun v200 k1_hw34 => k1_hw34

def k1_chk35 (v203 : IVec S16 32) : Prop :=
  (∀ a x, ((![v203] : Fin 1 → IVec S16 32) a x).toNat < S12400.size a)
instance k1_chk35.dec : ∀ (v203 : IVec S16 32), Decidable (k1_chk35 v203) := fun v203 => decidable_of_iff' _ (Iff.of_eq (k1_chk35.eq_1 v203))
theorem k1_idx35_inb : ∀ (v203 : IVec S16 32) (k1_hw35 : k1_chk35 v203), ∀ a x, ((![v203] : Fin 1 → IVec S16 32) a x).toNat < S12400.size a := fun v203 k1_hw35 => k1_hw35

def k1_chk36 (v206 : IVec S16 32) : Prop :=
  (∀ a x, ((![v206] : Fin 1 → IVec S16 32) a x).toNat < S12400.size a)
instance k1_chk36.dec : ∀ (v206 : IVec S16 32), Decidable (k1_chk36 v206) := fun v206 => decidable_of_iff' _ (Iff.of_eq (k1_chk36.eq_1 v206))
theorem k1_idx36_inb : ∀ (v206 : IVec S16 32) (k1_hw36 : k1_chk36 v206), ∀ a x, ((![v206] : Fin 1 → IVec S16 32) a x).toNat < S12400.size a := fun v206 k1_hw36 => k1_hw36

def k1_chk37 (v209 : IVec S16 32) : Prop :=
  (∀ a x, ((![v209] : Fin 1 → IVec S16 32) a x).toNat < S12400.size a)
instance k1_chk37.dec : ∀ (v209 : IVec S16 32), Decidable (k1_chk37 v209) := fun v209 => decidable_of_iff' _ (Iff.of_eq (k1_chk37.eq_1 v209))
theorem k1_idx37_inb : ∀ (v209 : IVec S16 32) (k1_hw37 : k1_chk37 v209), ∀ a x, ((![v209] : Fin 1 → IVec S16 32) a x).toNat < S12400.size a := fun v209 k1_hw37 => k1_hw37

def k1_chk38 (v212 : IVec S16 32) : Prop :=
  (∀ a x, ((![v212] : Fin 1 → IVec S16 32) a x).toNat < S12400.size a)
instance k1_chk38.dec : ∀ (v212 : IVec S16 32), Decidable (k1_chk38 v212) := fun v212 => decidable_of_iff' _ (Iff.of_eq (k1_chk38.eq_1 v212))
theorem k1_idx38_inb : ∀ (v212 : IVec S16 32) (k1_hw38 : k1_chk38 v212), ∀ a x, ((![v212] : Fin 1 → IVec S16 32) a x).toNat < S12400.size a := fun v212 k1_hw38 => k1_hw38

def k1_chk39 (v215 : IVec S16 32) : Prop :=
  (∀ a x, ((![v215] : Fin 1 → IVec S16 32) a x).toNat < S12400.size a)
instance k1_chk39.dec : ∀ (v215 : IVec S16 32), Decidable (k1_chk39 v215) := fun v215 => decidable_of_iff' _ (Iff.of_eq (k1_chk39.eq_1 v215))
theorem k1_idx39_inb : ∀ (v215 : IVec S16 32) (k1_hw39 : k1_chk39 v215), ∀ a x, ((![v215] : Fin 1 → IVec S16 32) a x).toNat < S12400.size a := fun v215 k1_hw39 => k1_hw39

def k1_chk40 (v218 : IVec S16 32) : Prop :=
  (∀ a x, ((![v218] : Fin 1 → IVec S16 32) a x).toNat < S12400.size a)
instance k1_chk40.dec : ∀ (v218 : IVec S16 32), Decidable (k1_chk40 v218) := fun v218 => decidable_of_iff' _ (Iff.of_eq (k1_chk40.eq_1 v218))
theorem k1_idx40_inb : ∀ (v218 : IVec S16 32) (k1_hw40 : k1_chk40 v218), ∀ a x, ((![v218] : Fin 1 → IVec S16 32) a x).toNat < S12400.size a := fun v218 k1_hw40 => k1_hw40

def k1_chk41 (v221 : IVec S16 32) : Prop :=
  (∀ a x, ((![v221] : Fin 1 → IVec S16 32) a x).toNat < S12400.size a)
instance k1_chk41.dec : ∀ (v221 : IVec S16 32), Decidable (k1_chk41 v221) := fun v221 => decidable_of_iff' _ (Iff.of_eq (k1_chk41.eq_1 v221))
theorem k1_idx41_inb : ∀ (v221 : IVec S16 32) (k1_hw41 : k1_chk41 v221), ∀ a x, ((![v221] : Fin 1 → IVec S16 32) a x).toNat < S12400.size a := fun v221 k1_hw41 => k1_hw41

def k1_chk42 (v224 : IVec S16 32) : Prop :=
  (∀ a x, ((![v224] : Fin 1 → IVec S16 32) a x).toNat < S12400.size a)
instance k1_chk42.dec : ∀ (v224 : IVec S16 32), Decidable (k1_chk42 v224) := fun v224 => decidable_of_iff' _ (Iff.of_eq (k1_chk42.eq_1 v224))
theorem k1_idx42_inb : ∀ (v224 : IVec S16 32) (k1_hw42 : k1_chk42 v224), ∀ a x, ((![v224] : Fin 1 → IVec S16 32) a x).toNat < S12400.size a := fun v224 k1_hw42 => k1_hw42

def k1_chk43 (v227 : IVec S16 32) : Prop :=
  (∀ a x, ((![v227] : Fin 1 → IVec S16 32) a x).toNat < S12400.size a)
instance k1_chk43.dec : ∀ (v227 : IVec S16 32), Decidable (k1_chk43 v227) := fun v227 => decidable_of_iff' _ (Iff.of_eq (k1_chk43.eq_1 v227))
theorem k1_idx43_inb : ∀ (v227 : IVec S16 32) (k1_hw43 : k1_chk43 v227), ∀ a x, ((![v227] : Fin 1 → IVec S16 32) a x).toNat < S12400.size a := fun v227 k1_hw43 => k1_hw43

def k1_chk44 (v230 : IVec S16 32) : Prop :=
  (∀ a x, ((![v230] : Fin 1 → IVec S16 32) a x).toNat < S12400.size a)
instance k1_chk44.dec : ∀ (v230 : IVec S16 32), Decidable (k1_chk44 v230) := fun v230 => decidable_of_iff' _ (Iff.of_eq (k1_chk44.eq_1 v230))
theorem k1_idx44_inb : ∀ (v230 : IVec S16 32) (k1_hw44 : k1_chk44 v230), ∀ a x, ((![v230] : Fin 1 → IVec S16 32) a x).toNat < S12400.size a := fun v230 k1_hw44 => k1_hw44

def k1_chk45 (v233 : IVec S16 32) : Prop :=
  (∀ a x, ((![v233] : Fin 1 → IVec S16 32) a x).toNat < S12400.size a)
instance k1_chk45.dec : ∀ (v233 : IVec S16 32), Decidable (k1_chk45 v233) := fun v233 => decidable_of_iff' _ (Iff.of_eq (k1_chk45.eq_1 v233))
theorem k1_idx45_inb : ∀ (v233 : IVec S16 32) (k1_hw45 : k1_chk45 v233), ∀ a x, ((![v233] : Fin 1 → IVec S16 32) a x).toNat < S12400.size a := fun v233 k1_hw45 => k1_hw45

def k1_chk46 (v236 : IVec S16 32) : Prop :=
  (∀ a x, ((![v236] : Fin 1 → IVec S16 32) a x).toNat < S12400.size a)
instance k1_chk46.dec : ∀ (v236 : IVec S16 32), Decidable (k1_chk46 v236) := fun v236 => decidable_of_iff' _ (Iff.of_eq (k1_chk46.eq_1 v236))
theorem k1_idx46_inb : ∀ (v236 : IVec S16 32) (k1_hw46 : k1_chk46 v236), ∀ a x, ((![v236] : Fin 1 → IVec S16 32) a x).toNat < S12400.size a := fun v236 k1_hw46 => k1_hw46
def k1_off2 (i : grid1.Coords) (k1_t1 : Fin (k1_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_9 : BitVec 32 := 1#32
  let arg6 : BitVec 32 := Scf.iv c0_i32_7 c1_i32_9 k1_t1
  let c32_i32_11 : BitVec 32 := 32#32
  let v27 : BitVec 32 := Scalar.muli arg6 c32_i32_11
  let v28 : BitVec 32 := Scalar.addi v1 v27
  let c0_i32_17_r1 : BitVec 32 := 0#32
  ![v28.toNat, 0]
@[reducible] def k1_t3_loop (i : grid1.Coords) : Scf.Loop 32 :=
  let c0_i32_7 : BitVec 32 := 0#32
  let c125_i32 : BitVec 32 := 125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c125_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let v23 : BitVec 32 := Scalar.addi c0_i32_7 v22
  let c1_i32_10 : BitVec 32 := 1#32
  ⟨v26, v23, c1_i32_10⟩
def k1_off3 (i : grid1.Coords) (k1_t3 : Fin (k1_t3_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c125_i32 : BitVec 32 := 125#32
  let v2 : BitVec 32 := Scalar.subi c125_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg6 : BitVec 32 := Scf.iv v26 c1_i32_10 k1_t3
  let c32_i32_11 : BitVec 32 := 32#32
  let v27 : BitVec 32 := Scalar.muli arg6 c32_i32_11
  let v28 : BitVec 32 := Scalar.addi v1 v27
  let c400_i32 : BitVec 32 := 400#32
  let v29 : BitVec 32 := Scalar.muli v28 c400_i32
  let c8_i32 : BitVec 32 := 8#32
  let v30 : BitVec 32 := Scalar.muli v29 c8_i32
  let c16_i32 : BitVec 32 := 16#32
  let v31 : BitVec 32 := Scalar.muli v30 c16_i32
  ![v31.toNat]
@[reducible] def k1_t4_loop : Scf.Loop 32 :=
  let c0_i32_14 : BitVec 32 := 0#32
  let c25_i32 : BitVec 32 := 25#32
  let v35 : BitVec 32 := Scalar.addi c0_i32_14 c25_i32
  let c1_i32_15 : BitVec 32 := 1#32
  ⟨c0_i32_14, v35, c1_i32_15⟩

def k1_chk47 (v44 : IVec S16 32) : Prop :=
  (∀ a x, ((![v44] : Fin 1 → IVec S16 32) a x).toNat < S51200.size a)
instance k1_chk47.dec : ∀ (v44 : IVec S16 32), Decidable (k1_chk47 v44) := fun v44 => decidable_of_iff' _ (Iff.of_eq (k1_chk47.eq_1 v44))
theorem k1_idx47_inb : ∀ (v44 : IVec S16 32) (k1_hw47 : k1_chk47 v44), ∀ a x, ((![v44] : Fin 1 → IVec S16 32) a x).toNat < S51200.size a := fun v44 k1_hw47 => k1_hw47

def k1_chk48 (v47 : IVec S16 32) : Prop :=
  (∀ a x, ((![v47] : Fin 1 → IVec S16 32) a x).toNat < S51200.size a)
instance k1_chk48.dec : ∀ (v47 : IVec S16 32), Decidable (k1_chk48 v47) := fun v47 => decidable_of_iff' _ (Iff.of_eq (k1_chk48.eq_1 v47))
theorem k1_idx48_inb : ∀ (v47 : IVec S16 32) (k1_hw48 : k1_chk48 v47), ∀ a x, ((![v47] : Fin 1 → IVec S16 32) a x).toNat < S51200.size a := fun v47 k1_hw48 => k1_hw48

def k1_chk49 (v50 : IVec S16 32) : Prop :=
  (∀ a x, ((![v50] : Fin 1 → IVec S16 32) a x).toNat < S51200.size a)
instance k1_chk49.dec : ∀ (v50 : IVec S16 32), Decidable (k1_chk49 v50) := fun v50 => decidable_of_iff' _ (Iff.of_eq (k1_chk49.eq_1 v50))
theorem k1_idx49_inb : ∀ (v50 : IVec S16 32) (k1_hw49 : k1_chk49 v50), ∀ a x, ((![v50] : Fin 1 → IVec S16 32) a x).toNat < S51200.size a := fun v50 k1_hw49 => k1_hw49

def k1_chk50 (v53 : IVec S16 32) : Prop :=
  (∀ a x, ((![v53] : Fin 1 → IVec S16 32) a x).toNat < S51200.size a)
instance k1_chk50.dec : ∀ (v53 : IVec S16 32), Decidable (k1_chk50 v53) := fun v53 => decidable_of_iff' _ (Iff.of_eq (k1_chk50.eq_1 v53))
theorem k1_idx50_inb : ∀ (v53 : IVec S16 32) (k1_hw50 : k1_chk50 v53), ∀ a x, ((![v53] : Fin 1 → IVec S16 32) a x).toNat < S51200.size a := fun v53 k1_hw50 => k1_hw50

def k1_chk51 (v56 : IVec S16 32) : Prop :=
  (∀ a x, ((![v56] : Fin 1 → IVec S16 32) a x).toNat < S51200.size a)
instance k1_chk51.dec : ∀ (v56 : IVec S16 32), Decidable (k1_chk51 v56) := fun v56 => decidable_of_iff' _ (Iff.of_eq (k1_chk51.eq_1 v56))
theorem k1_idx51_inb : ∀ (v56 : IVec S16 32) (k1_hw51 : k1_chk51 v56), ∀ a x, ((![v56] : Fin 1 → IVec S16 32) a x).toNat < S51200.size a := fun v56 k1_hw51 => k1_hw51

def k1_chk52 (v59 : IVec S16 32) : Prop :=
  (∀ a x, ((![v59] : Fin 1 → IVec S16 32) a x).toNat < S51200.size a)
instance k1_chk52.dec : ∀ (v59 : IVec S16 32), Decidable (k1_chk52 v59) := fun v59 => decidable_of_iff' _ (Iff.of_eq (k1_chk52.eq_1 v59))
theorem k1_idx52_inb : ∀ (v59 : IVec S16 32) (k1_hw52 : k1_chk52 v59), ∀ a x, ((![v59] : Fin 1 → IVec S16 32) a x).toNat < S51200.size a := fun v59 k1_hw52 => k1_hw52

def k1_chk53 (v62 : IVec S16 32) : Prop :=
  (∀ a x, ((![v62] : Fin 1 → IVec S16 32) a x).toNat < S51200.size a)
instance k1_chk53.dec : ∀ (v62 : IVec S16 32), Decidable (k1_chk53 v62) := fun v62 => decidable_of_iff' _ (Iff.of_eq (k1_chk53.eq_1 v62))
theorem k1_idx53_inb : ∀ (v62 : IVec S16 32) (k1_hw53 : k1_chk53 v62), ∀ a x, ((![v62] : Fin 1 → IVec S16 32) a x).toNat < S51200.size a := fun v62 k1_hw53 => k1_hw53

def k1_chk54 (v65 : IVec S16 32) : Prop :=
  (∀ a x, ((![v65] : Fin 1 → IVec S16 32) a x).toNat < S51200.size a)
instance k1_chk54.dec : ∀ (v65 : IVec S16 32), Decidable (k1_chk54 v65) := fun v65 => decidable_of_iff' _ (Iff.of_eq (k1_chk54.eq_1 v65))
theorem k1_idx54_inb : ∀ (v65 : IVec S16 32) (k1_hw54 : k1_chk54 v65), ∀ a x, ((![v65] : Fin 1 → IVec S16 32) a x).toNat < S51200.size a := fun v65 k1_hw54 => k1_hw54

def k1_chk55 (v68 : IVec S16 32) : Prop :=
  (∀ a x, ((![v68] : Fin 1 → IVec S16 32) a x).toNat < S51200.size a)
instance k1_chk55.dec : ∀ (v68 : IVec S16 32), Decidable (k1_chk55 v68) := fun v68 => decidable_of_iff' _ (Iff.of_eq (k1_chk55.eq_1 v68))
theorem k1_idx55_inb : ∀ (v68 : IVec S16 32) (k1_hw55 : k1_chk55 v68), ∀ a x, ((![v68] : Fin 1 → IVec S16 32) a x).toNat < S51200.size a := fun v68 k1_hw55 => k1_hw55

def k1_chk56 (v71 : IVec S16 32) : Prop :=
  (∀ a x, ((![v71] : Fin 1 → IVec S16 32) a x).toNat < S51200.size a)
instance k1_chk56.dec : ∀ (v71 : IVec S16 32), Decidable (k1_chk56 v71) := fun v71 => decidable_of_iff' _ (Iff.of_eq (k1_chk56.eq_1 v71))
theorem k1_idx56_inb : ∀ (v71 : IVec S16 32) (k1_hw56 : k1_chk56 v71), ∀ a x, ((![v71] : Fin 1 → IVec S16 32) a x).toNat < S51200.size a := fun v71 k1_hw56 => k1_hw56

def k1_chk57 (v74 : IVec S16 32) : Prop :=
  (∀ a x, ((![v74] : Fin 1 → IVec S16 32) a x).toNat < S51200.size a)
instance k1_chk57.dec : ∀ (v74 : IVec S16 32), Decidable (k1_chk57 v74) := fun v74 => decidable_of_iff' _ (Iff.of_eq (k1_chk57.eq_1 v74))
theorem k1_idx57_inb : ∀ (v74 : IVec S16 32) (k1_hw57 : k1_chk57 v74), ∀ a x, ((![v74] : Fin 1 → IVec S16 32) a x).toNat < S51200.size a := fun v74 k1_hw57 => k1_hw57

def k1_chk58 (v77 : IVec S16 32) : Prop :=
  (∀ a x, ((![v77] : Fin 1 → IVec S16 32) a x).toNat < S51200.size a)
instance k1_chk58.dec : ∀ (v77 : IVec S16 32), Decidable (k1_chk58 v77) := fun v77 => decidable_of_iff' _ (Iff.of_eq (k1_chk58.eq_1 v77))
theorem k1_idx58_inb : ∀ (v77 : IVec S16 32) (k1_hw58 : k1_chk58 v77), ∀ a x, ((![v77] : Fin 1 → IVec S16 32) a x).toNat < S51200.size a := fun v77 k1_hw58 => k1_hw58

def k1_chk59 (v80 : IVec S16 32) : Prop :=
  (∀ a x, ((![v80] : Fin 1 → IVec S16 32) a x).toNat < S51200.size a)
instance k1_chk59.dec : ∀ (v80 : IVec S16 32), Decidable (k1_chk59 v80) := fun v80 => decidable_of_iff' _ (Iff.of_eq (k1_chk59.eq_1 v80))
theorem k1_idx59_inb : ∀ (v80 : IVec S16 32) (k1_hw59 : k1_chk59 v80), ∀ a x, ((![v80] : Fin 1 → IVec S16 32) a x).toNat < S51200.size a := fun v80 k1_hw59 => k1_hw59

def k1_chk60 (v83 : IVec S16 32) : Prop :=
  (∀ a x, ((![v83] : Fin 1 → IVec S16 32) a x).toNat < S51200.size a)
instance k1_chk60.dec : ∀ (v83 : IVec S16 32), Decidable (k1_chk60 v83) := fun v83 => decidable_of_iff' _ (Iff.of_eq (k1_chk60.eq_1 v83))
theorem k1_idx60_inb : ∀ (v83 : IVec S16 32) (k1_hw60 : k1_chk60 v83), ∀ a x, ((![v83] : Fin 1 → IVec S16 32) a x).toNat < S51200.size a := fun v83 k1_hw60 => k1_hw60

def k1_chk61 (v86 : IVec S16 32) : Prop :=
  (∀ a x, ((![v86] : Fin 1 → IVec S16 32) a x).toNat < S51200.size a)
instance k1_chk61.dec : ∀ (v86 : IVec S16 32), Decidable (k1_chk61 v86) := fun v86 => decidable_of_iff' _ (Iff.of_eq (k1_chk61.eq_1 v86))
theorem k1_idx61_inb : ∀ (v86 : IVec S16 32) (k1_hw61 : k1_chk61 v86), ∀ a x, ((![v86] : Fin 1 → IVec S16 32) a x).toNat < S51200.size a := fun v86 k1_hw61 => k1_hw61

def k1_chk62 (v42 : IVec S16 32) : Prop :=
  (∀ a x, ((![v42] : Fin 1 → IVec S16 32) a x).toNat < S12400.size a)
instance k1_chk62.dec : ∀ (v42 : IVec S16 32), Decidable (k1_chk62 v42) := fun v42 => decidable_of_iff' _ (Iff.of_eq (k1_chk62.eq_1 v42))
theorem k1_idx62_inb : ∀ (v42 : IVec S16 32) (k1_hw62 : k1_chk62 v42), ∀ a x, ((![v42] : Fin 1 → IVec S16 32) a x).toNat < S12400.size a := fun v42 k1_hw62 => k1_hw62

def k1_chk63 (v149 : IVec S16 32) : Prop :=
  (∀ a x, ((![v149] : Fin 1 → IVec S16 32) a x).toNat < S12400.size a)
instance k1_chk63.dec : ∀ (v149 : IVec S16 32), Decidable (k1_chk63 v149) := fun v149 => decidable_of_iff' _ (Iff.of_eq (k1_chk63.eq_1 v149))
theorem k1_idx63_inb : ∀ (v149 : IVec S16 32) (k1_hw63 : k1_chk63 v149), ∀ a x, ((![v149] : Fin 1 → IVec S16 32) a x).toNat < S12400.size a := fun v149 k1_hw63 => k1_hw63

def k1_chk64 (v152 : IVec S16 32) : Prop :=
  (∀ a x, ((![v152] : Fin 1 → IVec S16 32) a x).toNat < S12400.size a)
instance k1_chk64.dec : ∀ (v152 : IVec S16 32), Decidable (k1_chk64 v152) := fun v152 => decidable_of_iff' _ (Iff.of_eq (k1_chk64.eq_1 v152))
theorem k1_idx64_inb : ∀ (v152 : IVec S16 32) (k1_hw64 : k1_chk64 v152), ∀ a x, ((![v152] : Fin 1 → IVec S16 32) a x).toNat < S12400.size a := fun v152 k1_hw64 => k1_hw64

def k1_chk65 (v155 : IVec S16 32) : Prop :=
  (∀ a x, ((![v155] : Fin 1 → IVec S16 32) a x).toNat < S12400.size a)
instance k1_chk65.dec : ∀ (v155 : IVec S16 32), Decidable (k1_chk65 v155) := fun v155 => decidable_of_iff' _ (Iff.of_eq (k1_chk65.eq_1 v155))
theorem k1_idx65_inb : ∀ (v155 : IVec S16 32) (k1_hw65 : k1_chk65 v155), ∀ a x, ((![v155] : Fin 1 → IVec S16 32) a x).toNat < S12400.size a := fun v155 k1_hw65 => k1_hw65

def k1_chk66 (v158 : IVec S16 32) : Prop :=
  (∀ a x, ((![v158] : Fin 1 → IVec S16 32) a x).toNat < S12400.size a)
instance k1_chk66.dec : ∀ (v158 : IVec S16 32), Decidable (k1_chk66 v158) := fun v158 => decidable_of_iff' _ (Iff.of_eq (k1_chk66.eq_1 v158))
theorem k1_idx66_inb : ∀ (v158 : IVec S16 32) (k1_hw66 : k1_chk66 v158), ∀ a x, ((![v158] : Fin 1 → IVec S16 32) a x).toNat < S12400.size a := fun v158 k1_hw66 => k1_hw66

def k1_chk67 (v161 : IVec S16 32) : Prop :=
  (∀ a x, ((![v161] : Fin 1 → IVec S16 32) a x).toNat < S12400.size a)
instance k1_chk67.dec : ∀ (v161 : IVec S16 32), Decidable (k1_chk67 v161) := fun v161 => decidable_of_iff' _ (Iff.of_eq (k1_chk67.eq_1 v161))
theorem k1_idx67_inb : ∀ (v161 : IVec S16 32) (k1_hw67 : k1_chk67 v161), ∀ a x, ((![v161] : Fin 1 → IVec S16 32) a x).toNat < S12400.size a := fun v161 k1_hw67 => k1_hw67

def k1_chk68 (v164 : IVec S16 32) : Prop :=
  (∀ a x, ((![v164] : Fin 1 → IVec S16 32) a x).toNat < S12400.size a)
instance k1_chk68.dec : ∀ (v164 : IVec S16 32), Decidable (k1_chk68 v164) := fun v164 => decidable_of_iff' _ (Iff.of_eq (k1_chk68.eq_1 v164))
theorem k1_idx68_inb : ∀ (v164 : IVec S16 32) (k1_hw68 : k1_chk68 v164), ∀ a x, ((![v164] : Fin 1 → IVec S16 32) a x).toNat < S12400.size a := fun v164 k1_hw68 => k1_hw68

def k1_chk69 (v167 : IVec S16 32) : Prop :=
  (∀ a x, ((![v167] : Fin 1 → IVec S16 32) a x).toNat < S12400.size a)
instance k1_chk69.dec : ∀ (v167 : IVec S16 32), Decidable (k1_chk69 v167) := fun v167 => decidable_of_iff' _ (Iff.of_eq (k1_chk69.eq_1 v167))
theorem k1_idx69_inb : ∀ (v167 : IVec S16 32) (k1_hw69 : k1_chk69 v167), ∀ a x, ((![v167] : Fin 1 → IVec S16 32) a x).toNat < S12400.size a := fun v167 k1_hw69 => k1_hw69

def k1_chk70 (v170 : IVec S16 32) : Prop :=
  (∀ a x, ((![v170] : Fin 1 → IVec S16 32) a x).toNat < S12400.size a)
instance k1_chk70.dec : ∀ (v170 : IVec S16 32), Decidable (k1_chk70 v170) := fun v170 => decidable_of_iff' _ (Iff.of_eq (k1_chk70.eq_1 v170))
theorem k1_idx70_inb : ∀ (v170 : IVec S16 32) (k1_hw70 : k1_chk70 v170), ∀ a x, ((![v170] : Fin 1 → IVec S16 32) a x).toNat < S12400.size a := fun v170 k1_hw70 => k1_hw70

def k1_chk71 (v173 : IVec S16 32) : Prop :=
  (∀ a x, ((![v173] : Fin 1 → IVec S16 32) a x).toNat < S12400.size a)
instance k1_chk71.dec : ∀ (v173 : IVec S16 32), Decidable (k1_chk71 v173) := fun v173 => decidable_of_iff' _ (Iff.of_eq (k1_chk71.eq_1 v173))
theorem k1_idx71_inb : ∀ (v173 : IVec S16 32) (k1_hw71 : k1_chk71 v173), ∀ a x, ((![v173] : Fin 1 → IVec S16 32) a x).toNat < S12400.size a := fun v173 k1_hw71 => k1_hw71

def k1_chk72 (v176 : IVec S16 32) : Prop :=
  (∀ a x, ((![v176] : Fin 1 → IVec S16 32) a x).toNat < S12400.size a)
instance k1_chk72.dec : ∀ (v176 : IVec S16 32), Decidable (k1_chk72 v176) := fun v176 => decidable_of_iff' _ (Iff.of_eq (k1_chk72.eq_1 v176))
theorem k1_idx72_inb : ∀ (v176 : IVec S16 32) (k1_hw72 : k1_chk72 v176), ∀ a x, ((![v176] : Fin 1 → IVec S16 32) a x).toNat < S12400.size a := fun v176 k1_hw72 => k1_hw72

def k1_chk73 (v179 : IVec S16 32) : Prop :=
  (∀ a x, ((![v179] : Fin 1 → IVec S16 32) a x).toNat < S12400.size a)
instance k1_chk73.dec : ∀ (v179 : IVec S16 32), Decidable (k1_chk73 v179) := fun v179 => decidable_of_iff' _ (Iff.of_eq (k1_chk73.eq_1 v179))
theorem k1_idx73_inb : ∀ (v179 : IVec S16 32) (k1_hw73 : k1_chk73 v179), ∀ a x, ((![v179] : Fin 1 → IVec S16 32) a x).toNat < S12400.size a := fun v179 k1_hw73 => k1_hw73

def k1_chk74 (v182 : IVec S16 32) : Prop :=
  (∀ a x, ((![v182] : Fin 1 → IVec S16 32) a x).toNat < S12400.size a)
instance k1_chk74.dec : ∀ (v182 : IVec S16 32), Decidable (k1_chk74 v182) := fun v182 => decidable_of_iff' _ (Iff.of_eq (k1_chk74.eq_1 v182))
theorem k1_idx74_inb : ∀ (v182 : IVec S16 32) (k1_hw74 : k1_chk74 v182), ∀ a x, ((![v182] : Fin 1 → IVec S16 32) a x).toNat < S12400.size a := fun v182 k1_hw74 => k1_hw74

def k1_chk75 (v185 : IVec S16 32) : Prop :=
  (∀ a x, ((![v185] : Fin 1 → IVec S16 32) a x).toNat < S12400.size a)
instance k1_chk75.dec : ∀ (v185 : IVec S16 32), Decidable (k1_chk75 v185) := fun v185 => decidable_of_iff' _ (Iff.of_eq (k1_chk75.eq_1 v185))
theorem k1_idx75_inb : ∀ (v185 : IVec S16 32) (k1_hw75 : k1_chk75 v185), ∀ a x, ((![v185] : Fin 1 → IVec S16 32) a x).toNat < S12400.size a := fun v185 k1_hw75 => k1_hw75

def k1_chk76 (v188 : IVec S16 32) : Prop :=
  (∀ a x, ((![v188] : Fin 1 → IVec S16 32) a x).toNat < S12400.size a)
instance k1_chk76.dec : ∀ (v188 : IVec S16 32), Decidable (k1_chk76 v188) := fun v188 => decidable_of_iff' _ (Iff.of_eq (k1_chk76.eq_1 v188))
theorem k1_idx76_inb : ∀ (v188 : IVec S16 32) (k1_hw76 : k1_chk76 v188), ∀ a x, ((![v188] : Fin 1 → IVec S16 32) a x).toNat < S12400.size a := fun v188 k1_hw76 => k1_hw76

def k1_chk77 (v191 : IVec S16 32) : Prop :=
  (∀ a x, ((![v191] : Fin 1 → IVec S16 32) a x).toNat < S12400.size a)
instance k1_chk77.dec : ∀ (v191 : IVec S16 32), Decidable (k1_chk77 v191) := fun v191 => decidable_of_iff' _ (Iff.of_eq (k1_chk77.eq_1 v191))
theorem k1_idx77_inb : ∀ (v191 : IVec S16 32) (k1_hw77 : k1_chk77 v191), ∀ a x, ((![v191] : Fin 1 → IVec S16 32) a x).toNat < S12400.size a := fun v191 k1_hw77 => k1_hw77

def k1_chk78 (v194 : IVec S16 32) : Prop :=
  (∀ a x, ((![v194] : Fin 1 → IVec S16 32) a x).toNat < S12400.size a)
instance k1_chk78.dec : ∀ (v194 : IVec S16 32), Decidable (k1_chk78 v194) := fun v194 => decidable_of_iff' _ (Iff.of_eq (k1_chk78.eq_1 v194))
theorem k1_idx78_inb : ∀ (v194 : IVec S16 32) (k1_hw78 : k1_chk78 v194), ∀ a x, ((![v194] : Fin 1 → IVec S16 32) a x).toNat < S12400.size a := fun v194 k1_hw78 => k1_hw78

def k1_chk79 (v197 : IVec S16 32) : Prop :=
  (∀ a x, ((![v197] : Fin 1 → IVec S16 32) a x).toNat < S12400.size a)
instance k1_chk79.dec : ∀ (v197 : IVec S16 32), Decidable (k1_chk79 v197) := fun v197 => decidable_of_iff' _ (Iff.of_eq (k1_chk79.eq_1 v197))
theorem k1_idx79_inb : ∀ (v197 : IVec S16 32) (k1_hw79 : k1_chk79 v197), ∀ a x, ((![v197] : Fin 1 → IVec S16 32) a x).toNat < S12400.size a := fun v197 k1_hw79 => k1_hw79

def k1_chk80 (v200 : IVec S16 32) : Prop :=
  (∀ a x, ((![v200] : Fin 1 → IVec S16 32) a x).toNat < S12400.size a)
instance k1_chk80.dec : ∀ (v200 : IVec S16 32), Decidable (k1_chk80 v200) := fun v200 => decidable_of_iff' _ (Iff.of_eq (k1_chk80.eq_1 v200))
theorem k1_idx80_inb : ∀ (v200 : IVec S16 32) (k1_hw80 : k1_chk80 v200), ∀ a x, ((![v200] : Fin 1 → IVec S16 32) a x).toNat < S12400.size a := fun v200 k1_hw80 => k1_hw80

def k1_chk81 (v203 : IVec S16 32) : Prop :=
  (∀ a x, ((![v203] : Fin 1 → IVec S16 32) a x).toNat < S12400.size a)
instance k1_chk81.dec : ∀ (v203 : IVec S16 32), Decidable (k1_chk81 v203) := fun v203 => decidable_of_iff' _ (Iff.of_eq (k1_chk81.eq_1 v203))
theorem k1_idx81_inb : ∀ (v203 : IVec S16 32) (k1_hw81 : k1_chk81 v203), ∀ a x, ((![v203] : Fin 1 → IVec S16 32) a x).toNat < S12400.size a := fun v203 k1_hw81 => k1_hw81

def k1_chk82 (v206 : IVec S16 32) : Prop :=
  (∀ a x, ((![v206] : Fin 1 → IVec S16 32) a x).toNat < S12400.size a)
instance k1_chk82.dec : ∀ (v206 : IVec S16 32), Decidable (k1_chk82 v206) := fun v206 => decidable_of_iff' _ (Iff.of_eq (k1_chk82.eq_1 v206))
theorem k1_idx82_inb : ∀ (v206 : IVec S16 32) (k1_hw82 : k1_chk82 v206), ∀ a x, ((![v206] : Fin 1 → IVec S16 32) a x).toNat < S12400.size a := fun v206 k1_hw82 => k1_hw82

def k1_chk83 (v209 : IVec S16 32) : Prop :=
  (∀ a x, ((![v209] : Fin 1 → IVec S16 32) a x).toNat < S12400.size a)
instance k1_chk83.dec : ∀ (v209 : IVec S16 32), Decidable (k1_chk83 v209) := fun v209 => decidable_of_iff' _ (Iff.of_eq (k1_chk83.eq_1 v209))
theorem k1_idx83_inb : ∀ (v209 : IVec S16 32) (k1_hw83 : k1_chk83 v209), ∀ a x, ((![v209] : Fin 1 → IVec S16 32) a x).toNat < S12400.size a := fun v209 k1_hw83 => k1_hw83

def k1_chk84 (v212 : IVec S16 32) : Prop :=
  (∀ a x, ((![v212] : Fin 1 → IVec S16 32) a x).toNat < S12400.size a)
instance k1_chk84.dec : ∀ (v212 : IVec S16 32), Decidable (k1_chk84 v212) := fun v212 => decidable_of_iff' _ (Iff.of_eq (k1_chk84.eq_1 v212))
theorem k1_idx84_inb : ∀ (v212 : IVec S16 32) (k1_hw84 : k1_chk84 v212), ∀ a x, ((![v212] : Fin 1 → IVec S16 32) a x).toNat < S12400.size a := fun v212 k1_hw84 => k1_hw84

def k1_chk85 (v215 : IVec S16 32) : Prop :=
  (∀ a x, ((![v215] : Fin 1 → IVec S16 32) a x).toNat < S12400.size a)
instance k1_chk85.dec : ∀ (v215 : IVec S16 32), Decidable (k1_chk85 v215) := fun v215 => decidable_of_iff' _ (Iff.of_eq (k1_chk85.eq_1 v215))
theorem k1_idx85_inb : ∀ (v215 : IVec S16 32) (k1_hw85 : k1_chk85 v215), ∀ a x, ((![v215] : Fin 1 → IVec S16 32) a x).toNat < S12400.size a := fun v215 k1_hw85 => k1_hw85

def k1_chk86 (v218 : IVec S16 32) : Prop :=
  (∀ a x, ((![v218] : Fin 1 → IVec S16 32) a x).toNat < S12400.size a)
instance k1_chk86.dec : ∀ (v218 : IVec S16 32), Decidable (k1_chk86 v218) := fun v218 => decidable_of_iff' _ (Iff.of_eq (k1_chk86.eq_1 v218))
theorem k1_idx86_inb : ∀ (v218 : IVec S16 32) (k1_hw86 : k1_chk86 v218), ∀ a x, ((![v218] : Fin 1 → IVec S16 32) a x).toNat < S12400.size a := fun v218 k1_hw86 => k1_hw86

def k1_chk87 (v221 : IVec S16 32) : Prop :=
  (∀ a x, ((![v221] : Fin 1 → IVec S16 32) a x).toNat < S12400.size a)
instance k1_chk87.dec : ∀ (v221 : IVec S16 32), Decidable (k1_chk87 v221) := fun v221 => decidable_of_iff' _ (Iff.of_eq (k1_chk87.eq_1 v221))
theorem k1_idx87_inb : ∀ (v221 : IVec S16 32) (k1_hw87 : k1_chk87 v221), ∀ a x, ((![v221] : Fin 1 → IVec S16 32) a x).toNat < S12400.size a := fun v221 k1_hw87 => k1_hw87

def k1_chk88 (v224 : IVec S16 32) : Prop :=
  (∀ a x, ((![v224] : Fin 1 → IVec S16 32) a x).toNat < S12400.size a)
instance k1_chk88.dec : ∀ (v224 : IVec S16 32), Decidable (k1_chk88 v224) := fun v224 => decidable_of_iff' _ (Iff.of_eq (k1_chk88.eq_1 v224))
theorem k1_idx88_inb : ∀ (v224 : IVec S16 32) (k1_hw88 : k1_chk88 v224), ∀ a x, ((![v224] : Fin 1 → IVec S16 32) a x).toNat < S12400.size a := fun v224 k1_hw88 => k1_hw88

def k1_chk89 (v227 : IVec S16 32) : Prop :=
  (∀ a x, ((![v227] : Fin 1 → IVec S16 32) a x).toNat < S12400.size a)
instance k1_chk89.dec : ∀ (v227 : IVec S16 32), Decidable (k1_chk89 v227) := fun v227 => decidable_of_iff' _ (Iff.of_eq (k1_chk89.eq_1 v227))
theorem k1_idx89_inb : ∀ (v227 : IVec S16 32) (k1_hw89 : k1_chk89 v227), ∀ a x, ((![v227] : Fin 1 → IVec S16 32) a x).toNat < S12400.size a := fun v227 k1_hw89 => k1_hw89

def k1_chk90 (v230 : IVec S16 32) : Prop :=
  (∀ a x, ((![v230] : Fin 1 → IVec S16 32) a x).toNat < S12400.size a)
instance k1_chk90.dec : ∀ (v230 : IVec S16 32), Decidable (k1_chk90 v230) := fun v230 => decidable_of_iff' _ (Iff.of_eq (k1_chk90.eq_1 v230))
theorem k1_idx90_inb : ∀ (v230 : IVec S16 32) (k1_hw90 : k1_chk90 v230), ∀ a x, ((![v230] : Fin 1 → IVec S16 32) a x).toNat < S12400.size a := fun v230 k1_hw90 => k1_hw90

def k1_chk91 (v233 : IVec S16 32) : Prop :=
  (∀ a x, ((![v233] : Fin 1 → IVec S16 32) a x).toNat < S12400.size a)
instance k1_chk91.dec : ∀ (v233 : IVec S16 32), Decidable (k1_chk91 v233) := fun v233 => decidable_of_iff' _ (Iff.of_eq (k1_chk91.eq_1 v233))
theorem k1_idx91_inb : ∀ (v233 : IVec S16 32) (k1_hw91 : k1_chk91 v233), ∀ a x, ((![v233] : Fin 1 → IVec S16 32) a x).toNat < S12400.size a := fun v233 k1_hw91 => k1_hw91

def k1_chk92 (v236 : IVec S16 32) : Prop :=
  (∀ a x, ((![v236] : Fin 1 → IVec S16 32) a x).toNat < S12400.size a)
instance k1_chk92.dec : ∀ (v236 : IVec S16 32), Decidable (k1_chk92 v236) := fun v236 => decidable_of_iff' _ (Iff.of_eq (k1_chk92.eq_1 v236))
theorem k1_idx92_inb : ∀ (v236 : IVec S16 32) (k1_hw92 : k1_chk92 v236), ∀ a x, ((![v236] : Fin 1 → IVec S16 32) a x).toNat < S12400.size a := fun v236 k1_hw92 => k1_hw92
def k1_off4 (i : grid1.Coords) (k1_t3 : Fin (k1_t3_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c125_i32 : BitVec 32 := 125#32
  let v2 : BitVec 32 := Scalar.subi c125_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg6 : BitVec 32 := Scf.iv v26 c1_i32_10 k1_t3
  let c32_i32_11 : BitVec 32 := 32#32
  let v27 : BitVec 32 := Scalar.muli arg6 c32_i32_11
  let v28 : BitVec 32 := Scalar.addi v1 v27
  let c0_i32_17_r3 : BitVec 32 := 0#32
  ![v28.toNat, 0]
abbrev grid2 : Pipeline.Grid := ⟨1, ![5], ![false]⟩

def cc2_transform_0 (i : grid2.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 16], ![false, false]⟩

@[reducible] def k3_t1_loop (i : grid3.Coords) : Scf.Loop 32 :=
  let c0_i32_7 : BitVec 32 := 0#32
  let c125_i32 : BitVec 32 := 125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c125_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_9 : BitVec 32 := 1#32
  ⟨c0_i32_7, v26, c1_i32_9⟩
def k3_off1 (i : grid3.Coords) (k3_t1 : Fin (k3_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_9 : BitVec 32 := 1#32
  let arg6 : BitVec 32 := Scf.iv c0_i32_7 c1_i32_9 k3_t1
  let c32_i32_11 : BitVec 32 := 32#32
  let v27 : BitVec 32 := Scalar.muli arg6 c32_i32_11
  let v28 : BitVec 32 := Scalar.addi v1 v27
  let c400_i32 : BitVec 32 := 400#32
  let v29 : BitVec 32 := Scalar.muli v28 c400_i32
  let c8_i32 : BitVec 32 := 8#32
  let v30 : BitVec 32 := Scalar.muli v29 c8_i32
  let c16_i32 : BitVec 32 := 16#32
  let v31 : BitVec 32 := Scalar.muli v30 c16_i32
  ![v31.toNat]
@[reducible] def k3_t2_loop : Scf.Loop 32 :=
  let c0_i32_14 : BitVec 32 := 0#32
  let c25_i32 : BitVec 32 := 25#32
  let v35 : BitVec 32 := Scalar.addi c0_i32_14 c25_i32
  let c1_i32_15 : BitVec 32 := 1#32
  ⟨c0_i32_14, v35, c1_i32_15⟩

def k3_chk1 (v44 : IVec S16 32) : Prop :=
  (∀ a x, ((![v44] : Fin 1 → IVec S16 32) a x).toNat < S51200.size a)
instance k3_chk1.dec : ∀ (v44 : IVec S16 32), Decidable (k3_chk1 v44) := fun v44 => decidable_of_iff' _ (Iff.of_eq (k3_chk1.eq_1 v44))
theorem k3_idx1_inb : ∀ (v44 : IVec S16 32) (k3_hw1 : k3_chk1 v44), ∀ a x, ((![v44] : Fin 1 → IVec S16 32) a x).toNat < S51200.size a := fun v44 k3_hw1 => k3_hw1

def k3_chk2 (v47 : IVec S16 32) : Prop :=
  (∀ a x, ((![v47] : Fin 1 → IVec S16 32) a x).toNat < S51200.size a)
instance k3_chk2.dec : ∀ (v47 : IVec S16 32), Decidable (k3_chk2 v47) := fun v47 => decidable_of_iff' _ (Iff.of_eq (k3_chk2.eq_1 v47))
theorem k3_idx2_inb : ∀ (v47 : IVec S16 32) (k3_hw2 : k3_chk2 v47), ∀ a x, ((![v47] : Fin 1 → IVec S16 32) a x).toNat < S51200.size a := fun v47 k3_hw2 => k3_hw2

def k3_chk3 (v50 : IVec S16 32) : Prop :=
  (∀ a x, ((![v50] : Fin 1 → IVec S16 32) a x).toNat < S51200.size a)
instance k3_chk3.dec : ∀ (v50 : IVec S16 32), Decidable (k3_chk3 v50) := fun v50 => decidable_of_iff' _ (Iff.of_eq (k3_chk3.eq_1 v50))
theorem k3_idx3_inb : ∀ (v50 : IVec S16 32) (k3_hw3 : k3_chk3 v50), ∀ a x, ((![v50] : Fin 1 → IVec S16 32) a x).toNat < S51200.size a := fun v50 k3_hw3 => k3_hw3

def k3_chk4 (v53 : IVec S16 32) : Prop :=
  (∀ a x, ((![v53] : Fin 1 → IVec S16 32) a x).toNat < S51200.size a)
instance k3_chk4.dec : ∀ (v53 : IVec S16 32), Decidable (k3_chk4 v53) := fun v53 => decidable_of_iff' _ (Iff.of_eq (k3_chk4.eq_1 v53))
theorem k3_idx4_inb : ∀ (v53 : IVec S16 32) (k3_hw4 : k3_chk4 v53), ∀ a x, ((![v53] : Fin 1 → IVec S16 32) a x).toNat < S51200.size a := fun v53 k3_hw4 => k3_hw4

def k3_chk5 (v56 : IVec S16 32) : Prop :=
  (∀ a x, ((![v56] : Fin 1 → IVec S16 32) a x).toNat < S51200.size a)
instance k3_chk5.dec : ∀ (v56 : IVec S16 32), Decidable (k3_chk5 v56) := fun v56 => decidable_of_iff' _ (Iff.of_eq (k3_chk5.eq_1 v56))
theorem k3_idx5_inb : ∀ (v56 : IVec S16 32) (k3_hw5 : k3_chk5 v56), ∀ a x, ((![v56] : Fin 1 → IVec S16 32) a x).toNat < S51200.size a := fun v56 k3_hw5 => k3_hw5

def k3_chk6 (v59 : IVec S16 32) : Prop :=
  (∀ a x, ((![v59] : Fin 1 → IVec S16 32) a x).toNat < S51200.size a)
instance k3_chk6.dec : ∀ (v59 : IVec S16 32), Decidable (k3_chk6 v59) := fun v59 => decidable_of_iff' _ (Iff.of_eq (k3_chk6.eq_1 v59))
theorem k3_idx6_inb : ∀ (v59 : IVec S16 32) (k3_hw6 : k3_chk6 v59), ∀ a x, ((![v59] : Fin 1 → IVec S16 32) a x).toNat < S51200.size a := fun v59 k3_hw6 => k3_hw6

def k3_chk7 (v62 : IVec S16 32) : Prop :=
  (∀ a x, ((![v62] : Fin 1 → IVec S16 32) a x).toNat < S51200.size a)
instance k3_chk7.dec : ∀ (v62 : IVec S16 32), Decidable (k3_chk7 v62) := fun v62 => decidable_of_iff' _ (Iff.of_eq (k3_chk7.eq_1 v62))
theorem k3_idx7_inb : ∀ (v62 : IVec S16 32) (k3_hw7 : k3_chk7 v62), ∀ a x, ((![v62] : Fin 1 → IVec S16 32) a x).toNat < S51200.size a := fun v62 k3_hw7 => k3_hw7

def k3_chk8 (v65 : IVec S16 32) : Prop :=
  (∀ a x, ((![v65] : Fin 1 → IVec S16 32) a x).toNat < S51200.size a)
instance k3_chk8.dec : ∀ (v65 : IVec S16 32), Decidable (k3_chk8 v65) := fun v65 => decidable_of_iff' _ (Iff.of_eq (k3_chk8.eq_1 v65))
theorem k3_idx8_inb : ∀ (v65 : IVec S16 32) (k3_hw8 : k3_chk8 v65), ∀ a x, ((![v65] : Fin 1 → IVec S16 32) a x).toNat < S51200.size a := fun v65 k3_hw8 => k3_hw8

def k3_chk9 (v68 : IVec S16 32) : Prop :=
  (∀ a x, ((![v68] : Fin 1 → IVec S16 32) a x).toNat < S51200.size a)
instance k3_chk9.dec : ∀ (v68 : IVec S16 32), Decidable (k3_chk9 v68) := fun v68 => decidable_of_iff' _ (Iff.of_eq (k3_chk9.eq_1 v68))
theorem k3_idx9_inb : ∀ (v68 : IVec S16 32) (k3_hw9 : k3_chk9 v68), ∀ a x, ((![v68] : Fin 1 → IVec S16 32) a x).toNat < S51200.size a := fun v68 k3_hw9 => k3_hw9

def k3_chk10 (v71 : IVec S16 32) : Prop :=
  (∀ a x, ((![v71] : Fin 1 → IVec S16 32) a x).toNat < S51200.size a)
instance k3_chk10.dec : ∀ (v71 : IVec S16 32), Decidable (k3_chk10 v71) := fun v71 => decidable_of_iff' _ (Iff.of_eq (k3_chk10.eq_1 v71))
theorem k3_idx10_inb : ∀ (v71 : IVec S16 32) (k3_hw10 : k3_chk10 v71), ∀ a x, ((![v71] : Fin 1 → IVec S16 32) a x).toNat < S51200.size a := fun v71 k3_hw10 => k3_hw10

def k3_chk11 (v74 : IVec S16 32) : Prop :=
  (∀ a x, ((![v74] : Fin 1 → IVec S16 32) a x).toNat < S51200.size a)
instance k3_chk11.dec : ∀ (v74 : IVec S16 32), Decidable (k3_chk11 v74) := fun v74 => decidable_of_iff' _ (Iff.of_eq (k3_chk11.eq_1 v74))
theorem k3_idx11_inb : ∀ (v74 : IVec S16 32) (k3_hw11 : k3_chk11 v74), ∀ a x, ((![v74] : Fin 1 → IVec S16 32) a x).toNat < S51200.size a := fun v74 k3_hw11 => k3_hw11

def k3_chk12 (v77 : IVec S16 32) : Prop :=
  (∀ a x, ((![v77] : Fin 1 → IVec S16 32) a x).toNat < S51200.size a)
instance k3_chk12.dec : ∀ (v77 : IVec S16 32), Decidable (k3_chk12 v77) := fun v77 => decidable_of_iff' _ (Iff.of_eq (k3_chk12.eq_1 v77))
theorem k3_idx12_inb : ∀ (v77 : IVec S16 32) (k3_hw12 : k3_chk12 v77), ∀ a x, ((![v77] : Fin 1 → IVec S16 32) a x).toNat < S51200.size a := fun v77 k3_hw12 => k3_hw12

def k3_chk13 (v80 : IVec S16 32) : Prop :=
  (∀ a x, ((![v80] : Fin 1 → IVec S16 32) a x).toNat < S51200.size a)
instance k3_chk13.dec : ∀ (v80 : IVec S16 32), Decidable (k3_chk13 v80) := fun v80 => decidable_of_iff' _ (Iff.of_eq (k3_chk13.eq_1 v80))
theorem k3_idx13_inb : ∀ (v80 : IVec S16 32) (k3_hw13 : k3_chk13 v80), ∀ a x, ((![v80] : Fin 1 → IVec S16 32) a x).toNat < S51200.size a := fun v80 k3_hw13 => k3_hw13

def k3_chk14 (v83 : IVec S16 32) : Prop :=
  (∀ a x, ((![v83] : Fin 1 → IVec S16 32) a x).toNat < S51200.size a)
instance k3_chk14.dec : ∀ (v83 : IVec S16 32), Decidable (k3_chk14 v83) := fun v83 => decidable_of_iff' _ (Iff.of_eq (k3_chk14.eq_1 v83))
theorem k3_idx14_inb : ∀ (v83 : IVec S16 32) (k3_hw14 : k3_chk14 v83), ∀ a x, ((![v83] : Fin 1 → IVec S16 32) a x).toNat < S51200.size a := fun v83 k3_hw14 => k3_hw14

def k3_chk15 (v86 : IVec S16 32) : Prop :=
  (∀ a x, ((![v86] : Fin 1 → IVec S16 32) a x).toNat < S51200.size a)
instance k3_chk15.dec : ∀ (v86 : IVec S16 32), Decidable (k3_chk15 v86) := fun v86 => decidable_of_iff' _ (Iff.of_eq (k3_chk15.eq_1 v86))
theorem k3_idx15_inb : ∀ (v86 : IVec S16 32) (k3_hw15 : k3_chk15 v86), ∀ a x, ((![v86] : Fin 1 → IVec S16 32) a x).toNat < S51200.size a := fun v86 k3_hw15 => k3_hw15

def k3_chk16 (v42 : IVec S16 32) : Prop :=
  (∀ a x, ((![v42] : Fin 1 → IVec S16 32) a x).toNat < S12400.size a)
instance k3_chk16.dec : ∀ (v42 : IVec S16 32), Decidable (k3_chk16 v42) := fun v42 => decidable_of_iff' _ (Iff.of_eq (k3_chk16.eq_1 v42))
theorem k3_idx16_inb : ∀ (v42 : IVec S16 32) (k3_hw16 : k3_chk16 v42), ∀ a x, ((![v42] : Fin 1 → IVec S16 32) a x).toNat < S12400.size a := fun v42 k3_hw16 => k3_hw16

def k3_chk17 (v149 : IVec S16 32) : Prop :=
  (∀ a x, ((![v149] : Fin 1 → IVec S16 32) a x).toNat < S12400.size a)
instance k3_chk17.dec : ∀ (v149 : IVec S16 32), Decidable (k3_chk17 v149) := fun v149 => decidable_of_iff' _ (Iff.of_eq (k3_chk17.eq_1 v149))
theorem k3_idx17_inb : ∀ (v149 : IVec S16 32) (k3_hw17 : k3_chk17 v149), ∀ a x, ((![v149] : Fin 1 → IVec S16 32) a x).toNat < S12400.size a := fun v149 k3_hw17 => k3_hw17

def k3_chk18 (v152 : IVec S16 32) : Prop :=
  (∀ a x, ((![v152] : Fin 1 → IVec S16 32) a x).toNat < S12400.size a)
instance k3_chk18.dec : ∀ (v152 : IVec S16 32), Decidable (k3_chk18 v152) := fun v152 => decidable_of_iff' _ (Iff.of_eq (k3_chk18.eq_1 v152))
theorem k3_idx18_inb : ∀ (v152 : IVec S16 32) (k3_hw18 : k3_chk18 v152), ∀ a x, ((![v152] : Fin 1 → IVec S16 32) a x).toNat < S12400.size a := fun v152 k3_hw18 => k3_hw18

def k3_chk19 (v155 : IVec S16 32) : Prop :=
  (∀ a x, ((![v155] : Fin 1 → IVec S16 32) a x).toNat < S12400.size a)
instance k3_chk19.dec : ∀ (v155 : IVec S16 32), Decidable (k3_chk19 v155) := fun v155 => decidable_of_iff' _ (Iff.of_eq (k3_chk19.eq_1 v155))
theorem k3_idx19_inb : ∀ (v155 : IVec S16 32) (k3_hw19 : k3_chk19 v155), ∀ a x, ((![v155] : Fin 1 → IVec S16 32) a x).toNat < S12400.size a := fun v155 k3_hw19 => k3_hw19

def k3_chk20 (v158 : IVec S16 32) : Prop :=
  (∀ a x, ((![v158] : Fin 1 → IVec S16 32) a x).toNat < S12400.size a)
instance k3_chk20.dec : ∀ (v158 : IVec S16 32), Decidable (k3_chk20 v158) := fun v158 => decidable_of_iff' _ (Iff.of_eq (k3_chk20.eq_1 v158))
theorem k3_idx20_inb : ∀ (v158 : IVec S16 32) (k3_hw20 : k3_chk20 v158), ∀ a x, ((![v158] : Fin 1 → IVec S16 32) a x).toNat < S12400.size a := fun v158 k3_hw20 => k3_hw20

def k3_chk21 (v161 : IVec S16 32) : Prop :=
  (∀ a x, ((![v161] : Fin 1 → IVec S16 32) a x).toNat < S12400.size a)
instance k3_chk21.dec : ∀ (v161 : IVec S16 32), Decidable (k3_chk21 v161) := fun v161 => decidable_of_iff' _ (Iff.of_eq (k3_chk21.eq_1 v161))
theorem k3_idx21_inb : ∀ (v161 : IVec S16 32) (k3_hw21 : k3_chk21 v161), ∀ a x, ((![v161] : Fin 1 → IVec S16 32) a x).toNat < S12400.size a := fun v161 k3_hw21 => k3_hw21

def k3_chk22 (v164 : IVec S16 32) : Prop :=
  (∀ a x, ((![v164] : Fin 1 → IVec S16 32) a x).toNat < S12400.size a)
instance k3_chk22.dec : ∀ (v164 : IVec S16 32), Decidable (k3_chk22 v164) := fun v164 => decidable_of_iff' _ (Iff.of_eq (k3_chk22.eq_1 v164))
theorem k3_idx22_inb : ∀ (v164 : IVec S16 32) (k3_hw22 : k3_chk22 v164), ∀ a x, ((![v164] : Fin 1 → IVec S16 32) a x).toNat < S12400.size a := fun v164 k3_hw22 => k3_hw22

def k3_chk23 (v167 : IVec S16 32) : Prop :=
  (∀ a x, ((![v167] : Fin 1 → IVec S16 32) a x).toNat < S12400.size a)
instance k3_chk23.dec : ∀ (v167 : IVec S16 32), Decidable (k3_chk23 v167) := fun v167 => decidable_of_iff' _ (Iff.of_eq (k3_chk23.eq_1 v167))
theorem k3_idx23_inb : ∀ (v167 : IVec S16 32) (k3_hw23 : k3_chk23 v167), ∀ a x, ((![v167] : Fin 1 → IVec S16 32) a x).toNat < S12400.size a := fun v167 k3_hw23 => k3_hw23

def k3_chk24 (v170 : IVec S16 32) : Prop :=
  (∀ a x, ((![v170] : Fin 1 → IVec S16 32) a x).toNat < S12400.size a)
instance k3_chk24.dec : ∀ (v170 : IVec S16 32), Decidable (k3_chk24 v170) := fun v170 => decidable_of_iff' _ (Iff.of_eq (k3_chk24.eq_1 v170))
theorem k3_idx24_inb : ∀ (v170 : IVec S16 32) (k3_hw24 : k3_chk24 v170), ∀ a x, ((![v170] : Fin 1 → IVec S16 32) a x).toNat < S12400.size a := fun v170 k3_hw24 => k3_hw24

def k3_chk25 (v173 : IVec S16 32) : Prop :=
  (∀ a x, ((![v173] : Fin 1 → IVec S16 32) a x).toNat < S12400.size a)
instance k3_chk25.dec : ∀ (v173 : IVec S16 32), Decidable (k3_chk25 v173) := fun v173 => decidable_of_iff' _ (Iff.of_eq (k3_chk25.eq_1 v173))
theorem k3_idx25_inb : ∀ (v173 : IVec S16 32) (k3_hw25 : k3_chk25 v173), ∀ a x, ((![v173] : Fin 1 → IVec S16 32) a x).toNat < S12400.size a := fun v173 k3_hw25 => k3_hw25

def k3_chk26 (v176 : IVec S16 32) : Prop :=
  (∀ a x, ((![v176] : Fin 1 → IVec S16 32) a x).toNat < S12400.size a)
instance k3_chk26.dec : ∀ (v176 : IVec S16 32), Decidable (k3_chk26 v176) := fun v176 => decidable_of_iff' _ (Iff.of_eq (k3_chk26.eq_1 v176))
theorem k3_idx26_inb : ∀ (v176 : IVec S16 32) (k3_hw26 : k3_chk26 v176), ∀ a x, ((![v176] : Fin 1 → IVec S16 32) a x).toNat < S12400.size a := fun v176 k3_hw26 => k3_hw26

def k3_chk27 (v179 : IVec S16 32) : Prop :=
  (∀ a x, ((![v179] : Fin 1 → IVec S16 32) a x).toNat < S12400.size a)
instance k3_chk27.dec : ∀ (v179 : IVec S16 32), Decidable (k3_chk27 v179) := fun v179 => decidable_of_iff' _ (Iff.of_eq (k3_chk27.eq_1 v179))
theorem k3_idx27_inb : ∀ (v179 : IVec S16 32) (k3_hw27 : k3_chk27 v179), ∀ a x, ((![v179] : Fin 1 → IVec S16 32) a x).toNat < S12400.size a := fun v179 k3_hw27 => k3_hw27

def k3_chk28 (v182 : IVec S16 32) : Prop :=
  (∀ a x, ((![v182] : Fin 1 → IVec S16 32) a x).toNat < S12400.size a)
instance k3_chk28.dec : ∀ (v182 : IVec S16 32), Decidable (k3_chk28 v182) := fun v182 => decidable_of_iff' _ (Iff.of_eq (k3_chk28.eq_1 v182))
theorem k3_idx28_inb : ∀ (v182 : IVec S16 32) (k3_hw28 : k3_chk28 v182), ∀ a x, ((![v182] : Fin 1 → IVec S16 32) a x).toNat < S12400.size a := fun v182 k3_hw28 => k3_hw28

def k3_chk29 (v185 : IVec S16 32) : Prop :=
  (∀ a x, ((![v185] : Fin 1 → IVec S16 32) a x).toNat < S12400.size a)
instance k3_chk29.dec : ∀ (v185 : IVec S16 32), Decidable (k3_chk29 v185) := fun v185 => decidable_of_iff' _ (Iff.of_eq (k3_chk29.eq_1 v185))
theorem k3_idx29_inb : ∀ (v185 : IVec S16 32) (k3_hw29 : k3_chk29 v185), ∀ a x, ((![v185] : Fin 1 → IVec S16 32) a x).toNat < S12400.size a := fun v185 k3_hw29 => k3_hw29

def k3_chk30 (v188 : IVec S16 32) : Prop :=
  (∀ a x, ((![v188] : Fin 1 → IVec S16 32) a x).toNat < S12400.size a)
instance k3_chk30.dec : ∀ (v188 : IVec S16 32), Decidable (k3_chk30 v188) := fun v188 => decidable_of_iff' _ (Iff.of_eq (k3_chk30.eq_1 v188))
theorem k3_idx30_inb : ∀ (v188 : IVec S16 32) (k3_hw30 : k3_chk30 v188), ∀ a x, ((![v188] : Fin 1 → IVec S16 32) a x).toNat < S12400.size a := fun v188 k3_hw30 => k3_hw30

def k3_chk31 (v191 : IVec S16 32) : Prop :=
  (∀ a x, ((![v191] : Fin 1 → IVec S16 32) a x).toNat < S12400.size a)
instance k3_chk31.dec : ∀ (v191 : IVec S16 32), Decidable (k3_chk31 v191) := fun v191 => decidable_of_iff' _ (Iff.of_eq (k3_chk31.eq_1 v191))
theorem k3_idx31_inb : ∀ (v191 : IVec S16 32) (k3_hw31 : k3_chk31 v191), ∀ a x, ((![v191] : Fin 1 → IVec S16 32) a x).toNat < S12400.size a := fun v191 k3_hw31 => k3_hw31

def k3_chk32 (v194 : IVec S16 32) : Prop :=
  (∀ a x, ((![v194] : Fin 1 → IVec S16 32) a x).toNat < S12400.size a)
instance k3_chk32.dec : ∀ (v194 : IVec S16 32), Decidable (k3_chk32 v194) := fun v194 => decidable_of_iff' _ (Iff.of_eq (k3_chk32.eq_1 v194))
theorem k3_idx32_inb : ∀ (v194 : IVec S16 32) (k3_hw32 : k3_chk32 v194), ∀ a x, ((![v194] : Fin 1 → IVec S16 32) a x).toNat < S12400.size a := fun v194 k3_hw32 => k3_hw32

def k3_chk33 (v197 : IVec S16 32) : Prop :=
  (∀ a x, ((![v197] : Fin 1 → IVec S16 32) a x).toNat < S12400.size a)
instance k3_chk33.dec : ∀ (v197 : IVec S16 32), Decidable (k3_chk33 v197) := fun v197 => decidable_of_iff' _ (Iff.of_eq (k3_chk33.eq_1 v197))
theorem k3_idx33_inb : ∀ (v197 : IVec S16 32) (k3_hw33 : k3_chk33 v197), ∀ a x, ((![v197] : Fin 1 → IVec S16 32) a x).toNat < S12400.size a := fun v197 k3_hw33 => k3_hw33

def k3_chk34 (v200 : IVec S16 32) : Prop :=
  (∀ a x, ((![v200] : Fin 1 → IVec S16 32) a x).toNat < S12400.size a)
instance k3_chk34.dec : ∀ (v200 : IVec S16 32), Decidable (k3_chk34 v200) := fun v200 => decidable_of_iff' _ (Iff.of_eq (k3_chk34.eq_1 v200))
theorem k3_idx34_inb : ∀ (v200 : IVec S16 32) (k3_hw34 : k3_chk34 v200), ∀ a x, ((![v200] : Fin 1 → IVec S16 32) a x).toNat < S12400.size a := fun v200 k3_hw34 => k3_hw34

def k3_chk35 (v203 : IVec S16 32) : Prop :=
  (∀ a x, ((![v203] : Fin 1 → IVec S16 32) a x).toNat < S12400.size a)
instance k3_chk35.dec : ∀ (v203 : IVec S16 32), Decidable (k3_chk35 v203) := fun v203 => decidable_of_iff' _ (Iff.of_eq (k3_chk35.eq_1 v203))
theorem k3_idx35_inb : ∀ (v203 : IVec S16 32) (k3_hw35 : k3_chk35 v203), ∀ a x, ((![v203] : Fin 1 → IVec S16 32) a x).toNat < S12400.size a := fun v203 k3_hw35 => k3_hw35

def k3_chk36 (v206 : IVec S16 32) : Prop :=
  (∀ a x, ((![v206] : Fin 1 → IVec S16 32) a x).toNat < S12400.size a)
instance k3_chk36.dec : ∀ (v206 : IVec S16 32), Decidable (k3_chk36 v206) := fun v206 => decidable_of_iff' _ (Iff.of_eq (k3_chk36.eq_1 v206))
theorem k3_idx36_inb : ∀ (v206 : IVec S16 32) (k3_hw36 : k3_chk36 v206), ∀ a x, ((![v206] : Fin 1 → IVec S16 32) a x).toNat < S12400.size a := fun v206 k3_hw36 => k3_hw36

def k3_chk37 (v209 : IVec S16 32) : Prop :=
  (∀ a x, ((![v209] : Fin 1 → IVec S16 32) a x).toNat < S12400.size a)
instance k3_chk37.dec : ∀ (v209 : IVec S16 32), Decidable (k3_chk37 v209) := fun v209 => decidable_of_iff' _ (Iff.of_eq (k3_chk37.eq_1 v209))
theorem k3_idx37_inb : ∀ (v209 : IVec S16 32) (k3_hw37 : k3_chk37 v209), ∀ a x, ((![v209] : Fin 1 → IVec S16 32) a x).toNat < S12400.size a := fun v209 k3_hw37 => k3_hw37

def k3_chk38 (v212 : IVec S16 32) : Prop :=
  (∀ a x, ((![v212] : Fin 1 → IVec S16 32) a x).toNat < S12400.size a)
instance k3_chk38.dec : ∀ (v212 : IVec S16 32), Decidable (k3_chk38 v212) := fun v212 => decidable_of_iff' _ (Iff.of_eq (k3_chk38.eq_1 v212))
theorem k3_idx38_inb : ∀ (v212 : IVec S16 32) (k3_hw38 : k3_chk38 v212), ∀ a x, ((![v212] : Fin 1 → IVec S16 32) a x).toNat < S12400.size a := fun v212 k3_hw38 => k3_hw38

def k3_chk39 (v215 : IVec S16 32) : Prop :=
  (∀ a x, ((![v215] : Fin 1 → IVec S16 32) a x).toNat < S12400.size a)
instance k3_chk39.dec : ∀ (v215 : IVec S16 32), Decidable (k3_chk39 v215) := fun v215 => decidable_of_iff' _ (Iff.of_eq (k3_chk39.eq_1 v215))
theorem k3_idx39_inb : ∀ (v215 : IVec S16 32) (k3_hw39 : k3_chk39 v215), ∀ a x, ((![v215] : Fin 1 → IVec S16 32) a x).toNat < S12400.size a := fun v215 k3_hw39 => k3_hw39

def k3_chk40 (v218 : IVec S16 32) : Prop :=
  (∀ a x, ((![v218] : Fin 1 → IVec S16 32) a x).toNat < S12400.size a)
instance k3_chk40.dec : ∀ (v218 : IVec S16 32), Decidable (k3_chk40 v218) := fun v218 => decidable_of_iff' _ (Iff.of_eq (k3_chk40.eq_1 v218))
theorem k3_idx40_inb : ∀ (v218 : IVec S16 32) (k3_hw40 : k3_chk40 v218), ∀ a x, ((![v218] : Fin 1 → IVec S16 32) a x).toNat < S12400.size a := fun v218 k3_hw40 => k3_hw40

def k3_chk41 (v221 : IVec S16 32) : Prop :=
  (∀ a x, ((![v221] : Fin 1 → IVec S16 32) a x).toNat < S12400.size a)
instance k3_chk41.dec : ∀ (v221 : IVec S16 32), Decidable (k3_chk41 v221) := fun v221 => decidable_of_iff' _ (Iff.of_eq (k3_chk41.eq_1 v221))
theorem k3_idx41_inb : ∀ (v221 : IVec S16 32) (k3_hw41 : k3_chk41 v221), ∀ a x, ((![v221] : Fin 1 → IVec S16 32) a x).toNat < S12400.size a := fun v221 k3_hw41 => k3_hw41

def k3_chk42 (v224 : IVec S16 32) : Prop :=
  (∀ a x, ((![v224] : Fin 1 → IVec S16 32) a x).toNat < S12400.size a)
instance k3_chk42.dec : ∀ (v224 : IVec S16 32), Decidable (k3_chk42 v224) := fun v224 => decidable_of_iff' _ (Iff.of_eq (k3_chk42.eq_1 v224))
theorem k3_idx42_inb : ∀ (v224 : IVec S16 32) (k3_hw42 : k3_chk42 v224), ∀ a x, ((![v224] : Fin 1 → IVec S16 32) a x).toNat < S12400.size a := fun v224 k3_hw42 => k3_hw42

def k3_chk43 (v227 : IVec S16 32) : Prop :=
  (∀ a x, ((![v227] : Fin 1 → IVec S16 32) a x).toNat < S12400.size a)
instance k3_chk43.dec : ∀ (v227 : IVec S16 32), Decidable (k3_chk43 v227) := fun v227 => decidable_of_iff' _ (Iff.of_eq (k3_chk43.eq_1 v227))
theorem k3_idx43_inb : ∀ (v227 : IVec S16 32) (k3_hw43 : k3_chk43 v227), ∀ a x, ((![v227] : Fin 1 → IVec S16 32) a x).toNat < S12400.size a := fun v227 k3_hw43 => k3_hw43

def k3_chk44 (v230 : IVec S16 32) : Prop :=
  (∀ a x, ((![v230] : Fin 1 → IVec S16 32) a x).toNat < S12400.size a)
instance k3_chk44.dec : ∀ (v230 : IVec S16 32), Decidable (k3_chk44 v230) := fun v230 => decidable_of_iff' _ (Iff.of_eq (k3_chk44.eq_1 v230))
theorem k3_idx44_inb : ∀ (v230 : IVec S16 32) (k3_hw44 : k3_chk44 v230), ∀ a x, ((![v230] : Fin 1 → IVec S16 32) a x).toNat < S12400.size a := fun v230 k3_hw44 => k3_hw44

def k3_chk45 (v233 : IVec S16 32) : Prop :=
  (∀ a x, ((![v233] : Fin 1 → IVec S16 32) a x).toNat < S12400.size a)
instance k3_chk45.dec : ∀ (v233 : IVec S16 32), Decidable (k3_chk45 v233) := fun v233 => decidable_of_iff' _ (Iff.of_eq (k3_chk45.eq_1 v233))
theorem k3_idx45_inb : ∀ (v233 : IVec S16 32) (k3_hw45 : k3_chk45 v233), ∀ a x, ((![v233] : Fin 1 → IVec S16 32) a x).toNat < S12400.size a := fun v233 k3_hw45 => k3_hw45

def k3_chk46 (v236 : IVec S16 32) : Prop :=
  (∀ a x, ((![v236] : Fin 1 → IVec S16 32) a x).toNat < S12400.size a)
instance k3_chk46.dec : ∀ (v236 : IVec S16 32), Decidable (k3_chk46 v236) := fun v236 => decidable_of_iff' _ (Iff.of_eq (k3_chk46.eq_1 v236))
theorem k3_idx46_inb : ∀ (v236 : IVec S16 32) (k3_hw46 : k3_chk46 v236), ∀ a x, ((![v236] : Fin 1 → IVec S16 32) a x).toNat < S12400.size a := fun v236 k3_hw46 => k3_hw46
def k3_off2 (i : grid3.Coords) (k3_t1 : Fin (k3_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_9 : BitVec 32 := 1#32
  let arg6 : BitVec 32 := Scf.iv c0_i32_7 c1_i32_9 k3_t1
  let c32_i32_11 : BitVec 32 := 32#32
  let v27 : BitVec 32 := Scalar.muli arg6 c32_i32_11
  let v28 : BitVec 32 := Scalar.addi v1 v27
  let c0_i32_17_r1 : BitVec 32 := 0#32
  ![v28.toNat, 0]
@[reducible] def k3_t3_loop (i : grid3.Coords) : Scf.Loop 32 :=
  let c0_i32_7 : BitVec 32 := 0#32
  let c125_i32 : BitVec 32 := 125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c125_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let v23 : BitVec 32 := Scalar.addi c0_i32_7 v22
  let c1_i32_10 : BitVec 32 := 1#32
  ⟨v26, v23, c1_i32_10⟩
def k3_off3 (i : grid3.Coords) (k3_t3 : Fin (k3_t3_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c125_i32 : BitVec 32 := 125#32
  let v2 : BitVec 32 := Scalar.subi c125_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg6 : BitVec 32 := Scf.iv v26 c1_i32_10 k3_t3
  let c32_i32_11 : BitVec 32 := 32#32
  let v27 : BitVec 32 := Scalar.muli arg6 c32_i32_11
  let v28 : BitVec 32 := Scalar.addi v1 v27
  let c400_i32 : BitVec 32 := 400#32
  let v29 : BitVec 32 := Scalar.muli v28 c400_i32
  let c8_i32 : BitVec 32 := 8#32
  let v30 : BitVec 32 := Scalar.muli v29 c8_i32
  let c16_i32 : BitVec 32 := 16#32
  let v31 : BitVec 32 := Scalar.muli v30 c16_i32
  ![v31.toNat]
@[reducible] def k3_t4_loop : Scf.Loop 32 :=
  let c0_i32_14 : BitVec 32 := 0#32
  let c25_i32 : BitVec 32 := 25#32
  let v35 : BitVec 32 := Scalar.addi c0_i32_14 c25_i32
  let c1_i32_15 : BitVec 32 := 1#32
  ⟨c0_i32_14, v35, c1_i32_15⟩

def k3_chk47 (v44 : IVec S16 32) : Prop :=
  (∀ a x, ((![v44] : Fin 1 → IVec S16 32) a x).toNat < S51200.size a)
instance k3_chk47.dec : ∀ (v44 : IVec S16 32), Decidable (k3_chk47 v44) := fun v44 => decidable_of_iff' _ (Iff.of_eq (k3_chk47.eq_1 v44))
theorem k3_idx47_inb : ∀ (v44 : IVec S16 32) (k3_hw47 : k3_chk47 v44), ∀ a x, ((![v44] : Fin 1 → IVec S16 32) a x).toNat < S51200.size a := fun v44 k3_hw47 => k3_hw47

def k3_chk48 (v47 : IVec S16 32) : Prop :=
  (∀ a x, ((![v47] : Fin 1 → IVec S16 32) a x).toNat < S51200.size a)
instance k3_chk48.dec : ∀ (v47 : IVec S16 32), Decidable (k3_chk48 v47) := fun v47 => decidable_of_iff' _ (Iff.of_eq (k3_chk48.eq_1 v47))
theorem k3_idx48_inb : ∀ (v47 : IVec S16 32) (k3_hw48 : k3_chk48 v47), ∀ a x, ((![v47] : Fin 1 → IVec S16 32) a x).toNat < S51200.size a := fun v47 k3_hw48 => k3_hw48

def k3_chk49 (v50 : IVec S16 32) : Prop :=
  (∀ a x, ((![v50] : Fin 1 → IVec S16 32) a x).toNat < S51200.size a)
instance k3_chk49.dec : ∀ (v50 : IVec S16 32), Decidable (k3_chk49 v50) := fun v50 => decidable_of_iff' _ (Iff.of_eq (k3_chk49.eq_1 v50))
theorem k3_idx49_inb : ∀ (v50 : IVec S16 32) (k3_hw49 : k3_chk49 v50), ∀ a x, ((![v50] : Fin 1 → IVec S16 32) a x).toNat < S51200.size a := fun v50 k3_hw49 => k3_hw49

def k3_chk50 (v53 : IVec S16 32) : Prop :=
  (∀ a x, ((![v53] : Fin 1 → IVec S16 32) a x).toNat < S51200.size a)
instance k3_chk50.dec : ∀ (v53 : IVec S16 32), Decidable (k3_chk50 v53) := fun v53 => decidable_of_iff' _ (Iff.of_eq (k3_chk50.eq_1 v53))
theorem k3_idx50_inb : ∀ (v53 : IVec S16 32) (k3_hw50 : k3_chk50 v53), ∀ a x, ((![v53] : Fin 1 → IVec S16 32) a x).toNat < S51200.size a := fun v53 k3_hw50 => k3_hw50

def k3_chk51 (v56 : IVec S16 32) : Prop :=
  (∀ a x, ((![v56] : Fin 1 → IVec S16 32) a x).toNat < S51200.size a)
instance k3_chk51.dec : ∀ (v56 : IVec S16 32), Decidable (k3_chk51 v56) := fun v56 => decidable_of_iff' _ (Iff.of_eq (k3_chk51.eq_1 v56))
theorem k3_idx51_inb : ∀ (v56 : IVec S16 32) (k3_hw51 : k3_chk51 v56), ∀ a x, ((![v56] : Fin 1 → IVec S16 32) a x).toNat < S51200.size a := fun v56 k3_hw51 => k3_hw51

def k3_chk52 (v59 : IVec S16 32) : Prop :=
  (∀ a x, ((![v59] : Fin 1 → IVec S16 32) a x).toNat < S51200.size a)
instance k3_chk52.dec : ∀ (v59 : IVec S16 32), Decidable (k3_chk52 v59) := fun v59 => decidable_of_iff' _ (Iff.of_eq (k3_chk52.eq_1 v59))
theorem k3_idx52_inb : ∀ (v59 : IVec S16 32) (k3_hw52 : k3_chk52 v59), ∀ a x, ((![v59] : Fin 1 → IVec S16 32) a x).toNat < S51200.size a := fun v59 k3_hw52 => k3_hw52

def k3_chk53 (v62 : IVec S16 32) : Prop :=
  (∀ a x, ((![v62] : Fin 1 → IVec S16 32) a x).toNat < S51200.size a)
instance k3_chk53.dec : ∀ (v62 : IVec S16 32), Decidable (k3_chk53 v62) := fun v62 => decidable_of_iff' _ (Iff.of_eq (k3_chk53.eq_1 v62))
theorem k3_idx53_inb : ∀ (v62 : IVec S16 32) (k3_hw53 : k3_chk53 v62), ∀ a x, ((![v62] : Fin 1 → IVec S16 32) a x).toNat < S51200.size a := fun v62 k3_hw53 => k3_hw53

def k3_chk54 (v65 : IVec S16 32) : Prop :=
  (∀ a x, ((![v65] : Fin 1 → IVec S16 32) a x).toNat < S51200.size a)
instance k3_chk54.dec : ∀ (v65 : IVec S16 32), Decidable (k3_chk54 v65) := fun v65 => decidable_of_iff' _ (Iff.of_eq (k3_chk54.eq_1 v65))
theorem k3_idx54_inb : ∀ (v65 : IVec S16 32) (k3_hw54 : k3_chk54 v65), ∀ a x, ((![v65] : Fin 1 → IVec S16 32) a x).toNat < S51200.size a := fun v65 k3_hw54 => k3_hw54

def k3_chk55 (v68 : IVec S16 32) : Prop :=
  (∀ a x, ((![v68] : Fin 1 → IVec S16 32) a x).toNat < S51200.size a)
instance k3_chk55.dec : ∀ (v68 : IVec S16 32), Decidable (k3_chk55 v68) := fun v68 => decidable_of_iff' _ (Iff.of_eq (k3_chk55.eq_1 v68))
theorem k3_idx55_inb : ∀ (v68 : IVec S16 32) (k3_hw55 : k3_chk55 v68), ∀ a x, ((![v68] : Fin 1 → IVec S16 32) a x).toNat < S51200.size a := fun v68 k3_hw55 => k3_hw55

def k3_chk56 (v71 : IVec S16 32) : Prop :=
  (∀ a x, ((![v71] : Fin 1 → IVec S16 32) a x).toNat < S51200.size a)
instance k3_chk56.dec : ∀ (v71 : IVec S16 32), Decidable (k3_chk56 v71) := fun v71 => decidable_of_iff' _ (Iff.of_eq (k3_chk56.eq_1 v71))
theorem k3_idx56_inb : ∀ (v71 : IVec S16 32) (k3_hw56 : k3_chk56 v71), ∀ a x, ((![v71] : Fin 1 → IVec S16 32) a x).toNat < S51200.size a := fun v71 k3_hw56 => k3_hw56

def k3_chk57 (v74 : IVec S16 32) : Prop :=
  (∀ a x, ((![v74] : Fin 1 → IVec S16 32) a x).toNat < S51200.size a)
instance k3_chk57.dec : ∀ (v74 : IVec S16 32), Decidable (k3_chk57 v74) := fun v74 => decidable_of_iff' _ (Iff.of_eq (k3_chk57.eq_1 v74))
theorem k3_idx57_inb : ∀ (v74 : IVec S16 32) (k3_hw57 : k3_chk57 v74), ∀ a x, ((![v74] : Fin 1 → IVec S16 32) a x).toNat < S51200.size a := fun v74 k3_hw57 => k3_hw57

def k3_chk58 (v77 : IVec S16 32) : Prop :=
  (∀ a x, ((![v77] : Fin 1 → IVec S16 32) a x).toNat < S51200.size a)
instance k3_chk58.dec : ∀ (v77 : IVec S16 32), Decidable (k3_chk58 v77) := fun v77 => decidable_of_iff' _ (Iff.of_eq (k3_chk58.eq_1 v77))
theorem k3_idx58_inb : ∀ (v77 : IVec S16 32) (k3_hw58 : k3_chk58 v77), ∀ a x, ((![v77] : Fin 1 → IVec S16 32) a x).toNat < S51200.size a := fun v77 k3_hw58 => k3_hw58

def k3_chk59 (v80 : IVec S16 32) : Prop :=
  (∀ a x, ((![v80] : Fin 1 → IVec S16 32) a x).toNat < S51200.size a)
instance k3_chk59.dec : ∀ (v80 : IVec S16 32), Decidable (k3_chk59 v80) := fun v80 => decidable_of_iff' _ (Iff.of_eq (k3_chk59.eq_1 v80))
theorem k3_idx59_inb : ∀ (v80 : IVec S16 32) (k3_hw59 : k3_chk59 v80), ∀ a x, ((![v80] : Fin 1 → IVec S16 32) a x).toNat < S51200.size a := fun v80 k3_hw59 => k3_hw59

def k3_chk60 (v83 : IVec S16 32) : Prop :=
  (∀ a x, ((![v83] : Fin 1 → IVec S16 32) a x).toNat < S51200.size a)
instance k3_chk60.dec : ∀ (v83 : IVec S16 32), Decidable (k3_chk60 v83) := fun v83 => decidable_of_iff' _ (Iff.of_eq (k3_chk60.eq_1 v83))
theorem k3_idx60_inb : ∀ (v83 : IVec S16 32) (k3_hw60 : k3_chk60 v83), ∀ a x, ((![v83] : Fin 1 → IVec S16 32) a x).toNat < S51200.size a := fun v83 k3_hw60 => k3_hw60

def k3_chk61 (v86 : IVec S16 32) : Prop :=
  (∀ a x, ((![v86] : Fin 1 → IVec S16 32) a x).toNat < S51200.size a)
instance k3_chk61.dec : ∀ (v86 : IVec S16 32), Decidable (k3_chk61 v86) := fun v86 => decidable_of_iff' _ (Iff.of_eq (k3_chk61.eq_1 v86))
theorem k3_idx61_inb : ∀ (v86 : IVec S16 32) (k3_hw61 : k3_chk61 v86), ∀ a x, ((![v86] : Fin 1 → IVec S16 32) a x).toNat < S51200.size a := fun v86 k3_hw61 => k3_hw61

def k3_chk62 (v42 : IVec S16 32) : Prop :=
  (∀ a x, ((![v42] : Fin 1 → IVec S16 32) a x).toNat < S12400.size a)
instance k3_chk62.dec : ∀ (v42 : IVec S16 32), Decidable (k3_chk62 v42) := fun v42 => decidable_of_iff' _ (Iff.of_eq (k3_chk62.eq_1 v42))
theorem k3_idx62_inb : ∀ (v42 : IVec S16 32) (k3_hw62 : k3_chk62 v42), ∀ a x, ((![v42] : Fin 1 → IVec S16 32) a x).toNat < S12400.size a := fun v42 k3_hw62 => k3_hw62

def k3_chk63 (v149 : IVec S16 32) : Prop :=
  (∀ a x, ((![v149] : Fin 1 → IVec S16 32) a x).toNat < S12400.size a)
instance k3_chk63.dec : ∀ (v149 : IVec S16 32), Decidable (k3_chk63 v149) := fun v149 => decidable_of_iff' _ (Iff.of_eq (k3_chk63.eq_1 v149))
theorem k3_idx63_inb : ∀ (v149 : IVec S16 32) (k3_hw63 : k3_chk63 v149), ∀ a x, ((![v149] : Fin 1 → IVec S16 32) a x).toNat < S12400.size a := fun v149 k3_hw63 => k3_hw63

def k3_chk64 (v152 : IVec S16 32) : Prop :=
  (∀ a x, ((![v152] : Fin 1 → IVec S16 32) a x).toNat < S12400.size a)
instance k3_chk64.dec : ∀ (v152 : IVec S16 32), Decidable (k3_chk64 v152) := fun v152 => decidable_of_iff' _ (Iff.of_eq (k3_chk64.eq_1 v152))
theorem k3_idx64_inb : ∀ (v152 : IVec S16 32) (k3_hw64 : k3_chk64 v152), ∀ a x, ((![v152] : Fin 1 → IVec S16 32) a x).toNat < S12400.size a := fun v152 k3_hw64 => k3_hw64

def k3_chk65 (v155 : IVec S16 32) : Prop :=
  (∀ a x, ((![v155] : Fin 1 → IVec S16 32) a x).toNat < S12400.size a)
instance k3_chk65.dec : ∀ (v155 : IVec S16 32), Decidable (k3_chk65 v155) := fun v155 => decidable_of_iff' _ (Iff.of_eq (k3_chk65.eq_1 v155))
theorem k3_idx65_inb : ∀ (v155 : IVec S16 32) (k3_hw65 : k3_chk65 v155), ∀ a x, ((![v155] : Fin 1 → IVec S16 32) a x).toNat < S12400.size a := fun v155 k3_hw65 => k3_hw65

def k3_chk66 (v158 : IVec S16 32) : Prop :=
  (∀ a x, ((![v158] : Fin 1 → IVec S16 32) a x).toNat < S12400.size a)
instance k3_chk66.dec : ∀ (v158 : IVec S16 32), Decidable (k3_chk66 v158) := fun v158 => decidable_of_iff' _ (Iff.of_eq (k3_chk66.eq_1 v158))
theorem k3_idx66_inb : ∀ (v158 : IVec S16 32) (k3_hw66 : k3_chk66 v158), ∀ a x, ((![v158] : Fin 1 → IVec S16 32) a x).toNat < S12400.size a := fun v158 k3_hw66 => k3_hw66

def k3_chk67 (v161 : IVec S16 32) : Prop :=
  (∀ a x, ((![v161] : Fin 1 → IVec S16 32) a x).toNat < S12400.size a)
instance k3_chk67.dec : ∀ (v161 : IVec S16 32), Decidable (k3_chk67 v161) := fun v161 => decidable_of_iff' _ (Iff.of_eq (k3_chk67.eq_1 v161))
theorem k3_idx67_inb : ∀ (v161 : IVec S16 32) (k3_hw67 : k3_chk67 v161), ∀ a x, ((![v161] : Fin 1 → IVec S16 32) a x).toNat < S12400.size a := fun v161 k3_hw67 => k3_hw67

def k3_chk68 (v164 : IVec S16 32) : Prop :=
  (∀ a x, ((![v164] : Fin 1 → IVec S16 32) a x).toNat < S12400.size a)
instance k3_chk68.dec : ∀ (v164 : IVec S16 32), Decidable (k3_chk68 v164) := fun v164 => decidable_of_iff' _ (Iff.of_eq (k3_chk68.eq_1 v164))
theorem k3_idx68_inb : ∀ (v164 : IVec S16 32) (k3_hw68 : k3_chk68 v164), ∀ a x, ((![v164] : Fin 1 → IVec S16 32) a x).toNat < S12400.size a := fun v164 k3_hw68 => k3_hw68

def k3_chk69 (v167 : IVec S16 32) : Prop :=
  (∀ a x, ((![v167] : Fin 1 → IVec S16 32) a x).toNat < S12400.size a)
instance k3_chk69.dec : ∀ (v167 : IVec S16 32), Decidable (k3_chk69 v167) := fun v167 => decidable_of_iff' _ (Iff.of_eq (k3_chk69.eq_1 v167))
theorem k3_idx69_inb : ∀ (v167 : IVec S16 32) (k3_hw69 : k3_chk69 v167), ∀ a x, ((![v167] : Fin 1 → IVec S16 32) a x).toNat < S12400.size a := fun v167 k3_hw69 => k3_hw69

def k3_chk70 (v170 : IVec S16 32) : Prop :=
  (∀ a x, ((![v170] : Fin 1 → IVec S16 32) a x).toNat < S12400.size a)
instance k3_chk70.dec : ∀ (v170 : IVec S16 32), Decidable (k3_chk70 v170) := fun v170 => decidable_of_iff' _ (Iff.of_eq (k3_chk70.eq_1 v170))
theorem k3_idx70_inb : ∀ (v170 : IVec S16 32) (k3_hw70 : k3_chk70 v170), ∀ a x, ((![v170] : Fin 1 → IVec S16 32) a x).toNat < S12400.size a := fun v170 k3_hw70 => k3_hw70

def k3_chk71 (v173 : IVec S16 32) : Prop :=
  (∀ a x, ((![v173] : Fin 1 → IVec S16 32) a x).toNat < S12400.size a)
instance k3_chk71.dec : ∀ (v173 : IVec S16 32), Decidable (k3_chk71 v173) := fun v173 => decidable_of_iff' _ (Iff.of_eq (k3_chk71.eq_1 v173))
theorem k3_idx71_inb : ∀ (v173 : IVec S16 32) (k3_hw71 : k3_chk71 v173), ∀ a x, ((![v173] : Fin 1 → IVec S16 32) a x).toNat < S12400.size a := fun v173 k3_hw71 => k3_hw71

def k3_chk72 (v176 : IVec S16 32) : Prop :=
  (∀ a x, ((![v176] : Fin 1 → IVec S16 32) a x).toNat < S12400.size a)
instance k3_chk72.dec : ∀ (v176 : IVec S16 32), Decidable (k3_chk72 v176) := fun v176 => decidable_of_iff' _ (Iff.of_eq (k3_chk72.eq_1 v176))
theorem k3_idx72_inb : ∀ (v176 : IVec S16 32) (k3_hw72 : k3_chk72 v176), ∀ a x, ((![v176] : Fin 1 → IVec S16 32) a x).toNat < S12400.size a := fun v176 k3_hw72 => k3_hw72

def k3_chk73 (v179 : IVec S16 32) : Prop :=
  (∀ a x, ((![v179] : Fin 1 → IVec S16 32) a x).toNat < S12400.size a)
instance k3_chk73.dec : ∀ (v179 : IVec S16 32), Decidable (k3_chk73 v179) := fun v179 => decidable_of_iff' _ (Iff.of_eq (k3_chk73.eq_1 v179))
theorem k3_idx73_inb : ∀ (v179 : IVec S16 32) (k3_hw73 : k3_chk73 v179), ∀ a x, ((![v179] : Fin 1 → IVec S16 32) a x).toNat < S12400.size a := fun v179 k3_hw73 => k3_hw73

def k3_chk74 (v182 : IVec S16 32) : Prop :=
  (∀ a x, ((![v182] : Fin 1 → IVec S16 32) a x).toNat < S12400.size a)
instance k3_chk74.dec : ∀ (v182 : IVec S16 32), Decidable (k3_chk74 v182) := fun v182 => decidable_of_iff' _ (Iff.of_eq (k3_chk74.eq_1 v182))
theorem k3_idx74_inb : ∀ (v182 : IVec S16 32) (k3_hw74 : k3_chk74 v182), ∀ a x, ((![v182] : Fin 1 → IVec S16 32) a x).toNat < S12400.size a := fun v182 k3_hw74 => k3_hw74

def k3_chk75 (v185 : IVec S16 32) : Prop :=
  (∀ a x, ((![v185] : Fin 1 → IVec S16 32) a x).toNat < S12400.size a)
instance k3_chk75.dec : ∀ (v185 : IVec S16 32), Decidable (k3_chk75 v185) := fun v185 => decidable_of_iff' _ (Iff.of_eq (k3_chk75.eq_1 v185))
theorem k3_idx75_inb : ∀ (v185 : IVec S16 32) (k3_hw75 : k3_chk75 v185), ∀ a x, ((![v185] : Fin 1 → IVec S16 32) a x).toNat < S12400.size a := fun v185 k3_hw75 => k3_hw75

def k3_chk76 (v188 : IVec S16 32) : Prop :=
  (∀ a x, ((![v188] : Fin 1 → IVec S16 32) a x).toNat < S12400.size a)
instance k3_chk76.dec : ∀ (v188 : IVec S16 32), Decidable (k3_chk76 v188) := fun v188 => decidable_of_iff' _ (Iff.of_eq (k3_chk76.eq_1 v188))
theorem k3_idx76_inb : ∀ (v188 : IVec S16 32) (k3_hw76 : k3_chk76 v188), ∀ a x, ((![v188] : Fin 1 → IVec S16 32) a x).toNat < S12400.size a := fun v188 k3_hw76 => k3_hw76

def k3_chk77 (v191 : IVec S16 32) : Prop :=
  (∀ a x, ((![v191] : Fin 1 → IVec S16 32) a x).toNat < S12400.size a)
instance k3_chk77.dec : ∀ (v191 : IVec S16 32), Decidable (k3_chk77 v191) := fun v191 => decidable_of_iff' _ (Iff.of_eq (k3_chk77.eq_1 v191))
theorem k3_idx77_inb : ∀ (v191 : IVec S16 32) (k3_hw77 : k3_chk77 v191), ∀ a x, ((![v191] : Fin 1 → IVec S16 32) a x).toNat < S12400.size a := fun v191 k3_hw77 => k3_hw77

def k3_chk78 (v194 : IVec S16 32) : Prop :=
  (∀ a x, ((![v194] : Fin 1 → IVec S16 32) a x).toNat < S12400.size a)
instance k3_chk78.dec : ∀ (v194 : IVec S16 32), Decidable (k3_chk78 v194) := fun v194 => decidable_of_iff' _ (Iff.of_eq (k3_chk78.eq_1 v194))
theorem k3_idx78_inb : ∀ (v194 : IVec S16 32) (k3_hw78 : k3_chk78 v194), ∀ a x, ((![v194] : Fin 1 → IVec S16 32) a x).toNat < S12400.size a := fun v194 k3_hw78 => k3_hw78

def k3_chk79 (v197 : IVec S16 32) : Prop :=
  (∀ a x, ((![v197] : Fin 1 → IVec S16 32) a x).toNat < S12400.size a)
instance k3_chk79.dec : ∀ (v197 : IVec S16 32), Decidable (k3_chk79 v197) := fun v197 => decidable_of_iff' _ (Iff.of_eq (k3_chk79.eq_1 v197))
theorem k3_idx79_inb : ∀ (v197 : IVec S16 32) (k3_hw79 : k3_chk79 v197), ∀ a x, ((![v197] : Fin 1 → IVec S16 32) a x).toNat < S12400.size a := fun v197 k3_hw79 => k3_hw79

def k3_chk80 (v200 : IVec S16 32) : Prop :=
  (∀ a x, ((![v200] : Fin 1 → IVec S16 32) a x).toNat < S12400.size a)
instance k3_chk80.dec : ∀ (v200 : IVec S16 32), Decidable (k3_chk80 v200) := fun v200 => decidable_of_iff' _ (Iff.of_eq (k3_chk80.eq_1 v200))
theorem k3_idx80_inb : ∀ (v200 : IVec S16 32) (k3_hw80 : k3_chk80 v200), ∀ a x, ((![v200] : Fin 1 → IVec S16 32) a x).toNat < S12400.size a := fun v200 k3_hw80 => k3_hw80

def k3_chk81 (v203 : IVec S16 32) : Prop :=
  (∀ a x, ((![v203] : Fin 1 → IVec S16 32) a x).toNat < S12400.size a)
instance k3_chk81.dec : ∀ (v203 : IVec S16 32), Decidable (k3_chk81 v203) := fun v203 => decidable_of_iff' _ (Iff.of_eq (k3_chk81.eq_1 v203))
theorem k3_idx81_inb : ∀ (v203 : IVec S16 32) (k3_hw81 : k3_chk81 v203), ∀ a x, ((![v203] : Fin 1 → IVec S16 32) a x).toNat < S12400.size a := fun v203 k3_hw81 => k3_hw81

def k3_chk82 (v206 : IVec S16 32) : Prop :=
  (∀ a x, ((![v206] : Fin 1 → IVec S16 32) a x).toNat < S12400.size a)
instance k3_chk82.dec : ∀ (v206 : IVec S16 32), Decidable (k3_chk82 v206) := fun v206 => decidable_of_iff' _ (Iff.of_eq (k3_chk82.eq_1 v206))
theorem k3_idx82_inb : ∀ (v206 : IVec S16 32) (k3_hw82 : k3_chk82 v206), ∀ a x, ((![v206] : Fin 1 → IVec S16 32) a x).toNat < S12400.size a := fun v206 k3_hw82 => k3_hw82

def k3_chk83 (v209 : IVec S16 32) : Prop :=
  (∀ a x, ((![v209] : Fin 1 → IVec S16 32) a x).toNat < S12400.size a)
instance k3_chk83.dec : ∀ (v209 : IVec S16 32), Decidable (k3_chk83 v209) := fun v209 => decidable_of_iff' _ (Iff.of_eq (k3_chk83.eq_1 v209))
theorem k3_idx83_inb : ∀ (v209 : IVec S16 32) (k3_hw83 : k3_chk83 v209), ∀ a x, ((![v209] : Fin 1 → IVec S16 32) a x).toNat < S12400.size a := fun v209 k3_hw83 => k3_hw83

def k3_chk84 (v212 : IVec S16 32) : Prop :=
  (∀ a x, ((![v212] : Fin 1 → IVec S16 32) a x).toNat < S12400.size a)
instance k3_chk84.dec : ∀ (v212 : IVec S16 32), Decidable (k3_chk84 v212) := fun v212 => decidable_of_iff' _ (Iff.of_eq (k3_chk84.eq_1 v212))
theorem k3_idx84_inb : ∀ (v212 : IVec S16 32) (k3_hw84 : k3_chk84 v212), ∀ a x, ((![v212] : Fin 1 → IVec S16 32) a x).toNat < S12400.size a := fun v212 k3_hw84 => k3_hw84

def k3_chk85 (v215 : IVec S16 32) : Prop :=
  (∀ a x, ((![v215] : Fin 1 → IVec S16 32) a x).toNat < S12400.size a)
instance k3_chk85.dec : ∀ (v215 : IVec S16 32), Decidable (k3_chk85 v215) := fun v215 => decidable_of_iff' _ (Iff.of_eq (k3_chk85.eq_1 v215))
theorem k3_idx85_inb : ∀ (v215 : IVec S16 32) (k3_hw85 : k3_chk85 v215), ∀ a x, ((![v215] : Fin 1 → IVec S16 32) a x).toNat < S12400.size a := fun v215 k3_hw85 => k3_hw85

def k3_chk86 (v218 : IVec S16 32) : Prop :=
  (∀ a x, ((![v218] : Fin 1 → IVec S16 32) a x).toNat < S12400.size a)
instance k3_chk86.dec : ∀ (v218 : IVec S16 32), Decidable (k3_chk86 v218) := fun v218 => decidable_of_iff' _ (Iff.of_eq (k3_chk86.eq_1 v218))
theorem k3_idx86_inb : ∀ (v218 : IVec S16 32) (k3_hw86 : k3_chk86 v218), ∀ a x, ((![v218] : Fin 1 → IVec S16 32) a x).toNat < S12400.size a := fun v218 k3_hw86 => k3_hw86

def k3_chk87 (v221 : IVec S16 32) : Prop :=
  (∀ a x, ((![v221] : Fin 1 → IVec S16 32) a x).toNat < S12400.size a)
instance k3_chk87.dec : ∀ (v221 : IVec S16 32), Decidable (k3_chk87 v221) := fun v221 => decidable_of_iff' _ (Iff.of_eq (k3_chk87.eq_1 v221))
theorem k3_idx87_inb : ∀ (v221 : IVec S16 32) (k3_hw87 : k3_chk87 v221), ∀ a x, ((![v221] : Fin 1 → IVec S16 32) a x).toNat < S12400.size a := fun v221 k3_hw87 => k3_hw87

def k3_chk88 (v224 : IVec S16 32) : Prop :=
  (∀ a x, ((![v224] : Fin 1 → IVec S16 32) a x).toNat < S12400.size a)
instance k3_chk88.dec : ∀ (v224 : IVec S16 32), Decidable (k3_chk88 v224) := fun v224 => decidable_of_iff' _ (Iff.of_eq (k3_chk88.eq_1 v224))
theorem k3_idx88_inb : ∀ (v224 : IVec S16 32) (k3_hw88 : k3_chk88 v224), ∀ a x, ((![v224] : Fin 1 → IVec S16 32) a x).toNat < S12400.size a := fun v224 k3_hw88 => k3_hw88

def k3_chk89 (v227 : IVec S16 32) : Prop :=
  (∀ a x, ((![v227] : Fin 1 → IVec S16 32) a x).toNat < S12400.size a)
instance k3_chk89.dec : ∀ (v227 : IVec S16 32), Decidable (k3_chk89 v227) := fun v227 => decidable_of_iff' _ (Iff.of_eq (k3_chk89.eq_1 v227))
theorem k3_idx89_inb : ∀ (v227 : IVec S16 32) (k3_hw89 : k3_chk89 v227), ∀ a x, ((![v227] : Fin 1 → IVec S16 32) a x).toNat < S12400.size a := fun v227 k3_hw89 => k3_hw89

def k3_chk90 (v230 : IVec S16 32) : Prop :=
  (∀ a x, ((![v230] : Fin 1 → IVec S16 32) a x).toNat < S12400.size a)
instance k3_chk90.dec : ∀ (v230 : IVec S16 32), Decidable (k3_chk90 v230) := fun v230 => decidable_of_iff' _ (Iff.of_eq (k3_chk90.eq_1 v230))
theorem k3_idx90_inb : ∀ (v230 : IVec S16 32) (k3_hw90 : k3_chk90 v230), ∀ a x, ((![v230] : Fin 1 → IVec S16 32) a x).toNat < S12400.size a := fun v230 k3_hw90 => k3_hw90

def k3_chk91 (v233 : IVec S16 32) : Prop :=
  (∀ a x, ((![v233] : Fin 1 → IVec S16 32) a x).toNat < S12400.size a)
instance k3_chk91.dec : ∀ (v233 : IVec S16 32), Decidable (k3_chk91 v233) := fun v233 => decidable_of_iff' _ (Iff.of_eq (k3_chk91.eq_1 v233))
theorem k3_idx91_inb : ∀ (v233 : IVec S16 32) (k3_hw91 : k3_chk91 v233), ∀ a x, ((![v233] : Fin 1 → IVec S16 32) a x).toNat < S12400.size a := fun v233 k3_hw91 => k3_hw91

def k3_chk92 (v236 : IVec S16 32) : Prop :=
  (∀ a x, ((![v236] : Fin 1 → IVec S16 32) a x).toNat < S12400.size a)
instance k3_chk92.dec : ∀ (v236 : IVec S16 32), Decidable (k3_chk92 v236) := fun v236 => decidable_of_iff' _ (Iff.of_eq (k3_chk92.eq_1 v236))
theorem k3_idx92_inb : ∀ (v236 : IVec S16 32) (k3_hw92 : k3_chk92 v236), ∀ a x, ((![v236] : Fin 1 → IVec S16 32) a x).toNat < S12400.size a := fun v236 k3_hw92 => k3_hw92
def k3_off4 (i : grid3.Coords) (k3_t3 : Fin (k3_t3_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c125_i32 : BitVec 32 := 125#32
  let v2 : BitVec 32 := Scalar.subi c125_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg6 : BitVec 32 := Scf.iv v26 c1_i32_10 k3_t3
  let c32_i32_11 : BitVec 32 := 32#32
  let v27 : BitVec 32 := Scalar.muli arg6 c32_i32_11
  let v28 : BitVec 32 := Scalar.addi v1 v27
  let c0_i32_17_r3 : BitVec 32 := 0#32
  ![v28.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  bcast_S_S1x128 : S_.BroadcastsInDim S1x128 (![] : Fin 0 → Fin S1x128.rank)
  concatenates_S15x128_S1x128_S16x128_d0 : Shape.Concatenates [S15x128, S1x128] S16x128 0
  shapeCasts_S16x128_S1x16x1x128 : S16x128.ShapeCasts S1x16x1x128
  bcast_S1x16x1x128_S8x16x1x128_0_1_2_3 : S1x16x1x128.BroadcastsInDim S8x16x1x128 (![0, 1, 2, 3] : Fin 4 → Fin S8x16x1x128.rank)
  shapeCasts_S8x16x1x128_S128x128 : S8x16x1x128.ShapeCasts S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S50000x128_S6400000 : S50000x128.ShapeCasts S6400000
  iota_S16_d0_w32_scVector : S16.Iotas .scVector 32 [0]
  h_S51200 : 0 < S51200.numel
  h_S12400 : 0 < S12400.numel
  squeezes_S1x12400_S12400 : S1x12400.Squeezes S12400
  shapeCasts_S125x12400_S50000x31 : S125x12400.ShapeCasts S50000x31
  concatenates_S50000x31_S50000x31_S100000x31_d0 : Shape.Concatenates [S50000x31, S50000x31] S100000x31 0
  dot_S10000x128_S128x128_S10000x128_1_1_0_0_n_n_wf : DotDims.WF S10000x128 S128x128 S10000x128 [1] [1] [0] [0] [] []
  hcc1_scoped0 : 5 + S_.numel ≤ 18
  hcc1_scoped1 : 6 + S_.numel ≤ 18
  hcc1_scoped2 : 7 + S_.numel ≤ 18
  hcc1_scoped3 : 8 + S_.numel ≤ 18
  hcc3_scoped0 : 14 + S_.numel ≤ 18
  hcc3_scoped1 : 15 + S_.numel ≤ 18
  hcc3_scoped2 : 16 + S_.numel ≤ 18
  hcc3_scoped3 : 17 + S_.numel ≤ 18
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hcore1 : grid1.bound 0 ≤ τ.nSC
  hsub1 : grid1.bound 1 ≤ τ.nSub
  k1_t1_ok : ∀ i : grid1.Coords, (k1_t1_loop i).OK
  k1_off1_inb : ∀ (i : grid1.Coords) (k1_t1 : Fin (k1_t1_loop i).trips), ∀ a, (k1_off1 i k1_t1) a + S51200.size a ≤ S6400000.size a
  k1_t2_ok : k1_t2_loop.OK
  k1_off2_inb : ∀ (i : grid1.Coords) (k1_t1 : Fin (k1_t1_loop i).trips), ∀ a, (k1_off2 i k1_t1) a + S1x12400.size a ≤ S125x12400.size a
  k1_t3_ok : ∀ i : grid1.Coords, (k1_t3_loop i).OK
  k1_off3_inb : ∀ (i : grid1.Coords) (k1_t3 : Fin (k1_t3_loop i).trips), ∀ a, (k1_off3 i k1_t3) a + S51200.size a ≤ S6400000.size a
  k1_t4_ok : k1_t4_loop.OK
  k1_off4_inb : ∀ (i : grid1.Coords) (k1_t3 : Fin (k1_t3_loop i).trips), ∀ a, (k1_off4 i k1_t3) a + S1x12400.size a ≤ S125x12400.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hcore3 : grid3.bound 0 ≤ τ.nSC
  hsub3 : grid3.bound 1 ≤ τ.nSub
  k3_t1_ok : ∀ i : grid3.Coords, (k3_t1_loop i).OK
  k3_off1_inb : ∀ (i : grid3.Coords) (k3_t1 : Fin (k3_t1_loop i).trips), ∀ a, (k3_off1 i k3_t1) a + S51200.size a ≤ S6400000.size a
  k3_t2_ok : k3_t2_loop.OK
  k3_off2_inb : ∀ (i : grid3.Coords) (k3_t1 : Fin (k3_t1_loop i).trips), ∀ a, (k3_off2 i k3_t1) a + S1x12400.size a ≤ S125x12400.size a
  k3_t3_ok : ∀ i : grid3.Coords, (k3_t3_loop i).OK
  k3_off3_inb : ∀ (i : grid3.Coords) (k3_t3 : Fin (k3_t3_loop i).trips), ∀ a, (k3_off3 i k3_t3) a + S51200.size a ≤ S6400000.size a
  k3_t4_ok : k3_t4_loop.OK
  k3_off4_inb : ∀ (i : grid3.Coords) (k3_t3 : Fin (k3_t3_loop i).trips), ∀ a, (k3_off4 i k3_t3) a + S1x12400.size a ≤ S125x12400.size a

variable [Facts₀]

abbrev cc1_scoped0 : DmaSems sig S_ := SemArray.consecutive 5 S_ hcc1_scoped0
abbrev cc1_scoped1 : DmaSems sig S_ := SemArray.consecutive 6 S_ hcc1_scoped1
abbrev cc1_scoped2 : DmaSems sig S_ := SemArray.consecutive 7 S_ hcc1_scoped2
abbrev cc1_scoped3 : DmaSems sig S_ := SemArray.consecutive 8 S_ hcc1_scoped3
abbrev cc3_scoped0 : DmaSems sig S_ := SemArray.consecutive 14 S_ hcc3_scoped0
abbrev cc3_scoped1 : DmaSems sig S_ := SemArray.consecutive 15 S_ hcc3_scoped1
abbrev cc3_scoped2 : DmaSems sig S_ := SemArray.consecutive 16 S_ hcc3_scoped2
abbrev cc3_scoped3 : DmaSems sig S_ := SemArray.consecutive 17 S_ hcc3_scoped3
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_arg0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S15x128 : Shape := ⟨2, ![15, 128]⟩
abbrev S15 : Shape := ⟨1, ![15]⟩
abbrev S128x15 : Shape := ⟨2, ![128, 15]⟩
abbrev S100000x15 : Shape := ⟨2, ![100000, 15]⟩
abbrev S_ : Shape := ⟨0, ![]⟩
abbrev S100000x31 : Shape := ⟨2, ![100000, 31]⟩
abbrev S15x1 : Shape := ⟨2, ![15, 1]⟩

abbrev nBuf : Space → Nat
  | .hbm => 238
  | .vmem => 0
  | .smem => 0
  | _ => 0

abbrev hbmTy0_0 (i : Nat) : BufTy := match i % 128 with
  | 0 => ⟨S100000x128, .f32⟩
  | 1 => ⟨S15x128, .f32⟩
  | 2 => ⟨S15, .i32⟩
  | 3 => ⟨S15, .i1⟩
  | 4 => ⟨S15, .i1⟩
  | 5 => ⟨S15, .i32⟩
  | 6 => ⟨S15, .i1⟩
  | 7 => ⟨S15, .i1⟩
  | 8 => ⟨S15, .i1⟩
  | 9 => ⟨S15, .i32⟩
  | 10 => ⟨S15, .i1⟩
  | 11 => ⟨S15, .i1⟩
  | 12 => ⟨S15, .i1⟩
  | 13 => ⟨S15, .i1⟩
  | 14 => ⟨S15, .i1⟩
  | 15 => ⟨S15, .i1⟩
  | 16 => ⟨S15, .i1⟩
  | 17 => ⟨S15, .i1⟩
  | 18 => ⟨S15, .i1⟩
  | 19 => ⟨S15, .i1⟩
  | 20 => ⟨S15, .i1⟩
  | 21 => ⟨S15, .i1⟩
  | 22 => ⟨S15, .i1⟩
  | 23 => ⟨S15, .i1⟩
  | 24 => ⟨S15, .i1⟩
  | 25 => ⟨S15, .i1⟩
  | 26 => ⟨S15, .i1⟩
  | 27 => ⟨S15, .i1⟩
  | 28 => ⟨S15, .i1⟩
  | 29 => ⟨S15, .i1⟩
  | 30 => ⟨S15, .i1⟩
  | 31 => ⟨S15, .i1⟩
  | 32 => ⟨S15, .i1⟩
  | 33 => ⟨S15, .i1⟩
  | 34 => ⟨S15, .i1⟩
  | 35 => ⟨S128x15, .f32⟩
  | 36 => ⟨S100000x15, .f32⟩
  | 37 => ⟨S_, .f32⟩
  | 38 => ⟨S100000x31, .f32⟩
  | 39 => ⟨S_, .i32⟩
  | 40 => ⟨S15, .i32⟩
  | 41 => ⟨S15, .i32⟩
  | 42 => ⟨S15, .i32⟩
  | 43 => ⟨S15x1, .i32⟩
  | 44 => ⟨S100000x15, .f32⟩
  | 45 => ⟨S_, .i32⟩
  | 46 => ⟨S15, .i32⟩
  | 47 => ⟨S15, .i32⟩
  | 48 => ⟨S15, .i32⟩
  | 49 => ⟨S15x1, .i32⟩
  | 50 => ⟨S100000x15, .f32⟩
  | 51 => ⟨S100000x15, .f32⟩
  | 52 => ⟨S_, .i32⟩
  | 53 => ⟨S15, .i32⟩
  | 54 => ⟨S15, .i32⟩
  | 55 => ⟨S15, .i32⟩
  | 56 => ⟨S15x1, .i32⟩
  | 57 => ⟨S100000x31, .f32⟩
  | 58 => ⟨S_, .i32⟩
  | 59 => ⟨S15, .i32⟩
  | 60 => ⟨S15, .i32⟩
  | 61 => ⟨S15, .i32⟩
  | 62 => ⟨S15x1, .i32⟩
  | 63 => ⟨S100000x15, .f32⟩
  | 64 => ⟨S_, .i32⟩
  | 65 => ⟨S15, .i32⟩
  | 66 => ⟨S15, .i32⟩
  | 67 => ⟨S15, .i32⟩
  | 68 => ⟨S15x1, .i32⟩
  | 69 => ⟨S100000x15, .f32⟩
  | 70 => ⟨S100000x15, .f32⟩
  | 71 => ⟨S100000x15, .f32⟩
  | 72 => ⟨S_, .i32⟩
  | 73 => ⟨S15, .i32⟩
  | 74 => ⟨S15, .i32⟩
  | 75 => ⟨S15, .i32⟩
  | 76 => ⟨S15x1, .i32⟩
  | 77 => ⟨S100000x31, .f32⟩
  | 78 => ⟨S_, .i32⟩
  | 79 => ⟨S15, .i32⟩
  | 80 => ⟨S15, .i32⟩
  | 81 => ⟨S15, .i32⟩
  | 82 => ⟨S15x1, .i32⟩
  | 83 => ⟨S100000x15, .f32⟩
  | 84 => ⟨S_, .i32⟩
  | 85 => ⟨S15, .i32⟩
  | 86 => ⟨S15, .i32⟩
  | 87 => ⟨S15, .i32⟩
  | 88 => ⟨S15x1, .i32⟩
  | 89 => ⟨S100000x15, .f32⟩
  | 90 => ⟨S100000x15, .f32⟩
  | 91 => ⟨S_, .i32⟩
  | 92 => ⟨S15, .i32⟩
  | 93 => ⟨S15, .i32⟩
  | 94 => ⟨S15, .i32⟩
  | 95 => ⟨S15x1, .i32⟩
  | 96 => ⟨S100000x31, .f32⟩
  | 97 => ⟨S_, .i32⟩
  | 98 => ⟨S15, .i32⟩
  | 99 => ⟨S15, .i32⟩
  | 100 => ⟨S15, .i32⟩
  | 101 => ⟨S15x1, .i32⟩
  | 102 => ⟨S100000x15, .f32⟩
  | 103 => ⟨S_, .i32⟩
  | 104 => ⟨S15, .i32⟩
  | 105 => ⟨S15, .i32⟩
  | 106 => ⟨S15, .i32⟩
  | 107 => ⟨S15x1, .i32⟩
  | 108 => ⟨S100000x15, .f32⟩
  | 109 => ⟨S100000x15, .f32⟩
  | 110 => ⟨S_, .i32⟩
  | 111 => ⟨S15, .i32⟩
  | 112 => ⟨S15, .i32⟩
  | 113 => ⟨S15, .i32⟩
  | 114 => ⟨S15x1, .i32⟩
  | 115 => ⟨S100000x31, .f32⟩
  | 116 => ⟨S_, .i32⟩
  | 117 => ⟨S15, .i32⟩
  | 118 => ⟨S15, .i32⟩
  | 119 => ⟨S15, .i32⟩
  | 120 => ⟨S15x1, .i32⟩
  | 121 => ⟨S100000x15, .f32⟩
  | 122 => ⟨S_, .i32⟩
  | 123 => ⟨S15, .i32⟩
  | 124 => ⟨S15, .i32⟩
  | 125 => ⟨S15, .i32⟩
  | 126 => ⟨S15x1, .i32⟩
  | 127 => ⟨S100000x15, .f32⟩
  | _ => ⟨S100000x128, .f32⟩

abbrev hbmTy0_1 (i : Nat) : BufTy := match i % 128 with
  | 0 => ⟨S100000x15, .f32⟩
  | 1 => ⟨S_, .i32⟩
  | 2 => ⟨S15, .i32⟩
  | 3 => ⟨S15, .i32⟩
  | 4 => ⟨S15, .i32⟩
  | 5 => ⟨S15x1, .i32⟩
  | 6 => ⟨S100000x31, .f32⟩
  | 7 => ⟨S_, .i32⟩
  | 8 => ⟨S15, .i32⟩
  | 9 => ⟨S15, .i32⟩
  | 10 => ⟨S15, .i32⟩
  | 11 => ⟨S15x1, .i32⟩
  | 12 => ⟨S100000x15, .f32⟩
  | 13 => ⟨S_, .i32⟩
  | 14 => ⟨S15, .i32⟩
  | 15 => ⟨S15, .i32⟩
  | 16 => ⟨S15, .i32⟩
  | 17 => ⟨S15x1, .i32⟩
  | 18 => ⟨S100000x15, .f32⟩
  | 19 => ⟨S100000x15, .f32⟩
  | 20 => ⟨S_, .i32⟩
  | 21 => ⟨S15, .i32⟩
  | 22 => ⟨S15, .i32⟩
  | 23 => ⟨S15, .i32⟩
  | 24 => ⟨S15x1, .i32⟩
  | 25 => ⟨S100000x31, .f32⟩
  | 26 => ⟨S_, .i32⟩
  | 27 => ⟨S15, .i32⟩
  | 28 => ⟨S15, .i32⟩
  | 29 => ⟨S15, .i32⟩
  | 30 => ⟨S15x1, .i32⟩
  | 31 => ⟨S100000x15, .f32⟩
  | 32 => ⟨S_, .i32⟩
  | 33 => ⟨S15, .i32⟩
  | 34 => ⟨S15, .i32⟩
  | 35 => ⟨S15, .i32⟩
  | 36 => ⟨S15x1, .i32⟩
  | 37 => ⟨S100000x15, .f32⟩
  | 38 => ⟨S100000x15, .f32⟩
  | 39 => ⟨S_, .i32⟩
  | 40 => ⟨S15, .i32⟩
  | 41 => ⟨S15, .i32⟩
  | 42 => ⟨S15, .i32⟩
  | 43 => ⟨S15x1, .i32⟩
  | 44 => ⟨S100000x31, .f32⟩
  | 45 => ⟨S_, .i32⟩
  | 46 => ⟨S15, .i32⟩
  | 47 => ⟨S15, .i32⟩
  | 48 => ⟨S15, .i32⟩
  | 49 => ⟨S15x1, .i32⟩
  | 50 => ⟨S100000x15, .f32⟩
  | 51 => ⟨S_, .i32⟩
  | 52 => ⟨S15, .i32⟩
  | 53 => ⟨S15, .i32⟩
  | 54 => ⟨S15, .i32⟩
  | 55 => ⟨S15x1, .i32⟩
  | 56 => ⟨S100000x15, .f32⟩
  | 57 => ⟨S100000x15, .f32⟩
  | 58 => ⟨S_, .i32⟩
  | 59 => ⟨S15, .i32⟩
  | 60 => ⟨S15, .i32⟩
  | 61 => ⟨S15, .i32⟩
  | 62 => ⟨S15x1, .i32⟩
  | 63 => ⟨S100000x31, .f32⟩
  | 64 => ⟨S_, .i32⟩
  | 65 => ⟨S15, .i32⟩
  | 66 => ⟨S15, .i32⟩
  | 67 => ⟨S15, .i32⟩
  | 68 => ⟨S15x1, .i32⟩
  | 69 => ⟨S100000x15, .f32⟩
  | 70 => ⟨S_, .i32⟩
  | 71 => ⟨S15, .i32⟩
  | 72 => ⟨S15, .i32⟩
  | 73 => ⟨S15, .i32⟩
  | 74 => ⟨S15x1, .i32⟩
  | 75 => ⟨S100000x15, .f32⟩
  | 76 => ⟨S100000x15, .f32⟩
  | 77 => ⟨S_, .i32⟩
  | 78 => ⟨S15, .i32⟩
  | 79 => ⟨S15, .i32⟩
  | 80 => ⟨S15, .i32⟩
  | 81 => ⟨S15x1, .i32⟩
  | 82 => ⟨S100000x31, .f32⟩
  | 83 => ⟨S_, .i32⟩
  | 84 => ⟨S15, .i32⟩
  | 85 => ⟨S15, .i32⟩
  | 86 => ⟨S15, .i32⟩
  | 87 => ⟨S15x1, .i32⟩
  | 88 => ⟨S100000x15, .f32⟩
  | 89 => ⟨S_, .i32⟩
  | 90 => ⟨S15, .i32⟩
  | 91 => ⟨S15, .i32⟩
  | 92 => ⟨S15, .i32⟩
  | 93 => ⟨S15x1, .i32⟩
  | 94 => ⟨S100000x15, .f32⟩
  | 95 => ⟨S100000x15, .f32⟩
  | 96 => ⟨S_, .i32⟩
  | 97 => ⟨S15, .i32⟩
  | 98 => ⟨S15, .i32⟩
  | 99 => ⟨S15, .i32⟩
  | 100 => ⟨S15x1, .i32⟩
  | 101 => ⟨S100000x31, .f32⟩
  | 102 => ⟨S_, .f32⟩
  | 103 => ⟨S_, .f32⟩
  | 104 => ⟨S_, .f32⟩
  | 105 => ⟨S100000x31, .f32⟩
  | 106 => ⟨S100000x31, .f32⟩
  | 107 => ⟨S_, .f32⟩
  | 108 => ⟨S100000x31, .f32⟩
  | 109 => ⟨S100000x31, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_c_13 : Ref sig .tc := ⟨.hbm, 16, rfl⟩
abbrev main_c_14 : Ref sig .tc := ⟨.hbm, 17, rfl⟩
abbrev main_c_15 : Ref sig .tc := ⟨.hbm, 18, rfl⟩
abbrev main_c_16 : Ref sig .tc := ⟨.hbm, 19, rfl⟩
abbrev main_c_17 : Ref sig .tc := ⟨.hbm, 20, rfl⟩
abbrev main_c_18 : Ref sig .tc := ⟨.hbm, 21, rfl⟩
abbrev main_c_19 : Ref sig .tc := ⟨.hbm, 22, rfl⟩
abbrev main_c_20 : Ref sig .tc := ⟨.hbm, 23, rfl⟩
abbrev main_c_21 : Ref sig .tc := ⟨.hbm, 24, rfl⟩
abbrev main_c_22 : Ref sig .tc := ⟨.hbm, 25, rfl⟩
abbrev main_c_23 : Ref sig .tc := ⟨.hbm, 26, rfl⟩
abbrev main_c_24 : Ref sig .tc := ⟨.hbm, 27, rfl⟩
abbrev main_c_25 : Ref sig .tc := ⟨.hbm, 28, rfl⟩
abbrev main_c_26 : Ref sig .tc := ⟨.hbm, 29, rfl⟩
abbrev main_c_27 : Ref sig .tc := ⟨.hbm, 30, rfl⟩
abbrev main_c_28 : Ref sig .tc := ⟨.hbm, 31, rfl⟩
abbrev main_c_29 : Ref sig .tc := ⟨.hbm, 32, rfl⟩
abbrev main_c_30 : Ref sig .tc := ⟨.hbm, 33, rfl⟩
abbrev main_c_31 : Ref sig .tc := ⟨.hbm, 34, rfl⟩
abbrev main_v0 : Ref sig .tc := ⟨.hbm, 35, rfl⟩
abbrev main_v1 : Ref sig .tc := ⟨.hbm, 36, rfl⟩
abbrev main_cst : Ref sig .tc := ⟨.hbm, 37, rfl⟩
abbrev main_v2 : Ref sig .tc := ⟨.hbm, 38, rfl⟩
abbrev main_c_32 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_c_33 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_c_34 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_c_35 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_c_36 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c_37 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_c_38 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_39 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_40 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c_41 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c_42 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_c_43 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_c_44 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_45 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_c_46 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_47 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_c_48 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_c_49 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_50 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_c_51 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_c_52 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_c_53 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_c_54 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_c_55 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_c_56 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_c_57 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_c_58 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_c_59 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_c_60 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_c_61 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_cst_62 : Ref sig .tc := ⟨.hbm, 230, rfl⟩
abbrev main_cst_63 : Ref sig .tc := ⟨.hbm, 231, rfl⟩
abbrev main_call0_v0 : Ref sig .tc := ⟨.hbm, 232, rfl⟩
abbrev main_call0_v1 : Ref sig .tc := ⟨.hbm, 233, rfl⟩
abbrev main_call0_v2 : Ref sig .tc := ⟨.hbm, 234, rfl⟩
abbrev main_call0_v3 : Ref sig .tc := ⟨.hbm, 235, rfl⟩
abbrev main_call0_v4 : Ref sig .tc := ⟨.hbm, 236, rfl⟩
abbrev main_v164 : Ref sig .tc := ⟨.hbm, 237, rfl⟩

abbrev nD : Nat := 1
abbrev τ : Topo := Topo.v7x

variable {F : FTy → Type} [FloatOps F]

class Facts₀ : Prop where
  transposes_S15x128_S128x15_1_0 : S15x128.Transposes [1, 0] S128x15
  bcast_S_S100000x31 : S_.BroadcastsInDim S100000x31 (![] : Fin 0 → Fin S100000x31.rank)
  bcast_S_S15 : S_.BroadcastsInDim S15 (![] : Fin 0 → Fin S15.rank)
  bcast_S15_S15x1_0 : S15.BroadcastsInDim S15x1 (![0] : Fin 1 → Fin S15x1.rank)
  dot_S100000x128_S128x15_S100000x15_1_0_0_1_n_n_wf : DotDims.WF S100000x128 S128x15 S100000x15 [1] [0] [0] [1] [] []
  gather_S100000x31_S15x1_S100000x15_0_1_n_n_1_1_1000001_wf : GatherDims.WF S100000x31 S15x1 S100000x15 [0] [1] [] [1] [] 1 ![100000, 1]
  gather_S100000x15_S15x1_S100000x15_0_1_n_n_1_1_1000001_wf : GatherDims.WF S100000x15 S15x1 S100000x15 [0] [1] [] [1] [] 1 ![100000, 1]
  scatter_S100000x31_S15x1_S100000x15_0_1_1_1_wf : ScatterDims.WF S100000x31 S15x1 S100000x15 [0] [1] [1] 1

variable [Facts₀]

def dot_S100000x128_S128x15_S100000x15_1_0_0_1_n_n : DotDims S100000x128 S128x15 S100000x15 where
  lhsContracting := [1]
  rhsContracting := [0]
  lhsNonContracting := [0]
  rhsNonContracting := [1]
  lhsBatch := []
  rhsBatch := []
  wf := dot_S100000x128_S128x15_S100000x15_1_0_0_1_n_n_wf
def gather_S100000x31_S15x1_S100000x15_0_1_n_n_1_1_1000001 : GatherDims S100000x31 S15x1 S100000x15 where
  offsetDims := [0]
  collapsedSliceDims := [1]
  operandBatchingDims := []
  startIndicesBatchingDims := []
  startIndexMap := [1]
  indexVectorDim := 1
  sliceSizes := ![100000, 1]
  wf := gather_S100000x31_S15x1_S100000x15_0_1_n_n_1_1_1000001_wf
def gather_S100000x15_S15x1_S100000x15_0_1_n_n_1_1_1000001 : GatherDims S100000x15 S15x1 S100000x15 where
  offsetDims := [0]
  collapsedSliceDims := [1]
  operandBatchingDims := []
  startIndicesBatchingDims := []
  startIndexMap := [1]
  indexVectorDim := 1
  sliceSizes := ![100000, 1]
  wf := gather_S100000x15_S15x1_S100000x15_0_1_n_n_1_1_1000001_wf
def scatter_S100000x31_S15x1_S100000x15_0_1_1_1 : ScatterDims S100000x31 S15x1 S100000x15 where
  updateWindowDims := [0]
  insertedWindowDims := [1]
  scatterDimsToOperandDims := [1]
  indexVectorDim := 1
  wf := scatter_S100000x31_S15x1_S100000x15_0_1_1_1_wf

class Facts : Prop extends Facts₀ where

variable [Facts]
-- ==== Proof.KTree.lean ====
/-
  What one launch of the tree kernel leaves in its output array, as a function of its flat input
  array, at any float instance.

  The input is fifty thousand rows of 128 projections, flat; the output is 125 chunks of 400 rows of
  31 node values, each chunk one flat row of 12400.  Position `p` of chunk `ch` is node `p % 31` of
  the chunk's row `p / 31`; that row's projection `i` sits at the flat input position
  `((ch * 400 + p / 31) * 128 + i)`.  Node `0` holds `1`; node `n ≥ 1` holds the minimum along the path
  from the root to it of `1` and of the parents' projections (negated where the path goes right),
  cut off below at `0`.  The recursion is the one the kernel unrolls: the left child `2 p + 1` takes
  `min (node p) (a p)`, the right child `2 p + 2` takes `min (node p) (- a p)`.
-/
import Idealize.ShloMosaic.PureOps.Float
import Idealize.ShloMosaic.Lib.ValueIdx

noncomputable section

namespace Cert.KTree

open Idealize.ShloMosaic Idealize.ShloMosaic.ValueIdx

variable {F : FTy → Type} [FloatOps F]

/-- The flat input and the chunked output of one launch. -/
abbrev SIn : Shape := ⟨1, ![6400000]⟩
abbrev SOut : Shape := ⟨2, ![125, 12400]⟩

/-- The f32 words `1.0` and `0.0`. -/
def one : F .f32 := Scalar.ofBits .f32 0x3F800000#32
def zero : F .f32 := Scalar.ofBits .f32 0x00000000#32

/-- The value at node `n` for the projections `a` of one row: node `n + 1` has the parent `n / 2` and is
    its left child exactly when `n` is even. -/
def nodeVal (a : ℕ → F .f32) : ℕ → F .f32
  | 0 => one
  | n + 1 =>
    if n % 2 = 0 then FloatOps.minimumf (nodeVal a (n / 2)) (a (n / 2))
    else FloatOps.minimumf (nodeVal a (n / 2)) (FloatOps.subf zero (a (n / 2)))
decreasing_by all_goals omega

theorem nodeVal_zero (a : ℕ → F .f32) : nodeVal a 0 = one := by
  rw [nodeVal]

theorem nodeVal_left (a : ℕ → F .f32) (p : ℕ) :
    nodeVal a (2 * p + 1) = FloatOps.minimumf (nodeVal a p) (a p) := by
  rw [nodeVal, if_pos (by omega), show 2 * p / 2 = p by omega]

theorem nodeVal_right (a : ℕ → F .f32) (p : ℕ) :
    nodeVal a (2 * p + 2) = FloatOps.minimumf (nodeVal a p) (FloatOps.subf zero (a p)) := by
  rw [show 2 * p + 2 = (2 * p + 1) + 1 by omega, nodeVal, if_neg (by omega), show (2 * p + 1) / 2 = p by omega]

/-- Projection `i` of local row `r` of chunk `ch`, read off the flat input (total: positions wrap at the
    array's length, which no position of a real row reaches). -/
def projAt (X : SIn.Idx → F .f32) (ch r i : ℕ) : F .f32 :=
  X (ix1 ⟨((ch * 400 + r) * 128 + i) % 6400000, Nat.mod_lt _ (by decide)⟩)

/-- The output array of one launch. -/
def outFlat (X : SIn.Idx → F .f32) : SOut.Idx → F .f32 := fun j =>
  if (j 1).val % 31 = 0 then one
  else FloatOps.maximumf (nodeVal (projAt X (j 0).val ((j 1).val / 31)) ((j 1).val % 31)) zero

end Cert.KTree

end
-- ==== Proof.KIBase.lean ====
/-
  The idealized kernel program as the SparseCore launch theorem sees it, and the names every part of
  its proof shares: the ghost state, the four arrays the two tree launches read and write, and the
  rows of an output array (one row of 12400 words per chunk of 400 tree rows).
-/
import proofs.«209939_g34969623724736_cont_8to1_b_5_19_alg».proof.KernelIdeal
import proofs.«209939_g34969623724736_cont_8to1_b_5_19_alg».proof.Proof.Gen.KernelIdeal
import proofs.«209939_g34969623724736_cont_8to1_b_5_19_alg».proof.Proof.KTree
import Idealize.ShloMosaic.Lib.SparseCore.Launch
import Idealize.ShloMosaic.Lib.SparseCore.Ops
import Idealize.ShloMosaic.Lib.Pipeline.Kit
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the launch handshakes' rounds, the two matrix products' staging cells' rounds,
    and the counters of the tiles' own copies -/

abbrev UH : Type := URounds (GSem nD τ sig) ℕ
abbrev UR : Type := URounds (GSem nD τ sig) Unit
abbrev UU : Type := UH × (UR × Counters)

/-! ## The arrays of the two tree launches -/

/-- Launch `q`'s flat input (the matrix product of one half of the rows, flattened) and chunked output,
    as the TensorCore names them. -/
abbrev inRef : Fin 2 → Ref sig .tc := fun | 0 => main_v6 | 1 => main_v10 | ⟨_ + 2, h⟩ => absurd h (Nat.not_lt.2 (Nat.le_add_left _ _))
abbrev outRef : Fin 2 → Ref sig .tc := fun | 0 => main_v7 | 1 => main_v11 | ⟨_ + 2, h⟩ => absurd h (Nat.not_lt.2 (Nat.le_add_left _ _))
abbrev in0Loc (d : Dev nD) : Loc nD τ sig := (SparseCore.T d).loc main_v6
abbrev out0Loc (d : Dev nD) : Loc nD τ sig := (SparseCore.T d).loc main_v7
abbrev in1Loc (d : Dev nD) : Loc nD τ sig := (SparseCore.T d).loc main_v10
abbrev out1Loc (d : Dev nD) : Loc nD τ sig := (SparseCore.T d).loc main_v11

/-- The same arrays as a tile's memrefs. -/
abbrev in0V : Memref sig .scVector .hbm S6400000 .f32 := Memref.whole main_v6_scv
abbrev out0V : Memref sig .scVector .hbm S125x12400 .f32 := Memref.whole main_v7_scv
abbrev in1V : Memref sig .scVector .hbm S6400000 .f32 := Memref.whole main_v10_scv
abbrev out1V : Memref sig .scVector .hbm S125x12400 .f32 := Memref.whole main_v11_scv
/-- A tile's two scratches in each launch: the fetched chunk of projections, the chunk of node values. -/
abbrev sA1 : Memref sig .scVector .vmem S51200 .f32 := Memref.whole cc1_scratch0
abbrev sB1 : Memref sig .scVector .vmem S12400 .f32 := Memref.whole cc1_scratch1
abbrev sA3 : Memref sig .scVector .vmem S51200 .f32 := Memref.whole cc3_scratch0
abbrev sB3 : Memref sig .scVector .vmem S12400 .f32 := Memref.whole cc3_scratch1

/-! ## The rows of an output array: one per chunk -/

theorem hdiv : 125 ∣ S125x12400.size 0 := ⟨1, rfl⟩
/-- Row `ch` of the output: chunk `ch`'s 400 tree rows of 31 node values. -/
abbrev row (ch : Fin 125) : Rect S125x12400 := Rect.part (s := S125x12400) (a₀ := 0) hdiv ch
abbrev rowSet (ch : Fin 125) : Finset S125x12400.Idx := ((out0V : Memref sig .scVector .hbm S125x12400 .f32).view.slice (row ch)).set

/-- The tile at grid coordinates `L` is worker number `2 * subcore + core`; it takes the chunks
    `worker + 32 * k`. -/
def wid (c s : ℕ) : ℕ := 2 * s + c
/-- The chunks of worker `w`. -/
def chunksOf (w : ℕ) : Finset (Fin 125) := Finset.univ.filter fun ch => ch.val % 32 = w

end Cert.Proof.KI

end
-- ==== Proof.KIRegion0.lean ====
/-
  The matrix-product region of the first half of the rows, as one pipeline region of the program.

  At a parameter `V` (the TensorCore's buffer contents when the region is entered): each window's
  block at a grid point read off its array, what the body leaves in the output window's staging
  buffer (the product of the row block with the transposed weight block, into a zero accumulator,
  stored whole), the body's triple, the pipeline's proof data and the body obligation at every point.
-/
import proofs.«209939_g34969623724736_cont_8to1_b_5_19_alg».proof.Proof.KIBase
import proofs.«209939_g34969623724736_cont_8to1_b_5_19_alg».proof.Proof.Gen.KernelIdeal.Launch
import proofs.«209939_g34969623724736_cont_8to1_b_5_19_alg».proof.Proof.Gen.KernelIdeal.Skeleton
import proofs.«209939_g34969623724736_cont_8to1_b_5_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Region

variable (V : (c : Dev nD) → (b : Ref sig .tc) → Buf (Elt F) ((c : Thread nD τ).loc b))
-- what the TensorCore owes the launch handshakes while the region runs (the start signals of later calls)
variable (O : Dev nD → CellTallies nD τ sig (HIx 2))
-- a bound on the (semaphore, index) pairs the TensorCore's waits have recorded before the region
variable (B : Dev nD → Set (SemLoc sig × HIx 2))

/-- The region's invariant: the scoped buffers no window stages, at some contents, and the generator register. -/
def ΦR0 (c : Dev nD) : sProp 𝕄 :=
  iprop(Pipeline.scopedRest (Ix := HIx 2) (Name := ℕ) (U := UU) (Lvl := ℕ) (Val := Elt F) spec0 c ∗ ∃ r, prngReg c r)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds its block at every point. -/
theorem before0_0_of {c : Dev nD} (dat : Dat τ (Elt F) (HIx 2) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight block's staging buffer holds the whole weight matrix at every point (fetched once: its index never moves). -/
theorem before0_1_of {c : Dev nD} (dat : Dat τ (Elt F) (HIx 2) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S10000x128 := Rect.unit (s := S10000x128) ![0, 0] S10000x128.size inb_S10000x128_S10000x128_0_0
abbrev rW0 : Rect S128x128 := Rect.unit (s := S128x128) ![0, 0] S128x128.size inb_S128x128_S128x128_0_0

/-- The output window's staging buffer after the body: the one whole store of the product. -/
def out0_2 (x0 : Vec F S10000x128 .f32) (x1 : Vec F S128x128 .f32) : Vec F S10000x128 .f32 :=
  View.canon [⟨rX0, k0_pay1 (View.ld x0 rX0) (View.ld x1 rW0)⟩]

theorem cover0_2 (p0 : Vec F S10000x128 .f32) (y : S10000x128.Idx) :
    ∃ pc ∈ ([⟨rX0, p0⟩] : List (View.Piece (Elt F) S10000x128 .f32)), y ∈ pc.1.set :=
  View.cover_of_tiled [⟨rX0, p0⟩] S10000x128.size (by rfl) y

set_option maxHeartbeats 1000000 in
/-- The body on whole staging memrefs: the two inputs kept, the output's buffer at the product. -/
theorem sound_kernel0 (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (Kp : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ Kp ⟨⟩))
      ⊢ wp frame (wpE (defs₀ (F := F)) Variants.none c none) E (cc0__mm_body i arg1 harg1 arg2 harg2 arg3 harg3) Kp := by
  simp only [cc0__mm_body_eq_skeleton]; unfold cc0__mm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the pipeline on core `c`: the arrays as the region finds them; after the body at point `t`
    each input's buffer at its block and the output's at the product of the two; the scoped rest and the generator
    register untouched; the TensorCore owing `O c` throughout; full shares. -/
def dat0 (c : Dev nD) : Dat τ (Elt F) (HIx 2) ℕ UU ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := ΦR0 c
  q _ := fullShare
  owed _ := O c
  recorded _ := B c

theorem A_eq0 (c : Dev nD) (w : Fin cfg0.W) : (dat0 V O B c).A w = V c (Pipeline.arrRef spec0 w) := by
  dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = out0_2 (iblk0 V c 0 t) (iblk0 V c 1 t) := by dsimp only [dat0]
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d

def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d)))

def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t))

theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1]
  rw [show (dat0 V O B c).Φ t.succ = (dat0 V O B c).Φ t.castSucc from rfl,
    show (dat0 V O B c).owesAt none t.succ = (dat0 V O B c).owesAt none t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V O B c) (defs₀ (F := F)) Variants.none none Set.univ := fun t => by
  rw [bigSep_W0, bigSep_W0]
  exact sound_body0 V O B c t

end Region

end Cert.Proof.KI

end
-- ==== Proof.KIRegion2.lean ====
/-
  The matrix-product region of the second half of the rows, as one pipeline region of the program.

  At a parameter `V` (the TensorCore's buffer contents when the region is entered): each window's
  block at a grid point read off its array, what the body leaves in the output window's staging
  buffer (the product of the row block with the transposed weight block, into a zero accumulator,
  stored whole), the body's triple, the pipeline's proof data and the body obligation at every point.
-/
import proofs.«209939_g34969623724736_cont_8to1_b_5_19_alg».proof.Proof.KIBase
import proofs.«209939_g34969623724736_cont_8to1_b_5_19_alg».proof.Proof.Gen.KernelIdeal.Launch
import proofs.«209939_g34969623724736_cont_8to1_b_5_19_alg».proof.Proof.Gen.KernelIdeal.Skeleton
import proofs.«209939_g34969623724736_cont_8to1_b_5_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Region

variable (V : (c : Dev nD) → (b : Ref sig .tc) → Buf (Elt F) ((c : Thread nD τ).loc b))
-- what the TensorCore owes the launch handshakes while the region runs (the start signals of later calls)
variable (O : Dev nD → CellTallies nD τ sig (HIx 2))
-- a bound on the (semaphore, index) pairs the TensorCore's waits have recorded before the region
variable (B : Dev nD → Set (SemLoc sig × HIx 2))

/-- The region's invariant: the scoped buffers no window stages, at some contents, and the generator register. -/
def ΦR2 (c : Dev nD) : sProp 𝕄 :=
  iprop(Pipeline.scopedRest (Ix := HIx 2) (Name := ℕ) (U := UU) (Lvl := ℕ) (Val := Elt F) spec2 c ∗ ∃ r, prngReg c r)

/-- Window `w`'s block at point `t`, read off its array as the region finds it. -/
def iblk1 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds its block at every point. -/
theorem before1_0_of {c : Dev nD} (dat : Dat τ (Elt F) (HIx 2) ℕ UU ℕ cfg2 c) (hA : dat.A 0 = V c (Pipeline.arrRef spec2 0))
    (hafter : ∀ t, dat.after 0 t = iblk1 V c 0 t) (t : Fin cfg2.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight block's staging buffer holds the whole weight matrix at every point (fetched once: its index never moves). -/
theorem before1_1_of {c : Dev nD} (dat : Dat τ (Elt F) (HIx 2) ℕ UU ℕ cfg2 c) (hA : dat.A 1 = V c (Pipeline.arrRef spec2 1))
    (hafter : ∀ t, dat.after 1 t = iblk1 V c 1 t) (t : Fin cfg2.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S10000x128 := Rect.unit (s := S10000x128) ![0, 0] S10000x128.size inb_S10000x128_S10000x128_0_0
abbrev rW1 : Rect S128x128 := Rect.unit (s := S128x128) ![0, 0] S128x128.size inb_S128x128_S128x128_0_0

/-- The output window's staging buffer after the body: the one whole store of the product. -/
def out1_2 (x0 : Vec F S10000x128 .f32) (x1 : Vec F S128x128 .f32) : Vec F S10000x128 .f32 :=
  View.canon [⟨rX1, k2_pay1 (View.ld x0 rX1) (View.ld x1 rW1)⟩]

theorem cover1_2 (p0 : Vec F S10000x128 .f32) (y : S10000x128.Idx) :
    ∃ pc ∈ ([⟨rX1, p0⟩] : List (View.Piece (Elt F) S10000x128 .f32)), y ∈ pc.1.set :=
  View.cover_of_tiled [⟨rX1, p0⟩] S10000x128.size (by rfl) y

set_option maxHeartbeats 1000000 in
/-- The body on whole staging memrefs: the two inputs kept, the output's buffer at the product. -/
theorem sound_kernel1 (c : Dev nD) (E : Set ℕ) (i : grid2.Coords)
    (arg1 : Memref sig .tc .vmem S10000x128 .f32) (harg1 : arg1.IsWhole) (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (Kp : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ Kp ⟨⟩))
      ⊢ wp frame (wpE (defs₀ (F := F)) Variants.none c none) E (cc2__mm_body i arg1 harg1 arg2 harg2 arg3 harg3) Kp := by
  simp only [cc2__mm_body_eq_skeleton]; unfold cc2__mm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the pipeline on core `c`: the arrays as the region finds them; after the body at point `t`
    each input's buffer at its block and the output's at the product of the two; the scoped rest and the generator
    register untouched; the TensorCore owing `O c` throughout; full shares. -/
def dat1 (c : Dev nD) : Dat τ (Elt F) (HIx 2) ℕ UU ℕ cfg2 c where
  A w := V c (Pipeline.arrRef spec2 w)
  after w t := match w with
    | ⟨0, _⟩ => iblk1 V c 0 t
    | ⟨1, _⟩ => iblk1 V c 1 t
    | ⟨2, _⟩ => out1_2 (iblk1 V c 0 t) (iblk1 V c 1 t)
  Φ _ := ΦR2 c
  q _ := fullShare
  owed _ := O c
  recorded _ := B c

theorem A_eq1 (c : Dev nD) (w : Fin cfg2.W) : (dat1 V O B c).A w = V c (Pipeline.arrRef spec2 w) := by
  dsimp only [dat1]
theorem after1_0 (c : Dev nD) (t : Fin cfg2.N) : (dat1 V O B c).after 0 t = iblk1 V c 0 t := by dsimp only [dat1]
theorem after1_1 (c : Dev nD) (t : Fin cfg2.N) : (dat1 V O B c).after 1 t = iblk1 V c 1 t := by dsimp only [dat1]
theorem after1_2 (c : Dev nD) (t : Fin cfg2.N) : (dat1 V O B c).after 2 t = out1_2 (iblk1 V c 0 t) (iblk1 V c 1 t) := by dsimp only [dat1]
theorem before1_0 (c : Dev nD) (t : Fin cfg2.N) (d) : (dat1 V O B c).before 0 t d = iblk1 V c 0 t :=
  before1_0_of V (dat1 V O B c) (A_eq1 V O B c 0) (after1_0 V O B c) t d
theorem before1_1 (c : Dev nD) (t : Fin cfg2.N) (d) : (dat1 V O B c).before 1 t d = iblk1 V c 1 t :=
  before1_1_of V (dat1 V O B c) (A_eq1 V O B c 1) (after1_1 V O B c) t d

def bodyPre1 (c : Dev nD) (t : Fin cfg2.N) : sProp 𝕄 :=
  iprop((dat1 V O B c).Φ t.castSucc ∗ (dat1 V O B c).owesAt none t.castSucc
    ∗ (∃ d, owns (c : Thread nD τ) (st2_0 t) fullShare ((dat1 V O B c).before 0 t d))
    ∗ (∃ d, owns (c : Thread nD τ) (st2_1 t) fullShare ((dat1 V O B c).before 1 t d))
    ∗ (∃ d, owns (c : Thread nD τ) (st2_2 t) fullShare ((dat1 V O B c).before 2 t d)))

def bodyPost1 (c : Dev nD) (t : Fin cfg2.N) : sProp 𝕄 :=
  iprop((dat1 V O B c).Φ t.succ ∗ (dat1 V O B c).owesAt none t.succ
    ∗ owns (c : Thread nD τ) (st2_0 t) fullShare ((dat1 V O B c).after 0 t)
    ∗ owns (c : Thread nD τ) (st2_1 t) fullShare ((dat1 V O B c).after 1 t)
    ∗ owns (c : Thread nD τ) (st2_2 t) fullShare ((dat1 V O B c).after 2 t))

theorem sound_body1 (c : Dev nD) (t : Fin cfg2.N) :
    bodyPre1 V O B c t ⊢ wp frame (wpE (defs₀ (F := F)) Variants.none c none) Set.univ (bodyAt2 t) (fun _ => bodyPost1 V O B c t) := by
  unfold bodyPre1 bodyPost1 bodyAt2
  simp only [before1_0, before1_1]
  rw [show (dat1 V O B c).Φ t.succ = (dat1 V O B c).Φ t.castSucc from rfl,
    show (dat1 V O B c).owesAt none t.succ = (dat1 V O B c).owesAt none t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V O B c) (defs₀ (F := F)) Variants.none none Set.univ := fun t => by
  rw [bigSep_W2, bigSep_W2]
  exact sound_body1 V O B c t

end Region

end Cert.Proof.KI

end
-- ==== Proof.KIPay.lean ====
/-
  What the two tree launches hand over and take back.

  Launch `q` reads its flat input whole and writes its chunked output.  Every tile reads the whole
  input, so the input goes out as 32 read shares, one per worker, the remainder staying with the
  TensorCore; the output goes out row by row (a row is a chunk): worker `w` owns the rows `ch` with
  `ch % 32 = w`, SparseCore `c` those with `ch % 2 = c` (worker `2 s + c` sits on SparseCore `c`).
  Handed over, an output row holds anything; taken back, it holds the launch's value function of
  the input's contents `X q d`.
-/
import proofs.«209939_g34969623724736_cont_8to1_b_5_19_alg».proof.Proof.KIBase

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig (HIx 2) (Elt F) ℕ UU ℕ

/-- The contents of the two launches' inputs when they are called, per device. -/
abbrev Inputs (F : FTy → Type) : Type := (d : Dev nD) → (S6400000.Idx → F .f32) × (S6400000.Idx → F .f32)

variable (X : Inputs F)

/-- Worker `w`'s read share of launch 0's input, and what remains with the TensorCore. -/
abbrev in0Tok (d : Dev nD) (w : ℕ) : sProp 𝕄 := in0Loc d ↦{shareTokN fullShare w} (X d).1
abbrev in1Tok (d : Dev nD) (w : ℕ) : sProp 𝕄 := in1Loc d ↦{shareTokN fullShare w} (X d).2
/-- Output row `ch` at anything, and at the launch's value. -/
abbrev out0Any (d : Dev nD) (ch : Fin 125) : sProp 𝕄 := iprop(∃ f, out0Loc d ↦[rowSet ch]{fullShare} f)
abbrev out1Any (d : Dev nD) (ch : Fin 125) : sProp 𝕄 := iprop(∃ f, out1Loc d ↦[rowSet ch]{fullShare} f)
abbrev out0Val (d : Dev nD) (ch : Fin 125) : sProp 𝕄 := out0Loc d ↦[rowSet ch]{fullShare} (KTree.outFlat (X d).1)
abbrev out1Val (d : Dev nD) (ch : Fin 125) : sProp 𝕄 := out1Loc d ↦[rowSet ch]{fullShare} (KTree.outFlat (X d).2)

/-- The chunks of SparseCore `c`. -/
def chunksOfCore (c : ℕ) : Finset (Fin 125) := Finset.univ.filter fun ch => ch.val % 2 = c

/-- The two calls' payloads: to a SparseCore its sixteen workers' read shares and its rows; to a tile its own. -/
def P : (K (F := F)).Pay (nD := nD) (Val := Elt F) (Name := ℕ) (U := UU) where
  st := fun q d c => match q with
    | 0 => iprop((bigSep (Finset.univ : Finset (Fin 16)) fun i => in0Tok X d (wid c.val i.val)) ∗ bigSep (chunksOfCore c.val) fun ch => out0Any d ch)
    | 1 => iprop((bigSep (Finset.univ : Finset (Fin 16)) fun i => in1Tok X d (wid c.val i.val)) ∗ bigSep (chunksOfCore c.val) fun ch => out1Any d ch)
  dn := fun q d c => match q with
    | 0 => iprop((bigSep (Finset.univ : Finset (Fin 16)) fun i => in0Tok X d (wid c.val i.val)) ∗ bigSep (chunksOfCore c.val) fun ch => out0Val X d ch)
    | 1 => iprop((bigSep (Finset.univ : Finset (Fin 16)) fun i => in1Tok X d (wid c.val i.val)) ∗ bigSep (chunksOfCore c.val) fun ch => out1Val X d ch)
  go := fun q d c i => match q with
    | 0 => iprop(in0Tok X d (wid c.val i.val) ∗ bigSep (chunksOf (wid c.val i.val)) fun ch => out0Any d ch)
    | 1 => iprop(in1Tok X d (wid c.val i.val) ∗ bigSep (chunksOf (wid c.val i.val)) fun ch => out1Any d ch)
  td := fun q d c i => match q with
    | 0 => iprop(in0Tok X d (wid c.val i.val) ∗ bigSep (chunksOf (wid c.val i.val)) fun ch => out0Val X d ch)
    | 1 => iprop(in1Tok X d (wid c.val i.val) ∗ bigSep (chunksOf (wid c.val i.val)) fun ch => out1Val X d ch)
  x := fun _ _ => iprop(emp)

end Cert.Proof.KI

end
-- ==== Proof.KIFold.lean ====
/-
  The TensorCore's buffer contents at every boundary of @main, as a fold from the launch memory:
  the weight matrix built by six host operations, the first half's matrix product (a pipeline
  region), its flattening, the first tree launch, its reshaping, the second half's product, its
  flattening, the second tree launch, its reshaping, and the concatenation of the two halves.
  A host operation acts by its function; a region leaves in its arrays what its write-backs fold to;
  a tree launch leaves in its output array the kernel's value function of its input array.
-/
import proofs.«209939_g34969623724736_cont_8to1_b_5_19_alg».proof.Proof.KIRegion0
import proofs.«209939_g34969623724736_cont_8to1_b_5_19_alg».proof.Proof.KIRegion2
import proofs.«209939_g34969623724736_cont_8to1_b_5_19_alg».proof.Proof.KIPay

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The ghost state's three parts -/

/-- The launch handshakes' rounds. -/
abbrev EH : Emb UH (MT nD τ sig (HIx 2) (Elt F) ℕ UU ℕ) := embL
/-- The matrix products' staging cells' rounds. -/
def ER : Emb UR (MT nD τ sig (HIx 2) (Elt F) ℕ UU ℕ) := (Emb.inl : Emb UR (UR × Counters)).trans embR
instance ER_landsIn : (ER : Emb UR 𝕄).LandsIn (upEmb : UEmb _ 𝕄) := by unfold ER; infer_instance

/-! ## @main's host operations -/

abbrev op_cst : HloOp τ sig (Elt F) := StableHlo.nullary main_cst (constant S_ .f32 0x00000000#32)
abbrev op_v0 : HloOp τ sig (Elt F) := StableHlo.unary main_cst main_v0 (broadcastInDim S1x128 ![] bcast_S_S1x128 : (⟨S_, .f32⟩ : BufTy).Contents (Elt F) → (⟨S1x128, .f32⟩ : BufTy).Contents (Elt F))
abbrev op_v1 : HloOp τ sig (Elt F) := StableHlo.binary main_arg1 main_v0 main_v1 ((fun a b => concatenate S16x128 0 [⟨S15x128, a⟩, ⟨S1x128, b⟩] concatenates_S15x128_S1x128_S16x128_d0) : (⟨S15x128, .f32⟩ : BufTy).Contents (Elt F) → (⟨S1x128, .f32⟩ : BufTy).Contents (Elt F) → (⟨S16x128, .f32⟩ : BufTy).Contents (Elt F))
abbrev op_v2 : HloOp τ sig (Elt F) := StableHlo.reshape main_v1 main_v2 rfl shapeCasts_S16x128_S1x16x1x128
abbrev op_v3 : HloOp τ sig (Elt F) := StableHlo.unary main_v2 main_v3 (broadcastInDim S8x16x1x128 ![0, 1, 2, 3] bcast_S1x16x1x128_S8x16x1x128_0_1_2_3 : (⟨S1x16x1x128, .f32⟩ : BufTy).Contents (Elt F) → (⟨S8x16x1x128, .f32⟩ : BufTy).Contents (Elt F))
abbrev op_v4 : HloOp τ sig (Elt F) := StableHlo.reshape main_v3 main_v4 rfl shapeCasts_S8x16x1x128_S128x128
abbrev op_v6 : HloOp τ sig (Elt F) := StableHlo.reshape main_v5 main_v6 rfl shapeCasts_S50000x128_S6400000
abbrev op_v8 : HloOp τ sig (Elt F) := StableHlo.reshape main_v7 main_v8 rfl shapeCasts_S125x12400_S50000x31
abbrev op_v10 : HloOp τ sig (Elt F) := StableHlo.reshape main_v9 main_v10 rfl shapeCasts_S50000x128_S6400000
abbrev op_v12 : HloOp τ sig (Elt F) := StableHlo.reshape main_v11 main_v12 rfl shapeCasts_S125x12400_S50000x31
abbrev op_v13 : HloOp τ sig (Elt F) := StableHlo.binary main_v8 main_v12 main_v13 ((fun a b => concatenate S100000x31 0 [⟨S50000x31, a⟩, ⟨S50000x31, b⟩] concatenates_S50000x31_S50000x31_S100000x31_d0) : (⟨S50000x31, .f32⟩ : BufTy).Contents (Elt F) → (⟨S50000x31, .f32⟩ : BufTy).Contents (Elt F) → (⟨S100000x31, .f32⟩ : BufTy).Contents (Elt F))

/-! ## The contents at each boundary -/

variable (m : (ℓ : Loc nD τ sig) → Buf (Elt F) ℓ)

/-- What the TensorCore of `c` owes the launch handshakes before call `n`, and the level bound on its recorded waits. -/
abbrev Otc (c : Dev nD) (n : ℕ) : CellTallies nD τ sig (HIx 2) := (K (F := F)).Otc c n
def Bnd (n : ℕ) (c : Dev nD) : Set (SemLoc sig × HIx 2) := {p | (K (F := F)).lev ((T c : Thread nD τ), p.1) p.2 ≤ 8 * n}

/-- At launch. -/
abbrev W0 (c : Dev nD) : Valuation τ sig (Elt F) := fun b => m (c, b)
/-- After the six operations that build the weight matrix. -/
abbrev W1 (c : Dev nD) : Valuation τ sig (Elt F) :=
  (op_v4 (F := F)).result ((op_v3 (F := F)).result ((op_v2 (F := F)).result ((op_v1 (F := F)).result ((op_v0 (F := F)).result ((op_cst (F := F)).result (W0 m c))))))
abbrev V1 : (c : Dev nD) → (b : Ref sig .tc) → Buf (Elt F) ((c : Thread nD τ).loc b) := fun c b => W1 m c b
/-- After the first matrix product. -/
def W2 (c : Dev nD) : Valuation τ sig (Elt F) :=
  Pipeline.withArrays spec0 c (W1 m c) fun w => (dat0 (V1 m) (fun c => Otc (F := F) c 0) (Bnd (F := F) 0) c).arrAt w cfg0.N
/-- After its flattening. -/
abbrev W3 (c : Dev nD) : Valuation τ sig (Elt F) := (op_v6 (F := F)).result (W2 m c)
/-- After the first tree launch. -/
def W4 (c : Dev nD) : Valuation τ sig (Elt F) :=
  Function.update (W3 m c) (Proc.devRef .tc main_v7) (KTree.outFlat (W3 m c (Proc.devRef .tc main_v6)))
/-- After its reshaping. -/
abbrev W5 (c : Dev nD) : Valuation τ sig (Elt F) := (op_v8 (F := F)).result (W4 m c)
abbrev V5 : (c : Dev nD) → (b : Ref sig .tc) → Buf (Elt F) ((c : Thread nD τ).loc b) := fun c b => W5 m c b
/-- After the second matrix product. -/
def W6 (c : Dev nD) : Valuation τ sig (Elt F) :=
  Pipeline.withArrays spec2 c (W5 m c) fun w => (dat1 (V5 m) (fun c => Otc (F := F) c 1) (Bnd (F := F) 1) c).arrAt w cfg2.N
/-- After its flattening. -/
abbrev W7 (c : Dev nD) : Valuation τ sig (Elt F) := (op_v10 (F := F)).result (W6 m c)
/-- After the second tree launch. -/
def W8 (c : Dev nD) : Valuation τ sig (Elt F) :=
  Function.update (W7 m c) (Proc.devRef .tc main_v11) (KTree.outFlat (W7 m c (Proc.devRef .tc main_v10)))
/-- After its reshaping and the concatenation: the end. -/
abbrev W9 (c : Dev nD) : Valuation τ sig (Elt F) := (op_v13 (F := F)).result ((op_v12 (F := F)).result (W8 m c))

/-- The two tree launches' inputs when they are called. -/
def inputs : Inputs F := fun c => (W3 m c (Proc.devRef .tc main_v6), W7 m c (Proc.devRef .tc main_v10))

/-! ## The pipelines' proof data -/

abbrev adm : (p : Fin 2) → (pcfgs (F := F) p).Adm := fun p => (cfgs p).toPCfg_adm
def pdats : (p : Fin 2) → (c : Dev nD) → Dat τ (Elt F) (HIx 2) ℕ UU ℕ (Pipeline.pin (pcfgs (F := F)) adm p) c
  | ⟨0, _⟩ => fun c => dat0 (V1 m) (fun c => Otc (F := F) c 0) (Bnd (F := F) 0) c
  | ⟨1, _⟩ => fun c => dat1 (V5 m) (fun c => Otc (F := F) c 1) (Bnd (F := F) 1) c

end Cert.Proof.KI

end
-- ==== Proof.KIRegs.lean ====
/-
  The two matrix-product regions as segments of @main on the TensorCore, each entered from the
  buffers' contents at its boundary and left at the next boundary's.
-/
import proofs.«209939_g34969623724736_cont_8to1_b_5_19_alg».proof.Proof.KIFold

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- What the TensorCore owes the launch handshakes sits at a call's index, never at the kernels' own. -/
theorem Otc_none (c : Dev nD) (n : ℕ) (g : GSem nD τ sig) : Otc (F := F) c n g none = 0 := by
  by_contra h
  have := SparseCore.Cfg.lev_of_Otc_pos (K := K (F := F)) (Nat.pos_of_ne_zero h)
  rw [SparseCore.Cfg.lev_none] at this; omega

/-- What rides beside the buffers through a region: the generator register at some state, and the TensorCore's
    debt to the launch handshakes before call `n` with its recorded waits at or below that call's level. -/
abbrev Rn (n : ℕ) (c : Dev nD) : sProp 𝕄 :=
  iprop((∃ r, prngReg c r) ∗ ∃ W, ⌜∀ p ∈ W, p ∈ Bnd (F := F) n c⌝ ∗ owes (c : Thread nD τ) (Otc (F := F) c n) W)

variable (m : (ℓ : Loc nD τ sig) → Buf (Elt F) ℓ)

theorem hF0 (c : Dev nD) (w : Fin cfg0.W) : (dat0 (V1 m) (fun c => Otc (F := F) c 0) (Bnd (F := F) 0) c).arrAt w cfg0.N = (fun b => W2 m c b : (b : Ref sig .tc) → Buf (Elt F) ((c : Thread nD τ).loc b)) (Pipeline.arrRef spec0 w) := by
  have h : W2 m c (Proc.devRef .tc (Pipeline.arrRef spec0 w)) = (dat0 (V1 m) (fun c => Otc (F := F) c 0) (Bnd (F := F) 0) c).arrAt w cfg0.N := by
    unfold W2; exact Pipeline.withArrays_arr spec0 launch0.win.arr_inj c _ _ w
  exact h.symm
theorem hrest0 (c : Dev nD) : ∀ b, b ∉ Finset.univ.image (Pipeline.arrRef spec0) →
    (fun b => W2 m c b : (b : Ref sig .tc) → Buf (Elt F) ((c : Thread nD τ).loc b)) b = V1 m c b :=
  fun b hb => by
    show W2 m c (Proc.devRef .tc b) = W1 m c (Proc.devRef .tc b)
    unfold W2; exact Pipeline.withArrays_of_ne spec0 c _ _ b fun w e => hb (Finset.mem_image.mpr ⟨w, Finset.mem_univ _, e⟩)

set_option backward.isDefEq.respectTransparency.types false in
/-- The matrix-product region 0: entered from every unscoped buffer at its boundary's contents, left at the next
    boundary's; the generator register into the region's invariant and out; the TensorCore owing the launch
    handshakes what it owes before call 0 throughout, its recorded waits kept at or below that call's level. -/
def reg0 : Pipeline.RegionSeg (pcfgs (F := F)) adm (pdats m) (none : HIx 2) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m) (fun c => Otc (F := F) c 0) (Bnd (F := F) 0) c).loose
  hwaits c := Pipeline.cellsWaits_intro (Pipeline.pin (pcfgs (F := F)) adm) (pdats m) (none : HIx 2) 0 c fun w s t =>
    (K (F := F)).mayWait_none (thr := (c : Thread nD τ)) _ (Otc_none (F := F) c 0)
  pre c := iprop(StableHlo.held (c : Thread nD τ) (Pipeline.ucRefs τ sig) (W1 m c) ∗ Rn (F := F) 0 c)
  post c := iprop(StableHlo.held (c : Thread nD τ) (Pipeline.ucRefs τ sig) (W2 m c) ∗ Rn (F := F) 0 c)
  X c := iprop(∃ r, prngReg c r)
  Y c := iprop(∃ r, prngReg c r)
  Z c := Pipeline.unscopedRest (Ix := HIx 2) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = ΦR0 c from rfl]; unfold ΦR0
    iintro ⟨Hp, -, Hr⟩
    isplitl [Hr]; · iexact Hr
    iexact Hp
  hout c := by
    rw [Pipeline.ownSems0_none, show (pdats m 0 c).Φ (Fin.last _) = ΦR0 c from rfl]; unfold ΦR0
    iintro ⟨Hr, Hp⟩
    isplitl [Hp]; · iexact Hp
    isplitr; · iempintro
    iexact Hr
  hexit c := by
    have hjoin := Pipeline.unscopedBufs_of_arrays (p := 0) (pcfgs (F := F)) adm (Ix := HIx 2) (Name := ℕ) (U := UU) (Lvl := ℕ)
      launch0.win launch0.arr_whole c (pdats m) ((pdats m 0 c).share_full fun _ => rfl)
      (V1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, rfl⟩
      · exact h
      · exact Nat.zero_le _
    iexact HO

theorem hF1 (c : Dev nD) (w : Fin cfg2.W) : (dat1 (V5 m) (fun c => Otc (F := F) c 1) (Bnd (F := F) 1) c).arrAt w cfg2.N = (fun b => W6 m c b : (b : Ref sig .tc) → Buf (Elt F) ((c : Thread nD τ).loc b)) (Pipeline.arrRef spec2 w) := by
  have h : W6 m c (Proc.devRef .tc (Pipeline.arrRef spec2 w)) = (dat1 (V5 m) (fun c => Otc (F := F) c 1) (Bnd (F := F) 1) c).arrAt w cfg2.N := by
    unfold W6; exact Pipeline.withArrays_arr spec2 launch2.win.arr_inj c _ _ w
  exact h.symm
theorem hrest1 (c : Dev nD) : ∀ b, b ∉ Finset.univ.image (Pipeline.arrRef spec2) →
    (fun b => W6 m c b : (b : Ref sig .tc) → Buf (Elt F) ((c : Thread nD τ).loc b)) b = V5 m c b :=
  fun b hb => by
    show W6 m c (Proc.devRef .tc b) = W5 m c (Proc.devRef .tc b)
    unfold W6; exact Pipeline.withArrays_of_ne spec2 c _ _ b fun w e => hb (Finset.mem_image.mpr ⟨w, Finset.mem_univ _, e⟩)

set_option backward.isDefEq.respectTransparency.types false in
/-- The matrix-product region 1: entered from every unscoped buffer at its boundary's contents, left at the next
    boundary's; the generator register into the region's invariant and out; the TensorCore owing the launch
    handshakes what it owes before call 1 throughout, its recorded waits kept at or below that call's level. -/
def reg1 : Pipeline.RegionSeg (pcfgs (F := F)) adm (pdats m) (none : HIx 2) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation1 (V5 m) (fun c => Otc (F := F) c 1) (Bnd (F := F) 1) c).loose
  hwaits c := Pipeline.cellsWaits_intro (Pipeline.pin (pcfgs (F := F)) adm) (pdats m) (none : HIx 2) 1 c fun w s t =>
    (K (F := F)).mayWait_none (thr := (c : Thread nD τ)) _ (Otc_none (F := F) c 1)
  pre c := iprop(StableHlo.held (c : Thread nD τ) (Pipeline.ucRefs τ sig) (W5 m c) ∗ Rn (F := F) 1 c)
  post c := iprop(StableHlo.held (c : Thread nD τ) (Pipeline.ucRefs τ sig) (W6 m c) ∗ Rn (F := F) 1 c)
  X c := iprop(∃ r, prngReg c r)
  Y c := iprop(∃ r, prngReg c r)
  Z c := Pipeline.unscopedRest (Ix := HIx 2) (Name := ℕ) (U := UU) (Lvl := ℕ) spec2 c (V5 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 1 c).Φ 0 = ΦR2 c from rfl]; unfold ΦR2
    iintro ⟨Hp, -, Hr⟩
    isplitl [Hr]; · iexact Hr
    iexact Hp
  hout c := by
    rw [Pipeline.ownSems0_none, show (pdats m 1 c).Φ (Fin.last _) = ΦR2 c from rfl]; unfold ΦR2
    iintro ⟨Hr, Hp⟩
    isplitl [Hp]; · iexact Hp
    isplitr; · iempintro
    iexact Hr
  hexit c := by
    have hjoin := Pipeline.unscopedBufs_of_arrays (p := 1) (pcfgs (F := F)) adm (Ix := HIx 2) (Name := ℕ) (U := UU) (Lvl := ℕ)
      launch2.win launch2.arr_whole c (pdats m) ((pdats m 1 c).share_full fun _ => rfl)
      (V5 m c) (fun b => W6 m c b) ((pdats m 1 c).arrAt · cfg2.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, rfl⟩
      · exact h
      · exact Nat.zero_le _
    iexact HO

end Cert.Proof.KI

end
-- ==== Proof.KISteps.lean ====
/-
  @main on the TensorCore, step by step: the two matrix-product regions as steps of a program whose
  body table is the SparseCore launch's.
-/
import proofs.«209939_g34969623724736_cont_8to1_b_5_19_alg».proof.Proof.KIRegs

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 2) (Elt F) ℕ UU ℕ

variable (m : (ℓ : Loc nD τ sig) → Buf (Elt F) ℓ)

theorem lift_entry0 (d : Dev nD) :
    (Prog.lift (.customCall (SparseCore.inner (Pipeline.entry 0)) ()) :
        Prog (TpuEff nD τ sig (Elt F) (SparseCore.Sig (ΛP (F := F)) 2) (d : Thread nD τ).2) PUnit)
      = SparseCore.liftProg (Q := 2) (Prog.op (.customCall (Pipeline.entry 0) ()) fun _ => Prog.ret ⟨⟩ :
          Prog (TpuEff nD τ sig (Elt F) (ΛP (F := F)) (d : Thread nD τ).2) PUnit) := rfl

/-- Matrix-product region 0 as a step of @main under the SparseCore program's body table: entered through the
    lifting of the certificate's table, run by the region rule on the pipeline's share of the ghost state. -/
theorem region_step0 (d : Dev nD) (Φ : PUnit → sProp 𝕄) :
    iprop(levAts (K (F := F)).L (K (F := F)).lev ∗ boundary (d : Thread nD τ)
        ∗ StableHlo.held (d : Thread nD τ) (Pipeline.ucRefs τ sig) (W1 m d) ∗ Rn (F := F) 0 d
        ∗ (Pipeline.cellsGhost (Pipeline.pin (pcfgs (F := F)) adm) ER 0 d ∗ Pipeline.toksInit (Pipeline.pin (pcfgs (F := F)) adm) ER 0 d)
        ∗ (iprop(boundary (d : Thread nD τ) ∗ StableHlo.held (d : Thread nD τ) (Pipeline.ucRefs τ sig) (W2 m d) ∗ Rn (F := F) 0 d) -∗ Φ ⟨⟩))
      ⊢ wp frame (wpE ((K (F := F)).defs (D (F := F))) 𝒱 (d : Thread nD τ) none) Set.univ
          (Prog.lift (.customCall (SparseCore.inner (Pipeline.entry 0)) ())) Φ := by
  have hl := (K (F := F)).wp_liftProg (D (F := F)) 𝒱 (d : Thread nD τ) Set.univ none
    (Prog.op (.customCall (Pipeline.entry 0) ()) fun _ => Prog.ret ⟨⟩) Φ
  have h := Pipeline.RegionSeg.wp (pcfgs (F := F)) adm (pdats m) (none : HIx 2) cellOf_inj ER defs₀ 𝒱₀ (K (F := F)).L (K (F := F)).lev
    (reg0 m) d none (fun u h => nomatch h) (fun _ => Prog.ret ⟨⟩) Φ
  have hpre : (reg0 m).pre d = iprop(StableHlo.held (d : Thread nD τ) (Pipeline.ucRefs τ sig) (W1 m d) ∗ Rn (F := F) 0 d) := rfl
  have hpost : (reg0 m).post d = iprop(StableHlo.held (d : Thread nD τ) (Pipeline.ucRefs τ sig) (W2 m d) ∗ Rn (F := F) 0 d) := rfl
  rw [lift_entry0]
  refine BIBase.Entails.trans ?_ hl
  refine BIBase.Entails.trans ?_ h
  iintro ⟨#Hla, Hb, Hheld, HR, ⟨Hg, Ht⟩, Hk⟩
  isplitl [Hk]
  · iintro ⟨Hb, Hpost⟩
    rw [wp_ret]; imodintro
    iapply Hk
    isplitl [Hb]; · iexact Hb
    iapply (Entails.of_eq hpost); iexact Hpost
  isplitl [Hb]; · iexact Hb
  isplitl [Hheld HR]
  · iapply (Entails.of_eq hpre.symm)
    isplitl [Hheld] <;> iassumption
  isplitr; · iexact Hla
  isplitl [Hg] <;> iassumption

theorem lift_entry1 (d : Dev nD) :
    (Prog.lift (.customCall (SparseCore.inner (Pipeline.entry 1)) ()) :
        Prog (TpuEff nD τ sig (Elt F) (SparseCore.Sig (ΛP (F := F)) 2) (d : Thread nD τ).2) PUnit)
      = SparseCore.liftProg (Q := 2) (Prog.op (.customCall (Pipeline.entry 1) ()) fun _ => Prog.ret ⟨⟩ :
          Prog (TpuEff nD τ sig (Elt F) (ΛP (F := F)) (d : Thread nD τ).2) PUnit) := rfl

/-- Matrix-product region 1 as a step of @main under the SparseCore program's body table: entered through the
    lifting of the certificate's table, run by the region rule on the pipeline's share of the ghost state. -/
theorem region_step1 (d : Dev nD) (Φ : PUnit → sProp 𝕄) :
    iprop(levAts (K (F := F)).L (K (F := F)).lev ∗ boundary (d : Thread nD τ)
        ∗ StableHlo.held (d : Thread nD τ) (Pipeline.ucRefs τ sig) (W5 m d) ∗ Rn (F := F) 1 d
        ∗ (Pipeline.cellsGhost (Pipeline.pin (pcfgs (F := F)) adm) ER 1 d ∗ Pipeline.toksInit (Pipeline.pin (pcfgs (F := F)) adm) ER 1 d)
        ∗ (iprop(boundary (d : Thread nD τ) ∗ StableHlo.held (d : Thread nD τ) (Pipeline.ucRefs τ sig) (W6 m d) ∗ Rn (F := F) 1 d) -∗ Φ ⟨⟩))
      ⊢ wp frame (wpE ((K (F := F)).defs (D (F := F))) 𝒱 (d : Thread nD τ) none) Set.univ
          (Prog.lift (.customCall (SparseCore.inner (Pipeline.entry 1)) ())) Φ := by
  have hl := (K (F := F)).wp_liftProg (D (F := F)) 𝒱 (d : Thread nD τ) Set.univ none
    (Prog.op (.customCall (Pipeline.entry 1) ()) fun _ => Prog.ret ⟨⟩) Φ
  have h := Pipeline.RegionSeg.wp (pcfgs (F := F)) adm (pdats m) (none : HIx 2) cellOf_inj ER defs₀ 𝒱₀ (K (F := F)).L (K (F := F)).lev
    (reg1 m) d none (fun u h => nomatch h) (fun _ => Prog.ret ⟨⟩) Φ
  have hpre : (reg1 m).pre d = iprop(StableHlo.held (d : Thread nD τ) (Pipeline.ucRefs τ sig) (W5 m d) ∗ Rn (F := F) 1 d) := rfl
  have hpost : (reg1 m).post d = iprop(StableHlo.held (d : Thread nD τ) (Pipeline.ucRefs τ sig) (W6 m d) ∗ Rn (F := F) 1 d) := rfl
  rw [lift_entry1]
  refine BIBase.Entails.trans ?_ hl
  refine BIBase.Entails.trans ?_ h
  iintro ⟨#Hla, Hb, Hheld, HR, ⟨Hg, Ht⟩, Hk⟩
  isplitl [Hk]
  · iintro ⟨Hb, Hpost⟩
    rw [wp_ret]; imodintro
    iapply Hk
    isplitl [Hb]; · iexact Hb
    iapply (Entails.of_eq hpost); iexact Hpost
  isplitl [Hb]; · iexact Hb
  isplitl [Hheld HR]
  · iapply (Entails.of_eq hpre.symm)
    isplitl [Hheld] <;> iassumption
  isplitr; · iexact Hla
  isplitl [Hg] <;> iassumption

end Cert.Proof.KI

end
-- ==== Proof.KITile.lean ====
/-
  A tile of the first tree launch, named by its grid coordinates: its SparseCore, its subcore, and
  the chunk its trip `k` works on (the row of the output the trip writes, as the kernel's own offset
  arithmetic gives it); the same for the second launch.
-/
import proofs.«209939_g34969623724736_cont_8to1_b_5_19_alg».proof.Proof.KIBase

noncomputable section

namespace Cert.Proof.KI

open Cert.KernelIdeal Cert.KernelIdeal.Gen
open Idealize.ShloMosaic

/-- The tile's SparseCore and subcore, as the device numbers them. -/
abbrev cV (L : grid1.Coords) : Fin τ.nSC := (L 0).castLE hcore1
abbrev jV (L : grid1.Coords) : Fin τ.nSub := (L 1).castLE hsub1
abbrev cV3 (L : grid3.Coords) : Fin τ.nSC := (L 0).castLE hcore3
abbrev jV3 (L : grid3.Coords) : Fin τ.nSub := (L 1).castLE hsub3

/-- The chunk of trip `k` of the tile at `L`: the output row the trip's copy-out targets. -/
def chunk (L : grid1.Coords) (k : Fin (k1_t1_loop L).trips) : Fin 125 :=
  ⟨k1_off2 L k 0, by have h : k1_off2 L k 0 + 1 ≤ 125 := k1_off2_inb L k 0; omega⟩
def chunk3 (L : grid3.Coords) (k : Fin (k3_t1_loop L).trips) : Fin 125 :=
  ⟨k3_off2 L k 0, by have h : k3_off2 L k 0 + 1 ≤ 125 := k3_off2_inb L k 0; omega⟩

end Cert.Proof.KI

end
-- ==== Proof.KISplitA.lean ====
/-
  The rows of an output array and the chunks of a worker, as finite sets.

  An output array has 125 rows, one per chunk; the rows are pairwise disjoint and cover the array.
  SparseCore `c` owns the chunks `ch` with `ch % 2 = c`; its subcore `s` is worker `2 s + c` and owns
  the chunks with `ch % 32 = 2 s + c`.  Since `ch % 32 = 2 s + c` for some `s < 16` exactly when
  `ch % 2 = c`, a SparseCore's chunks are the disjoint union of its sixteen workers' chunks.
-/
import proofs.«209939_g34969623724736_cont_8to1_b_5_19_alg».proof.Proof.KIPay
import proofs.«209939_g34969623724736_cont_8to1_b_5_19_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

/-! ## The launch semaphores are as the launch theorem wants them -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The rows -/

theorem rowSet_eq (ch : Fin 125) : rowSet ch = (row ch).set := by
  show ((View.whole (main_v7_scv : Ref sig .scVector)).slice (row ch)).set = _
  rw [View.set_slice]; exact Finset.map_refl

theorem rows_disjoint : ∀ i j : Fin 125, i ≠ j → Disjoint (rowSet i) (rowSet j) :=
  fun i j h => by rw [rowSet_eq, rowSet_eq]; exact Rect.part_disjoint hdiv h

theorem rows_cover : (Finset.univ : Finset (Fin 125)).biUnion rowSet = Finset.univ :=
  (Finset.biUnion_congr rfl fun i _ => rowSet_eq i).trans (Rect.biUnion_part hdiv)

/-! ## A SparseCore's chunks are its sixteen workers' -/

/-- The workers' chunk sets are pairwise disjoint: a chunk has one residue modulo 32. -/
theorem chunksOf_disjoint {w w' : ℕ} (h : w ≠ w') : Disjoint (chunksOf w) (chunksOf w') := by
  rw [Finset.disjoint_left]
  intro ch h1 h2
  rw [chunksOf, Finset.mem_filter] at h1 h2
  exact h (h1.2.symm.trans h2.2)

theorem wid_inj {c : ℕ} {s s' : Fin 16} (h : wid c s.val = wid c s'.val) : s = s' := by
  unfold wid at h; exact Fin.ext (by omega)

/-- `ch % 2 = c` exactly when `ch % 32 = 2 s + c` for a subcore `s`. -/
theorem chunksOfCore_eq {c : ℕ} (hc : c < 2) :
    chunksOfCore c = (Finset.univ : Finset (Fin 16)).biUnion fun s => chunksOf (wid c s.val) := by
  ext ch
  rw [Finset.mem_biUnion]
  constructor
  · intro h
    have h2 : ch.val % 2 = c := (Finset.mem_filter.mp h).2
    refine ⟨⟨ch.val % 32 / 2, by omega⟩, Finset.mem_univ _, Finset.mem_filter.mpr ⟨Finset.mem_univ _, ?_⟩⟩
    show ch.val % 32 = 2 * (ch.val % 32 / 2) + c; omega
  · rintro ⟨s, -, hs⟩
    have h32 : ch.val % 32 = 2 * s.val + c := (Finset.mem_filter.mp hs).2
    refine Finset.mem_filter.mpr ⟨Finset.mem_univ _, ?_⟩
    show ch.val % 2 = c; omega

end Cert.Proof.KI

end
-- ==== Proof.KISplitB.lean ====
/-
  A worker's chunks, counted by its loop.

  The tile at grid coordinates `L` is worker `w = 2 (L 1) + (L 0)`; its loop makes
  `(125 - w + 31) / 32` trips and trip `k` works on chunk `w + 32 k`.  So the trips enumerate, without
  repetition, exactly the chunks `ch < 125` with `ch % 32 = w`: a separating conjunction over the
  worker's chunks is one over its trips.  And since a SparseCore's chunks are the disjoint union of
  its sixteen workers' chunks, a conjunction over them is one over the workers of conjunctions over
  each worker's chunks.
-/
import proofs.«209939_g34969623724736_cont_8to1_b_5_19_alg».proof.Proof.KISplitA

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

variable [FloatOps F]

local notation "𝕄" => MT nD τ sig (HIx 2) (Elt F) ℕ UU ℕ

/-! ## A SparseCore's chunks, worker by worker -/

omit [FloatOps F] in
theorem bigSep_chunksOfCore {c : ℕ} (hc : c < 2) (Φ : Fin 125 → sProp 𝕄) :
    bigSep (chunksOfCore c) Φ = bigSep (Finset.univ : Finset (Fin 16)) fun s => bigSep (chunksOf (wid c s.val)) Φ := by
  rw [chunksOfCore_eq hc]
  exact SparseCore.Cfg.bigSep_biUnion_eq _ _ Φ fun s _ s' _ h => chunksOf_disjoint fun e => h (wid_inj e)

/-! ## The grid coordinates of a tile -/

/-- The coordinates of the tile on SparseCore `c`, subcore `s` of the first tree launch's grid; of the second's. -/
def split_coords (c : Fin (grid1.bound 0)) (s : Fin (grid1.bound 1)) : grid1.Coords :=
  fun | 0 => c | 1 => s | ⟨_ + 2, h⟩ => absurd h (Nat.not_lt.2 (Nat.le_add_left _ _))
def split_coords3 (c : Fin (grid3.bound 0)) (s : Fin (grid3.bound 1)) : grid3.Coords :=
  fun | 0 => c | 1 => s | ⟨_ + 2, h⟩ => absurd h (Nat.not_lt.2 (Nat.le_add_left _ _))

/-! ## The loop's trips and their chunks, in closed form -/

theorem split_trips : ∀ L : grid1.Coords, (k1_t1_loop L).trips = (125 - (2 * (L 1).val + (L 0).val) + 31) / 32 := by decide +kernel
theorem split_trips3 : ∀ L : grid3.Coords, (k3_t1_loop L).trips = (125 - (2 * (L 1).val + (L 0).val) + 31) / 32 := by decide +kernel

theorem split_chunk_val (L : grid1.Coords) (k : Fin (k1_t1_loop L).trips) : (chunk L k).val = 2 * (L 1).val + (L 0).val + 32 * k.val := by
  show k1_off2 L k 0 = _; rw [k1_off2_eq]; rfl
theorem split_chunk3_val (L : grid3.Coords) (k : Fin (k3_t1_loop L).trips) : (chunk3 L k).val = 2 * (L 1).val + (L 0).val + 32 * k.val := by
  show k3_off2 L k 0 = _; rw [k3_off2_eq]; rfl

theorem split_chunk_inj (L : grid1.Coords) : Function.Injective (chunk L) := fun k k' h => by
  have := congrArg Fin.val h; rw [split_chunk_val, split_chunk_val] at this; exact Fin.ext (by omega)
theorem split_chunk3_inj (L : grid3.Coords) : Function.Injective (chunk3 L) := fun k k' h => by
  have := congrArg Fin.val h; rw [split_chunk3_val, split_chunk3_val] at this; exact Fin.ext (by omega)

/-- The trips' chunks are the worker's chunks. -/
theorem split_chunksOf_eq (L : grid1.Coords) : chunksOf (wid (L 0).val (L 1).val) = Finset.univ.image (chunk L) := by
  have h0 : (L 0).val < 2 := (L 0).isLt
  have h1 : (L 1).val < 16 := (L 1).isLt
  ext ch
  rw [Finset.mem_image]
  constructor
  · intro h
    have hm : ch.val % 32 = 2 * (L 1).val + (L 0).val := (Finset.mem_filter.mp h).2
    have hch := ch.isLt
    refine ⟨⟨ch.val / 32, by rw [split_trips]; omega⟩, Finset.mem_univ _, Fin.ext ?_⟩
    rw [split_chunk_val]; show 2 * (L 1).val + (L 0).val + 32 * (ch.val / 32) = ch.val; omega
  · rintro ⟨k, -, rfl⟩
    refine Finset.mem_filter.mpr ⟨Finset.mem_univ _, ?_⟩
    show (chunk L k).val % 32 = 2 * (L 1).val + (L 0).val
    rw [split_chunk_val]; omega
theorem split_chunksOf3_eq (L : grid3.Coords) : chunksOf (wid (L 0).val (L 1).val) = Finset.univ.image (chunk3 L) := by
  have h0 : (L 0).val < 2 := (L 0).isLt
  have h1 : (L 1).val < 16 := (L 1).isLt
  ext ch
  rw [Finset.mem_image]
  constructor
  · intro h
    have hm : ch.val % 32 = 2 * (L 1).val + (L 0).val := (Finset.mem_filter.mp h).2
    have hch := ch.isLt
    refine ⟨⟨ch.val / 32, by rw [split_trips3]; omega⟩, Finset.mem_univ _, Fin.ext ?_⟩
    rw [split_chunk3_val]; show 2 * (L 1).val + (L 0).val + 32 * (ch.val / 32) = ch.val; omega
  · rintro ⟨k, -, rfl⟩
    refine Finset.mem_filter.mpr ⟨Finset.mem_univ _, ?_⟩
    show (chunk3 L k).val % 32 = 2 * (L 1).val + (L 0).val
    rw [split_chunk3_val]; omega

omit [FloatOps F] in
/-- A conjunction over a worker's chunks is one over its loop's trips. -/
theorem bigSep_chunksOf_trips (L : grid1.Coords) (Φ : Fin 125 → sProp 𝕄) :
    bigSep (chunksOf (wid (L 0).val (L 1).val)) Φ = bigSep (Finset.univ : Finset (Fin (k1_t1_loop L).trips)) fun k => Φ (chunk L k) := by
  rw [split_chunksOf_eq]
  exact bigSep_image_of_injOn (fun _ _ _ _ e => split_chunk_inj L e) Φ
omit [FloatOps F] in
theorem bigSep_chunksOf_trips3 (L : grid3.Coords) (Φ : Fin 125 → sProp 𝕄) :
    bigSep (chunksOf (wid (L 0).val (L 1).val)) Φ = bigSep (Finset.univ : Finset (Fin (k3_t1_loop L).trips)) fun k => Φ (chunk3 L k) := by
  rw [split_chunksOf3_eq]
  exact bigSep_image_of_injOn (fun _ _ _ _ e => split_chunk3_inj L e) Φ

end Cert.Proof.KI

end
-- ==== Proof.KISplitC.lean ====
/-
  How a SparseCore's share of a tree launch splits among its sixteen tiles and gathers back.

  A SparseCore is handed its sixteen workers' read shares of the input and its own rows of the
  output; a tile takes its worker's read share and its worker's rows.  A SparseCore's rows being the
  disjoint union of its workers' rows, the split is a regrouping of one separating conjunction, and
  so is the way back, the rows then holding the launch's value.  Every piece is a points-to, so the
  payloads can be stored in the handshakes' invariants.
-/
import proofs.«209939_g34969623724736_cont_8to1_b_5_19_alg».proof.Proof.KISplitB

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

variable [FloatOps F]

local notation "𝕄" => MT nD τ sig (HIx 2) (Elt F) ℕ UU ℕ

variable (X : Inputs F)

/-! ## The payload's fields, spelled out -/

theorem P_st0 (d : Dev nD) (c : Fin ((K (F := F)).nCore 0)) : (P X).st 0 d c
    = iprop((bigSep (Finset.univ : Finset (Fin 16)) fun i => in0Tok X d (wid c.val i.val)) ∗ bigSep (chunksOfCore c.val) fun ch => out0Any d ch) := rfl
theorem P_st1 (d : Dev nD) (c : Fin ((K (F := F)).nCore 1)) : (P X).st 1 d c
    = iprop((bigSep (Finset.univ : Finset (Fin 16)) fun i => in1Tok X d (wid c.val i.val)) ∗ bigSep (chunksOfCore c.val) fun ch => out1Any d ch) := rfl
theorem P_dn0 (d : Dev nD) (c : Fin ((K (F := F)).nCore 0)) : (P X).dn 0 d c
    = iprop((bigSep (Finset.univ : Finset (Fin 16)) fun i => in0Tok X d (wid c.val i.val)) ∗ bigSep (chunksOfCore c.val) fun ch => out0Val X d ch) := rfl
theorem P_dn1 (d : Dev nD) (c : Fin ((K (F := F)).nCore 1)) : (P X).dn 1 d c
    = iprop((bigSep (Finset.univ : Finset (Fin 16)) fun i => in1Tok X d (wid c.val i.val)) ∗ bigSep (chunksOfCore c.val) fun ch => out1Val X d ch) := rfl
theorem P_go0 (d : Dev nD) (c : Fin ((K (F := F)).nCore 0)) (i : Fin ((K (F := F)).nSub 0)) : (P X).go 0 d c i
    = iprop(in0Tok X d (wid c.val i.val) ∗ bigSep (chunksOf (wid c.val i.val)) fun ch => out0Any d ch) := rfl
theorem P_go1 (d : Dev nD) (c : Fin ((K (F := F)).nCore 1)) (i : Fin ((K (F := F)).nSub 1)) : (P X).go 1 d c i
    = iprop(in1Tok X d (wid c.val i.val) ∗ bigSep (chunksOf (wid c.val i.val)) fun ch => out1Any d ch) := rfl
theorem P_td0 (d : Dev nD) (c : Fin ((K (F := F)).nCore 0)) (i : Fin ((K (F := F)).nSub 0)) : (P X).td 0 d c i
    = iprop(in0Tok X d (wid c.val i.val) ∗ bigSep (chunksOf (wid c.val i.val)) fun ch => out0Val X d ch) := rfl
theorem P_td1 (d : Dev nD) (c : Fin ((K (F := F)).nCore 1)) (i : Fin ((K (F := F)).nSub 1)) : (P X).td 1 d c i
    = iprop(in1Tok X d (wid c.val i.val) ∗ bigSep (chunksOf (wid c.val i.val)) fun ch => out1Val X d ch) := rfl

/-! ## The tiles of a launch are sixteen -/

omit [FloatOps F] in
theorem nSub_zero : (K (F := F)).nSub 0 = 16 := rfl
omit [FloatOps F] in
theorem nSub_one : (K (F := F)).nSub 1 = 16 := rfl
omit [FloatOps F] in
theorem nCore_zero : (K (F := F)).nCore 0 = 2 := rfl
omit [FloatOps F] in
theorem nCore_one : (K (F := F)).nCore 1 = 2 := rfl

omit [FloatOps F] in
theorem bigSep_tasks0 (Φ : ℕ → sProp 𝕄) :
    (bigSep Finset.univ fun i : Fin ((K (F := F)).nSub 0) => Φ i.val) = bigSep (Finset.univ : Finset (Fin 16)) fun i => Φ i.val := rfl
omit [FloatOps F] in
theorem bigSep_tasks1 (Φ : ℕ → sProp 𝕄) :
    (bigSep Finset.univ fun i : Fin ((K (F := F)).nSub 1) => Φ i.val) = bigSep (Finset.univ : Finset (Fin 16)) fun i => Φ i.val := rfl

/-! ## The split -/

theorem vecSplit0 : (K (F := F)).VecSplit' (P X) 0 := by
  intro d c
  have hc : c.val < 2 := c.isLt
  simp only [P_st0, P_dn0, P_go0, P_td0]
  rw [bigSep_tasks0 (F := F) (fun i => iprop(in0Tok X d (wid c.val i) ∗ bigSep (chunksOf (wid c.val i)) fun ch => out0Any d ch)),
    bigSep_tasks0 (F := F) (fun i => iprop(in0Tok X d (wid c.val i) ∗ bigSep (chunksOf (wid c.val i)) fun ch => out0Val X d ch)),
    bigSep_chunksOfCore hc, bigSep_chunksOfCore hc, bigSep_sep', bigSep_sep']
  iintro H; imodintro
  isplitl [H]; · iexact H
  iintro H; iexact H

theorem vecSplit1 : (K (F := F)).VecSplit' (P X) 1 := by
  intro d c
  have hc : c.val < 2 := c.isLt
  simp only [P_st1, P_dn1, P_go1, P_td1]
  rw [bigSep_tasks1 (F := F) (fun i => iprop(in1Tok X d (wid c.val i) ∗ bigSep (chunksOf (wid c.val i)) fun ch => out1Any d ch)),
    bigSep_tasks1 (F := F) (fun i => iprop(in1Tok X d (wid c.val i) ∗ bigSep (chunksOf (wid c.val i)) fun ch => out1Val X d ch)),
    bigSep_chunksOfCore hc, bigSep_chunksOfCore hc, bigSep_sep', bigSep_sep']
  iintro H; imodintro
  isplitl [H]; · iexact H
  iintro H; iexact H

/-! ## The payloads are storable -/

instance P_storable : (P (F := F) X).IsStorable where
  st q d c := match q with
    | 0 => (inferInstance : BI.Storable (upEmb : UEmb _ 𝕄)
        iprop((bigSep (Finset.univ : Finset (Fin 16)) fun i => in0Tok X d (wid c.val i.val)) ∗ bigSep (chunksOfCore c.val) fun ch => out0Any d ch))
    | 1 => (inferInstance : BI.Storable (upEmb : UEmb _ 𝕄)
        iprop((bigSep (Finset.univ : Finset (Fin 16)) fun i => in1Tok X d (wid c.val i.val)) ∗ bigSep (chunksOfCore c.val) fun ch => out1Any d ch))
  dn q d c := match q with
    | 0 => (inferInstance : BI.Storable (upEmb : UEmb _ 𝕄)
        iprop((bigSep (Finset.univ : Finset (Fin 16)) fun i => in0Tok X d (wid c.val i.val)) ∗ bigSep (chunksOfCore c.val) fun ch => out0Val X d ch))
    | 1 => (inferInstance : BI.Storable (upEmb : UEmb _ 𝕄)
        iprop((bigSep (Finset.univ : Finset (Fin 16)) fun i => in1Tok X d (wid c.val i.val)) ∗ bigSep (chunksOfCore c.val) fun ch => out1Val X d ch))
  go q d c i := match q with
    | 0 => (inferInstance : BI.Storable (upEmb : UEmb _ 𝕄)
        iprop(in0Tok X d (wid c.val i.val) ∗ bigSep (chunksOf (wid c.val i.val)) fun ch => out0Any d ch))
    | 1 => (inferInstance : BI.Storable (upEmb : UEmb _ 𝕄)
        iprop(in1Tok X d (wid c.val i.val) ∗ bigSep (chunksOf (wid c.val i.val)) fun ch => out1Any d ch))
  td q d c i := match q with
    | 0 => (inferInstance : BI.Storable (upEmb : UEmb _ 𝕄)
        iprop(in0Tok X d (wid c.val i.val) ∗ bigSep (chunksOf (wid c.val i.val)) fun ch => out0Val X d ch))
    | 1 => (inferInstance : BI.Storable (upEmb : UEmb _ 𝕄)
        iprop(in1Tok X d (wid c.val i.val) ∗ bigSep (chunksOf (wid c.val i.val)) fun ch => out1Val X d ch))

end Cert.Proof.KI

end
-- ==== Proof.KISplitD.lean ====
/-
  The TensorCore's side of a tree launch: what it hands the two SparseCores and what it takes back.

  The input, held whole, is cut into 32 read shares, one per worker, and a remainder the TensorCore
  keeps; worker `2 s + c` is subcore `s` of SparseCore `c`, so the 32 shares are the two SparseCores'
  sixteen each, and the way back joins them again.  The output, held whole at anything, is cut into
  its 125 rows, the even ones to SparseCore 0 and the odd ones to SparseCore 1; taken back, every row
  holds the launch's value function of the input at the row's own indices, so the rows join into the
  whole output at that one function.
-/
import proofs.«209939_g34969623724736_cont_8to1_b_5_19_alg».proof.Proof.KISplitC

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

variable [FloatOps F]

local notation "𝕄" => MT nD τ sig (HIx 2) (Elt F) ℕ UU ℕ

/-! ## Thirty-two workers are two SparseCores' sixteen subcores -/

omit [FloatOps F] in
theorem range_workers : Finset.range 32 = (Finset.univ : Finset (Fin 2 × Fin 16)).image fun p => wid p.1.val p.2.val := by
  ext n
  rw [Finset.mem_range, Finset.mem_image]
  constructor
  · intro h
    exact ⟨(⟨n % 2, by omega⟩, ⟨n / 2, by omega⟩), Finset.mem_univ _, by show 2 * (n / 2) + n % 2 = n; omega⟩
  · rintro ⟨⟨c, i⟩, -, rfl⟩
    have := c.isLt; have := i.isLt
    show 2 * i.val + c.val < 32; omega

omit [FloatOps F] in
/-- A conjunction over the 32 workers is one over the SparseCores of one over the subcores. -/
theorem bigSep_workers (Ψ : ℕ → sProp 𝕄) :
    bigSep (Finset.range 32) Ψ = bigSep (Finset.univ : Finset (Fin 2)) fun c => bigSep (Finset.univ : Finset (Fin 16)) fun i => Ψ (wid c.val i.val) := by
  rw [range_workers, bigSep_image_of_injOn (f := fun p : Fin 2 × Fin 16 => wid p.1.val p.2.val) ?_ Ψ]
  · exact bigSep_univ_prod (fun p : Fin 2 × Fin 16 => Ψ (wid p.1.val p.2.val))
  · rintro ⟨c, i⟩ - ⟨c', i'⟩ - h
    have hh : 2 * i.val + c.val = 2 * i'.val + c'.val := h
    have := c.isLt; have := c'.isLt
    exact Prod.ext (Fin.ext (show c.val = c'.val by omega)) (Fin.ext (show i.val = i'.val by omega))

omit [FloatOps F] in
/-- An array held whole is the TensorCore's remainder and the two SparseCores' sixteen read shares each. -/
theorem pointsTo_workers (ℓ : Loc nD τ sig) (x : Buf (Elt F) ℓ) :
    (ℓ ↦{fullShare} x : sProp 𝕄) ⊣⊢ iprop((ℓ ↦{shareDrop fullShare 32} x)
      ∗ bigSep (Finset.univ : Finset (Fin 2)) fun c => bigSep (Finset.univ : Finset (Fin 16)) fun i => ℓ ↦{shareTokN fullShare (wid c.val i.val)} x) := by
  rw [← bigSep_workers (fun w => (ℓ ↦{shareTokN fullShare w} x : sProp 𝕄))]
  exact Transfers.pointsTo_toks_range fullShare 32

/-! ## The rows of an output array, SparseCore by SparseCore -/

omit [FloatOps F] in
/-- A conjunction over all 125 chunks is the even chunks' and the odd chunks'. -/
theorem bigSep_chunks (Φ : Fin 125 → sProp 𝕄) :
    bigSep (Finset.univ : Finset (Fin 125)) Φ = bigSep (Finset.univ : Finset (Fin 2)) fun c => bigSep (chunksOfCore c.val) Φ := by
  rw [bigSep_univ_two, bigSep_filter_split (Finset.univ : Finset (Fin 125)) (fun ch => ch.val % 2 = 0)]
  have h1 : (Finset.univ.filter fun ch : Fin 125 => ¬ ch.val % 2 = 0) = chunksOfCore 1 :=
    Finset.filter_congr fun ch _ => by show ¬ ch.val % 2 = 0 ↔ ch.val % 2 = 1; omega
  rw [h1]; rfl

omit [FloatOps F] in
/-- An output array held whole at `f` is its 125 rows at `f`. -/
theorem out0_rows (d : Dev nD) (f : Buf (Elt F) (out0Loc d)) :
    (out0Loc d ↦{fullShare} f : sProp 𝕄) = bigSep Finset.univ fun ch : Fin 125 => out0Loc d ↦[rowSet ch]{fullShare} f := by
  rw [← pointsTo_biUnion Finset.univ (ℓ := out0Loc d) rowSet (fun i _ j _ h => rows_disjoint i j h), rows_cover]; try rfl
omit [FloatOps F] in
theorem out1_rows (d : Dev nD) (f : Buf (Elt F) (out1Loc d)) :
    (out1Loc d ↦{fullShare} f : sProp 𝕄) = bigSep Finset.univ fun ch : Fin 125 => out1Loc d ↦[rowSet ch]{fullShare} f := by
  rw [← pointsTo_biUnion Finset.univ (ℓ := out1Loc d) rowSet (fun i _ j _ h => rows_disjoint i j h), rows_cover]; try rfl

variable (X : Inputs F)

/-- The output held whole at anything goes out as the two SparseCores' rows at anything; -/
theorem out0_deal (d : Dev nD) :
    (iprop(∃ f, out0Loc d ↦{fullShare} f) : sProp 𝕄) ⊢ bigSep (Finset.univ : Finset (Fin 2)) fun c => bigSep (chunksOfCore c.val) fun ch => out0Any d ch := by
  rw [← bigSep_chunks (fun ch => out0Any d ch)]
  refine BIClass.exists_elim fun f => ?_
  have h : ∀ ch : Fin 125, (out0Loc d ↦[rowSet ch]{fullShare} f : sProp 𝕄) ⊢ out0Any d ch := fun ch => by
    iintro H; iexists f; iexact H
  rw [out0_rows]
  exact bigSep_mono fun ch _ => h ch
theorem out1_deal (d : Dev nD) :
    (iprop(∃ f, out1Loc d ↦{fullShare} f) : sProp 𝕄) ⊢ bigSep (Finset.univ : Finset (Fin 2)) fun c => bigSep (chunksOfCore c.val) fun ch => out1Any d ch := by
  rw [← bigSep_chunks (fun ch => out1Any d ch)]
  refine BIClass.exists_elim fun f => ?_
  have h : ∀ ch : Fin 125, (out1Loc d ↦[rowSet ch]{fullShare} f : sProp 𝕄) ⊢ out1Any d ch := fun ch => by
    iintro H; iexists f; iexact H
  rw [out1_rows]
  exact bigSep_mono fun ch _ => h ch

/-- and comes back whole at the launch's value. -/
theorem out0_gather (d : Dev nD) :
    (bigSep (Finset.univ : Finset (Fin 2)) fun c => bigSep (chunksOfCore c.val) fun ch => out0Val X d ch)
      = (out0Loc d ↦{fullShare} (KTree.outFlat (X d).1) : sProp 𝕄) := by
  rw [← bigSep_chunks (fun ch => out0Val X d ch), out0_rows]
theorem out1_gather (d : Dev nD) :
    (bigSep (Finset.univ : Finset (Fin 2)) fun c => bigSep (chunksOfCore c.val) fun ch => out1Val X d ch)
      = (out1Loc d ↦{fullShare} (KTree.outFlat (X d).2) : sProp 𝕄) := by
  rw [← bigSep_chunks (fun ch => out1Val X d ch), out1_rows]

/-! ## What the TensorCore's start hands over and its done takes back, spelled out -/

theorem st0_eq (d : Dev nD) : (bigSep Finset.univ fun c : Fin ((K (F := F)).nCore 0) => (P X).st 0 d c)
    = iprop((bigSep (Finset.univ : Finset (Fin 2)) fun c => bigSep (Finset.univ : Finset (Fin 16)) fun i => in0Tok X d (wid c.val i.val))
        ∗ bigSep (Finset.univ : Finset (Fin 2)) fun c => bigSep (chunksOfCore c.val) fun ch => out0Any d ch) := by
  simp only [P_st0]; exact bigSep_sep' _ _ _
theorem dn0_eq (d : Dev nD) : (bigSep Finset.univ fun c : Fin ((K (F := F)).nCore 0) => (P X).dn 0 d c)
    = iprop((bigSep (Finset.univ : Finset (Fin 2)) fun c => bigSep (Finset.univ : Finset (Fin 16)) fun i => in0Tok X d (wid c.val i.val))
        ∗ bigSep (Finset.univ : Finset (Fin 2)) fun c => bigSep (chunksOfCore c.val) fun ch => out0Val X d ch) := by
  simp only [P_dn0]; exact bigSep_sep' _ _ _
theorem st1_eq (d : Dev nD) : (bigSep Finset.univ fun c : Fin ((K (F := F)).nCore 1) => (P X).st 1 d c)
    = iprop((bigSep (Finset.univ : Finset (Fin 2)) fun c => bigSep (Finset.univ : Finset (Fin 16)) fun i => in1Tok X d (wid c.val i.val))
        ∗ bigSep (Finset.univ : Finset (Fin 2)) fun c => bigSep (chunksOfCore c.val) fun ch => out1Any d ch) := by
  simp only [P_st1]; exact bigSep_sep' _ _ _
theorem dn1_eq (d : Dev nD) : (bigSep Finset.univ fun c : Fin ((K (F := F)).nCore 1) => (P X).dn 1 d c)
    = iprop((bigSep (Finset.univ : Finset (Fin 2)) fun c => bigSep (Finset.univ : Finset (Fin 16)) fun i => in1Tok X d (wid c.val i.val))
        ∗ bigSep (Finset.univ : Finset (Fin 2)) fun c => bigSep (chunksOfCore c.val) fun ch => out1Val X d ch) := by
  simp only [P_dn1]; exact bigSep_sep' _ _ _

/-- At the call: the input and the output held whole become the TensorCore's remainder of the input and the start's payload; -/
theorem st0_intro (d : Dev nD) :
    (iprop((in0Loc d ↦{fullShare} (X d).1) ∗ ∃ f, out0Loc d ↦{fullShare} f) : sProp 𝕄)
      ⊢ iprop((in0Loc d ↦{shareDrop fullShare 32} (X d).1) ∗ bigSep Finset.univ fun c : Fin ((K (F := F)).nCore 0) => (P X).st 0 d c) := by
  rw [st0_eq]
  iintro ⟨Hi, Ho⟩
  ihave Hi' := (pointsTo_workers (in0Loc d) (X d).1).1 $$ Hi
  icases Hi' with ⟨Hr, Ht⟩
  isplitl [Hr]; · iexact Hr
  isplitl [Ht]; · iexact Ht
  iapply (out0_deal d) $$ Ho
/-- after it: the remainder and the done's payload are the input whole again and the output whole at the launch's value. -/
theorem dn0_elim (d : Dev nD) :
    (iprop((in0Loc d ↦{shareDrop fullShare 32} (X d).1) ∗ bigSep Finset.univ fun c : Fin ((K (F := F)).nCore 0) => (P X).dn 0 d c) : sProp 𝕄)
      ⊢ iprop((in0Loc d ↦{fullShare} (X d).1) ∗ out0Loc d ↦{fullShare} (KTree.outFlat (X d).1)) := by
  rw [dn0_eq, out0_gather]
  iintro ⟨Hr, Ht, Ho⟩
  isplitr [Ho]
  · iapply (pointsTo_workers (in0Loc d) (X d).1).2
    isplitl [Hr]; · iexact Hr
    iexact Ht
  · iexact Ho
theorem st1_intro (d : Dev nD) :
    (iprop((in1Loc d ↦{fullShare} (X d).2) ∗ ∃ f, out1Loc d ↦{fullShare} f) : sProp 𝕄)
      ⊢ iprop((in1Loc d ↦{shareDrop fullShare 32} (X d).2) ∗ bigSep Finset.univ fun c : Fin ((K (F := F)).nCore 1) => (P X).st 1 d c) := by
  rw [st1_eq]
  iintro ⟨Hi, Ho⟩
  ihave Hi' := (pointsTo_workers (in1Loc d) (X d).2).1 $$ Hi
  icases Hi' with ⟨Hr, Ht⟩
  isplitl [Hr]; · iexact Hr
  isplitl [Ht]; · iexact Ht
  iapply (out1_deal d) $$ Ho
theorem dn1_elim (d : Dev nD) :
    (iprop((in1Loc d ↦{shareDrop fullShare 32} (X d).2) ∗ bigSep Finset.univ fun c : Fin ((K (F := F)).nCore 1) => (P X).dn 1 d c) : sProp 𝕄)
      ⊢ iprop((in1Loc d ↦{fullShare} (X d).2) ∗ out1Loc d ↦{fullShare} (KTree.outFlat (X d).2)) := by
  rw [dn1_eq, out1_gather]
  iintro ⟨Hr, Ht, Ho⟩
  isplitr [Ho]
  · iapply (pointsTo_workers (in1Loc d) (X d).2).2
    isplitl [Hr]; · iexact Hr
    iexact Ht
  · iexact Ho

/-! ## The four statements @main cites at the two calls -/

theorem call0_pre (d : Dev nD) (y : Buf (Elt F) (out0Loc d)) :
    iprop((in0Loc d ↦{fullShare} (X d).1) ∗ (out0Loc d ↦{fullShare} y))
      ⊢ (iprop((in0Loc d ↦{shareDrop fullShare 32} (X d).1) ∗ bigSep Finset.univ fun c : Fin ((K (F := F)).nCore 0) => (P X).st 0 d c) : sProp 𝕄) := by
  have h : (iprop((in0Loc d ↦{fullShare} (X d).1) ∗ (out0Loc d ↦{fullShare} y)) : sProp 𝕄)
      ⊢ iprop((in0Loc d ↦{fullShare} (X d).1) ∗ ∃ f, out0Loc d ↦{fullShare} f) := by
    iintro ⟨Hi, Ho⟩
    isplitl [Hi]; · iexact Hi
    iexists y; iexact Ho
  exact h.trans (st0_intro X d)
theorem call0_post (d : Dev nD) :
    iprop((in0Loc d ↦{shareDrop fullShare 32} (X d).1) ∗ bigSep Finset.univ fun c : Fin ((K (F := F)).nCore 0) => (P X).dn 0 d c)
      ⊢ (iprop((in0Loc d ↦{fullShare} (X d).1) ∗ (out0Loc d ↦{fullShare} KTree.outFlat (X d).1)) : sProp 𝕄) := dn0_elim X d
theorem call1_pre (d : Dev nD) (y : Buf (Elt F) (out1Loc d)) :
    iprop((in1Loc d ↦{fullShare} (X d).2) ∗ (out1Loc d ↦{fullShare} y))
      ⊢ (iprop((in1Loc d ↦{shareDrop fullShare 32} (X d).2) ∗ bigSep Finset.univ fun c : Fin ((K (F := F)).nCore 1) => (P X).st 1 d c) : sProp 𝕄) := by
  have h : (iprop((in1Loc d ↦{fullShare} (X d).2) ∗ (out1Loc d ↦{fullShare} y)) : sProp 𝕄)
      ⊢ iprop((in1Loc d ↦{fullShare} (X d).2) ∗ ∃ f, out1Loc d ↦{fullShare} f) := by
    iintro ⟨Hi, Ho⟩
    isplitl [Hi]; · iexact Hi
    iexists y; iexact Ho
  exact h.trans (st1_intro X d)
theorem call1_post (d : Dev nD) :
    iprop((in1Loc d ↦{shareDrop fullShare 32} (X d).2) ∗ bigSep Finset.univ fun c : Fin ((K (F := F)).nCore 1) => (P X).dn 1 d c)
      ⊢ (iprop((in1Loc d ↦{fullShare} (X d).2) ∗ (out1Loc d ↦{fullShare} KTree.outFlat (X d).2)) : sProp 𝕄) := dn1_elim X d

end Cert.Proof.KI

end
-- ==== Proof.KISplitE.lean ====
/-
  The tile's obligation of a tree launch, from the tile body's triple.

  The launch theorem asks, of the tile on SparseCore `c`, subcore `i`: from the tile's read share of
  the input and its worker's rows at anything, run the launch's label there, and end with the read
  share and the rows at the launch's value.  The label's body on that tile is the kernel function at
  the tile's grid coordinates, lifted into the pipelines' signature; the kernel function's own triple
  is stated over the trips of its loop.  The trips enumerate the worker's rows, so the two
  statements differ by a re-indexing of one separating conjunction, on the way in and on the way out.
-/
import proofs.«209939_g34969623724736_cont_8to1_b_5_19_alg».proof.Proof.KISplitC

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

variable [FloatOps F]

local notation "𝕄" => MT nD τ sig (HIx 2) (Elt F) ℕ UU ℕ

variable (X : Inputs F)

/-! ## The labels' bodies on a tile -/

theorem defs₀_vector1 (c : Fin τ.nSC) (s : Fin τ.nSub) :
    defs₀ (F := F) (.scVector c s) 1 ⟨⟩
      = SparseCore.onTile hcore1 hsub1 (fun c s => cc1_tree_sc (split_coords c s)
          in0V (Memref.isWhole_whole _) out0V (Memref.isWhole_whole _) sA1 (Memref.isWhole_whole _) sB1 (Memref.isWhole_whole _)
          cc1_scoped0 cc1_scoped1 cc1_scoped2 cc1_scoped3) ⟨⟩ c s := rfl
theorem defs₀_vector3 (c : Fin τ.nSC) (s : Fin τ.nSub) :
    defs₀ (F := F) (.scVector c s) 3 ⟨⟩
      = SparseCore.onTile hcore3 hsub3 (fun c s => cc3_tree_sc (split_coords3 c s)
          in1V (Memref.isWhole_whole _) out1V (Memref.isWhole_whole _) sA3 (Memref.isWhole_whole _) sB3 (Memref.isWhole_whole _)
          cc3_scoped0 cc3_scoped1 cc3_scoped2 cc3_scoped3) ⟨⟩ c s := rfl

/-! ## The tile body's triple, as the body's proof states it -/

/-- The triple of the first tree launch's kernel function at grid coordinates `L`, for every share `q` of the input. -/
def TileBody0 : Prop :=
  ∀ (d : Dev nD) (L : grid1.Coords) (q : PosShare TreeShare) (x : Buf (Elt F) (in0Loc d)) (O : CellTallies nD τ sig (HIx 2)) (W : Waits sig (HIx 2)), (∀ g, O g none = 0) →
    (iprop(levAts (K (F := F)).L (K (F := F)).lev ∗ (in0Loc d ↦{q} x)
        ∗ (bigSep Finset.univ fun k : Fin (k1_t1_loop L).trips => iprop(∃ f, out0Loc d ↦[rowSet (chunk L k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_tree_sc L in0V (Memref.isWhole_whole _) out0V (Memref.isWhole_whole _) sA1 (Memref.isWhole_whole _) sB1 (Memref.isWhole_whole _)
            cc1_scoped0 cc1_scoped1 cc1_scoped2 cc1_scoped3)
          fun _ => iprop((in0Loc d ↦{q} x)
            ∗ (bigSep Finset.univ fun k : Fin (k1_t1_loop L).trips => out0Loc d ↦[rowSet (chunk L k)]{fullShare} (KTree.outFlat x))
            ∗ scopedBufs (V d (cV L) (jV L)) ∗ scopedSems0 (V d (cV L) (jV L))
            ∗ ∃ W', ⌜∀ p ∈ W', p ∈ W ∨ p.2 = none⌝ ∗ owes (V d (cV L) (jV L)) O W')
/-- The same of the second tree launch's. -/
def TileBody1 : Prop :=
  ∀ (d : Dev nD) (L : grid3.Coords) (q : PosShare TreeShare) (x : Buf (Elt F) (in1Loc d)) (O : CellTallies nD τ sig (HIx 2)) (W : Waits sig (HIx 2)), (∀ g, O g none = 0) →
    (iprop(levAts (K (F := F)).L (K (F := F)).lev ∗ (in1Loc d ↦{q} x)
        ∗ (bigSep Finset.univ fun k : Fin (k3_t1_loop L).trips => iprop(∃ f, out1Loc d ↦[rowSet (chunk3 L k)]{fullShare} f))
        ∗ scopedBufs (V d (cV3 L) (jV3 L)) ∗ scopedSems0 (V d (cV3 L) (jV3 L)) ∗ owes (V d (cV3 L) (jV3 L)) O W) : sProp 𝕄)
      ⊢ wp frame (wpE (defs₀ (F := F)) 𝒱₀ (V d (cV3 L) (jV3 L)) none) Set.univ
          (cc3_tree_sc L in1V (Memref.isWhole_whole _) out1V (Memref.isWhole_whole _) sA3 (Memref.isWhole_whole _) sB3 (Memref.isWhole_whole _)
            cc3_scoped0 cc3_scoped1 cc3_scoped2 cc3_scoped3)
          fun _ => iprop((in1Loc d ↦{q} x)
            ∗ (bigSep Finset.univ fun k : Fin (k3_t1_loop L).trips => out1Loc d ↦[rowSet (chunk3 L k)]{fullShare} (KTree.outFlat x))
            ∗ scopedBufs (V d (cV3 L) (jV3 L)) ∗ scopedSems0 (V d (cV3 L) (jV3 L))
            ∗ ∃ W', ⌜∀ p ∈ W', p ∈ W ∨ p.2 = none⌝ ∗ owes (V d (cV3 L) (jV3 L)) O W')

/-! ## From the body's triple to the launch theorem's obligation -/

omit [FloatOps F] in
/-- Regrouping the body's postcondition into the obligation's, whose waits may also be the call's. -/
theorem split_post {thr : Thread nD τ} {A B C E : sProp 𝕄} {O : CellTallies nD τ sig (HIx 2)} {W : Waits sig (HIx 2)} {q : Fin 2} :
    iprop(A ∗ B ∗ C ∗ E ∗ ∃ W', ⌜∀ p ∈ W', p ∈ W ∨ p.2 = none⌝ ∗ owes thr O W')
      ⊢ iprop((A ∗ B) ∗ C ∗ E ∗ ∃ W', ⌜∀ p ∈ W', p ∈ W ∨ p.2 = none ∨ p.2 = some q⌝ ∗ owes thr O W') := by
  iintro ⟨HA, HB, HC, HE, %W', %hW', HO⟩
  isplitl [HA HB]; · isplitl [HA]; · iexact HA
                     iexact HB
  isplitl [HC]; · iexact HC
  isplitl [HE]; · iexact HE
  iexists W'; isplitr
  · ipureintro; exact fun p hp => (hW' p hp).imp_right Or.inl
  · iexact HO

omit [FloatOps F] in
/-- Regrouping the obligation's precondition into the body's: the launch deals this kernel nothing of its own. -/
theorem split_pre {lv A B C E G : sProp 𝕄} :
    iprop(lv ∗ emp ∗ (A ∗ B) ∗ C ∗ E ∗ G) ⊢ iprop(lv ∗ A ∗ B ∗ C ∗ E ∗ G) := by
  iintro ⟨Hl, -, ⟨HA, HB⟩, HC, HE, HG⟩
  isplitl [Hl]; · iexact Hl
  isplitl [HA]; · iexact HA
  isplitl [HB]; · iexact HB
  isplitl [HC]; · iexact HC
  isplitl [HE]; · iexact HE
  iexact HG

theorem tileObl0 (hbody : TileBody0 (F := F)) : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, _root_.and_self, ↓reduceDIte]
  rw [P_go0, P_td0, show (P X).x 0 (V d ((K (F := F)).core 0 c) ((K (F := F)).sub 0 i)) = iprop(emp) from rfl]
  have e : ∀ Φ : Fin 125 → sProp 𝕄, bigSep (chunksOf (wid c.val i.val)) Φ
      = bigSep Finset.univ fun k : Fin (k1_t1_loop (split_coords ⟨_, hc.1⟩ ⟨_, hc.2⟩)).trips => Φ (chunk (split_coords ⟨_, hc.1⟩ ⟨_, hc.2⟩) k) :=
    fun Φ => bigSep_chunksOf_trips (F := F) (split_coords ⟨_, hc.1⟩ ⟨_, hc.2⟩) Φ
  rw [e (fun ch => out0Any d ch), e (fun ch => out0Val X d ch)]
  exact split_pre.trans ((hbody d (split_coords ⟨_, hc.1⟩ ⟨_, hc.2⟩) _ (X d).1 O W hO).trans (wp_mono frame _ _ fun _ => split_post))

theorem tileObl1 (hbody : TileBody1 (F := F)) : (K (F := F)).TileObl (D (F := F)) 𝒱 (P X) v₀ 1 := by
  intro d c i O W hO _ _
  simp only [show (P X).ox = fun _ _ => 0 from rfl, add_zero]
  change _ ⊢ wp _ _ _ (Pipeline.liftProg (defs₀ (F := F) (.scVector ((K (F := F)).core 1 c) ((K (F := F)).sub 1 i)) 3 ⟨⟩)) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, _root_.and_self, ↓reduceDIte]
  rw [P_go1, P_td1, show (P X).x 1 (V d ((K (F := F)).core 1 c) ((K (F := F)).sub 1 i)) = iprop(emp) from rfl]
  have e : ∀ Φ : Fin 125 → sProp 𝕄, bigSep (chunksOf (wid c.val i.val)) Φ
      = bigSep Finset.univ fun k : Fin (k3_t1_loop (split_coords3 ⟨_, hc.1⟩ ⟨_, hc.2⟩)).trips => Φ (chunk3 (split_coords3 ⟨_, hc.1⟩ ⟨_, hc.2⟩) k) :=
    fun Φ => bigSep_chunksOf_trips3 (F := F) (split_coords3 ⟨_, hc.1⟩ ⟨_, hc.2⟩) Φ
  rw [e (fun ch => out1Any d ch), e (fun ch => out1Val X d ch)]
  exact split_pre.trans ((hbody d (split_coords3 ⟨_, hc.1⟩ ⟨_, hc.2⟩) _ (X d).2 O W hO).trans (wp_mono frame _ _ fun _ => split_post))

end Cert.Proof.KI

end
-- ==== Proof.KISplit.lean ====
/-
  The launch plumbing of the two tree launches, gathered: the launch semaphores' facts, the rows of an
  output array and the chunks of a worker, how a SparseCore's share splits among its tiles and
  gathers back, that the payloads can be stored, the TensorCore's side of each call, and the tiles'
  obligations from the tile bodies' triples.
-/
import proofs.«209939_g34969623724736_cont_8to1_b_5_19_alg».proof.Proof.KISplitD
import proofs.«209939_g34969623724736_cont_8to1_b_5_19_alg».proof.Proof.KISplitE
-- ==== Proof.KICalls.lean ====
/-
  @main on the TensorCore: the two tree launches as steps (operands out to the SparseCores, results
  back), and the whole of @main from the launch's holdings to every unscoped buffer at its final
  contents — six host operations, a matrix-product region, a flattening, a tree launch, a reshaping,
  the same again for the second half of the rows, and the concatenation.
-/
import proofs.«209939_g34969623724736_cont_8to1_b_5_19_alg».proof.Proof.KISteps
import proofs.«209939_g34969623724736_cont_8to1_b_5_19_alg».proof.Proof.KISplit

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Transfers (shareTokN shareDrop)

variable {F : FTy → Type} [FloatOps F] [∀ e, Nonempty (Elt F e)]

local notation "𝕄" => MT nD τ sig (HIx 2) (Elt F) ℕ UU ℕ

/-- An unscoped TensorCore buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- One buffer out of a held set. -/
theorem held_take (thr : Thread nD τ) (S : Finset (DevRef τ sig)) (V : Valuation τ sig (Elt F)) {b : DevRef τ sig} (hb : b ∈ S) :
    (StableHlo.held thr S V : sProp 𝕄) = iprop((((thr.1, b) : Loc nD τ sig) ↦{fullShare} V b) ∗ StableHlo.held thr (S.erase b) V) := by
  unfold StableHlo.held; exact BI.bigSep_erase hb

variable (m : (ℓ : Loc nD τ sig) → Buf (Elt F) ℓ)

theorem W4_in (d : Dev nD) : W4 m d (Proc.devRef .tc main_v6) = W3 m d (Proc.devRef .tc main_v6) := by
  unfold W4; exact Function.update_of_ne (StableHlo.devRef_ne_of_ne (by decide)) _ _
theorem W4_out (d : Dev nD) : W4 m d (Proc.devRef .tc main_v7) = KTree.outFlat (W3 m d (Proc.devRef .tc main_v6)) := by
  unfold W4; exact Function.update_self _ _ _
theorem W4_rest (d : Dev nD) (S : Finset (DevRef τ sig)) (hS : Proc.devRef .tc main_v7 ∉ S) :
    (StableHlo.held (d : Thread nD τ) S (W4 m d) : sProp 𝕄) = StableHlo.held (d : Thread nD τ) S (W3 m d) :=
  bigSep_congr fun b hb => by
    have hne : b ≠ Proc.devRef .tc main_v7 := fun e => hS (e ▸ hb)
    unfold W4; rw [Function.update_of_ne hne]

/-- Tree launch 0 as a step of @main: its input goes out as the workers' read shares and comes back whole, its
    output goes out row by row and comes back at the launch's value of the input. -/
theorem call_step0 (κ : GSem nD τ sig → ℕ) (d : Dev nD) (Φ : PUnit → sProp 𝕄) :
    iprop((K (F := F)).ctx EH (P (inputs m)) κ ∗ (K (F := F)).tcSt EH d 0
        ∗ StableHlo.held (d : Thread nD τ) (Pipeline.ucRefs τ sig) (W3 m d)
        ∗ (iprop((K (F := F)).tcSt EH d (0 + 1) ∗ StableHlo.held (d : Thread nD τ) (Pipeline.ucRefs τ sig) (W4 m d)) -∗ Φ ⟨⟩))
      ⊢ wp frame (wpE ((K (F := F)).defs (D (F := F))) 𝒱 (SparseCore.T d) none) Set.univ ((K (F := F)).run d 0) Φ := by
  have hin : Proc.devRef .tc main_v6 ∈ Pipeline.ucRefs τ sig := mem_uc main_v6 (by decide)
  have hout : Proc.devRef .tc main_v7 ∈ (Pipeline.ucRefs τ sig).erase (Proc.devRef .tc main_v6) :=
    Finset.mem_erase.mpr ⟨StableHlo.devRef_ne_of_ne (by decide), mem_uc main_v7 (by decide)⟩
  rw [held_take _ _ (W3 m d) hin, held_take _ _ (W3 m d) hout,
    held_take _ _ (W4 m d) hin, held_take _ _ (W4 m d) hout, W4_in, W4_out,
    W4_rest m d _ (fun h => (Finset.mem_erase.mp h).1 rfl)]
  iintro ⟨#Hctx, Hst, ⟨Hin, Hout, Hrest⟩, Hk⟩
  ihave Hpre := (call0_pre (inputs m) d _) $$ [Hin Hout]
  · isplitl [Hin]
    · iexact Hin
    · iexact Hout
  icases Hpre with ⟨Hdrop, Hsts⟩
  iapply ((K (F := F)).wp_run (D (F := F)) 𝒱 (EH := EH) (P := P (inputs m)) κ d 0) $$ [Hst Hsts Hdrop Hrest Hk]
  isplitr; · iexact Hctx
  isplitl [Hst]; · iexact Hst
  isplitl [Hsts]; · iexact Hsts
  iintro ⟨Hst, Hdn⟩
  ihave Hpost := (call0_post (inputs m) d) $$ [Hdrop Hdn]
  · isplitl [Hdrop]
    · iexact Hdrop
    · iexact Hdn
  icases Hpost with ⟨Hin, Hout⟩
  iapply Hk
  isplitl [Hst]; · iexact Hst
  isplitl [Hin]; · iexact Hin
  isplitl [Hout]; · iexact Hout
  iexact Hrest

theorem W8_in (d : Dev nD) : W8 m d (Proc.devRef .tc main_v10) = W7 m d (Proc.devRef .tc main_v10) := by
  unfold W8; exact Function.update_of_ne (StableHlo.devRef_ne_of_ne (by decide)) _ _
theorem W8_out (d : Dev nD) : W8 m d (Proc.devRef .tc main_v11) = KTree.outFlat (W7 m d (Proc.devRef .tc main_v10)) := by
  unfold W8; exact Function.update_self _ _ _
theorem W8_rest (d : Dev nD) (S : Finset (DevRef τ sig)) (hS : Proc.devRef .tc main_v11 ∉ S) :
    (StableHlo.held (d : Thread nD τ) S (W8 m d) : sProp 𝕄) = StableHlo.held (d : Thread nD τ) S (W7 m d) :=
  bigSep_congr fun b hb => by
    have hne : b ≠ Proc.devRef .tc main_v11 := fun e => hS (e ▸ hb)
    unfold W8; rw [Function.update_of_ne hne]

/-- Tree launch 1 as a step of @main: its input goes out as the workers' read shares and comes back whole, its
    output goes out row by row and comes back at the launch's value of the input. -/
theorem call_step1 (κ : GSem nD τ sig → ℕ) (d : Dev nD) (Φ : PUnit → sProp 𝕄) :
    iprop((K (F := F)).ctx EH (P (inputs m)) κ ∗ (K (F := F)).tcSt EH d 1
        ∗ StableHlo.held (d : Thread nD τ) (Pipeline.ucRefs τ sig) (W7 m d)
        ∗ (iprop((K (F := F)).tcSt EH d (1 + 1) ∗ StableHlo.held (d : Thread nD τ) (Pipeline.ucRefs τ sig) (W8 m d)) -∗ Φ ⟨⟩))
      ⊢ wp frame (wpE ((K (F := F)).defs (D (F := F))) 𝒱 (SparseCore.T d) none) Set.univ ((K (F := F)).run d 1) Φ := by
  have hin : Proc.devRef .tc main_v10 ∈ Pipeline.ucRefs τ sig := mem_uc main_v10 (by decide)
  have hout : Proc.devRef .tc main_v11 ∈ (Pipeline.ucRefs τ sig).erase (Proc.devRef .tc main_v10) :=
    Finset.mem_erase.mpr ⟨StableHlo.devRef_ne_of_ne (by decide), mem_uc main_v11 (by decide)⟩
  rw [held_take _ _ (W7 m d) hin, held_take _ _ (W7 m d) hout,
    held_take _ _ (W8 m d) hin, held_take _ _ (W8 m d) hout, W8_in, W8_out,
    W8_rest m d _ (fun h => (Finset.mem_erase.mp h).1 rfl)]
  iintro ⟨#Hctx, Hst, ⟨Hin, Hout, Hrest⟩, Hk⟩
  ihave Hpre := (call1_pre (inputs m) d _) $$ [Hin Hout]
  · isplitl [Hin]
    · iexact Hin
    · iexact Hout
  icases Hpre with ⟨Hdrop, Hsts⟩
  iapply ((K (F := F)).wp_run (D (F := F)) 𝒱 (EH := EH) (P := P (inputs m)) κ d 1) $$ [Hst Hsts Hdrop Hrest Hk]
  isplitr; · iexact Hctx
  isplitl [Hst]; · iexact Hst
  isplitl [Hsts]; · iexact Hsts
  iintro ⟨Hst, Hdn⟩
  ihave Hpost := (call1_post (inputs m) d) $$ [Hdrop Hdn]
  · isplitl [Hdrop]
    · iexact Hdrop
    · iexact Hdn
  icases Hpost with ⟨Hin, Hout⟩
  iapply Hk
  isplitl [Hst]; · iexact Hst
  isplitl [Hin]; · iexact Hin
  isplitl [Hout]; · iexact Hout
  iexact Hrest

end Cert.Proof.KI

end
-- ==== Proof.KIMain.lean ====
/-
  @main on the TensorCore, whole: from what the launch deals it to every unscoped buffer at its final
  contents and the launch handshakes at their end.
-/
import proofs.«209939_g34969623724736_cont_8to1_b_5_19_alg».proof.Proof.KICalls

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F] [∀ e, Nonempty (Elt F e)]

local notation "𝕄" => MT nD τ sig (HIx 2) (Elt F) ℕ UU ℕ

/-! ## Every host operation's buffers are unscoped buffers of the TensorCore -/

theorem sub_uc_op_cst : (op_cst (F := F)).bufs ⊆ Pipeline.ucRefs τ sig := Pipeline.sub_ucRefs _ (StableHlo.nullary_bufs_sub ..)
theorem sub_uc_op_v0 : (op_v0 (F := F)).bufs ⊆ Pipeline.ucRefs τ sig := Pipeline.sub_ucRefs _ (StableHlo.unary_bufs_sub ..)
theorem sub_uc_op_v1 : (op_v1 (F := F)).bufs ⊆ Pipeline.ucRefs τ sig := Pipeline.sub_ucRefs _ (StableHlo.binary_bufs_sub ..)
theorem sub_uc_op_v2 : (op_v2 (F := F)).bufs ⊆ Pipeline.ucRefs τ sig := Pipeline.sub_ucRefs _ (StableHlo.reshape_bufs_sub ..)
theorem sub_uc_op_v3 : (op_v3 (F := F)).bufs ⊆ Pipeline.ucRefs τ sig := Pipeline.sub_ucRefs _ (StableHlo.unary_bufs_sub ..)
theorem sub_uc_op_v4 : (op_v4 (F := F)).bufs ⊆ Pipeline.ucRefs τ sig := Pipeline.sub_ucRefs _ (StableHlo.reshape_bufs_sub ..)
theorem sub_uc_op_v6 : (op_v6 (F := F)).bufs ⊆ Pipeline.ucRefs τ sig := Pipeline.sub_ucRefs _ (StableHlo.reshape_bufs_sub ..)
theorem sub_uc_op_v8 : (op_v8 (F := F)).bufs ⊆ Pipeline.ucRefs τ sig := Pipeline.sub_ucRefs _ (StableHlo.reshape_bufs_sub ..)
theorem sub_uc_op_v10 : (op_v10 (F := F)).bufs ⊆ Pipeline.ucRefs τ sig := Pipeline.sub_ucRefs _ (StableHlo.reshape_bufs_sub ..)
theorem sub_uc_op_v12 : (op_v12 (F := F)).bufs ⊆ Pipeline.ucRefs τ sig := Pipeline.sub_ucRefs _ (StableHlo.reshape_bufs_sub ..)
theorem sub_uc_op_v13 : (op_v13 (F := F)).bufs ⊆ Pipeline.ucRefs τ sig := Pipeline.sub_ucRefs _ (StableHlo.binary_bufs_sub ..)

/-! ## The TensorCore's handshake state: its debt, and the rest -/

/-- The handshake state before call `n` but for what the TensorCore owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜∀ p ∈ W, p ∈ Bnd (F := F) n d⌝ ∗ owes (d : Thread nD τ) (Otc (F := F) d n) W) ∗ tcRest (F := F) d n) := rfl

variable (m : (ℓ : Loc nD τ sig) → Buf (Elt F) ℓ) (ρ : Dev nD → PrngReg)

/-- A matrix-product region with the handshake state riding through it whole. -/
theorem region0_through (d : Dev nD) (Φ : PUnit → sProp 𝕄) :
    iprop(levAts (K (F := F)).L (K (F := F)).lev ∗ boundary (d : Thread nD τ)
        ∗ StableHlo.held (d : Thread nD τ) (Pipeline.ucRefs τ sig) (W1 m d) ∗ (∃ r, prngReg d r) ∗ (K (F := F)).tcSt EH d 0
        ∗ (Pipeline.cellsGhost (Pipeline.pin (pcfgs (F := F)) adm) ER 0 d ∗ Pipeline.toksInit (Pipeline.pin (pcfgs (F := F)) adm) ER 0 d)
        ∗ (iprop(boundary (d : Thread nD τ) ∗ StableHlo.held (d : Thread nD τ) (Pipeline.ucRefs τ sig) (W2 m d) ∗ (∃ r, prngReg d r) ∗ (K (F := F)).tcSt EH d 0) -∗ Φ ⟨⟩))
      ⊢ wp frame (wpE ((K (F := F)).defs (D (F := F))) 𝒱 (d : Thread nD τ) none) Set.univ
          (Prog.lift (.customCall (SparseCore.inner (Pipeline.entry 0)) ())) Φ := by
  rw [tcSt_eq]
  iintro ⟨#Hla, Hb, Hheld, Hp, ⟨HO, Hrest⟩, Hg, Hk⟩
  iapply (region_step0 m d Φ)
  isplitr; · iexact Hla
  isplitl [Hb]; · iexact Hb
  isplitl [Hheld]; · iexact Hheld
  isplitl [Hp HO]; · isplitl [Hp] <;> iassumption
  isplitl [Hg]; · iexact Hg
  iintro ⟨Hb, Hheld, Hp, HO⟩
  iapply Hk
  isplitl [Hb]; · iexact Hb
  isplitl [Hheld]; · iexact Hheld
  isplitl [Hp]; · iexact Hp
  isplitl [HO] <;> iassumption

theorem region1_through (d : Dev nD) (Φ : PUnit → sProp 𝕄) :
    iprop(levAts (K (F := F)).L (K (F := F)).lev ∗ boundary (d : Thread nD τ)
        ∗ StableHlo.held (d : Thread nD τ) (Pipeline.ucRefs τ sig) (W5 m d) ∗ (∃ r, prngReg d r) ∗ (K (F := F)).tcSt EH d 1
        ∗ (Pipeline.cellsGhost (Pipeline.pin (pcfgs (F := F)) adm) ER 1 d ∗ Pipeline.toksInit (Pipeline.pin (pcfgs (F := F)) adm) ER 1 d)
        ∗ (iprop(boundary (d : Thread nD τ) ∗ StableHlo.held (d : Thread nD τ) (Pipeline.ucRefs τ sig) (W6 m d) ∗ (∃ r, prngReg d r) ∗ (K (F := F)).tcSt EH d 1) -∗ Φ ⟨⟩))
      ⊢ wp frame (wpE ((K (F := F)).defs (D (F := F))) 𝒱 (d : Thread nD τ) none) Set.univ
          (Prog.lift (.customCall (SparseCore.inner (Pipeline.entry 1)) ())) Φ := by
  rw [tcSt_eq]
  iintro ⟨#Hla, Hb, Hheld, Hp, ⟨HO, Hrest⟩, Hg, Hk⟩
  iapply (region_step1 m d Φ)
  isplitr; · iexact Hla
  isplitl [Hb]; · iexact Hb
  isplitl [Hheld]; · iexact Hheld
  isplitl [Hp HO]; · isplitl [Hp] <;> iassumption
  isplitl [Hg]; · iexact Hg
  iintro ⟨Hb, Hheld, Hp, HO⟩
  iapply Hk
  isplitl [Hb]; · iexact Hb
  isplitl [Hheld]; · iexact Hheld
  isplitl [Hp]; · iexact Hp
  isplitl [HO] <;> iassumption

/-- @main on device `d`'s TensorCore. -/
theorem hmain (κ : GSem nD τ sig → ℕ) (d : Dev nD) :
    iprop((K (F := F)).ctx EH (P (inputs m)) κ ∗ (K (F := F)).tcSt EH d 0 ∗ (K (F := F)).tcRes m ρ d
        ∗ ((Pipeline.cellsGhost (Pipeline.pin (pcfgs (F := F)) adm) ER 0 d ∗ Pipeline.toksInit (Pipeline.pin (pcfgs (F := F)) adm) ER 0 d)
          ∗ (Pipeline.cellsGhost (Pipeline.pin (pcfgs (F := F)) adm) ER 1 d ∗ Pipeline.toksInit (Pipeline.pin (pcfgs (F := F)) adm) ER 1 d)))
      ⊢ wp frame (wpE ((K (F := F)).defs (D (F := F))) 𝒱 (SparseCore.T d) none) Set.univ (main d)
          fun _ => iprop((K (F := F)).tcSt EH d 2 ∗ StableHlo.held (d : Thread nD τ) (Pipeline.ucRefs τ sig) (W9 m d)) := by
  unfold SparseCore.Cfg.tcRes
  rw [show unscopedBufs d (fun b => m ((SparseCore.T d).loc b)) = StableHlo.held (d : Thread nD τ) (Pipeline.ucRefs τ sig) (W0 m d)
    from Pipeline.unscopedBufs_held d (W0 m d)]
  simp only [main, wp_bind, wp_pure]
  iintro ⟨#Hctx, Hst, ⟨Hb, Hheld, -, Hp⟩, ⟨Hg0, Hg1⟩⟩
  ihave #Hla := (SparseCore.Cfg.ctx_levAts (K := K (F := F)) κ) $$ Hctx
  iapply (wp_hlo_within 𝒱 (SparseCore.T d) none Set.univ (op := op_cst (F := F)) (S := Pipeline.ucRefs τ sig) (sub_uc_op_cst (F := F)) (V := W0 m d)) $$ [Hb Hheld]
  · isplitl [Hb] <;> iassumption
  iintro ⟨Hb, Hheld⟩
  rw [wp_ret]; imodintro
  iapply (wp_hlo_within 𝒱 (SparseCore.T d) none Set.univ (op := op_v0 (F := F)) (S := Pipeline.ucRefs τ sig) (sub_uc_op_v0 (F := F)) (V := (op_cst (F := F)).result (W0 m d))) $$ [Hb Hheld]
  · isplitl [Hb] <;> iassumption
  iintro ⟨Hb, Hheld⟩
  rw [wp_ret]; imodintro
  iapply (wp_hlo_within 𝒱 (SparseCore.T d) none Set.univ (op := op_v1 (F := F)) (S := Pipeline.ucRefs τ sig) (sub_uc_op_v1 (F := F)) (V := (op_v0 (F := F)).result ((op_cst (F := F)).result (W0 m d)))) $$ [Hb Hheld]
  · isplitl [Hb] <;> iassumption
  iintro ⟨Hb, Hheld⟩
  rw [wp_ret]; imodintro
  iapply (wp_hlo_within 𝒱 (SparseCore.T d) none Set.univ (op := op_v2 (F := F)) (S := Pipeline.ucRefs τ sig) (sub_uc_op_v2 (F := F)) (V := (op_v1 (F := F)).result ((op_v0 (F := F)).result ((op_cst (F := F)).result (W0 m d))))) $$ [Hb Hheld]
  · isplitl [Hb] <;> iassumption
  iintro ⟨Hb, Hheld⟩
  rw [wp_ret]; imodintro
  iapply (wp_hlo_within 𝒱 (SparseCore.T d) none Set.univ (op := op_v3 (F := F)) (S := Pipeline.ucRefs τ sig) (sub_uc_op_v3 (F := F)) (V := (op_v2 (F := F)).result ((op_v1 (F := F)).result ((op_v0 (F := F)).result ((op_cst (F := F)).result (W0 m d)))))) $$ [Hb Hheld]
  · isplitl [Hb] <;> iassumption
  iintro ⟨Hb, Hheld⟩
  rw [wp_ret]; imodintro
  iapply (wp_hlo_within 𝒱 (SparseCore.T d) none Set.univ (op := op_v4 (F := F)) (S := Pipeline.ucRefs τ sig) (sub_uc_op_v4 (F := F)) (V := (op_v3 (F := F)).result ((op_v2 (F := F)).result ((op_v1 (F := F)).result ((op_v0 (F := F)).result ((op_cst (F := F)).result (W0 m d))))))) $$ [Hb Hheld]
  · isplitl [Hb] <;> iassumption
  iintro ⟨Hb, Hheld⟩
  rw [wp_ret]; imodintro
  -- the first half's matrix product
  iapply (region0_through m d _)
  isplitr; · iexact Hla
  isplitl [Hb]; · iexact Hb
  isplitl [Hheld]; · iexact Hheld
  isplitl [Hp]; · iexists _; iexact Hp
  isplitl [Hst]; · iexact Hst
  isplitl [Hg0]; · iexact Hg0
  iintro ⟨Hb, Hheld, Hp, Hst⟩
  iapply (wp_hlo_within 𝒱 (SparseCore.T d) none Set.univ (op := op_v6 (F := F)) (S := Pipeline.ucRefs τ sig) (sub_uc_op_v6 (F := F)) (V := W2 m d)) $$ [Hb Hheld]
  · isplitl [Hb] <;> iassumption
  iintro ⟨Hb, Hheld⟩
  rw [wp_ret]; imodintro
  -- the first tree launch
  iapply (call_step0 m κ d _)
  isplitr; · iexact Hctx
  isplitl [Hst]; · iexact Hst
  isplitl [Hheld]; · iexact Hheld
  iintro ⟨Hst, Hheld⟩
  iapply (wp_hlo_within 𝒱 (SparseCore.T d) none Set.univ (op := op_v8 (F := F)) (S := Pipeline.ucRefs τ sig) (sub_uc_op_v8 (F := F)) (V := W4 m d)) $$ [Hb Hheld]
  · isplitl [Hb] <;> iassumption
  iintro ⟨Hb, Hheld⟩
  rw [wp_ret]; imodintro
  -- the second half's matrix product
  iapply (region1_through m d _)
  isplitr; · iexact Hla
  isplitl [Hb]; · iexact Hb
  isplitl [Hheld]; · iexact Hheld
  isplitl [Hp]; · iexact Hp
  isplitl [Hst]; · iexact Hst
  isplitl [Hg1]; · iexact Hg1
  iintro ⟨Hb, Hheld, Hp, Hst⟩
  iapply (wp_hlo_within 𝒱 (SparseCore.T d) none Set.univ (op := op_v10 (F := F)) (S := Pipeline.ucRefs τ sig) (sub_uc_op_v10 (F := F)) (V := W6 m d)) $$ [Hb Hheld]
  · isplitl [Hb] <;> iassumption
  iintro ⟨Hb, Hheld⟩
  rw [wp_ret]; imodintro
  -- the second tree launch
  iapply (call_step1 m κ d _)
  isplitr; · iexact Hctx
  isplitl [Hst]; · iexact Hst
  isplitl [Hheld]; · iexact Hheld
  iintro ⟨Hst, Hheld⟩
  iapply (wp_hlo_within 𝒱 (SparseCore.T d) none Set.univ (op := op_v12 (F := F)) (S := Pipeline.ucRefs τ sig) (sub_uc_op_v12 (F := F)) (V := W8 m d)) $$ [Hb Hheld]
  · isplitl [Hb] <;> iassumption
  iintro ⟨Hb, Hheld⟩
  rw [wp_ret]; imodintro
  iapply (wp_hlo_within 𝒱 (SparseCore.T d) none Set.univ (op := op_v13 (F := F)) (S := Pipeline.ucRefs τ sig) (sub_uc_op_v13 (F := F)) (V := (op_v12 (F := F)).result (W8 m d))) $$ [Hb Hheld]
  · isplitl [Hb] <;> iassumption
  iintro ⟨Hb, Hheld⟩
  rw [wp_ret]; imodintro
  imodintro
  isplitl [Hst]; · iexact Hst
  iexact Hheld

end Cert.Proof.KI

end
-- ==== Proof.KILaunch.lean ====
/-
  The launch: the ghost state the program starts from, what the final memory says, and the run of
  the whole program from the tile bodies' triples and @main's.

  The launch element is the handshakes' rounds beside the two matrix products' staging cells'
  rounds and the counters' unit.  It splits into the three; the staging cells' part funds, per
  device and pipeline, the cells' ghost state and the loops' duty tokens; the tree launches deal
  their threads nothing.  At the end the TensorCore holds its unscoped arrays at the last boundary's
  valuation, so the final memory has those contents.
-/
import proofs.«209939_g34969623724736_cont_8to1_b_5_19_alg».proof.Proof.KIFold
import proofs.«209939_g34969623724736_cont_8to1_b_5_19_alg».proof.Proof.KISplit
import proofs.«209939_g34969623724736_cont_8to1_b_5_19_alg».proof.Proof.Gen.KernelIdeal.Launch

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The launch element -/

/-- The handshakes' rounds, the two matrix products' staging cells' rounds, the counters' unit. -/
def u₀ : UU := (initOf (K (F := F)).hsCells (K (F := F)).hsToks, (initOf (Pipeline.cells cfgs cellOf_inj) (Pipeline.launchToks cfgs cellOf_inj), 1))

/-- What device `d`'s TensorCore is dealt for the two matrix products: each one's staging cells' ghost state and its loop's duty tokens. -/
abbrev Gd (d : Dev nD) : sProp 𝕄 :=
  iprop((Pipeline.cellsGhost (Pipeline.pin (pcfgs (F := F)) adm) ER 0 d ∗ Pipeline.toksInit (Pipeline.pin (pcfgs (F := F)) adm) ER 0 d)
    ∗ (Pipeline.cellsGhost (Pipeline.pin (pcfgs (F := F)) adm) ER 1 d ∗ Pipeline.toksInit (Pipeline.pin (pcfgs (F := F)) adm) ER 1 d))

/-- The staging cells' rounds fund every device's share. -/
theorem Gd_fund : (BI.own ((ER : Emb UR 𝕄) (initOf (Pipeline.cells cfgs cellOf_inj) (Pipeline.launchToks cfgs cellOf_inj))) : sProp 𝕄)
    ⊢ iprop(|==> bigSep Finset.univ fun d : Dev nD => Gd (F := F) d) := by
  have h : (iprop((bigSep Finset.univ fun c : Dev nD => bigSep Finset.univ fun p : Fin 2 => Pipeline.cellsGhost (Pipeline.pin (pcfgs (F := F)) adm) (ER : Emb UR 𝕄) p c)
        ∗ (bigSep Finset.univ fun c : Dev nD => bigSep Finset.univ fun p : Fin 2 => (Pipeline.toksInit (Pipeline.pin (pcfgs (F := F)) adm) (ER : Emb UR 𝕄) p c : sProp 𝕄))) : sProp 𝕄)
      ⊢ bigSep Finset.univ fun d : Dev nD => Gd (F := F) d := by
    have hd : ∀ (A0 A1 B0 B1 : sProp 𝕄), iprop((A0 ∗ A1) ∗ B0 ∗ B1) ⊢ iprop((A0 ∗ B0) ∗ A1 ∗ B1) := fun A0 A1 B0 B1 => by
      iintro ⟨⟨A0, A1⟩, ⟨B0, B1⟩⟩
      isplitl [A0 B0]
      · isplitl [A0]; · iexact A0
        iexact B0
      · isplitl [A1]; · iexact A1
        iexact B1
    rw [← bigSep_sep']
    refine bigSep_mono fun d _ => ?_
    rw [bigSep_univ_two, bigSep_univ_two]
    exact hd _ _ _ _
  exact (Pipeline.fund_ghost (Pipeline.pin (pcfgs (F := F)) adm) (ER : Emb UR 𝕄) cellOf_inj).trans (BI.bupd_mono h)

variable (X : Inputs F)

theorem Px_emp : (bigSep Finset.univ fun thr : Thread nD τ => bigSep Finset.univ fun q : Fin 2 => (P X).x q thr) = (iprop(emp) : sProp 𝕄) := by
  rw [show (fun thr : Thread nD τ => bigSep Finset.univ fun q : Fin 2 => (P X).x q thr) = fun _ => (iprop(emp) : sProp 𝕄) from
    funext fun _ => bigSep_emp_const _]
  exact bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 2 => (P X).x q thr) := by
  rw [Px_emp]
  unfold u₀
  iintro Hu
  ihave H := (ownU_pair _ _) $$ Hu
  icases H with ⟨HH, HR⟩
  ihave H2 := (own_pair_emb embR _ _) $$ HR
  icases H2 with ⟨HR, -⟩
  imod (show (BI.own (((Emb.inl : Emb UR (UR × Counters)).trans embR : Emb UR 𝕄) (initOf (Pipeline.cells cfgs cellOf_inj) (Pipeline.launchToks cfgs cellOf_inj))) : sProp 𝕄)
      ⊢ iprop(|==> bigSep Finset.univ fun d : Dev nD => Gd (F := F) d) from Gd_fund (F := F)) $$ HR with HG
  imodintro
  isplitl [HH]; · iexact HH
  isplitl [HG]; · iexact HG
  iempintro

/-! ## What the final memory says -/

variable (m : (ℓ : Loc nD τ sig) → Buf (Elt F) ℓ)

/-- At the end the TensorCore holds its unscoped arrays at the last boundary's valuation. -/
abbrev FIN (d : Dev nD) : sProp 𝕄 := StableHlo.held (d : Thread nD τ) (Pipeline.ucRefs τ sig) (W9 m d)
def fq (d : Dev nD) (s' : Phys nD τ sig (Elt F)) : Prop := ∀ b ∈ Pipeline.ucRefs τ sig, s'.mem.mem (d, b) = W9 m d b

theorem hfin (d : Dev nD) (s' : Phys nD τ sig (Elt F)) : iprop(FIN m d ∗ SI s') ⊢ (⌜fq m d s'⌝ : sProp 𝕄) := by
  refine (pointsTo_read_all (Pipeline.ucRefs τ sig) (fun b => ((d, b) : Loc nD τ sig)) (fun b => W9 m d b) s').trans ?_
  iintro ⟨%h, -⟩
  ipureintro; exact h

/-! ## The run -/

/-- @main on a device's TensorCore, from the handshakes' context, the TensorCore's state before the first call, the launch
    memory and the matrix products' ghost state, to the state after the last call and the final arrays. -/
def HMain (ρ : Dev nD → PrngReg) : Prop :=
  ∀ (κ : GSem nD τ sig → ℕ) (d : Dev nD),
    (iprop((K (F := F)).ctx EH (P (inputs m)) κ ∗ (K (F := F)).tcSt EH d 0 ∗ (K (F := F)).tcRes m ρ d ∗ Gd (F := F) d) : sProp 𝕄)
      ⊢ wp frame (wpE ((K (F := F)).defs (D (F := F))) 𝒱 (SparseCore.T d) none) Set.univ (main d) fun _ => iprop((K (F := F)).tcSt EH d 2 ∗ FIN m d)

theorem run_main [∀ e, Nonempty (Elt F e)] (ρ : Dev nD → PrngReg) (hb0 : TileBody0 (F := F)) (hb1 : TileBody1 (F := F)) (hmain : HMain m ρ) :
    θ_run (Cert.KernelIdeal.defs (F := F)) (Cert.KernelIdeal.threads (F := F)) ⟨m, fun _ => 0, ρ⟩
      (fun r => ∀ c : Dev nD, ∀ b ∈ Pipeline.ucRefs τ sig, r.2.mem (c, b) = W9 m c b) :=
  SparseCore.Cfg.θ_run_sc (K := K (F := F)) (D := D (F := F)) (𝒱 := 𝒱) (EH := EH) (P := P (inputs m)) facts v₀
    (fun q hq => match q with | 0 => nomatch hq | 1 => nomatch hq)
    (fun q _ => match q with | 0 => tileObl0 _ hb0 | 1 => tileObl1 _ hb1)
    (fun q _ => match q with | 0 => SparseCore.Cfg.VecSplit.of_plain (vecSplit0 _) | 1 => SparseCore.Cfg.VecSplit.of_plain (vecSplit1 _))
    m ρ main (fun d => Gd (F := F) d) (FIN m) (u₀ (F := F)) (sep_elim_left.trans (hu₀ _)) hmain (fq m) (hfin m) _ (fun _ h => h)

end Cert.Proof.KI

end
-- ==== Proof.KIRun.lean ====
/-
  The kernel program's run: every weakly fair execution of all its threads ends, nothing faulting,
  with every unscoped buffer of the TensorCore at the last boundary's contents — given the two tree
  launches' tile bodies.
-/
import proofs.«209939_g34969623724736_cont_8to1_b_5_19_alg».proof.Proof.KIMain
import proofs.«209939_g34969623724736_cont_8to1_b_5_19_alg».proof.Proof.KILaunch

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-- @main on the TensorCore, in the launch theorem's wording. -/
theorem hMain (m : (ℓ : Loc nD τ sig) → Buf (Elt F) ℓ) (ρ : Dev nD → PrngReg) : HMain (F := F) m ρ :=
  fun κ d => hmain m ρ κ d

/-- The run, from the two tile bodies. -/
theorem run (m : (ℓ : Loc nD τ sig) → Buf (Elt F) ℓ) (ρ : Dev nD → PrngReg) (hb0 : TileBody0 (F := F)) (hb1 : TileBody1 (F := F)) :
    θ_run (Cert.KernelIdeal.defs (F := F)) (Cert.KernelIdeal.threads (F := F)) ⟨m, fun _ => 0, ρ⟩
      (fun r => ∀ c : Dev nD, ∀ b ∈ Pipeline.ucRefs τ sig, r.2.mem (c, b) = W9 m c b) :=
  run_main m ρ hb0 hb1 (hMain m ρ)

end Cert.Proof.KI

end
-- ==== Proof.KIFinalArgs.lean ====
/-
  The arguments come out of the fold as they went in.

  No host operation, no matrix-product region and no tree launch writes an argument: each host
  operation writes its own result array, a region writes its output window's array and leaves an input
  window's array as it found it, and a tree launch writes its output array.  So the fold read at an
  argument walks back, boundary by boundary, to the launch memory.
-/
import proofs.«209939_g34969623724736_cont_8to1_b_5_19_alg».proof.Proof.KIFold
import Idealize.ShloMosaic.Lib.StableHlo.Run

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL.Sem
open Idealize.ShloMosaic.Rounds
open Idealize.ShloMosaic.Pipeline (Dat)

section AnyInstance

variable {F : FTy → Type} [FloatOps F]
variable (m : (ℓ : Loc nD τ sig) → Buf (Elt F) ℓ)

/-! ## A region's exit contents, read at one of its arrays and at any other buffer -/

theorem foldW2_arr (c : Dev nD) (w : Fin cfg0.W) :
    W2 m c (Proc.devRef .tc (Pipeline.arrRef spec0 w))
      = (dat0 (V1 m) (fun c => Otc (F := F) c 0) (Bnd (F := F) 0) c).arrAt w cfg0.N := by
  unfold W2; exact Pipeline.withArrays_arr spec0 winFacts0.arr_inj c _ _ w
theorem foldW2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem foldW6_arr (c : Dev nD) (w : Fin cfg2.W) :
    W6 m c (Proc.devRef .tc (Pipeline.arrRef spec2 w))
      = (dat1 (V5 m) (fun c => Otc (F := F) c 1) (Bnd (F := F) 1) c).arrAt w cfg2.N := by
  unfold W6; exact Pipeline.withArrays_arr spec2 winFacts2.arr_inj c _ _ w
theorem foldW6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-! ## The first argument: read by both regions through an input window, written by nothing -/

theorem W1_arg0 (c : Dev nD) : W1 m c (Proc.devRef .tc main_arg0) = m ((c : Thread nD τ).loc main_arg0) := by
  show StableHlo.after [op_cst (F := F), op_v0, op_v1, op_v2, op_v3, op_v4] (W0 m c) (Proc.devRef .tc main_arg0) = _
  after_results

theorem W5_arg0 (c : Dev nD) : W5 m c (Proc.devRef .tc main_arg0) = m ((c : Thread nD τ).loc main_arg0) :=
  calc W5 m c (Proc.devRef .tc main_arg0)
    _ = W4 m c (Proc.devRef .tc main_arg0) :=
        StableHlo.reshape_result_ne _ _ _ _ _ _ _ (show main_arg0 ≠ main_v8 by decide)
    _ = W3 m c (Proc.devRef .tc main_arg0) := by
        unfold W4; exact Function.update_of_ne (StableHlo.devRef_ne_of_ne (by decide)) _ _
    _ = W2 m c (Proc.devRef .tc main_arg0) :=
        StableHlo.reshape_result_ne _ _ _ _ _ _ _ (show main_arg0 ≠ main_v6 by decide)
    _ = W1 m c (Proc.devRef .tc main_arg0) :=
        (foldW2_arr m c 0).trans (((dat0 (V1 m) _ _ c).arrAt_in 0 rfl _).trans (A_eq0 (V1 m) _ _ c 0))
    _ = m ((c : Thread nD τ).loc main_arg0) := W1_arg0 m c

theorem W9_arg0 (c : Dev nD) : W9 m c (Proc.devRef .tc main_arg0) = m ((c : Thread nD τ).loc main_arg0) :=
  calc W9 m c (Proc.devRef .tc main_arg0)
    _ = (op_v12 (F := F)).result (W8 m c) (Proc.devRef .tc main_arg0) :=
        StableHlo.binary_result_ne _ _ _ _ _ _ _ _ (show main_arg0 ≠ main_v13 by decide)
    _ = W8 m c (Proc.devRef .tc main_arg0) :=
        StableHlo.reshape_result_ne _ _ _ _ _ _ _ (show main_arg0 ≠ main_v12 by decide)
    _ = W7 m c (Proc.devRef .tc main_arg0) := by
        unfold W8; exact Function.update_of_ne (StableHlo.devRef_ne_of_ne (by decide)) _ _
    _ = W6 m c (Proc.devRef .tc main_arg0) :=
        StableHlo.reshape_result_ne _ _ _ _ _ _ _ (show main_arg0 ≠ main_v10 by decide)
    _ = W5 m c (Proc.devRef .tc main_arg0) :=
        (foldW6_arr m c 0).trans (((dat1 (V5 m) _ _ c).arrAt_in 0 rfl _).trans (A_eq1 (V5 m) _ _ c 0))
    _ = m ((c : Thread nD τ).loc main_arg0) := W5_arg0 m c

/-! ## The second argument: read by one host operation, no window's array -/

theorem W1_arg1 (c : Dev nD) : W1 m c (Proc.devRef .tc main_arg1) = m ((c : Thread nD τ).loc main_arg1) := by
  show StableHlo.after [op_cst (F := F), op_v0, op_v1, op_v2, op_v3, op_v4] (W0 m c) (Proc.devRef .tc main_arg1) = _
  after_results

theorem W9_arg1 (c : Dev nD) : W9 m c (Proc.devRef .tc main_arg1) = m ((c : Thread nD τ).loc main_arg1) :=
  calc W9 m c (Proc.devRef .tc main_arg1)
    _ = (op_v12 (F := F)).result (W8 m c) (Proc.devRef .tc main_arg1) :=
        StableHlo.binary_result_ne _ _ _ _ _ _ _ _ (show main_arg1 ≠ main_v13 by decide)
    _ = W8 m c (Proc.devRef .tc main_arg1) :=
        StableHlo.reshape_result_ne _ _ _ _ _ _ _ (show main_arg1 ≠ main_v12 by decide)
    _ = W7 m c (Proc.devRef .tc main_arg1) := by
        unfold W8; exact Function.update_of_ne (StableHlo.devRef_ne_of_ne (by decide)) _ _
    _ = W6 m c (Proc.devRef .tc main_arg1) :=
        StableHlo.reshape_result_ne _ _ _ _ _ _ _ (show main_arg1 ≠ main_v10 by decide)
    _ = W5 m c (Proc.devRef .tc main_arg1) := foldW6_of_ne m c main_arg1 (by decide)
    _ = W4 m c (Proc.devRef .tc main_arg1) :=
        StableHlo.reshape_result_ne _ _ _ _ _ _ _ (show main_arg1 ≠ main_v8 by decide)
    _ = W3 m c (Proc.devRef .tc main_arg1) := by
        unfold W4; exact Function.update_of_ne (StableHlo.devRef_ne_of_ne (by decide)) _ _
    _ = W2 m c (Proc.devRef .tc main_arg1) :=
        StableHlo.reshape_result_ne _ _ _ _ _ _ _ (show main_arg1 ≠ main_v6 by decide)
    _ = W1 m c (Proc.devRef .tc main_arg1) := foldW2_of_ne m c main_arg1 (by decide)
    _ = m ((c : Thread nD τ).loc main_arg1) := W1_arg1 m c

end AnyInstance

end Cert.Proof.KI

end
-- ==== Proof.KIMatmulPay.lean ====
/-
  One block of the matrix product, entry by entry, on the extended reals.

  The body multiplies a block of ten thousand rows of `x` with the whole weight matrix, contracting the
  columns of both (dimension numbers `[1], [1], [0], [0]`), into a zero accumulator.  On the extended
  reals the accumulator's zero word is `0`, so entry `(p, q)` of the block product is the sum over the
  column `c` of `x (p, c) * w (q, c)`.  The contraction has one axis of extent 128, so its index set is
  `Fin 128`; the left operand's index at `(p, q)` and `c` is `(p, c)` and the right operand's is `(q, c)`.
-/
import proofs.«209939_g34969623724736_cont_8to1_b_5_19_alg».proof.KernelIdeal
import proofs.«209939_g34969623724736_cont_8to1_b_5_19_alg».proof.Proof.Gen.KernelIdeal
import proofs.«209939_g34969623724736_cont_8to1_b_5_19_alg».proof.Proof.Gen.KernelIdeal.Skeleton
import Idealize.ShloMosaic.Lib.Pipeline.Value
import Idealize.ShloMosaic.Lib.ValueIdx
import Idealize.ShloMosaic.PureOps.Ideal.Laws

noncomputable section

namespace Cert.Proof.KI

open Cert.KernelIdeal Cert.KernelIdeal.Gen
open Idealize.ShloMosaic Idealize.ShloMosaic.ValueIdx

/-- The product's dimension numbers. -/
abbrev mmDims : DotDims S10000x128 S128x128 S10000x128 := dot_S10000x128_S128x128_S10000x128_1_1_0_0_n_n

/-- The left operand's row is the result's row. -/
theorem mmDims_lhs_0 (i : S10000x128.Idx) (q : mmDims.contr.Idx) : (mmDims.lhsIdx i q 0).val = (i 0).val := by
  unfold DotDims.lhsIdx
  rw [dif_neg (show ¬(0 : Fin S10000x128.rank) ∈ mmDims.lhsBatch by decide),
    dif_pos (show (0 : Fin S10000x128.rank) ∈ mmDims.lhsNonContracting by decide)]
  rfl

/-- The left operand's column is the contracted coordinate. -/
theorem mmDims_lhs_1 (i : S10000x128.Idx) (q : mmDims.contr.Idx) : (mmDims.lhsIdx i q 1).val = (q ⟨0, by decide⟩).val :=
  mmDims.lhsIdx_val_of_single rfl i q

/-- The right operand's row is the result's column. -/
theorem mmDims_rhs_0 (i : S10000x128.Idx) (q : mmDims.contr.Idx) : (mmDims.rhsIdx i q 0).val = (i 1).val := by
  unfold DotDims.rhsIdx
  rw [dif_neg (show ¬(0 : Fin S128x128.rank) ∈ mmDims.rhsBatch by decide),
    dif_pos (show (0 : Fin S128x128.rank) ∈ mmDims.rhsNonContracting by decide)]
  rfl

/-- The right operand's column is the contracted coordinate. -/
theorem mmDims_rhs_1 (i : S10000x128.Idx) (q : mmDims.contr.Idx) : (mmDims.rhsIdx i q 1).val = (q ⟨0, by decide⟩).val :=
  mmDims.rhsIdx_val_of_single rfl i q

/-- The block product into the zero accumulator, read at `(p, q)`. -/
theorem mmBlock_apply (v0 : FVec Ideal S10000x128 .f32) (v1 : FVec Ideal S128x128 .f32) (p : Fin 10000) (q : Fin 128) :
    FloatOps.matmul mmDims none v0 v1 (constant (F := Ideal) S10000x128 .f32 0x00000000#32) (ix2 p q)
      = ∑ c : Fin 128, v0 (ix2 p c) * v1 (ix2 q c) := by
  rw [Ideal.matmul_constant_zero_apply, ← Equiv.sum_comp (contrEquiv1 mmDims 128 rfl rfl).symm]
  refine Finset.sum_congr rfl fun c _ => ?_
  have hk := contrEquiv1_symm_val mmDims 128 rfl rfl c
  have el : mmDims.lhsIdx (ix2 p q) ((contrEquiv1 mmDims 128 rfl rfl).symm c) = ix2 p c := funext fun a => Fin.ext (by
    match a with
    | ⟨0, _⟩ => exact mmDims_lhs_0 _ _
    | ⟨1, _⟩ => exact (mmDims_lhs_1 _ _).trans hk)
  have er : mmDims.rhsIdx (ix2 p q) ((contrEquiv1 mmDims 128 rfl rfl).symm c) = ix2 q c := funext fun a => Fin.ext (by
    match a with
    | ⟨0, _⟩ => exact mmDims_rhs_0 _ _
    | ⟨1, _⟩ => exact (mmDims_rhs_1 _ _).trans hk)
  rw [el, er]

/-- The first region's payload at `(p, q)`. -/
theorem k0_pay1_apply (v0 : Vec Ideal S10000x128 .f32) (v1 : Vec Ideal S128x128 .f32) (p : Fin 10000) (q : Fin 128) :
    k0_pay1 (F := Ideal) v0 v1 (ix2 p q) = ∑ c : Fin 128, (v0 (ix2 p c) : EReal) * v1 (ix2 q c) := by
  unfold k0_pay1
  rw [shapeCast_self]
  exact mmBlock_apply v0 v1 p q

/-- The second region's payload at `(p, q)`: the same body. -/
theorem k2_pay1_apply (v0 : Vec Ideal S10000x128 .f32) (v1 : Vec Ideal S128x128 .f32) (p : Fin 10000) (q : Fin 128) :
    k2_pay1 (F := Ideal) v0 v1 (ix2 p q) = ∑ c : Fin 128, (v0 (ix2 p c) : EReal) * v1 (ix2 q c) := by
  unfold k2_pay1
  rw [shapeCast_self]
  exact mmBlock_apply v0 v1 p q

end Cert.Proof.KI

end
-- ==== Proof.TreeSpec.lean ====
/-
  What both programs compute, as one function of the two argument arrays, entry by entry, on the
  extended reals.

  Row `r` of `x` is projected on the fifteen split directions, `a i = ∑ c, x r c * A i c`.  The splits
  are the inner nodes of a complete binary tree of depth four whose nodes are numbered level by
  level: node `i` has the children `2 i + 1` (left) and `2 i + 2` (right).  Every node carries the
  minimum, along the path from the root to it, of `1` and of `± a p` for each parent `p` on the path
  (`+` where the path goes left, `-` where it goes right): `pathMin`.  The result's column `0` is
  `1`, and column `n ≥ 1` is that minimum cut off below at `0`.
-/
import Idealize.ShloMosaic.PureOps.Ideal
import Idealize.ShloMosaic.Lib.ValueIdx

noncomputable section

namespace Cert.TreeSpec

open Idealize.ShloMosaic Idealize.ShloMosaic.ValueIdx

/-- The shapes of the two arguments and of the result. -/
abbrev SX : Shape := ⟨2, ![100000, 128]⟩
abbrev SA : Shape := ⟨2, ![15, 128]⟩
abbrev SO : Shape := ⟨2, ![100000, 31]⟩

/-- The f32 words `1.0` and `0.0`, read as extended reals. -/
abbrev one : EReal := Ideal.ofBits .f32 0x3F800000#32
abbrev zero : EReal := Ideal.ofBits .f32 0x00000000#32

/-- Row `r` of `x` against split direction `i`. -/
def proj (x : SX.Idx → EReal) (A : SA.Idx → EReal) (r : Fin 100000) (i : Fin 15) : EReal :=
  ∑ c : Fin 128, x (ix2 r c) * A (ix2 i c)

/-- The minimum along the path from the root to node `n`, for the projections `a` of one row (a
    function on all naturals: only `a 0 … a 14` are read for `n ≤ 30`).  Node `n + 1` has the parent
    `n / 2`, and is its left child exactly when `n` is even. -/
def pathMin (a : ℕ → EReal) : ℕ → EReal
  | 0 => one
  | n + 1 => if n % 2 = 0 then min (pathMin a (n / 2)) (a (n / 2)) else min (pathMin a (n / 2)) (-(a (n / 2)))
decreasing_by all_goals omega

theorem pathMin_zero (a : ℕ → EReal) : pathMin a 0 = one := by
  rw [pathMin]

/-- The left child of node `p`. -/
theorem pathMin_left (a : ℕ → EReal) (p : ℕ) : pathMin a (2 * p + 1) = min (pathMin a p) (a p) := by
  rw [pathMin, if_pos (by omega), show 2 * p / 2 = p by omega]

/-- The right child of node `p`. -/
theorem pathMin_right (a : ℕ → EReal) (p : ℕ) : pathMin a (2 * p + 2) = min (pathMin a p) (-(a p)) := by
  rw [show 2 * p + 2 = (2 * p + 1) + 1 by omega, pathMin, if_neg (by omega), show (2 * p + 1) / 2 = p by omega]

/-- The projections of row `r` as a function on the naturals (zero past the fifteen splits: never read). -/
def projs (x : SX.Idx → EReal) (A : SA.Idx → EReal) (r : Fin 100000) (i : ℕ) : EReal :=
  if h : i < 15 then proj x A r ⟨i, h⟩ else 0

/-- The result array: column `0` is `1`; column `n ≥ 1` is the path minimum of node `n`, cut off below at `0`. -/
def tree (x : SX.Idx → EReal) (A : SA.Idx → EReal) : SO.Idx → EReal := fun j =>
  if (j 1).val = 0 then one else max (pathMin (projs x A (j 0)) (j 1).val) zero

theorem tree_root (x : SX.Idx → EReal) (A : SA.Idx → EReal) (r : Fin 100000) : tree x A (ix2 r (0 : Fin 31)) = one := by
  unfold tree; exact if_pos rfl

theorem tree_node (x : SX.Idx → EReal) (A : SA.Idx → EReal) (r : Fin 100000) (n : Fin 31) (hn : n.val ≠ 0) :
    tree x A (ix2 r n) = max (pathMin (projs x A r) n.val) zero := by
  unfold tree; exact if_neg hn

end Cert.TreeSpec

end
-- ==== Proof.KIValueN.lean ====
/-
  The tree kernel's node recursion, read on the extended reals, is the specification's path minimum.

  At the ideal instance a float minimum is `min`, a literal word is the extended real it encodes, and
  the kernel's negation, the zero word less the projection, is `0 - a = -a`; so the two recursions are one: both put `1` at the root, `min (node p) (a p)` at the
  left child `2 p + 1` and `min (node p) (- a p)` at the right child `2 p + 2`.  The value at node `n`
  reads `a p` only at the ancestors `p` of `n`, all of which satisfy `2 p + 1 ≤ n`; so two families of
  projections that agree below fifteen give the same value at every node up to thirty.
-/
import proofs.«209939_g34969623724736_cont_8to1_b_5_19_alg».proof.Proof.TreeSpec
import proofs.«209939_g34969623724736_cont_8to1_b_5_19_alg».proof.Proof.KTree
import Idealize.ShloMosaic.PureOps.Ideal
import Idealize.ShloMosaic.PureOps.Ideal.Laws

noncomputable section

namespace Cert.Proof.KI

open Idealize.ShloMosaic

/-- The kernel's word `1.0` is the specification's. -/
theorem one_eq : (Cert.KTree.one : Ideal .f32) = Cert.TreeSpec.one := rfl

/-- The kernel's word `0.0` is the specification's. -/
theorem zero_eq : (Cert.KTree.zero : Ideal .f32) = Cert.TreeSpec.zero := rfl

/-- The kernel negates a projection by taking it from the zero word: on the extended reals, `0 - x = -x`. -/
theorem zero_subf (x : EReal) : FloatOps.subf (Cert.KTree.zero : Ideal .f32) x = -x := by
  show (Ideal.ofBits .f32 0x00000000#32 : EReal) - x = -x
  rw [Ideal.ofBits_zero_f32, zero_sub]

/-- Node by node, the kernel's recursion is the path minimum. -/
theorem nodeVal_eq_pathMin (a : ℕ → EReal) (n : ℕ) :
    Cert.KTree.nodeVal (F := Ideal) a n = Cert.TreeSpec.pathMin a n := by
  induction n using Nat.strong_induction_on with
  | _ n ih =>
    rcases Nat.eq_zero_or_pos n with rfl | hpos
    · rw [Cert.KTree.nodeVal_zero, Cert.TreeSpec.pathMin_zero]; exact one_eq
    · rcases Nat.even_or_odd' (n - 1) with ⟨p, hp | hp⟩
      · -- `n = 2 p + 1`: a left child
        obtain rfl : n = 2 * p + 1 := by omega
        rw [Cert.KTree.nodeVal_left, Cert.TreeSpec.pathMin_left, ih p (by omega)]
        rfl
      · -- `n = 2 p + 2`: a right child
        obtain rfl : n = 2 * p + 2 := by omega
        rw [Cert.KTree.nodeVal_right, Cert.TreeSpec.pathMin_right, ih p (by omega), zero_subf]
        rfl

/-- The path minimum at node `n` reads the projections only at the ancestors of `n`. -/
theorem pathMin_congr (a b : ℕ → EReal) (n : ℕ) (h : ∀ p, 2 * p + 1 ≤ n → a p = b p) :
    Cert.TreeSpec.pathMin a n = Cert.TreeSpec.pathMin b n := by
  induction n using Nat.strong_induction_on with
  | _ n ih =>
    rcases Nat.eq_zero_or_pos n with rfl | hpos
    · rw [Cert.TreeSpec.pathMin_zero, Cert.TreeSpec.pathMin_zero]
    · rcases Nat.even_or_odd' (n - 1) with ⟨p, hp | hp⟩
      · obtain rfl : n = 2 * p + 1 := by omega
        rw [Cert.TreeSpec.pathMin_left, Cert.TreeSpec.pathMin_left,
          ih p (by omega) (fun q hq => h q (by omega)), h p (by omega)]
      · obtain rfl : n = 2 * p + 2 := by omega
        rw [Cert.TreeSpec.pathMin_right, Cert.TreeSpec.pathMin_right,
          ih p (by omega) (fun q hq => h q (by omega)), h p (by omega)]

/-- Up to node thirty only the fifteen splits' projections are read. -/
theorem pathMin_congr_below (a b : ℕ → EReal) (n : ℕ) (hn : n ≤ 30) (h : ∀ p, p < 15 → a p = b p) :
    Cert.TreeSpec.pathMin a n = Cert.TreeSpec.pathMin b n :=
  pathMin_congr a b n fun p hp => h p (by omega)

/-- The kernel's node value up to node thirty, for projections that agree with `b` below fifteen. -/
theorem nodeVal_eq_pathMin_of_below (a b : ℕ → EReal) (n : ℕ) (hn : n ≤ 30) (h : ∀ p, p < 15 → a p = b p) :
    Cert.KTree.nodeVal (F := Ideal) a n = Cert.TreeSpec.pathMin b n :=
  (nodeVal_eq_pathMin a n).trans (pathMin_congr_below a b n hn h)

end Cert.Proof.KI

end
-- ==== Proof.KIValueIx.lean ====
/-
  The index arithmetic of the host operations around the two tree launches, each read at ONE index
  written by its coordinates.

  A row-major reshape keeps the row-major position: the flat position `r * 128 + i` of a `[50000, 128]`
  array is its entry `(r, i)`; entry `(r, n)` of a `[50000, 31]` array sits at position `r * 31 + n`, which in
  `[125, 12400]` is chunk `r / 400`, place `(r % 400) * 31 + n`.  A concatenation of two `[50000, 31]` halves
  along the rows reads the first half below row fifty thousand and the second half, fifty thousand rows
  less, from there on.
-/
import Idealize.ShloMosaic.Lib.Pipeline.Value
import Idealize.ShloMosaic.Lib.ValueIdx

namespace Cert.Proof.KI

open Idealize.ShloMosaic Idealize.ShloMosaic.ValueIdx

variable {α : Type}

/-- A `[50000, 128]` array flattened reads, at position `k = r * 128 + i`, its entry `(r, i)`. -/
theorem castFlat_apply (M : (⟨2, ![50000, 128]⟩ : Shape).Idx → α)
    (h : (⟨2, ![50000, 128]⟩ : Shape).ShapeCasts ⟨1, ![6400000]⟩) (r : Fin 50000) (i : Fin 128)
    (k : Fin 6400000) (hk : k.val = r.val * 128 + i.val) :
    shapeCast ⟨1, ![6400000]⟩ M h (ix1 k) = M (ix2 r i) :=
  shapeCast_apply M h _ _ (by
    rw [Shape.rowMajor_val_two, Shape.rowMajor_val_one]
    show r.val * 128 + i.val = k.val
    omega)

/-- A `[125, 12400]` array recast to `[50000, 31]` reads, at `(r, n)`, chunk `r / 400` at place
    `(r % 400) * 31 + n`. -/
theorem castOut_apply (Y : (⟨2, ![125, 12400]⟩ : Shape).Idx → α)
    (h : (⟨2, ![125, 12400]⟩ : Shape).ShapeCasts ⟨2, ![50000, 31]⟩) (r : Fin 50000) (n : Fin 31)
    (ch : Fin 125) (p : Fin 12400) (hch : ch.val = r.val / 400) (hp : p.val = (r.val % 400) * 31 + n.val) :
    shapeCast ⟨2, ![50000, 31]⟩ Y h (ix2 r n) = Y (ix2 ch p) :=
  shapeCast_apply Y h _ _ (by
    rw [Shape.rowMajor_val_two, Shape.rowMajor_val_two]
    show ch.val * 12400 + p.val = r.val * 31 + n.val
    omega)

/-- The two halves stacked: a row below fifty thousand is the first half's row. -/
theorem catRows_lo (u v : (⟨2, ![50000, 31]⟩ : Shape).Idx → α)
    (h : Shape.Concatenates [(⟨2, ![50000, 31]⟩ : Shape), ⟨2, ![50000, 31]⟩] ⟨2, ![100000, 31]⟩ 0)
    (R : Fin 100000) (n : Fin 31) (r : Fin 50000) (hr : r.val = R.val) :
    concatenate ⟨2, ![100000, 31]⟩ 0 [⟨⟨2, ![50000, 31]⟩, u⟩, ⟨⟨2, ![50000, 31]⟩, v⟩] h (ix2 R n) = u (ix2 r n) :=
  concatenate_pair_apply_left 0 u v h (ix2 R n) rfl (ix2 r n) (fun b => by
    match b with
    | ⟨0, _⟩ => exact hr
    | ⟨1, _⟩ => rfl)

/-- The two halves stacked: a row from fifty thousand on is the second half's row, fifty thousand less. -/
theorem catRows_hi (u v : (⟨2, ![50000, 31]⟩ : Shape).Idx → α)
    (h : Shape.Concatenates [(⟨2, ![50000, 31]⟩ : Shape), ⟨2, ![50000, 31]⟩] ⟨2, ![100000, 31]⟩ 0)
    (R : Fin 100000) (n : Fin 31) (r : Fin 50000) (hr : r.val + 50000 = R.val) :
    concatenate ⟨2, ![100000, 31]⟩ 0 [⟨⟨2, ![50000, 31]⟩, u⟩, ⟨⟨2, ![50000, 31]⟩, v⟩] h (ix2 R n) = v (ix2 r n) :=
  concatenate_pair_apply_right 0 u v h (ix2 R n) rfl rfl (ix2 r n) (fun b hb => by
    match b, hb with
    | ⟨0, _⟩, hb => exact absurd rfl hb
    | ⟨1, _⟩, _ => rfl) hr

end Cert.Proof.KI
-- ==== Proof.KIValueA.lean ====
/-
  The weight matrix the program builds from `A`, and its rows that the tree reads.

  `A` (fifteen rows of 128) gets one row of zeros appended (`[16, 128]`) and is then repeated eight
  times down the rows: the printed program reshapes to `[1, 16, 1, 128]`, broadcasts the leading axis
  to eight, and reshapes to `[128, 128]`.  All three keep the row-major order of the last three axes,
  so row `j` of the result is row `j % 16` of the padded matrix; where `j % 16 < 15` that is a row of `A`.
-/
import proofs.«209939_g34969623724736_cont_8to1_b_5_19_alg».proof.KernelIdeal
import proofs.«209939_g34969623724736_cont_8to1_b_5_19_alg».proof.Proof.Gen.KernelIdeal
import Idealize.ShloMosaic.Lib.Pipeline.Value
import Idealize.ShloMosaic.Lib.ValueIdx

noncomputable section

namespace Cert.Proof.KI

open Cert.KernelIdeal Cert.KernelIdeal.Gen
open Idealize.ShloMosaic Idealize.ShloMosaic.ValueIdx

/-- `A` with a sixteenth row of zeros. -/
def aPad (A : S15x128.Idx → EReal) : S16x128.Idx → EReal :=
  concatenate S16x128 0
    [⟨S15x128, A⟩,
     ⟨S1x128, broadcastInDim S1x128 ![] bcast_S_S1x128 (constant (F := Ideal) S_ .f32 0x00000000#32)⟩]
    concatenates_S15x128_S1x128_S16x128_d0

/-- The weight matrix: the padded matrix repeated eight times down the rows, as the program's host
    operations compose it. -/
def aBig (A : S15x128.Idx → EReal) : S128x128.Idx → EReal :=
  shapeCast S128x128
    (broadcastInDim S8x16x1x128 ![0, 1, 2, 3] bcast_S1x16x1x128_S8x16x1x128_0_1_2_3
      (shapeCast S1x16x1x128 (aPad A) shapeCasts_S16x128_S1x16x1x128))
    shapeCasts_S8x16x1x128_S128x128

/-- The weight matrix as one composed term: a row of zeros appended to `A`, the result reshaped, its new
    leading axis broadcast to eight, and reshaped again. -/
theorem aBig_unfold (A : S15x128.Idx → EReal) :
    aBig A = shapeCast S128x128
      (broadcastInDim S8x16x1x128 ![0, 1, 2, 3] bcast_S1x16x1x128_S8x16x1x128_0_1_2_3
        (shapeCast S1x16x1x128
          (concatenate S16x128 0
            [⟨S15x128, A⟩,
             ⟨S1x128, broadcastInDim S1x128 ![] bcast_S_S1x128 (constant (F := Ideal) S_ .f32 0x00000000#32)⟩]
            concatenates_S15x128_S1x128_S16x128_d0)
          shapeCasts_S16x128_S1x16x1x128))
      shapeCasts_S8x16x1x128_S128x128 := rfl

/-- The first fifteen rows of the padded matrix are `A`'s. -/
theorem aPad_apply_lt (A : S15x128.Idx → EReal) (s : Fin 16) (c : Fin 128) (i : Fin 15) (hi : i.val = s.val) :
    aPad A (ix2 s c) = A (ix2 i c) :=
  concatenate_pair_apply_left 0 A _ concatenates_S15x128_S1x128_S16x128_d0 (ix2 s c) rfl (ix2 i c) (fun b => by
    match b with
    | ⟨0, _⟩ => exact hi
    | ⟨1, _⟩ => rfl)

/-- The sixteenth row of the padded matrix holds the zero word's value. -/
theorem aPad_apply_last (A : S15x128.Idx → EReal) (s : Fin 16) (c : Fin 128) (hs : s.val = 15) :
    aPad A (ix2 s c) = Ideal.ofBits .f32 0x00000000#32 := by
  refine (concatenate_pair_apply_right 0 A _ concatenates_S15x128_S1x128_S16x128_d0 (ix2 s c) rfl rfl
    (ix2 (0 : Fin 1) c) (fun b hb => ?_) ?_).trans ?_
  · match b, hb with
    | ⟨0, _⟩, hb => exact absurd rfl hb
    | ⟨1, _⟩, _ => rfl
  · show 0 + 15 = s.val
    omega
  · rfl

/-- Row `j` of the weight matrix is row `j % 16` of the padded matrix. -/
theorem aBig_apply (A : S15x128.Idx → EReal) (j : Fin 128) (c : Fin 128) :
    aBig A (ix2 j c) = aPad A (ix2 (⟨j.val % 16, Nat.mod_lt _ (by decide)⟩ : Fin 16) c) := by
  have hj := j.isLt
  unfold aBig
  refine (shapeCast_apply _ shapeCasts_S8x16x1x128_S128x128 (ix2 j c)
    (ix4 (⟨j.val / 16, by omega⟩ : Fin 8) (⟨j.val % 16, Nat.mod_lt _ (by decide)⟩ : Fin 16) (0 : Fin 1) c) ?_).trans ?_
  · rw [Shape.rowMajor_val_four, Shape.rowMajor_val_two]
    show ((j.val / 16 * 16 + j.val % 16) * 1 + 0) * 128 + c.val = j.val * 128 + c.val
    omega
  refine (broadcastInDim_apply _ bcast_S1x16x1x128_S8x16x1x128_0_1_2_3 _ _
    (ix4 (0 : Fin 1) (⟨j.val % 16, Nat.mod_lt _ (by decide)⟩ : Fin 16) (0 : Fin 1) c) ?_).trans ?_
  · intro a
    match a with
    | ⟨0, _⟩ => rfl
    | ⟨1, _⟩ => rfl
    | ⟨2, _⟩ => rfl
    | ⟨3, _⟩ => rfl
  refine shapeCast_apply _ shapeCasts_S16x128_S1x16x1x128 _
    (ix2 (⟨j.val % 16, Nat.mod_lt _ (by decide)⟩ : Fin 16) c) ?_
  rw [Shape.rowMajor_val_two, Shape.rowMajor_val_four]
  show j.val % 16 * 128 + c.val = ((0 * 16 + j.val % 16) * 1 + 0) * 128 + c.val
  omega

/-- Where `j % 16 < 15`, row `j` of the weight matrix is row `j % 16` of `A`. -/
theorem aBig_apply_lt (A : S15x128.Idx → EReal) (j : Fin 128) (c : Fin 128) (i : Fin 15) (hi : i.val = j.val % 16) :
    aBig A (ix2 j c) = A (ix2 i c) :=
  (aBig_apply A j c).trans (aPad_apply_lt A _ c i hi)

/-- Where `j % 16 = 15`, row `j` of the weight matrix holds the zero word's value. -/
theorem aBig_apply_pad (A : S15x128.Idx → EReal) (j : Fin 128) (c : Fin 128) (hj : j.val % 16 = 15) :
    aBig A (ix2 j c) = Ideal.ofBits .f32 0x00000000#32 :=
  (aBig_apply A j c).trans (aPad_apply_last A _ c hj)

/-- The fifteen rows the tree reads are `A`'s own. -/
theorem aBig_apply_split (A : S15x128.Idx → EReal) (i : Fin 15) (c : Fin 128) :
    aBig A (ix2 (⟨i.val, Nat.lt_trans i.isLt (by decide)⟩ : Fin 128) c) = A (ix2 i c) :=
  aBig_apply_lt A _ c i (by have := i.isLt; show i.val = i.val % 16; omega)

end Cert.Proof.KI

end
-- ==== Proof.KIValue.lean ====
/-
  The program's result as ONE function of its two arguments, and that function is the specification.

  Each half of the rows goes through the same three steps: its matrix product with the weight matrix
  (`mmHalf`, entry `(r, i)` the sum over `c` of `x (h * 50000 + r, c) * w (i, c)`), flattened; one launch of
  the tree kernel on the flat array; the launch's chunked output recast to `[50000, 31]`.  The two halves
  are then stacked.  Read at row `R` and node `n`: the stack picks the half `R / 50000` and its row
  `r = R % 50000`; the recast reads chunk `r / 400`, place `(r % 400) * 31 + n`, which is node `n` of the
  chunk's row `r % 400`; that row's projection `i` sits at flat position `r * 128 + i`, which is entry
  `(r, i)` of the half's product; and for `i < 15` row `i` of the weight matrix is row `i` of `A`, so the
  projection is the specification's, the same sum of the same products.  The node recursion on the
  extended reals is the path minimum, which reads only those fifteen projections.
-/
import proofs.«209939_g34969623724736_cont_8to1_b_5_19_alg».proof.KernelIdeal
import proofs.«209939_g34969623724736_cont_8to1_b_5_19_alg».proof.Proof.Gen.KernelIdeal
import proofs.«209939_g34969623724736_cont_8to1_b_5_19_alg».proof.Proof.TreeSpec
import proofs.«209939_g34969623724736_cont_8to1_b_5_19_alg».proof.Proof.KTree
import proofs.«209939_g34969623724736_cont_8to1_b_5_19_alg».proof.Proof.KIValueN
import proofs.«209939_g34969623724736_cont_8to1_b_5_19_alg».proof.Proof.KIValueIx
import proofs.«209939_g34969623724736_cont_8to1_b_5_19_alg».proof.Proof.KIValueA

noncomputable section

namespace Cert.Proof.KI

open Cert.KernelIdeal Cert.KernelIdeal.Gen
open Idealize.ShloMosaic Idealize.ShloMosaic.ValueIdx

/-- Half `h`'s matrix product, entry by entry: row `r` of the half is row `h * 50000 + r` of `x`, and the
    product contracts the columns of `x` with the columns of `w`. -/
def mmHalf (x : S100000x128.Idx → EReal) (w : S128x128.Idx → EReal) (h : Fin 2) : S50000x128.Idx → EReal :=
  fun j => ∑ c : Fin 128,
    x (ix2 (⟨h.val * 50000 + (j 0).val, by have := idx2_lt0 j; have := h.isLt; omega⟩ : Fin 100000) c)
      * w (ix2 (⟨(j 1).val, idx2_lt1 j⟩ : Fin 128) c)

/-- The product at an entry written by its coordinates. -/
theorem mmHalf_apply (x : S100000x128.Idx → EReal) (w : S128x128.Idx → EReal) (h : Fin 2) (r : Fin 50000) (i : Fin 128)
    (hlt : h.val * 50000 + r.val < 100000) :
    mmHalf x w h (ix2 r i) = ∑ c : Fin 128, x (ix2 (⟨h.val * 50000 + r.val, hlt⟩ : Fin 100000) c) * w (ix2 i c) := rfl

/-- One half's way from its matrix product to its `[50000, 31]` block of the result: flattened, through
    one launch of the tree kernel, and recast. -/
def halfOut (M : S50000x128.Idx → EReal) : S50000x31.Idx → EReal :=
  shapeCast S50000x31
    (Cert.KTree.outFlat (F := Ideal) (shapeCast S6400000 M shapeCasts_S50000x128_S6400000))
    shapeCasts_S125x12400_S50000x31

/-- The whole result: the two halves' blocks stacked. -/
def result (x : S100000x128.Idx → EReal) (A : S15x128.Idx → EReal) : S100000x31.Idx → EReal :=
  concatenate S100000x31 0
    [⟨S50000x31, halfOut (mmHalf x (aBig A) 0)⟩, ⟨S50000x31, halfOut (mmHalf x (aBig A) 1)⟩]
    concatenates_S50000x31_S50000x31_S100000x31_d0

/-- The whole result as one composed term: each half's matrix product flattened, put through one launch of
    the tree kernel and recast to `[50000, 31]`, and the two blocks stacked. -/
theorem result_unfold (x : S100000x128.Idx → EReal) (A : S15x128.Idx → EReal) :
    result x A = concatenate S100000x31 0
      [⟨S50000x31, shapeCast S50000x31
          (Cert.KTree.outFlat (F := Ideal)
            (shapeCast S6400000 (mmHalf x (aBig A) 0) shapeCasts_S50000x128_S6400000))
          shapeCasts_S125x12400_S50000x31⟩,
       ⟨S50000x31, shapeCast S50000x31
          (Cert.KTree.outFlat (F := Ideal)
            (shapeCast S6400000 (mmHalf x (aBig A) 1) shapeCasts_S50000x128_S6400000))
          shapeCasts_S125x12400_S50000x31⟩]
      concatenates_S50000x31_S50000x31_S100000x31_d0 := rfl

/-- The projections one launch reads for row `r` of half `h` are the specification's for row
    `h * 50000 + r`, at every split. -/
theorem projAt_eq_projs (x : S100000x128.Idx → EReal) (A : S15x128.Idx → EReal) (h : Fin 2) (r : Fin 50000)
    (R : Fin 100000) (hR : R.val = h.val * 50000 + r.val) (i : ℕ) (hi : i < 15) :
    Cert.KTree.projAt (F := Ideal) (shapeCast S6400000 (mmHalf x (aBig A) h) shapeCasts_S50000x128_S6400000)
        (r.val / 400) (r.val % 400) i
      = Cert.TreeSpec.projs x A R i := by
  have hr := r.isLt
  have hlt : h.val * 50000 + r.val < 100000 := by have := h.isLt; clear hR; omega
  obtain rfl : R = ⟨h.val * 50000 + r.val, hlt⟩ := Fin.ext hR
  unfold Cert.KTree.projAt Cert.TreeSpec.projs
  rw [dif_pos hi]
  refine (castFlat_apply _ shapeCasts_S50000x128_S6400000 r (⟨i, by omega⟩ : Fin 128) _ ?_).trans ?_
  · show ((r.val / 400 * 400 + r.val % 400) * 128 + i) % 6400000 = r.val * 128 + i
    omega
  rw [mmHalf_apply x (aBig A) h r ⟨i, by omega⟩ hlt]
  unfold Cert.TreeSpec.proj
  refine Finset.sum_congr rfl fun c _ => ?_
  rw [← aBig_apply_split A ⟨i, hi⟩ c]

/-- One half's block, read at row `r` and node `n`, is the specification at row `h * 50000 + r`. -/
theorem halfOut_apply (x : S100000x128.Idx → EReal) (A : S15x128.Idx → EReal) (h : Fin 2) (r : Fin 50000) (n : Fin 31)
    (R : Fin 100000) (hR : R.val = h.val * 50000 + r.val) :
    halfOut (mmHalf x (aBig A) h) (ix2 r n) = Cert.TreeSpec.tree x A (ix2 R n) := by
  have hr := r.isLt
  have hn := n.isLt
  unfold halfOut
  refine (castOut_apply _ shapeCasts_S125x12400_S50000x31 r n (⟨r.val / 400, by omega⟩ : Fin 125)
    (⟨(r.val % 400) * 31 + n.val, by omega⟩ : Fin 12400) rfl rfl).trans ?_
  show (if ((r.val % 400) * 31 + n.val) % 31 = 0 then (Cert.KTree.one : Ideal .f32)
      else FloatOps.maximumf
        (Cert.KTree.nodeVal (F := Ideal)
          (Cert.KTree.projAt (F := Ideal) (shapeCast S6400000 (mmHalf x (aBig A) h) shapeCasts_S50000x128_S6400000)
            (r.val / 400) (((r.val % 400) * 31 + n.val) / 31))
          (((r.val % 400) * 31 + n.val) % 31))
        (Cert.KTree.zero : Ideal .f32))
    = if n.val = 0 then Cert.TreeSpec.one else max (Cert.TreeSpec.pathMin (Cert.TreeSpec.projs x A R) n.val) Cert.TreeSpec.zero
  rw [show ((r.val % 400) * 31 + n.val) % 31 = n.val by omega,
    show ((r.val % 400) * 31 + n.val) / 31 = r.val % 400 by omega]
  by_cases hn0 : n.val = 0
  · rw [if_pos hn0, if_pos hn0]; exact one_eq
  · rw [if_neg hn0, if_neg hn0, Ideal.maximumf_def, zero_eq,
      nodeVal_eq_pathMin_of_below _ (Cert.TreeSpec.projs x A R) n.val (by omega)
        (fun i hi => projAt_eq_projs x A h r R hR i hi)]

/-- The program's result is the specification. -/
theorem result_eq_tree (x : S100000x128.Idx → EReal) (A : S15x128.Idx → EReal) :
    result x A = Cert.TreeSpec.tree x A := by
  funext j
  obtain ⟨R, n, rfl⟩ : ∃ (R : Fin 100000) (n : Fin 31), j = ix2 R n := ⟨j 0, j 1, eq_ix2 j⟩
  have hRlt := R.isLt
  unfold result
  by_cases hR : R.val < 50000
  · refine (catRows_lo _ _ concatenates_S50000x31_S50000x31_S100000x31_d0 R n (⟨R.val, hR⟩ : Fin 50000) rfl).trans ?_
    exact halfOut_apply x A 0 ⟨R.val, hR⟩ n R (by show R.val = 0 * 50000 + R.val; omega)
  · refine (catRows_hi _ _ concatenates_S50000x31_S50000x31_S100000x31_d0 R n
      (⟨R.val - 50000, by omega⟩ : Fin 50000) (by show R.val - 50000 + 50000 = R.val; omega)).trans ?_
    exact halfOut_apply x A 1 ⟨R.val - 50000, by omega⟩ n R (by show R.val = 1 * 50000 + (R.val - 50000); omega)

end Cert.Proof.KI

end
-- ==== Proof.KIMatmulBlk.lean ====
/-
  A block of ten thousand rows of a half's matrix product, entry by entry.

  If a row block holds rows `(5 h + b) * 10000 …` of `x` and the weight block holds the whole weight
  matrix, their product, contracted over the columns, is entry by entry block `b` of half `h`'s matrix
  product: row `p` of the block is row `b * 10000 + p` of the half, which is row
  `h * 50000 + b * 10000 + p` of `x`.
-/
import proofs.«209939_g34969623724736_cont_8to1_b_5_19_alg».proof.Proof.KIValue
import Idealize.ShloMosaic.Lib.ValueIdx

noncomputable section

namespace Cert.Proof.KI

open Cert.KernelIdeal Cert.KernelIdeal.Gen
open Idealize.ShloMosaic Idealize.ShloMosaic.ValueIdx

/-- The zero offsets of a whole-buffer access. -/
theorem mmZeroOff : (![0, 0] : Fin 2 → Nat) = fun _ => 0 := funext fun a => by fin_cases a <;> rfl

/-- A block product whose row block is rows `(5 h + b) * 10000 …` of `X` and whose weight block is `W` is,
    entry by entry, block `b` of half `h`'s matrix product. -/
theorem blockProduct_apply (X : S100000x128.Idx → EReal) (W : S128x128.Idx → EReal) (h : Fin 2) (b : ℕ) (hb : b < 5)
    (v0 : S10000x128.Idx → EReal) (v1 : S128x128.Idx → EReal) (P : S10000x128.Idx → EReal)
    (hP : ∀ (p : Fin 10000) (q : Fin 128), P (ix2 p q) = ∑ c : Fin 128, v0 (ix2 p c) * v1 (ix2 q c))
    (hv0 : ∀ (p : Fin 10000) (c : Fin 128) (R : Fin 100000), R.val = (h.val * 5 + b) * 10000 + p.val →
      v0 (ix2 p c) = X (ix2 R c))
    (hv1 : ∀ (q c : Fin 128), v1 (ix2 q c) = W (ix2 q c))
    (j : S10000x128.Idx) (k : S50000x128.Idx) (hk0 : (k 0).val = b * 10000 + (j 0).val) (hk1 : (k 1).val = (j 1).val) :
    P j = mmHalf X W h k := by
  obtain ⟨p, q, rfl⟩ : ∃ (p : Fin 10000) (q : Fin 128), j = ix2 p q := ⟨j 0, j 1, eq_ix2 j⟩
  obtain ⟨r, i, rfl⟩ : ∃ (r : Fin 50000) (i : Fin 128), k = ix2 r i := ⟨k 0, k 1, eq_ix2 k⟩
  have hp := p.isLt
  have hh := h.isLt
  have hr : r.val = b * 10000 + p.val := hk0
  obtain rfl : i = q := Fin.ext hk1
  rw [hP, mmHalf_apply X W h r i (by omega)]
  refine Finset.sum_congr rfl fun c _ => ?_
  rw [hv0 p c ⟨h.val * 50000 + r.val, by omega⟩ (by show h.val * 50000 + r.val = _; omega), hv1]

end Cert.Proof.KI

end
-- ==== Proof.KIMatmul0.lean ====
/-
  The first matrix-product region's result array, as one function of the arrays the region finds.

  The grid has five points; point `t` multiplies rows `10000 t … 10000 t + 9999` of `x` with the whole
  weight matrix and writes the product back to the same rows of the result.  Entry by entry each
  write-back is therefore the block of ONE whole-array function, the half's matrix product `mmHalf`;
  row `r` of the result lies in the block of point `r / 10000`, so the five blocks cover the array and
  it ends holding that function.
-/
import proofs.«209939_g34969623724736_cont_8to1_b_5_19_alg».proof.Proof.KIRegion0
import proofs.«209939_g34969623724736_cont_8to1_b_5_19_alg».proof.Proof.KIMatmulPay
import proofs.«209939_g34969623724736_cont_8to1_b_5_19_alg».proof.Proof.KIMatmulBlk
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Rounds
open Idealize.ShloMosaic.Pipeline (Dat)

section Region

variable (V : (c : Dev nD) → (b : Ref sig .tc) → Buf (Elt Ideal) ((c : Thread nD τ).loc b))
variable (O : Dev nD → CellTallies nD τ sig (HIx 2))
variable (B : Dev nD → Set (SemLoc sig × HIx 2))

/-- The printed index maps, decided over the five points: the row block and the result block move with
    the point, the weight block stays. -/
theorem mmIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

/-- The row block at point `t` is rows `10000 t …` of `x`. -/
theorem iblk0_0_apply (c : Dev nD) (t : Fin cfg0.N) (p : Fin 10000) (cc : Fin 128) (R : Fin 100000)
    (hR : R.val = t.val * 10000 + p.val) :
    (iblk0 V c 0 t : S10000x128.Idx → EReal) (ix2 p cc) = (V c main_arg0 : S100000x128.Idx → EReal) (ix2 R cc) := by
  obtain ⟨e0, e1, -⟩ := mmIdx0 t
  unfold iblk0
  rw [View.read_apply]
  show (V c main_arg0 : S100000x128.Idx → EReal) _ = (V c main_arg0 : S100000x128.Idx → EReal) _
  congr 1
  funext a
  apply Fin.ext
  match a with
  | ⟨0, _⟩ => show win0_0.index t 0 * 10000 + 1 * p.val = R.val; rw [e0, hR]; omega
  | ⟨1, _⟩ => show win0_0.index t 1 * 128 + 1 * cc.val = cc.val; rw [e1]; omega

/-- The weight block at every point is the whole weight matrix. -/
theorem iblk0_1_apply (c : Dev nD) (t : Fin cfg0.N) (q cc : Fin 128) :
    (iblk0 V c 1 t : S128x128.Idx → EReal) (ix2 q cc) = (V c main_v4 : S128x128.Idx → EReal) (ix2 q cc) := by
  obtain ⟨-, -, e2, e3, -⟩ := mmIdx0 t
  unfold iblk0
  rw [View.read_apply]
  show (V c main_v4 : S128x128.Idx → EReal) _ = (V c main_v4 : S128x128.Idx → EReal) _
  congr 1
  funext a
  apply Fin.ext
  match a with
  | ⟨0, _⟩ => show win0_1.index t 0 * 128 + 1 * q.val = q.val; rw [e2]; omega
  | ⟨1, _⟩ => show win0_1.index t 1 * 128 + 1 * cc.val = cc.val; rw [e3]; omega

/-- What point `t` writes back is block `t` of the half's matrix product. -/
theorem flushed0_eq (c : Dev nD) (t : Fin cfg0.N) :
    (dat0 (F := Ideal) V O B c).flushed 2 t
      = ((cfg0.win 2).blk t).view.read (Elt Ideal) (mmHalf (V c main_arg0) (V c main_v4) 0) := by
  show (cfg0.win 2).cut (grid0.coords t) ((dat0 V O B c).after 2 t) = _
  rw [after0_2]
  unfold out0_2
  rw [View.canon_unit_zero mmZeroOff]
  simp only [View.ld_unit_zero (S := S10000x128) mmZeroOff, View.ld_unit_zero (S := S128x128) mmZeroOff]
  obtain ⟨e0, e1, e2, e3, e4, e5, e6⟩ := mmIdx0 t
  funext j
  rw [View.read_apply]
  refine blockProduct_apply (V c main_arg0) (V c main_v4) 0 t.val e6 (iblk0 V c 0 t) (iblk0 V c 1 t) _
    (k0_pay1_apply _ _) (fun p cc R hR => iblk0_0_apply V c t p cc R (by rw [hR]; show (0 * 5 + t.val) * 10000 + p.val = _; omega))
    (fun q cc => iblk0_1_apply V c t q cc) _ _ ?_ ?_
  · show win0_2.index t 0 * 10000 + 1 * (j 0).val = t.val * 10000 + (j 0).val
    rw [e4]; omega
  · show win0_2.index t 1 * 128 + 1 * (j 1).val = (j 1).val
    rw [e5]; omega

/-- A position of the result array is in point `t`'s block iff each coordinate is in the block's range. -/
theorem mem_blk0 (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v5).slice (win0_2.rect t)).set ↔ _
  rw [View.set_slice_whole, Rect.mem_set_unit]
  exact Iff.rfl

/-- Row `r` of the result lies in the block of point `r / 10000`: the five blocks cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  have ht : (i 0).val / 10000 < cfg0.N := by rw [hN]; omega
  obtain ⟨-, -, -, -, e4, e5, -⟩ := mmIdx0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ 0 * 10000 ≤ (i 0).val
      ∧ (i 0).val < win0_2.index ⟨(i 0).val / 10000, ht⟩ 0 * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ 1 * 128 ≤ (i 1).val
      ∧ (i 1).val < win0_2.index ⟨(i 0).val / 10000, ht⟩ 1 * 128 + 128
    rw [e5]
    omega

/-- THE RESULT ARRAY of the first region: the first half's matrix product. -/
theorem region0_value (c : Dev nD) :
    (dat0 (F := Ideal) V O B c).arrAt 2 cfg0.N = mmHalf (V c main_arg0) (V c main_v4) 0 :=
  (dat0 (F := Ideal) V O B c).arrAt_eq_of_cover 2 (mmHalf (V c main_arg0) (V c main_v4) 0)
    (fun t _ => flushed0_eq V O B c t) (fun i => cover0 i)

end Region

end Cert.Proof.KI

end
-- ==== Proof.KIMatmul2.lean ====
/-
  The second matrix-product region's result array, as one function of the arrays the region finds.

  The grid has five points; point `t` multiplies rows `10000 (t + 5) … 10000 (t + 5) + 9999` of `x` with the
  whole weight matrix and writes the product back to rows `10000 t …` of the result.  Entry by entry each
  write-back is therefore the block of ONE whole-array function, the half's matrix product `mmHalf`;
  row `r` of the result lies in the block of point `r / 10000`, so the five blocks cover the array and
  it ends holding that function.
-/
import proofs.«209939_g34969623724736_cont_8to1_b_5_19_alg».proof.Proof.KIRegion2
import proofs.«209939_g34969623724736_cont_8to1_b_5_19_alg».proof.Proof.KIMatmulPay
import proofs.«209939_g34969623724736_cont_8to1_b_5_19_alg».proof.Proof.KIMatmulBlk
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Rounds
open Idealize.ShloMosaic.Pipeline (Dat)

section Region

variable (V : (c : Dev nD) → (b : Ref sig .tc) → Buf (Elt Ideal) ((c : Thread nD τ).loc b))
variable (O : Dev nD → CellTallies nD τ sig (HIx 2))
variable (B : Dev nD → Set (SemLoc sig × HIx 2))

/-- The printed index maps, decided over the five points: the row block and the result block move with
    the point, the weight block stays. -/
theorem mmIdx1 : ∀ t : Fin cfg2.N, win2_0.index t (0 : Fin 2) = t.val + 5 ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 5 :=
  (by decide +kernel : ∀ t : Fin grid2.N, _)

/-- The row block at point `t` is rows `10000 (t + 5) …` of `x`. -/
theorem iblk1_0_apply (c : Dev nD) (t : Fin cfg2.N) (p : Fin 10000) (cc : Fin 128) (R : Fin 100000)
    (hR : R.val = (t.val + 5) * 10000 + p.val) :
    (iblk1 V c 0 t : S10000x128.Idx → EReal) (ix2 p cc) = (V c main_arg0 : S100000x128.Idx → EReal) (ix2 R cc) := by
  obtain ⟨e0, e1, -⟩ := mmIdx1 t
  unfold iblk1
  rw [View.read_apply]
  show (V c main_arg0 : S100000x128.Idx → EReal) _ = (V c main_arg0 : S100000x128.Idx → EReal) _
  congr 1
  funext a
  apply Fin.ext
  match a with
  | ⟨0, _⟩ => show win2_0.index t 0 * 10000 + 1 * p.val = R.val; rw [e0, hR]; omega
  | ⟨1, _⟩ => show win2_0.index t 1 * 128 + 1 * cc.val = cc.val; rw [e1]; omega

/-- The weight block at every point is the whole weight matrix. -/
theorem iblk1_1_apply (c : Dev nD) (t : Fin cfg2.N) (q cc : Fin 128) :
    (iblk1 V c 1 t : S128x128.Idx → EReal) (ix2 q cc) = (V c main_v4 : S128x128.Idx → EReal) (ix2 q cc) := by
  obtain ⟨-, -, e2, e3, -⟩ := mmIdx1 t
  unfold iblk1
  rw [View.read_apply]
  show (V c main_v4 : S128x128.Idx → EReal) _ = (V c main_v4 : S128x128.Idx → EReal) _
  congr 1
  funext a
  apply Fin.ext
  match a with
  | ⟨0, _⟩ => show win2_1.index t 0 * 128 + 1 * q.val = q.val; rw [e2]; omega
  | ⟨1, _⟩ => show win2_1.index t 1 * 128 + 1 * cc.val = cc.val; rw [e3]; omega

/-- What point `t` writes back is block `t` of the second half's matrix product. -/
theorem flushed1_eq (c : Dev nD) (t : Fin cfg2.N) :
    (dat1 (F := Ideal) V O B c).flushed 2 t
      = ((cfg2.win 2).blk t).view.read (Elt Ideal) (mmHalf (V c main_arg0) (V c main_v4) 1) := by
  show (cfg2.win 2).cut (grid2.coords t) ((dat1 V O B c).after 2 t) = _
  rw [after1_2]
  unfold out1_2
  rw [View.canon_unit_zero mmZeroOff]
  simp only [View.ld_unit_zero (S := S10000x128) mmZeroOff, View.ld_unit_zero (S := S128x128) mmZeroOff]
  obtain ⟨e0, e1, e2, e3, e4, e5, e6⟩ := mmIdx1 t
  funext j
  rw [View.read_apply]
  refine blockProduct_apply (V c main_arg0) (V c main_v4) 1 t.val e6 (iblk1 V c 0 t) (iblk1 V c 1 t) _
    (k2_pay1_apply _ _) (fun p cc R hR => iblk1_0_apply V c t p cc R (by rw [hR]; show (1 * 5 + t.val) * 10000 + p.val = _; omega))
    (fun q cc => iblk1_1_apply V c t q cc) _ _ ?_ ?_
  · show win2_2.index t 0 * 10000 + 1 * (j 0).val = t.val * 10000 + (j 0).val
    rw [e4]; omega
  · show win2_2.index t 1 * 128 + 1 * (j 1).val = (j 1).val
    rw [e5]; omega

/-- A position of the result array is in point `t`'s block iff each coordinate is in the block's range. -/
theorem mem_blk1 (t : Fin cfg2.N) (i : S50000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v9).slice (win2_2.rect t)).set ↔ _
  rw [View.set_slice_whole, Rect.mem_set_unit]
  exact Iff.rfl

/-- Row `r` of the result lies in the block of point `r / 10000`: the five blocks cover the array. -/
theorem cover1 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 5 := N_2
  have ht : (i 0).val / 10000 < cfg2.N := by rw [hN]; omega
  obtain ⟨-, -, -, -, e4, e5, -⟩ := mmIdx1 ⟨(i 0).val / 10000, ht⟩
  refine ⟨⟨(i 0).val / 10000, ht⟩, flush2_2 _, ?_⟩
  rw [mem_blk1]
  intro a
  match a with
  | ⟨0, _⟩ =>
    show win2_2.index ⟨(i 0).val / 10000, ht⟩ 0 * 10000 ≤ (i 0).val
      ∧ (i 0).val < win2_2.index ⟨(i 0).val / 10000, ht⟩ 0 * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ 1 * 128 ≤ (i 1).val
      ∧ (i 1).val < win2_2.index ⟨(i 0).val / 10000, ht⟩ 1 * 128 + 128
    rw [e5]
    omega

/-- THE RESULT ARRAY of the second region: the second half's matrix product. -/
theorem region1_value (c : Dev nD) :
    (dat1 (F := Ideal) V O B c).arrAt 2 cfg2.N = mmHalf (V c main_arg0) (V c main_v4) 1 :=
  (dat1 (F := Ideal) V O B c).arrAt_eq_of_cover 2 (mmHalf (V c main_arg0) (V c main_v4) 1)
    (fun t _ => flushed1_eq V O B c t) (fun i => cover1 i)

end Region

end Cert.Proof.KI

end
-- ==== Proof.KIFinal.lean ====
/-
  The end of the fold: the result array holds the specification.

  Read at the result array the fold composes, step by step, to the stack of the two halves, each the
  tree kernel's value function of the flattened matrix product of its half of `x` with the weight matrix
  built from `A`; and that composition is the specification.
-/
import proofs.«209939_g34969623724736_cont_8to1_b_5_19_alg».proof.Proof.KIFinalArgs
import proofs.«209939_g34969623724736_cont_8to1_b_5_19_alg».proof.Proof.KIMatmul0
import proofs.«209939_g34969623724736_cont_8to1_b_5_19_alg».proof.Proof.KIMatmul2
import proofs.«209939_g34969623724736_cont_8to1_b_5_19_alg».proof.Proof.KIValue
import Idealize.ShloMosaic.Lib.StableHlo.Run

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL.Sem
open Idealize.ShloMosaic.Rounds
open Idealize.ShloMosaic.Pipeline (Dat)

/-! ## The result array, on the extended reals -/

section AtIdeal

variable (m : (ℓ : Loc nD τ sig) → Buf (Elt Ideal) ℓ)

/-- The weight matrix the six host operations leave: the one built from `A`. -/
theorem W1_v4 (c : Dev nD) :
    (W1 (F := Ideal) m c (Proc.devRef .tc main_v4) : S128x128.Idx → EReal)
      = aBig (m ((c : Thread nD τ).loc main_arg1)) := by
  show StableHlo.after [op_cst (F := Ideal), op_v0, op_v1, op_v2, op_v3, op_v4] (W0 m c) (Proc.devRef .tc main_v4) = _
  after_results
  rfl

/-- The weight matrix is still there when the second region starts: the first region reads it through an
    input window, and nothing in between writes it. -/
theorem W5_v4 (c : Dev nD) :
    (W5 (F := Ideal) m c (Proc.devRef .tc main_v4) : S128x128.Idx → EReal)
      = aBig (m ((c : Thread nD τ).loc main_arg1)) :=
  calc W5 (F := Ideal) m c (Proc.devRef .tc main_v4)
    _ = W4 m c (Proc.devRef .tc main_v4) :=
        StableHlo.reshape_result_ne _ _ _ _ _ _ _ (show main_v4 ≠ main_v8 by decide)
    _ = W3 m c (Proc.devRef .tc main_v4) := by
        unfold W4; exact Function.update_of_ne (StableHlo.devRef_ne_of_ne (by decide)) _ _
    _ = W2 m c (Proc.devRef .tc main_v4) :=
        StableHlo.reshape_result_ne _ _ _ _ _ _ _ (show main_v4 ≠ main_v6 by decide)
    _ = W1 m c (Proc.devRef .tc main_v4) :=
        (foldW2_arr m c 1).trans (((dat0 (V1 m) _ _ c).arrAt_in 1 rfl _).trans (A_eq0 (V1 m) _ _ c 1))
    _ = aBig (m ((c : Thread nD τ).loc main_arg1)) := W1_v4 m c

/-- The first region leaves the first half's matrix product with the weight matrix. -/
theorem W2_v5 (c : Dev nD) :
    (W2 (F := Ideal) m c (Proc.devRef .tc main_v5) : S50000x128.Idx → EReal)
      = mmHalf (m ((c : Thread nD τ).loc main_arg0)) (aBig (m ((c : Thread nD τ).loc main_arg1))) 0 := by
  refine (foldW2_arr m c 2).trans ((region0_value (V1 m) _ _ c).trans ?_)
  show mmHalf (W1 m c (Proc.devRef .tc main_arg0)) (W1 m c (Proc.devRef .tc main_v4)) 0 = _
  rw [W1_arg0 m c, W1_v4 m c]

/-- The second region leaves the second half's matrix product with the weight matrix. -/
theorem W6_v9 (c : Dev nD) :
    (W6 (F := Ideal) m c (Proc.devRef .tc main_v9) : S50000x128.Idx → EReal)
      = mmHalf (m ((c : Thread nD τ).loc main_arg0)) (aBig (m ((c : Thread nD τ).loc main_arg1))) 1 := by
  refine (foldW6_arr m c 2).trans ((region1_value (V5 m) _ _ c).trans ?_)
  show mmHalf (W5 m c (Proc.devRef .tc main_arg0)) (W5 m c (Proc.devRef .tc main_v4)) 1 = _
  rw [W5_arg0 m c, W5_v4 m c]

/-- The first half's block of the result, after its tree launch and the reshaping. -/
theorem W5_v8 (c : Dev nD) :
    (W5 (F := Ideal) m c (Proc.devRef .tc main_v8) : S50000x31.Idx → EReal)
      = halfOut (mmHalf (m ((c : Thread nD τ).loc main_arg0)) (aBig (m ((c : Thread nD τ).loc main_arg1))) 0) := by
  show (op_v8 (F := Ideal)).result (W4 m c) (Proc.devRef .tc main_v8) = _
  rw [StableHlo.reshape_result]
  have h4 : W4 m c (Proc.devRef .tc main_v7) = Cert.KTree.outFlat (F := Ideal) (W3 m c (Proc.devRef .tc main_v6)) := by
    unfold W4; exact Function.update_self _ _ _
  have h3 : W3 m c (Proc.devRef .tc main_v6)
      = fun i => shapeCast S6400000 (W2 m c (Proc.devRef .tc main_v5)) shapeCasts_S50000x128_S6400000 i := by
    show (op_v6 (F := Ideal)).result (W2 m c) (Proc.devRef .tc main_v6) = _
    rw [StableHlo.reshape_result]
    rfl
  rw [h4, h3, W2_v5 m c]
  rfl

/-- The second half's block of the result, after its tree launch and the reshaping. -/
theorem W8r_v12 (c : Dev nD) :
    ((op_v12 (F := Ideal)).result (W8 m c) (Proc.devRef .tc main_v12) : S50000x31.Idx → EReal)
      = halfOut (mmHalf (m ((c : Thread nD τ).loc main_arg0)) (aBig (m ((c : Thread nD τ).loc main_arg1))) 1) := by
  rw [StableHlo.reshape_result]
  have h8 : W8 m c (Proc.devRef .tc main_v11) = Cert.KTree.outFlat (F := Ideal) (W7 m c (Proc.devRef .tc main_v10)) := by
    unfold W8; exact Function.update_self _ _ _
  have h7 : W7 m c (Proc.devRef .tc main_v10)
      = fun i => shapeCast S6400000 (W6 m c (Proc.devRef .tc main_v9)) shapeCasts_S50000x128_S6400000 i := by
    show (op_v10 (F := Ideal)).result (W6 m c) (Proc.devRef .tc main_v10) = _
    rw [StableHlo.reshape_result]
    rfl
  rw [h8, h7, W6_v9 m c]
  rfl

/-- The first half's block is still there at the concatenation. -/
theorem W8r_v8 (c : Dev nD) :
    ((op_v12 (F := Ideal)).result (W8 m c) (Proc.devRef .tc main_v8) : S50000x31.Idx → EReal)
      = halfOut (mmHalf (m ((c : Thread nD τ).loc main_arg0)) (aBig (m ((c : Thread nD τ).loc main_arg1))) 0) :=
  calc (op_v12 (F := Ideal)).result (W8 m c) (Proc.devRef .tc main_v8)
    _ = W8 m c (Proc.devRef .tc main_v8) :=
        StableHlo.reshape_result_ne _ _ _ _ _ _ _ (show main_v8 ≠ main_v12 by decide)
    _ = W7 m c (Proc.devRef .tc main_v8) := by
        unfold W8; exact Function.update_of_ne (StableHlo.devRef_ne_of_ne (by decide)) _ _
    _ = W6 m c (Proc.devRef .tc main_v8) :=
        StableHlo.reshape_result_ne _ _ _ _ _ _ _ (show main_v8 ≠ main_v10 by decide)
    _ = W5 m c (Proc.devRef .tc main_v8) := foldW6_of_ne m c main_v8 (by decide)
    _ = _ := W5_v8 m c

/-- THE RESULT ARRAY at the end of the fold is the specification of the two arguments as launched. -/
theorem W9_result (c : Dev nD) :
    (W9 (F := Ideal) m c (Proc.devRef .tc main_v13) : S100000x31.Idx → EReal)
      = Cert.TreeSpec.tree (m ((c : Thread nD τ).loc main_arg0)) (m ((c : Thread nD τ).loc main_arg1)) := by
  show (op_v13 (F := Ideal)).result ((op_v12 (F := Ideal)).result (W8 m c)) (Proc.devRef .tc main_v13) = _
  rw [StableHlo.binary_result, W8r_v8 m c, W8r_v12 m c]
  exact result_eq_tree _ _

end AtIdeal

end Cert.Proof.KI

end
-- ==== Proof.RefOps.lean ====
/-
  The reference program's operations as lists: window by window as the program is printed (60, 60, 60, 56 operations),
  and stage by stage as its mathematics reads them (the constants, the product and the all-ones array; the two first
  updates; eight rounds; the clip).  The two arrangements are one list.
-/
import proofs.«209939_g34969623724736_cont_8to1_b_5_19_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the program's window 0, in order. -/
abbrev win0 : List (HloOp τ sig (Elt F)) :=
  [ nullary main_c (fun i => lit0 (S15.rowMajor i)),
    nullary main_c_0 (constantI S15 1 0#1),
    nullary main_c_1 (constantI S15 1 0#1),
    nullary main_c_2 (fun i => lit1 (S15.rowMajor i)),
    nullary main_c_3 (constantI S15 1 0#1),
    nullary main_c_4 (constantI S15 1 0#1),
    nullary main_c_5 (constantI S15 1 0#1),
    nullary main_c_6 (fun i => lit2 (S15.rowMajor i)),
    nullary main_c_7 (constantI S15 1 0#1),
    nullary main_c_8 (constantI S15 1 0#1),
    nullary main_c_9 (constantI S15 1 0#1),
    nullary main_c_10 (constantI S15 1 0#1),
    nullary main_c_11 (constantI S15 1 0#1),
    nullary main_c_12 (constantI S15 1 0#1),
    nullary main_c_13 (constantI S15 1 0#1),
    nullary main_c_14 (constantI S15 1 0#1),
    nullary main_c_15 (constantI S15 1 0#1),
    nullary main_c_16 (constantI S15 1 0#1),
    nullary main_c_17 (constantI S15 1 0#1),
    nullary main_c_18 (constantI S15 1 0#1),
    nullary main_c_19 (constantI S15 1 0#1),
    nullary main_c_20 (constantI S15 1 0#1),
    nullary main_c_21 (constantI S15 1 0#1),
    nullary main_c_22 (constantI S15 1 0#1),
    nullary main_c_23 (constantI S15 1 0#1),
    nullary main_c_24 (constantI S15 1 0#1),
    nullary main_c_25 (constantI S15 1 0#1),
    nullary main_c_26 (constantI S15 1 0#1),
    nullary main_c_27 (constantI S15 1 0#1),
    nullary main_c_28 (constantI S15 1 0#1),
    nullary main_c_29 (constantI S15 1 0#1),
    nullary main_c_30 (constantI S15 1 0#1),
    nullary main_c_31 (constantI S15 1 0#1),
    unary main_arg1 main_v0 ((transpose S128x15 [1, 0] · transposes_S15x128_S128x15_1_0) : (⟨S15x128, .f32⟩ : BufTy).Contents (Elt F) → (⟨S128x15, .f32⟩ : BufTy).Contents (Elt F)),
    binary main_arg0 main_v0 main_v1 ((fun l r => Host.dotGeneral dot_S100000x128_S128x15_S100000x15_1_0_0_1_n_n none l r) : (⟨S100000x128, .f32⟩ : BufTy).Contents (Elt F) → (⟨S128x15, .f32⟩ : BufTy).Contents (Elt F) → (⟨S100000x15, .f32⟩ : BufTy).Contents (Elt F)),
    nullary main_cst (constant S_ .f32 0x3F800000#32),
    unary main_cst main_v2 (broadcastInDim S100000x31 ![] bcast_S_S100000x31 : (⟨S_, .f32⟩ : BufTy).Contents (Elt F) → (⟨S100000x31, .f32⟩ : BufTy).Contents (Elt F)),
    nullary main_c_32 (constantI S_ 32 31#32),
    unary main_c_32 main_v3 (broadcastInDim S15 ![] bcast_S_S15 : (⟨S_, .i32⟩ : BufTy).Contents (Elt F) → (⟨S15, .i32⟩ : BufTy).Contents (Elt F)),
    binary main_c main_v3 main_v4 (addi : (⟨S15, .i32⟩ : BufTy).Contents (Elt F) → (⟨S15, .i32⟩ : BufTy).Contents (Elt F) → (⟨S15, .i32⟩ : BufTy).Contents (Elt F)),
    ternary main_c_0 main_v4 main_c main_v5 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v5 main_v6 (broadcastInDim S15x1 ![0] bcast_S15_S15x1_0 : (⟨S15, .i32⟩ : BufTy).Contents (Elt F) → (⟨S15x1, .i32⟩ : BufTy).Contents (Elt F)),
    binary main_v2 main_v6 main_v7 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_33 (constantI S_ 32 15#32),
    unary main_c_33 main_v8 (broadcastInDim S15 ![] bcast_S_S15 : (⟨S_, .i32⟩ : BufTy).Contents (Elt F) → (⟨S15, .i32⟩ : BufTy).Contents (Elt F)),
    binary main_c main_v8 main_v9 (addi : (⟨S15, .i32⟩ : BufTy).Contents (Elt F) → (⟨S15, .i32⟩ : BufTy).Contents (Elt F) → (⟨S15, .i32⟩ : BufTy).Contents (Elt F)),
    ternary main_c_1 main_v9 main_c main_v10 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v10 main_v11 (broadcastInDim S15x1 ![0] bcast_S15_S15x1_0 : (⟨S15, .i32⟩ : BufTy).Contents (Elt F) → (⟨S15x1, .i32⟩ : BufTy).Contents (Elt F)),
    binary main_v1 main_v11 main_v12 ((fun x i => Host.gather gather_S100000x15_S15x1_S100000x15_0_1_n_n_1_1_1000001 x i) : (⟨S100000x15, .f32⟩ : BufTy).Contents (Elt F) → (⟨S15x1, .i32⟩ : BufTy).Contents (Elt F) → (⟨S100000x15, .f32⟩ : BufTy).Contents (Elt F)),
    binary main_v7 main_v12 main_v13 (minimumf : (⟨S100000x15, .f32⟩ : BufTy).Contents (Elt F) → (⟨S100000x15, .f32⟩ : BufTy).Contents (Elt F) → (⟨S100000x15, .f32⟩ : BufTy).Contents (Elt F)),
    nullary main_c_34 (constantI S_ 32 31#32),
    unary main_c_34 main_v14 (broadcastInDim S15 ![] bcast_S_S15 : (⟨S_, .i32⟩ : BufTy).Contents (Elt F) → (⟨S15, .i32⟩ : BufTy).Contents (Elt F)),
    binary main_c_2 main_v14 main_v15 (addi : (⟨S15, .i32⟩ : BufTy).Contents (Elt F) → (⟨S15, .i32⟩ : BufTy).Contents (Elt F) → (⟨S15, .i32⟩ : BufTy).Contents (Elt F)),
    ternary main_c_3 main_v15 main_c_2 main_v16 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v16 main_v17 (broadcastInDim S15x1 ![0] bcast_S15_S15x1_0 : (⟨S15, .i32⟩ : BufTy).Contents (Elt F) → (⟨S15x1, .i32⟩ : BufTy).Contents (Elt F)),
    ternary main_v2 main_v17 main_v13 main_v18 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)),
    nullary main_c_35 (constantI S_ 32 31#32),
    unary main_c_35 main_v19 (broadcastInDim S15 ![] bcast_S_S15 : (⟨S_, .i32⟩ : BufTy).Contents (Elt F) → (⟨S15, .i32⟩ : BufTy).Contents (Elt F)),
    binary main_c main_v19 main_v20 (addi : (⟨S15, .i32⟩ : BufTy).Contents (Elt F) → (⟨S15, .i32⟩ : BufTy).Contents (Elt F) → (⟨S15, .i32⟩ : BufTy).Contents (Elt F)),
    ternary main_c_4 main_v20 main_c main_v21 (select : (⟨S15, .i1⟩ : BufTy).Contents (Elt F) → (⟨S15, .i32⟩ : BufTy).Contents (Elt F) → (⟨S15, .i32⟩ : BufTy).Contents (Elt F) → (⟨S15, .i32⟩ : BufTy).Contents (Elt F)) ]

/-- The operations of the program's window 1, in order. -/
abbrev win1 : List (HloOp τ sig (Elt F)) :=
  [ unary main_v21 main_v22 (broadcastInDim S15x1 ![0] bcast_S15_S15x1_0 : (⟨S15, .i32⟩ : BufTy).Contents (Elt F) → (⟨S15x1, .i32⟩ : BufTy).Contents (Elt F)),
    binary main_v18 main_v22 main_v23 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_36 (constantI S_ 32 15#32),
    unary main_c_36 main_v24 (broadcastInDim S15 ![] bcast_S_S15 : (⟨S_, .i32⟩ : BufTy).Contents (Elt F) → (⟨S15, .i32⟩ : BufTy).Contents (Elt F)),
    binary main_c main_v24 main_v25 (addi : (⟨S15, .i32⟩ : BufTy).Contents (Elt F) → (⟨S15, .i32⟩ : BufTy).Contents (Elt F) → (⟨S15, .i32⟩ : BufTy).Contents (Elt F)),
    ternary main_c_5 main_v25 main_c main_v26 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v26 main_v27 (broadcastInDim S15x1 ![0] bcast_S15_S15x1_0 : (⟨S15, .i32⟩ : BufTy).Contents (Elt F) → (⟨S15x1, .i32⟩ : BufTy).Contents (Elt F)),
    binary main_v1 main_v27 main_v28 ((fun x i => Host.gather gather_S100000x15_S15x1_S100000x15_0_1_n_n_1_1_1000001 x i) : (⟨S100000x15, .f32⟩ : BufTy).Contents (Elt F) → (⟨S15x1, .i32⟩ : BufTy).Contents (Elt F) → (⟨S100000x15, .f32⟩ : BufTy).Contents (Elt F)),
    unary main_v28 main_v29 (Host.negf : (⟨S100000x15, .f32⟩ : BufTy).Contents (Elt F) → (⟨S100000x15, .f32⟩ : BufTy).Contents (Elt F)),
    binary main_v23 main_v29 main_v30 (minimumf : (⟨S100000x15, .f32⟩ : BufTy).Contents (Elt F) → (⟨S100000x15, .f32⟩ : BufTy).Contents (Elt F) → (⟨S100000x15, .f32⟩ : BufTy).Contents (Elt F)),
    nullary main_c_37 (constantI S_ 32 31#32),
    unary main_c_37 main_v31 (broadcastInDim S15 ![] bcast_S_S15 : (⟨S_, .i32⟩ : BufTy).Contents (Elt F) → (⟨S15, .i32⟩ : BufTy).Contents (Elt F)),
    binary main_c_6 main_v31 main_v32 (addi : (⟨S15, .i32⟩ : BufTy).Contents (Elt F) → (⟨S15, .i32⟩ : BufTy).Contents (Elt F) → (⟨S15, .i32⟩ : BufTy).Contents (Elt F)),
    ternary main_c_7 main_v32 main_c_6 main_v33 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v33 main_v34 (broadcastInDim S15x1 ![0] bcast_S15_S15x1_0 : (⟨S15, .i32⟩ : BufTy).Contents (Elt F) → (⟨S15x1, .i32⟩ : BufTy).Contents (Elt F)),
    ternary main_v18 main_v34 main_v30 main_v35 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)),
    nullary main_c_38 (constantI S_ 32 31#32),
    unary main_c_38 main_v36 (broadcastInDim S15 ![] bcast_S_S15 : (⟨S_, .i32⟩ : BufTy).Contents (Elt F) → (⟨S15, .i32⟩ : BufTy).Contents (Elt F)),
    binary main_c_2 main_v36 main_v37 (addi : (⟨S15, .i32⟩ : BufTy).Contents (Elt F) → (⟨S15, .i32⟩ : BufTy).Contents (Elt F) → (⟨S15, .i32⟩ : BufTy).Contents (Elt F)),
    ternary main_c_8 main_v37 main_c_2 main_v38 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v38 main_v39 (broadcastInDim S15x1 ![0] bcast_S15_S15x1_0 : (⟨S15, .i32⟩ : BufTy).Contents (Elt F) → (⟨S15x1, .i32⟩ : BufTy).Contents (Elt F)),
    binary main_v35 main_v39 main_v40 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_39 (constantI S_ 32 31#32),
    unary main_c_39 main_v41 (broadcastInDim S15 ![] bcast_S_S15 : (⟨S_, .i32⟩ : BufTy).Contents (Elt F) → (⟨S15, .i32⟩ : BufTy).Contents (Elt F)),
    binary main_c main_v41 main_v42 (addi : (⟨S15, .i32⟩ : BufTy).Contents (Elt F) → (⟨S15, .i32⟩ : BufTy).Contents (Elt F) → (⟨S15, .i32⟩ : BufTy).Contents (Elt F)),
    ternary main_c_9 main_v42 main_c main_v43 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v43 main_v44 (broadcastInDim S15x1 ![0] bcast_S15_S15x1_0 : (⟨S15, .i32⟩ : BufTy).Contents (Elt F) → (⟨S15x1, .i32⟩ : BufTy).Contents (Elt F)),
    binary main_v35 main_v44 main_v45 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v40 main_v45 main_v46 (minimumf : (⟨S100000x15, .f32⟩ : BufTy).Contents (Elt F) → (⟨S100000x15, .f32⟩ : BufTy).Contents (Elt F) → (⟨S100000x15, .f32⟩ : BufTy).Contents (Elt F)),
    nullary main_c_40 (constantI S_ 32 31#32),
    unary main_c_40 main_v47 (broadcastInDim S15 ![] bcast_S_S15 : (⟨S_, .i32⟩ : BufTy).Contents (Elt F) → (⟨S15, .i32⟩ : BufTy).Contents (Elt F)),
    binary main_c_2 main_v47 main_v48 (addi : (⟨S15, .i32⟩ : BufTy).Contents (Elt F) → (⟨S15, .i32⟩ : BufTy).Contents (Elt F) → (⟨S15, .i32⟩ : BufTy).Contents (Elt F)),
    ternary main_c_10 main_v48 main_c_2 main_v49 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v49 main_v50 (broadcastInDim S15x1 ![0] bcast_S15_S15x1_0 : (⟨S15, .i32⟩ : BufTy).Contents (Elt F) → (⟨S15x1, .i32⟩ : BufTy).Contents (Elt F)),
    ternary main_v35 main_v50 main_v46 main_v51 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)),
    nullary main_c_41 (constantI S_ 32 31#32),
    unary main_c_41 main_v52 (broadcastInDim S15 ![] bcast_S_S15 : (⟨S_, .i32⟩ : BufTy).Contents (Elt F) → (⟨S15, .i32⟩ : BufTy).Contents (Elt F)),
    binary main_c_6 main_v52 main_v53 (addi : (⟨S15, .i32⟩ : BufTy).Contents (Elt F) → (⟨S15, .i32⟩ : BufTy).Contents (Elt F) → (⟨S15, .i32⟩ : BufTy).Contents (Elt F)),
    ternary main_c_11 main_v53 main_c_6 main_v54 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v54 main_v55 (broadcastInDim S15x1 ![0] bcast_S15_S15x1_0 : (⟨S15, .i32⟩ : BufTy).Contents (Elt F) → (⟨S15x1, .i32⟩ : BufTy).Contents (Elt F)),
    binary main_v51 main_v55 main_v56 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_42 (constantI S_ 32 31#32),
    unary main_c_42 main_v57 (broadcastInDim S15 ![] bcast_S_S15 : (⟨S_, .i32⟩ : BufTy).Contents (Elt F) → (⟨S15, .i32⟩ : BufTy).Contents (Elt F)),
    binary main_c main_v57 main_v58 (addi : (⟨S15, .i32⟩ : BufTy).Contents (Elt F) → (⟨S15, .i32⟩ : BufTy).Contents (Elt F) → (⟨S15, .i32⟩ : BufTy).Contents (Elt F)),
    ternary main_c_12 main_v58 main_c main_v59 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v59 main_v60 (broadcastInDim S15x1 ![0] bcast_S15_S15x1_0 : (⟨S15, .i32⟩ : BufTy).Contents (Elt F) → (⟨S15x1, .i32⟩ : BufTy).Contents (Elt F)),
    binary main_v51 main_v60 main_v61 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v56 main_v61 main_v62 (minimumf : (⟨S100000x15, .f32⟩ : BufTy).Contents (Elt F) → (⟨S100000x15, .f32⟩ : BufTy).Contents (Elt F) → (⟨S100000x15, .f32⟩ : BufTy).Contents (Elt F)),
    nullary main_c_43 (constantI S_ 32 31#32),
    unary main_c_43 main_v63 (broadcastInDim S15 ![] bcast_S_S15 : (⟨S_, .i32⟩ : BufTy).Contents (Elt F) → (⟨S15, .i32⟩ : BufTy).Contents (Elt F)),
    binary main_c_6 main_v63 main_v64 (addi : (⟨S15, .i32⟩ : BufTy).Contents (Elt F) → (⟨S15, .i32⟩ : BufTy).Contents (Elt F) → (⟨S15, .i32⟩ : BufTy).Contents (Elt F)),
    ternary main_c_13 main_v64 main_c_6 main_v65 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v65 main_v66 (broadcastInDim S15x1 ![0] bcast_S15_S15x1_0 : (⟨S15, .i32⟩ : BufTy).Contents (Elt F) → (⟨S15x1, .i32⟩ : BufTy).Contents (Elt F)),
    ternary main_v51 main_v66 main_v62 main_v67 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)),
    nullary main_c_44 (constantI S_ 32 31#32),
    unary main_c_44 main_v68 (broadcastInDim S15 ![] bcast_S_S15 : (⟨S_, .i32⟩ : BufTy).Contents (Elt F) → (⟨S15, .i32⟩ : BufTy).Contents (Elt F)),
    binary main_c_2 main_v68 main_v69 (addi : (⟨S15, .i32⟩ : BufTy).Contents (Elt F) → (⟨S15, .i32⟩ : BufTy).Contents (Elt F) → (⟨S15, .i32⟩ : BufTy).Contents (Elt F)),
    ternary main_c_14 main_v69 main_c_2 main_v70 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v70 main_v71 (broadcastInDim S15x1 ![0] bcast_S15_S15x1_0 : (⟨S15, .i32⟩ : BufTy).Contents (Elt F) → (⟨S15x1, .i32⟩ : BufTy).Contents (Elt F)),
    binary main_v67 main_v71 main_v72 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)) ]

/-- The operations of the program's window 2, in order. -/
abbrev win2 : List (HloOp τ sig (Elt F)) :=
  [ nullary main_c_45 (constantI S_ 32 31#32),
    unary main_c_45 main_v73 (broadcastInDim S15 ![] bcast_S_S15 : (⟨S_, .i32⟩ : BufTy).Contents (Elt F) → (⟨S15, .i32⟩ : BufTy).Contents (Elt F)),
    binary main_c main_v73 main_v74 (addi : (⟨S15, .i32⟩ : BufTy).Contents (Elt F) → (⟨S15, .i32⟩ : BufTy).Contents (Elt F) → (⟨S15, .i32⟩ : BufTy).Contents (Elt F)),
    ternary main_c_15 main_v74 main_c main_v75 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v75 main_v76 (broadcastInDim S15x1 ![0] bcast_S15_S15x1_0 : (⟨S15, .i32⟩ : BufTy).Contents (Elt F) → (⟨S15x1, .i32⟩ : BufTy).Contents (Elt F)),
    binary main_v67 main_v76 main_v77 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v72 main_v77 main_v78 (minimumf : (⟨S100000x15, .f32⟩ : BufTy).Contents (Elt F) → (⟨S100000x15, .f32⟩ : BufTy).Contents (Elt F) → (⟨S100000x15, .f32⟩ : BufTy).Contents (Elt F)),
    nullary main_c_46 (constantI S_ 32 31#32),
    unary main_c_46 main_v79 (broadcastInDim S15 ![] bcast_S_S15 : (⟨S_, .i32⟩ : BufTy).Contents (Elt F) → (⟨S15, .i32⟩ : BufTy).Contents (Elt F)),
    binary main_c_2 main_v79 main_v80 (addi : (⟨S15, .i32⟩ : BufTy).Contents (Elt F) → (⟨S15, .i32⟩ : BufTy).Contents (Elt F) → (⟨S15, .i32⟩ : BufTy).Contents (Elt F)),
    ternary main_c_16 main_v80 main_c_2 main_v81 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v81 main_v82 (broadcastInDim S15x1 ![0] bcast_S15_S15x1_0 : (⟨S15, .i32⟩ : BufTy).Contents (Elt F) → (⟨S15x1, .i32⟩ : BufTy).Contents (Elt F)),
    ternary main_v67 main_v82 main_v78 main_v83 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)),
    nullary main_c_47 (constantI S_ 32 31#32),
    unary main_c_47 main_v84 (broadcastInDim S15 ![] bcast_S_S15 : (⟨S_, .i32⟩ : BufTy).Contents (Elt F) → (⟨S15, .i32⟩ : BufTy).Contents (Elt F)),
    binary main_c_6 main_v84 main_v85 (addi : (⟨S15, .i32⟩ : BufTy).Contents (Elt F) → (⟨S15, .i32⟩ : BufTy).Contents (Elt F) → (⟨S15, .i32⟩ : BufTy).Contents (Elt F)),
    ternary main_c_17 main_v85 main_c_6 main_v86 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v86 main_v87 (broadcastInDim S15x1 ![0] bcast_S15_S15x1_0 : (⟨S15, .i32⟩ : BufTy).Contents (Elt F) → (⟨S15x1, .i32⟩ : BufTy).Contents (Elt F)),
    binary main_v83 main_v87 main_v88 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_48 (constantI S_ 32 31#32),
    unary main_c_48 main_v89 (broadcastInDim S15 ![] bcast_S_S15 : (⟨S_, .i32⟩ : BufTy).Contents (Elt F) → (⟨S15, .i32⟩ : BufTy).Contents (Elt F)),
    binary main_c main_v89 main_v90 (addi : (⟨S15, .i32⟩ : BufTy).Contents (Elt F) → (⟨S15, .i32⟩ : BufTy).Contents (Elt F) → (⟨S15, .i32⟩ : BufTy).Contents (Elt F)),
    ternary main_c_18 main_v90 main_c main_v91 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v91 main_v92 (broadcastInDim S15x1 ![0] bcast_S15_S15x1_0 : (⟨S15, .i32⟩ : BufTy).Contents (Elt F) → (⟨S15x1, .i32⟩ : BufTy).Contents (Elt F)),
    binary main_v83 main_v92 main_v93 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v88 main_v93 main_v94 (minimumf : (⟨S100000x15, .f32⟩ : BufTy).Contents (Elt F) → (⟨S100000x15, .f32⟩ : BufTy).Contents (Elt F) → (⟨S100000x15, .f32⟩ : BufTy).Contents (Elt F)),
    nullary main_c_49 (constantI S_ 32 31#32),
    unary main_c_49 main_v95 (broadcastInDim S15 ![] bcast_S_S15 : (⟨S_, .i32⟩ : BufTy).Contents (Elt F) → (⟨S15, .i32⟩ : BufTy).Contents (Elt F)),
    binary main_c_6 main_v95 main_v96 (addi : (⟨S15, .i32⟩ : BufTy).Contents (Elt F) → (⟨S15, .i32⟩ : BufTy).Contents (Elt F) → (⟨S15, .i32⟩ : BufTy).Contents (Elt F)),
    ternary main_c_19 main_v96 main_c_6 main_v97 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v97 main_v98 (broadcastInDim S15x1 ![0] bcast_S15_S15x1_0 : (⟨S15, .i32⟩ : BufTy).Contents (Elt F) → (⟨S15x1, .i32⟩ : BufTy).Contents (Elt F)),
    ternary main_v83 main_v98 main_v94 main_v99 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)),
    nullary main_c_50 (constantI S_ 32 31#32),
    unary main_c_50 main_v100 (broadcastInDim S15 ![] bcast_S_S15 : (⟨S_, .i32⟩ : BufTy).Contents (Elt F) → (⟨S15, .i32⟩ : BufTy).Contents (Elt F)),
    binary main_c_2 main_v100 main_v101 (addi : (⟨S15, .i32⟩ : BufTy).Contents (Elt F) → (⟨S15, .i32⟩ : BufTy).Contents (Elt F) → (⟨S15, .i32⟩ : BufTy).Contents (Elt F)),
    ternary main_c_20 main_v101 main_c_2 main_v102 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v102 main_v103 (broadcastInDim S15x1 ![0] bcast_S15_S15x1_0 : (⟨S15, .i32⟩ : BufTy).Contents (Elt F) → (⟨S15x1, .i32⟩ : BufTy).Contents (Elt F)),
    binary main_v99 main_v103 main_v104 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_51 (constantI S_ 32 31#32),
    unary main_c_51 main_v105 (broadcastInDim S15 ![] bcast_S_S15 : (⟨S_, .i32⟩ : BufTy).Contents (Elt F) → (⟨S15, .i32⟩ : BufTy).Contents (Elt F)),
    binary main_c main_v105 main_v106 (addi : (⟨S15, .i32⟩ : BufTy).Contents (Elt F) → (⟨S15, .i32⟩ : BufTy).Contents (Elt F) → (⟨S15, .i32⟩ : BufTy).Contents (Elt F)),
    ternary main_c_21 main_v106 main_c main_v107 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v107 main_v108 (broadcastInDim S15x1 ![0] bcast_S15_S15x1_0 : (⟨S15, .i32⟩ : BufTy).Contents (Elt F) → (⟨S15x1, .i32⟩ : BufTy).Contents (Elt F)),
    binary main_v99 main_v108 main_v109 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v104 main_v109 main_v110 (minimumf : (⟨S100000x15, .f32⟩ : BufTy).Contents (Elt F) → (⟨S100000x15, .f32⟩ : BufTy).Contents (Elt F) → (⟨S100000x15, .f32⟩ : BufTy).Contents (Elt F)),
    nullary main_c_52 (constantI S_ 32 31#32),
    unary main_c_52 main_v111 (broadcastInDim S15 ![] bcast_S_S15 : (⟨S_, .i32⟩ : BufTy).Contents (Elt F) → (⟨S15, .i32⟩ : BufTy).Contents (Elt F)),
    binary main_c_2 main_v111 main_v112 (addi : (⟨S15, .i32⟩ : BufTy).Contents (Elt F) → (⟨S15, .i32⟩ : BufTy).Contents (Elt F) → (⟨S15, .i32⟩ : BufTy).Contents (Elt F)),
    ternary main_c_22 main_v112 main_c_2 main_v113 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v113 main_v114 (broadcastInDim S15x1 ![0] bcast_S15_S15x1_0 : (⟨S15, .i32⟩ : BufTy).Contents (Elt F) → (⟨S15x1, .i32⟩ : BufTy).Contents (Elt F)),
    ternary main_v99 main_v114 main_v110 main_v115 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)),
    nullary main_c_53 (constantI S_ 32 31#32),
    unary main_c_53 main_v116 (broadcastInDim S15 ![] bcast_S_S15 : (⟨S_, .i32⟩ : BufTy).Contents (Elt F) → (⟨S15, .i32⟩ : BufTy).Contents (Elt F)),
    binary main_c_6 main_v116 main_v117 (addi : (⟨S15, .i32⟩ : BufTy).Contents (Elt F) → (⟨S15, .i32⟩ : BufTy).Contents (Elt F) → (⟨S15, .i32⟩ : BufTy).Contents (Elt F)),
    ternary main_c_23 main_v117 main_c_6 main_v118 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v118 main_v119 (broadcastInDim S15x1 ![0] bcast_S15_S15x1_0 : (⟨S15, .i32⟩ : BufTy).Contents (Elt F) → (⟨S15x1, .i32⟩ : BufTy).Contents (Elt F)),
    binary main_v115 main_v119 main_v120 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_54 (constantI S_ 32 31#32),
    unary main_c_54 main_v121 (broadcastInDim S15 ![] bcast_S_S15 : (⟨S_, .i32⟩ : BufTy).Contents (Elt F) → (⟨S15, .i32⟩ : BufTy).Contents (Elt F)),
    binary main_c main_v121 main_v122 (addi : (⟨S15, .i32⟩ : BufTy).Contents (Elt F) → (⟨S15, .i32⟩ : BufTy).Contents (Elt F) → (⟨S15, .i32⟩ : BufTy).Contents (Elt F)) ]

/-- The operations of the program's window 3, in order. -/
abbrev win3 : List (HloOp τ sig (Elt F)) :=
  [ ternary main_c_24 main_v122 main_c main_v123 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v123 main_v124 (broadcastInDim S15x1 ![0] bcast_S15_S15x1_0 : (⟨S15, .i32⟩ : BufTy).Contents (Elt F) → (⟨S15x1, .i32⟩ : BufTy).Contents (Elt F)),
    binary main_v115 main_v124 main_v125 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v120 main_v125 main_v126 (minimumf : (⟨S100000x15, .f32⟩ : BufTy).Contents (Elt F) → (⟨S100000x15, .f32⟩ : BufTy).Contents (Elt F) → (⟨S100000x15, .f32⟩ : BufTy).Contents (Elt F)),
    nullary main_c_55 (constantI S_ 32 31#32),
    unary main_c_55 main_v127 (broadcastInDim S15 ![] bcast_S_S15 : (⟨S_, .i32⟩ : BufTy).Contents (Elt F) → (⟨S15, .i32⟩ : BufTy).Contents (Elt F)),
    binary main_c_6 main_v127 main_v128 (addi : (⟨S15, .i32⟩ : BufTy).Contents (Elt F) → (⟨S15, .i32⟩ : BufTy).Contents (Elt F) → (⟨S15, .i32⟩ : BufTy).Contents (Elt F)),
    ternary main_c_25 main_v128 main_c_6 main_v129 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v129 main_v130 (broadcastInDim S15x1 ![0] bcast_S15_S15x1_0 : (⟨S15, .i32⟩ : BufTy).Contents (Elt F) → (⟨S15x1, .i32⟩ : BufTy).Contents (Elt F)),
    ternary main_v115 main_v130 main_v126 main_v131 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)),
    nullary main_c_56 (constantI S_ 32 31#32),
    unary main_c_56 main_v132 (broadcastInDim S15 ![] bcast_S_S15 : (⟨S_, .i32⟩ : BufTy).Contents (Elt F) → (⟨S15, .i32⟩ : BufTy).Contents (Elt F)),
    binary main_c_2 main_v132 main_v133 (addi : (⟨S15, .i32⟩ : BufTy).Contents (Elt F) → (⟨S15, .i32⟩ : BufTy).Contents (Elt F) → (⟨S15, .i32⟩ : BufTy).Contents (Elt F)),
    ternary main_c_26 main_v133 main_c_2 main_v134 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v134 main_v135 (broadcastInDim S15x1 ![0] bcast_S15_S15x1_0 : (⟨S15, .i32⟩ : BufTy).Contents (Elt F) → (⟨S15x1, .i32⟩ : BufTy).Contents (Elt F)),
    binary main_v131 main_v135 main_v136 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_57 (constantI S_ 32 31#32),
    unary main_c_57 main_v137 (broadcastInDim S15 ![] bcast_S_S15 : (⟨S_, .i32⟩ : BufTy).Contents (Elt F) → (⟨S15, .i32⟩ : BufTy).Contents (Elt F)),
    binary main_c main_v137 main_v138 (addi : (⟨S15, .i32⟩ : BufTy).Contents (Elt F) → (⟨S15, .i32⟩ : BufTy).Contents (Elt F) → (⟨S15, .i32⟩ : BufTy).Contents (Elt F)),
    ternary main_c_27 main_v138 main_c main_v139 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v139 main_v140 (broadcastInDim S15x1 ![0] bcast_S15_S15x1_0 : (⟨S15, .i32⟩ : BufTy).Contents (Elt F) → (⟨S15x1, .i32⟩ : BufTy).Contents (Elt F)),
    binary main_v131 main_v140 main_v141 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v136 main_v141 main_v142 (minimumf : (⟨S100000x15, .f32⟩ : BufTy).Contents (Elt F) → (⟨S100000x15, .f32⟩ : BufTy).Contents (Elt F) → (⟨S100000x15, .f32⟩ : BufTy).Contents (Elt F)),
    nullary main_c_58 (constantI S_ 32 31#32),
    unary main_c_58 main_v143 (broadcastInDim S15 ![] bcast_S_S15 : (⟨S_, .i32⟩ : BufTy).Contents (Elt F) → (⟨S15, .i32⟩ : BufTy).Contents (Elt F)),
    binary main_c_2 main_v143 main_v144 (addi : (⟨S15, .i32⟩ : BufTy).Contents (Elt F) → (⟨S15, .i32⟩ : BufTy).Contents (Elt F) → (⟨S15, .i32⟩ : BufTy).Contents (Elt F)),
    ternary main_c_28 main_v144 main_c_2 main_v145 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v145 main_v146 (broadcastInDim S15x1 ![0] bcast_S15_S15x1_0 : (⟨S15, .i32⟩ : BufTy).Contents (Elt F) → (⟨S15x1, .i32⟩ : BufTy).Contents (Elt F)),
    ternary main_v131 main_v146 main_v142 main_v147 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)),
    nullary main_c_59 (constantI S_ 32 31#32),
    unary main_c_59 main_v148 (broadcastInDim S15 ![] bcast_S_S15 : (⟨S_, .i32⟩ : BufTy).Contents (Elt F) → (⟨S15, .i32⟩ : BufTy).Contents (Elt F)),
    binary main_c_6 main_v148 main_v149 (addi : (⟨S15, .i32⟩ : BufTy).Contents (Elt F) → (⟨S15, .i32⟩ : BufTy).Contents (Elt F) → (⟨S15, .i32⟩ : BufTy).Contents (Elt F)),
    ternary main_c_29 main_v149 main_c_6 main_v150 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v150 main_v151 (broadcastInDim S15x1 ![0] bcast_S15_S15x1_0 : (⟨S15, .i32⟩ : BufTy).Contents (Elt F) → (⟨S15x1, .i32⟩ : BufTy).Contents (Elt F)),
    binary main_v147 main_v151 main_v152 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_60 (constantI S_ 32 31#32),
    unary main_c_60 main_v153 (broadcastInDim S15 ![] bcast_S_S15 : (⟨S_, .i32⟩ : BufTy).Contents (Elt F) → (⟨S15, .i32⟩ : BufTy).Contents (Elt F)),
    binary main_c main_v153 main_v154 (addi : (⟨S15, .i32⟩ : BufTy).Contents (Elt F) → (⟨S15, .i32⟩ : BufTy).Contents (Elt F) → (⟨S15, .i32⟩ : BufTy).Contents (Elt F)),
    ternary main_c_30 main_v154 main_c main_v155 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v155 main_v156 (broadcastInDim S15x1 ![0] bcast_S15_S15x1_0 : (⟨S15, .i32⟩ : BufTy).Contents (Elt F) → (⟨S15x1, .i32⟩ : BufTy).Contents (Elt F)),
    binary main_v147 main_v156 main_v157 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v152 main_v157 main_v158 (minimumf : (⟨S100000x15, .f32⟩ : BufTy).Contents (Elt F) → (⟨S100000x15, .f32⟩ : BufTy).Contents (Elt F) → (⟨S100000x15, .f32⟩ : BufTy).Contents (Elt F)),
    nullary main_c_61 (constantI S_ 32 31#32),
    unary main_c_61 main_v159 (broadcastInDim S15 ![] bcast_S_S15 : (⟨S_, .i32⟩ : BufTy).Contents (Elt F) → (⟨S15, .i32⟩ : BufTy).Contents (Elt F)),
    binary main_c_6 main_v159 main_v160 (addi : (⟨S15, .i32⟩ : BufTy).Contents (Elt F) → (⟨S15, .i32⟩ : BufTy).Contents (Elt F) → (⟨S15, .i32⟩ : BufTy).Contents (Elt F)),
    ternary main_c_31 main_v160 main_c_6 main_v161 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v161 main_v162 (broadcastInDim S15x1 ![0] bcast_S15_S15x1_0 : (⟨S15, .i32⟩ : BufTy).Contents (Elt F) → (⟨S15x1, .i32⟩ : BufTy).Contents (Elt F)),
    ternary main_v147 main_v162 main_v158 main_v163 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)),
    nullary main_cst_62 (constant S_ .f32 0x00000000#32),
    nullary main_cst_63 (constant S_ .f32 0x3F800000#32),
    TRef.unary (.of main_cst_62) main_call0.v0 id,
    TRef.unary main_call0.v0 main_call0.v1 (broadcastInDim S100000x31 ![] bcast_S_S100000x31),
    TRef.binary main_call0.v1 (.of main_v163) main_call0.v2 maximumf,
    TRef.unary (.of main_cst_63) main_call0.v3 id,
    TRef.unary main_call0.v3 main_call0.v4 (broadcastInDim S100000x31 ![] bcast_S_S100000x31),
    TRef.binary main_call0.v4 main_call0.v2 main_call0.v5 minimumf ]

/-- The operations of stage 0, in order. -/
def stage0 : List (HloOp τ sig (Elt F)) :=
  [ nullary main_c (fun i => lit0 (S15.rowMajor i)),
    nullary main_c_0 (constantI S15 1 0#1),
    nullary main_c_1 (constantI S15 1 0#1),
    nullary main_c_2 (fun i => lit1 (S15.rowMajor i)),
    nullary main_c_3 (constantI S15 1 0#1),
    nullary main_c_4 (constantI S15 1 0#1),
    nullary main_c_5 (constantI S15 1 0#1),
    nullary main_c_6 (fun i => lit2 (S15.rowMajor i)),
    nullary main_c_7 (constantI S15 1 0#1),
    nullary main_c_8 (constantI S15 1 0#1),
    nullary main_c_9 (constantI S15 1 0#1),
    nullary main_c_10 (constantI S15 1 0#1),
    nullary main_c_11 (constantI S15 1 0#1),
    nullary main_c_12 (constantI S15 1 0#1),
    nullary main_c_13 (constantI S15 1 0#1),
    nullary main_c_14 (constantI S15 1 0#1),
    nullary main_c_15 (constantI S15 1 0#1),
    nullary main_c_16 (constantI S15 1 0#1),
    nullary main_c_17 (constantI S15 1 0#1),
    nullary main_c_18 (constantI S15 1 0#1),
    nullary main_c_19 (constantI S15 1 0#1),
    nullary main_c_20 (constantI S15 1 0#1),
    nullary main_c_21 (constantI S15 1 0#1),
    nullary main_c_22 (constantI S15 1 0#1),
    nullary main_c_23 (constantI S15 1 0#1),
    nullary main_c_24 (constantI S15 1 0#1),
    nullary main_c_25 (constantI S15 1 0#1),
    nullary main_c_26 (constantI S15 1 0#1),
    nullary main_c_27 (constantI S15 1 0#1),
    nullary main_c_28 (constantI S15 1 0#1),
    nullary main_c_29 (constantI S15 1 0#1),
    nullary main_c_30 (constantI S15 1 0#1),
    nullary main_c_31 (constantI S15 1 0#1),
    unary main_arg1 main_v0 ((transpose S128x15 [1, 0] · transposes_S15x128_S128x15_1_0) : (⟨S15x128, .f32⟩ : BufTy).Contents (Elt F) → (⟨S128x15, .f32⟩ : BufTy).Contents (Elt F)),
    binary main_arg0 main_v0 main_v1 ((fun l r => Host.dotGeneral dot_S100000x128_S128x15_S100000x15_1_0_0_1_n_n none l r) : (⟨S100000x128, .f32⟩ : BufTy).Contents (Elt F) → (⟨S128x15, .f32⟩ : BufTy).Contents (Elt F) → (⟨S100000x15, .f32⟩ : BufTy).Contents (Elt F)),
    nullary main_cst (constant S_ .f32 0x3F800000#32),
    unary main_cst main_v2 (broadcastInDim S100000x31 ![] bcast_S_S100000x31 : (⟨S_, .f32⟩ : BufTy).Contents (Elt F) → (⟨S100000x31, .f32⟩ : BufTy).Contents (Elt F)) ]

/-- The operations of stage 1, in order. -/
def stage1 : List (HloOp τ sig (Elt F)) :=
  [ nullary main_c_32 (constantI S_ 32 31#32),
    unary main_c_32 main_v3 (broadcastInDim S15 ![] bcast_S_S15 : (⟨S_, .i32⟩ : BufTy).Contents (Elt F) → (⟨S15, .i32⟩ : BufTy).Contents (Elt F)),
    binary main_c main_v3 main_v4 (addi : (⟨S15, .i32⟩ : BufTy).Contents (Elt F) → (⟨S15, .i32⟩ : BufTy).Contents (Elt F) → (⟨S15, .i32⟩ : BufTy).Contents (Elt F)),
    ternary main_c_0 main_v4 main_c main_v5 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v5 main_v6 (broadcastInDim S15x1 ![0] bcast_S15_S15x1_0 : (⟨S15, .i32⟩ : BufTy).Contents (Elt F) → (⟨S15x1, .i32⟩ : BufTy).Contents (Elt F)),
    binary main_v2 main_v6 main_v7 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_33 (constantI S_ 32 15#32),
    unary main_c_33 main_v8 (broadcastInDim S15 ![] bcast_S_S15 : (⟨S_, .i32⟩ : BufTy).Contents (Elt F) → (⟨S15, .i32⟩ : BufTy).Contents (Elt F)),
    binary main_c main_v8 main_v9 (addi : (⟨S15, .i32⟩ : BufTy).Contents (Elt F) → (⟨S15, .i32⟩ : BufTy).Contents (Elt F) → (⟨S15, .i32⟩ : BufTy).Contents (Elt F)),
    ternary main_c_1 main_v9 main_c main_v10 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v10 main_v11 (broadcastInDim S15x1 ![0] bcast_S15_S15x1_0 : (⟨S15, .i32⟩ : BufTy).Contents (Elt F) → (⟨S15x1, .i32⟩ : BufTy).Contents (Elt F)),
    binary main_v1 main_v11 main_v12 ((fun x i => Host.gather gather_S100000x15_S15x1_S100000x15_0_1_n_n_1_1_1000001 x i) : (⟨S100000x15, .f32⟩ : BufTy).Contents (Elt F) → (⟨S15x1, .i32⟩ : BufTy).Contents (Elt F) → (⟨S100000x15, .f32⟩ : BufTy).Contents (Elt F)),
    binary main_v7 main_v12 main_v13 (minimumf : (⟨S100000x15, .f32⟩ : BufTy).Contents (Elt F) → (⟨S100000x15, .f32⟩ : BufTy).Contents (Elt F) → (⟨S100000x15, .f32⟩ : BufTy).Contents (Elt F)),
    nullary main_c_34 (constantI S_ 32 31#32),
    unary main_c_34 main_v14 (broadcastInDim S15 ![] bcast_S_S15 : (⟨S_, .i32⟩ : BufTy).Contents (Elt F) → (⟨S15, .i32⟩ : BufTy).Contents (Elt F)),
    binary main_c_2 main_v14 main_v15 (addi : (⟨S15, .i32⟩ : BufTy).Contents (Elt F) → (⟨S15, .i32⟩ : BufTy).Contents (Elt F) → (⟨S15, .i32⟩ : BufTy).Contents (Elt F)),
    ternary main_c_3 main_v15 main_c_2 main_v16 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v16 main_v17 (broadcastInDim S15x1 ![0] bcast_S15_S15x1_0 : (⟨S15, .i32⟩ : BufTy).Contents (Elt F) → (⟨S15x1, .i32⟩ : BufTy).Contents (Elt F)),
    ternary main_v2 main_v17 main_v13 main_v18 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)) ]

/-- The operations of stage 2, in order. -/
def stage2 : List (HloOp τ sig (Elt F)) :=
  [ nullary main_c_35 (constantI S_ 32 31#32),
    unary main_c_35 main_v19 (broadcastInDim S15 ![] bcast_S_S15 : (⟨S_, .i32⟩ : BufTy).Contents (Elt F) → (⟨S15, .i32⟩ : BufTy).Contents (Elt F)),
    binary main_c main_v19 main_v20 (addi : (⟨S15, .i32⟩ : BufTy).Contents (Elt F) → (⟨S15, .i32⟩ : BufTy).Contents (Elt F) → (⟨S15, .i32⟩ : BufTy).Contents (Elt F)),
    ternary main_c_4 main_v20 main_c main_v21 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v21 main_v22 (broadcastInDim S15x1 ![0] bcast_S15_S15x1_0 : (⟨S15, .i32⟩ : BufTy).Contents (Elt F) → (⟨S15x1, .i32⟩ : BufTy).Contents (Elt F)),
    binary main_v18 main_v22 main_v23 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_36 (constantI S_ 32 15#32),
    unary main_c_36 main_v24 (broadcastInDim S15 ![] bcast_S_S15 : (⟨S_, .i32⟩ : BufTy).Contents (Elt F) → (⟨S15, .i32⟩ : BufTy).Contents (Elt F)),
    binary main_c main_v24 main_v25 (addi : (⟨S15, .i32⟩ : BufTy).Contents (Elt F) → (⟨S15, .i32⟩ : BufTy).Contents (Elt F) → (⟨S15, .i32⟩ : BufTy).Contents (Elt F)),
    ternary main_c_5 main_v25 main_c main_v26 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v26 main_v27 (broadcastInDim S15x1 ![0] bcast_S15_S15x1_0 : (⟨S15, .i32⟩ : BufTy).Contents (Elt F) → (⟨S15x1, .i32⟩ : BufTy).Contents (Elt F)),
    binary main_v1 main_v27 main_v28 ((fun x i => Host.gather gather_S100000x15_S15x1_S100000x15_0_1_n_n_1_1_1000001 x i) : (⟨S100000x15, .f32⟩ : BufTy).Contents (Elt F) → (⟨S15x1, .i32⟩ : BufTy).Contents (Elt F) → (⟨S100000x15, .f32⟩ : BufTy).Contents (Elt F)),
    unary main_v28 main_v29 (Host.negf : (⟨S100000x15, .f32⟩ : BufTy).Contents (Elt F) → (⟨S100000x15, .f32⟩ : BufTy).Contents (Elt F)),
    binary main_v23 main_v29 main_v30 (minimumf : (⟨S100000x15, .f32⟩ : BufTy).Contents (Elt F) → (⟨S100000x15, .f32⟩ : BufTy).Contents (Elt F) → (⟨S100000x15, .f32⟩ : BufTy).Contents (Elt F)),
    nullary main_c_37 (constantI S_ 32 31#32),
    unary main_c_37 main_v31 (broadcastInDim S15 ![] bcast_S_S15 : (⟨S_, .i32⟩ : BufTy).Contents (Elt F) → (⟨S15, .i32⟩ : BufTy).Contents (Elt F)),
    binary main_c_6 main_v31 main_v32 (addi : (⟨S15, .i32⟩ : BufTy).Contents (Elt F) → (⟨S15, .i32⟩ : BufTy).Contents (Elt F) → (⟨S15, .i32⟩ : BufTy).Contents (Elt F)),
    ternary main_c_7 main_v32 main_c_6 main_v33 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v33 main_v34 (broadcastInDim S15x1 ![0] bcast_S15_S15x1_0 : (⟨S15, .i32⟩ : BufTy).Contents (Elt F) → (⟨S15x1, .i32⟩ : BufTy).Contents (Elt F)),
    ternary main_v18 main_v34 main_v30 main_v35 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)) ]

/-- The operations of stage 3, in order. -/
def stage3 : List (HloOp τ sig (Elt F)) :=
  [ nullary main_c_38 (constantI S_ 32 31#32),
    unary main_c_38 main_v36 (broadcastInDim S15 ![] bcast_S_S15 : (⟨S_, .i32⟩ : BufTy).Contents (Elt F) → (⟨S15, .i32⟩ : BufTy).Contents (Elt F)),
    binary main_c_2 main_v36 main_v37 (addi : (⟨S15, .i32⟩ : BufTy).Contents (Elt F) → (⟨S15, .i32⟩ : BufTy).Contents (Elt F) → (⟨S15, .i32⟩ : BufTy).Contents (Elt F)),
    ternary main_c_8 main_v37 main_c_2 main_v38 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v38 main_v39 (broadcastInDim S15x1 ![0] bcast_S15_S15x1_0 : (⟨S15, .i32⟩ : BufTy).Contents (Elt F) → (⟨S15x1, .i32⟩ : BufTy).Contents (Elt F)),
    binary main_v35 main_v39 main_v40 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_39 (constantI S_ 32 31#32),
    unary main_c_39 main_v41 (broadcastInDim S15 ![] bcast_S_S15 : (⟨S_, .i32⟩ : BufTy).Contents (Elt F) → (⟨S15, .i32⟩ : BufTy).Contents (Elt F)),
    binary main_c main_v41 main_v42 (addi : (⟨S15, .i32⟩ : BufTy).Contents (Elt F) → (⟨S15, .i32⟩ : BufTy).Contents (Elt F) → (⟨S15, .i32⟩ : BufTy).Contents (Elt F)),
    ternary main_c_9 main_v42 main_c main_v43 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v43 main_v44 (broadcastInDim S15x1 ![0] bcast_S15_S15x1_0 : (⟨S15, .i32⟩ : BufTy).Contents (Elt F) → (⟨S15x1, .i32⟩ : BufTy).Contents (Elt F)),
    binary main_v35 main_v44 main_v45 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v40 main_v45 main_v46 (minimumf : (⟨S100000x15, .f32⟩ : BufTy).Contents (Elt F) → (⟨S100000x15, .f32⟩ : BufTy).Contents (Elt F) → (⟨S100000x15, .f32⟩ : BufTy).Contents (Elt F)),
    nullary main_c_40 (constantI S_ 32 31#32),
    unary main_c_40 main_v47 (broadcastInDim S15 ![] bcast_S_S15 : (⟨S_, .i32⟩ : BufTy).Contents (Elt F) → (⟨S15, .i32⟩ : BufTy).Contents (Elt F)),
    binary main_c_2 main_v47 main_v48 (addi : (⟨S15, .i32⟩ : BufTy).Contents (Elt F) → (⟨S15, .i32⟩ : BufTy).Contents (Elt F) → (⟨S15, .i32⟩ : BufTy).Contents (Elt F)),
    ternary main_c_10 main_v48 main_c_2 main_v49 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v49 main_v50 (broadcastInDim S15x1 ![0] bcast_S15_S15x1_0 : (⟨S15, .i32⟩ : BufTy).Contents (Elt F) → (⟨S15x1, .i32⟩ : BufTy).Contents (Elt F)),
    ternary main_v35 main_v50 main_v46 main_v51 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)) ]

/-- The operations of stage 4, in order. -/
def stage4 : List (HloOp τ sig (Elt F)) :=
  [ nullary main_c_41 (constantI S_ 32 31#32),
    unary main_c_41 main_v52 (broadcastInDim S15 ![] bcast_S_S15 : (⟨S_, .i32⟩ : BufTy).Contents (Elt F) → (⟨S15, .i32⟩ : BufTy).Contents (Elt F)),
    binary main_c_6 main_v52 main_v53 (addi : (⟨S15, .i32⟩ : BufTy).Contents (Elt F) → (⟨S15, .i32⟩ : BufTy).Contents (Elt F) → (⟨S15, .i32⟩ : BufTy).Contents (Elt F)),
    ternary main_c_11 main_v53 main_c_6 main_v54 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v54 main_v55 (broadcastInDim S15x1 ![0] bcast_S15_S15x1_0 : (⟨S15, .i32⟩ : BufTy).Contents (Elt F) → (⟨S15x1, .i32⟩ : BufTy).Contents (Elt F)),
    binary main_v51 main_v55 main_v56 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_42 (constantI S_ 32 31#32),
    unary main_c_42 main_v57 (broadcastInDim S15 ![] bcast_S_S15 : (⟨S_, .i32⟩ : BufTy).Contents (Elt F) → (⟨S15, .i32⟩ : BufTy).Contents (Elt F)),
    binary main_c main_v57 main_v58 (addi : (⟨S15, .i32⟩ : BufTy).Contents (Elt F) → (⟨S15, .i32⟩ : BufTy).Contents (Elt F) → (⟨S15, .i32⟩ : BufTy).Contents (Elt F)),
    ternary main_c_12 main_v58 main_c main_v59 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v59 main_v60 (broadcastInDim S15x1 ![0] bcast_S15_S15x1_0 : (⟨S15, .i32⟩ : BufTy).Contents (Elt F) → (⟨S15x1, .i32⟩ : BufTy).Contents (Elt F)),
    binary main_v51 main_v60 main_v61 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v56 main_v61 main_v62 (minimumf : (⟨S100000x15, .f32⟩ : BufTy).Contents (Elt F) → (⟨S100000x15, .f32⟩ : BufTy).Contents (Elt F) → (⟨S100000x15, .f32⟩ : BufTy).Contents (Elt F)),
    nullary main_c_43 (constantI S_ 32 31#32),
    unary main_c_43 main_v63 (broadcastInDim S15 ![] bcast_S_S15 : (⟨S_, .i32⟩ : BufTy).Contents (Elt F) → (⟨S15, .i32⟩ : BufTy).Contents (Elt F)),
    binary main_c_6 main_v63 main_v64 (addi : (⟨S15, .i32⟩ : BufTy).Contents (Elt F) → (⟨S15, .i32⟩ : BufTy).Contents (Elt F) → (⟨S15, .i32⟩ : BufTy).Contents (Elt F)),
    ternary main_c_13 main_v64 main_c_6 main_v65 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v65 main_v66 (broadcastInDim S15x1 ![0] bcast_S15_S15x1_0 : (⟨S15, .i32⟩ : BufTy).Contents (Elt F) → (⟨S15x1, .i32⟩ : BufTy).Contents (Elt F)),
    ternary main_v51 main_v66 main_v62 main_v67 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)) ]

/-- The operations of stage 5, in order. -/
def stage5 : List (HloOp τ sig (Elt F)) :=
  [ nullary main_c_44 (constantI S_ 32 31#32),
    unary main_c_44 main_v68 (broadcastInDim S15 ![] bcast_S_S15 : (⟨S_, .i32⟩ : BufTy).Contents (Elt F) → (⟨S15, .i32⟩ : BufTy).Contents (Elt F)),
    binary main_c_2 main_v68 main_v69 (addi : (⟨S15, .i32⟩ : BufTy).Contents (Elt F) → (⟨S15, .i32⟩ : BufTy).Contents (Elt F) → (⟨S15, .i32⟩ : BufTy).Contents (Elt F)),
    ternary main_c_14 main_v69 main_c_2 main_v70 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v70 main_v71 (broadcastInDim S15x1 ![0] bcast_S15_S15x1_0 : (⟨S15, .i32⟩ : BufTy).Contents (Elt F) → (⟨S15x1, .i32⟩ : BufTy).Contents (Elt F)),
    binary main_v67 main_v71 main_v72 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_45 (constantI S_ 32 31#32),
    unary main_c_45 main_v73 (broadcastInDim S15 ![] bcast_S_S15 : (⟨S_, .i32⟩ : BufTy).Contents (Elt F) → (⟨S15, .i32⟩ : BufTy).Contents (Elt F)),
    binary main_c main_v73 main_v74 (addi : (⟨S15, .i32⟩ : BufTy).Contents (Elt F) → (⟨S15, .i32⟩ : BufTy).Contents (Elt F) → (⟨S15, .i32⟩ : BufTy).Contents (Elt F)),
    ternary main_c_15 main_v74 main_c main_v75 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v75 main_v76 (broadcastInDim S15x1 ![0] bcast_S15_S15x1_0 : (⟨S15, .i32⟩ : BufTy).Contents (Elt F) → (⟨S15x1, .i32⟩ : BufTy).Contents (Elt F)),
    binary main_v67 main_v76 main_v77 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v72 main_v77 main_v78 (minimumf : (⟨S100000x15, .f32⟩ : BufTy).Contents (Elt F) → (⟨S100000x15, .f32⟩ : BufTy).Contents (Elt F) → (⟨S100000x15, .f32⟩ : BufTy).Contents (Elt F)),
    nullary main_c_46 (constantI S_ 32 31#32),
    unary main_c_46 main_v79 (broadcastInDim S15 ![] bcast_S_S15 : (⟨S_, .i32⟩ : BufTy).Contents (Elt F) → (⟨S15, .i32⟩ : BufTy).Contents (Elt F)),
    binary main_c_2 main_v79 main_v80 (addi : (⟨S15, .i32⟩ : BufTy).Contents (Elt F) → (⟨S15, .i32⟩ : BufTy).Contents (Elt F) → (⟨S15, .i32⟩ : BufTy).Contents (Elt F)),
    ternary main_c_16 main_v80 main_c_2 main_v81 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v81 main_v82 (broadcastInDim S15x1 ![0] bcast_S15_S15x1_0 : (⟨S15, .i32⟩ : BufTy).Contents (Elt F) → (⟨S15x1, .i32⟩ : BufTy).Contents (Elt F)),
    ternary main_v67 main_v82 main_v78 main_v83 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)) ]

/-- The operations of stage 6, in order. -/
def stage6 : List (HloOp τ sig (Elt F)) :=
  [ nullary main_c_47 (constantI S_ 32 31#32),
    unary main_c_47 main_v84 (broadcastInDim S15 ![] bcast_S_S15 : (⟨S_, .i32⟩ : BufTy).Contents (Elt F) → (⟨S15, .i32⟩ : BufTy).Contents (Elt F)),
    binary main_c_6 main_v84 main_v85 (addi : (⟨S15, .i32⟩ : BufTy).Contents (Elt F) → (⟨S15, .i32⟩ : BufTy).Contents (Elt F) → (⟨S15, .i32⟩ : BufTy).Contents (Elt F)),
    ternary main_c_17 main_v85 main_c_6 main_v86 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v86 main_v87 (broadcastInDim S15x1 ![0] bcast_S15_S15x1_0 : (⟨S15, .i32⟩ : BufTy).Contents (Elt F) → (⟨S15x1, .i32⟩ : BufTy).Contents (Elt F)),
    binary main_v83 main_v87 main_v88 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_48 (constantI S_ 32 31#32),
    unary main_c_48 main_v89 (broadcastInDim S15 ![] bcast_S_S15 : (⟨S_, .i32⟩ : BufTy).Contents (Elt F) → (⟨S15, .i32⟩ : BufTy).Contents (Elt F)),
    binary main_c main_v89 main_v90 (addi : (⟨S15, .i32⟩ : BufTy).Contents (Elt F) → (⟨S15, .i32⟩ : BufTy).Contents (Elt F) → (⟨S15, .i32⟩ : BufTy).Contents (Elt F)),
    ternary main_c_18 main_v90 main_c main_v91 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v91 main_v92 (broadcastInDim S15x1 ![0] bcast_S15_S15x1_0 : (⟨S15, .i32⟩ : BufTy).Contents (Elt F) → (⟨S15x1, .i32⟩ : BufTy).Contents (Elt F)),
    binary main_v83 main_v92 main_v93 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v88 main_v93 main_v94 (minimumf : (⟨S100000x15, .f32⟩ : BufTy).Contents (Elt F) → (⟨S100000x15, .f32⟩ : BufTy).Contents (Elt F) → (⟨S100000x15, .f32⟩ : BufTy).Contents (Elt F)),
    nullary main_c_49 (constantI S_ 32 31#32),
    unary main_c_49 main_v95 (broadcastInDim S15 ![] bcast_S_S15 : (⟨S_, .i32⟩ : BufTy).Contents (Elt F) → (⟨S15, .i32⟩ : BufTy).Contents (Elt F)),
    binary main_c_6 main_v95 main_v96 (addi : (⟨S15, .i32⟩ : BufTy).Contents (Elt F) → (⟨S15, .i32⟩ : BufTy).Contents (Elt F) → (⟨S15, .i32⟩ : BufTy).Contents (Elt F)),
    ternary main_c_19 main_v96 main_c_6 main_v97 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v97 main_v98 (broadcastInDim S15x1 ![0] bcast_S15_S15x1_0 : (⟨S15, .i32⟩ : BufTy).Contents (Elt F) → (⟨S15x1, .i32⟩ : BufTy).Contents (Elt F)),
    ternary main_v83 main_v98 main_v94 main_v99 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)) ]

/-- The operations of stage 7, in order. -/
def stage7 : List (HloOp τ sig (Elt F)) :=
  [ nullary main_c_50 (constantI S_ 32 31#32),
    unary main_c_50 main_v100 (broadcastInDim S15 ![] bcast_S_S15 : (⟨S_, .i32⟩ : BufTy).Contents (Elt F) → (⟨S15, .i32⟩ : BufTy).Contents (Elt F)),
    binary main_c_2 main_v100 main_v101 (addi : (⟨S15, .i32⟩ : BufTy).Contents (Elt F) → (⟨S15, .i32⟩ : BufTy).Contents (Elt F) → (⟨S15, .i32⟩ : BufTy).Contents (Elt F)),
    ternary main_c_20 main_v101 main_c_2 main_v102 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v102 main_v103 (broadcastInDim S15x1 ![0] bcast_S15_S15x1_0 : (⟨S15, .i32⟩ : BufTy).Contents (Elt F) → (⟨S15x1, .i32⟩ : BufTy).Contents (Elt F)),
    binary main_v99 main_v103 main_v104 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_51 (constantI S_ 32 31#32),
    unary main_c_51 main_v105 (broadcastInDim S15 ![] bcast_S_S15 : (⟨S_, .i32⟩ : BufTy).Contents (Elt F) → (⟨S15, .i32⟩ : BufTy).Contents (Elt F)),
    binary main_c main_v105 main_v106 (addi : (⟨S15, .i32⟩ : BufTy).Contents (Elt F) → (⟨S15, .i32⟩ : BufTy).Contents (Elt F) → (⟨S15, .i32⟩ : BufTy).Contents (Elt F)),
    ternary main_c_21 main_v106 main_c main_v107 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v107 main_v108 (broadcastInDim S15x1 ![0] bcast_S15_S15x1_0 : (⟨S15, .i32⟩ : BufTy).Contents (Elt F) → (⟨S15x1, .i32⟩ : BufTy).Contents (Elt F)),
    binary main_v99 main_v108 main_v109 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v104 main_v109 main_v110 (minimumf : (⟨S100000x15, .f32⟩ : BufTy).Contents (Elt F) → (⟨S100000x15, .f32⟩ : BufTy).Contents (Elt F) → (⟨S100000x15, .f32⟩ : BufTy).Contents (Elt F)),
    nullary main_c_52 (constantI S_ 32 31#32),
    unary main_c_52 main_v111 (broadcastInDim S15 ![] bcast_S_S15 : (⟨S_, .i32⟩ : BufTy).Contents (Elt F) → (⟨S15, .i32⟩ : BufTy).Contents (Elt F)),
    binary main_c_2 main_v111 main_v112 (addi : (⟨S15, .i32⟩ : BufTy).Contents (Elt F) → (⟨S15, .i32⟩ : BufTy).Contents (Elt F) → (⟨S15, .i32⟩ : BufTy).Contents (Elt F)),
    ternary main_c_22 main_v112 main_c_2 main_v113 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v113 main_v114 (broadcastInDim S15x1 ![0] bcast_S15_S15x1_0 : (⟨S15, .i32⟩ : BufTy).Contents (Elt F) → (⟨S15x1, .i32⟩ : BufTy).Contents (Elt F)),
    ternary main_v99 main_v114 main_v110 main_v115 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)) ]

/-- The operations of stage 8, in order. -/
def stage8 : List (HloOp τ sig (Elt F)) :=
  [ nullary main_c_53 (constantI S_ 32 31#32),
    unary main_c_53 main_v116 (broadcastInDim S15 ![] bcast_S_S15 : (⟨S_, .i32⟩ : BufTy).Contents (Elt F) → (⟨S15, .i32⟩ : BufTy).Contents (Elt F)),
    binary main_c_6 main_v116 main_v117 (addi : (⟨S15, .i32⟩ : BufTy).Contents (Elt F) → (⟨S15, .i32⟩ : BufTy).Contents (Elt F) → (⟨S15, .i32⟩ : BufTy).Contents (Elt F)),
    ternary main_c_23 main_v117 main_c_6 main_v118 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v118 main_v119 (broadcastInDim S15x1 ![0] bcast_S15_S15x1_0 : (⟨S15, .i32⟩ : BufTy).Contents (Elt F) → (⟨S15x1, .i32⟩ : BufTy).Contents (Elt F)),
    binary main_v115 main_v119 main_v120 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_54 (constantI S_ 32 31#32),
    unary main_c_54 main_v121 (broadcastInDim S15 ![] bcast_S_S15 : (⟨S_, .i32⟩ : BufTy).Contents (Elt F) → (⟨S15, .i32⟩ : BufTy).Contents (Elt F)),
    binary main_c main_v121 main_v122 (addi : (⟨S15, .i32⟩ : BufTy).Contents (Elt F) → (⟨S15, .i32⟩ : BufTy).Contents (Elt F) → (⟨S15, .i32⟩ : BufTy).Contents (Elt F)),
    ternary main_c_24 main_v122 main_c main_v123 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v123 main_v124 (broadcastInDim S15x1 ![0] bcast_S15_S15x1_0 : (⟨S15, .i32⟩ : BufTy).Contents (Elt F) → (⟨S15x1, .i32⟩ : BufTy).Contents (Elt F)),
    binary main_v115 main_v124 main_v125 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v120 main_v125 main_v126 (minimumf : (⟨S100000x15, .f32⟩ : BufTy).Contents (Elt F) → (⟨S100000x15, .f32⟩ : BufTy).Contents (Elt F) → (⟨S100000x15, .f32⟩ : BufTy).Contents (Elt F)),
    nullary main_c_55 (constantI S_ 32 31#32),
    unary main_c_55 main_v127 (broadcastInDim S15 ![] bcast_S_S15 : (⟨S_, .i32⟩ : BufTy).Contents (Elt F) → (⟨S15, .i32⟩ : BufTy).Contents (Elt F)),
    binary main_c_6 main_v127 main_v128 (addi : (⟨S15, .i32⟩ : BufTy).Contents (Elt F) → (⟨S15, .i32⟩ : BufTy).Contents (Elt F) → (⟨S15, .i32⟩ : BufTy).Contents (Elt F)),
    ternary main_c_25 main_v128 main_c_6 main_v129 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v129 main_v130 (broadcastInDim S15x1 ![0] bcast_S15_S15x1_0 : (⟨S15, .i32⟩ : BufTy).Contents (Elt F) → (⟨S15x1, .i32⟩ : BufTy).Contents (Elt F)),
    ternary main_v115 main_v130 main_v126 main_v131 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)) ]

/-- The operations of stage 9, in order. -/
def stage9 : List (HloOp τ sig (Elt F)) :=
  [ nullary main_c_56 (constantI S_ 32 31#32),
    unary main_c_56 main_v132 (broadcastInDim S15 ![] bcast_S_S15 : (⟨S_, .i32⟩ : BufTy).Contents (Elt F) → (⟨S15, .i32⟩ : BufTy).Contents (Elt F)),
    binary main_c_2 main_v132 main_v133 (addi : (⟨S15, .i32⟩ : BufTy).Contents (Elt F) → (⟨S15, .i32⟩ : BufTy).Contents (Elt F) → (⟨S15, .i32⟩ : BufTy).Contents (Elt F)),
    ternary main_c_26 main_v133 main_c_2 main_v134 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v134 main_v135 (broadcastInDim S15x1 ![0] bcast_S15_S15x1_0 : (⟨S15, .i32⟩ : BufTy).Contents (Elt F) → (⟨S15x1, .i32⟩ : BufTy).Contents (Elt F)),
    binary main_v131 main_v135 main_v136 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_57 (constantI S_ 32 31#32),
    unary main_c_57 main_v137 (broadcastInDim S15 ![] bcast_S_S15 : (⟨S_, .i32⟩ : BufTy).Contents (Elt F) → (⟨S15, .i32⟩ : BufTy).Contents (Elt F)),
    binary main_c main_v137 main_v138 (addi : (⟨S15, .i32⟩ : BufTy).Contents (Elt F) → (⟨S15, .i32⟩ : BufTy).Contents (Elt F) → (⟨S15, .i32⟩ : BufTy).Contents (Elt F)),
    ternary main_c_27 main_v138 main_c main_v139 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v139 main_v140 (broadcastInDim S15x1 ![0] bcast_S15_S15x1_0 : (⟨S15, .i32⟩ : BufTy).Contents (Elt F) → (⟨S15x1, .i32⟩ : BufTy).Contents (Elt F)),
    binary main_v131 main_v140 main_v141 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v136 main_v141 main_v142 (minimumf : (⟨S100000x15, .f32⟩ : BufTy).Contents (Elt F) → (⟨S100000x15, .f32⟩ : BufTy).Contents (Elt F) → (⟨S100000x15, .f32⟩ : BufTy).Contents (Elt F)),
    nullary main_c_58 (constantI S_ 32 31#32),
    unary main_c_58 main_v143 (broadcastInDim S15 ![] bcast_S_S15 : (⟨S_, .i32⟩ : BufTy).Contents (Elt F) → (⟨S15, .i32⟩ : BufTy).Contents (Elt F)),
    binary main_c_2 main_v143 main_v144 (addi : (⟨S15, .i32⟩ : BufTy).Contents (Elt F) → (⟨S15, .i32⟩ : BufTy).Contents (Elt F) → (⟨S15, .i32⟩ : BufTy).Contents (Elt F)),
    ternary main_c_28 main_v144 main_c_2 main_v145 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v145 main_v146 (broadcastInDim S15x1 ![0] bcast_S15_S15x1_0 : (⟨S15, .i32⟩ : BufTy).Contents (Elt F) → (⟨S15x1, .i32⟩ : BufTy).Contents (Elt F)),
    ternary main_v131 main_v146 main_v142 main_v147 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)) ]

/-- The operations of stage 10, in order. -/
def stage10 : List (HloOp τ sig (Elt F)) :=
  [ nullary main_c_59 (constantI S_ 32 31#32),
    unary main_c_59 main_v148 (broadcastInDim S15 ![] bcast_S_S15 : (⟨S_, .i32⟩ : BufTy).Contents (Elt F) → (⟨S15, .i32⟩ : BufTy).Contents (Elt F)),
    binary main_c_6 main_v148 main_v149 (addi : (⟨S15, .i32⟩ : BufTy).Contents (Elt F) → (⟨S15, .i32⟩ : BufTy).Contents (Elt F) → (⟨S15, .i32⟩ : BufTy).Contents (Elt F)),
    ternary main_c_29 main_v149 main_c_6 main_v150 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v150 main_v151 (broadcastInDim S15x1 ![0] bcast_S15_S15x1_0 : (⟨S15, .i32⟩ : BufTy).Contents (Elt F) → (⟨S15x1, .i32⟩ : BufTy).Contents (Elt F)),
    binary main_v147 main_v151 main_v152 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    nullary main_c_60 (constantI S_ 32 31#32),
    unary main_c_60 main_v153 (broadcastInDim S15 ![] bcast_S_S15 : (⟨S_, .i32⟩ : BufTy).Contents (Elt F) → (⟨S15, .i32⟩ : BufTy).Contents (Elt F)),
    binary main_c main_v153 main_v154 (addi : (⟨S15, .i32⟩ : BufTy).Contents (Elt F) → (⟨S15, .i32⟩ : BufTy).Contents (Elt F) → (⟨S15, .i32⟩ : BufTy).Contents (Elt F)),
    ternary main_c_30 main_v154 main_c main_v155 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v155 main_v156 (broadcastInDim S15x1 ![0] bcast_S15_S15x1_0 : (⟨S15, .i32⟩ : BufTy).Contents (Elt F) → (⟨S15x1, .i32⟩ : BufTy).Contents (Elt F)),
    binary main_v147 main_v156 main_v157 ((fun x i => Host.gather gather_S100000x31_S15x1_S100000x15_0_1_n_n_1_1_1000001 x i) : (⟨S100000x31, .f32⟩ : BufTy).Contents (Elt F) → (⟨S15x1, .i32⟩ : BufTy).Contents (Elt F) → (⟨S100000x15, .f32⟩ : BufTy).Contents (Elt F)),
    binary main_v152 main_v157 main_v158 (minimumf : (⟨S100000x15, .f32⟩ : BufTy).Contents (Elt F) → (⟨S100000x15, .f32⟩ : BufTy).Contents (Elt F) → (⟨S100000x15, .f32⟩ : BufTy).Contents (Elt F)),
    nullary main_c_61 (constantI S_ 32 31#32),
    unary main_c_61 main_v159 (broadcastInDim S15 ![] bcast_S_S15 : (⟨S_, .i32⟩ : BufTy).Contents (Elt F) → (⟨S15, .i32⟩ : BufTy).Contents (Elt F)),
    binary main_c_6 main_v159 main_v160 (addi : (⟨S15, .i32⟩ : BufTy).Contents (Elt F) → (⟨S15, .i32⟩ : BufTy).Contents (Elt F) → (⟨S15, .i32⟩ : BufTy).Contents (Elt F)),
    ternary main_c_31 main_v160 main_c_6 main_v161 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v161 main_v162 (broadcastInDim S15x1 ![0] bcast_S15_S15x1_0 : (⟨S15, .i32⟩ : BufTy).Contents (Elt F) → (⟨S15x1, .i32⟩ : BufTy).Contents (Elt F)),
    ternary main_v147 main_v162 main_v158 main_v163 ((fun x i u => Host.scatter scatter_S100000x31_S15x1_S100000x15_0_1_1_1 (fun _ b => b) x i u) : (⟨S100000x31, .f32⟩ : BufTy).Contents (Elt F) → (⟨S15x1, .i32⟩ : BufTy).Contents (Elt F) → (⟨S100000x15, .f32⟩ : BufTy).Contents (Elt F) → (⟨S100000x31, .f32⟩ : BufTy).Contents (Elt F)) ]

/-- The operations of stage 11, in order. -/
def stage11 : List (HloOp τ sig (Elt F)) :=
  [ nullary main_cst_62 (constant S_ .f32 0x00000000#32),
    nullary main_cst_63 (constant S_ .f32 0x3F800000#32),
    TRef.unary (.of main_cst_62) main_call0.v0 id,
    TRef.unary main_call0.v0 main_call0.v1 (broadcastInDim S100000x31 ![] bcast_S_S100000x31),
    TRef.binary main_call0.v1 (.of main_v163) main_call0.v2 maximumf,
    TRef.unary (.of main_cst_63) main_call0.v3 id,
    TRef.unary main_call0.v3 main_call0.v4 (broadcastInDim S100000x31 ![] bcast_S_S100000x31),
    TRef.binary main_call0.v4 main_call0.v2 main_call0.v5 minimumf ]

theorem win0_sub : (win0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., binary_bufs_sub .., nullary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub ..⟩

theorem win1_sub : (win1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub ..⟩

theorem win2_sub : (win2 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub ..⟩

theorem win3_sub : (win3 : List (HloOp τ sig (Elt F))).Forall fun op => op.bufs ⊆ tcRefs τ sig :=
  ⟨ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., nullary_bufs_sub .., unary_bufs_sub .., unary_bufs_sub .., binary_bufs_sub .., unary_bufs_sub .., unary_bufs_sub .., binary_bufs_sub ..⟩

end Cert.ReferenceIdeal.RefValue

end
-- ==== Proof.RefMain.lean ====
/-
  The reference program is the straight line of its operations, so every weakly fair execution of it
  terminates with each buffer at the fold of the operations' results over the launch contents; the
  fold over the whole line is the fold over its stages, one after the other.
-/
import proofs.«209939_g34969623724736_cont_8to1_b_5_19_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem main_part0_eq (c : Dev nD) : main_part0 (F := F) c = seq win0 := rfl
theorem main_part1_eq (c : Dev nD) : main_part1 (F := F) c = seq win1 := rfl
theorem main_part2_eq (c : Dev nD) : main_part2 (F := F) c = seq win2 := rfl
theorem main_part3_eq (c : Dev nD) : main_part3 (F := F) c = seq win3 := rfl

/-- The whole line, window after window. -/
abbrev line : List (HloOp τ sig (Elt F)) := win0 ++ (win1 ++ (win2 ++ win3))

theorem main_eq (c : Dev nD) : main (F := F) c = seq line := by
  unfold line
  rw [seq_append, seq_append, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem line_sub : (line : List (HloOp τ sig (Elt F))).Forall fun op => op.bufs ⊆ tcRefs τ sig := by
  rw [List.forall_iff_forall_mem]
  intro op h
  rcases List.mem_append.1 h with h | h
  · exact List.forall_iff_forall_mem.1 win0_sub op h
  rcases List.mem_append.1 h with h | h
  · exact List.forall_iff_forall_mem.1 win1_sub op h
  rcases List.mem_append.1 h with h | h
  · exact List.forall_iff_forall_mem.1 win2_sub op h
  · exact List.forall_iff_forall_mem.1 win3_sub op h

theorem win0_fresh : ∀ op ∈ (win0 : List (HloOp τ sig (Elt F))), op.fresh = ∅ := by
  intro _ h; (repeat (cases h with | head => rfl | tail _ h => ?_)); exact nomatch h
theorem win1_fresh : ∀ op ∈ (win1 : List (HloOp τ sig (Elt F))), op.fresh = ∅ := by
  intro _ h; (repeat (cases h with | head => rfl | tail _ h => ?_)); exact nomatch h
theorem win2_fresh : ∀ op ∈ (win2 : List (HloOp τ sig (Elt F))), op.fresh = ∅ := by
  intro _ h; (repeat (cases h with | head => rfl | tail _ h => ?_)); exact nomatch h
theorem win3_fresh : ∀ op ∈ (win3 : List (HloOp τ sig (Elt F))), op.fresh = ∅ := by
  intro _ h; (repeat (cases h with | head => rfl | tail _ h => ?_)); exact nomatch h

theorem line_fresh : ∀ op ∈ (line : List (HloOp τ sig (Elt F))), op.fresh = ∅ := by
  intro op h
  rcases List.mem_append.1 h with h | h
  · exact win0_fresh op h
  rcases List.mem_append.1 h with h | h
  · exact win1_fresh op h
  rcases List.mem_append.1 h with h | h
  · exact win2_fresh op h
  · exact win3_fresh op h

/-- The windows and the stages are one list. -/
theorem line_eq_stages : (line : List (HloOp τ sig (Elt F))) = stage0 ++ (stage1 ++ (stage2 ++ (stage3 ++ (stage4 ++ (stage5 ++ (stage6 ++ (stage7 ++ (stage8 ++ (stage9 ++ (stage10 ++ stage11)))))))))) := rfl

/-- On every device, for any float values, from any memory with zero counters: every weakly fair execution of
    the program terminates with every buffer at the fold of the operations over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after line (launchContents m c) (Proc.devRef .tc b) :=
  run_seq scopedRefs_eq scopedSems_eq defs main (fun _ => line) main_eq (fun _ => line_sub) m ρ (fun _ => line_fresh)

end Cert.ReferenceIdeal.RefValue

end
-- ==== Proof.RefTerms.lean ====
/-
  The reference program's result as one term of its two arguments.

  The fifteen parent columns, left-child columns and right-child columns are index columns built from the three
  constant tables (each passed through the wrap of negative indices, which an all-false mask switches off).  The
  projections are the product of the rows with the transposed split directions.  The all-ones array takes the two
  first updates, then four rounds of a left and a right update, and is clipped to the interval from 0 to 1.
-/
import proofs.«209939_g34969623724736_cont_8to1_b_5_19_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The arrays' contents: the node values, fifteen columns of them, an index column, an index table, a mask. -/
abbrev CQ (F : FTy → Type) [FloatOps F] : Type := (⟨S100000x31, .f32⟩ : BufTy).Contents (Elt F)
abbrev CP (F : FTy → Type) [FloatOps F] : Type := (⟨S100000x15, .f32⟩ : BufTy).Contents (Elt F)
abbrev CI (F : FTy → Type) [FloatOps F] : Type := (⟨S15x1, .i32⟩ : BufTy).Contents (Elt F)
abbrev CT (F : FTy → Type) [FloatOps F] : Type := (⟨S15, .i32⟩ : BufTy).Contents (Elt F)
abbrev CM (F : FTy → Type) [FloatOps F] : Type := (⟨S15, .i1⟩ : BufTy).Contents (Elt F)

/-- An index table as a column of start indices: where the mask is set the index is moved up by `w` (the wrap of a
    negative index), elsewhere it is kept. -/
def idxCol (mask : CM F) (tab : CT F) (w : BitVec 32) : CI F :=
  broadcastInDim S15x1 ![0] bcast_S15_S15x1_0
    (select mask (addi tab (broadcastInDim S15 ![] bcast_S_S15 (constantI S_ 32 w))) tab)

/-- Fifteen columns of the node values, of the projections; fifteen columns written back. -/
def gatherQ (q : CQ F) (i : CI F) : CP F := Host.gather gather_S100000x31_S15x1_S100000x15_0_1_n_n_1_1_1000001 q i
def gatherP (p : CP F) (i : CI F) : CP F := Host.gather gather_S100000x15_S15x1_S100000x15_0_1_n_n_1_1_1000001 p i
def scatterQ (q : CQ F) (i : CI F) (u : CP F) : CQ F := Host.scatter scatter_S100000x31_S15x1_S100000x15_0_1_1_1 (fun _ b => b) q i u

/-- The first left update, the first right update and a later update, over any index columns. -/
def firstLG (p : CP F) (q : CQ F) (iw ia ib : CI F) : CQ F := scatterQ q iw (minimumf (gatherQ q ia) (gatherP p ib))
def firstRG (p : CP F) (q : CQ F) (iw ia ib : CI F) : CQ F := scatterQ q iw (minimumf (gatherQ q ia) (Host.negf (gatherP p ib)))
def roundG (q : CQ F) (iw ia ib : CI F) : CQ F := scatterQ q iw (minimumf (gatherQ q ia) (gatherQ q ib))

/-- The three tables (the nodes `0 … 14`, their left children, their right children) and the all-false mask. -/
def tab0 : CT F := fun i => lit0 (S15.rowMajor i)
def tab1 : CT F := fun i => lit1 (S15.rowMajor i)
def tab2 : CT F := fun i => lit2 (S15.rowMajor i)
def noWrap : CM F := constantI S15 1 0#1

/-- The parents' columns (among 31 columns, among 15 columns), the left children's, the right children's. -/
def colP : CI F := idxCol noWrap tab0 31#32
def colP15 : CI F := idxCol noWrap tab0 15#32
def colL : CI F := idxCol noWrap tab1 31#32
def colR : CI F := idxCol noWrap tab2 31#32

/-- The projections of the rows on the split directions. -/
def xa (x : (⟨S100000x128, .f32⟩ : BufTy).Contents (Elt F)) (A : (⟨S15x128, .f32⟩ : BufTy).Contents (Elt F)) : CP F :=
  Host.dotGeneral dot_S100000x128_S128x15_S100000x15_1_0_0_1_n_n none x (transpose S128x15 [1, 0] A transposes_S15x128_S128x15_1_0)

/-- The all-ones array. -/
def ones : CQ F := broadcastInDim S100000x31 ![] bcast_S_S100000x31 (constant S_ .f32 0x3F800000#32)

def firstL (p : CP F) (q : CQ F) : CQ F := firstLG p q colL colP colP15
def firstR (p : CP F) (q : CQ F) : CQ F := firstRG p q colR colP colP15
def roundL (q : CQ F) : CQ F := roundG q colL colL colP
def roundR (q : CQ F) : CQ F := roundG q colR colR colP

/-- The clip to the interval from 0 to 1: the maximum with 0, then the minimum with 1. -/
def clip (q : CQ F) : CQ F :=
  minimumf (broadcastInDim S100000x31 ![] bcast_S_S100000x31 (id (constant S_ .f32 0x3F800000#32)))
    (maximumf (broadcastInDim S100000x31 ![] bcast_S_S100000x31 (id (constant S_ .f32 0x00000000#32))) q)

/-- The node values after the two first updates and `k` rounds. -/
def nodes (p : CP F) : Nat → CQ F
  | 0 => firstR p (firstL p ones)
  | k + 1 => roundR (roundL (nodes p k))

/-- The program's result. -/
def refTerm (x : (⟨S100000x128, .f32⟩ : BufTy).Contents (Elt F)) (A : (⟨S15x128, .f32⟩ : BufTy).Contents (Elt F)) : CQ F :=
  clip (nodes (xa x A) 4)

end Cert.ReferenceIdeal.RefValue

end
-- ==== Proof.RefS0.lean ====
/-
  The first stage: the tables, the masks, the projections and the all-ones array, read after the stage from any contents.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage0_W : List (Ref sig .tc) := [main_c, main_c_0, main_c_1, main_c_2, main_c_3, main_c_4, main_c_5, main_c_6, main_c_7, main_c_8, main_c_9, main_c_10, main_c_11, main_c_12, main_c_13, main_c_14, main_c_15, main_c_16, main_c_17, main_c_18, main_c_19, main_c_20, main_c_21, main_c_22, main_c_23, main_c_24, main_c_25, main_c_26, main_c_27, main_c_28, main_c_29, main_c_30, main_c_31, main_v0, main_v1, main_cst, main_v2]

set_option maxRecDepth 8192 in
theorem stage0_writes : (stage0 : List (HloOp τ sig (Elt F))).Forall fun op =>
    op.writes ⊆ (stage0_W.map (Proc.devRef (τ := τ) .tc)).toFinset := by
  simp only [stage0, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep0 (W : Valuation τ sig (Elt F)) (r : Ref sig .tc) (h : r ∉ stage0_W) :
    after stage0 W (Proc.devRef .tc r) = W (Proc.devRef .tc r) :=
  after_of_writes_sub stage0 W stage0_writes h

set_option maxRecDepth 8192 in
set_option maxHeartbeats 2000000 in
theorem stage0_main_c (W : Valuation τ sig (Elt F)) :
    after stage0 W (Proc.devRef .tc main_c) = tab0 := by
  simp only [stage0]
  after_results_simp
  rfl

set_option maxRecDepth 8192 in
set_option maxHeartbeats 2000000 in
theorem stage0_main_c_0 (W : Valuation τ sig (Elt F)) :
    after stage0 W (Proc.devRef .tc main_c_0) = noWrap := by
  simp only [stage0]
  after_results_simp
  rfl

set_option maxRecDepth 8192 in
set_option maxHeartbeats 2000000 in
theorem stage0_main_c_1 (W : Valuation τ sig (Elt F)) :
    after stage0 W (Proc.devRef .tc main_c_1) = noWrap := by
  simp only [stage0]
  after_results_simp
  rfl

set_option maxRecDepth 8192 in
set_option maxHeartbeats 2000000 in
theorem stage0_main_c_2 (W : Valuation τ sig (Elt F)) :
    after stage0 W (Proc.devRef .tc main_c_2) = tab1 := by
  simp only [stage0]
  after_results_simp
  rfl

set_option maxRecDepth 8192 in
set_option maxHeartbeats 2000000 in
theorem stage0_main_c_3 (W : Valuation τ sig (Elt F)) :
    after stage0 W (Proc.devRef .tc main_c_3) = noWrap := by
  simp only [stage0]
  after_results_simp
  rfl

set_option maxRecDepth 8192 in
set_option maxHeartbeats 2000000 in
theorem stage0_main_c_4 (W : Valuation τ sig (Elt F)) :
    after stage0 W (Proc.devRef .tc main_c_4) = noWrap := by
  simp only [stage0]
  after_results_simp
  rfl

set_option maxRecDepth 8192 in
set_option maxHeartbeats 2000000 in
theorem stage0_main_c_5 (W : Valuation τ sig (Elt F)) :
    after stage0 W (Proc.devRef .tc main_c_5) = noWrap := by
  simp only [stage0]
  after_results_simp
  rfl

set_option maxRecDepth 8192 in
set_option maxHeartbeats 2000000 in
theorem stage0_main_c_6 (W : Valuation τ sig (Elt F)) :
    after stage0 W (Proc.devRef .tc main_c_6) = tab2 := by
  simp only [stage0]
  after_results_simp
  rfl

set_option maxRecDepth 8192 in
set_option maxHeartbeats 2000000 in
theorem stage0_main_c_7 (W : Valuation τ sig (Elt F)) :
    after stage0 W (Proc.devRef .tc main_c_7) = noWrap := by
  simp only [stage0]
  after_results_simp
  rfl

set_option maxRecDepth 8192 in
set_option maxHeartbeats 2000000 in
theorem stage0_main_c_8 (W : Valuation τ sig (Elt F)) :
    after stage0 W (Proc.devRef .tc main_c_8) = noWrap := by
  simp only [stage0]
  after_results_simp
  rfl

set_option maxRecDepth 8192 in
set_option maxHeartbeats 2000000 in
theorem stage0_main_c_9 (W : Valuation τ sig (Elt F)) :
    after stage0 W (Proc.devRef .tc main_c_9) = noWrap := by
  simp only [stage0]
  after_results_simp
  rfl

set_option maxRecDepth 8192 in
set_option maxHeartbeats 2000000 in
theorem stage0_main_c_10 (W : Valuation τ sig (Elt F)) :
    after stage0 W (Proc.devRef .tc main_c_10) = noWrap := by
  simp only [stage0]
  after_results_simp
  rfl

set_option maxRecDepth 8192 in
set_option maxHeartbeats 2000000 in
theorem stage0_main_c_11 (W : Valuation τ sig (Elt F)) :
    after stage0 W (Proc.devRef .tc main_c_11) = noWrap := by
  simp only [stage0]
  after_results_simp
  rfl

set_option maxRecDepth 8192 in
set_option maxHeartbeats 2000000 in
theorem stage0_main_c_12 (W : Valuation τ sig (Elt F)) :
    after stage0 W (Proc.devRef .tc main_c_12) = noWrap := by
  simp only [stage0]
  after_results_simp
  rfl

set_option maxRecDepth 8192 in
set_option maxHeartbeats 2000000 in
theorem stage0_main_c_13 (W : Valuation τ sig (Elt F)) :
    after stage0 W (Proc.devRef .tc main_c_13) = noWrap := by
  simp only [stage0]
  after_results_simp
  rfl

set_option maxRecDepth 8192 in
set_option maxHeartbeats 2000000 in
theorem stage0_main_c_14 (W : Valuation τ sig (Elt F)) :
    after stage0 W (Proc.devRef .tc main_c_14) = noWrap := by
  simp only [stage0]
  after_results_simp
  rfl

set_option maxRecDepth 8192 in
set_option maxHeartbeats 2000000 in
theorem stage0_main_c_15 (W : Valuation τ sig (Elt F)) :
    after stage0 W (Proc.devRef .tc main_c_15) = noWrap := by
  simp only [stage0]
  after_results_simp
  rfl

set_option maxRecDepth 8192 in
set_option maxHeartbeats 2000000 in
theorem stage0_main_c_16 (W : Valuation τ sig (Elt F)) :
    after stage0 W (Proc.devRef .tc main_c_16) = noWrap := by
  simp only [stage0]
  after_results_simp
  rfl

set_option maxRecDepth 8192 in
set_option maxHeartbeats 2000000 in
theorem stage0_main_c_17 (W : Valuation τ sig (Elt F)) :
    after stage0 W (Proc.devRef .tc main_c_17) = noWrap := by
  simp only [stage0]
  after_results_simp
  rfl

set_option maxRecDepth 8192 in
set_option maxHeartbeats 2000000 in
theorem stage0_main_c_18 (W : Valuation τ sig (Elt F)) :
    after stage0 W (Proc.devRef .tc main_c_18) = noWrap := by
  simp only [stage0]
  after_results_simp
  rfl

set_option maxRecDepth 8192 in
set_option maxHeartbeats 2000000 in
theorem stage0_main_c_19 (W : Valuation τ sig (Elt F)) :
    after stage0 W (Proc.devRef .tc main_c_19) = noWrap := by
  simp only [stage0]
  after_results_simp
  rfl

set_option maxRecDepth 8192 in
set_option maxHeartbeats 2000000 in
theorem stage0_main_c_20 (W : Valuation τ sig (Elt F)) :
    after stage0 W (Proc.devRef .tc main_c_20) = noWrap := by
  simp only [stage0]
  after_results_simp
  rfl

set_option maxRecDepth 8192 in
set_option maxHeartbeats 2000000 in
theorem stage0_main_c_21 (W : Valuation τ sig (Elt F)) :
    after stage0 W (Proc.devRef .tc main_c_21) = noWrap := by
  simp only [stage0]
  after_results_simp
  rfl

set_option maxRecDepth 8192 in
set_option maxHeartbeats 2000000 in
theorem stage0_main_c_22 (W : Valuation τ sig (Elt F)) :
    after stage0 W (Proc.devRef .tc main_c_22) = noWrap := by
  simp only [stage0]
  after_results_simp
  rfl

set_option maxRecDepth 8192 in
set_option maxHeartbeats 2000000 in
theorem stage0_main_c_23 (W : Valuation τ sig (Elt F)) :
    after stage0 W (Proc.devRef .tc main_c_23) = noWrap := by
  simp only [stage0]
  after_results_simp
  rfl

set_option maxRecDepth 8192 in
set_option maxHeartbeats 2000000 in
theorem stage0_main_c_24 (W : Valuation τ sig (Elt F)) :
    after stage0 W (Proc.devRef .tc main_c_24) = noWrap := by
  simp only [stage0]
  after_results_simp
  rfl

set_option maxRecDepth 8192 in
set_option maxHeartbeats 2000000 in
theorem stage0_main_c_25 (W : Valuation τ sig (Elt F)) :
    after stage0 W (Proc.devRef .tc main_c_25) = noWrap := by
  simp only [stage0]
  after_results_simp
  rfl

set_option maxRecDepth 8192 in
set_option maxHeartbeats 2000000 in
theorem stage0_main_c_26 (W : Valuation τ sig (Elt F)) :
    after stage0 W (Proc.devRef .tc main_c_26) = noWrap := by
  simp only [stage0]
  after_results_simp
  rfl

set_option maxRecDepth 8192 in
set_option maxHeartbeats 2000000 in
theorem stage0_main_c_27 (W : Valuation τ sig (Elt F)) :
    after stage0 W (Proc.devRef .tc main_c_27) = noWrap := by
  simp only [stage0]
  after_results_simp
  rfl

set_option maxRecDepth 8192 in
set_option maxHeartbeats 2000000 in
theorem stage0_main_c_28 (W : Valuation τ sig (Elt F)) :
    after stage0 W (Proc.devRef .tc main_c_28) = noWrap := by
  simp only [stage0]
  after_results_simp
  rfl

set_option maxRecDepth 8192 in
set_option maxHeartbeats 2000000 in
theorem stage0_main_c_29 (W : Valuation τ sig (Elt F)) :
    after stage0 W (Proc.devRef .tc main_c_29) = noWrap := by
  simp only [stage0]
  after_results_simp
  rfl

set_option maxRecDepth 8192 in
set_option maxHeartbeats 2000000 in
theorem stage0_main_c_30 (W : Valuation τ sig (Elt F)) :
    after stage0 W (Proc.devRef .tc main_c_30) = noWrap := by
  simp only [stage0]
  after_results_simp
  rfl

set_option maxRecDepth 8192 in
set_option maxHeartbeats 2000000 in
theorem stage0_main_c_31 (W : Valuation τ sig (Elt F)) :
    after stage0 W (Proc.devRef .tc main_c_31) = noWrap := by
  simp only [stage0]
  after_results_simp
  rfl

set_option maxRecDepth 8192 in
set_option maxHeartbeats 2000000 in
theorem stage0_main_v1 (W : Valuation τ sig (Elt F)) :
    after stage0 W (Proc.devRef .tc main_v1) = xa (W (Proc.devRef .tc main_arg0)) (W (Proc.devRef .tc main_arg1)) := by
  simp only [stage0]
  after_results_simp
  rfl

set_option maxRecDepth 8192 in
set_option maxHeartbeats 2000000 in
theorem stage0_main_v2 (W : Valuation τ sig (Elt F)) :
    after stage0 W (Proc.devRef .tc main_v2) = ones := by
  simp only [stage0]
  after_results_simp
  rfl

end Cert.ReferenceIdeal.RefValue

end
-- ==== Proof.RefS1.lean ====
/-
  Stage 1: one write of fifteen columns, read after the stage from any contents as a function of the buffers the stage reads.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage1_W : List (Ref sig .tc) := [main_c_32, main_v3, main_v4, main_v5, main_v6, main_v7, main_c_33, main_v8, main_v9, main_v10, main_v11, main_v12, main_v13, main_c_34, main_v14, main_v15, main_v16, main_v17, main_v18]

set_option maxRecDepth 8192 in
theorem stage1_writes : (stage1 : List (HloOp τ sig (Elt F))).Forall fun op =>
    op.writes ⊆ (stage1_W.map (Proc.devRef (τ := τ) .tc)).toFinset := by
  simp only [stage1, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep1 (W : Valuation τ sig (Elt F)) (r : Ref sig .tc) (h : r ∉ stage1_W) :
    after stage1 W (Proc.devRef .tc r) = W (Proc.devRef .tc r) :=
  after_of_writes_sub stage1 W stage1_writes h

set_option maxRecDepth 8192 in
set_option maxHeartbeats 2000000 in
theorem stage1_main_v18 (W : Valuation τ sig (Elt F)) :
    after stage1 W (Proc.devRef .tc main_v18) = scatterQ (W (Proc.devRef .tc main_v2)) (idxCol (W (Proc.devRef .tc main_c_3)) (W (Proc.devRef .tc main_c_2)) 31#32) (minimumf (gatherQ (W (Proc.devRef .tc main_v2)) (idxCol (W (Proc.devRef .tc main_c_0)) (W (Proc.devRef .tc main_c)) 31#32)) (gatherP (W (Proc.devRef .tc main_v1)) (idxCol (W (Proc.devRef .tc main_c_1)) (W (Proc.devRef .tc main_c)) 15#32))) := by
  simp only [stage1]
  after_results_simp
  rfl

end Cert.ReferenceIdeal.RefValue

end
-- ==== Proof.RefS2.lean ====
/-
  Stage 2: one write of fifteen columns, read after the stage from any contents as a function of the buffers the stage reads.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage2_W : List (Ref sig .tc) := [main_c_35, main_v19, main_v20, main_v21, main_v22, main_v23, main_c_36, main_v24, main_v25, main_v26, main_v27, main_v28, main_v29, main_v30, main_c_37, main_v31, main_v32, main_v33, main_v34, main_v35]

set_option maxRecDepth 8192 in
theorem stage2_writes : (stage2 : List (HloOp τ sig (Elt F))).Forall fun op =>
    op.writes ⊆ (stage2_W.map (Proc.devRef (τ := τ) .tc)).toFinset := by
  simp only [stage2, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep2 (W : Valuation τ sig (Elt F)) (r : Ref sig .tc) (h : r ∉ stage2_W) :
    after stage2 W (Proc.devRef .tc r) = W (Proc.devRef .tc r) :=
  after_of_writes_sub stage2 W stage2_writes h

set_option maxRecDepth 8192 in
set_option maxHeartbeats 2000000 in
theorem stage2_main_v35 (W : Valuation τ sig (Elt F)) :
    after stage2 W (Proc.devRef .tc main_v35) = scatterQ (W (Proc.devRef .tc main_v18)) (idxCol (W (Proc.devRef .tc main_c_7)) (W (Proc.devRef .tc main_c_6)) 31#32) (minimumf (gatherQ (W (Proc.devRef .tc main_v18)) (idxCol (W (Proc.devRef .tc main_c_4)) (W (Proc.devRef .tc main_c)) 31#32)) (Host.negf (gatherP (W (Proc.devRef .tc main_v1)) (idxCol (W (Proc.devRef .tc main_c_5)) (W (Proc.devRef .tc main_c)) 15#32)))) := by
  simp only [stage2]
  after_results_simp
  rfl

end Cert.ReferenceIdeal.RefValue

end
-- ==== Proof.RefS3.lean ====
/-
  Stage 3: one write of fifteen columns, read after the stage from any contents as a function of the buffers the stage reads.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage3_W : List (Ref sig .tc) := [main_c_38, main_v36, main_v37, main_v38, main_v39, main_v40, main_c_39, main_v41, main_v42, main_v43, main_v44, main_v45, main_v46, main_c_40, main_v47, main_v48, main_v49, main_v50, main_v51]

set_option maxRecDepth 8192 in
theorem stage3_writes : (stage3 : List (HloOp τ sig (Elt F))).Forall fun op =>
    op.writes ⊆ (stage3_W.map (Proc.devRef (τ := τ) .tc)).toFinset := by
  simp only [stage3, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep3 (W : Valuation τ sig (Elt F)) (r : Ref sig .tc) (h : r ∉ stage3_W) :
    after stage3 W (Proc.devRef .tc r) = W (Proc.devRef .tc r) :=
  after_of_writes_sub stage3 W stage3_writes h

set_option maxRecDepth 8192 in
set_option maxHeartbeats 2000000 in
theorem stage3_main_v51 (W : Valuation τ sig (Elt F)) :
    after stage3 W (Proc.devRef .tc main_v51) = scatterQ (W (Proc.devRef .tc main_v35)) (idxCol (W (Proc.devRef .tc main_c_10)) (W (Proc.devRef .tc main_c_2)) 31#32) (minimumf (gatherQ (W (Proc.devRef .tc main_v35)) (idxCol (W (Proc.devRef .tc main_c_8)) (W (Proc.devRef .tc main_c_2)) 31#32)) (gatherQ (W (Proc.devRef .tc main_v35)) (idxCol (W (Proc.devRef .tc main_c_9)) (W (Proc.devRef .tc main_c)) 31#32))) := by
  simp only [stage3]
  after_results_simp
  rfl

end Cert.ReferenceIdeal.RefValue

end
-- ==== Proof.RefS4.lean ====
/-
  Stage 4: one write of fifteen columns, read after the stage from any contents as a function of the buffers the stage reads.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage4_W : List (Ref sig .tc) := [main_c_41, main_v52, main_v53, main_v54, main_v55, main_v56, main_c_42, main_v57, main_v58, main_v59, main_v60, main_v61, main_v62, main_c_43, main_v63, main_v64, main_v65, main_v66, main_v67]

set_option maxRecDepth 8192 in
theorem stage4_writes : (stage4 : List (HloOp τ sig (Elt F))).Forall fun op =>
    op.writes ⊆ (stage4_W.map (Proc.devRef (τ := τ) .tc)).toFinset := by
  simp only [stage4, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep4 (W : Valuation τ sig (Elt F)) (r : Ref sig .tc) (h : r ∉ stage4_W) :
    after stage4 W (Proc.devRef .tc r) = W (Proc.devRef .tc r) :=
  after_of_writes_sub stage4 W stage4_writes h

set_option maxRecDepth 8192 in
set_option maxHeartbeats 2000000 in
theorem stage4_main_v67 (W : Valuation τ sig (Elt F)) :
    after stage4 W (Proc.devRef .tc main_v67) = scatterQ (W (Proc.devRef .tc main_v51)) (idxCol (W (Proc.devRef .tc main_c_13)) (W (Proc.devRef .tc main_c_6)) 31#32) (minimumf (gatherQ (W (Proc.devRef .tc main_v51)) (idxCol (W (Proc.devRef .tc main_c_11)) (W (Proc.devRef .tc main_c_6)) 31#32)) (gatherQ (W (Proc.devRef .tc main_v51)) (idxCol (W (Proc.devRef .tc main_c_12)) (W (Proc.devRef .tc main_c)) 31#32))) := by
  simp only [stage4]
  after_results_simp
  rfl

end Cert.ReferenceIdeal.RefValue

end
-- ==== Proof.RefS5.lean ====
/-
  Stage 5: one write of fifteen columns, read after the stage from any contents as a function of the buffers the stage reads.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage5_W : List (Ref sig .tc) := [main_c_44, main_v68, main_v69, main_v70, main_v71, main_v72, main_c_45, main_v73, main_v74, main_v75, main_v76, main_v77, main_v78, main_c_46, main_v79, main_v80, main_v81, main_v82, main_v83]

set_option maxRecDepth 8192 in
theorem stage5_writes : (stage5 : List (HloOp τ sig (Elt F))).Forall fun op =>
    op.writes ⊆ (stage5_W.map (Proc.devRef (τ := τ) .tc)).toFinset := by
  simp only [stage5, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep5 (W : Valuation τ sig (Elt F)) (r : Ref sig .tc) (h : r ∉ stage5_W) :
    after stage5 W (Proc.devRef .tc r) = W (Proc.devRef .tc r) :=
  after_of_writes_sub stage5 W stage5_writes h

set_option maxRecDepth 8192 in
set_option maxHeartbeats 2000000 in
theorem stage5_main_v83 (W : Valuation τ sig (Elt F)) :
    after stage5 W (Proc.devRef .tc main_v83) = scatterQ (W (Proc.devRef .tc main_v67)) (idxCol (W (Proc.devRef .tc main_c_16)) (W (Proc.devRef .tc main_c_2)) 31#32) (minimumf (gatherQ (W (Proc.devRef .tc main_v67)) (idxCol (W (Proc.devRef .tc main_c_14)) (W (Proc.devRef .tc main_c_2)) 31#32)) (gatherQ (W (Proc.devRef .tc main_v67)) (idxCol (W (Proc.devRef .tc main_c_15)) (W (Proc.devRef .tc main_c)) 31#32))) := by
  simp only [stage5]
  after_results_simp
  rfl

end Cert.ReferenceIdeal.RefValue

end
-- ==== Proof.RefS6.lean ====
/-
  Stage 6: one write of fifteen columns, read after the stage from any contents as a function of the buffers the stage reads.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage6_W : List (Ref sig .tc) := [main_c_47, main_v84, main_v85, main_v86, main_v87, main_v88, main_c_48, main_v89, main_v90, main_v91, main_v92, main_v93, main_v94, main_c_49, main_v95, main_v96, main_v97, main_v98, main_v99]

set_option maxRecDepth 8192 in
theorem stage6_writes : (stage6 : List (HloOp τ sig (Elt F))).Forall fun op =>
    op.writes ⊆ (stage6_W.map (Proc.devRef (τ := τ) .tc)).toFinset := by
  simp only [stage6, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep6 (W : Valuation τ sig (Elt F)) (r : Ref sig .tc) (h : r ∉ stage6_W) :
    after stage6 W (Proc.devRef .tc r) = W (Proc.devRef .tc r) :=
  after_of_writes_sub stage6 W stage6_writes h

set_option maxRecDepth 8192 in
set_option maxHeartbeats 2000000 in
theorem stage6_main_v99 (W : Valuation τ sig (Elt F)) :
    after stage6 W (Proc.devRef .tc main_v99) = scatterQ (W (Proc.devRef .tc main_v83)) (idxCol (W (Proc.devRef .tc main_c_19)) (W (Proc.devRef .tc main_c_6)) 31#32) (minimumf (gatherQ (W (Proc.devRef .tc main_v83)) (idxCol (W (Proc.devRef .tc main_c_17)) (W (Proc.devRef .tc main_c_6)) 31#32)) (gatherQ (W (Proc.devRef .tc main_v83)) (idxCol (W (Proc.devRef .tc main_c_18)) (W (Proc.devRef .tc main_c)) 31#32))) := by
  simp only [stage6]
  after_results_simp
  rfl

end Cert.ReferenceIdeal.RefValue

end
-- ==== Proof.RefS7.lean ====
/-
  Stage 7: one write of fifteen columns, read after the stage from any contents as a function of the buffers the stage reads.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage7_W : List (Ref sig .tc) := [main_c_50, main_v100, main_v101, main_v102, main_v103, main_v104, main_c_51, main_v105, main_v106, main_v107, main_v108, main_v109, main_v110, main_c_52, main_v111, main_v112, main_v113, main_v114, main_v115]

set_option maxRecDepth 8192 in
theorem stage7_writes : (stage7 : List (HloOp τ sig (Elt F))).Forall fun op =>
    op.writes ⊆ (stage7_W.map (Proc.devRef (τ := τ) .tc)).toFinset := by
  simp only [stage7, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep7 (W : Valuation τ sig (Elt F)) (r : Ref sig .tc) (h : r ∉ stage7_W) :
    after stage7 W (Proc.devRef .tc r) = W (Proc.devRef .tc r) :=
  after_of_writes_sub stage7 W stage7_writes h

set_option maxRecDepth 8192 in
set_option maxHeartbeats 2000000 in
theorem stage7_main_v115 (W : Valuation τ sig (Elt F)) :
    after stage7 W (Proc.devRef .tc main_v115) = scatterQ (W (Proc.devRef .tc main_v99)) (idxCol (W (Proc.devRef .tc main_c_22)) (W (Proc.devRef .tc main_c_2)) 31#32) (minimumf (gatherQ (W (Proc.devRef .tc main_v99)) (idxCol (W (Proc.devRef .tc main_c_20)) (W (Proc.devRef .tc main_c_2)) 31#32)) (gatherQ (W (Proc.devRef .tc main_v99)) (idxCol (W (Proc.devRef .tc main_c_21)) (W (Proc.devRef .tc main_c)) 31#32))) := by
  simp only [stage7]
  after_results_simp
  rfl

end Cert.ReferenceIdeal.RefValue

end
-- ==== Proof.RefS8.lean ====
/-
  Stage 8: one write of fifteen columns, read after the stage from any contents as a function of the buffers the stage reads.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage8_W : List (Ref sig .tc) := [main_c_53, main_v116, main_v117, main_v118, main_v119, main_v120, main_c_54, main_v121, main_v122, main_v123, main_v124, main_v125, main_v126, main_c_55, main_v127, main_v128, main_v129, main_v130, main_v131]

set_option maxRecDepth 8192 in
theorem stage8_writes : (stage8 : List (HloOp τ sig (Elt F))).Forall fun op =>
    op.writes ⊆ (stage8_W.map (Proc.devRef (τ := τ) .tc)).toFinset := by
  simp only [stage8, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep8 (W : Valuation τ sig (Elt F)) (r : Ref sig .tc) (h : r ∉ stage8_W) :
    after stage8 W (Proc.devRef .tc r) = W (Proc.devRef .tc r) :=
  after_of_writes_sub stage8 W stage8_writes h

set_option maxRecDepth 8192 in
set_option maxHeartbeats 2000000 in
theorem stage8_main_v131 (W : Valuation τ sig (Elt F)) :
    after stage8 W (Proc.devRef .tc main_v131) = scatterQ (W (Proc.devRef .tc main_v115)) (idxCol (W (Proc.devRef .tc main_c_25)) (W (Proc.devRef .tc main_c_6)) 31#32) (minimumf (gatherQ (W (Proc.devRef .tc main_v115)) (idxCol (W (Proc.devRef .tc main_c_23)) (W (Proc.devRef .tc main_c_6)) 31#32)) (gatherQ (W (Proc.devRef .tc main_v115)) (idxCol (W (Proc.devRef .tc main_c_24)) (W (Proc.devRef .tc main_c)) 31#32))) := by
  simp only [stage8]
  after_results_simp
  rfl

end Cert.ReferenceIdeal.RefValue

end
-- ==== Proof.RefS9.lean ====
/-
  Stage 9: one write of fifteen columns, read after the stage from any contents as a function of the buffers the stage reads.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage9_W : List (Ref sig .tc) := [main_c_56, main_v132, main_v133, main_v134, main_v135, main_v136, main_c_57, main_v137, main_v138, main_v139, main_v140, main_v141, main_v142, main_c_58, main_v143, main_v144, main_v145, main_v146, main_v147]

set_option maxRecDepth 8192 in
theorem stage9_writes : (stage9 : List (HloOp τ sig (Elt F))).Forall fun op =>
    op.writes ⊆ (stage9_W.map (Proc.devRef (τ := τ) .tc)).toFinset := by
  simp only [stage9, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep9 (W : Valuation τ sig (Elt F)) (r : Ref sig .tc) (h : r ∉ stage9_W) :
    after stage9 W (Proc.devRef .tc r) = W (Proc.devRef .tc r) :=
  after_of_writes_sub stage9 W stage9_writes h

set_option maxRecDepth 8192 in
set_option maxHeartbeats 2000000 in
theorem stage9_main_v147 (W : Valuation τ sig (Elt F)) :
    after stage9 W (Proc.devRef .tc main_v147) = scatterQ (W (Proc.devRef .tc main_v131)) (idxCol (W (Proc.devRef .tc main_c_28)) (W (Proc.devRef .tc main_c_2)) 31#32) (minimumf (gatherQ (W (Proc.devRef .tc main_v131)) (idxCol (W (Proc.devRef .tc main_c_26)) (W (Proc.devRef .tc main_c_2)) 31#32)) (gatherQ (W (Proc.devRef .tc main_v131)) (idxCol (W (Proc.devRef .tc main_c_27)) (W (Proc.devRef .tc main_c)) 31#32))) := by
  simp only [stage9]
  after_results_simp
  rfl

end Cert.ReferenceIdeal.RefValue

end
-- ==== Proof.RefS10.lean ====
/-
  Stage 10: one write of fifteen columns, read after the stage from any contents as a function of the buffers the stage reads.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage10_W : List (Ref sig .tc) := [main_c_59, main_v148, main_v149, main_v150, main_v151, main_v152, main_c_60, main_v153, main_v154, main_v155, main_v156, main_v157, main_v158, main_c_61, main_v159, main_v160, main_v161, main_v162, main_v163]

set_option maxRecDepth 8192 in
theorem stage10_writes : (stage10 : List (HloOp τ sig (Elt F))).Forall fun op =>
    op.writes ⊆ (stage10_W.map (Proc.devRef (τ := τ) .tc)).toFinset := by
  simp only [stage10, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep10 (W : Valuation τ sig (Elt F)) (r : Ref sig .tc) (h : r ∉ stage10_W) :
    after stage10 W (Proc.devRef .tc r) = W (Proc.devRef .tc r) :=
  after_of_writes_sub stage10 W stage10_writes h

set_option maxRecDepth 8192 in
set_option maxHeartbeats 2000000 in
theorem stage10_main_v163 (W : Valuation τ sig (Elt F)) :
    after stage10 W (Proc.devRef .tc main_v163) = scatterQ (W (Proc.devRef .tc main_v147)) (idxCol (W (Proc.devRef .tc main_c_31)) (W (Proc.devRef .tc main_c_6)) 31#32) (minimumf (gatherQ (W (Proc.devRef .tc main_v147)) (idxCol (W (Proc.devRef .tc main_c_29)) (W (Proc.devRef .tc main_c_6)) 31#32)) (gatherQ (W (Proc.devRef .tc main_v147)) (idxCol (W (Proc.devRef .tc main_c_30)) (W (Proc.devRef .tc main_c)) 31#32))) := by
  simp only [stage10]
  after_results_simp
  rfl

end Cert.ReferenceIdeal.RefValue

end
-- ==== Proof.RefS11.lean ====
/-
  The last stage: the clip, read after the stage from any contents.
-/
import proofs.«209939_g34969623724736_cont_8to1_b_5_19_alg».proof.Proof.RefOps
import proofs.«209939_g34969623724736_cont_8to1_b_5_19_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev stage11_W : List (Ref sig .tc) := [main_cst_62, main_cst_63, main_call0_v0, main_call0_v1, main_call0_v2, main_call0_v3, main_call0_v4, main_v164]

set_option maxRecDepth 8192 in
theorem stage11_writes : (stage11 : List (HloOp τ sig (Elt F))).Forall fun op =>
    op.writes ⊆ (stage11_W.map (Proc.devRef (τ := τ) .tc)).toFinset := by
  simp only [stage11, List.Forall]
  exact ⟨(by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide)),
      (by simp only [nullary_writes, unary_writes, binary_writes, ternary_writes, Finset.singleton_subset_iff, List.mem_toFinset]; exact List.mem_map_of_mem (by decide))⟩

/-- A buffer the stage does not write keeps its contents through it. -/
theorem keep11 (W : Valuation τ sig (Elt F)) (r : Ref sig .tc) (h : r ∉ stage11_W) :
    after stage11 W (Proc.devRef .tc r) = W (Proc.devRef .tc r) :=
  after_of_writes_sub stage11 W stage11_writes h

set_option maxRecDepth 8192 in
set_option maxHeartbeats 2000000 in
theorem stage11_main_v164 (W : Valuation τ sig (Elt F)) :
    after stage11 W (Proc.devRef .tc main_v164) = clip (W (Proc.devRef .tc main_v163)) := by
  simp only [stage11]
  after_results_simp
  rfl

end Cert.ReferenceIdeal.RefValue

end
-- ==== Proof.RefCompose.lean ====
/-
  The stages one after the other: the buffers a later stage reads are carried through the stages between (none of
  which writes them), so the result buffer after the whole line is the result term of the two arguments, which
  no stage writes.
-/
import proofs.«209939_g34969623724736_cont_8to1_b_5_19_alg».proof.Proof.RefMain
import proofs.«209939_g34969623724736_cont_8to1_b_5_19_alg».proof.Proof.RefS0
import proofs.«209939_g34969623724736_cont_8to1_b_5_19_alg».proof.Proof.RefS1
import proofs.«209939_g34969623724736_cont_8to1_b_5_19_alg».proof.Proof.RefS2
import proofs.«209939_g34969623724736_cont_8to1_b_5_19_alg».proof.Proof.RefS3
import proofs.«209939_g34969623724736_cont_8to1_b_5_19_alg».proof.Proof.RefS4
import proofs.«209939_g34969623724736_cont_8to1_b_5_19_alg».proof.Proof.RefS5
import proofs.«209939_g34969623724736_cont_8to1_b_5_19_alg».proof.Proof.RefS6
import proofs.«209939_g34969623724736_cont_8to1_b_5_19_alg».proof.Proof.RefS7
import proofs.«209939_g34969623724736_cont_8to1_b_5_19_alg».proof.Proof.RefS8
import proofs.«209939_g34969623724736_cont_8to1_b_5_19_alg».proof.Proof.RefS9
import proofs.«209939_g34969623724736_cont_8to1_b_5_19_alg».proof.Proof.RefS10
import proofs.«209939_g34969623724736_cont_8to1_b_5_19_alg».proof.Proof.RefS11

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers' contents after the first `k` stages. -/
def val1 (V : Valuation τ sig (Elt F)) : Valuation τ sig (Elt F) := after stage0 V
def val2 (V : Valuation τ sig (Elt F)) : Valuation τ sig (Elt F) := after stage1 (val1 V)
def val3 (V : Valuation τ sig (Elt F)) : Valuation τ sig (Elt F) := after stage2 (val2 V)
def val4 (V : Valuation τ sig (Elt F)) : Valuation τ sig (Elt F) := after stage3 (val3 V)
def val5 (V : Valuation τ sig (Elt F)) : Valuation τ sig (Elt F) := after stage4 (val4 V)
def val6 (V : Valuation τ sig (Elt F)) : Valuation τ sig (Elt F) := after stage5 (val5 V)
def val7 (V : Valuation τ sig (Elt F)) : Valuation τ sig (Elt F) := after stage6 (val6 V)
def val8 (V : Valuation τ sig (Elt F)) : Valuation τ sig (Elt F) := after stage7 (val7 V)
def val9 (V : Valuation τ sig (Elt F)) : Valuation τ sig (Elt F) := after stage8 (val8 V)
def val10 (V : Valuation τ sig (Elt F)) : Valuation τ sig (Elt F) := after stage9 (val9 V)
def val11 (V : Valuation τ sig (Elt F)) : Valuation τ sig (Elt F) := after stage10 (val10 V)
def val12 (V : Valuation τ sig (Elt F)) : Valuation τ sig (Elt F) := after stage11 (val11 V)

theorem after_line (V : Valuation τ sig (Elt F)) : after line V = val12 V := by
  rw [line_eq_stages]
  simp only [after_append]
  rfl

theorem val1_main_c (V : Valuation τ sig (Elt F)) :
    val1 V (Proc.devRef .tc main_c) = tab0 :=
  stage0_main_c V
theorem val2_main_c (V : Valuation τ sig (Elt F)) :
    val2 V (Proc.devRef .tc main_c) = tab0 :=
  (keep1 (val1 V) main_c (by decide)).trans (val1_main_c V)
theorem val3_main_c (V : Valuation τ sig (Elt F)) :
    val3 V (Proc.devRef .tc main_c) = tab0 :=
  (keep2 (val2 V) main_c (by decide)).trans (val2_main_c V)
theorem val4_main_c (V : Valuation τ sig (Elt F)) :
    val4 V (Proc.devRef .tc main_c) = tab0 :=
  (keep3 (val3 V) main_c (by decide)).trans (val3_main_c V)
theorem val5_main_c (V : Valuation τ sig (Elt F)) :
    val5 V (Proc.devRef .tc main_c) = tab0 :=
  (keep4 (val4 V) main_c (by decide)).trans (val4_main_c V)
theorem val6_main_c (V : Valuation τ sig (Elt F)) :
    val6 V (Proc.devRef .tc main_c) = tab0 :=
  (keep5 (val5 V) main_c (by decide)).trans (val5_main_c V)
theorem val7_main_c (V : Valuation τ sig (Elt F)) :
    val7 V (Proc.devRef .tc main_c) = tab0 :=
  (keep6 (val6 V) main_c (by decide)).trans (val6_main_c V)
theorem val8_main_c (V : Valuation τ sig (Elt F)) :
    val8 V (Proc.devRef .tc main_c) = tab0 :=
  (keep7 (val7 V) main_c (by decide)).trans (val7_main_c V)
theorem val9_main_c (V : Valuation τ sig (Elt F)) :
    val9 V (Proc.devRef .tc main_c) = tab0 :=
  (keep8 (val8 V) main_c (by decide)).trans (val8_main_c V)
theorem val10_main_c (V : Valuation τ sig (Elt F)) :
    val10 V (Proc.devRef .tc main_c) = tab0 :=
  (keep9 (val9 V) main_c (by decide)).trans (val9_main_c V)

theorem val1_main_c_0 (V : Valuation τ sig (Elt F)) :
    val1 V (Proc.devRef .tc main_c_0) = noWrap :=
  stage0_main_c_0 V

theorem val1_main_c_1 (V : Valuation τ sig (Elt F)) :
    val1 V (Proc.devRef .tc main_c_1) = noWrap :=
  stage0_main_c_1 V

theorem val1_main_c_2 (V : Valuation τ sig (Elt F)) :
    val1 V (Proc.devRef .tc main_c_2) = tab1 :=
  stage0_main_c_2 V
theorem val2_main_c_2 (V : Valuation τ sig (Elt F)) :
    val2 V (Proc.devRef .tc main_c_2) = tab1 :=
  (keep1 (val1 V) main_c_2 (by decide)).trans (val1_main_c_2 V)
theorem val3_main_c_2 (V : Valuation τ sig (Elt F)) :
    val3 V (Proc.devRef .tc main_c_2) = tab1 :=
  (keep2 (val2 V) main_c_2 (by decide)).trans (val2_main_c_2 V)
theorem val4_main_c_2 (V : Valuation τ sig (Elt F)) :
    val4 V (Proc.devRef .tc main_c_2) = tab1 :=
  (keep3 (val3 V) main_c_2 (by decide)).trans (val3_main_c_2 V)
theorem val5_main_c_2 (V : Valuation τ sig (Elt F)) :
    val5 V (Proc.devRef .tc main_c_2) = tab1 :=
  (keep4 (val4 V) main_c_2 (by decide)).trans (val4_main_c_2 V)
theorem val6_main_c_2 (V : Valuation τ sig (Elt F)) :
    val6 V (Proc.devRef .tc main_c_2) = tab1 :=
  (keep5 (val5 V) main_c_2 (by decide)).trans (val5_main_c_2 V)
theorem val7_main_c_2 (V : Valuation τ sig (Elt F)) :
    val7 V (Proc.devRef .tc main_c_2) = tab1 :=
  (keep6 (val6 V) main_c_2 (by decide)).trans (val6_main_c_2 V)
theorem val8_main_c_2 (V : Valuation τ sig (Elt F)) :
    val8 V (Proc.devRef .tc main_c_2) = tab1 :=
  (keep7 (val7 V) main_c_2 (by decide)).trans (val7_main_c_2 V)
theorem val9_main_c_2 (V : Valuation τ sig (Elt F)) :
    val9 V (Proc.devRef .tc main_c_2) = tab1 :=
  (keep8 (val8 V) main_c_2 (by decide)).trans (val8_main_c_2 V)

theorem val1_main_c_3 (V : Valuation τ sig (Elt F)) :
    val1 V (Proc.devRef .tc main_c_3) = noWrap :=
  stage0_main_c_3 V

theorem val1_main_c_4 (V : Valuation τ sig (Elt F)) :
    val1 V (Proc.devRef .tc main_c_4) = noWrap :=
  stage0_main_c_4 V
theorem val2_main_c_4 (V : Valuation τ sig (Elt F)) :
    val2 V (Proc.devRef .tc main_c_4) = noWrap :=
  (keep1 (val1 V) main_c_4 (by decide)).trans (val1_main_c_4 V)

theorem val1_main_c_5 (V : Valuation τ sig (Elt F)) :
    val1 V (Proc.devRef .tc main_c_5) = noWrap :=
  stage0_main_c_5 V
theorem val2_main_c_5 (V : Valuation τ sig (Elt F)) :
    val2 V (Proc.devRef .tc main_c_5) = noWrap :=
  (keep1 (val1 V) main_c_5 (by decide)).trans (val1_main_c_5 V)

theorem val1_main_c_6 (V : Valuation τ sig (Elt F)) :
    val1 V (Proc.devRef .tc main_c_6) = tab2 :=
  stage0_main_c_6 V
theorem val2_main_c_6 (V : Valuation τ sig (Elt F)) :
    val2 V (Proc.devRef .tc main_c_6) = tab2 :=
  (keep1 (val1 V) main_c_6 (by decide)).trans (val1_main_c_6 V)
theorem val3_main_c_6 (V : Valuation τ sig (Elt F)) :
    val3 V (Proc.devRef .tc main_c_6) = tab2 :=
  (keep2 (val2 V) main_c_6 (by decide)).trans (val2_main_c_6 V)
theorem val4_main_c_6 (V : Valuation τ sig (Elt F)) :
    val4 V (Proc.devRef .tc main_c_6) = tab2 :=
  (keep3 (val3 V) main_c_6 (by decide)).trans (val3_main_c_6 V)
theorem val5_main_c_6 (V : Valuation τ sig (Elt F)) :
    val5 V (Proc.devRef .tc main_c_6) = tab2 :=
  (keep4 (val4 V) main_c_6 (by decide)).trans (val4_main_c_6 V)
theorem val6_main_c_6 (V : Valuation τ sig (Elt F)) :
    val6 V (Proc.devRef .tc main_c_6) = tab2 :=
  (keep5 (val5 V) main_c_6 (by decide)).trans (val5_main_c_6 V)
theorem val7_main_c_6 (V : Valuation τ sig (Elt F)) :
    val7 V (Proc.devRef .tc main_c_6) = tab2 :=
  (keep6 (val6 V) main_c_6 (by decide)).trans (val6_main_c_6 V)
theorem val8_main_c_6 (V : Valuation τ sig (Elt F)) :
    val8 V (Proc.devRef .tc main_c_6) = tab2 :=
  (keep7 (val7 V) main_c_6 (by decide)).trans (val7_main_c_6 V)
theorem val9_main_c_6 (V : Valuation τ sig (Elt F)) :
    val9 V (Proc.devRef .tc main_c_6) = tab2 :=
  (keep8 (val8 V) main_c_6 (by decide)).trans (val8_main_c_6 V)
theorem val10_main_c_6 (V : Valuation τ sig (Elt F)) :
    val10 V (Proc.devRef .tc main_c_6) = tab2 :=
  (keep9 (val9 V) main_c_6 (by decide)).trans (val9_main_c_6 V)

theorem val1_main_c_7 (V : Valuation τ sig (Elt F)) :
    val1 V (Proc.devRef .tc main_c_7) = noWrap :=
  stage0_main_c_7 V
theorem val2_main_c_7 (V : Valuation τ sig (Elt F)) :
    val2 V (Proc.devRef .tc main_c_7) = noWrap :=
  (keep1 (val1 V) main_c_7 (by decide)).trans (val1_main_c_7 V)

theorem val1_main_c_8 (V : Valuation τ sig (Elt F)) :
    val1 V (Proc.devRef .tc main_c_8) = noWrap :=
  stage0_main_c_8 V
theorem val2_main_c_8 (V : Valuation τ sig (Elt F)) :
    val2 V (Proc.devRef .tc main_c_8) = noWrap :=
  (keep1 (val1 V) main_c_8 (by decide)).trans (val1_main_c_8 V)
theorem val3_main_c_8 (V : Valuation τ sig (Elt F)) :
    val3 V (Proc.devRef .tc main_c_8) = noWrap :=
  (keep2 (val2 V) main_c_8 (by decide)).trans (val2_main_c_8 V)

theorem val1_main_c_9 (V : Valuation τ sig (Elt F)) :
    val1 V (Proc.devRef .tc main_c_9) = noWrap :=
  stage0_main_c_9 V
theorem val2_main_c_9 (V : Valuation τ sig (Elt F)) :
    val2 V (Proc.devRef .tc main_c_9) = noWrap :=
  (keep1 (val1 V) main_c_9 (by decide)).trans (val1_main_c_9 V)
theorem val3_main_c_9 (V : Valuation τ sig (Elt F)) :
    val3 V (Proc.devRef .tc main_c_9) = noWrap :=
  (keep2 (val2 V) main_c_9 (by decide)).trans (val2_main_c_9 V)

theorem val1_main_c_10 (V : Valuation τ sig (Elt F)) :
    val1 V (Proc.devRef .tc main_c_10) = noWrap :=
  stage0_main_c_10 V
theorem val2_main_c_10 (V : Valuation τ sig (Elt F)) :
    val2 V (Proc.devRef .tc main_c_10) = noWrap :=
  (keep1 (val1 V) main_c_10 (by decide)).trans (val1_main_c_10 V)
theorem val3_main_c_10 (V : Valuation τ sig (Elt F)) :
    val3 V (Proc.devRef .tc main_c_10) = noWrap :=
  (keep2 (val2 V) main_c_10 (by decide)).trans (val2_main_c_10 V)

theorem val1_main_c_11 (V : Valuation τ sig (Elt F)) :
    val1 V (Proc.devRef .tc main_c_11) = noWrap :=
  stage0_main_c_11 V
theorem val2_main_c_11 (V : Valuation τ sig (Elt F)) :
    val2 V (Proc.devRef .tc main_c_11) = noWrap :=
  (keep1 (val1 V) main_c_11 (by decide)).trans (val1_main_c_11 V)
theorem val3_main_c_11 (V : Valuation τ sig (Elt F)) :
    val3 V (Proc.devRef .tc main_c_11) = noWrap :=
  (keep2 (val2 V) main_c_11 (by decide)).trans (val2_main_c_11 V)
theorem val4_main_c_11 (V : Valuation τ sig (Elt F)) :
    val4 V (Proc.devRef .tc main_c_11) = noWrap :=
  (keep3 (val3 V) main_c_11 (by decide)).trans (val3_main_c_11 V)

theorem val1_main_c_12 (V : Valuation τ sig (Elt F)) :
    val1 V (Proc.devRef .tc main_c_12) = noWrap :=
  stage0_main_c_12 V
theorem val2_main_c_12 (V : Valuation τ sig (Elt F)) :
    val2 V (Proc.devRef .tc main_c_12) = noWrap :=
  (keep1 (val1 V) main_c_12 (by decide)).trans (val1_main_c_12 V)
theorem val3_main_c_12 (V : Valuation τ sig (Elt F)) :
    val3 V (Proc.devRef .tc main_c_12) = noWrap :=
  (keep2 (val2 V) main_c_12 (by decide)).trans (val2_main_c_12 V)
theorem val4_main_c_12 (V : Valuation τ sig (Elt F)) :
    val4 V (Proc.devRef .tc main_c_12) = noWrap :=
  (keep3 (val3 V) main_c_12 (by decide)).trans (val3_main_c_12 V)

theorem val1_main_c_13 (V : Valuation τ sig (Elt F)) :
    val1 V (Proc.devRef .tc main_c_13) = noWrap :=
  stage0_main_c_13 V
theorem val2_main_c_13 (V : Valuation τ sig (Elt F)) :
    val2 V (Proc.devRef .tc main_c_13) = noWrap :=
  (keep1 (val1 V) main_c_13 (by decide)).trans (val1_main_c_13 V)
theorem val3_main_c_13 (V : Valuation τ sig (Elt F)) :
    val3 V (Proc.devRef .tc main_c_13) = noWrap :=
  (keep2 (val2 V) main_c_13 (by decide)).trans (val2_main_c_13 V)
theorem val4_main_c_13 (V : Valuation τ sig (Elt F)) :
    val4 V (Proc.devRef .tc main_c_13) = noWrap :=
  (keep3 (val3 V) main_c_13 (by decide)).trans (val3_main_c_13 V)

theorem val1_main_c_14 (V : Valuation τ sig (Elt F)) :
    val1 V (Proc.devRef .tc main_c_14) = noWrap :=
  stage0_main_c_14 V
theorem val2_main_c_14 (V : Valuation τ sig (Elt F)) :
    val2 V (Proc.devRef .tc main_c_14) = noWrap :=
  (keep1 (val1 V) main_c_14 (by decide)).trans (val1_main_c_14 V)
theorem val3_main_c_14 (V : Valuation τ sig (Elt F)) :
    val3 V (Proc.devRef .tc main_c_14) = noWrap :=
  (keep2 (val2 V) main_c_14 (by decide)).trans (val2_main_c_14 V)
theorem val4_main_c_14 (V : Valuation τ sig (Elt F)) :
    val4 V (Proc.devRef .tc main_c_14) = noWrap :=
  (keep3 (val3 V) main_c_14 (by decide)).trans (val3_main_c_14 V)
theorem val5_main_c_14 (V : Valuation τ sig (Elt F)) :
    val5 V (Proc.devRef .tc main_c_14) = noWrap :=
  (keep4 (val4 V) main_c_14 (by decide)).trans (val4_main_c_14 V)

theorem val1_main_c_15 (V : Valuation τ sig (Elt F)) :
    val1 V (Proc.devRef .tc main_c_15) = noWrap :=
  stage0_main_c_15 V
theorem val2_main_c_15 (V : Valuation τ sig (Elt F)) :
    val2 V (Proc.devRef .tc main_c_15) = noWrap :=
  (keep1 (val1 V) main_c_15 (by decide)).trans (val1_main_c_15 V)
theorem val3_main_c_15 (V : Valuation τ sig (Elt F)) :
    val3 V (Proc.devRef .tc main_c_15) = noWrap :=
  (keep2 (val2 V) main_c_15 (by decide)).trans (val2_main_c_15 V)
theorem val4_main_c_15 (V : Valuation τ sig (Elt F)) :
    val4 V (Proc.devRef .tc main_c_15) = noWrap :=
  (keep3 (val3 V) main_c_15 (by decide)).trans (val3_main_c_15 V)
theorem val5_main_c_15 (V : Valuation τ sig (Elt F)) :
    val5 V (Proc.devRef .tc main_c_15) = noWrap :=
  (keep4 (val4 V) main_c_15 (by decide)).trans (val4_main_c_15 V)

theorem val1_main_c_16 (V : Valuation τ sig (Elt F)) :
    val1 V (Proc.devRef .tc main_c_16) = noWrap :=
  stage0_main_c_16 V
theorem val2_main_c_16 (V : Valuation τ sig (Elt F)) :
    val2 V (Proc.devRef .tc main_c_16) = noWrap :=
  (keep1 (val1 V) main_c_16 (by decide)).trans (val1_main_c_16 V)
theorem val3_main_c_16 (V : Valuation τ sig (Elt F)) :
    val3 V (Proc.devRef .tc main_c_16) = noWrap :=
  (keep2 (val2 V) main_c_16 (by decide)).trans (val2_main_c_16 V)
theorem val4_main_c_16 (V : Valuation τ sig (Elt F)) :
    val4 V (Proc.devRef .tc main_c_16) = noWrap :=
  (keep3 (val3 V) main_c_16 (by decide)).trans (val3_main_c_16 V)
theorem val5_main_c_16 (V : Valuation τ sig (Elt F)) :
    val5 V (Proc.devRef .tc main_c_16) = noWrap :=
  (keep4 (val4 V) main_c_16 (by decide)).trans (val4_main_c_16 V)

theorem val1_main_c_17 (V : Valuation τ sig (Elt F)) :
    val1 V (Proc.devRef .tc main_c_17) = noWrap :=
  stage0_main_c_17 V
theorem val2_main_c_17 (V : Valuation τ sig (Elt F)) :
    val2 V (Proc.devRef .tc main_c_17) = noWrap :=
  (keep1 (val1 V) main_c_17 (by decide)).trans (val1_main_c_17 V)
theorem val3_main_c_17 (V : Valuation τ sig (Elt F)) :
    val3 V (Proc.devRef .tc main_c_17) = noWrap :=
  (keep2 (val2 V) main_c_17 (by decide)).trans (val2_main_c_17 V)
theorem val4_main_c_17 (V : Valuation τ sig (Elt F)) :
    val4 V (Proc.devRef .tc main_c_17) = noWrap :=
  (keep3 (val3 V) main_c_17 (by decide)).trans (val3_main_c_17 V)
theorem val5_main_c_17 (V : Valuation τ sig (Elt F)) :
    val5 V (Proc.devRef .tc main_c_17) = noWrap :=
  (keep4 (val4 V) main_c_17 (by decide)).trans (val4_main_c_17 V)
theorem val6_main_c_17 (V : Valuation τ sig (Elt F)) :
    val6 V (Proc.devRef .tc main_c_17) = noWrap :=
  (keep5 (val5 V) main_c_17 (by decide)).trans (val5_main_c_17 V)

theorem val1_main_c_18 (V : Valuation τ sig (Elt F)) :
    val1 V (Proc.devRef .tc main_c_18) = noWrap :=
  stage0_main_c_18 V
theorem val2_main_c_18 (V : Valuation τ sig (Elt F)) :
    val2 V (Proc.devRef .tc main_c_18) = noWrap :=
  (keep1 (val1 V) main_c_18 (by decide)).trans (val1_main_c_18 V)
theorem val3_main_c_18 (V : Valuation τ sig (Elt F)) :
    val3 V (Proc.devRef .tc main_c_18) = noWrap :=
  (keep2 (val2 V) main_c_18 (by decide)).trans (val2_main_c_18 V)
theorem val4_main_c_18 (V : Valuation τ sig (Elt F)) :
    val4 V (Proc.devRef .tc main_c_18) = noWrap :=
  (keep3 (val3 V) main_c_18 (by decide)).trans (val3_main_c_18 V)
theorem val5_main_c_18 (V : Valuation τ sig (Elt F)) :
    val5 V (Proc.devRef .tc main_c_18) = noWrap :=
  (keep4 (val4 V) main_c_18 (by decide)).trans (val4_main_c_18 V)
theorem val6_main_c_18 (V : Valuation τ sig (Elt F)) :
    val6 V (Proc.devRef .tc main_c_18) = noWrap :=
  (keep5 (val5 V) main_c_18 (by decide)).trans (val5_main_c_18 V)

theorem val1_main_c_19 (V : Valuation τ sig (Elt F)) :
    val1 V (Proc.devRef .tc main_c_19) = noWrap :=
  stage0_main_c_19 V
theorem val2_main_c_19 (V : Valuation τ sig (Elt F)) :
    val2 V (Proc.devRef .tc main_c_19) = noWrap :=
  (keep1 (val1 V) main_c_19 (by decide)).trans (val1_main_c_19 V)
theorem val3_main_c_19 (V : Valuation τ sig (Elt F)) :
    val3 V (Proc.devRef .tc main_c_19) = noWrap :=
  (keep2 (val2 V) main_c_19 (by decide)).trans (val2_main_c_19 V)
theorem val4_main_c_19 (V : Valuation τ sig (Elt F)) :
    val4 V (Proc.devRef .tc main_c_19) = noWrap :=
  (keep3 (val3 V) main_c_19 (by decide)).trans (val3_main_c_19 V)
theorem val5_main_c_19 (V : Valuation τ sig (Elt F)) :
    val5 V (Proc.devRef .tc main_c_19) = noWrap :=
  (keep4 (val4 V) main_c_19 (by decide)).trans (val4_main_c_19 V)
theorem val6_main_c_19 (V : Valuation τ sig (Elt F)) :
    val6 V (Proc.devRef .tc main_c_19) = noWrap :=
  (keep5 (val5 V) main_c_19 (by decide)).trans (val5_main_c_19 V)

theorem val1_main_c_20 (V : Valuation τ sig (Elt F)) :
    val1 V (Proc.devRef .tc main_c_20) = noWrap :=
  stage0_main_c_20 V
theorem val2_main_c_20 (V : Valuation τ sig (Elt F)) :
    val2 V (Proc.devRef .tc main_c_20) = noWrap :=
  (keep1 (val1 V) main_c_20 (by decide)).trans (val1_main_c_20 V)
theorem val3_main_c_20 (V : Valuation τ sig (Elt F)) :
    val3 V (Proc.devRef .tc main_c_20) = noWrap :=
  (keep2 (val2 V) main_c_20 (by decide)).trans (val2_main_c_20 V)
theorem val4_main_c_20 (V : Valuation τ sig (Elt F)) :
    val4 V (Proc.devRef .tc main_c_20) = noWrap :=
  (keep3 (val3 V) main_c_20 (by decide)).trans (val3_main_c_20 V)
theorem val5_main_c_20 (V : Valuation τ sig (Elt F)) :
    val5 V (Proc.devRef .tc main_c_20) = noWrap :=
  (keep4 (val4 V) main_c_20 (by decide)).trans (val4_main_c_20 V)
theorem val6_main_c_20 (V : Valuation τ sig (Elt F)) :
    val6 V (Proc.devRef .tc main_c_20) = noWrap :=
  (keep5 (val5 V) main_c_20 (by decide)).trans (val5_main_c_20 V)
theorem val7_main_c_20 (V : Valuation τ sig (Elt F)) :
    val7 V (Proc.devRef .tc main_c_20) = noWrap :=
  (keep6 (val6 V) main_c_20 (by decide)).trans (val6_main_c_20 V)

theorem val1_main_c_21 (V : Valuation τ sig (Elt F)) :
    val1 V (Proc.devRef .tc main_c_21) = noWrap :=
  stage0_main_c_21 V
theorem val2_main_c_21 (V : Valuation τ sig (Elt F)) :
    val2 V (Proc.devRef .tc main_c_21) = noWrap :=
  (keep1 (val1 V) main_c_21 (by decide)).trans (val1_main_c_21 V)
theorem val3_main_c_21 (V : Valuation τ sig (Elt F)) :
    val3 V (Proc.devRef .tc main_c_21) = noWrap :=
  (keep2 (val2 V) main_c_21 (by decide)).trans (val2_main_c_21 V)
theorem val4_main_c_21 (V : Valuation τ sig (Elt F)) :
    val4 V (Proc.devRef .tc main_c_21) = noWrap :=
  (keep3 (val3 V) main_c_21 (by decide)).trans (val3_main_c_21 V)
theorem val5_main_c_21 (V : Valuation τ sig (Elt F)) :
    val5 V (Proc.devRef .tc main_c_21) = noWrap :=
  (keep4 (val4 V) main_c_21 (by decide)).trans (val4_main_c_21 V)
theorem val6_main_c_21 (V : Valuation τ sig (Elt F)) :
    val6 V (Proc.devRef .tc main_c_21) = noWrap :=
  (keep5 (val5 V) main_c_21 (by decide)).trans (val5_main_c_21 V)
theorem val7_main_c_21 (V : Valuation τ sig (Elt F)) :
    val7 V (Proc.devRef .tc main_c_21) = noWrap :=
  (keep6 (val6 V) main_c_21 (by decide)).trans (val6_main_c_21 V)

theorem val1_main_c_22 (V : Valuation τ sig (Elt F)) :
    val1 V (Proc.devRef .tc main_c_22) = noWrap :=
  stage0_main_c_22 V
theorem val2_main_c_22 (V : Valuation τ sig (Elt F)) :
    val2 V (Proc.devRef .tc main_c_22) = noWrap :=
  (keep1 (val1 V) main_c_22 (by decide)).trans (val1_main_c_22 V)
theorem val3_main_c_22 (V : Valuation τ sig (Elt F)) :
    val3 V (Proc.devRef .tc main_c_22) = noWrap :=
  (keep2 (val2 V) main_c_22 (by decide)).trans (val2_main_c_22 V)
theorem val4_main_c_22 (V : Valuation τ sig (Elt F)) :
    val4 V (Proc.devRef .tc main_c_22) = noWrap :=
  (keep3 (val3 V) main_c_22 (by decide)).trans (val3_main_c_22 V)
theorem val5_main_c_22 (V : Valuation τ sig (Elt F)) :
    val5 V (Proc.devRef .tc main_c_22) = noWrap :=
  (keep4 (val4 V) main_c_22 (by decide)).trans (val4_main_c_22 V)
theorem val6_main_c_22 (V : Valuation τ sig (Elt F)) :
    val6 V (Proc.devRef .tc main_c_22) = noWrap :=
  (keep5 (val5 V) main_c_22 (by decide)).trans (val5_main_c_22 V)
theorem val7_main_c_22 (V : Valuation τ sig (Elt F)) :
    val7 V (Proc.devRef .tc main_c_22) = noWrap :=
  (keep6 (val6 V) main_c_22 (by decide)).trans (val6_main_c_22 V)

theorem val1_main_c_23 (V : Valuation τ sig (Elt F)) :
    val1 V (Proc.devRef .tc main_c_23) = noWrap :=
  stage0_main_c_23 V
theorem val2_main_c_23 (V : Valuation τ sig (Elt F)) :
    val2 V (Proc.devRef .tc main_c_23) = noWrap :=
  (keep1 (val1 V) main_c_23 (by decide)).trans (val1_main_c_23 V)
theorem val3_main_c_23 (V : Valuation τ sig (Elt F)) :
    val3 V (Proc.devRef .tc main_c_23) = noWrap :=
  (keep2 (val2 V) main_c_23 (by decide)).trans (val2_main_c_23 V)
theorem val4_main_c_23 (V : Valuation τ sig (Elt F)) :
    val4 V (Proc.devRef .tc main_c_23) = noWrap :=
  (keep3 (val3 V) main_c_23 (by decide)).trans (val3_main_c_23 V)
theorem val5_main_c_23 (V : Valuation τ sig (Elt F)) :
    val5 V (Proc.devRef .tc main_c_23) = noWrap :=
  (keep4 (val4 V) main_c_23 (by decide)).trans (val4_main_c_23 V)
theorem val6_main_c_23 (V : Valuation τ sig (Elt F)) :
    val6 V (Proc.devRef .tc main_c_23) = noWrap :=
  (keep5 (val5 V) main_c_23 (by decide)).trans (val5_main_c_23 V)
theorem val7_main_c_23 (V : Valuation τ sig (Elt F)) :
    val7 V (Proc.devRef .tc main_c_23) = noWrap :=
  (keep6 (val6 V) main_c_23 (by decide)).trans (val6_main_c_23 V)
theorem val8_main_c_23 (V : Valuation τ sig (Elt F)) :
    val8 V (Proc.devRef .tc main_c_23) = noWrap :=
  (keep7 (val7 V) main_c_23 (by decide)).trans (val7_main_c_23 V)

theorem val1_main_c_24 (V : Valuation τ sig (Elt F)) :
    val1 V (Proc.devRef .tc main_c_24) = noWrap :=
  stage0_main_c_24 V
theorem val2_main_c_24 (V : Valuation τ sig (Elt F)) :
    val2 V (Proc.devRef .tc main_c_24) = noWrap :=
  (keep1 (val1 V) main_c_24 (by decide)).trans (val1_main_c_24 V)
theorem val3_main_c_24 (V : Valuation τ sig (Elt F)) :
    val3 V (Proc.devRef .tc main_c_24) = noWrap :=
  (keep2 (val2 V) main_c_24 (by decide)).trans (val2_main_c_24 V)
theorem val4_main_c_24 (V : Valuation τ sig (Elt F)) :
    val4 V (Proc.devRef .tc main_c_24) = noWrap :=
  (keep3 (val3 V) main_c_24 (by decide)).trans (val3_main_c_24 V)
theorem val5_main_c_24 (V : Valuation τ sig (Elt F)) :
    val5 V (Proc.devRef .tc main_c_24) = noWrap :=
  (keep4 (val4 V) main_c_24 (by decide)).trans (val4_main_c_24 V)
theorem val6_main_c_24 (V : Valuation τ sig (Elt F)) :
    val6 V (Proc.devRef .tc main_c_24) = noWrap :=
  (keep5 (val5 V) main_c_24 (by decide)).trans (val5_main_c_24 V)
theorem val7_main_c_24 (V : Valuation τ sig (Elt F)) :
    val7 V (Proc.devRef .tc main_c_24) = noWrap :=
  (keep6 (val6 V) main_c_24 (by decide)).trans (val6_main_c_24 V)
theorem val8_main_c_24 (V : Valuation τ sig (Elt F)) :
    val8 V (Proc.devRef .tc main_c_24) = noWrap :=
  (keep7 (val7 V) main_c_24 (by decide)).trans (val7_main_c_24 V)

theorem val1_main_c_25 (V : Valuation τ sig (Elt F)) :
    val1 V (Proc.devRef .tc main_c_25) = noWrap :=
  stage0_main_c_25 V
theorem val2_main_c_25 (V : Valuation τ sig (Elt F)) :
    val2 V (Proc.devRef .tc main_c_25) = noWrap :=
  (keep1 (val1 V) main_c_25 (by decide)).trans (val1_main_c_25 V)
theorem val3_main_c_25 (V : Valuation τ sig (Elt F)) :
    val3 V (Proc.devRef .tc main_c_25) = noWrap :=
  (keep2 (val2 V) main_c_25 (by decide)).trans (val2_main_c_25 V)
theorem val4_main_c_25 (V : Valuation τ sig (Elt F)) :
    val4 V (Proc.devRef .tc main_c_25) = noWrap :=
  (keep3 (val3 V) main_c_25 (by decide)).trans (val3_main_c_25 V)
theorem val5_main_c_25 (V : Valuation τ sig (Elt F)) :
    val5 V (Proc.devRef .tc main_c_25) = noWrap :=
  (keep4 (val4 V) main_c_25 (by decide)).trans (val4_main_c_25 V)
theorem val6_main_c_25 (V : Valuation τ sig (Elt F)) :
    val6 V (Proc.devRef .tc main_c_25) = noWrap :=
  (keep5 (val5 V) main_c_25 (by decide)).trans (val5_main_c_25 V)
theorem val7_main_c_25 (V : Valuation τ sig (Elt F)) :
    val7 V (Proc.devRef .tc main_c_25) = noWrap :=
  (keep6 (val6 V) main_c_25 (by decide)).trans (val6_main_c_25 V)
theorem val8_main_c_25 (V : Valuation τ sig (Elt F)) :
    val8 V (Proc.devRef .tc main_c_25) = noWrap :=
  (keep7 (val7 V) main_c_25 (by decide)).trans (val7_main_c_25 V)

theorem val1_main_c_26 (V : Valuation τ sig (Elt F)) :
    val1 V (Proc.devRef .tc main_c_26) = noWrap :=
  stage0_main_c_26 V
theorem val2_main_c_26 (V : Valuation τ sig (Elt F)) :
    val2 V (Proc.devRef .tc main_c_26) = noWrap :=
  (keep1 (val1 V) main_c_26 (by decide)).trans (val1_main_c_26 V)
theorem val3_main_c_26 (V : Valuation τ sig (Elt F)) :
    val3 V (Proc.devRef .tc main_c_26) = noWrap :=
  (keep2 (val2 V) main_c_26 (by decide)).trans (val2_main_c_26 V)
theorem val4_main_c_26 (V : Valuation τ sig (Elt F)) :
    val4 V (Proc.devRef .tc main_c_26) = noWrap :=
  (keep3 (val3 V) main_c_26 (by decide)).trans (val3_main_c_26 V)
theorem val5_main_c_26 (V : Valuation τ sig (Elt F)) :
    val5 V (Proc.devRef .tc main_c_26) = noWrap :=
  (keep4 (val4 V) main_c_26 (by decide)).trans (val4_main_c_26 V)
theorem val6_main_c_26 (V : Valuation τ sig (Elt F)) :
    val6 V (Proc.devRef .tc main_c_26) = noWrap :=
  (keep5 (val5 V) main_c_26 (by decide)).trans (val5_main_c_26 V)
theorem val7_main_c_26 (V : Valuation τ sig (Elt F)) :
    val7 V (Proc.devRef .tc main_c_26) = noWrap :=
  (keep6 (val6 V) main_c_26 (by decide)).trans (val6_main_c_26 V)
theorem val8_main_c_26 (V : Valuation τ sig (Elt F)) :
    val8 V (Proc.devRef .tc main_c_26) = noWrap :=
  (keep7 (val7 V) main_c_26 (by decide)).trans (val7_main_c_26 V)
theorem val9_main_c_26 (V : Valuation τ sig (Elt F)) :
    val9 V (Proc.devRef .tc main_c_26) = noWrap :=
  (keep8 (val8 V) main_c_26 (by decide)).trans (val8_main_c_26 V)

theorem val1_main_c_27 (V : Valuation τ sig (Elt F)) :
    val1 V (Proc.devRef .tc main_c_27) = noWrap :=
  stage0_main_c_27 V
theorem val2_main_c_27 (V : Valuation τ sig (Elt F)) :
    val2 V (Proc.devRef .tc main_c_27) = noWrap :=
  (keep1 (val1 V) main_c_27 (by decide)).trans (val1_main_c_27 V)
theorem val3_main_c_27 (V : Valuation τ sig (Elt F)) :
    val3 V (Proc.devRef .tc main_c_27) = noWrap :=
  (keep2 (val2 V) main_c_27 (by decide)).trans (val2_main_c_27 V)
theorem val4_main_c_27 (V : Valuation τ sig (Elt F)) :
    val4 V (Proc.devRef .tc main_c_27) = noWrap :=
  (keep3 (val3 V) main_c_27 (by decide)).trans (val3_main_c_27 V)
theorem val5_main_c_27 (V : Valuation τ sig (Elt F)) :
    val5 V (Proc.devRef .tc main_c_27) = noWrap :=
  (keep4 (val4 V) main_c_27 (by decide)).trans (val4_main_c_27 V)
theorem val6_main_c_27 (V : Valuation τ sig (Elt F)) :
    val6 V (Proc.devRef .tc main_c_27) = noWrap :=
  (keep5 (val5 V) main_c_27 (by decide)).trans (val5_main_c_27 V)
theorem val7_main_c_27 (V : Valuation τ sig (Elt F)) :
    val7 V (Proc.devRef .tc main_c_27) = noWrap :=
  (keep6 (val6 V) main_c_27 (by decide)).trans (val6_main_c_27 V)
theorem val8_main_c_27 (V : Valuation τ sig (Elt F)) :
    val8 V (Proc.devRef .tc main_c_27) = noWrap :=
  (keep7 (val7 V) main_c_27 (by decide)).trans (val7_main_c_27 V)
theorem val9_main_c_27 (V : Valuation τ sig (Elt F)) :
    val9 V (Proc.devRef .tc main_c_27) = noWrap :=
  (keep8 (val8 V) main_c_27 (by decide)).trans (val8_main_c_27 V)

theorem val1_main_c_28 (V : Valuation τ sig (Elt F)) :
    val1 V (Proc.devRef .tc main_c_28) = noWrap :=
  stage0_main_c_28 V
theorem val2_main_c_28 (V : Valuation τ sig (Elt F)) :
    val2 V (Proc.devRef .tc main_c_28) = noWrap :=
  (keep1 (val1 V) main_c_28 (by decide)).trans (val1_main_c_28 V)
theorem val3_main_c_28 (V : Valuation τ sig (Elt F)) :
    val3 V (Proc.devRef .tc main_c_28) = noWrap :=
  (keep2 (val2 V) main_c_28 (by decide)).trans (val2_main_c_28 V)
theorem val4_main_c_28 (V : Valuation τ sig (Elt F)) :
    val4 V (Proc.devRef .tc main_c_28) = noWrap :=
  (keep3 (val3 V) main_c_28 (by decide)).trans (val3_main_c_28 V)
theorem val5_main_c_28 (V : Valuation τ sig (Elt F)) :
    val5 V (Proc.devRef .tc main_c_28) = noWrap :=
  (keep4 (val4 V) main_c_28 (by decide)).trans (val4_main_c_28 V)
theorem val6_main_c_28 (V : Valuation τ sig (Elt F)) :
    val6 V (Proc.devRef .tc main_c_28) = noWrap :=
  (keep5 (val5 V) main_c_28 (by decide)).trans (val5_main_c_28 V)
theorem val7_main_c_28 (V : Valuation τ sig (Elt F)) :
    val7 V (Proc.devRef .tc main_c_28) = noWrap :=
  (keep6 (val6 V) main_c_28 (by decide)).trans (val6_main_c_28 V)
theorem val8_main_c_28 (V : Valuation τ sig (Elt F)) :
    val8 V (Proc.devRef .tc main_c_28) = noWrap :=
  (keep7 (val7 V) main_c_28 (by decide)).trans (val7_main_c_28 V)
theorem val9_main_c_28 (V : Valuation τ sig (Elt F)) :
    val9 V (Proc.devRef .tc main_c_28) = noWrap :=
  (keep8 (val8 V) main_c_28 (by decide)).trans (val8_main_c_28 V)

theorem val1_main_c_29 (V : Valuation τ sig (Elt F)) :
    val1 V (Proc.devRef .tc main_c_29) = noWrap :=
  stage0_main_c_29 V
theorem val2_main_c_29 (V : Valuation τ sig (Elt F)) :
    val2 V (Proc.devRef .tc main_c_29) = noWrap :=
  (keep1 (val1 V) main_c_29 (by decide)).trans (val1_main_c_29 V)
theorem val3_main_c_29 (V : Valuation τ sig (Elt F)) :
    val3 V (Proc.devRef .tc main_c_29) = noWrap :=
  (keep2 (val2 V) main_c_29 (by decide)).trans (val2_main_c_29 V)
theorem val4_main_c_29 (V : Valuation τ sig (Elt F)) :
    val4 V (Proc.devRef .tc main_c_29) = noWrap :=
  (keep3 (val3 V) main_c_29 (by decide)).trans (val3_main_c_29 V)
theorem val5_main_c_29 (V : Valuation τ sig (Elt F)) :
    val5 V (Proc.devRef .tc main_c_29) = noWrap :=
  (keep4 (val4 V) main_c_29 (by decide)).trans (val4_main_c_29 V)
theorem val6_main_c_29 (V : Valuation τ sig (Elt F)) :
    val6 V (Proc.devRef .tc main_c_29) = noWrap :=
  (keep5 (val5 V) main_c_29 (by decide)).trans (val5_main_c_29 V)
theorem val7_main_c_29 (V : Valuation τ sig (Elt F)) :
    val7 V (Proc.devRef .tc main_c_29) = noWrap :=
  (keep6 (val6 V) main_c_29 (by decide)).trans (val6_main_c_29 V)
theorem val8_main_c_29 (V : Valuation τ sig (Elt F)) :
    val8 V (Proc.devRef .tc main_c_29) = noWrap :=
  (keep7 (val7 V) main_c_29 (by decide)).trans (val7_main_c_29 V)
theorem val9_main_c_29 (V : Valuation τ sig (Elt F)) :
    val9 V (Proc.devRef .tc main_c_29) = noWrap :=
  (keep8 (val8 V) main_c_29 (by decide)).trans (val8_main_c_29 V)
theorem val10_main_c_29 (V : Valuation τ sig (Elt F)) :
    val10 V (Proc.devRef .tc main_c_29) = noWrap :=
  (keep9 (val9 V) main_c_29 (by decide)).trans (val9_main_c_29 V)

theorem val1_main_c_30 (V : Valuation τ sig (Elt F)) :
    val1 V (Proc.devRef .tc main_c_30) = noWrap :=
  stage0_main_c_30 V
theorem val2_main_c_30 (V : Valuation τ sig (Elt F)) :
    val2 V (Proc.devRef .tc main_c_30) = noWrap :=
  (keep1 (val1 V) main_c_30 (by decide)).trans (val1_main_c_30 V)
theorem val3_main_c_30 (V : Valuation τ sig (Elt F)) :
    val3 V (Proc.devRef .tc main_c_30) = noWrap :=
  (keep2 (val2 V) main_c_30 (by decide)).trans (val2_main_c_30 V)
theorem val4_main_c_30 (V : Valuation τ sig (Elt F)) :
    val4 V (Proc.devRef .tc main_c_30) = noWrap :=
  (keep3 (val3 V) main_c_30 (by decide)).trans (val3_main_c_30 V)
theorem val5_main_c_30 (V : Valuation τ sig (Elt F)) :
    val5 V (Proc.devRef .tc main_c_30) = noWrap :=
  (keep4 (val4 V) main_c_30 (by decide)).trans (val4_main_c_30 V)
theorem val6_main_c_30 (V : Valuation τ sig (Elt F)) :
    val6 V (Proc.devRef .tc main_c_30) = noWrap :=
  (keep5 (val5 V) main_c_30 (by decide)).trans (val5_main_c_30 V)
theorem val7_main_c_30 (V : Valuation τ sig (Elt F)) :
    val7 V (Proc.devRef .tc main_c_30) = noWrap :=
  (keep6 (val6 V) main_c_30 (by decide)).trans (val6_main_c_30 V)
theorem val8_main_c_30 (V : Valuation τ sig (Elt F)) :
    val8 V (Proc.devRef .tc main_c_30) = noWrap :=
  (keep7 (val7 V) main_c_30 (by decide)).trans (val7_main_c_30 V)
theorem val9_main_c_30 (V : Valuation τ sig (Elt F)) :
    val9 V (Proc.devRef .tc main_c_30) = noWrap :=
  (keep8 (val8 V) main_c_30 (by decide)).trans (val8_main_c_30 V)
theorem val10_main_c_30 (V : Valuation τ sig (Elt F)) :
    val10 V (Proc.devRef .tc main_c_30) = noWrap :=
  (keep9 (val9 V) main_c_30 (by decide)).trans (val9_main_c_30 V)

theorem val1_main_c_31 (V : Valuation τ sig (Elt F)) :
    val1 V (Proc.devRef .tc main_c_31) = noWrap :=
  stage0_main_c_31 V
theorem val2_main_c_31 (V : Valuation τ sig (Elt F)) :
    val2 V (Proc.devRef .tc main_c_31) = noWrap :=
  (keep1 (val1 V) main_c_31 (by decide)).trans (val1_main_c_31 V)
theorem val3_main_c_31 (V : Valuation τ sig (Elt F)) :
    val3 V (Proc.devRef .tc main_c_31) = noWrap :=
  (keep2 (val2 V) main_c_31 (by decide)).trans (val2_main_c_31 V)
theorem val4_main_c_31 (V : Valuation τ sig (Elt F)) :
    val4 V (Proc.devRef .tc main_c_31) = noWrap :=
  (keep3 (val3 V) main_c_31 (by decide)).trans (val3_main_c_31 V)
theorem val5_main_c_31 (V : Valuation τ sig (Elt F)) :
    val5 V (Proc.devRef .tc main_c_31) = noWrap :=
  (keep4 (val4 V) main_c_31 (by decide)).trans (val4_main_c_31 V)
theorem val6_main_c_31 (V : Valuation τ sig (Elt F)) :
    val6 V (Proc.devRef .tc main_c_31) = noWrap :=
  (keep5 (val5 V) main_c_31 (by decide)).trans (val5_main_c_31 V)
theorem val7_main_c_31 (V : Valuation τ sig (Elt F)) :
    val7 V (Proc.devRef .tc main_c_31) = noWrap :=
  (keep6 (val6 V) main_c_31 (by decide)).trans (val6_main_c_31 V)
theorem val8_main_c_31 (V : Valuation τ sig (Elt F)) :
    val8 V (Proc.devRef .tc main_c_31) = noWrap :=
  (keep7 (val7 V) main_c_31 (by decide)).trans (val7_main_c_31 V)
theorem val9_main_c_31 (V : Valuation τ sig (Elt F)) :
    val9 V (Proc.devRef .tc main_c_31) = noWrap :=
  (keep8 (val8 V) main_c_31 (by decide)).trans (val8_main_c_31 V)
theorem val10_main_c_31 (V : Valuation τ sig (Elt F)) :
    val10 V (Proc.devRef .tc main_c_31) = noWrap :=
  (keep9 (val9 V) main_c_31 (by decide)).trans (val9_main_c_31 V)

theorem val1_main_v1 (V : Valuation τ sig (Elt F)) :
    val1 V (Proc.devRef .tc main_v1) = xa (V (Proc.devRef .tc main_arg0)) (V (Proc.devRef .tc main_arg1)) :=
  stage0_main_v1 V
theorem val2_main_v1 (V : Valuation τ sig (Elt F)) :
    val2 V (Proc.devRef .tc main_v1) = xa (V (Proc.devRef .tc main_arg0)) (V (Proc.devRef .tc main_arg1)) :=
  (keep1 (val1 V) main_v1 (by decide)).trans (val1_main_v1 V)

theorem val1_main_v2 (V : Valuation τ sig (Elt F)) :
    val1 V (Proc.devRef .tc main_v2) = ones :=
  stage0_main_v2 V

theorem val1_main_arg0 (V : Valuation τ sig (Elt F)) :
    val1 V (Proc.devRef .tc main_arg0) = V (Proc.devRef .tc main_arg0) :=
  keep0 V main_arg0 (by decide)
theorem val2_main_arg0 (V : Valuation τ sig (Elt F)) :
    val2 V (Proc.devRef .tc main_arg0) = V (Proc.devRef .tc main_arg0) :=
  (keep1 (val1 V) main_arg0 (by decide)).trans (val1_main_arg0 V)
theorem val3_main_arg0 (V : Valuation τ sig (Elt F)) :
    val3 V (Proc.devRef .tc main_arg0) = V (Proc.devRef .tc main_arg0) :=
  (keep2 (val2 V) main_arg0 (by decide)).trans (val2_main_arg0 V)
theorem val4_main_arg0 (V : Valuation τ sig (Elt F)) :
    val4 V (Proc.devRef .tc main_arg0) = V (Proc.devRef .tc main_arg0) :=
  (keep3 (val3 V) main_arg0 (by decide)).trans (val3_main_arg0 V)
theorem val5_main_arg0 (V : Valuation τ sig (Elt F)) :
    val5 V (Proc.devRef .tc main_arg0) = V (Proc.devRef .tc main_arg0) :=
  (keep4 (val4 V) main_arg0 (by decide)).trans (val4_main_arg0 V)
theorem val6_main_arg0 (V : Valuation τ sig (Elt F)) :
    val6 V (Proc.devRef .tc main_arg0) = V (Proc.devRef .tc main_arg0) :=
  (keep5 (val5 V) main_arg0 (by decide)).trans (val5_main_arg0 V)
theorem val7_main_arg0 (V : Valuation τ sig (Elt F)) :
    val7 V (Proc.devRef .tc main_arg0) = V (Proc.devRef .tc main_arg0) :=
  (keep6 (val6 V) main_arg0 (by decide)).trans (val6_main_arg0 V)
theorem val8_main_arg0 (V : Valuation τ sig (Elt F)) :
    val8 V (Proc.devRef .tc main_arg0) = V (Proc.devRef .tc main_arg0) :=
  (keep7 (val7 V) main_arg0 (by decide)).trans (val7_main_arg0 V)
theorem val9_main_arg0 (V : Valuation τ sig (Elt F)) :
    val9 V (Proc.devRef .tc main_arg0) = V (Proc.devRef .tc main_arg0) :=
  (keep8 (val8 V) main_arg0 (by decide)).trans (val8_main_arg0 V)
theorem val10_main_arg0 (V : Valuation τ sig (Elt F)) :
    val10 V (Proc.devRef .tc main_arg0) = V (Proc.devRef .tc main_arg0) :=
  (keep9 (val9 V) main_arg0 (by decide)).trans (val9_main_arg0 V)
theorem val11_main_arg0 (V : Valuation τ sig (Elt F)) :
    val11 V (Proc.devRef .tc main_arg0) = V (Proc.devRef .tc main_arg0) :=
  (keep10 (val10 V) main_arg0 (by decide)).trans (val10_main_arg0 V)
theorem val12_main_arg0 (V : Valuation τ sig (Elt F)) :
    val12 V (Proc.devRef .tc main_arg0) = V (Proc.devRef .tc main_arg0) :=
  (keep11 (val11 V) main_arg0 (by decide)).trans (val11_main_arg0 V)

theorem val1_main_arg1 (V : Valuation τ sig (Elt F)) :
    val1 V (Proc.devRef .tc main_arg1) = V (Proc.devRef .tc main_arg1) :=
  keep0 V main_arg1 (by decide)
theorem val2_main_arg1 (V : Valuation τ sig (Elt F)) :
    val2 V (Proc.devRef .tc main_arg1) = V (Proc.devRef .tc main_arg1) :=
  (keep1 (val1 V) main_arg1 (by decide)).trans (val1_main_arg1 V)
theorem val3_main_arg1 (V : Valuation τ sig (Elt F)) :
    val3 V (Proc.devRef .tc main_arg1) = V (Proc.devRef .tc main_arg1) :=
  (keep2 (val2 V) main_arg1 (by decide)).trans (val2_main_arg1 V)
theorem val4_main_arg1 (V : Valuation τ sig (Elt F)) :
    val4 V (Proc.devRef .tc main_arg1) = V (Proc.devRef .tc main_arg1) :=
  (keep3 (val3 V) main_arg1 (by decide)).trans (val3_main_arg1 V)
theorem val5_main_arg1 (V : Valuation τ sig (Elt F)) :
    val5 V (Proc.devRef .tc main_arg1) = V (Proc.devRef .tc main_arg1) :=
  (keep4 (val4 V) main_arg1 (by decide)).trans (val4_main_arg1 V)
theorem val6_main_arg1 (V : Valuation τ sig (Elt F)) :
    val6 V (Proc.devRef .tc main_arg1) = V (Proc.devRef .tc main_arg1) :=
  (keep5 (val5 V) main_arg1 (by decide)).trans (val5_main_arg1 V)
theorem val7_main_arg1 (V : Valuation τ sig (Elt F)) :
    val7 V (Proc.devRef .tc main_arg1) = V (Proc.devRef .tc main_arg1) :=
  (keep6 (val6 V) main_arg1 (by decide)).trans (val6_main_arg1 V)
theorem val8_main_arg1 (V : Valuation τ sig (Elt F)) :
    val8 V (Proc.devRef .tc main_arg1) = V (Proc.devRef .tc main_arg1) :=
  (keep7 (val7 V) main_arg1 (by decide)).trans (val7_main_arg1 V)
theorem val9_main_arg1 (V : Valuation τ sig (Elt F)) :
    val9 V (Proc.devRef .tc main_arg1) = V (Proc.devRef .tc main_arg1) :=
  (keep8 (val8 V) main_arg1 (by decide)).trans (val8_main_arg1 V)
theorem val10_main_arg1 (V : Valuation τ sig (Elt F)) :
    val10 V (Proc.devRef .tc main_arg1) = V (Proc.devRef .tc main_arg1) :=
  (keep9 (val9 V) main_arg1 (by decide)).trans (val9_main_arg1 V)
theorem val11_main_arg1 (V : Valuation τ sig (Elt F)) :
    val11 V (Proc.devRef .tc main_arg1) = V (Proc.devRef .tc main_arg1) :=
  (keep10 (val10 V) main_arg1 (by decide)).trans (val10_main_arg1 V)
theorem val12_main_arg1 (V : Valuation τ sig (Elt F)) :
    val12 V (Proc.devRef .tc main_arg1) = V (Proc.devRef .tc main_arg1) :=
  (keep11 (val11 V) main_arg1 (by decide)).trans (val11_main_arg1 V)

theorem val2_main_v18 (V : Valuation τ sig (Elt F)) :
    val2 V (Proc.devRef .tc main_v18) = firstL (xa (V (Proc.devRef .tc main_arg0)) (V (Proc.devRef .tc main_arg1))) ones := by
  show after stage1 (val1 V) _ = _
  rw [stage1_main_v18, val1_main_c, val1_main_c_0, val1_main_v2, val1_main_c_1, val1_main_v1, val1_main_c_2, val1_main_c_3]
  rfl

theorem val3_main_v35 (V : Valuation τ sig (Elt F)) :
    val3 V (Proc.devRef .tc main_v35) = firstR (xa (V (Proc.devRef .tc main_arg0)) (V (Proc.devRef .tc main_arg1))) (firstL (xa (V (Proc.devRef .tc main_arg0)) (V (Proc.devRef .tc main_arg1))) ones) := by
  show after stage2 (val2 V) _ = _
  rw [stage2_main_v35, val2_main_c, val2_main_c_4, val2_main_v18, val2_main_c_5, val2_main_v1, val2_main_c_6, val2_main_c_7]
  rfl

theorem val4_main_v51 (V : Valuation τ sig (Elt F)) :
    val4 V (Proc.devRef .tc main_v51) = roundL (firstR (xa (V (Proc.devRef .tc main_arg0)) (V (Proc.devRef .tc main_arg1))) (firstL (xa (V (Proc.devRef .tc main_arg0)) (V (Proc.devRef .tc main_arg1))) ones)) := by
  show after stage3 (val3 V) _ = _
  rw [stage3_main_v51, val3_main_c_2, val3_main_c_8, val3_main_v35, val3_main_c, val3_main_c_9, val3_main_c_10]
  rfl

theorem val5_main_v67 (V : Valuation τ sig (Elt F)) :
    val5 V (Proc.devRef .tc main_v67) = roundR (roundL (firstR (xa (V (Proc.devRef .tc main_arg0)) (V (Proc.devRef .tc main_arg1))) (firstL (xa (V (Proc.devRef .tc main_arg0)) (V (Proc.devRef .tc main_arg1))) ones))) := by
  show after stage4 (val4 V) _ = _
  rw [stage4_main_v67, val4_main_c_6, val4_main_c_11, val4_main_v51, val4_main_c, val4_main_c_12, val4_main_c_13]
  rfl

theorem val6_main_v83 (V : Valuation τ sig (Elt F)) :
    val6 V (Proc.devRef .tc main_v83) = roundL (roundR (roundL (firstR (xa (V (Proc.devRef .tc main_arg0)) (V (Proc.devRef .tc main_arg1))) (firstL (xa (V (Proc.devRef .tc main_arg0)) (V (Proc.devRef .tc main_arg1))) ones)))) := by
  show after stage5 (val5 V) _ = _
  rw [stage5_main_v83, val5_main_c_2, val5_main_c_14, val5_main_v67, val5_main_c, val5_main_c_15, val5_main_c_16]
  rfl

theorem val7_main_v99 (V : Valuation τ sig (Elt F)) :
    val7 V (Proc.devRef .tc main_v99) = roundR (roundL (roundR (roundL (firstR (xa (V (Proc.devRef .tc main_arg0)) (V (Proc.devRef .tc main_arg1))) (firstL (xa (V (Proc.devRef .tc main_arg0)) (V (Proc.devRef .tc main_arg1))) ones))))) := by
  show after stage6 (val6 V) _ = _
  rw [stage6_main_v99, val6_main_c_6, val6_main_c_17, val6_main_v83, val6_main_c, val6_main_c_18, val6_main_c_19]
  rfl

theorem val8_main_v115 (V : Valuation τ sig (Elt F)) :
    val8 V (Proc.devRef .tc main_v115) = roundL (roundR (roundL (roundR (roundL (firstR (xa (V (Proc.devRef .tc main_arg0)) (V (Proc.devRef .tc main_arg1))) (firstL (xa (V (Proc.devRef .tc main_arg0)) (V (Proc.devRef .tc main_arg1))) ones)))))) := by
  show after stage7 (val7 V) _ = _
  rw [stage7_main_v115, val7_main_c_2, val7_main_c_20, val7_main_v99, val7_main_c, val7_main_c_21, val7_main_c_22]
  rfl

theorem val9_main_v131 (V : Valuation τ sig (Elt F)) :
    val9 V (Proc.devRef .tc main_v131) = roundR (roundL (roundR (roundL (roundR (roundL (firstR (xa (V (Proc.devRef .tc main_arg0)) (V (Proc.devRef .tc main_arg1))) (firstL (xa (V (Proc.devRef .tc main_arg0)) (V (Proc.devRef .tc main_arg1))) ones))))))) := by
  show after stage8 (val8 V) _ = _
  rw [stage8_main_v131, val8_main_c_6, val8_main_c_23, val8_main_v115, val8_main_c, val8_main_c_24, val8_main_c_25]
  rfl

theorem val10_main_v147 (V : Valuation τ sig (Elt F)) :
    val10 V (Proc.devRef .tc main_v147) = roundL (roundR (roundL (roundR (roundL (roundR (roundL (firstR (xa (V (Proc.devRef .tc main_arg0)) (V (Proc.devRef .tc main_arg1))) (firstL (xa (V (Proc.devRef .tc main_arg0)) (V (Proc.devRef .tc main_arg1))) ones)))))))) := by
  show after stage9 (val9 V) _ = _
  rw [stage9_main_v147, val9_main_c_2, val9_main_c_26, val9_main_v131, val9_main_c, val9_main_c_27, val9_main_c_28]
  rfl

theorem val11_main_v163 (V : Valuation τ sig (Elt F)) :
    val11 V (Proc.devRef .tc main_v163) = roundR (roundL (roundR (roundL (roundR (roundL (roundR (roundL (firstR (xa (V (Proc.devRef .tc main_arg0)) (V (Proc.devRef .tc main_arg1))) (firstL (xa (V (Proc.devRef .tc main_arg0)) (V (Proc.devRef .tc main_arg1))) ones))))))))) := by
  show after stage10 (val10 V) _ = _
  rw [stage10_main_v163, val10_main_c_6, val10_main_c_29, val10_main_v147, val10_main_c, val10_main_c_30, val10_main_c_31]
  rfl

theorem val12_main_v164 (V : Valuation τ sig (Elt F)) :
    val12 V (Proc.devRef .tc main_v164) = refTerm (V (Proc.devRef .tc main_arg0)) (V (Proc.devRef .tc main_arg1)) := by
  show after stage11 (val11 V) _ = _
  rw [stage11_main_v164, val11_main_v163]
  rfl

/-- After the whole line the result buffer holds the result term of the two arguments' contents … -/
theorem line_result (V : Valuation τ sig (Elt F)) :
    after line V (Proc.devRef .tc main_v164) = refTerm (V (Proc.devRef .tc main_arg0)) (V (Proc.devRef .tc main_arg1)) := by
  rw [after_line]; exact val12_main_v164 V

/-- … and the two arguments are unchanged. -/
theorem line_arg0 (V : Valuation τ sig (Elt F)) : after line V (Proc.devRef .tc main_arg0) = V (Proc.devRef .tc main_arg0) := by
  rw [after_line]; exact val12_main_arg0 V
theorem line_arg1 (V : Valuation τ sig (Elt F)) : after line V (Proc.devRef .tc main_arg1) = V (Proc.devRef .tc main_arg1) := by
  rw [after_line]; exact val12_main_arg1 V

end Cert.ReferenceIdeal.RefValue

end
-- ==== Proof.RefRead.lean ====
/-
  A gather of fifteen columns of an array with 100000 rows through a column of fifteen start indices, and
  the write of fifteen columns back (a scatter that sets), read at an index.

  The gather's result at row `r`, column `i` is the operand at row `r` and the column the `i`-th start index
  names, read signed and clamped into the operand's columns.  The scatter walks the updates in row-major
  order; each lands at its row and at the column its start index names.  When the fifteen start indices
  are in range and pairwise distinct, an element of the result is the one update that lands on it, or the
  operand's element when none does.
-/
import Idealize.ShloMosaic.PureOps.Ideal
import Idealize.ShloMosaic.Lib.ValueIdx

noncomputable section

namespace Cert.RefRead

open Idealize.ShloMosaic Idealize.ShloMosaic.ValueIdx

/-! ## A left fold of guarded point updates, read at a point -/

section Fold
variable {ι α β : Type}

/-- A step function whose element `n` lands at `g n` (or nowhere) and combines there with `v n` by `f`. -/
structure IsStep (S : (ι → α) → β → ι → α) (g : β → Option ι) (v : β → α) (f : α → α → α) : Prop where
  none : ∀ r n, g n = none → S r n = r
  some_eq : ∀ r n i, g n = some i → S r n i = f (r i) (v n)
  some_ne : ∀ r n i k, g n = some i → k ≠ i → S r n k = r k

variable {S : (ι → α) → β → ι → α} {g : β → Option ι} {v : β → α} {f : α → α → α}

theorem IsStep.ne (hS : IsStep S g v f) {r : ι → α} {n : β} {k : ι} (h : g n ≠ some k) : S r n k = r k := by
  cases hg : g n with
  | none => rw [hS.none r n hg]
  | some i => exact hS.some_ne r n i k hg (fun e => h (by rw [hg, e]))

/-- A point no element lands on keeps its value. -/
theorem foldl_miss (hS : IsStep S g v f) (k : ι) :
    ∀ (L : List β) (x : ι → α), (∀ n ∈ L, g n ≠ some k) → L.foldl S x k = x k := by
  intro L
  induction L with
  | nil => intro x _; rfl
  | cons a L ih =>
    intro x h
    rw [List.foldl_cons, ih _ (fun n hn => h n (List.mem_cons_of_mem _ hn)), hS.ne (h a List.mem_cons_self)]

/-- A point exactly one element lands on is combined with that element's value. -/
theorem foldl_hit (hS : IsStep S g v f) (k : ι) (n0 : β) (hg : g n0 = some k) :
    ∀ (L : List β) (x : ι → α), L.Nodup → n0 ∈ L → (∀ n ∈ L, g n = some k → n = n0) →
      L.foldl S x k = f (x k) (v n0) := by
  intro L
  induction L with
  | nil => intro x _ hmem _; exact absurd hmem List.not_mem_nil
  | cons a L ih =>
    intro x hnd hmem huniq
    rw [List.foldl_cons]
    by_cases ha : a = n0
    · subst ha
      have hnot : a ∉ L := (List.nodup_cons.1 hnd).1
      rw [foldl_miss hS k L _ (fun n hn e => hnot (huniq n (List.mem_cons_of_mem _ hn) e ▸ hn)), hS.some_eq x a k hg]
    · have hmem' : n0 ∈ L := (List.mem_cons.1 hmem).resolve_left (Ne.symm ha)
      rw [ih _ (List.nodup_cons.1 hnd).2 hmem' (fun n hn => huniq n (List.mem_cons_of_mem _ hn)),
        hS.ne (fun e => ha (huniq a List.mem_cons_self e))]

/-- The step that lands element `n` at `g n` and combines it there by `f`. -/
def step [DecidableEq ι] (g : β → Option ι) (v : β → α) (f : α → α → α) (r : ι → α) (n : β) : ι → α :=
  match g n with
  | some i => fun k => if k = i then f (r i) (v n) else r k
  | none => r

theorem step_isStep [DecidableEq ι] (g : β → Option ι) (v : β → α) (f : α → α → α) : IsStep (step g v f) g v f where
  none := by intro r n h; simp only [step, h]
  some_eq := by intro r n i h; simp only [step, h, if_true]
  some_ne := by intro r n i k h hk; simp only [step, h]; exact if_neg hk

end Fold

/-! ## The shapes -/

/-- The operand with `W` columns, the column of fifteen start indices, the fifteen gathered columns. -/
abbrev SW (W : Nat) : Shape := ⟨2, ![100000, W]⟩
abbrev SI : Shape := ⟨2, ![15, 1]⟩
abbrev SU : Shape := ⟨2, ![100000, 15]⟩

/-! ## The gather -/

section Gather
variable {α : Type}

/-- The gather's dimension numbers: the rows are the offset axis, the column axis is collapsed and is the one the start
    index names; each slice is one whole column. -/
abbrev colDims (W : Nat) (wf : GatherDims.WF (SW W) SI SU [0] [1] [] [1] [] 1 ![100000, 1]) : GatherDims (SW W) SI SU where
  offsetDims := [0]
  collapsedSliceDims := [1]
  operandBatchingDims := []
  startIndicesBatchingDims := []
  startIndexMap := [1]
  indexVectorDim := 1
  sliceSizes := ![100000, 1]
  wf := wf

theorem gather_cols_apply {W w : Nat} (hW : 0 < W) (wf : GatherDims.WF (SW W) SI SU [0] [1] [] [1] [] 1 ![100000, 1])
    (x : (SW W).Idx → α) (idx : IVec SI w) (r : Fin 100000) (i : Fin 15) :
    Host.gather (colDims W wf) x idx (ix2 r i)
      = x (ix2 r (⟨min (idx (ix2 i (0 : Fin 1))).toInt.toNat (W - 1), by omega⟩ : Fin W)) := by
  unfold Host.gather
  congr 1
  funext a
  refine Fin.ext ?_
  match a with
  | ⟨0, _⟩ =>
    show (colDims W wf).start (ix2 r i) idx 0 + (colDims W wf).batchCoord (ix2 r i) 0 + (colDims W wf).offCoord (ix2 r i) 0 = r.val
    have hs : (colDims W wf).start (ix2 r i) idx 0 = 0 := by
      unfold GatherDims.start
      rw [dif_neg (show (0 : Fin 2) ∉ ([1] : List (Fin 2)) by decide)]
    have ho : (colDims W wf).offCoord (ix2 r i) 0 = r.val := by
      unfold GatherDims.offCoord
      rw [dif_pos ((GatherDims.mem_sKept _ _).mpr
        ⟨show (0 : Fin 2) ∉ ([1] : List (Fin 2)) by decide, List.not_mem_nil⟩)]
      rfl
    rw [GatherDims.batchCoord_eq_zero _ _ _ List.not_mem_nil, hs, ho]
    omega
  | ⟨1, _⟩ =>
    show (colDims W wf).start (ix2 r i) idx 1 + (colDims W wf).batchCoord (ix2 r i) 1 + (colDims W wf).offCoord (ix2 r i) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims W wf).startIndexMap from List.mem_singleton.mpr rfl)]
    have hsi : (colDims W wf).siIdx (ix2 r i) ⟨List.idxOf (1 : Fin 2) (colDims W wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl

end Gather

/-! ## The scatter -/

section Scatter
variable {α : Type}

/-- The scatter's dimension numbers: the updates' rows are the window axis, the column axis is inserted and is the one
    the start index names. -/
abbrev setDims (wf : ScatterDims.WF (SW 31) SI SU [0] [1] [1] 1) : ScatterDims (SW 31) SI SU where
  updateWindowDims := [0]
  insertedWindowDims := [1]
  scatterDimsToOperandDims := [1]
  indexVectorDim := 1
  wf := wf

variable (wf : ScatterDims.WF (SW 31) SI SU [0] [1] [1] 1) {w : Nat} (idx : IVec SI w)

theorem set_start0 (r : Fin 100000) (i : Fin 15) : (setDims wf).start (ix2 r i) idx 0 = 0 := by
  unfold ScatterDims.start
  rw [dif_neg (show (0 : Fin 2) ∉ ([1] : List (Fin 2)) by decide)]

theorem set_window0 (r : Fin 100000) (i : Fin 15) : (setDims wf).window (ix2 r i) 0 = r.val := by
  unfold ScatterDims.window
  rw [dif_pos (show (0 : Fin 2) ∈ (SW 31).kept ([1] : List (Fin 2)) by decide)]
  rfl

theorem set_start1 (r : Fin 100000) (i : Fin 15) :
    (setDims wf).start (ix2 r i) idx 1 = (idx (ix2 i (0 : Fin 1))).toInt := by
  unfold ScatterDims.start
  rw [dif_pos (show (1 : Fin 2) ∈ (setDims wf).scatterDimsToOperandDims from List.mem_singleton.mpr rfl)]
  have hsi : (setDims wf).siIdx (ix2 r i) ⟨List.idxOf (1 : Fin 2) (setDims wf).scatterDimsToOperandDims,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]

theorem set_window1 (r : Fin 100000) (i : Fin 15) : (setDims wf).window (ix2 r i) 1 = 0 := by
  unfold ScatterDims.window
  rw [dif_neg (show (1 : Fin 2) ∉ (SW 31).kept ([1] : List (Fin 2)) by decide)]

/-- Where the update at row `r`, column `i` lands when its start index is the column `c`. -/
theorem set_resultIdx (r : Fin 100000) (i : Fin 15) (c : Fin 31) (hc : (idx (ix2 i (0 : Fin 1))).toInt = (c.val : Int)) :
    (setDims wf).resultIdx? (ix2 r i) idx = some (ix2 r c) := by
  have h0 : (setDims wf).start (ix2 r i) idx 0 + ((setDims wf).window (ix2 r i) 0 : Int) = (r.val : Int) := by
    rw [set_start0, set_window0, Int.zero_add]
  have h1 : (setDims wf).start (ix2 r i) idx 1 + ((setDims wf).window (ix2 r i) 1 : Int) = (c.val : Int) := by
    rw [set_start1, set_window1, hc]; simp
  unfold ScatterDims.resultIdx?
  have H : ∀ a, 0 ≤ (setDims wf).start (ix2 r i) idx a + ((setDims wf).window (ix2 r i) a : Int)
      ∧ (setDims wf).start (ix2 r i) idx a + ((setDims wf).window (ix2 r i) a : Int) < (((SW 31).size a : Nat) : Int) := by
    intro a
    match a with
    | ⟨0, _⟩ =>
      rw [show ((⟨0, by omega⟩ : Fin 2)) = (0 : Fin 2) from rfl, h0]
      have := r.isLt
      show 0 ≤ (r.val : Int) ∧ (r.val : Int) < ((100000 : Nat) : Int)
      omega
    | ⟨1, _⟩ =>
      rw [show ((⟨1, by omega⟩ : Fin 2)) = (1 : Fin 2) from rfl, h1]
      have := c.isLt
      show 0 ≤ (c.val : Int) ∧ (c.val : Int) < ((31 : Nat) : Int)
      omega
  rw [dif_pos H]
  congr 1
  funext a
  refine Fin.ext ?_
  match a with
  | ⟨0, _⟩ =>
    show ((setDims wf).start (ix2 r i) idx 0 + ((setDims wf).window (ix2 r i) 0 : Int)).toNat = r.val
    rw [h0]; rfl
  | ⟨1, _⟩ =>
    show ((setDims wf).start (ix2 r i) idx 1 + ((setDims wf).window (ix2 r i) 1 : Int)).toNat = c.val
    rw [h1]; rfl

/-- The scatter is the fold of `step` over the updates in row-major order. -/
theorem scatter_eq_foldl (f : α → α → α) (x : (SW 31).Idx → α) (upd : SU.Idx → α) :
    Host.scatter (setDims wf) f x idx upd
      = (List.finRange SU.numel).foldl
          (step (fun n => (setDims wf).resultIdx? (SU.rowMajor.symm n) idx) (fun n => upd (SU.rowMajor.symm n)) f) x := by
  unfold Host.scatter
  refine congrArg (fun g => List.foldl g x (List.finRange SU.numel)) ?_
  funext r n
  have hS := step_isStep (fun n => (setDims wf).resultIdx? (SU.rowMajor.symm n) idx) (fun n => upd (SU.rowMajor.symm n)) f
  cases h : (setDims wf).resultIdx? (SU.rowMajor.symm n) idx with
  | none =>
    rw [hS.none r n h]
  | some i =>
    funext k
    by_cases hk : k = i
    · subst hk
      rw [hS.some_eq r n k h]
      exact if_pos rfl
    · rw [hS.some_ne r n i k h hk]
      exact if_neg hk

variable (T : Fin 15 → Fin 31) (hT : ∀ i, (idx (ix2 i (0 : Fin 1))).toInt = ((T i).val : Int))

include hT in
/-- A column the start indices name holds the update written there. -/
theorem scatter_set_hit (hinj : Function.Injective T) (x : (SW 31).Idx → α) (upd : SU.Idx → α) (r : Fin 100000) (i : Fin 15) :
    Host.scatter (setDims wf) (fun _ b => b) x idx upd (ix2 r (T i)) = upd (ix2 r i) := by
  have hg : (fun n => (setDims wf).resultIdx? (SU.rowMajor.symm n) idx) (SU.rowMajor (ix2 r i)) = some (ix2 r (T i)) := by
    show (setDims wf).resultIdx? (SU.rowMajor.symm (SU.rowMajor (ix2 r i))) idx = _
    rw [Equiv.symm_apply_apply]
    exact set_resultIdx wf idx r i (T i) (hT i)
  rw [scatter_eq_foldl]
  refine (foldl_hit (step_isStep (fun n => (setDims wf).resultIdx? (SU.rowMajor.symm n) idx)
      (fun n => upd (SU.rowMajor.symm n)) (fun _ b => b)) (ix2 r (T i)) (SU.rowMajor (ix2 r i)) hg
    (List.finRange SU.numel) x (List.nodup_finRange _) (List.mem_finRange _) ?_).trans ?_
  · intro n _ hn
    obtain ⟨a, b, hab⟩ : ∃ (a : Fin 100000) (b : Fin 15), SU.rowMajor.symm n = ix2 a b := ⟨_, _, eq_ix2 _⟩
    have hn' : (setDims wf).resultIdx? (ix2 a b) idx = some (ix2 r (T i)) := hab ▸ hn
    rw [set_resultIdx wf idx a b (T b) (hT b)] at hn'
    have e := Option.some.inj hn'
    have e0 : a = r := congrFun e 0
    have e1 : b = i := hinj (congrFun e 1)
    rw [e0, e1] at hab
    rw [← hab, Equiv.apply_symm_apply]
  · show upd (SU.rowMajor.symm (SU.rowMajor (ix2 r i))) = _
    rw [Equiv.symm_apply_apply]

include hT in
/-- A column no start index names keeps the operand's element. -/
theorem scatter_set_miss (f : α → α → α) (x : (SW 31).Idx → α) (upd : SU.Idx → α) (r : Fin 100000) (c : Fin 31)
    (hc : ∀ i, T i ≠ c) : Host.scatter (setDims wf) f x idx upd (ix2 r c) = x (ix2 r c) := by
  rw [scatter_eq_foldl]
  refine foldl_miss (step_isStep _ _ _) (ix2 r c) _ x ?_
  intro n _ hn
  obtain ⟨a, b, hab⟩ : ∃ (a : Fin 100000) (b : Fin 15), SU.rowMajor.symm n = ix2 a b := ⟨_, _, eq_ix2 _⟩
  have hn' : (setDims wf).resultIdx? (ix2 a b) idx = some (ix2 r c) := hab ▸ hn
  rw [set_resultIdx wf idx a b (T b) (hT b)] at hn'
  exact hc b (congrFun (Option.some.inj hn') 1)

end Scatter

end Cert.RefRead

end
-- ==== Proof.RefPath.lean ====
/-
  One row of the reference's tree update, as lattice mathematics on the extended reals.

  The row is a function on the node numbers (all naturals: the complete binary tree numbered level by
  level, node `n ≥ 1` with the parent `(n - 1) / 2`).  It starts at `1` everywhere; the left children take
  `min (parent) (a parent)`, then the right children take `min (parent) (-(a parent))` (the parent read after
  the left children were written); then, four times, every left child takes the minimum of itself and
  its parent, and after that every right child does.

  Every value stays above the path minimum of its node, because the path minimum of a node is below
  that of its parent and below its own edge.  After the two first updates every node is below the
  minimum of `1` and its last edge, and each round lengthens that suffix of the path by one edge.  The
  suffix of length four is the whole path for the nodes `0 … 30`, so after four rounds the row is the path
  minimum there.  The clip to `[0, 1]` is then the cut-off at `0`, because a path minimum is at most `1`.
-/
import proofs.«209939_g34969623724736_cont_8to1_b_5_19_alg».proof.Proof.TreeSpec
import Idealize.ShloMosaic.PureOps.Ideal.Laws

noncomputable section

namespace Cert.RefPath

open Idealize.ShloMosaic Cert.TreeSpec

/-! ## The two constants -/

theorem one_eq : one = 1 := by
  show Ideal.ofBits .f32 0x3F800000#32 = 1
  simp [Ideal.ofBits, Ideal.ieee, -EReal.coe_mul]; norm_num

theorem zero_eq : zero = 0 := Ideal.ofBits_zero_f32

theorem zero_le_one' : zero ≤ one := by rw [one_eq, zero_eq]; exact zero_le_one

/-! ## The path minimum through the parent -/

/-- The edge into node `n ≥ 1`: the parent's projection for a left child (odd `n`), its negation for a right child. -/
def edge (a : ℕ → EReal) (n : ℕ) : EReal := if n % 2 = 1 then a ((n - 1) / 2) else -(a ((n - 1) / 2))

theorem pathMin_step (a : ℕ → EReal) (n : ℕ) (hn : n ≠ 0) :
    pathMin a n = min (pathMin a ((n - 1) / 2)) (edge a n) := by
  obtain ⟨m, rfl⟩ : ∃ m, n = m + 1 := ⟨n - 1, by omega⟩
  have e : (m + 1 - 1) / 2 = m / 2 := by omega
  unfold edge
  rw [pathMin, e]
  by_cases h : m % 2 = 0
  · rw [if_pos h, if_pos (by omega)]
  · rw [if_neg h, if_neg (by omega)]

theorem pathMin_le_parent (a : ℕ → EReal) (n : ℕ) (hn : n ≠ 0) : pathMin a n ≤ pathMin a ((n - 1) / 2) := by
  rw [pathMin_step a n hn]; exact min_le_left _ _

theorem pathMin_le_edge (a : ℕ → EReal) (n : ℕ) (hn : n ≠ 0) : pathMin a n ≤ edge a n := by
  rw [pathMin_step a n hn]; exact min_le_right _ _

theorem pathMin_le_one (a : ℕ → EReal) : ∀ n, pathMin a n ≤ one := by
  intro n
  induction n using Nat.strong_induction_on with
  | _ n ih =>
    by_cases hn : n = 0
    · subst hn; rw [pathMin_zero]
    · exact (pathMin_le_parent a n hn).trans (ih _ (by omega))

/-! ## The updates of one row -/

/-- The left children take the minimum of the parent's value and the parent's projection. -/
def initL (a q : ℕ → EReal) (n : ℕ) : EReal :=
  if n % 2 = 1 then min (q ((n - 1) / 2)) (a ((n - 1) / 2)) else q n

/-- The right children take the minimum of the parent's value and the negated projection. -/
def initR (a q : ℕ → EReal) (n : ℕ) : EReal :=
  if n % 2 = 0 ∧ n ≠ 0 then min (q ((n - 1) / 2)) (-(a ((n - 1) / 2))) else q n

/-- Every left child takes the minimum of itself and its parent. -/
def stepL (q : ℕ → EReal) (n : ℕ) : EReal :=
  if n % 2 = 1 then min (q n) (q ((n - 1) / 2)) else q n

/-- Every right child takes the minimum of itself and its parent. -/
def stepR (q : ℕ → EReal) (n : ℕ) : EReal :=
  if n % 2 = 0 ∧ n ≠ 0 then min (q n) (q ((n - 1) / 2)) else q n

/-- The row after the two first updates. -/
def start (a : ℕ → EReal) : ℕ → EReal := initR a (initL a fun _ => one)

/-- One round: the left children, then the right children. -/
def round (q : ℕ → EReal) : ℕ → EReal := stepR (stepL q)

/-- The row after the two first updates and four rounds. -/
def final (a : ℕ → EReal) : ℕ → EReal := round (round (round (round (start a))))

/-! ## Below: the path minimum -/

theorem lower_initL (a q : ℕ → EReal) (h : ∀ n, pathMin a n ≤ q n) : ∀ n, pathMin a n ≤ initL a q n := by
  intro n; unfold initL
  split
  · next hn =>
    have h0 : n ≠ 0 := by omega
    refine le_min ((pathMin_le_parent a n h0).trans (h _)) ?_
    have := pathMin_le_edge a n h0
    unfold edge at this; rwa [if_pos hn] at this
  · exact h n

theorem lower_initR (a q : ℕ → EReal) (h : ∀ n, pathMin a n ≤ q n) : ∀ n, pathMin a n ≤ initR a q n := by
  intro n; unfold initR
  split
  · next hn =>
    refine le_min ((pathMin_le_parent a n hn.2).trans (h _)) ?_
    have := pathMin_le_edge a n hn.2
    unfold edge at this; rwa [if_neg (by omega)] at this
  · exact h n

theorem lower_stepL (a q : ℕ → EReal) (h : ∀ n, pathMin a n ≤ q n) : ∀ n, pathMin a n ≤ stepL q n := by
  intro n; unfold stepL
  split
  · next hn => exact le_min (h n) ((pathMin_le_parent a n (by omega)).trans (h _))
  · exact h n

theorem lower_stepR (a q : ℕ → EReal) (h : ∀ n, pathMin a n ≤ q n) : ∀ n, pathMin a n ≤ stepR q n := by
  intro n; unfold stepR
  split
  · next hn => exact le_min (h n) ((pathMin_le_parent a n hn.2).trans (h _))
  · exact h n

theorem lower_round (a q : ℕ → EReal) (h : ∀ n, pathMin a n ≤ q n) : ∀ n, pathMin a n ≤ round q n :=
  lower_stepR a _ (lower_stepL a q h)

theorem lower_final (a : ℕ → EReal) : ∀ n, pathMin a n ≤ final a n :=
  lower_round a _ (lower_round a _ (lower_round a _ (lower_round a _
    (lower_initR a _ (lower_initL a _ (pathMin_le_one a))))))

/-! ## Above: the minimum over a suffix of the path -/

/-- The minimum of `1` and the last `j` edges of the path to node `n` (all of them when the path is shorter). -/
def suffixMin (a : ℕ → EReal) : ℕ → ℕ → EReal
  | 0, _ => one
  | j + 1, n => if n = 0 then one else min (suffixMin a j ((n - 1) / 2)) (edge a n)

theorem suffixMin_root (a : ℕ → EReal) (j : ℕ) : suffixMin a j 0 = one := by
  cases j with
  | zero => rfl
  | succ j => rw [suffixMin, if_pos rfl]

theorem suffixMin_succ (a : ℕ → EReal) (j n : ℕ) (hn : n ≠ 0) :
    suffixMin a (j + 1) n = min (suffixMin a j ((n - 1) / 2)) (edge a n) := by
  rw [suffixMin, if_neg hn]

theorem suffixMin_le_one (a : ℕ → EReal) : ∀ j n, suffixMin a j n ≤ one := by
  intro j
  induction j with
  | zero => intro n; exact le_refl _
  | succ j ih =>
    intro n
    by_cases hn : n = 0
    · subst hn; rw [suffixMin_root]
    · rw [suffixMin_succ a j n hn]; exact (min_le_left _ _).trans (ih _)

theorem suffixMin_succ_le_edge (a : ℕ → EReal) (j n : ℕ) (hn : n ≠ 0) : suffixMin a (j + 1) n ≤ edge a n := by
  rw [suffixMin_succ a j n hn]; exact min_le_right _ _

/-- A longer suffix has a smaller minimum. -/
theorem suffixMin_anti (a : ℕ → EReal) : ∀ j n, suffixMin a (j + 1) n ≤ suffixMin a j n := by
  intro j
  induction j with
  | zero => intro n; exact suffixMin_le_one a 1 n
  | succ j ih =>
    intro n
    by_cases hn : n = 0
    · subst hn; rw [suffixMin_root, suffixMin_root]
    · rw [suffixMin_succ a (j + 1) n hn, suffixMin_succ a j n hn]
      exact min_le_min (ih _) (le_refl _)

/-- A suffix as long as the path is the whole path. -/
theorem suffixMin_eq_pathMin (a : ℕ → EReal) : ∀ j n, n + 2 ≤ 2 ^ (j + 1) → suffixMin a j n = pathMin a n := by
  intro j
  induction j with
  | zero =>
    intro n hn
    obtain rfl : n = 0 := by omega
    rw [suffixMin_root, pathMin_zero]
  | succ j ih =>
    intro n hn
    by_cases h0 : n = 0
    · subst h0; rw [suffixMin_root, pathMin_zero]
    · have hp : (2 : ℕ) ^ (j + 1 + 1) = 2 * 2 ^ (j + 1) := by rw [pow_succ]; ring
      rw [suffixMin_succ a j n h0, pathMin_step a n h0, ih _ (by omega)]

theorem initL_one_le_one (a : ℕ → EReal) (n : ℕ) : initL a (fun _ => one) n ≤ one := by
  unfold initL; split
  · exact min_le_left _ _
  · exact le_refl _

theorem upper_start (a : ℕ → EReal) : ∀ n, start a n ≤ suffixMin a 1 n := by
  intro n
  by_cases h0 : n = 0
  · subst h0
    rw [suffixMin_root]
    unfold start initR
    rw [if_neg (by omega)]
    exact initL_one_le_one a 0
  rw [suffixMin_succ a 0 n h0]
  have hs : suffixMin a 0 ((n - 1) / 2) = one := rfl
  rw [hs]
  unfold start initR edge
  by_cases hodd : n % 2 = 1
  · rw [if_neg (by omega), if_pos hodd]
    unfold initL
    rw [if_pos hodd]
  · rw [if_pos ⟨by omega, h0⟩, if_neg hodd]
    exact min_le_min (initL_one_le_one a _) (le_refl _)

theorem upper_round (a q : ℕ → EReal) (j : ℕ) (h : ∀ n, q n ≤ suffixMin a (j + 1) n) :
    ∀ n, round q n ≤ suffixMin a (j + 2) n := by
  have hA : ∀ n, stepL q n ≤ suffixMin a (j + 1) n := by
    intro n; unfold stepL; split
    · exact (min_le_left _ _).trans (h n)
    · exact h n
  have hB : ∀ n, n % 2 = 1 → stepL q n ≤ suffixMin a (j + 2) n := by
    intro n hn
    have h0 : n ≠ 0 := by omega
    unfold stepL; rw [if_pos hn, suffixMin_succ a (j + 1) n h0]
    exact le_min ((min_le_right _ _).trans (h _)) ((min_le_left _ _).trans ((h n).trans (suffixMin_succ_le_edge a j n h0)))
  intro n
  unfold round stepR
  by_cases h0 : n = 0
  · subst h0
    rw [if_neg (by omega), suffixMin_root]
    exact (hA 0).trans (le_of_eq (suffixMin_root a _))
  by_cases hodd : n % 2 = 1
  · rw [if_neg (by omega)]; exact hB n hodd
  · rw [if_pos ⟨by omega, h0⟩, suffixMin_succ a (j + 1) n h0]
    exact le_min ((min_le_right _ _).trans (hA _)) ((min_le_left _ _).trans ((hA n).trans (suffixMin_succ_le_edge a j n h0)))

theorem upper_final (a : ℕ → EReal) : ∀ n, final a n ≤ suffixMin a 5 n :=
  upper_round a _ 3 (upper_round a _ 2 (upper_round a _ 1 (upper_round a _ 0 (upper_start a))))

/-- After the two first updates and four rounds the row is the path minimum at every node `0 … 30`. -/
theorem final_eq_pathMin (a : ℕ → EReal) (n : ℕ) (hn : n ≤ 30) : final a n = pathMin a n := by
  refine le_antisymm ?_ (lower_final a n)
  have h := upper_final a n
  rwa [suffixMin_eq_pathMin a 5 n (by norm_num; omega)] at h

/-! ## The clip -/

/-- At the root the clip of `1` to `[0, 1]` is `1`. -/
theorem clip_one : min one (max zero one) = one := by
  rw [max_eq_right zero_le_one', min_self]

/-- A value at most `1` clipped to `[0, 1]` is that value cut off below at `0`. -/
theorem clip_le_one (p : EReal) (hp : p ≤ one) : min one (max zero p) = max p zero := by
  rw [max_comm zero p]
  exact min_eq_right (max_le hp zero_le_one')

end Cert.RefPath

end
-- ==== Proof.RefIdeal.lean ====
/-
  The reference's result read at an index on the extended reals: each update of fifteen columns is one step of
  the row mathematics (an odd column `2 i + 1` is the left child of column `i`, an even column `2 i + 2` its right child,
  and a column that is no target of the write keeps its value), the product is the projection, and the clip is
  the minimum with 1 of the maximum with 0.
-/
import proofs.«209939_g34969623724736_cont_8to1_b_5_19_alg».proof.Proof.RefTerms
import proofs.«209939_g34969623724736_cont_8to1_b_5_19_alg».proof.Proof.RefRead
import proofs.«209939_g34969623724736_cont_8to1_b_5_19_alg».proof.Proof.RefPath
import Idealize.ShloMosaic.PureOps.Ideal.Laws
import Idealize.ShloMosaic.Lib.Pipeline.Value
import Idealize.ShloMosaic.Lib.IdealHost
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem Idealize.ShloMosaic.StableHlo

open Idealize.ShloMosaic.ValueIdx Cert.RefRead Cert.RefPath Cert.TreeSpec

/-! ## The index columns -/

/-- Column `i` as a column among 31, its left child, its right child. -/
def TP (i : Fin 15) : Fin 31 := ⟨i.val, by omega⟩
def TL (i : Fin 15) : Fin 31 := ⟨2 * i.val + 1, by omega⟩
def TR (i : Fin 15) : Fin 31 := ⟨2 * i.val + 2, by omega⟩

theorem TL_injective : Function.Injective TL := fun a b h => Fin.ext (by have := congrArg Fin.val h; simp only [TL] at this; omega)
theorem TR_injective : Function.Injective TR := fun a b h => Fin.ext (by have := congrArg Fin.val h; simp only [TR] at this; omega)

theorem lit0_toInt : ∀ i : Fin 15, (lit0 i).toInt = ((TP i).val : Int) := by decide
theorem lit1_toInt : ∀ i : Fin 15, (lit1 i).toInt = ((TL i).val : Int) := by decide
theorem lit2_toInt : ∀ i : Fin 15, (lit2 i).toInt = ((TR i).val : Int) := by decide

/-- An index column at row `i` is the table's entry `i` when the mask is all false. -/
theorem idxCol_noWrap (t : Fin 15 → BitVec 32) (w : BitVec 32) (i : Fin 15) :
    idxCol (F := Ideal) noWrap (fun k => t (S15.rowMajor k)) w (ix2 i (0 : Fin 1)) = t i := by
  unfold idxCol
  rw [broadcastInDim_apply ![0] bcast_S15_S15x1_0 _ (ix2 i (0 : Fin 1)) (ix1 i) (by
    intro a
    match a with
    | ⟨0, _⟩ => rfl)]
  rw [select_apply]
  show Scalar.select (0#1) _ (t (S15.rowMajor (ix1 i))) = t i
  rw [select_zero]
  exact congrArg t (Fin.ext (Shape.rowMajor_val_one (ix1 i)))

theorem colP_at (i : Fin 15) : colP (F := Ideal) (ix2 i (0 : Fin 1)) = lit0 i := idxCol_noWrap lit0 _ i
theorem colP15_at (i : Fin 15) : colP15 (F := Ideal) (ix2 i (0 : Fin 1)) = lit0 i := idxCol_noWrap lit0 _ i
theorem colL_at (i : Fin 15) : colL (F := Ideal) (ix2 i (0 : Fin 1)) = lit1 i := idxCol_noWrap lit1 _ i
theorem colR_at (i : Fin 15) : colR (F := Ideal) (ix2 i (0 : Fin 1)) = lit2 i := idxCol_noWrap lit2 _ i

/-! ## The gathers and the write at an index -/

theorem gatherQ_apply (Q : CQ Ideal) (I : CI Ideal) (r : Fin 100000) (i : Fin 15) :
    gatherQ Q I (ix2 r i) = Q (ix2 r (⟨min (I (ix2 i (0 : Fin 1))).toInt.toNat 30, by omega⟩ : Fin 31)) :=
  gather_cols_apply (W := 31) (by decide) gather_S100000x31_S15x1_S100000x15_0_1_n_n_1_1_1000001.wf Q I r i

theorem gatherP_apply (P : CP Ideal) (I : CI Ideal) (r : Fin 100000) (i : Fin 15) :
    gatherP P I (ix2 r i) = P (ix2 r (⟨min (I (ix2 i (0 : Fin 1))).toInt.toNat 14, by omega⟩ : Fin 15)) :=
  gather_cols_apply (W := 15) (by decide) gather_S100000x15_S15x1_S100000x15_0_1_n_n_1_1_1000001.wf P I r i

theorem gatherQ_colP (Q : CQ Ideal) (r : Fin 100000) (i : Fin 15) : gatherQ Q colP (ix2 r i) = Q (ix2 r (TP i)) := by
  rw [gatherQ_apply]
  refine congrArg (fun c => Q (ix2 r c)) (Fin.ext ?_)
  show min (colP (F := Ideal) (ix2 i (0 : Fin 1))).toInt.toNat 30 = _
  rw [colP_at, lit0_toInt]
  simp only [TP, Int.toNat_natCast]
  omega

theorem gatherQ_colL (Q : CQ Ideal) (r : Fin 100000) (i : Fin 15) : gatherQ Q colL (ix2 r i) = Q (ix2 r (TL i)) := by
  rw [gatherQ_apply]
  refine congrArg (fun c => Q (ix2 r c)) (Fin.ext ?_)
  show min (colL (F := Ideal) (ix2 i (0 : Fin 1))).toInt.toNat 30 = _
  rw [colL_at, lit1_toInt]
  simp only [TL, Int.toNat_natCast]
  omega

theorem gatherQ_colR (Q : CQ Ideal) (r : Fin 100000) (i : Fin 15) : gatherQ Q colR (ix2 r i) = Q (ix2 r (TR i)) := by
  rw [gatherQ_apply]
  refine congrArg (fun c => Q (ix2 r c)) (Fin.ext ?_)
  show min (colR (F := Ideal) (ix2 i (0 : Fin 1))).toInt.toNat 30 = _
  rw [colR_at, lit2_toInt]
  simp only [TR, Int.toNat_natCast]
  omega

theorem gatherP_colP15 (P : CP Ideal) (r : Fin 100000) (i : Fin 15) : gatherP P colP15 (ix2 r i) = P (ix2 r i) := by
  rw [gatherP_apply]
  refine congrArg (fun c => P (ix2 r c)) (Fin.ext ?_)
  show min (colP15 (F := Ideal) (ix2 i (0 : Fin 1))).toInt.toNat 14 = _
  rw [colP15_at, lit0_toInt]
  simp only [TP, Int.toNat_natCast]
  omega

theorem scatterQ_colL_hit (Q : CQ Ideal) (U : CP Ideal) (r : Fin 100000) (i : Fin 15) :
    scatterQ Q colL U (ix2 r (TL i)) = U (ix2 r i) :=
  scatter_set_hit scatter_S100000x31_S15x1_S100000x15_0_1_1_1.wf colL TL (fun i => by rw [colL_at, lit1_toInt]) TL_injective Q U r i

theorem scatterQ_colL_miss (Q : CQ Ideal) (U : CP Ideal) (r : Fin 100000) (c : Fin 31) (hc : ∀ i, TL i ≠ c) :
    scatterQ Q colL U (ix2 r c) = Q (ix2 r c) :=
  scatter_set_miss scatter_S100000x31_S15x1_S100000x15_0_1_1_1.wf colL TL (fun i => by rw [colL_at, lit1_toInt]) (fun _ b => b) Q U r c hc

theorem scatterQ_colR_hit (Q : CQ Ideal) (U : CP Ideal) (r : Fin 100000) (i : Fin 15) :
    scatterQ Q colR U (ix2 r (TR i)) = U (ix2 r i) :=
  scatter_set_hit scatter_S100000x31_S15x1_S100000x15_0_1_1_1.wf colR TR (fun i => by rw [colR_at, lit2_toInt]) TR_injective Q U r i

theorem scatterQ_colR_miss (Q : CQ Ideal) (U : CP Ideal) (r : Fin 100000) (c : Fin 31) (hc : ∀ i, TR i ≠ c) :
    scatterQ Q colR U (ix2 r c) = Q (ix2 r c) :=
  scatter_set_miss scatter_S100000x31_S15x1_S100000x15_0_1_1_1.wf colR TR (fun i => by rw [colR_at, lit2_toInt]) (fun _ b => b) Q U r c hc

/-! ## Which columns a write names -/

theorem odd_eq_TL (n : Fin 31) (h : n.val % 2 = 1) : ∃ i : Fin 15, n = TL i ∧ i.val = (n.val - 1) / 2 :=
  ⟨⟨(n.val - 1) / 2, by omega⟩, Fin.ext (by simp only [TL]; omega), rfl⟩

theorem even_eq_TR (n : Fin 31) (h : n.val % 2 = 0 ∧ n.val ≠ 0) : ∃ i : Fin 15, n = TR i ∧ i.val = (n.val - 1) / 2 :=
  ⟨⟨(n.val - 1) / 2, by omega⟩, Fin.ext (by simp only [TR]; omega), rfl⟩

theorem TL_ne_of_not_odd (n : Fin 31) (h : ¬n.val % 2 = 1) : ∀ i, TL i ≠ n :=
  fun i e => h (by rw [← e]; simp only [TL]; omega)

theorem TR_ne_of_not_even (n : Fin 31) (h : ¬(n.val % 2 = 0 ∧ n.val ≠ 0)) : ∀ i, TR i ≠ n :=
  fun i e => h (by rw [← e]; simp only [TR]; omega)

/-! ## Each update as a step of one row -/

section Rows
variable (r : Fin 100000)

theorem firstL_row (P : CP Ideal) (Q : CQ Ideal) (a q : ℕ → EReal) (hP : ∀ i : Fin 15, P (ix2 r i) = a i.val)
    (hQ : ∀ m : Fin 31, Q (ix2 r m) = q m.val) (n : Fin 31) : firstL P Q (ix2 r n) = initL a q n.val := by
  unfold firstL firstLG initL
  by_cases h : n.val % 2 = 1
  · obtain ⟨i, rfl, hi⟩ := odd_eq_TL n h
    rw [scatterQ_colL_hit, if_pos h, minimumf_apply, gatherQ_colP, gatherP_colP15, hQ, hP, ← hi]
    rfl
  · rw [scatterQ_colL_miss _ _ _ _ (TL_ne_of_not_odd n h), if_neg h, hQ]

theorem firstR_row (P : CP Ideal) (Q : CQ Ideal) (a q : ℕ → EReal) (hP : ∀ i : Fin 15, P (ix2 r i) = a i.val)
    (hQ : ∀ m : Fin 31, Q (ix2 r m) = q m.val) (n : Fin 31) : firstR P Q (ix2 r n) = initR a q n.val := by
  unfold firstR firstRG initR
  by_cases h : n.val % 2 = 0 ∧ n.val ≠ 0
  · obtain ⟨i, rfl, hi⟩ := even_eq_TR n h
    rw [scatterQ_colR_hit, if_pos h, minimumf_apply, gatherQ_colP, hQ, ← hi]
    show min (q (TP i).val) (-(gatherP P colP15 (ix2 r i))) = _
    rw [gatherP_colP15, hP]
    rfl
  · rw [scatterQ_colR_miss _ _ _ _ (TR_ne_of_not_even n h), if_neg h, hQ]

theorem roundL_row (Q : CQ Ideal) (q : ℕ → EReal) (hQ : ∀ m : Fin 31, Q (ix2 r m) = q m.val) (n : Fin 31) :
    roundL Q (ix2 r n) = stepL q n.val := by
  unfold roundL roundG stepL
  by_cases h : n.val % 2 = 1
  · obtain ⟨i, rfl, hi⟩ := odd_eq_TL n h
    rw [scatterQ_colL_hit, if_pos h, minimumf_apply, gatherQ_colL, gatherQ_colP, hQ, hQ, ← hi]
    rfl
  · rw [scatterQ_colL_miss _ _ _ _ (TL_ne_of_not_odd n h), if_neg h, hQ]

theorem roundR_row (Q : CQ Ideal) (q : ℕ → EReal) (hQ : ∀ m : Fin 31, Q (ix2 r m) = q m.val) (n : Fin 31) :
    roundR Q (ix2 r n) = stepR q n.val := by
  unfold roundR roundG stepR
  by_cases h : n.val % 2 = 0 ∧ n.val ≠ 0
  · obtain ⟨i, rfl, hi⟩ := even_eq_TR n h
    rw [scatterQ_colR_hit, if_pos h, minimumf_apply, gatherQ_colR, gatherQ_colP, hQ, hQ, ← hi]
    rfl
  · rw [scatterQ_colR_miss _ _ _ _ (TR_ne_of_not_even n h), if_neg h, hQ]

theorem ones_at (m : Fin 31) : ones (F := Ideal) (ix2 r m) = one := rfl

/-- The node values after the two first updates and `k` rounds are the row's. -/
theorem nodes_row (P : CP Ideal) (a : ℕ → EReal) (hP : ∀ i : Fin 15, P (ix2 r i) = a i.val) :
    ∀ (k : ℕ) (n : Fin 31), nodes P k (ix2 r n) = (Cert.RefPath.round^[k] (start a)) n.val := by
  intro k
  induction k with
  | zero =>
    intro n
    show firstR P (firstL P ones) (ix2 r n) = start a n.val
    exact firstR_row r P _ a _ hP (fun m => firstL_row r P ones a (fun _ => one) hP (fun m => ones_at r m) m) n
  | succ k ih =>
    intro n
    rw [Function.iterate_succ_apply']
    show roundR (roundL (nodes P k)) (ix2 r n) = _
    exact roundR_row r _ _ (fun m => roundL_row r _ _ ih m) n

end Rows

/-! ## The product and the clip -/

theorem xa_apply (x : (⟨S100000x128, .f32⟩ : BufTy).Contents (Elt Ideal)) (A : (⟨S15x128, .f32⟩ : BufTy).Contents (Elt Ideal))
    (r : Fin 100000) (i : Fin 15) : xa x A (ix2 r i) = proj x A r i := by
  have hr1 : (dot_S100000x128_S128x15_S100000x15_1_0_0_1_n_n).contr.rank = 1 := rfl
  have hs1 : (dot_S100000x128_S128x15_S100000x15_1_0_0_1_n_n).contr.size ⟨0, by omega⟩ = 128 := rfl
  unfold xa proj
  simp only [Host.dotGeneral]
  rw [Ideal.dotGeneral_apply, ← Equiv.sum_comp (contrEquiv1 dot_S100000x128_S128x15_S100000x15_1_0_0_1_n_n 128 hr1 hs1).symm]
  refine Finset.sum_congr rfl fun c _ => ?_
  have hl : (dot_S100000x128_S128x15_S100000x15_1_0_0_1_n_n).lhsIdx (ix2 r i) ((contrEquiv1 dot_S100000x128_S128x15_S100000x15_1_0_0_1_n_n 128 hr1 hs1).symm c) = ix2 r c := by
    funext a; refine Fin.ext ?_
    match a with
    | ⟨0, _⟩ => rfl
    | ⟨1, _⟩ =>
      show ((dot_S100000x128_S128x15_S100000x15_1_0_0_1_n_n).lhsIdx (ix2 r i) ((contrEquiv1 dot_S100000x128_S128x15_S100000x15_1_0_0_1_n_n 128 hr1 hs1).symm c) (1 : Fin 2)).val = c.val
      rw [DotDims.lhsIdx_val_of_single dot_S100000x128_S128x15_S100000x15_1_0_0_1_n_n (cl := (1 : Fin 2)) rfl, contrEquiv1_symm_val]
  have hr : (dot_S100000x128_S128x15_S100000x15_1_0_0_1_n_n).rhsIdx (ix2 r i) ((contrEquiv1 dot_S100000x128_S128x15_S100000x15_1_0_0_1_n_n 128 hr1 hs1).symm c) = ix2 c i := by
    funext a; refine Fin.ext ?_
    match a with
    | ⟨0, _⟩ =>
      show ((dot_S100000x128_S128x15_S100000x15_1_0_0_1_n_n).rhsIdx (ix2 r i) ((contrEquiv1 dot_S100000x128_S128x15_S100000x15_1_0_0_1_n_n 128 hr1 hs1).symm c) (0 : Fin 2)).val = c.val
      rw [DotDims.rhsIdx_val_of_single dot_S100000x128_S128x15_S100000x15_1_0_0_1_n_n (cr := (0 : Fin 2)) rfl, contrEquiv1_symm_val]
    | ⟨1, _⟩ => rfl
  rw [hl, hr, transpose_ix2_apply]

theorem clip_apply (Q : CQ Ideal) (j : S100000x31.Idx) : clip Q j = min one (max zero (Q j)) := rfl

/-! ## The result -/

theorem refTerm_eq_tree (x : (⟨S100000x128, .f32⟩ : BufTy).Contents (Elt Ideal)) (A : (⟨S15x128, .f32⟩ : BufTy).Contents (Elt Ideal)) :
    refTerm x A = tree x A := by
  funext j
  obtain ⟨r, n, rfl⟩ : ∃ (r : Fin 100000) (n : Fin 31), j = ix2 r n := ⟨j 0, j 1, eq_ix2 j⟩
  have hP : ∀ i : Fin 15, xa x A (ix2 r i) = projs x A r i.val := by
    intro i
    rw [xa_apply]
    unfold projs
    rw [dif_pos i.isLt]
  have hn := nodes_row r (xa x A) (projs x A r) hP 4 n
  have hf : (Cert.RefPath.round^[4] (start (projs x A r))) n.val = pathMin (projs x A r) n.val :=
    final_eq_pathMin (projs x A r) n.val (by have := n.isLt; omega)
  unfold refTerm
  rw [clip_apply, hn, hf]
  by_cases h0 : n.val = 0
  · rw [show tree x A (ix2 r n) = one from if_pos h0, h0, pathMin_zero, clip_one]
  · rw [show tree x A (ix2 r n) = max (pathMin (projs x A r) n.val) zero from if_neg h0,
      clip_le_one _ (pathMin_le_one _ _)]

end Cert.ReferenceIdeal.RefValue

end
-- ==== Proof.RefTree.lean ====
/-
  The reference program computes the tree specification: every weakly fair execution of it terminates with the
  result buffer at `Cert.TreeSpec.tree` of the two arguments' launch contents, read on the extended reals, and the
  two arguments unchanged.  The run puts the result buffer at the fold of the program's operations; the fold is
  the result term of the arguments; and the term, read at an index, is the specification.
-/
import proofs.«209939_g34969623724736_cont_8to1_b_5_19_alg».proof.Proof.RefCompose
import proofs.«209939_g34969623724736_cont_8to1_b_5_19_alg».proof.Proof.RefIdeal

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (g : Dev nD → PrngReg) :
    θ_run (defs (F := Ideal)) (onTc (τ := τ) (main (F := Ideal))) ⟨m, fun _ => 0, g⟩
      (fun r => ∀ c : Dev nD,
        r.2.mem ((c.tc : Thread nD τ).loc main_v164)
          = Cert.TreeSpec.tree (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
      ⟨(h c main_v164).trans ((line_result (launchContents m c)).trans (refTerm_eq_tree _ _)),
        (h c main_arg0).trans (line_arg0 (launchContents m c)),
        (h c main_arg1).trans (line_arg1 (launchContents m c))⟩)
    (run_line m g)

end Cert.ReferenceIdeal.RefValue

end
-- ==== Proof.KBBase.lean ====
/-
  The kernel program as the SparseCore launch theorem sees it, and the names every part of
  its proof shares: the ghost state, the four arrays the two tree launches read and write, and the
  rows of an output array (one row of 12400 words per chunk of 400 tree rows).
-/
import proofs.«209939_g34969623724736_cont_8to1_b_5_19_alg».proof.Kernel
import proofs.«209939_g34969623724736_cont_8to1_b_5_19_alg».proof.Proof.Gen.Kernel
import proofs.«209939_g34969623724736_cont_8to1_b_5_19_alg».proof.Proof.KTree
import Idealize.ShloMosaic.Lib.SparseCore.Launch
import Idealize.ShloMosaic.Lib.SparseCore.Ops
import Idealize.ShloMosaic.Lib.Pipeline.Kit
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the launch handshakes' rounds, the two matrix products' staging cells' rounds,
    and the counters of the tiles' own copies -/

abbrev UH : Type := URounds (GSem nD τ sig) ℕ
abbrev UR : Type := URounds (GSem nD τ sig) Unit
abbrev UU : Type := UH × (UR × Counters)

/-! ## The arrays of the two tree launches -/

/-- Launch `q`'s flat input (the matrix product of one half of the rows, flattened) and chunked output,
    as the TensorCore names them. -/
abbrev inRef : Fin 2 → Ref sig .tc := fun | 0 => main_v6 | 1 => main_v10 | ⟨_ + 2, h⟩ => absurd h (Nat.not_lt.2 (Nat.le_add_left _ _))
abbrev outRef : Fin 2 → Ref sig .tc := fun | 0 => main_v7 | 1 => main_v11 | ⟨_ + 2, h⟩ => absurd h (Nat.not_lt.2 (Nat.le_add_left _ _))
abbrev in0Loc (d : Dev nD) : Loc nD τ sig := (SparseCore.T d).loc main_v6
abbrev out0Loc (d : Dev nD) : Loc nD τ sig := (SparseCore.T d).loc main_v7
abbrev in1Loc (d : Dev nD) : Loc nD τ sig := (SparseCore.T d).loc main_v10
abbrev out1Loc (d : Dev nD) : Loc nD τ sig := (SparseCore.T d).loc main_v11

/-- The same arrays as a tile's memrefs. -/
abbrev in0V : Memref sig .scVector .hbm S6400000 .f32 := Memref.whole main_v6_scv
abbrev out0V : Memref sig .scVector .hbm S125x12400 .f32 := Memref.whole main_v7_scv
abbrev in1V : Memref sig .scVector .hbm S6400000 .f32 := Memref.whole main_v10_scv
abbrev out1V : Memref sig .scVector .hbm S125x12400 .f32 := Memref.whole main_v11_scv
/-- A tile's two scratches in each launch: the fetched chunk of projections, the chunk of node values. -/
abbrev sA1 : Memref sig .scVector .vmem S51200 .f32 := Memref.whole cc1_scratch0
abbrev sB1 : Memref sig .scVector .vmem S12400 .f32 := Memref.whole cc1_scratch1
abbrev sA3 : Memref sig .scVector .vmem S51200 .f32 := Memref.whole cc3_scratch0
abbrev sB3 : Memref sig .scVector .vmem S12400 .f32 := Memref.whole cc3_scratch1

/-! ## The rows of an output array: one per chunk -/

theorem hdiv : 125 ∣ S125x12400.size 0 := ⟨1, rfl⟩
/-- Row `ch` of the output: chunk `ch`'s 400 tree rows of 31 node values. -/
abbrev row (ch : Fin 125) : Rect S125x12400 := Rect.part (s := S125x12400) (a₀ := 0) hdiv ch
abbrev rowSet (ch : Fin 125) : Finset S125x12400.Idx := ((out0V : Memref sig .scVector .hbm S125x12400 .f32).view.slice (row ch)).set

/-- The tile at grid coordinates `L` is worker number `2 * subcore + core`; it takes the chunks
    `worker + 32 * k`. -/
def wid (c s : ℕ) : ℕ := 2 * s + c
/-- The chunks of worker `w`. -/
def chunksOf (w : ℕ) : Finset (Fin 125) := Finset.univ.filter fun ch => ch.val % 32 = w

end Cert.Proof.KB

end
-- ==== Proof.KBRegion0.lean ====
/-
  The matrix-product region of the first half of the rows, as one pipeline region of the program.

  At a parameter `V` (the TensorCore's buffer contents when the region is entered): each window's
  block at a grid point read off its array, what the body leaves in the output window's staging
  buffer (the product of the row block with the transposed weight block, into a zero accumulator,
  stored whole), the body's triple, the pipeline's proof data and the body obligation at every point.
-/
import proofs.«209939_g34969623724736_cont_8to1_b_5_19_alg».proof.Proof.KBBase
import proofs.«209939_g34969623724736_cont_8to1_b_5_19_alg».proof.Proof.Gen.Kernel.Launch
import proofs.«209939_g34969623724736_cont_8to1_b_5_19_alg».proof.Proof.Gen.Kernel.Skeleton
import proofs.«209939_g34969623724736_cont_8to1_b_5_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Region

variable (V : (c : Dev nD) → (b : Ref sig .tc) → Buf (Elt F) ((c : Thread nD τ).loc b))
-- what the TensorCore owes the launch handshakes while the region runs (the start signals of later calls)
variable (O : Dev nD → CellTallies nD τ sig (HIx 2))
-- a bound on the (semaphore, index) pairs the TensorCore's waits have recorded before the region
variable (B : Dev nD → Set (SemLoc sig × HIx 2))

/-- The region's invariant: the scoped buffers no window stages, at some contents, and the generator register. -/
def ΦR0 (c : Dev nD) : sProp 𝕄 :=
  iprop(Pipeline.scopedRest (Ix := HIx 2) (Name := ℕ) (U := UU) (Lvl := ℕ) (Val := Elt F) spec0 c ∗ ∃ r, prngReg c r)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds its block at every point. -/
theorem before0_0_of {c : Dev nD} (dat : Dat τ (Elt F) (HIx 2) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight block's staging buffer holds the whole weight matrix at every point (fetched once: its index never moves). -/
theorem before0_1_of {c : Dev nD} (dat : Dat τ (Elt F) (HIx 2) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S10000x128 := Rect.unit (s := S10000x128) ![0, 0] S10000x128.size inb_S10000x128_S10000x128_0_0
abbrev rW0 : Rect S128x128 := Rect.unit (s := S128x128) ![0, 0] S128x128.size inb_S128x128_S128x128_0_0

/-- The output window's staging buffer after the body: the one whole store of the product. -/
def out0_2 (x0 : Vec F S10000x128 .f32) (x1 : Vec F S128x128 .f32) : Vec F S10000x128 .f32 :=
  View.canon [⟨rX0, k0_pay1 (View.ld x0 rX0) (View.ld x1 rW0)⟩]

theorem cover0_2 (p0 : Vec F S10000x128 .f32) (y : S10000x128.Idx) :
    ∃ pc ∈ ([⟨rX0, p0⟩] : List (View.Piece (Elt F) S10000x128 .f32)), y ∈ pc.1.set :=
  View.cover_of_tiled [⟨rX0, p0⟩] S10000x128.size (by rfl) y

set_option maxHeartbeats 1000000 in
/-- The body on whole staging memrefs: the two inputs kept, the output's buffer at the product. -/
theorem sound_kernel0 (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (Kp : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ Kp ⟨⟩))
      ⊢ wp frame (wpE (defs₀ (F := F)) Variants.none c none) E (cc0__mm_body i arg1 harg1 arg2 harg2 arg3 harg3) Kp := by
  simp only [cc0__mm_body_eq_skeleton]; unfold cc0__mm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the pipeline on core `c`: the arrays as the region finds them; after the body at point `t`
    each input's buffer at its block and the output's at the product of the two; the scoped rest and the generator
    register untouched; the TensorCore owing `O c` throughout; full shares. -/
def dat0 (c : Dev nD) : Dat τ (Elt F) (HIx 2) ℕ UU ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := ΦR0 c
  q _ := fullShare
  owed _ := O c
  recorded _ := B c

theorem A_eq0 (c : Dev nD) (w : Fin cfg0.W) : (dat0 V O B c).A w = V c (Pipeline.arrRef spec0 w) := by
  dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = out0_2 (iblk0 V c 0 t) (iblk0 V c 1 t) := by dsimp only [dat0]
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d

def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d)))

def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t))

theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1]
  rw [show (dat0 V O B c).Φ t.succ = (dat0 V O B c).Φ t.castSucc from rfl,
    show (dat0 V O B c).owesAt none t.succ = (dat0 V O B c).owesAt none t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V O B c) (defs₀ (F := F)) Variants.none none Set.univ := fun t => by
  rw [bigSep_W0, bigSep_W0]
  exact sound_body0 V O B c t

end Region

end Cert.Proof.KB

end
-- ==== Proof.KBRegion2.lean ====
/-
  The matrix-product region of the second half of the rows, as one pipeline region of the program.

  At a parameter `V` (the TensorCore's buffer contents when the region is entered): each window's
  block at a grid point read off its array, what the body leaves in the output window's staging
  buffer (the product of the row block with the transposed weight block, into a zero accumulator,
  stored whole), the body's triple, the pipeline's proof data and the body obligation at every point.
-/
import proofs.«209939_g34969623724736_cont_8to1_b_5_19_alg».proof.Proof.KBBase
import proofs.«209939_g34969623724736_cont_8to1_b_5_19_alg».proof.Proof.Gen.Kernel.Launch
import proofs.«209939_g34969623724736_cont_8to1_b_5_19_alg».proof.Proof.Gen.Kernel.Skeleton
import proofs.«209939_g34969623724736_cont_8to1_b_5_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Region

variable (V : (c : Dev nD) → (b : Ref sig .tc) → Buf (Elt F) ((c : Thread nD τ).loc b))
-- what the TensorCore owes the launch handshakes while the region runs (the start signals of later calls)
variable (O : Dev nD → CellTallies nD τ sig (HIx 2))
-- a bound on the (semaphore, index) pairs the TensorCore's waits have recorded before the region
variable (B : Dev nD → Set (SemLoc sig × HIx 2))

/-- The region's invariant: the scoped buffers no window stages, at some contents, and the generator register. -/
def ΦR2 (c : Dev nD) : sProp 𝕄 :=
  iprop(Pipeline.scopedRest (Ix := HIx 2) (Name := ℕ) (U := UU) (Lvl := ℕ) (Val := Elt F) spec2 c ∗ ∃ r, prngReg c r)

/-- Window `w`'s block at point `t`, read off its array as the region finds it. -/
def iblk1 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds its block at every point. -/
theorem before1_0_of {c : Dev nD} (dat : Dat τ (Elt F) (HIx 2) ℕ UU ℕ cfg2 c) (hA : dat.A 0 = V c (Pipeline.arrRef spec2 0))
    (hafter : ∀ t, dat.after 0 t = iblk1 V c 0 t) (t : Fin cfg2.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight block's staging buffer holds the whole weight matrix at every point (fetched once: its index never moves). -/
theorem before1_1_of {c : Dev nD} (dat : Dat τ (Elt F) (HIx 2) ℕ UU ℕ cfg2 c) (hA : dat.A 1 = V c (Pipeline.arrRef spec2 1))
    (hafter : ∀ t, dat.after 1 t = iblk1 V c 1 t) (t : Fin cfg2.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S10000x128 := Rect.unit (s := S10000x128) ![0, 0] S10000x128.size inb_S10000x128_S10000x128_0_0
abbrev rW1 : Rect S128x128 := Rect.unit (s := S128x128) ![0, 0] S128x128.size inb_S128x128_S128x128_0_0

/-- The output window's staging buffer after the body: the one whole store of the product. -/
def out1_2 (x0 : Vec F S10000x128 .f32) (x1 : Vec F S128x128 .f32) : Vec F S10000x128 .f32 :=
  View.canon [⟨rX1, k2_pay1 (View.ld x0 rX1) (View.ld x1 rW1)⟩]

theorem cover1_2 (p0 : Vec F S10000x128 .f32) (y : S10000x128.Idx) :
    ∃ pc ∈ ([⟨rX1, p0⟩] : List (View.Piece (Elt F) S10000x128 .f32)), y ∈ pc.1.set :=
  View.cover_of_tiled [⟨rX1, p0⟩] S10000x128.size (by rfl) y

set_option maxHeartbeats 1000000 in
/-- The body on whole staging memrefs: the two inputs kept, the output's buffer at the product. -/
theorem sound_kernel1 (c : Dev nD) (E : Set ℕ) (i : grid2.Coords)
    (arg1 : Memref sig .tc .vmem S10000x128 .f32) (harg1 : arg1.IsWhole) (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (Kp : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ Kp ⟨⟩))
      ⊢ wp frame (wpE (defs₀ (F := F)) Variants.none c none) E (cc2__mm_body i arg1 harg1 arg2 harg2 arg3 harg3) Kp := by
  simp only [cc2__mm_body_eq_skeleton]; unfold cc2__mm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the pipeline on core `c`: the arrays as the region finds them; after the body at point `t`
    each input's buffer at its block and the output's at the product of the two; the scoped rest and the generator
    register untouched; the TensorCore owing `O c` throughout; full shares. -/
def dat1 (c : Dev nD) : Dat τ (Elt F) (HIx 2) ℕ UU ℕ cfg2 c where
  A w := V c (Pipeline.arrRef spec2 w)
  after w t := match w with
    | ⟨0, _⟩ => iblk1 V c 0 t
    | ⟨1, _⟩ => iblk1 V c 1 t
    | ⟨2, _⟩ => out1_2 (iblk1 V c 0 t) (iblk1 V c 1 t)
  Φ _ := ΦR2 c
  q _ := fullShare
  owed _ := O c
  recorded _ := B c

theorem A_eq1 (c : Dev nD) (w : Fin cfg2.W) : (dat1 V O B c).A w = V c (Pipeline.arrRef spec2 w) := by
  dsimp only [dat1]
theorem after1_0 (c : Dev nD) (t : Fin cfg2.N) : (dat1 V O B c).after 0 t = iblk1 V c 0 t := by dsimp only [dat1]
theorem after1_1 (c : Dev nD) (t : Fin cfg2.N) : (dat1 V O B c).after 1 t = iblk1 V c 1 t := by dsimp only [dat1]
theorem after1_2 (c : Dev nD) (t : Fin cfg2.N) : (dat1 V O B c).after 2 t = out1_2 (iblk1 V c 0 t) (iblk1 V c 1 t) := by dsimp only [dat1]
theorem before1_0 (c : Dev nD) (t : Fin cfg2.N) (d) : (dat1 V O B c).before 0 t d = iblk1 V c 0 t :=
  before1_0_of V (dat1 V O B c) (A_eq1 V O B c 0) (after1_0 V O B c) t d
theorem before1_1 (c : Dev nD) (t : Fin cfg2.N) (d) : (dat1 V O B c).before 1 t d = iblk1 V c 1 t :=
  before1_1_of V (dat1 V O B c) (A_eq1 V O B c 1) (after1_1 V O B c) t d

def bodyPre1 (c : Dev nD) (t : Fin cfg2.N) : sProp 𝕄 :=
  iprop((dat1 V O B c).Φ t.castSucc ∗ (dat1 V O B c).owesAt none t.castSucc
    ∗ (∃ d, owns (c : Thread nD τ) (st2_0 t) fullShare ((dat1 V O B c).before 0 t d))
    ∗ (∃ d, owns (c : Thread nD τ) (st2_1 t) fullShare ((dat1 V O B c).before 1 t d))
    ∗ (∃ d, owns (c : Thread nD τ) (st2_2 t) fullShare ((dat1 V O B c).before 2 t d)))

def bodyPost1 (c : Dev nD) (t : Fin cfg2.N) : sProp 𝕄 :=
  iprop((dat1 V O B c).Φ t.succ ∗ (dat1 V O B c).owesAt none t.succ
    ∗ owns (c : Thread nD τ) (st2_0 t) fullShare ((dat1 V O B c).after 0 t)
    ∗ owns (c : Thread nD τ) (st2_1 t) fullShare ((dat1 V O B c).after 1 t)
    ∗ owns (c : Thread nD τ) (st2_2 t) fullShare ((dat1 V O B c).after 2 t))

theorem sound_body1 (c : Dev nD) (t : Fin cfg2.N) :
    bodyPre1 V O B c t ⊢ wp frame (wpE (defs₀ (F := F)) Variants.none c none) Set.univ (bodyAt2 t) (fun _ => bodyPost1 V O B c t) := by
  unfold bodyPre1 bodyPost1 bodyAt2
  simp only [before1_0, before1_1]
  rw [show (dat1 V O B c).Φ t.succ = (dat1 V O B c).Φ t.castSucc from rfl,
    show (dat1 V O B c).owesAt none t.succ = (dat1 V O B c).owesAt none t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V O B c) (defs₀ (F := F)) Variants.none none Set.univ := fun t => by
  rw [bigSep_W2, bigSep_W2]
  exact sound_body1 V O B c t

end Region

end Cert.Proof.KB

end
-- ==== Proof.KBPay.lean ====
/-
  What the two tree launches hand over and take back.

  Launch `q` reads its flat input whole and writes its chunked output.  Every tile reads the whole
  input, so the input goes out as 32 read shares, one per worker, the remainder staying with the
  TensorCore; the output goes out row by row (a row is a chunk): worker `w` owns the rows `ch` with
  `ch % 32 = w`, SparseCore `c` those with `ch % 2 = c` (worker `2 s + c` sits on SparseCore `c`).
  Handed over, an output row holds anything; taken back, it holds the launch's value function of
  the input's contents `X q d`.
-/
import proofs.«209939_g34969623724736_cont_8to1_b_5_19_alg».proof.Proof.KBBase

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig (HIx 2) (Elt F) ℕ UU ℕ

/-- The contents of the two launches' inputs when they are called, per device. -/
abbrev Inputs (F : FTy → Type) : Type := (d : Dev nD) → (S6400000.Idx → F .f32) × (S6400000.Idx → F .f32)

variable (X : Inputs F)

/-- Worker `w`'s read share of launch 0's input, and what remains with the TensorCore. -/
abbrev in0Tok (d : Dev nD) (w : ℕ) : sProp 𝕄 := in0Loc d ↦{shareTokN fullShare w} (X d).1
abbrev in1Tok (d : Dev nD) (w : ℕ) : sProp 𝕄 := in1Loc d ↦{shareTokN fullShare w} (X d).2
/-- Output row `ch` at anything, and at the launch's value. -/
abbrev out0Any (d : Dev nD) (ch : Fin 125) : sProp 𝕄 := iprop(∃ f, out0Loc d ↦[rowSet ch]{fullShare} f)
abbrev out1Any (d : Dev nD) (ch : Fin 125) : sProp 𝕄 := iprop(∃ f, out1Loc d ↦[rowSet ch]{fullShare} f)
abbrev out0Val (d : Dev nD) (ch : Fin 125) : sProp 𝕄 := out0Loc d ↦[rowSet ch]{fullShare} (KTree.outFlat (X d).1)
abbrev out1Val (d : Dev nD) (ch : Fin 125) : sProp 𝕄 := out1Loc d ↦[rowSet ch]{fullShare} (KTree.outFlat (X d).2)

/-- The chunks of SparseCore `c`. -/
def chunksOfCore (c : ℕ) : Finset (Fin 125) := Finset.univ.filter fun ch => ch.val % 2 = c

/-- The two calls' payloads: to a SparseCore its sixteen workers' read shares and its rows; to a tile its own. -/
def P : (K (F := F)).Pay (nD := nD) (Val := Elt F) (Name := ℕ) (U := UU) where
  st := fun q d c => match q with
    | 0 => iprop((bigSep (Finset.univ : Finset (Fin 16)) fun i => in0Tok X d (wid c.val i.val)) ∗ bigSep (chunksOfCore c.val) fun ch => out0Any d ch)
    | 1 => iprop((bigSep (Finset.univ : Finset (Fin 16)) fun i => in1Tok X d (wid c.val i.val)) ∗ bigSep (chunksOfCore c.val) fun ch => out1Any d ch)
  dn := fun q d c => match q with
    | 0 => iprop((bigSep (Finset.univ : Finset (Fin 16)) fun i => in0Tok X d (wid c.val i.val)) ∗ bigSep (chunksOfCore c.val) fun ch => out0Val X d ch)
    | 1 => iprop((bigSep (Finset.univ : Finset (Fin 16)) fun i => in1Tok X d (wid c.val i.val)) ∗ bigSep (chunksOfCore c.val) fun ch => out1Val X d ch)
  go := fun q d c i => match q with
    | 0 => iprop(in0Tok X d (wid c.val i.val) ∗ bigSep (chunksOf (wid c.val i.val)) fun ch => out0Any d ch)
    | 1 => iprop(in1Tok X d (wid c.val i.val) ∗ bigSep (chunksOf (wid c.val i.val)) fun ch => out1Any d ch)
  td := fun q d c i => match q with
    | 0 => iprop(in0Tok X d (wid c.val i.val) ∗ bigSep (chunksOf (wid c.val i.val)) fun ch => out0Val X d ch)
    | 1 => iprop(in1Tok X d (wid c.val i.val) ∗ bigSep (chunksOf (wid c.val i.val)) fun ch => out1Val X d ch)
  x := fun _ _ => iprop(emp)

end Cert.Proof.KB

end
-- ==== Proof.KBFold.lean ====
/-
  The TensorCore's buffer contents at every boundary of @main, as a fold from the launch memory:
  the weight matrix built by six host operations, the first half's matrix product (a pipeline
  region), its flattening, the first tree launch, its reshaping, the second half's product, its
  flattening, the second tree launch, its reshaping, and the concatenation of the two halves.
  A host operation acts by its function; a region leaves in its arrays what its write-backs fold to;
  a tree launch leaves in its output array the kernel's value function of its input array.
-/
import proofs.«209939_g34969623724736_cont_8to1_b_5_19_alg».proof.Proof.KBRegion0
import proofs.«209939_g34969623724736_cont_8to1_b_5_19_alg».proof.Proof.KBRegion2
import proofs.«209939_g34969623724736_cont_8to1_b_5_19_alg».proof.Proof.KBPay

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The ghost state's three parts -/

/-- The launch handshakes' rounds. -/
abbrev EH : Emb UH (MT nD τ sig (HIx 2) (Elt F) ℕ UU ℕ) := embL
/-- The matrix products' staging cells' rounds. -/
def ER : Emb UR (MT nD τ sig (HIx 2) (Elt F) ℕ UU ℕ) := (Emb.inl : Emb UR (UR × Counters)).trans embR
instance ER_landsIn : (ER : Emb UR 𝕄).LandsIn (upEmb : UEmb _ 𝕄) := by unfold ER; infer_instance

/-! ## @main's host operations -/

abbrev op_cst : HloOp τ sig (Elt F) := StableHlo.nullary main_cst (constant S_ .f32 0x00000000#32)
abbrev op_v0 : HloOp τ sig (Elt F) := StableHlo.unary main_cst main_v0 (broadcastInDim S1x128 ![] bcast_S_S1x128 : (⟨S_, .f32⟩ : BufTy).Contents (Elt F) → (⟨S1x128, .f32⟩ : BufTy).Contents (Elt F))
abbrev op_v1 : HloOp τ sig (Elt F) := StableHlo.binary main_arg1 main_v0 main_v1 ((fun a b => concatenate S16x128 0 [⟨S15x128, a⟩, ⟨S1x128, b⟩] concatenates_S15x128_S1x128_S16x128_d0) : (⟨S15x128, .f32⟩ : BufTy).Contents (Elt F) → (⟨S1x128, .f32⟩ : BufTy).Contents (Elt F) → (⟨S16x128, .f32⟩ : BufTy).Contents (Elt F))
abbrev op_v2 : HloOp τ sig (Elt F) := StableHlo.reshape main_v1 main_v2 rfl shapeCasts_S16x128_S1x16x1x128
abbrev op_v3 : HloOp τ sig (Elt F) := StableHlo.unary main_v2 main_v3 (broadcastInDim S8x16x1x128 ![0, 1, 2, 3] bcast_S1x16x1x128_S8x16x1x128_0_1_2_3 : (⟨S1x16x1x128, .f32⟩ : BufTy).Contents (Elt F) → (⟨S8x16x1x128, .f32⟩ : BufTy).Contents (Elt F))
abbrev op_v4 : HloOp τ sig (Elt F) := StableHlo.reshape main_v3 main_v4 rfl shapeCasts_S8x16x1x128_S128x128
abbrev op_v6 : HloOp τ sig (Elt F) := StableHlo.reshape main_v5 main_v6 rfl shapeCasts_S50000x128_S6400000
abbrev op_v8 : HloOp τ sig (Elt F) := StableHlo.reshape main_v7 main_v8 rfl shapeCasts_S125x12400_S50000x31
abbrev op_v10 : HloOp τ sig (Elt F) := StableHlo.reshape main_v9 main_v10 rfl shapeCasts_S50000x128_S6400000
abbrev op_v12 : HloOp τ sig (Elt F) := StableHlo.reshape main_v11 main_v12 rfl shapeCasts_S125x12400_S50000x31
abbrev op_v13 : HloOp τ sig (Elt F) := StableHlo.binary main_v8 main_v12 main_v13 ((fun a b => concatenate S100000x31 0 [⟨S50000x31, a⟩, ⟨S50000x31, b⟩] concatenates_S50000x31_S50000x31_S100000x31_d0) : (⟨S50000x31, .f32⟩ : BufTy).Contents (Elt F) → (⟨S50000x31, .f32⟩ : BufTy).Contents (Elt F) → (⟨S100000x31, .f32⟩ : BufTy).Contents (Elt F))

/-! ## The contents at each boundary -/

variable (m : (ℓ : Loc nD τ sig) → Buf (Elt F) ℓ)

/-- What the TensorCore of `c` owes the launch handshakes before call `n`, and the level bound on its recorded waits. -/
abbrev Otc (c : Dev nD) (n : ℕ) : CellTallies nD τ sig (HIx 2) := (K (F := F)).Otc c n
def Bnd (n : ℕ) (c : Dev nD) : Set (SemLoc sig × HIx 2) := {p | (K (F := F)).lev ((T c : Thread nD τ), p.1) p.2 ≤ 8 * n}

/-- At launch. -/
abbrev W0 (c : Dev nD) : Valuation τ sig (Elt F) := fun b => m (c, b)
/-- After the six operations that build the weight matrix. -/
abbrev W1 (c : Dev nD) : Valuation τ sig (Elt F) :=
  (op_v4 (F := F)).result ((op_v3 (F := F)).result ((op_v2 (F := F)).result ((op_v1 (F := F)).result ((op_v0 (F := F)).result ((op_cst (F := F)).result (W0 m c))))))
abbrev V1 : (c : Dev nD) → (b : Ref sig .tc) → Buf (Elt F) ((c : Thread nD τ).loc b) := fun c b => W1 m c b
/-- After the first matrix product. -/
def W2 (c : Dev nD) : Valuation τ sig (Elt F) :=
  Pipeline.withArrays spec0 c (W1 m c) fun w => (dat0 (V1 m) (fun c => Otc (F := F) c 0) (Bnd (F := F) 0) c).arrAt w cfg0.N
/-- After its flattening. -/
abbrev W3 (c : Dev nD) : Valuation τ sig (Elt F) := (op_v6 (F := F)).result (W2 m c)
/-- After the first tree launch. -/
def W4 (c : Dev nD) : Valuation τ sig (Elt F) :=
  Function.update (W3 m c) (Proc.devRef .tc main_v7) (KTree.outFlat (W3 m c (Proc.devRef .tc main_v6)))
/-- After its reshaping. -/
abbrev W5 (c : Dev nD) : Valuation τ sig (Elt F) := (op_v8 (F := F)).result (W4 m c)
abbrev V5 : (c : Dev nD) → (b : Ref sig .tc) → Buf (Elt F) ((c : Thread nD τ).loc b) := fun c b => W5 m c b
/-- After the second matrix product. -/
def W6 (c : Dev nD) : Valuation τ sig (Elt F) :=
  Pipeline.withArrays spec2 c (W5 m c) fun w => (dat1 (V5 m) (fun c => Otc (F := F) c 1) (Bnd (F := F) 1) c).arrAt w cfg2.N
/-- After its flattening. -/
abbrev W7 (c : Dev nD) : Valuation τ sig (Elt F) := (op_v10 (F := F)).result (W6 m c)
/-- After the second tree launch. -/
def W8 (c : Dev nD) : Valuation τ sig (Elt F) :=
  Function.update (W7 m c) (Proc.devRef .tc main_v11) (KTree.outFlat (W7 m c (Proc.devRef .tc main_v10)))
/-- After its reshaping and the concatenation: the end. -/
abbrev W9 (c : Dev nD) : Valuation τ sig (Elt F) := (op_v13 (F := F)).result ((op_v12 (F := F)).result (W8 m c))

/-- The two tree launches' inputs when they are called. -/
def inputs : Inputs F := fun c => (W3 m c (Proc.devRef .tc main_v6), W7 m c (Proc.devRef .tc main_v10))

/-! ## The pipelines' proof data -/

abbrev adm : (p : Fin 2) → (pcfgs (F := F) p).Adm := fun p => (cfgs p).toPCfg_adm
def pdats : (p : Fin 2) → (c : Dev nD) → Dat τ (Elt F) (HIx 2) ℕ UU ℕ (Pipeline.pin (pcfgs (F := F)) adm p) c
  | ⟨0, _⟩ => fun c => dat0 (V1 m) (fun c => Otc (F := F) c 0) (Bnd (F := F) 0) c
  | ⟨1, _⟩ => fun c => dat1 (V5 m) (fun c => Otc (F := F) c 1) (Bnd (F := F) 1) c

end Cert.Proof.KB

end
-- ==== Proof.KBRegs.lean ====
/-
  The two matrix-product regions as segments of @main on the TensorCore, each entered from the
  buffers' contents at its boundary and left at the next boundary's.
-/
import proofs.«209939_g34969623724736_cont_8to1_b_5_19_alg».proof.Proof.KBFold

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- What the TensorCore owes the launch handshakes sits at a call's index, never at the kernels' own. -/
theorem Otc_none (c : Dev nD) (n : ℕ) (g : GSem nD τ sig) : Otc (F := F) c n g none = 0 := by
  by_contra h
  have := SparseCore.Cfg.lev_of_Otc_pos (K := K (F := F)) (Nat.pos_of_ne_zero h)
  rw [SparseCore.Cfg.lev_none] at this; omega

/-- What rides beside the buffers through a region: the generator register at some state, and the TensorCore's
    debt to the launch handshakes before call `n` with its recorded waits at or below that call's level. -/
abbrev Rn (n : ℕ) (c : Dev nD) : sProp 𝕄 :=
  iprop((∃ r, prngReg c r) ∗ ∃ W, ⌜∀ p ∈ W, p ∈ Bnd (F := F) n c⌝ ∗ owes (c : Thread nD τ) (Otc (F := F) c n) W)

variable (m : (ℓ : Loc nD τ sig) → Buf (Elt F) ℓ)

theorem hF0 (c : Dev nD) (w : Fin cfg0.W) : (dat0 (V1 m) (fun c => Otc (F := F) c 0) (Bnd (F := F) 0) c).arrAt w cfg0.N = (fun b => W2 m c b : (b : Ref sig .tc) → Buf (Elt F) ((c : Thread nD τ).loc b)) (Pipeline.arrRef spec0 w) := by
  have h : W2 m c (Proc.devRef .tc (Pipeline.arrRef spec0 w)) = (dat0 (V1 m) (fun c => Otc (F := F) c 0) (Bnd (F := F) 0) c).arrAt w cfg0.N := by
    unfold W2; exact Pipeline.withArrays_arr spec0 launch0.win.arr_inj c _ _ w
  exact h.symm
theorem hrest0 (c : Dev nD) : ∀ b, b ∉ Finset.univ.image (Pipeline.arrRef spec0) →
    (fun b => W2 m c b : (b : Ref sig .tc) → Buf (Elt F) ((c : Thread nD τ).loc b)) b = V1 m c b :=
  fun b hb => by
    show W2 m c (Proc.devRef .tc b) = W1 m c (Proc.devRef .tc b)
    unfold W2; exact Pipeline.withArrays_of_ne spec0 c _ _ b fun w e => hb (Finset.mem_image.mpr ⟨w, Finset.mem_univ _, e⟩)

set_option backward.isDefEq.respectTransparency.types false in
/-- The matrix-product region 0: entered from every unscoped buffer at its boundary's contents, left at the next
    boundary's; the generator register into the region's invariant and out; the TensorCore owing the launch
    handshakes what it owes before call 0 throughout, its recorded waits kept at or below that call's level. -/
def reg0 : Pipeline.RegionSeg (pcfgs (F := F)) adm (pdats m) (none : HIx 2) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m) (fun c => Otc (F := F) c 0) (Bnd (F := F) 0) c).loose
  hwaits c := Pipeline.cellsWaits_intro (Pipeline.pin (pcfgs (F := F)) adm) (pdats m) (none : HIx 2) 0 c fun w s t =>
    (K (F := F)).mayWait_none (thr := (c : Thread nD τ)) _ (Otc_none (F := F) c 0)
  pre c := iprop(StableHlo.held (c : Thread nD τ) (Pipeline.ucRefs τ sig) (W1 m c) ∗ Rn (F := F) 0 c)
  post c := iprop(StableHlo.held (c : Thread nD τ) (Pipeline.ucRefs τ sig) (W2 m c) ∗ Rn (F := F) 0 c)
  X c := iprop(∃ r, prngReg c r)
  Y c := iprop(∃ r, prngReg c r)
  Z c := Pipeline.unscopedRest (Ix := HIx 2) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = ΦR0 c from rfl]; unfold ΦR0
    iintro ⟨Hp, -, Hr⟩
    isplitl [Hr]; · iexact Hr
    iexact Hp
  hout c := by
    rw [Pipeline.ownSems0_none, show (pdats m 0 c).Φ (Fin.last _) = ΦR0 c from rfl]; unfold ΦR0
    iintro ⟨Hr, Hp⟩
    isplitl [Hp]; · iexact Hp
    isplitr; · iempintro
    iexact Hr
  hexit c := by
    have hjoin := Pipeline.unscopedBufs_of_arrays (p := 0) (pcfgs (F := F)) adm (Ix := HIx 2) (Name := ℕ) (U := UU) (Lvl := ℕ)
      launch0.win launch0.arr_whole c (pdats m) ((pdats m 0 c).share_full fun _ => rfl)
      (V1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, rfl⟩
      · exact h
      · exact Nat.zero_le _
    iexact HO

theorem hF1 (c : Dev nD) (w : Fin cfg2.W) : (dat1 (V5 m) (fun c => Otc (F := F) c 1) (Bnd (F := F) 1) c).arrAt w cfg2.N = (fun b => W6 m c b : (b : Ref sig .tc) → Buf (Elt F) ((c : Thread nD τ).loc b)) (Pipeline.arrRef spec2 w) := by
  have h : W6 m c (Proc.devRef .tc (Pipeline.arrRef spec2 w)) = (dat1 (V5 m) (fun c => Otc (F := F) c 1) (Bnd (F := F) 1) c).arrAt w cfg2.N := by
    unfold W6; exact Pipeline.withArrays_arr spec2 launch2.win.arr_inj c _ _ w
  exact h.symm
theorem hrest1 (c : Dev nD) : ∀ b, b ∉ Finset.univ.image (Pipeline.arrRef spec2) →
    (fun b => W6 m c b : (b : Ref sig .tc) → Buf (Elt F) ((c : Thread nD τ).loc b)) b = V5 m c b :=
  fun b hb => by
    show W6 m c (Proc.devRef .tc b) = W5 m c (Proc.devRef .tc b)
    unfold W6; exact Pipeline.withArrays_of_ne spec2 c _ _ b fun w e => hb (Finset.mem_image.mpr ⟨w, Finset.mem_univ _, e⟩)

set_option backward.isDefEq.respectTransparency.types false in
/-- The matrix-product region 1: entered from every unscoped buffer at its boundary's contents, left at the next
    boundary's; the generator register into the region's invariant and out; the TensorCore owing the launch
    handshakes what it owes before call 1 throughout, its recorded waits kept at or below that call's level. -/
def reg1 : Pipeline.RegionSeg (pcfgs (F := F)) adm (pdats m) (none : HIx 2) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation1 (V5 m) (fun c => Otc (F := F) c 1) (Bnd (F := F) 1) c).loose
  hwaits c := Pipeline.cellsWaits_intro (Pipeline.pin (pcfgs (F := F)) adm) (pdats m) (none : HIx 2) 1 c fun w s t =>
    (K (F := F)).mayWait_none (thr := (c : Thread nD τ)) _ (Otc_none (F := F) c 1)
  pre c := iprop(StableHlo.held (c : Thread nD τ) (Pipeline.ucRefs τ sig) (W5 m c) ∗ Rn (F := F) 1 c)
  post c := iprop(StableHlo.held (c : Thread nD τ) (Pipeline.ucRefs τ sig) (W6 m c) ∗ Rn (F := F) 1 c)
  X c := iprop(∃ r, prngReg c r)
  Y c := iprop(∃ r, prngReg c r)
  Z c := Pipeline.unscopedRest (Ix := HIx 2) (Name := ℕ) (U := UU) (Lvl := ℕ) spec2 c (V5 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 1 c).Φ 0 = ΦR2 c from rfl]; unfold ΦR2
    iintro ⟨Hp, -, Hr⟩
    isplitl [Hr]; · iexact Hr
    iexact Hp
  hout c := by
    rw [Pipeline.ownSems0_none, show (pdats m 1 c).Φ (Fin.last _) = ΦR2 c from rfl]; unfold ΦR2
    iintro ⟨Hr, Hp⟩
    isplitl [Hp]; · iexact Hp
    isplitr; · iempintro
    iexact Hr
  hexit c := by
    have hjoin := Pipeline.unscopedBufs_of_arrays (p := 1) (pcfgs (F := F)) adm (Ix := HIx 2) (Name := ℕ) (U := UU) (Lvl := ℕ)
      launch2.win launch2.arr_whole c (pdats m) ((pdats m 1 c).share_full fun _ => rfl)
      (V5 m c) (fun b => W6 m c b) ((pdats m 1 c).arrAt · cfg2.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, rfl⟩
      · exact h
      · exact Nat.zero_le _
    iexact HO

end Cert.Proof.KB

end
-- ==== Proof.KBSteps.lean ====
/-
  @main on the TensorCore, step by step: the two matrix-product regions as steps of a program whose
  body table is the SparseCore launch's.
-/
import proofs.«209939_g34969623724736_cont_8to1_b_5_19_alg».proof.Proof.KBRegs

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 2) (Elt F) ℕ UU ℕ

variable (m : (ℓ : Loc nD τ sig) → Buf (Elt F) ℓ)

theorem lift_entry0 (d : Dev nD) :
    (Prog.lift (.customCall (SparseCore.inner (Pipeline.entry 0)) ()) :
        Prog (TpuEff nD τ sig (Elt F) (SparseCore.Sig (ΛP (F := F)) 2) (d : Thread nD τ).2) PUnit)
      = SparseCore.liftProg (Q := 2) (Prog.op (.customCall (Pipeline.entry 0) ()) fun _ => Prog.ret ⟨⟩ :
          Prog (TpuEff nD τ sig (Elt F) (ΛP (F := F)) (d : Thread nD τ).2) PUnit) := rfl

/-- Matrix-product region 0 as a step of @main under the SparseCore program's body table: entered through the
    lifting of the certificate's table, run by the region rule on the pipeline's share of the ghost state. -/
theorem region_step0 (d : Dev nD) (Φ : PUnit → sProp 𝕄) :
    iprop(levAts (K (F := F)).L (K (F := F)).lev ∗ boundary (d : Thread nD τ)
        ∗ StableHlo.held (d : Thread nD τ) (Pipeline.ucRefs τ sig) (W1 m d) ∗ Rn (F := F) 0 d
        ∗ (Pipeline.cellsGhost (Pipeline.pin (pcfgs (F := F)) adm) ER 0 d ∗ Pipeline.toksInit (Pipeline.pin (pcfgs (F := F)) adm) ER 0 d)
        ∗ (iprop(boundary (d : Thread nD τ) ∗ StableHlo.held (d : Thread nD τ) (Pipeline.ucRefs τ sig) (W2 m d) ∗ Rn (F := F) 0 d) -∗ Φ ⟨⟩))
      ⊢ wp frame (wpE ((K (F := F)).defs (D (F := F))) 𝒱 (d : Thread nD τ) none) Set.univ
          (Prog.lift (.customCall (SparseCore.inner (Pipeline.entry 0)) ())) Φ := by
  have hl := (K (F := F)).wp_liftProg (D (F := F)) 𝒱 (d : Thread nD τ) Set.univ none
    (Prog.op (.customCall (Pipeline.entry 0) ()) fun _ => Prog.ret ⟨⟩) Φ
  have h := Pipeline.RegionSeg.wp (pcfgs (F := F)) adm (pdats m) (none : HIx 2) cellOf_inj ER defs₀ 𝒱₀ (K (F := F)).L (K (F := F)).lev
    (reg0 m) d none (fun u h => nomatch h) (fun _ => Prog.ret ⟨⟩) Φ
  have hpre : (reg0 m).pre d = iprop(StableHlo.held (d : Thread nD τ) (Pipeline.ucRefs τ sig) (W1 m d) ∗ Rn (F := F) 0 d) := rfl
  have hpost : (reg0 m).post d = iprop(StableHlo.held (d : Thread nD τ) (Pipeline.ucRefs τ sig) (W2 m d) ∗ Rn (F := F) 0 d) := rfl
  rw [lift_entry0]
  refine BIBase.Entails.trans ?_ hl
  refine BIBase.Entails.trans ?_ h
  iintro ⟨#Hla, Hb, Hheld, HR, ⟨Hg, Ht⟩, Hk⟩
  isplitl [Hk]
  · iintro ⟨Hb, Hpost⟩
    rw [wp_ret]; imodintro
    iapply Hk
    isplitl [Hb]; · iexact Hb
    iapply (Entails.of_eq hpost); iexact Hpost
  isplitl [Hb]; · iexact Hb
  isplitl [Hheld HR]
  · iapply (Entails.of_eq hpre.symm)
    isplitl [Hheld] <;> iassumption
  isplitr; · iexact Hla
  isplitl [Hg] <;> iassumption

theorem lift_entry1 (d : Dev nD) :
    (Prog.lift (.customCall (SparseCore.inner (Pipeline.entry 1)) ()) :
        Prog (TpuEff nD τ sig (Elt F) (SparseCore.Sig (ΛP (F := F)) 2) (d : Thread nD τ).2) PUnit)
      = SparseCore.liftProg (Q := 2) (Prog.op (.customCall (Pipeline.entry 1) ()) fun _ => Prog.ret ⟨⟩ :
          Prog (TpuEff nD τ sig (Elt F) (ΛP (F := F)) (d : Thread nD τ).2) PUnit) := rfl

/-- Matrix-product region 1 as a step of @main under the SparseCore program's body table: entered through the
    lifting of the certificate's table, run by the region rule on the pipeline's share of the ghost state. -/
theorem region_step1 (d : Dev nD) (Φ : PUnit → sProp 𝕄) :
    iprop(levAts (K (F := F)).L (K (F := F)).lev ∗ boundary (d : Thread nD τ)
        ∗ StableHlo.held (d : Thread nD τ) (Pipeline.ucRefs τ sig) (W5 m d) ∗ Rn (F := F) 1 d
        ∗ (Pipeline.cellsGhost (Pipeline.pin (pcfgs (F := F)) adm) ER 1 d ∗ Pipeline.toksInit (Pipeline.pin (pcfgs (F := F)) adm) ER 1 d)
        ∗ (iprop(boundary (d : Thread nD τ) ∗ StableHlo.held (d : Thread nD τ) (Pipeline.ucRefs τ sig) (W6 m d) ∗ Rn (F := F) 1 d) -∗ Φ ⟨⟩))
      ⊢ wp frame (wpE ((K (F := F)).defs (D (F := F))) 𝒱 (d : Thread nD τ) none) Set.univ
          (Prog.lift (.customCall (SparseCore.inner (Pipeline.entry 1)) ())) Φ := by
  have hl := (K (F := F)).wp_liftProg (D (F := F)) 𝒱 (d : Thread nD τ) Set.univ none
    (Prog.op (.customCall (Pipeline.entry 1) ()) fun _ => Prog.ret ⟨⟩) Φ
  have h := Pipeline.RegionSeg.wp (pcfgs (F := F)) adm (pdats m) (none : HIx 2) cellOf_inj ER defs₀ 𝒱₀ (K (F := F)).L (K (F := F)).lev
    (reg1 m) d none (fun u h => nomatch h) (fun _ => Prog.ret ⟨⟩) Φ
  have hpre : (reg1 m).pre d = iprop(StableHlo.held (d : Thread nD τ) (Pipeline.ucRefs τ sig) (W5 m d) ∗ Rn (F := F) 1 d) := rfl
  have hpost : (reg1 m).post d = iprop(StableHlo.held (d : Thread nD τ) (Pipeline.ucRefs τ sig) (W6 m d) ∗ Rn (F := F) 1 d) := rfl
  rw [lift_entry1]
  refine BIBase.Entails.trans ?_ hl
  refine BIBase.Entails.trans ?_ h
  iintro ⟨#Hla, Hb, Hheld, HR, ⟨Hg, Ht⟩, Hk⟩
  isplitl [Hk]
  · iintro ⟨Hb, Hpost⟩
    rw [wp_ret]; imodintro
    iapply Hk
    isplitl [Hb]; · iexact Hb
    iapply (Entails.of_eq hpost); iexact Hpost
  isplitl [Hb]; · iexact Hb
  isplitl [Hheld HR]
  · iapply (Entails.of_eq hpre.symm)
    isplitl [Hheld] <;> iassumption
  isplitr; · iexact Hla
  isplitl [Hg] <;> iassumption

end Cert.Proof.KB

end
-- ==== Proof.KBTile.lean ====
/-
  A tile of the first tree launch, named by its grid coordinates: its SparseCore, its subcore, and
  the chunk its trip `k` works on (the row of the output the trip writes, as the kernel's own offset
  arithmetic gives it); the same for the second launch.
-/
import proofs.«209939_g34969623724736_cont_8to1_b_5_19_alg».proof.Proof.KBBase

noncomputable section

namespace Cert.Proof.KB

open Cert.Kernel Cert.Kernel.Gen
open Idealize.ShloMosaic

/-- The tile's SparseCore and subcore, as the device numbers them. -/
abbrev cV (L : grid1.Coords) : Fin τ.nSC := (L 0).castLE hcore1
abbrev jV (L : grid1.Coords) : Fin τ.nSub := (L 1).castLE hsub1
abbrev cV3 (L : grid3.Coords) : Fin τ.nSC := (L 0).castLE hcore3
abbrev jV3 (L : grid3.Coords) : Fin τ.nSub := (L 1).castLE hsub3

/-- The chunk of trip `k` of the tile at `L`: the output row the trip's copy-out targets. -/
def chunk (L : grid1.Coords) (k : Fin (k1_t1_loop L).trips) : Fin 125 :=
  ⟨k1_off2 L k 0, by have h : k1_off2 L k 0 + 1 ≤ 125 := k1_off2_inb L k 0; omega⟩
def chunk3 (L : grid3.Coords) (k : Fin (k3_t1_loop L).trips) : Fin 125 :=
  ⟨k3_off2 L k 0, by have h : k3_off2 L k 0 + 1 ≤ 125 := k3_off2_inb L k 0; omega⟩

end Cert.Proof.KB

end
-- ==== Proof.KBSplitA.lean ====
/-
  The rows of an output array and the chunks of a worker, as finite sets.

  An output array has 125 rows, one per chunk; the rows are pairwise disjoint and cover the array.
  SparseCore `c` owns the chunks `ch` with `ch % 2 = c`; its subcore `s` is worker `2 s + c` and owns
  the chunks with `ch % 32 = 2 s + c`.  Since `ch % 32 = 2 s + c` for some `s < 16` exactly when
  `ch % 2 = c`, a SparseCore's chunks are the disjoint union of its sixteen workers' chunks.
-/
import proofs.«209939_g34969623724736_cont_8to1_b_5_19_alg».proof.Proof.KBPay
import proofs.«209939_g34969623724736_cont_8to1_b_5_19_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

/-! ## The launch semaphores are as the launch theorem wants them -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The rows -/

theorem rowSet_eq (ch : Fin 125) : rowSet ch = (row ch).set := by
  show ((View.whole (main_v7_scv : Ref sig .scVector)).slice (row ch)).set = _
  rw [View.set_slice]; exact Finset.map_refl

theorem rows_disjoint : ∀ i j : Fin 125, i ≠ j → Disjoint (rowSet i) (rowSet j) :=
  fun i j h => by rw [rowSet_eq, rowSet_eq]; exact Rect.part_disjoint hdiv h

theorem rows_cover : (Finset.univ : Finset (Fin 125)).biUnion rowSet = Finset.univ :=
  (Finset.biUnion_congr rfl fun i _ => rowSet_eq i).trans (Rect.biUnion_part hdiv)

/-! ## A SparseCore's chunks are its sixteen workers' -/

/-- The workers' chunk sets are pairwise disjoint: a chunk has one residue modulo 32. -/
theorem chunksOf_disjoint {w w' : ℕ} (h : w ≠ w') : Disjoint (chunksOf w) (chunksOf w') := by
  rw [Finset.disjoint_left]
  intro ch h1 h2
  rw [chunksOf, Finset.mem_filter] at h1 h2
  exact h (h1.2.symm.trans h2.2)

theorem wid_inj {c : ℕ} {s s' : Fin 16} (h : wid c s.val = wid c s'.val) : s = s' := by
  unfold wid at h; exact Fin.ext (by omega)

/-- `ch % 2 = c` exactly when `ch % 32 = 2 s + c` for a subcore `s`. -/
theorem chunksOfCore_eq {c : ℕ} (hc : c < 2) :
    chunksOfCore c = (Finset.univ : Finset (Fin 16)).biUnion fun s => chunksOf (wid c s.val) := by
  ext ch
  rw [Finset.mem_biUnion]
  constructor
  · intro h
    have h2 : ch.val % 2 = c := (Finset.mem_filter.mp h).2
    refine ⟨⟨ch.val % 32 / 2, by omega⟩, Finset.mem_univ _, Finset.mem_filter.mpr ⟨Finset.mem_univ _, ?_⟩⟩
    show ch.val % 32 = 2 * (ch.val % 32 / 2) + c; omega
  · rintro ⟨s, -, hs⟩
    have h32 : ch.val % 32 = 2 * s.val + c := (Finset.mem_filter.mp hs).2
    refine Finset.mem_filter.mpr ⟨Finset.mem_univ _, ?_⟩
    show ch.val % 2 = c; omega

end Cert.Proof.KB

end
-- ==== Proof.KBSplitB.lean ====
/-
  A worker's chunks, counted by its loop.

  The tile at grid coordinates `L` is worker `w = 2 (L 1) + (L 0)`; its loop makes
  `(125 - w + 31) / 32` trips and trip `k` works on chunk `w + 32 k`.  So the trips enumerate, without
  repetition, exactly the chunks `ch < 125` with `ch % 32 = w`: a separating conjunction over the
  worker's chunks is one over its trips.  And since a SparseCore's chunks are the disjoint union of
  its sixteen workers' chunks, a conjunction over them is one over the workers of conjunctions over
  each worker's chunks.
-/
import proofs.«209939_g34969623724736_cont_8to1_b_5_19_alg».proof.Proof.KBSplitA

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

variable [FloatOps F]

local notation "𝕄" => MT nD τ sig (HIx 2) (Elt F) ℕ UU ℕ

/-! ## A SparseCore's chunks, worker by worker -/

omit [FloatOps F] in
theorem bigSep_chunksOfCore {c : ℕ} (hc : c < 2) (Φ : Fin 125 → sProp 𝕄) :
    bigSep (chunksOfCore c) Φ = bigSep (Finset.univ : Finset (Fin 16)) fun s => bigSep (chunksOf (wid c s.val)) Φ := by
  rw [chunksOfCore_eq hc]
  exact SparseCore.Cfg.bigSep_biUnion_eq _ _ Φ fun s _ s' _ h => chunksOf_disjoint fun e => h (wid_inj e)

/-! ## The grid coordinates of a tile -/

/-- The coordinates of the tile on SparseCore `c`, subcore `s` of the first tree launch's grid; of the second's. -/
def split_coords (c : Fin (grid1.bound 0)) (s : Fin (grid1.bound 1)) : grid1.Coords :=
  fun | 0 => c | 1 => s | ⟨_ + 2, h⟩ => absurd h (Nat.not_lt.2 (Nat.le_add_left _ _))
def split_coords3 (c : Fin (grid3.bound 0)) (s : Fin (grid3.bound 1)) : grid3.Coords :=
  fun | 0 => c | 1 => s | ⟨_ + 2, h⟩ => absurd h (Nat.not_lt.2 (Nat.le_add_left _ _))

/-! ## The loop's trips and their chunks, in closed form -/

theorem split_trips : ∀ L : grid1.Coords, (k1_t1_loop L).trips = (125 - (2 * (L 1).val + (L 0).val) + 31) / 32 := by decide +kernel
theorem split_trips3 : ∀ L : grid3.Coords, (k3_t1_loop L).trips = (125 - (2 * (L 1).val + (L 0).val) + 31) / 32 := by decide +kernel

theorem split_chunk_val (L : grid1.Coords) (k : Fin (k1_t1_loop L).trips) : (chunk L k).val = 2 * (L 1).val + (L 0).val + 32 * k.val := by
  show k1_off2 L k 0 = _; rw [k1_off2_eq]; rfl
theorem split_chunk3_val (L : grid3.Coords) (k : Fin (k3_t1_loop L).trips) : (chunk3 L k).val = 2 * (L 1).val + (L 0).val + 32 * k.val := by
  show k3_off2 L k 0 = _; rw [k3_off2_eq]; rfl

theorem split_chunk_inj (L : grid1.Coords) : Function.Injective (chunk L) := fun k k' h => by
  have := congrArg Fin.val h; rw [split_chunk_val, split_chunk_val] at this; exact Fin.ext (by omega)
theorem split_chunk3_inj (L : grid3.Coords) : Function.Injective (chunk3 L) := fun k k' h => by
  have := congrArg Fin.val h; rw [split_chunk3_val, split_chunk3_val] at this; exact Fin.ext (by omega)

/-- The trips' chunks are the worker's chunks. -/
theorem split_chunksOf_eq (L : grid1.Coords) : chunksOf (wid (L 0).val (L 1).val) = Finset.univ.image (chunk L) := by
  have h0 : (L 0).val < 2 := (L 0).isLt
  have h1 : (L 1).val < 16 := (L 1).isLt
  ext ch
  rw [Finset.mem_image]
  constructor
  · intro h
    have hm : ch.val % 32 = 2 * (L 1).val + (L 0).val := (Finset.mem_filter.mp h).2
    have hch := ch.isLt
    refine ⟨⟨ch.val / 32, by rw [split_trips]; omega⟩, Finset.mem_univ _, Fin.ext ?_⟩
    rw [split_chunk_val]; show 2 * (L 1).val + (L 0).val + 32 * (ch.val / 32) = ch.val; omega
  · rintro ⟨k, -, rfl⟩
    refine Finset.mem_filter.mpr ⟨Finset.mem_univ _, ?_⟩
    show (chunk L k).val % 32 = 2 * (L 1).val + (L 0).val
    rw [split_chunk_val]; omega
theorem split_chunksOf3_eq (L : grid3.Coords) : chunksOf (wid (L 0).val (L 1).val) = Finset.univ.image (chunk3 L) := by
  have h0 : (L 0).val < 2 := (L 0).isLt
  have h1 : (L 1).val < 16 := (L 1).isLt
  ext ch
  rw [Finset.mem_image]
  constructor
  · intro h
    have hm : ch.val % 32 = 2 * (L 1).val + (L 0).val := (Finset.mem_filter.mp h).2
    have hch := ch.isLt
    refine ⟨⟨ch.val / 32, by rw [split_trips3]; omega⟩, Finset.mem_univ _, Fin.ext ?_⟩
    rw [split_chunk3_val]; show 2 * (L 1).val + (L 0).val + 32 * (ch.val / 32) = ch.val; omega
  · rintro ⟨k, -, rfl⟩
    refine Finset.mem_filter.mpr ⟨Finset.mem_univ _, ?_⟩
    show (chunk3 L k).val % 32 = 2 * (L 1).val + (L 0).val
    rw [split_chunk3_val]; omega

omit [FloatOps F] in
/-- A conjunction over a worker's chunks is one over its loop's trips. -/
theorem bigSep_chunksOf_trips (L : grid1.Coords) (Φ : Fin 125 → sProp 𝕄) :
    bigSep (chunksOf (wid (L 0).val (L 1).val)) Φ = bigSep (Finset.univ : Finset (Fin (k1_t1_loop L).trips)) fun k => Φ (chunk L k) := by
  rw [split_chunksOf_eq]
  exact bigSep_image_of_injOn (fun _ _ _ _ e => split_chunk_inj L e) Φ
omit [FloatOps F] in
theorem bigSep_chunksOf_trips3 (L : grid3.Coords) (Φ : Fin 125 → sProp 𝕄) :
    bigSep (chunksOf (wid (L 0).val (L 1).val)) Φ = bigSep (Finset.univ : Finset (Fin (k3_t1_loop L).trips)) fun k => Φ (chunk3 L k) := by
  rw [split_chunksOf3_eq]
  exact bigSep_image_of_injOn (fun _ _ _ _ e => split_chunk3_inj L e) Φ

end Cert.Proof.KB

end
-- ==== Proof.KBSplitC.lean ====
/-
  How a SparseCore's share of a tree launch splits among its sixteen tiles and gathers back.

  A SparseCore is handed its sixteen workers' read shares of the input and its own rows of the
  output; a tile takes its worker's read share and its worker's rows.  A SparseCore's rows being the
  disjoint union of its workers' rows, the split is a regrouping of one separating conjunction, and
  so is the way back, the rows then holding the launch's value.  Every piece is a points-to, so the
  payloads can be stored in the handshakes' invariants.
-/
import proofs.«209939_g34969623724736_cont_8to1_b_5_19_alg».proof.Proof.KBSplitB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

variable [FloatOps F]

local notation "𝕄" => MT nD τ sig (HIx 2) (Elt F) ℕ UU ℕ

variable (X : Inputs F)

/-! ## The payload's fields, spelled out -/

theorem P_st0 (d : Dev nD) (c : Fin ((K (F := F)).nCore 0)) : (P X).st 0 d c
    = iprop((bigSep (Finset.univ : Finset (Fin 16)) fun i => in0Tok X d (wid c.val i.val)) ∗ bigSep (chunksOfCore c.val) fun ch => out0Any d ch) := rfl
theorem P_st1 (d : Dev nD) (c : Fin ((K (F := F)).nCore 1)) : (P X).st 1 d c
    = iprop((bigSep (Finset.univ : Finset (Fin 16)) fun i => in1Tok X d (wid c.val i.val)) ∗ bigSep (chunksOfCore c.val) fun ch => out1Any d ch) := rfl
theorem P_dn0 (d : Dev nD) (c : Fin ((K (F := F)).nCore 0)) : (P X).dn 0 d c
    = iprop((bigSep (Finset.univ : Finset (Fin 16)) fun i => in0Tok X d (wid c.val i.val)) ∗ bigSep (chunksOfCore c.val) fun ch => out0Val X d ch) := rfl
theorem P_dn1 (d : Dev nD) (c : Fin ((K (F := F)).nCore 1)) : (P X).dn 1 d c
    = iprop((bigSep (Finset.univ : Finset (Fin 16)) fun i => in1Tok X d (wid c.val i.val)) ∗ bigSep (chunksOfCore c.val) fun ch => out1Val X d ch) := rfl
theorem P_go0 (d : Dev nD) (c : Fin ((K (F := F)).nCore 0)) (i : Fin ((K (F := F)).nSub 0)) : (P X).go 0 d c i
    = iprop(in0Tok X d (wid c.val i.val) ∗ bigSep (chunksOf (wid c.val i.val)) fun ch => out0Any d ch) := rfl
theorem P_go1 (d : Dev nD) (c : Fin ((K (F := F)).nCore 1)) (i : Fin ((K (F := F)).nSub 1)) : (P X).go 1 d c i
    = iprop(in1Tok X d (wid c.val i.val) ∗ bigSep (chunksOf (wid c.val i.val)) fun ch => out1Any d ch) := rfl
theorem P_td0 (d : Dev nD) (c : Fin ((K (F := F)).nCore 0)) (i : Fin ((K (F := F)).nSub 0)) : (P X).td 0 d c i
    = iprop(in0Tok X d (wid c.val i.val) ∗ bigSep (chunksOf (wid c.val i.val)) fun ch => out0Val X d ch) := rfl
theorem P_td1 (d : Dev nD) (c : Fin ((K (F := F)).nCore 1)) (i : Fin ((K (F := F)).nSub 1)) : (P X).td 1 d c i
    = iprop(in1Tok X d (wid c.val i.val) ∗ bigSep (chunksOf (wid c.val i.val)) fun ch => out1Val X d ch) := rfl

/-! ## The tiles of a launch are sixteen -/

omit [FloatOps F] in
theorem nSub_zero : (K (F := F)).nSub 0 = 16 := rfl
omit [FloatOps F] in
theorem nSub_one : (K (F := F)).nSub 1 = 16 := rfl
omit [FloatOps F] in
theorem nCore_zero : (K (F := F)).nCore 0 = 2 := rfl
omit [FloatOps F] in
theorem nCore_one : (K (F := F)).nCore 1 = 2 := rfl

omit [FloatOps F] in
theorem bigSep_tasks0 (Φ : ℕ → sProp 𝕄) :
    (bigSep Finset.univ fun i : Fin ((K (F := F)).nSub 0) => Φ i.val) = bigSep (Finset.univ : Finset (Fin 16)) fun i => Φ i.val := rfl
omit [FloatOps F] in
theorem bigSep_tasks1 (Φ : ℕ → sProp 𝕄) :
    (bigSep Finset.univ fun i : Fin ((K (F := F)).nSub 1) => Φ i.val) = bigSep (Finset.univ : Finset (Fin 16)) fun i => Φ i.val := rfl

/-! ## The split -/

theorem vecSplit0 : (K (F := F)).VecSplit' (P X) 0 := by
  intro d c
  have hc : c.val < 2 := c.isLt
  simp only [P_st0, P_dn0, P_go0, P_td0]
  rw [bigSep_tasks0 (F := F) (fun i => iprop(in0Tok X d (wid c.val i) ∗ bigSep (chunksOf (wid c.val i)) fun ch => out0Any d ch)),
    bigSep_tasks0 (F := F) (fun i => iprop(in0Tok X d (wid c.val i) ∗ bigSep (chunksOf (wid c.val i)) fun ch => out0Val X d ch)),
    bigSep_chunksOfCore hc, bigSep_chunksOfCore hc, bigSep_sep', bigSep_sep']
  iintro H; imodintro
  isplitl [H]; · iexact H
  iintro H; iexact H

theorem vecSplit1 : (K (F := F)).VecSplit' (P X) 1 := by
  intro d c
  have hc : c.val < 2 := c.isLt
  simp only [P_st1, P_dn1, P_go1, P_td1]
  rw [bigSep_tasks1 (F := F) (fun i => iprop(in1Tok X d (wid c.val i) ∗ bigSep (chunksOf (wid c.val i)) fun ch => out1Any d ch)),
    bigSep_tasks1 (F := F) (fun i => iprop(in1Tok X d (wid c.val i) ∗ bigSep (chunksOf (wid c.val i)) fun ch => out1Val X d ch)),
    bigSep_chunksOfCore hc, bigSep_chunksOfCore hc, bigSep_sep', bigSep_sep']
  iintro H; imodintro
  isplitl [H]; · iexact H
  iintro H; iexact H

/-! ## The payloads are storable -/

instance P_storable : (P (F := F) X).IsStorable where
  st q d c := match q with
    | 0 => (inferInstance : BI.Storable (upEmb : UEmb _ 𝕄)
        iprop((bigSep (Finset.univ : Finset (Fin 16)) fun i => in0Tok X d (wid c.val i.val)) ∗ bigSep (chunksOfCore c.val) fun ch => out0Any d ch))
    | 1 => (inferInstance : BI.Storable (upEmb : UEmb _ 𝕄)
        iprop((bigSep (Finset.univ : Finset (Fin 16)) fun i => in1Tok X d (wid c.val i.val)) ∗ bigSep (chunksOfCore c.val) fun ch => out1Any d ch))
  dn q d c := match q with
    | 0 => (inferInstance : BI.Storable (upEmb : UEmb _ 𝕄)
        iprop((bigSep (Finset.univ : Finset (Fin 16)) fun i => in0Tok X d (wid c.val i.val)) ∗ bigSep (chunksOfCore c.val) fun ch => out0Val X d ch))
    | 1 => (inferInstance : BI.Storable (upEmb : UEmb _ 𝕄)
        iprop((bigSep (Finset.univ : Finset (Fin 16)) fun i => in1Tok X d (wid c.val i.val)) ∗ bigSep (chunksOfCore c.val) fun ch => out1Val X d ch))
  go q d c i := match q with
    | 0 => (inferInstance : BI.Storable (upEmb : UEmb _ 𝕄)
        iprop(in0Tok X d (wid c.val i.val) ∗ bigSep (chunksOf (wid c.val i.val)) fun ch => out0Any d ch))
    | 1 => (inferInstance : BI.Storable (upEmb : UEmb _ 𝕄)
        iprop(in1Tok X d (wid c.val i.val) ∗ bigSep (chunksOf (wid c.val i.val)) fun ch => out1Any d ch))
  td q d c i := match q with
    | 0 => (inferInstance : BI.Storable (upEmb : UEmb _ 𝕄)
        iprop(in0Tok X d (wid c.val i.val) ∗ bigSep (chunksOf (wid c.val i.val)) fun ch => out0Val X d ch))
    | 1 => (inferInstance : BI.Storable (upEmb : UEmb _ 𝕄)
        iprop(in1Tok X d (wid c.val i.val) ∗ bigSep (chunksOf (wid c.val i.val)) fun ch => out1Val X d ch))

end Cert.Proof.KB

end
-- ==== Proof.KBSplitD.lean ====
/-
  The TensorCore's side of a tree launch: what it hands the two SparseCores and what it takes back.

  The input, held whole, is cut into 32 read shares, one per worker, and a remainder the TensorCore
  keeps; worker `2 s + c` is subcore `s` of SparseCore `c`, so the 32 shares are the two SparseCores'
  sixteen each, and the way back joins them again.  The output, held whole at anything, is cut into
  its 125 rows, the even ones to SparseCore 0 and the odd ones to SparseCore 1; taken back, every row
  holds the launch's value function of the input at the row's own indices, so the rows join into the
  whole output at that one function.
-/
import proofs.«209939_g34969623724736_cont_8to1_b_5_19_alg».proof.Proof.KBSplitC

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

variable [FloatOps F]

local notation "𝕄" => MT nD τ sig (HIx 2) (Elt F) ℕ UU ℕ

/-! ## Thirty-two workers are two SparseCores' sixteen subcores -/

omit [FloatOps F] in
theorem range_workers : Finset.range 32 = (Finset.univ : Finset (Fin 2 × Fin 16)).image fun p => wid p.1.val p.2.val := by
  ext n
  rw [Finset.mem_range, Finset.mem_image]
  constructor
  · intro h
    exact ⟨(⟨n % 2, by omega⟩, ⟨n / 2, by omega⟩), Finset.mem_univ _, by show 2 * (n / 2) + n % 2 = n; omega⟩
  · rintro ⟨⟨c, i⟩, -, rfl⟩
    have := c.isLt; have := i.isLt
    show 2 * i.val + c.val < 32; omega

omit [FloatOps F] in
/-- A conjunction over the 32 workers is one over the SparseCores of one over the subcores. -/
theorem bigSep_workers (Ψ : ℕ → sProp 𝕄) :
    bigSep (Finset.range 32) Ψ = bigSep (Finset.univ : Finset (Fin 2)) fun c => bigSep (Finset.univ : Finset (Fin 16)) fun i => Ψ (wid c.val i.val) := by
  rw [range_workers, bigSep_image_of_injOn (f := fun p : Fin 2 × Fin 16 => wid p.1.val p.2.val) ?_ Ψ]
  · exact bigSep_univ_prod (fun p : Fin 2 × Fin 16 => Ψ (wid p.1.val p.2.val))
  · rintro ⟨c, i⟩ - ⟨c', i'⟩ - h
    have hh : 2 * i.val + c.val = 2 * i'.val + c'.val := h
    have := c.isLt; have := c'.isLt
    exact Prod.ext (Fin.ext (show c.val = c'.val by omega)) (Fin.ext (show i.val = i'.val by omega))

omit [FloatOps F] in
/-- An array held whole is the TensorCore's remainder and the two SparseCores' sixteen read shares each. -/
theorem pointsTo_workers (ℓ : Loc nD τ sig) (x : Buf (Elt F) ℓ) :
    (ℓ ↦{fullShare} x : sProp 𝕄) ⊣⊢ iprop((ℓ ↦{shareDrop fullShare 32} x)
      ∗ bigSep (Finset.univ : Finset (Fin 2)) fun c => bigSep (Finset.univ : Finset (Fin 16)) fun i => ℓ ↦{shareTokN fullShare (wid c.val i.val)} x) := by
  rw [← bigSep_workers (fun w => (ℓ ↦{shareTokN fullShare w} x : sProp 𝕄))]
  exact Transfers.pointsTo_toks_range fullShare 32

/-! ## The rows of an output array, SparseCore by SparseCore -/

omit [FloatOps F] in
/-- A conjunction over all 125 chunks is the even chunks' and the odd chunks'. -/
theorem bigSep_chunks (Φ : Fin 125 → sProp 𝕄) :
    bigSep (Finset.univ : Finset (Fin 125)) Φ = bigSep (Finset.univ : Finset (Fin 2)) fun c => bigSep (chunksOfCore c.val) Φ := by
  rw [bigSep_univ_two, bigSep_filter_split (Finset.univ : Finset (Fin 125)) (fun ch => ch.val % 2 = 0)]
  have h1 : (Finset.univ.filter fun ch : Fin 125 => ¬ ch.val % 2 = 0) = chunksOfCore 1 :=
    Finset.filter_congr fun ch _ => by show ¬ ch.val % 2 = 0 ↔ ch.val % 2 = 1; omega
  rw [h1]; rfl

omit [FloatOps F] in
/-- An output array held whole at `f` is its 125 rows at `f`. -/
theorem out0_rows (d : Dev nD) (f : Buf (Elt F) (out0Loc d)) :
    (out0Loc d ↦{fullShare} f : sProp 𝕄) = bigSep Finset.univ fun ch : Fin 125 => out0Loc d ↦[rowSet ch]{fullShare} f := by
  rw [← pointsTo_biUnion Finset.univ (ℓ := out0Loc d) rowSet (fun i _ j _ h => rows_disjoint i j h), rows_cover]; try rfl
omit [FloatOps F] in
theorem out1_rows (d : Dev nD) (f : Buf (Elt F) (out1Loc d)) :
    (out1Loc d ↦{fullShare} f : sProp 𝕄) = bigSep Finset.univ fun ch : Fin 125 => out1Loc d ↦[rowSet ch]{fullShare} f := by
  rw [← pointsTo_biUnion Finset.univ (ℓ := out1Loc d) rowSet (fun i _ j _ h => rows_disjoint i j h), rows_cover]; try rfl

variable (X : Inputs F)

/-- The output held whole at anything goes out as the two SparseCores' rows at anything; -/
theorem out0_deal (d : Dev nD) :
    (iprop(∃ f, out0Loc d ↦{fullShare} f) : sProp 𝕄) ⊢ bigSep (Finset.univ : Finset (Fin 2)) fun c => bigSep (chunksOfCore c.val) fun ch => out0Any d ch := by
  rw [← bigSep_chunks (fun ch => out0Any d ch)]
  refine BIClass.exists_elim fun f => ?_
  have h : ∀ ch : Fin 125, (out0Loc d ↦[rowSet ch]{fullShare} f : sProp 𝕄) ⊢ out0Any d ch := fun ch => by
    iintro H; iexists f; iexact H
  rw [out0_rows]
  exact bigSep_mono fun ch _ => h ch
theorem out1_deal (d : Dev nD) :
    (iprop(∃ f, out1Loc d ↦{fullShare} f) : sProp 𝕄) ⊢ bigSep (Finset.univ : Finset (Fin 2)) fun c => bigSep (chunksOfCore c.val) fun ch => out1Any d ch := by
  rw [← bigSep_chunks (fun ch => out1Any d ch)]
  refine BIClass.exists_elim fun f => ?_
  have h : ∀ ch : Fin 125, (out1Loc d ↦[rowSet ch]{fullShare} f : sProp 𝕄) ⊢ out1Any d ch := fun ch => by
    iintro H; iexists f; iexact H
  rw [out1_rows]
  exact bigSep_mono fun ch _ => h ch

/-- and comes back whole at the launch's value. -/
theorem out0_gather (d : Dev nD) :
    (bigSep (Finset.univ : Finset (Fin 2)) fun c => bigSep (chunksOfCore c.val) fun ch => out0Val X d ch)
      = (out0Loc d ↦{fullShare} (KTree.outFlat (X d).1) : sProp 𝕄) := by
  rw [← bigSep_chunks (fun ch => out0Val X d ch), out0_rows]
theorem out1_gather (d : Dev nD) :
    (bigSep (Finset.univ : Finset (Fin 2)) fun c => bigSep (chunksOfCore c.val) fun ch => out1Val X d ch)
      = (out1Loc d ↦{fullShare} (KTree.outFlat (X d).2) : sProp 𝕄) := by
  rw [← bigSep_chunks (fun ch => out1Val X d ch), out1_rows]

/-! ## What the TensorCore's start hands over and its done takes back, spelled out -/

theorem st0_eq (d : Dev nD) : (bigSep Finset.univ fun c : Fin ((K (F := F)).nCore 0) => (P X).st 0 d c)
    = iprop((bigSep (Finset.univ : Finset (Fin 2)) fun c => bigSep (Finset.univ : Finset (Fin 16)) fun i => in0Tok X d (wid c.val i.val))
        ∗ bigSep (Finset.univ : Finset (Fin 2)) fun c => bigSep (chunksOfCore c.val) fun ch => out0Any d ch) := by
  simp only [P_st0]; exact bigSep_sep' _ _ _
theorem dn0_eq (d : Dev nD) : (bigSep Finset.univ fun c : Fin ((K (F := F)).nCore 0) => (P X).dn 0 d c)
    = iprop((bigSep (Finset.univ : Finset (Fin 2)) fun c => bigSep (Finset.univ : Finset (Fin 16)) fun i => in0Tok X d (wid c.val i.val))
        ∗ bigSep (Finset.univ : Finset (Fin 2)) fun c => bigSep (chunksOfCore c.val) fun ch => out0Val X d ch) := by
  simp only [P_dn0]; exact bigSep_sep' _ _ _
theorem st1_eq (d : Dev nD) : (bigSep Finset.univ fun c : Fin ((K (F := F)).nCore 1) => (P X).st 1 d c)
    = iprop((bigSep (Finset.univ : Finset (Fin 2)) fun c => bigSep (Finset.univ : Finset (Fin 16)) fun i => in1Tok X d (wid c.val i.val))
        ∗ bigSep (Finset.univ : Finset (Fin 2)) fun c => bigSep (chunksOfCore c.val) fun ch => out1Any d ch) := by
  simp only [P_st1]; exact bigSep_sep' _ _ _
theorem dn1_eq (d : Dev nD) : (bigSep Finset.univ fun c : Fin ((K (F := F)).nCore 1) => (P X).dn 1 d c)
    = iprop((bigSep (Finset.univ : Finset (Fin 2)) fun c => bigSep (Finset.univ : Finset (Fin 16)) fun i => in1Tok X d (wid c.val i.val))
        ∗ bigSep (Finset.univ : Finset (Fin 2)) fun c => bigSep (chunksOfCore c.val) fun ch => out1Val X d ch) := by
  simp only [P_dn1]; exact bigSep_sep' _ _ _

/-- At the call: the input and the output held whole become the TensorCore's remainder of the input and the start's payload; -/
theorem st0_intro (d : Dev nD) :
    (iprop((in0Loc d ↦{fullShare} (X d).1) ∗ ∃ f, out0Loc d ↦{fullShare} f) : sProp 𝕄)
      ⊢ iprop((in0Loc d ↦{shareDrop fullShare 32} (X d).1) ∗ bigSep Finset.univ fun c : Fin ((K (F := F)).nCore 0) => (P X).st 0 d c) := by
  rw [st0_eq]
  iintro ⟨Hi, Ho⟩
  ihave Hi' := (pointsTo_workers (in0Loc d) (X d).1).1 $$ Hi
  icases Hi' with ⟨Hr, Ht⟩
  isplitl [Hr]; · iexact Hr
  isplitl [Ht]; · iexact Ht
  iapply (out0_deal d) $$ Ho
/-- after it: the remainder and the done's payload are the input whole again and the output whole at the launch's value. -/
theorem dn0_elim (d : Dev nD) :
    (iprop((in0Loc d ↦{shareDrop fullShare 32} (X d).1) ∗ bigSep Finset.univ fun c : Fin ((K (F := F)).nCore 0) => (P X).dn 0 d c) : sProp 𝕄)
      ⊢ iprop((in0Loc d ↦{fullShare} (X d).1) ∗ out0Loc d ↦{fullShare} (KTree.outFlat (X d).1)) := by
  rw [dn0_eq, out0_gather]
  iintro ⟨Hr, Ht, Ho⟩
  isplitr [Ho]
  · iapply (pointsTo_workers (in0Loc d) (X d).1).2
    isplitl [Hr]; · iexact Hr
    iexact Ht
  · iexact Ho
theorem st1_intro (d : Dev nD) :
    (iprop((in1Loc d ↦{fullShare} (X d).2) ∗ ∃ f, out1Loc d ↦{fullShare} f) : sProp 𝕄)
      ⊢ iprop((in1Loc d ↦{shareDrop fullShare 32} (X d).2) ∗ bigSep Finset.univ fun c : Fin ((K (F := F)).nCore 1) => (P X).st 1 d c) := by
  rw [st1_eq]
  iintro ⟨Hi, Ho⟩
  ihave Hi' := (pointsTo_workers (in1Loc d) (X d).2).1 $$ Hi
  icases Hi' with ⟨Hr, Ht⟩
  isplitl [Hr]; · iexact Hr
  isplitl [Ht]; · iexact Ht
  iapply (out1_deal d) $$ Ho
theorem dn1_elim (d : Dev nD) :
    (iprop((in1Loc d ↦{shareDrop fullShare 32} (X d).2) ∗ bigSep Finset.univ fun c : Fin ((K (F := F)).nCore 1) => (P X).dn 1 d c) : sProp 𝕄)
      ⊢ iprop((in1Loc d ↦{fullShare} (X d).2) ∗ out1Loc d ↦{fullShare} (KTree.outFlat (X d).2)) := by
  rw [dn1_eq, out1_gather]
  iintro ⟨Hr, Ht, Ho⟩
  isplitr [Ho]
  · iapply (pointsTo_workers (in1Loc d) (X d).2).2
    isplitl [Hr]; · iexact Hr
    iexact Ht
  · iexact Ho

/-! ## The four statements @main cites at the two calls -/

theorem call0_pre (d : Dev nD) (y : Buf (Elt F) (out0Loc d)) :
    iprop((in0Loc d ↦{fullShare} (X d).1) ∗ (out0Loc d ↦{fullShare} y))
      ⊢ (iprop((in0Loc d ↦{shareDrop fullShare 32} (X d).1) ∗ bigSep Finset.univ fun c : Fin ((K (F := F)).nCore 0) => (P X).st 0 d c) : sProp 𝕄) := by
  have h : (iprop((in0Loc d ↦{fullShare} (X d).1) ∗ (out0Loc d ↦{fullShare} y)) : sProp 𝕄)
      ⊢ iprop((in0Loc d ↦{fullShare} (X d).1) ∗ ∃ f, out0Loc d ↦{fullShare} f) := by
    iintro ⟨Hi, Ho⟩
    isplitl [Hi]; · iexact Hi
    iexists y; iexact Ho
  exact h.trans (st0_intro X d)
theorem call0_post (d : Dev nD) :
    iprop((in0Loc d ↦{shareDrop fullShare 32} (X d).1) ∗ bigSep Finset.univ fun c : Fin ((K (F := F)).nCore 0) => (P X).dn 0 d c)
      ⊢ (iprop((in0Loc d ↦{fullShare} (X d).1) ∗ (out0Loc d ↦{fullShare} KTree.outFlat (X d).1)) : sProp 𝕄) := dn0_elim X d
theorem call1_pre (d : Dev nD) (y : Buf (Elt F) (out1Loc d)) :
    iprop((in1Loc d ↦{fullShare} (X d).2) ∗ (out1Loc d ↦{fullShare} y))
      ⊢ (iprop((in1Loc d ↦{shareDrop fullShare 32} (X d).2) ∗ bigSep Finset.univ fun c : Fin ((K (F := F)).nCore 1) => (P X).st 1 d c) : sProp 𝕄) := by
  have h : (iprop((in1Loc d ↦{fullShare} (X d).2) ∗ (out1Loc d ↦{fullShare} y)) : sProp 𝕄)
      ⊢ iprop((in1Loc d ↦{fullShare} (X d).2) ∗ ∃ f, out1Loc d ↦{fullShare} f) := by
    iintro ⟨Hi, Ho⟩
    isplitl [Hi]; · iexact Hi
    iexists y; iexact Ho
  exact h.trans (st1_intro X d)
theorem call1_post (d : Dev nD) :
    iprop((in1Loc d ↦{shareDrop fullShare 32} (X d).2) ∗ bigSep Finset.univ fun c : Fin ((K (F := F)).nCore 1) => (P X).dn 1 d c)
      ⊢ (iprop((in1Loc d ↦{fullShare} (X d).2) ∗ (out1Loc d ↦{fullShare} KTree.outFlat (X d).2)) : sProp 𝕄) := dn1_elim X d

end Cert.Proof.KB

end
-- ==== Proof.KBSplitE.lean ====
/-
  The tile's obligation of a tree launch, from the tile body's triple.

  The launch theorem asks, of the tile on SparseCore `c`, subcore `i`: from the tile's read share of
  the input and its worker's rows at anything, run the launch's label there, and end with the read
  share and the rows at the launch's value.  The label's body on that tile is the kernel function at
  the tile's grid coordinates, lifted into the pipelines' signature; the kernel function's own triple
  is stated over the trips of its loop.  The trips enumerate the worker's rows, so the two
  statements differ by a re-indexing of one separating conjunction, on the way in and on the way out.
-/
import proofs.«209939_g34969623724736_cont_8to1_b_5_19_alg».proof.Proof.KBSplitC

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

variable [FloatOps F]

local notation "𝕄" => MT nD τ sig (HIx 2) (Elt F) ℕ UU ℕ

variable (X : Inputs F)

/-! ## The labels' bodies on a tile -/

theorem defs₀_vector1 (c : Fin τ.nSC) (s : Fin τ.nSub) :
    defs₀ (F := F) (.scVector c s) 1 ⟨⟩
      = SparseCore.onTile hcore1 hsub1 (fun c s => cc1_tree_sc (split_coords c s)
          in0V (Memref.isWhole_whole _) out0V (Memref.isWhole_whole _) sA1 (Memref.isWhole_whole _) sB1 (Memref.isWhole_whole _)
          cc1_scoped0 cc1_scoped1 cc1_scoped2 cc1_scoped3) ⟨⟩ c s := rfl
theorem defs₀_vector3 (c : Fin τ.nSC) (s : Fin τ.nSub) :
    defs₀ (F := F) (.scVector c s) 3 ⟨⟩
      = SparseCore.onTile hcore3 hsub3 (fun c s => cc3_tree_sc (split_coords3 c s)
          in1V (Memref.isWhole_whole _) out1V (Memref.isWhole_whole _) sA3 (Memref.isWhole_whole _) sB3 (Memref.isWhole_whole _)
          cc3_scoped0 cc3_scoped1 cc3_scoped2 cc3_scoped3) ⟨⟩ c s := rfl

/-! ## The tile body's triple, as the body's proof states it -/

/-- The triple of the first tree launch's kernel function at grid coordinates `L`, for every share `q` of the input. -/
def TileBody0 : Prop :=
  ∀ (d : Dev nD) (L : grid1.Coords) (q : PosShare TreeShare) (x : Buf (Elt F) (in0Loc d)) (O : CellTallies nD τ sig (HIx 2)) (W : Waits sig (HIx 2)), (∀ g, O g none = 0) →
    (iprop(levAts (K (F := F)).L (K (F := F)).lev ∗ (in0Loc d ↦{q} x)
        ∗ (bigSep Finset.univ fun k : Fin (k1_t1_loop L).trips => iprop(∃ f, out0Loc d ↦[rowSet (chunk L k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_tree_sc L in0V (Memref.isWhole_whole _) out0V (Memref.isWhole_whole _) sA1 (Memref.isWhole_whole _) sB1 (Memref.isWhole_whole _)
            cc1_scoped0 cc1_scoped1 cc1_scoped2 cc1_scoped3)
          fun _ => iprop((in0Loc d ↦{q} x)
            ∗ (bigSep Finset.univ fun k : Fin (k1_t1_loop L).trips => out0Loc d ↦[rowSet (chunk L k)]{fullShare} (KTree.outFlat x))
            ∗ scopedBufs (V d (cV L) (jV L)) ∗ scopedSems0 (V d (cV L) (jV L))
            ∗ ∃ W', ⌜∀ p ∈ W', p ∈ W ∨ p.2 = none⌝ ∗ owes (V d (cV L) (jV L)) O W')
/-- The same of the second tree launch's. -/
def TileBody1 : Prop :=
  ∀ (d : Dev nD) (L : grid3.Coords) (q : PosShare TreeShare) (x : Buf (Elt F) (in1Loc d)) (O : CellTallies nD τ sig (HIx 2)) (W : Waits sig (HIx 2)), (∀ g, O g none = 0) →
    (iprop(levAts (K (F := F)).L (K (F := F)).lev ∗ (in1Loc d ↦{q} x)
        ∗ (bigSep Finset.univ fun k : Fin (k3_t1_loop L).trips => iprop(∃ f, out1Loc d ↦[rowSet (chunk3 L k)]{fullShare} f))
        ∗ scopedBufs (V d (cV3 L) (jV3 L)) ∗ scopedSems0 (V d (cV3 L) (jV3 L)) ∗ owes (V d (cV3 L) (jV3 L)) O W) : sProp 𝕄)
      ⊢ wp frame (wpE (defs₀ (F := F)) 𝒱₀ (V d (cV3 L) (jV3 L)) none) Set.univ
          (cc3_tree_sc L in1V (Memref.isWhole_whole _) out1V (Memref.isWhole_whole _) sA3 (Memref.isWhole_whole _) sB3 (Memref.isWhole_whole _)
            cc3_scoped0 cc3_scoped1 cc3_scoped2 cc3_scoped3)
          fun _ => iprop((in1Loc d ↦{q} x)
            ∗ (bigSep Finset.univ fun k : Fin (k3_t1_loop L).trips => out1Loc d ↦[rowSet (chunk3 L k)]{fullShare} (KTree.outFlat x))
            ∗ scopedBufs (V d (cV3 L) (jV3 L)) ∗ scopedSems0 (V d (cV3 L) (jV3 L))
            ∗ ∃ W', ⌜∀ p ∈ W', p ∈ W ∨ p.2 = none⌝ ∗ owes (V d (cV3 L) (jV3 L)) O W')

/-! ## From the body's triple to the launch theorem's obligation -/

omit [FloatOps F] in
/-- Regrouping the body's postcondition into the obligation's, whose waits may also be the call's. -/
theorem split_post {thr : Thread nD τ} {A B C E : sProp 𝕄} {O : CellTallies nD τ sig (HIx 2)} {W : Waits sig (HIx 2)} {q : Fin 2} :
    iprop(A ∗ B ∗ C ∗ E ∗ ∃ W', ⌜∀ p ∈ W', p ∈ W ∨ p.2 = none⌝ ∗ owes thr O W')
      ⊢ iprop((A ∗ B) ∗ C ∗ E ∗ ∃ W', ⌜∀ p ∈ W', p ∈ W ∨ p.2 = none ∨ p.2 = some q⌝ ∗ owes thr O W') := by
  iintro ⟨HA, HB, HC, HE, %W', %hW', HO⟩
  isplitl [HA HB]; · isplitl [HA]; · iexact HA
                     iexact HB
  isplitl [HC]; · iexact HC
  isplitl [HE]; · iexact HE
  iexists W'; isplitr
  · ipureintro; exact fun p hp => (hW' p hp).imp_right Or.inl
  · iexact HO

omit [FloatOps F] in
/-- Regrouping the obligation's precondition into the body's: the launch deals this kernel nothing of its own. -/
theorem split_pre {lv A B C E G : sProp 𝕄} :
    iprop(lv ∗ emp ∗ (A ∗ B) ∗ C ∗ E ∗ G) ⊢ iprop(lv ∗ A ∗ B ∗ C ∗ E ∗ G) := by
  iintro ⟨Hl, -, ⟨HA, HB⟩, HC, HE, HG⟩
  isplitl [Hl]; · iexact Hl
  isplitl [HA]; · iexact HA
  isplitl [HB]; · iexact HB
  isplitl [HC]; · iexact HC
  isplitl [HE]; · iexact HE
  iexact HG

theorem tileObl0 (hbody : TileBody0 (F := F)) : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, _root_.and_self, ↓reduceDIte]
  rw [P_go0, P_td0, show (P X).x 0 (V d ((K (F := F)).core 0 c) ((K (F := F)).sub 0 i)) = iprop(emp) from rfl]
  have e : ∀ Φ : Fin 125 → sProp 𝕄, bigSep (chunksOf (wid c.val i.val)) Φ
      = bigSep Finset.univ fun k : Fin (k1_t1_loop (split_coords ⟨_, hc.1⟩ ⟨_, hc.2⟩)).trips => Φ (chunk (split_coords ⟨_, hc.1⟩ ⟨_, hc.2⟩) k) :=
    fun Φ => bigSep_chunksOf_trips (F := F) (split_coords ⟨_, hc.1⟩ ⟨_, hc.2⟩) Φ
  rw [e (fun ch => out0Any d ch), e (fun ch => out0Val X d ch)]
  exact split_pre.trans ((hbody d (split_coords ⟨_, hc.1⟩ ⟨_, hc.2⟩) _ (X d).1 O W hO).trans (wp_mono frame _ _ fun _ => split_post))

theorem tileObl1 (hbody : TileBody1 (F := F)) : (K (F := F)).TileObl (D (F := F)) 𝒱 (P X) v₀ 1 := by
  intro d c i O W hO _ _
  simp only [show (P X).ox = fun _ _ => 0 from rfl, add_zero]
  change _ ⊢ wp _ _ _ (Pipeline.liftProg (defs₀ (F := F) (.scVector ((K (F := F)).core 1 c) ((K (F := F)).sub 1 i)) 3 ⟨⟩)) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, _root_.and_self, ↓reduceDIte]
  rw [P_go1, P_td1, show (P X).x 1 (V d ((K (F := F)).core 1 c) ((K (F := F)).sub 1 i)) = iprop(emp) from rfl]
  have e : ∀ Φ : Fin 125 → sProp 𝕄, bigSep (chunksOf (wid c.val i.val)) Φ
      = bigSep Finset.univ fun k : Fin (k3_t1_loop (split_coords3 ⟨_, hc.1⟩ ⟨_, hc.2⟩)).trips => Φ (chunk3 (split_coords3 ⟨_, hc.1⟩ ⟨_, hc.2⟩) k) :=
    fun Φ => bigSep_chunksOf_trips3 (F := F) (split_coords3 ⟨_, hc.1⟩ ⟨_, hc.2⟩) Φ
  rw [e (fun ch => out1Any d ch), e (fun ch => out1Val X d ch)]
  exact split_pre.trans ((hbody d (split_coords3 ⟨_, hc.1⟩ ⟨_, hc.2⟩) _ (X d).2 O W hO).trans (wp_mono frame _ _ fun _ => split_post))

end Cert.Proof.KB

end
-- ==== Proof.KBSplit.lean ====
/-
  The launch plumbing of the two tree launches, gathered: the launch semaphores' facts, the rows of an
  output array and the chunks of a worker, how a SparseCore's share splits among its tiles and
  gathers back, that the payloads can be stored, the TensorCore's side of each call, and the tiles'
  obligations from the tile bodies' triples.
-/
import proofs.«209939_g34969623724736_cont_8to1_b_5_19_alg».proof.Proof.KBSplitD
import proofs.«209939_g34969623724736_cont_8to1_b_5_19_alg».proof.Proof.KBSplitE
-- ==== Proof.KBCalls.lean ====
/-
  @main on the TensorCore: the two tree launches as steps (operands out to the SparseCores, results
  back), and the whole of @main from the launch's holdings to every unscoped buffer at its final
  contents — six host operations, a matrix-product region, a flattening, a tree launch, a reshaping,
  the same again for the second half of the rows, and the concatenation.
-/
import proofs.«209939_g34969623724736_cont_8to1_b_5_19_alg».proof.Proof.KBSteps
import proofs.«209939_g34969623724736_cont_8to1_b_5_19_alg».proof.Proof.KBSplit

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Transfers (shareTokN shareDrop)

variable {F : FTy → Type} [FloatOps F] [∀ e, Nonempty (Elt F e)]

local notation "𝕄" => MT nD τ sig (HIx 2) (Elt F) ℕ UU ℕ

/-- An unscoped TensorCore buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- One buffer out of a held set. -/
theorem held_take (thr : Thread nD τ) (S : Finset (DevRef τ sig)) (V : Valuation τ sig (Elt F)) {b : DevRef τ sig} (hb : b ∈ S) :
    (StableHlo.held thr S V : sProp 𝕄) = iprop((((thr.1, b) : Loc nD τ sig) ↦{fullShare} V b) ∗ StableHlo.held thr (S.erase b) V) := by
  unfold StableHlo.held; exact BI.bigSep_erase hb

variable (m : (ℓ : Loc nD τ sig) → Buf (Elt F) ℓ)

theorem W4_in (d : Dev nD) : W4 m d (Proc.devRef .tc main_v6) = W3 m d (Proc.devRef .tc main_v6) := by
  unfold W4; exact Function.update_of_ne (StableHlo.devRef_ne_of_ne (by decide)) _ _
theorem W4_out (d : Dev nD) : W4 m d (Proc.devRef .tc main_v7) = KTree.outFlat (W3 m d (Proc.devRef .tc main_v6)) := by
  unfold W4; exact Function.update_self _ _ _
theorem W4_rest (d : Dev nD) (S : Finset (DevRef τ sig)) (hS : Proc.devRef .tc main_v7 ∉ S) :
    (StableHlo.held (d : Thread nD τ) S (W4 m d) : sProp 𝕄) = StableHlo.held (d : Thread nD τ) S (W3 m d) :=
  bigSep_congr fun b hb => by
    have hne : b ≠ Proc.devRef .tc main_v7 := fun e => hS (e ▸ hb)
    unfold W4; rw [Function.update_of_ne hne]

/-- Tree launch 0 as a step of @main: its input goes out as the workers' read shares and comes back whole, its
    output goes out row by row and comes back at the launch's value of the input. -/
theorem call_step0 (κ : GSem nD τ sig → ℕ) (d : Dev nD) (Φ : PUnit → sProp 𝕄) :
    iprop((K (F := F)).ctx EH (P (inputs m)) κ ∗ (K (F := F)).tcSt EH d 0
        ∗ StableHlo.held (d : Thread nD τ) (Pipeline.ucRefs τ sig) (W3 m d)
        ∗ (iprop((K (F := F)).tcSt EH d (0 + 1) ∗ StableHlo.held (d : Thread nD τ) (Pipeline.ucRefs τ sig) (W4 m d)) -∗ Φ ⟨⟩))
      ⊢ wp frame (wpE ((K (F := F)).defs (D (F := F))) 𝒱 (SparseCore.T d) none) Set.univ ((K (F := F)).run d 0) Φ := by
  have hin : Proc.devRef .tc main_v6 ∈ Pipeline.ucRefs τ sig := mem_uc main_v6 (by decide)
  have hout : Proc.devRef .tc main_v7 ∈ (Pipeline.ucRefs τ sig).erase (Proc.devRef .tc main_v6) :=
    Finset.mem_erase.mpr ⟨StableHlo.devRef_ne_of_ne (by decide), mem_uc main_v7 (by decide)⟩
  rw [held_take _ _ (W3 m d) hin, held_take _ _ (W3 m d) hout,
    held_take _ _ (W4 m d) hin, held_take _ _ (W4 m d) hout, W4_in, W4_out,
    W4_rest m d _ (fun h => (Finset.mem_erase.mp h).1 rfl)]
  iintro ⟨#Hctx, Hst, ⟨Hin, Hout, Hrest⟩, Hk⟩
  ihave Hpre := (call0_pre (inputs m) d _) $$ [Hin Hout]
  · isplitl [Hin]
    · iexact Hin
    · iexact Hout
  icases Hpre with ⟨Hdrop, Hsts⟩
  iapply ((K (F := F)).wp_run (D (F := F)) 𝒱 (EH := EH) (P := P (inputs m)) κ d 0) $$ [Hst Hsts Hdrop Hrest Hk]
  isplitr; · iexact Hctx
  isplitl [Hst]; · iexact Hst
  isplitl [Hsts]; · iexact Hsts
  iintro ⟨Hst, Hdn⟩
  ihave Hpost := (call0_post (inputs m) d) $$ [Hdrop Hdn]
  · isplitl [Hdrop]
    · iexact Hdrop
    · iexact Hdn
  icases Hpost with ⟨Hin, Hout⟩
  iapply Hk
  isplitl [Hst]; · iexact Hst
  isplitl [Hin]; · iexact Hin
  isplitl [Hout]; · iexact Hout
  iexact Hrest

theorem W8_in (d : Dev nD) : W8 m d (Proc.devRef .tc main_v10) = W7 m d (Proc.devRef .tc main_v10) := by
  unfold W8; exact Function.update_of_ne (StableHlo.devRef_ne_of_ne (by decide)) _ _
theorem W8_out (d : Dev nD) : W8 m d (Proc.devRef .tc main_v11) = KTree.outFlat (W7 m d (Proc.devRef .tc main_v10)) := by
  unfold W8; exact Function.update_self _ _ _
theorem W8_rest (d : Dev nD) (S : Finset (DevRef τ sig)) (hS : Proc.devRef .tc main_v11 ∉ S) :
    (StableHlo.held (d : Thread nD τ) S (W8 m d) : sProp 𝕄) = StableHlo.held (d : Thread nD τ) S (W7 m d) :=
  bigSep_congr fun b hb => by
    have hne : b ≠ Proc.devRef .tc main_v11 := fun e => hS (e ▸ hb)
    unfold W8; rw [Function.update_of_ne hne]

/-- Tree launch 1 as a step of @main: its input goes out as the workers' read shares and comes back whole, its
    output goes out row by row and comes back at the launch's value of the input. -/
theorem call_step1 (κ : GSem nD τ sig → ℕ) (d : Dev nD) (Φ : PUnit → sProp 𝕄) :
    iprop((K (F := F)).ctx EH (P (inputs m)) κ ∗ (K (F := F)).tcSt EH d 1
        ∗ StableHlo.held (d : Thread nD τ) (Pipeline.ucRefs τ sig) (W7 m d)
        ∗ (iprop((K (F := F)).tcSt EH d (1 + 1) ∗ StableHlo.held (d : Thread nD τ) (Pipeline.ucRefs τ sig) (W8 m d)) -∗ Φ ⟨⟩))
      ⊢ wp frame (wpE ((K (F := F)).defs (D (F := F))) 𝒱 (SparseCore.T d) none) Set.univ ((K (F := F)).run d 1) Φ := by
  have hin : Proc.devRef .tc main_v10 ∈ Pipeline.ucRefs τ sig := mem_uc main_v10 (by decide)
  have hout : Proc.devRef .tc main_v11 ∈ (Pipeline.ucRefs τ sig).erase (Proc.devRef .tc main_v10) :=
    Finset.mem_erase.mpr ⟨StableHlo.devRef_ne_of_ne (by decide), mem_uc main_v11 (by decide)⟩
  rw [held_take _ _ (W7 m d) hin, held_take _ _ (W7 m d) hout,
    held_take _ _ (W8 m d) hin, held_take _ _ (W8 m d) hout, W8_in, W8_out,
    W8_rest m d _ (fun h => (Finset.mem_erase.mp h).1 rfl)]
  iintro ⟨#Hctx, Hst, ⟨Hin, Hout, Hrest⟩, Hk⟩
  ihave Hpre := (call1_pre (inputs m) d _) $$ [Hin Hout]
  · isplitl [Hin]
    · iexact Hin
    · iexact Hout
  icases Hpre with ⟨Hdrop, Hsts⟩
  iapply ((K (F := F)).wp_run (D (F := F)) 𝒱 (EH := EH) (P := P (inputs m)) κ d 1) $$ [Hst Hsts Hdrop Hrest Hk]
  isplitr; · iexact Hctx
  isplitl [Hst]; · iexact Hst
  isplitl [Hsts]; · iexact Hsts
  iintro ⟨Hst, Hdn⟩
  ihave Hpost := (call1_post (inputs m) d) $$ [Hdrop Hdn]
  · isplitl [Hdrop]
    · iexact Hdrop
    · iexact Hdn
  icases Hpost with ⟨Hin, Hout⟩
  iapply Hk
  isplitl [Hst]; · iexact Hst
  isplitl [Hin]; · iexact Hin
  isplitl [Hout]; · iexact Hout
  iexact Hrest

end Cert.Proof.KB

end
-- ==== Proof.KBMain.lean ====
/-
  @main on the TensorCore, whole: from what the launch deals it to every unscoped buffer at its final
  contents and the launch handshakes at their end.
-/
import proofs.«209939_g34969623724736_cont_8to1_b_5_19_alg».proof.Proof.KBCalls

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F] [∀ e, Nonempty (Elt F e)]

local notation "𝕄" => MT nD τ sig (HIx 2) (Elt F) ℕ UU ℕ

/-! ## Every host operation's buffers are unscoped buffers of the TensorCore -/

theorem sub_uc_op_cst : (op_cst (F := F)).bufs ⊆ Pipeline.ucRefs τ sig := Pipeline.sub_ucRefs _ (StableHlo.nullary_bufs_sub ..)
theorem sub_uc_op_v0 : (op_v0 (F := F)).bufs ⊆ Pipeline.ucRefs τ sig := Pipeline.sub_ucRefs _ (StableHlo.unary_bufs_sub ..)
theorem sub_uc_op_v1 : (op_v1 (F := F)).bufs ⊆ Pipeline.ucRefs τ sig := Pipeline.sub_ucRefs _ (StableHlo.binary_bufs_sub ..)
theorem sub_uc_op_v2 : (op_v2 (F := F)).bufs ⊆ Pipeline.ucRefs τ sig := Pipeline.sub_ucRefs _ (StableHlo.reshape_bufs_sub ..)
theorem sub_uc_op_v3 : (op_v3 (F := F)).bufs ⊆ Pipeline.ucRefs τ sig := Pipeline.sub_ucRefs _ (StableHlo.unary_bufs_sub ..)
theorem sub_uc_op_v4 : (op_v4 (F := F)).bufs ⊆ Pipeline.ucRefs τ sig := Pipeline.sub_ucRefs _ (StableHlo.reshape_bufs_sub ..)
theorem sub_uc_op_v6 : (op_v6 (F := F)).bufs ⊆ Pipeline.ucRefs τ sig := Pipeline.sub_ucRefs _ (StableHlo.reshape_bufs_sub ..)
theorem sub_uc_op_v8 : (op_v8 (F := F)).bufs ⊆ Pipeline.ucRefs τ sig := Pipeline.sub_ucRefs _ (StableHlo.reshape_bufs_sub ..)
theorem sub_uc_op_v10 : (op_v10 (F := F)).bufs ⊆ Pipeline.ucRefs τ sig := Pipeline.sub_ucRefs _ (StableHlo.reshape_bufs_sub ..)
theorem sub_uc_op_v12 : (op_v12 (F := F)).bufs ⊆ Pipeline.ucRefs τ sig := Pipeline.sub_ucRefs _ (StableHlo.reshape_bufs_sub ..)
theorem sub_uc_op_v13 : (op_v13 (F := F)).bufs ⊆ Pipeline.ucRefs τ sig := Pipeline.sub_ucRefs _ (StableHlo.binary_bufs_sub ..)

/-! ## The TensorCore's handshake state: its debt, and the rest -/

/-- The handshake state before call `n` but for what the TensorCore owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜∀ p ∈ W, p ∈ Bnd (F := F) n d⌝ ∗ owes (d : Thread nD τ) (Otc (F := F) d n) W) ∗ tcRest (F := F) d n) := rfl

variable (m : (ℓ : Loc nD τ sig) → Buf (Elt F) ℓ) (ρ : Dev nD → PrngReg)

/-- A matrix-product region with the handshake state riding through it whole. -/
theorem region0_through (d : Dev nD) (Φ : PUnit → sProp 𝕄) :
    iprop(levAts (K (F := F)).L (K (F := F)).lev ∗ boundary (d : Thread nD τ)
        ∗ StableHlo.held (d : Thread nD τ) (Pipeline.ucRefs τ sig) (W1 m d) ∗ (∃ r, prngReg d r) ∗ (K (F := F)).tcSt EH d 0
        ∗ (Pipeline.cellsGhost (Pipeline.pin (pcfgs (F := F)) adm) ER 0 d ∗ Pipeline.toksInit (Pipeline.pin (pcfgs (F := F)) adm) ER 0 d)
        ∗ (iprop(boundary (d : Thread nD τ) ∗ StableHlo.held (d : Thread nD τ) (Pipeline.ucRefs τ sig) (W2 m d) ∗ (∃ r, prngReg d r) ∗ (K (F := F)).tcSt EH d 0) -∗ Φ ⟨⟩))
      ⊢ wp frame (wpE ((K (F := F)).defs (D (F := F))) 𝒱 (d : Thread nD τ) none) Set.univ
          (Prog.lift (.customCall (SparseCore.inner (Pipeline.entry 0)) ())) Φ := by
  rw [tcSt_eq]
  iintro ⟨#Hla, Hb, Hheld, Hp, ⟨HO, Hrest⟩, Hg, Hk⟩
  iapply (region_step0 m d Φ)
  isplitr; · iexact Hla
  isplitl [Hb]; · iexact Hb
  isplitl [Hheld]; · iexact Hheld
  isplitl [Hp HO]; · isplitl [Hp] <;> iassumption
  isplitl [Hg]; · iexact Hg
  iintro ⟨Hb, Hheld, Hp, HO⟩
  iapply Hk
  isplitl [Hb]; · iexact Hb
  isplitl [Hheld]; · iexact Hheld
  isplitl [Hp]; · iexact Hp
  isplitl [HO] <;> iassumption

theorem region1_through (d : Dev nD) (Φ : PUnit → sProp 𝕄) :
    iprop(levAts (K (F := F)).L (K (F := F)).lev ∗ boundary (d : Thread nD τ)
        ∗ StableHlo.held (d : Thread nD τ) (Pipeline.ucRefs τ sig) (W5 m d) ∗ (∃ r, prngReg d r) ∗ (K (F := F)).tcSt EH d 1
        ∗ (Pipeline.cellsGhost (Pipeline.pin (pcfgs (F := F)) adm) ER 1 d ∗ Pipeline.toksInit (Pipeline.pin (pcfgs (F := F)) adm) ER 1 d)
        ∗ (iprop(boundary (d : Thread nD τ) ∗ StableHlo.held (d : Thread nD τ) (Pipeline.ucRefs τ sig) (W6 m d) ∗ (∃ r, prngReg d r) ∗ (K (F := F)).tcSt EH d 1) -∗ Φ ⟨⟩))
      ⊢ wp frame (wpE ((K (F := F)).defs (D (F := F))) 𝒱 (d : Thread nD τ) none) Set.univ
          (Prog.lift (.customCall (SparseCore.inner (Pipeline.entry 1)) ())) Φ := by
  rw [tcSt_eq]
  iintro ⟨#Hla, Hb, Hheld, Hp, ⟨HO, Hrest⟩, Hg, Hk⟩
  iapply (region_step1 m d Φ)
  isplitr; · iexact Hla
  isplitl [Hb]; · iexact Hb
  isplitl [Hheld]; · iexact Hheld
  isplitl [Hp HO]; · isplitl [Hp] <;> iassumption
  isplitl [Hg]; · iexact Hg
  iintro ⟨Hb, Hheld, Hp, HO⟩
  iapply Hk
  isplitl [Hb]; · iexact Hb
  isplitl [Hheld]; · iexact Hheld
  isplitl [Hp]; · iexact Hp
  isplitl [HO] <;> iassumption

/-- @main on device `d`'s TensorCore. -/
theorem hmain (κ : GSem nD τ sig → ℕ) (d : Dev nD) :
    iprop((K (F := F)).ctx EH (P (inputs m)) κ ∗ (K (F := F)).tcSt EH d 0 ∗ (K (F := F)).tcRes m ρ d
        ∗ ((Pipeline.cellsGhost (Pipeline.pin (pcfgs (F := F)) adm) ER 0 d ∗ Pipeline.toksInit (Pipeline.pin (pcfgs (F := F)) adm) ER 0 d)
          ∗ (Pipeline.cellsGhost (Pipeline.pin (pcfgs (F := F)) adm) ER 1 d ∗ Pipeline.toksInit (Pipeline.pin (pcfgs (F := F)) adm) ER 1 d)))
      ⊢ wp frame (wpE ((K (F := F)).defs (D (F := F))) 𝒱 (SparseCore.T d) none) Set.univ (main d)
          fun _ => iprop((K (F := F)).tcSt EH d 2 ∗ StableHlo.held (d : Thread nD τ) (Pipeline.ucRefs τ sig) (W9 m d)) := by
  unfold SparseCore.Cfg.tcRes
  rw [show unscopedBufs d (fun b => m ((SparseCore.T d).loc b)) = StableHlo.held (d : Thread nD τ) (Pipeline.ucRefs τ sig) (W0 m d)
    from Pipeline.unscopedBufs_held d (W0 m d)]
  simp only [main, wp_bind, wp_pure]
  iintro ⟨#Hctx, Hst, ⟨Hb, Hheld, -, Hp⟩, ⟨Hg0, Hg1⟩⟩
  ihave #Hla := (SparseCore.Cfg.ctx_levAts (K := K (F := F)) κ) $$ Hctx
  iapply (wp_hlo_within 𝒱 (SparseCore.T d) none Set.univ (op := op_cst (F := F)) (S := Pipeline.ucRefs τ sig) (sub_uc_op_cst (F := F)) (V := W0 m d)) $$ [Hb Hheld]
  · isplitl [Hb] <;> iassumption
  iintro ⟨Hb, Hheld⟩
  rw [wp_ret]; imodintro
  iapply (wp_hlo_within 𝒱 (SparseCore.T d) none Set.univ (op := op_v0 (F := F)) (S := Pipeline.ucRefs τ sig) (sub_uc_op_v0 (F := F)) (V := (op_cst (F := F)).result (W0 m d))) $$ [Hb Hheld]
  · isplitl [Hb] <;> iassumption
  iintro ⟨Hb, Hheld⟩
  rw [wp_ret]; imodintro
  iapply (wp_hlo_within 𝒱 (SparseCore.T d) none Set.univ (op := op_v1 (F := F)) (S := Pipeline.ucRefs τ sig) (sub_uc_op_v1 (F := F)) (V := (op_v0 (F := F)).result ((op_cst (F := F)).result (W0 m d)))) $$ [Hb Hheld]
  · isplitl [Hb] <;> iassumption
  iintro ⟨Hb, Hheld⟩
  rw [wp_ret]; imodintro
  iapply (wp_hlo_within 𝒱 (SparseCore.T d) none Set.univ (op := op_v2 (F := F)) (S := Pipeline.ucRefs τ sig) (sub_uc_op_v2 (F := F)) (V := (op_v1 (F := F)).result ((op_v0 (F := F)).result ((op_cst (F := F)).result (W0 m d))))) $$ [Hb Hheld]
  · isplitl [Hb] <;> iassumption
  iintro ⟨Hb, Hheld⟩
  rw [wp_ret]; imodintro
  iapply (wp_hlo_within 𝒱 (SparseCore.T d) none Set.univ (op := op_v3 (F := F)) (S := Pipeline.ucRefs τ sig) (sub_uc_op_v3 (F := F)) (V := (op_v2 (F := F)).result ((op_v1 (F := F)).result ((op_v0 (F := F)).result ((op_cst (F := F)).result (W0 m d)))))) $$ [Hb Hheld]
  · isplitl [Hb] <;> iassumption
  iintro ⟨Hb, Hheld⟩
  rw [wp_ret]; imodintro
  iapply (wp_hlo_within 𝒱 (SparseCore.T d) none Set.univ (op := op_v4 (F := F)) (S := Pipeline.ucRefs τ sig) (sub_uc_op_v4 (F := F)) (V := (op_v3 (F := F)).result ((op_v2 (F := F)).result ((op_v1 (F := F)).result ((op_v0 (F := F)).result ((op_cst (F := F)).result (W0 m d))))))) $$ [Hb Hheld]
  · isplitl [Hb] <;> iassumption
  iintro ⟨Hb, Hheld⟩
  rw [wp_ret]; imodintro
  -- the first half's matrix product
  iapply (region0_through m d _)
  isplitr; · iexact Hla
  isplitl [Hb]; · iexact Hb
  isplitl [Hheld]; · iexact Hheld
  isplitl [Hp]; · iexists _; iexact Hp
  isplitl [Hst]; · iexact Hst
  isplitl [Hg0]; · iexact Hg0
  iintro ⟨Hb, Hheld, Hp, Hst⟩
  iapply (wp_hlo_within 𝒱 (SparseCore.T d) none Set.univ (op := op_v6 (F := F)) (S := Pipeline.ucRefs τ sig) (sub_uc_op_v6 (F := F)) (V := W2 m d)) $$ [Hb Hheld]
  · isplitl [Hb] <;> iassumption
  iintro ⟨Hb, Hheld⟩
  rw [wp_ret]; imodintro
  -- the first tree launch
  iapply (call_step0 m κ d _)
  isplitr; · iexact Hctx
  isplitl [Hst]; · iexact Hst
  isplitl [Hheld]; · iexact Hheld
  iintro ⟨Hst, Hheld⟩
  iapply (wp_hlo_within 𝒱 (SparseCore.T d) none Set.univ (op := op_v8 (F := F)) (S := Pipeline.ucRefs τ sig) (sub_uc_op_v8 (F := F)) (V := W4 m d)) $$ [Hb Hheld]
  · isplitl [Hb] <;> iassumption
  iintro ⟨Hb, Hheld⟩
  rw [wp_ret]; imodintro
  -- the second half's matrix product
  iapply (region1_through m d _)
  isplitr; · iexact Hla
  isplitl [Hb]; · iexact Hb
  isplitl [Hheld]; · iexact Hheld
  isplitl [Hp]; · iexact Hp
  isplitl [Hst]; · iexact Hst
  isplitl [Hg1]; · iexact Hg1
  iintro ⟨Hb, Hheld, Hp, Hst⟩
  iapply (wp_hlo_within 𝒱 (SparseCore.T d) none Set.univ (op := op_v10 (F := F)) (S := Pipeline.ucRefs τ sig) (sub_uc_op_v10 (F := F)) (V := W6 m d)) $$ [Hb Hheld]
  · isplitl [Hb] <;> iassumption
  iintro ⟨Hb, Hheld⟩
  rw [wp_ret]; imodintro
  -- the second tree launch
  iapply (call_step1 m κ d _)
  isplitr; · iexact Hctx
  isplitl [Hst]; · iexact Hst
  isplitl [Hheld]; · iexact Hheld
  iintro ⟨Hst, Hheld⟩
  iapply (wp_hlo_within 𝒱 (SparseCore.T d) none Set.univ (op := op_v12 (F := F)) (S := Pipeline.ucRefs τ sig) (sub_uc_op_v12 (F := F)) (V := W8 m d)) $$ [Hb Hheld]
  · isplitl [Hb] <;> iassumption
  iintro ⟨Hb, Hheld⟩
  rw [wp_ret]; imodintro
  iapply (wp_hlo_within 𝒱 (SparseCore.T d) none Set.univ (op := op_v13 (F := F)) (S := Pipeline.ucRefs τ sig) (sub_uc_op_v13 (F := F)) (V := (op_v12 (F := F)).result (W8 m d))) $$ [Hb Hheld]
  · isplitl [Hb] <;> iassumption
  iintro ⟨Hb, Hheld⟩
  rw [wp_ret]; imodintro
  imodintro
  isplitl [Hst]; · iexact Hst
  iexact Hheld

end Cert.Proof.KB

end
-- ==== Proof.KBLaunch.lean ====
/-
  The launch: the ghost state the program starts from, what the final memory says, and the run of
  the whole program from the tile bodies' triples and @main's.

  The launch element is the handshakes' rounds beside the two matrix products' staging cells'
  rounds and the counters' unit.  It splits into the three; the staging cells' part funds, per
  device and pipeline, the cells' ghost state and the loops' duty tokens; the tree launches deal
  their threads nothing.  At the end the TensorCore holds its unscoped arrays at the last boundary's
  valuation, so the final memory has those contents.
-/
import proofs.«209939_g34969623724736_cont_8to1_b_5_19_alg».proof.Proof.KBFold
import proofs.«209939_g34969623724736_cont_8to1_b_5_19_alg».proof.Proof.KBSplit
import proofs.«209939_g34969623724736_cont_8to1_b_5_19_alg».proof.Proof.Gen.Kernel.Launch

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The launch element -/

/-- The handshakes' rounds, the two matrix products' staging cells' rounds, the counters' unit. -/
def u₀ : UU := (initOf (K (F := F)).hsCells (K (F := F)).hsToks, (initOf (Pipeline.cells cfgs cellOf_inj) (Pipeline.launchToks cfgs cellOf_inj), 1))

/-- What device `d`'s TensorCore is dealt for the two matrix products: each one's staging cells' ghost state and its loop's duty tokens. -/
abbrev Gd (d : Dev nD) : sProp 𝕄 :=
  iprop((Pipeline.cellsGhost (Pipeline.pin (pcfgs (F := F)) adm) ER 0 d ∗ Pipeline.toksInit (Pipeline.pin (pcfgs (F := F)) adm) ER 0 d)
    ∗ (Pipeline.cellsGhost (Pipeline.pin (pcfgs (F := F)) adm) ER 1 d ∗ Pipeline.toksInit (Pipeline.pin (pcfgs (F := F)) adm) ER 1 d))

/-- The staging cells' rounds fund every device's share. -/
theorem Gd_fund : (BI.own ((ER : Emb UR 𝕄) (initOf (Pipeline.cells cfgs cellOf_inj) (Pipeline.launchToks cfgs cellOf_inj))) : sProp 𝕄)
    ⊢ iprop(|==> bigSep Finset.univ fun d : Dev nD => Gd (F := F) d) := by
  have h : (iprop((bigSep Finset.univ fun c : Dev nD => bigSep Finset.univ fun p : Fin 2 => Pipeline.cellsGhost (Pipeline.pin (pcfgs (F := F)) adm) (ER : Emb UR 𝕄) p c)
        ∗ (bigSep Finset.univ fun c : Dev nD => bigSep Finset.univ fun p : Fin 2 => (Pipeline.toksInit (Pipeline.pin (pcfgs (F := F)) adm) (ER : Emb UR 𝕄) p c : sProp 𝕄))) : sProp 𝕄)
      ⊢ bigSep Finset.univ fun d : Dev nD => Gd (F := F) d := by
    have hd : ∀ (A0 A1 B0 B1 : sProp 𝕄), iprop((A0 ∗ A1) ∗ B0 ∗ B1) ⊢ iprop((A0 ∗ B0) ∗ A1 ∗ B1) := fun A0 A1 B0 B1 => by
      iintro ⟨⟨A0, A1⟩, ⟨B0, B1⟩⟩
      isplitl [A0 B0]
      · isplitl [A0]; · iexact A0
        iexact B0
      · isplitl [A1]; · iexact A1
        iexact B1
    rw [← bigSep_sep']
    refine bigSep_mono fun d _ => ?_
    rw [bigSep_univ_two, bigSep_univ_two]
    exact hd _ _ _ _
  exact (Pipeline.fund_ghost (Pipeline.pin (pcfgs (F := F)) adm) (ER : Emb UR 𝕄) cellOf_inj).trans (BI.bupd_mono h)

variable (X : Inputs F)

theorem Px_emp : (bigSep Finset.univ fun thr : Thread nD τ => bigSep Finset.univ fun q : Fin 2 => (P X).x q thr) = (iprop(emp) : sProp 𝕄) := by
  rw [show (fun thr : Thread nD τ => bigSep Finset.univ fun q : Fin 2 => (P X).x q thr) = fun _ => (iprop(emp) : sProp 𝕄) from
    funext fun _ => bigSep_emp_const _]
  exact bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 2 => (P X).x q thr) := by
  rw [Px_emp]
  unfold u₀
  iintro Hu
  ihave H := (ownU_pair _ _) $$ Hu
  icases H with ⟨HH, HR⟩
  ihave H2 := (own_pair_emb embR _ _) $$ HR
  icases H2 with ⟨HR, -⟩
  imod (show (BI.own (((Emb.inl : Emb UR (UR × Counters)).trans embR : Emb UR 𝕄) (initOf (Pipeline.cells cfgs cellOf_inj) (Pipeline.launchToks cfgs cellOf_inj))) : sProp 𝕄)
      ⊢ iprop(|==> bigSep Finset.univ fun d : Dev nD => Gd (F := F) d) from Gd_fund (F := F)) $$ HR with HG
  imodintro
  isplitl [HH]; · iexact HH
  isplitl [HG]; · iexact HG
  iempintro

/-! ## What the final memory says -/

variable (m : (ℓ : Loc nD τ sig) → Buf (Elt F) ℓ)

/-- At the end the TensorCore holds its unscoped arrays at the last boundary's valuation. -/
abbrev FIN (d : Dev nD) : sProp 𝕄 := StableHlo.held (d : Thread nD τ) (Pipeline.ucRefs τ sig) (W9 m d)
def fq (d : Dev nD) (s' : Phys nD τ sig (Elt F)) : Prop := ∀ b ∈ Pipeline.ucRefs τ sig, s'.mem.mem (d, b) = W9 m d b

theorem hfin (d : Dev nD) (s' : Phys nD τ sig (Elt F)) : iprop(FIN m d ∗ SI s') ⊢ (⌜fq m d s'⌝ : sProp 𝕄) := by
  refine (pointsTo_read_all (Pipeline.ucRefs τ sig) (fun b => ((d, b) : Loc nD τ sig)) (fun b => W9 m d b) s').trans ?_
  iintro ⟨%h, -⟩
  ipureintro; exact h

/-! ## The run -/

/-- @main on a device's TensorCore, from the handshakes' context, the TensorCore's state before the first call, the launch
    memory and the matrix products' ghost state, to the state after the last call and the final arrays. -/
def HMain (ρ : Dev nD → PrngReg) : Prop :=
  ∀ (κ : GSem nD τ sig → ℕ) (d : Dev nD),
    (iprop((K (F := F)).ctx EH (P (inputs m)) κ ∗ (K (F := F)).tcSt EH d 0 ∗ (K (F := F)).tcRes m ρ d ∗ Gd (F := F) d) : sProp 𝕄)
      ⊢ wp frame (wpE ((K (F := F)).defs (D (F := F))) 𝒱 (SparseCore.T d) none) Set.univ (main d) fun _ => iprop((K (F := F)).tcSt EH d 2 ∗ FIN m d)

theorem run_main [∀ e, Nonempty (Elt F e)] (ρ : Dev nD → PrngReg) (hb0 : TileBody0 (F := F)) (hb1 : TileBody1 (F := F)) (hmain : HMain m ρ) :
    θ_run (Cert.Kernel.defs (F := F)) (Cert.Kernel.threads (F := F)) ⟨m, fun _ => 0, ρ⟩
      (fun r => ∀ c : Dev nD, ∀ b ∈ Pipeline.ucRefs τ sig, r.2.mem (c, b) = W9 m c b) :=
  SparseCore.Cfg.θ_run_sc (K := K (F := F)) (D := D (F := F)) (𝒱 := 𝒱) (EH := EH) (P := P (inputs m)) facts v₀
    (fun q hq => match q with | 0 => nomatch hq | 1 => nomatch hq)
    (fun q _ => match q with | 0 => tileObl0 _ hb0 | 1 => tileObl1 _ hb1)
    (fun q _ => match q with | 0 => SparseCore.Cfg.VecSplit.of_plain (vecSplit0 _) | 1 => SparseCore.Cfg.VecSplit.of_plain (vecSplit1 _))
    m ρ main (fun d => Gd (F := F) d) (FIN m) (u₀ (F := F)) (sep_elim_left.trans (hu₀ _)) hmain (fq m) (hfin m) _ (fun _ h => h)

end Cert.Proof.KB

end
-- ==== Proof.KBRun.lean ====
/-
  The kernel program's run: every weakly fair execution of all its threads ends, nothing faulting,
  with every unscoped buffer of the TensorCore at the last boundary's contents — given the two tree
  launches' tile bodies.
-/
import proofs.«209939_g34969623724736_cont_8to1_b_5_19_alg».proof.Proof.KBMain
import proofs.«209939_g34969623724736_cont_8to1_b_5_19_alg».proof.Proof.KBLaunch

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-- @main on the TensorCore, in the launch theorem's wording. -/
theorem hMain (m : (ℓ : Loc nD τ sig) → Buf (Elt F) ℓ) (ρ : Dev nD → PrngReg) : HMain (F := F) m ρ :=
  fun κ d => hmain m ρ κ d

/-- The run, from the two tile bodies. -/
theorem run (m : (ℓ : Loc nD τ sig) → Buf (Elt F) ℓ) (ρ : Dev nD → PrngReg) (hb0 : TileBody0 (F := F)) (hb1 : TileBody1 (F := F)) :
    θ_run (Cert.Kernel.defs (F := F)) (Cert.Kernel.threads (F := F)) ⟨m, fun _ => 0, ρ⟩
      (fun r => ∀ c : Dev nD, ∀ b ∈ Pipeline.ucRefs τ sig, r.2.mem (c, b) = W9 m c b) :=
  run_main m ρ hb0 hb1 (hMain m ρ)

end Cert.Proof.KB

end
-- ==== Proof.KBFinalArgs.lean ====
/-
  The arguments come out of the fold as they went in.

  No host operation, no matrix-product region and no tree launch writes an argument: each host
  operation writes its own result array, a region writes its output window's array and leaves an input
  window's array as it found it, and a tree launch writes its output array.  So the fold read at an
  argument walks back, boundary by boundary, to the launch memory.
-/
import proofs.«209939_g34969623724736_cont_8to1_b_5_19_alg».proof.Proof.KBFold
import Idealize.ShloMosaic.Lib.StableHlo.Run

set_option maxRecDepth 16384

noncomputable section

namespace Cert.Proof.KB

open Cert.Kernel Cert.Kernel.Gen

open Idealize.ShloMosaic Idealize.ShloMosaic.TcCoe
open Idealize.ShloMosaic.SparseCore.Cfg (HIx)
open Idealize.SL.Sem
open Idealize.ShloMosaic.Rounds
open Idealize.ShloMosaic.Pipeline (Dat)

section AnyInstance

variable {F : FTy → Type} [FloatOps F]
variable (m : (ℓ : Loc nD τ sig) → Buf (Elt F) ℓ)

/-! ## A region's exit contents, read at one of its arrays and at any other buffer -/

theorem foldW2_arr (c : Dev nD) (w : Fin cfg0.W) :
    W2 m c (Proc.devRef .tc (Pipeline.arrRef spec0 w))
      = (dat0 (V1 m) (fun c => Otc (F := F) c 0) (Bnd (F := F) 0) c).arrAt w cfg0.N := by
  unfold W2; exact Pipeline.withArrays_arr spec0 winFacts0.arr_inj c _ _ w
theorem foldW2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem foldW6_arr (c : Dev nD) (w : Fin cfg2.W) :
    W6 m c (Proc.devRef .tc (Pipeline.arrRef spec2 w))
      = (dat1 (V5 m) (fun c => Otc (F := F) c 1) (Bnd (F := F) 1) c).arrAt w cfg2.N := by
  unfold W6; exact Pipeline.withArrays_arr spec2 winFacts2.arr_inj c _ _ w
theorem foldW6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-! ## The first argument: read by both regions through an input window, written by nothing -/

theorem W1_arg0 (c : Dev nD) : W1 m c (Proc.devRef .tc main_arg0) = m ((c : Thread nD τ).loc main_arg0) := by
  show StableHlo.after [op_cst (F := F), op_v0, op_v1, op_v2, op_v3, op_v4] (W0 m c) (Proc.devRef .tc main_arg0) = _
  after_results

theorem W5_arg0 (c : Dev nD) : W5 m c (Proc.devRef .tc main_arg0) = m ((c : Thread nD τ).loc main_arg0) :=
  calc W5 m c (Proc.devRef .tc main_arg0)
    _ = W4 m c (Proc.devRef .tc main_arg0) :=
        StableHlo.reshape_result_ne _ _ _ _ _ _ _ (show main_arg0 ≠ main_v8 by decide)
    _ = W3 m c (Proc.devRef .tc main_arg0) := by
        unfold W4; exact Function.update_of_ne (StableHlo.devRef_ne_of_ne (by decide)) _ _
    _ = W2 m c (Proc.devRef .tc main_arg0) :=
        StableHlo.reshape_result_ne _ _ _ _ _ _ _ (show main_arg0 ≠ main_v6 by decide)
    _ = W1 m c (Proc.devRef .tc main_arg0) :=
        (foldW2_arr m c 0).trans (((dat0 (V1 m) _ _ c).arrAt_in 0 rfl _).trans (A_eq0 (V1 m) _ _ c 0))
    _ = m ((c : Thread nD τ).loc main_arg0) := W1_arg0 m c

theorem W9_arg0 (c : Dev nD) : W9 m c (Proc.devRef .tc main_arg0) = m ((c : Thread nD τ).loc main_arg0) :=
  calc W9 m c (Proc.devRef .tc main_arg0)
    _ = (op_v12 (F := F)).result (W8 m c) (Proc.devRef .tc main_arg0) :=
        StableHlo.binary_result_ne _ _ _ _ _ _ _ _ (show main_arg0 ≠ main_v13 by decide)
    _ = W8 m c (Proc.devRef .tc main_arg0) :=
        StableHlo.reshape_result_ne _ _ _ _ _ _ _ (show main_arg0 ≠ main_v12 by decide)
    _ = W7 m c (Proc.devRef .tc main_arg0) := by
        unfold W8; exact Function.update_of_ne (StableHlo.devRef_ne_of_ne (by decide)) _ _
    _ = W6 m c (Proc.devRef .tc main_arg0) :=
        StableHlo.reshape_result_ne _ _ _ _ _ _ _ (show main_arg0 ≠ main_v10 by decide)
    _ = W5 m c (Proc.devRef .tc main_arg0) :=
        (foldW6_arr m c 0).trans (((dat1 (V5 m) _ _ c).arrAt_in 0 rfl _).trans (A_eq1 (V5 m) _ _ c 0))
    _ = m ((c : Thread nD τ).loc main_arg0) := W5_arg0 m c

/-! ## The second argument: read by one host operation, no window's array -/

theorem W1_arg1 (c : Dev nD) : W1 m c (Proc.devRef .tc main_arg1) = m ((c : Thread nD τ).loc main_arg1) := by
  show StableHlo.after [op_cst (F := F), op_v0, op_v1, op_v2, op_v3, op_v4] (W0 m c) (Proc.devRef .tc main_arg1) = _
  after_results

theorem W9_arg1 (c : Dev nD) : W9 m c (Proc.devRef .tc main_arg1) = m ((c : Thread nD τ).loc main_arg1) :=
  calc W9 m c (Proc.devRef .tc main_arg1)
    _ = (op_v12 (F := F)).result (W8 m c) (Proc.devRef .tc main_arg1) :=
        StableHlo.binary_result_ne _ _ _ _ _ _ _ _ (show main_arg1 ≠ main_v13 by decide)
    _ = W8 m c (Proc.devRef .tc main_arg1) :=
        StableHlo.reshape_result_ne _ _ _ _ _ _ _ (show main_arg1 ≠ main_v12 by decide)
    _ = W7 m c (Proc.devRef .tc main_arg1) := by
        unfold W8; exact Function.update_of_ne (StableHlo.devRef_ne_of_ne (by decide)) _ _
    _ = W6 m c (Proc.devRef .tc main_arg1) :=
        StableHlo.reshape_result_ne _ _ _ _ _ _ _ (show main_arg1 ≠ main_v10 by decide)
    _ = W5 m c (Proc.devRef .tc main_arg1) := foldW6_of_ne m c main_arg1 (by decide)
    _ = W4 m c (Proc.devRef .tc main_arg1) :=
        StableHlo.reshape_result_ne _ _ _ _ _ _ _ (show main_arg1 ≠ main_v8 by decide)
    _ = W3 m c (Proc.devRef .tc main_arg1) := by
        unfold W4; exact Function.update_of_ne (StableHlo.devRef_ne_of_ne (by decide)) _ _
    _ = W2 m c (Proc.devRef .tc main_arg1) :=
        StableHlo.reshape_result_ne _ _ _ _ _ _ _ (show main_arg1 ≠ main_v6 by decide)
    _ = W1 m c (Proc.devRef .tc main_arg1) := foldW2_of_ne m c main_arg1 (by decide)
    _ = m ((c : Thread nD τ).loc main_arg1) := W1_arg1 m c

end AnyInstance

end Cert.Proof.KB

end
-- ==== Proof.KIClaim.lean ====
/-
  The five claims, assembled.

  The kernel's run leaves every unscoped TensorCore buffer at the end of the fold; the fold at the
  result array is the specification of the two arguments and at an argument it is the launch memory.
  The reference's run leaves its result array at the same specification of its own arguments, which
  agree with the kernel's.  So both programs run, keep their arguments, and end with equal results.
-/
import proofs.«209939_g34969623724736_cont_8to1_b_5_19_alg».proof.Defs
import proofs.«209939_g34969623724736_cont_8to1_b_5_19_alg».proof.Proof.Gen.Kernel
import proofs.«209939_g34969623724736_cont_8to1_b_5_19_alg».proof.Proof.Gen.KernelIdeal
import proofs.«209939_g34969623724736_cont_8to1_b_5_19_alg».proof.Proof.Gen.ReferenceIdeal
import proofs.«209939_g34969623724736_cont_8to1_b_5_19_alg».proof.Proof.Gen.Pre_finite_inputs
import proofs.«209939_g34969623724736_cont_8to1_b_5_19_alg».proof.Proof.KIRun
import proofs.«209939_g34969623724736_cont_8to1_b_5_19_alg».proof.Proof.KIFinal
import proofs.«209939_g34969623724736_cont_8to1_b_5_19_alg».proof.Proof.RefTree
import proofs.«209939_g34969623724736_cont_8to1_b_5_19_alg».proof.Proof.KBRun
import proofs.«209939_g34969623724736_cont_8to1_b_5_19_alg».proof.Proof.KBFinalArgs

set_option maxRecDepth 16384

noncomputable section

namespace Cert.Proof.KI

open Cert.KernelIdeal Cert.KernelIdeal.Gen
open Idealize.ShloMosaic Idealize.ShloMosaic.TcCoe Idealize.SL.Sem

/-- An unscoped TensorCore reference is among the buffers the run's post speaks of. -/
theorem mem_ucRefs {τ : Topo} {sig : RefSig} (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

section AnyInstance

variable {F : FTy → Type} [FloatOps F] [∀ e, Nonempty (Elt F e)]

/-- The kernel runs and its arguments end as launched, at any float instance. -/
theorem kernel_frame (hb0 : TileBody0 (F := F)) (hb1 : TileBody1 (F := F))
    (m : (ℓ : Loc nD τ sig) → Buf (Elt F) ℓ) (ρ : Dev nD → PrngReg) :
    θ_run (defs (F := F)) (threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c =>
      ⟨(h c _ (mem_ucRefs main_arg0 (by decide))).trans (W9_arg0 m c),
        (h c _ (mem_ucRefs main_arg1 (by decide))).trans (W9_arg1 m c)⟩)
    (run m ρ hb0 hb1)

end AnyInstance

/-- On the extended reals the kernel runs, its result array ends at the specification of its arguments
    as launched, and the arguments end as launched. -/
theorem kernel_value (hb0 : TileBody0 (F := Ideal)) (hb1 : TileBody1 (F := Ideal))
    (m : (ℓ : Loc nD τ sig) → Buf (Elt Ideal) ℓ) (ρ : Dev nD → PrngReg) :
    θ_run (defs (F := Ideal)) (threads (F := Ideal)) ⟨m, fun _ => 0, ρ⟩ (fun r => ∀ c : Dev nD,
      r.2.mem ((c.tc : Thread nD τ).loc main_v13)
          = Cert.TreeSpec.tree (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c =>
      ⟨(h c _ (mem_ucRefs main_v13 (by decide))).trans (W9_result m c),
        (h c _ (mem_ucRefs main_arg0 (by decide))).trans (W9_arg0 m c),
        (h c _ (mem_ucRefs main_arg1 (by decide))).trans (W9_arg1 m c)⟩)
    (run m ρ hb0 hb1)

/-- The idealized kernel's frame. -/
theorem frame_KernelIdeal_of (hb0 : TileBody0 (F := Ideal)) (hb1 : TileBody1 (F := Ideal)) :
    Cert.frame_KernelIdeal (hKernelIdeal := Cert.KernelIdeal.Gen.facts) (hPre_finite_inputs := Cert.Pre_finite_inputs.Gen.facts) :=
  fun m ρ _ => kernel_frame hb0 hb1 m ρ

/-- The idealized reference's frame: its run with the value dropped. -/
theorem frame_ReferenceIdeal_of :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- On the extended reals the two programs, run from memories that agree on the arguments, end with equal
    results: both at the specification of the arguments. -/
theorem algebraic_of (hb0 : TileBody0 (F := Ideal)) (hb1 : TileBody1 (F := Ideal)) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.TreeSpec.tree (m ((c.tc : Thread nD τ).loc main_arg0)) (m ((c.tc : Thread nD τ).loc main_arg1)),
    kernel_value hb0 hb1 m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

/-- The claim, from the word-level kernel's frame and the idealized kernel's two tile bodies. -/
theorem claim_of_frame (hb0 : TileBody0 (F := Ideal)) (hb1 : TileBody1 (F := Ideal))
    (hfK : Cert.frame_Kernel (hKernel := Cert.Kernel.Gen.facts) (hPre_finite_inputs := Cert.Pre_finite_inputs.Gen.facts)) :
    Cert.Claim :=
  ⟨Cert.Kernel.Gen.facts, Cert.KernelIdeal.Gen.facts, Cert.ReferenceIdeal.Gen.facts, Cert.Pre_finite_inputs.Gen.facts,
    hfK, frame_KernelIdeal_of hb0 hb1, frame_ReferenceIdeal_of, trivial, algebraic_of hb0 hb1⟩

/-- The word-level kernel's frame: the same run read at the word-level instance, its arguments walked back
    through the same fold. -/
theorem frame_Kernel_of (hb0 : Cert.Proof.KB.TileBody0 (F := Bits)) (hb1 : Cert.Proof.KB.TileBody1 (F := Bits)) :
    Cert.frame_Kernel (hKernel := Cert.Kernel.Gen.facts) (hPre_finite_inputs := Cert.Pre_finite_inputs.Gen.facts) :=
  fun m ρ _ => (θ_run (Cert.Kernel.defs (F := Bits)) _ _).mono (fun r h c =>
      ⟨(h c _ (mem_ucRefs Cert.Kernel.main_arg0 (by decide))).trans (Cert.Proof.KB.W9_arg0 m c),
        (h c _ (mem_ucRefs Cert.Kernel.main_arg1 (by decide))).trans (Cert.Proof.KB.W9_arg1 m c)⟩)
    (Cert.Proof.KB.run m ρ hb0 hb1)

/-- THE CLAIM, from the two tree launches' tile bodies' triples, each at the word-level and at the ideal
    instance. -/
theorem claim_of (hb0I : TileBody0 (F := Ideal)) (hb1I : TileBody1 (F := Ideal))
    (hb0B : Cert.Proof.KB.TileBody0 (F := Bits)) (hb1B : Cert.Proof.KB.TileBody1 (F := Bits)) : Cert.Claim :=
  claim_of_frame hb0I hb1I (frame_Kernel_of hb0B hb1B)

end Cert.Proof.KI

end
-- ==== Proof.KIBody0.lean ====
/-
  One tile's task of the first tree launch: the names of its thread, its chunks, the slices its copies
  move, and the respellings between the arrays as the TensorCore names them and as the tile's memrefs
  address them.
-/
import proofs.«209939_g34969623724736_cont_8to1_b_5_19_alg».proof.Proof.KIBase
import proofs.«209939_g34969623724736_cont_8to1_b_5_19_alg».proof.Proof.KITile
import proofs.«209939_g34969623724736_cont_8to1_b_5_19_alg».proof.Proof.Gen.KernelIdeal.Skeleton
import Idealize.ShloMosaic.Lib.Tactic

noncomputable section

namespace Cert.Proof.KI.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The tile and its chunks -/

/-- The chunk of trip `k` in closed form: the tile's worker number plus thirty-two per trip. -/
theorem chunk_val (L : grid1.Coords) (k : Fin (k1_t1_loop L).trips) :
    (chunk L k).val = 2 * (L 1).val + (L 0).val + 32 * k.val := by
  show k1_off2 L k 0 = _
  rw [k1_off2_eq]; rfl

/-- The slice of the flat input that trip `k` fetches, and the output row it writes, as the program slices them. -/
abbrev aSl (L : grid1.Coords) (k : Fin (k1_t1_loop L).trips) : Memref sig .scVector .hbm S51200 .f32 :=
  (in0V : Memref sig .scVector .hbm S6400000 .f32).slice (Rect.unit (s := S6400000) (k1_off1 L k) S51200.size (k1_off1_inb L k)) (fun _ => rfl)
abbrev oRowK (L : grid1.Coords) (k : Fin (k1_t1_loop L).trips) : Memref sig .scVector .hbm S12400 .f32 :=
  ((out0V : Memref sig .scVector .hbm S125x12400 .f32).slice (Rect.unit (s := S125x12400) (k1_off2 L k) S1x12400.size (k1_off2_inb L k)) (fun _ => rfl)).squeeze S12400 squeezes_S1x12400_S12400

theorem rowK_eq (L : grid1.Coords) (k : Fin (k1_t1_loop L).trips) :
    Rect.unit (s := S125x12400) (k1_off2 L k) S1x12400.size (k1_off2_inb L k) = row (chunk L k) := by
  unfold row Rect.part Rect.block
  congr 1 <;> funext a
  · match a with
    | 0 => simp [Shape.partIx, Shape.partSize, chunk]
    | 1 => rw [k1_off2_eq]; simp [Shape.partIx, Shape.partSize]
  · match a with
    | 0 => simp [Shape.partSize]
    | 1 => simp [Shape.partSize]

theorem set_oRowK (L : grid1.Coords) (k : Fin (k1_t1_loop L).trips) : (oRowK L k).view.set = rowSet (chunk L k) := by
  show (((out0V : Memref sig .scVector .hbm S125x12400 .f32).view.slice (Rect.unit (s := S125x12400) (k1_off2 L k) S1x12400.size (k1_off2_inb L k))).reshape S12400 squeezes_S1x12400_S12400.numel_eq).set
    = ((out0V : Memref sig .scVector .hbm S125x12400 .f32).view.slice (row (chunk L k))).set
  rw [View.set_reshape]
  exact rowK_eq L k ▸ rfl

section Pts
variable (d : Dev nD) (L : grid1.Coords)

theorem pts_oRowK (k : Fin (k1_t1_loop L).trips) (f : Buf (Elt F) (out0Loc d)) :
    ((oRowK L k).view.loc (V d (cV L) (jV L)) ↦[(oRowK L k).view.set]{fullShare} f : sProp 𝕄) = out0Loc d ↦[rowSet (chunk L k)]{fullShare} f := by
  rw [set_oRowK]
theorem pts_in0 (q : PosShare TreeShare) (f : Buf (Elt F) (in0Loc d)) :
    ((in0V : Memref sig .scVector .hbm S6400000 .f32).view.loc (V d (cV L) (jV L)) ↦{q} f : sProp 𝕄) = in0Loc d ↦{q} f := by
  simp only [Memref.view_whole, View.set_whole]
theorem pts_sA (f : Buf (Elt F) ((V d (cV L) (jV L)).loc cc1_scratch0)) :
    ((sA1 : Memref sig .scVector .vmem S51200 .f32).view.loc (V d (cV L) (jV L)) ↦{fullShare} f : sProp 𝕄) = (V d (cV L) (jV L)).loc cc1_scratch0 ↦{fullShare} f := rfl
theorem pts_sB (f : Buf (Elt F) ((V d (cV L) (jV L)).loc cc1_scratch1)) :
    ((sB1 : Memref sig .scVector .vmem S12400 .f32).view.loc (V d (cV L) (jV L)) ↦{fullShare} f : sProp 𝕄) = (V d (cV L) (jV L)).loc cc1_scratch1 ↦{fullShare} f := rfl

abbrev c0cell : GSem nD τ sig := (V d (cV L) (jV L), .dma cc1_scoped0.sem)
abbrev c1cell : GSem nD τ sig := (V d (cV L) (jV L), .dma cc1_scoped1.sem)

theorem ownSems0_V :
    (ownSems0 (V d (cV L) (jV L)) : sProp 𝕄)
      = iprop(semVal (c0cell d L) 0 ∗ semVal (c1cell d L) 0
          ∗ bigSep (((ownCells (V d (cV L) (jV L))).erase (c0cell d L)).erase (c1cell d L)) fun g => semVal g 0) := by
  unfold SparseCore.Cfg.ownSems0
  rw [SparseCore.bigSep_erase' ((mem_ownCells (g := c0cell d L)).mpr ⟨rfl, by
      show (SemLoc.dma cc1_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc1_scoped1.sem : SemLoc sig).isScoped .scVector = true; decide⟩⟩)]

/-- The two scratches are among the subcore's own buffers. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Pts

end Cert.Proof.KI.Body

end
-- ==== Proof.KIBodyIx.lean ====
/-
  The index vectors of one group of sixteen rows: lane `x` of group `g` is local row `16 g + x`; its
  projection `i` sits at word `(16 g + x) * 128 + i` of the fetched chunk and its node `n` at word
  `(16 g + x) * 31 + n` of the node scratch.  None of these wraps in 32 bits, and each is inside its
  scratch: the side conditions of the fifteen gathers and the thirty-one scatters.
-/
import proofs.«209939_g34969623724736_cont_8to1_b_5_19_alg».proof.Proof.KIBody0

noncomputable section

namespace Cert.Proof.KI.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- The lanes' own numbers. -/
local notation "io" => (iota Kind.scVector S16 32 [0] iota_S16_d0_w32_scVector : IVec S16 32)

theorem trips2_le (g : Fin k1_t2_loop.trips) : g.val < 25 := lt_of_lt_of_le g.isLt k1_t2_abs.2.1

theorem lane_lt (x : S16.Idx) : (x 0).val < 16 := (x 0).isLt

/-- Lane `x` of group `g` is row `16 g + x`. -/
theorem rowv_toNat (g : Fin k1_t2_loop.trips) (x : S16.Idx) :
    (k1_pay33 io 0#32 1#32 g x).toNat = 16 * g.val + (x 0).val := by
  have hg := trips2_le g
  have hx := lane_lt x
  simp only [k1_pay33, addi, muli, broadcast, IntOp.addi, IntOp.muli, Scalar.muli, Scf.iv, iota, List.foldl,
    BitVec.toNat_add, BitVec.toNat_mul, BitVec.toNat_ofNat]
  omega

theorem aBase_toNat (g : Fin k1_t2_loop.trips) (x : S16.Idx) :
    (k1_pay34 io 0#32 1#32 g x).toNat = (16 * g.val + (x 0).val) * 128 := by
  have hg := trips2_le g
  have hx := lane_lt x
  have h := rowv_toNat g x
  show (IntOp.muli (k1_pay33 io 0#32 1#32 g x) (128#32)).toNat = _
  simp only [IntOp.muli, BitVec.toNat_mul, BitVec.toNat_ofNat, h]
  omega

theorem bBase_toNat (g : Fin k1_t2_loop.trips) (x : S16.Idx) :
    (k1_pay35 io 0#32 1#32 g x).toNat = (16 * g.val + (x 0).val) * 31 := by
  have hg := trips2_le g
  have hx := lane_lt x
  have h := rowv_toNat g x
  show (IntOp.muli (k1_pay33 io 0#32 1#32 g x) (31#32)).toNat = _
  simp only [IntOp.muli, BitVec.toNat_mul, BitVec.toNat_ofNat, h]
  omega

/-- Projection `i`'s word. -/
theorem aIdx_toNat (g : Fin k1_t2_loop.trips) (i : ℕ) (hi : i < 15) (x : S16.Idx) :
    (addi (k1_pay34 io 0#32 1#32 g) (broadcast S16 (BitVec.ofNat 32 i)) x).toNat = (16 * g.val + (x 0).val) * 128 + i := by
  have hg := trips2_le g
  have hx := lane_lt x
  have h := aBase_toNat g x
  show (IntOp.addi (k1_pay34 io 0#32 1#32 g x) (BitVec.ofNat 32 i)).toNat = _
  simp only [IntOp.addi, BitVec.toNat_add, BitVec.toNat_ofNat, h]
  omega

/-- Node `n`'s word. -/
theorem bIdx_toNat (g : Fin k1_t2_loop.trips) (n : ℕ) (hn : n < 31) (x : S16.Idx) :
    (addi (k1_pay35 io 0#32 1#32 g) (broadcast S16 (BitVec.ofNat 32 n)) x).toNat = (16 * g.val + (x 0).val) * 31 + n := by
  have hg := trips2_le g
  have hx := lane_lt x
  have h := bBase_toNat g x
  show (IntOp.addi (k1_pay35 io 0#32 1#32 g x) (BitVec.ofNat 32 n)).toNat = _
  simp only [IntOp.addi, BitVec.toNat_add, BitVec.toNat_ofNat, h]
  omega

theorem inA (v : IVec S16 32) (h : ∀ x, (v x).toNat < 51200) :
    ∀ a x, ((![v] : Fin 1 → IVec S16 32) a x).toNat < S51200.size a := by
  intro a x; obtain rfl : a = 0 := Subsingleton.elim _ _; exact h x
theorem inB (v : IVec S16 32) (h : ∀ x, (v x).toNat < 12400) :
    ∀ a x, ((![v] : Fin 1 → IVec S16 32) a x).toNat < S12400.size a := by
  intro a x; obtain rfl : a = 0 := Subsingleton.elim _ _; exact h x

theorem aIdx_lt (g : Fin k1_t2_loop.trips) (i : ℕ) (hi : i < 15) (x : S16.Idx) :
    (addi (k1_pay34 io 0#32 1#32 g) (broadcast S16 (BitVec.ofNat 32 i)) x).toNat < 51200 := by
  have hg := trips2_le g
  have hx := lane_lt x
  rw [aIdx_toNat g i hi x]; omega
theorem bIdx_lt (g : Fin k1_t2_loop.trips) (n : ℕ) (hn : n < 31) (x : S16.Idx) :
    (addi (k1_pay35 io 0#32 1#32 g) (broadcast S16 (BitVec.ofNat 32 n)) x).toNat < 12400 := by
  have hg := trips2_le g
  have hx := lane_lt x
  rw [bIdx_toNat g n hn x]; omega
theorem bBase_lt (g : Fin k1_t2_loop.trips) (x : S16.Idx) : (k1_pay35 io 0#32 1#32 g x).toNat < 12400 := by
  have hg := trips2_le g
  have hx := lane_lt x
  rw [bBase_toNat g x]; omega

/-! ## The side conditions, one per gather and per scatter -/

section Checks
variable (g : Fin k1_t2_loop.trips)
theorem chk1_ok : k1_chk1 (k1_pay36 io 0#32 1#32 g) := inA _ (aIdx_lt g 0 (by decide))
theorem chk2_ok : k1_chk2 (k1_pay37 io 0#32 1#32 g) := inA _ (aIdx_lt g 1 (by decide))
theorem chk3_ok : k1_chk3 (k1_pay38 io 0#32 1#32 g) := inA _ (aIdx_lt g 2 (by decide))
theorem chk4_ok : k1_chk4 (k1_pay39 io 0#32 1#32 g) := inA _ (aIdx_lt g 3 (by decide))
theorem chk5_ok : k1_chk5 (k1_pay40 io 0#32 1#32 g) := inA _ (aIdx_lt g 4 (by decide))
theorem chk6_ok : k1_chk6 (k1_pay41 io 0#32 1#32 g) := inA _ (aIdx_lt g 5 (by decide))
theorem chk7_ok : k1_chk7 (k1_pay42 io 0#32 1#32 g) := inA _ (aIdx_lt g 6 (by decide))
theorem chk8_ok : k1_chk8 (k1_pay43 io 0#32 1#32 g) := inA _ (aIdx_lt g 7 (by decide))
theorem chk9_ok : k1_chk9 (k1_pay44 io 0#32 1#32 g) := inA _ (aIdx_lt g 8 (by decide))
theorem chk10_ok : k1_chk10 (k1_pay45 io 0#32 1#32 g) := inA _ (aIdx_lt g 9 (by decide))
theorem chk11_ok : k1_chk11 (k1_pay46 (k1_pay34 io 0#32 1#32 g)) := inA _ (aIdx_lt g 10 (by decide))
theorem chk12_ok : k1_chk12 (k1_pay47 (k1_pay34 io 0#32 1#32 g)) := inA _ (aIdx_lt g 11 (by decide))
theorem chk13_ok : k1_chk13 (k1_pay48 (k1_pay34 io 0#32 1#32 g)) := inA _ (aIdx_lt g 12 (by decide))
theorem chk14_ok : k1_chk14 (k1_pay49 (k1_pay34 io 0#32 1#32 g)) := inA _ (aIdx_lt g 13 (by decide))
theorem chk15_ok : k1_chk15 (k1_pay50 (k1_pay34 io 0#32 1#32 g)) := inA _ (aIdx_lt g 14 (by decide))
theorem chk16_ok : k1_chk16 (k1_pay35 io 0#32 1#32 g) := inB _ (bBase_lt g)
theorem chk17_ok : k1_chk17 (k1_pay82 (k1_pay35 io 0#32 1#32 g)) := inB _ (bIdx_lt g 1 (by decide))
theorem chk18_ok : k1_chk18 (k1_pay84 (k1_pay35 io 0#32 1#32 g)) := inB _ (bIdx_lt g 2 (by decide))
theorem chk19_ok : k1_chk19 (k1_pay86 (k1_pay35 io 0#32 1#32 g)) := inB _ (bIdx_lt g 3 (by decide))
theorem chk20_ok : k1_chk20 (k1_pay88 (k1_pay35 io 0#32 1#32 g)) := inB _ (bIdx_lt g 4 (by decide))
theorem chk21_ok : k1_chk21 (k1_pay90 (k1_pay35 io 0#32 1#32 g)) := inB _ (bIdx_lt g 5 (by decide))
theorem chk22_ok : k1_chk22 (k1_pay92 (k1_pay35 io 0#32 1#32 g)) := inB _ (bIdx_lt g 6 (by decide))
theorem chk23_ok : k1_chk23 (k1_pay94 (k1_pay35 io 0#32 1#32 g)) := inB _ (bIdx_lt g 7 (by decide))
theorem chk24_ok : k1_chk24 (k1_pay96 (k1_pay35 io 0#32 1#32 g)) := inB _ (bIdx_lt g 8 (by decide))
theorem chk25_ok : k1_chk25 (k1_pay98 (k1_pay35 io 0#32 1#32 g)) := inB _ (bIdx_lt g 9 (by decide))
theorem chk26_ok : k1_chk26 (k1_pay100 (k1_pay35 io 0#32 1#32 g)) := inB _ (bIdx_lt g 10 (by decide))
theorem chk27_ok : k1_chk27 (k1_pay102 (k1_pay35 io 0#32 1#32 g)) := inB _ (bIdx_lt g 11 (by decide))
theorem chk28_ok : k1_chk28 (k1_pay104 (k1_pay35 io 0#32 1#32 g)) := inB _ (bIdx_lt g 12 (by decide))
theorem chk29_ok : k1_chk29 (k1_pay106 (k1_pay35 io 0#32 1#32 g)) := inB _ (bIdx_lt g 13 (by decide))
theorem chk30_ok : k1_chk30 (k1_pay108 (k1_pay35 io 0#32 1#32 g)) := inB _ (bIdx_lt g 14 (by decide))
theorem chk31_ok : k1_chk31 (k1_pay110 (k1_pay35 io 0#32 1#32 g)) := inB _ (bIdx_lt g 15 (by decide))
theorem chk32_ok : k1_chk32 (k1_pay112 (k1_pay35 io 0#32 1#32 g)) := inB _ (bIdx_lt g 16 (by decide))
theorem chk33_ok : k1_chk33 (k1_pay114 (k1_pay35 io 0#32 1#32 g)) := inB _ (bIdx_lt g 17 (by decide))
theorem chk34_ok : k1_chk34 (k1_pay116 (k1_pay35 io 0#32 1#32 g)) := inB _ (bIdx_lt g 18 (by decide))
theorem chk35_ok : k1_chk35 (k1_pay118 (k1_pay35 io 0#32 1#32 g)) := inB _ (bIdx_lt g 19 (by decide))
theorem chk36_ok : k1_chk36 (k1_pay120 (k1_pay35 io 0#32 1#32 g)) := inB _ (bIdx_lt g 20 (by decide))
theorem chk37_ok : k1_chk37 (k1_pay122 (k1_pay35 io 0#32 1#32 g)) := inB _ (bIdx_lt g 21 (by decide))
theorem chk38_ok : k1_chk38 (k1_pay124 (k1_pay35 io 0#32 1#32 g)) := inB _ (bIdx_lt g 22 (by decide))
theorem chk39_ok : k1_chk39 (k1_pay126 (k1_pay35 io 0#32 1#32 g)) := inB _ (bIdx_lt g 23 (by decide))
theorem chk40_ok : k1_chk40 (k1_pay3 (k1_pay35 io 0#32 1#32 g)) := inB _ (bIdx_lt g 24 (by decide))
theorem chk41_ok : k1_chk41 (k1_pay5 (k1_pay35 io 0#32 1#32 g)) := inB _ (bIdx_lt g 25 (by decide))
theorem chk42_ok : k1_chk42 (k1_pay7 (k1_pay35 io 0#32 1#32 g)) := inB _ (bIdx_lt g 26 (by decide))
theorem chk43_ok : k1_chk43 (k1_pay9 (k1_pay35 io 0#32 1#32 g)) := inB _ (bIdx_lt g 27 (by decide))
theorem chk44_ok : k1_chk44 (k1_pay11 (k1_pay35 io 0#32 1#32 g)) := inB _ (bIdx_lt g 28 (by decide))
theorem chk45_ok : k1_chk45 (k1_pay13 (k1_pay35 io 0#32 1#32 g)) := inB _ (bIdx_lt g 29 (by decide))
theorem chk46_ok : k1_chk46 (k1_pay15 (k1_pay35 io 0#32 1#32 g)) := inB _ (bIdx_lt g 30 (by decide))
end Checks

end Cert.Proof.KI.Body

end
-- ==== Proof.KIBodySt.lean ====
/-
  The two indexed operations of a tile on its own scratches, as steps of a run that holds the two
  scratches whole: a gather out of the fetched chunk reads `loadIdx` of its contents; a scatter into
  the node scratch leaves `storeIdx` of its contents.
-/
import proofs.«209939_g34969623724736_cont_8to1_b_5_19_alg».proof.Proof.KIBodyIx

noncomputable section

namespace Cert.Proof.KI.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section StepsV
variable (d : Dev nD) (L : grid1.Coords)

/-- The fetched chunk and the node scratch of the tile at `L`, whole, at given contents. -/
abbrev ptA (fA : Buf (Elt F) ((V d (cV L) (jV L)).loc cc1_scratch0)) : sProp 𝕄 := (V d (cV L) (jV L)).loc cc1_scratch0 ↦{fullShare} fA
abbrev ptB (fB : Buf (Elt F) ((V d (cV L) (jV L)).loc cc1_scratch1)) : sProp 𝕄 := (V d (cV L) (jV L)).loc cc1_scratch1 ↦{fullShare} fB

/-- A gather out of the fetched chunk. -/
theorem ldA_step {α : Type} {Q : α → sProp 𝕄} (fA : Buf (Elt F) ((V d (cV L) (jV L)).loc cc1_scratch0)) (idx : IVec S16 32)
    (h : ∀ a x, ((![idx] : Fin 1 → IVec S16 32) a x).toNat < S51200.size a) (hl : (sA1 : Memref sig .scVector .vmem S51200 .f32).view.Loads)
    (k : Vec F S16 .f32 → Prog (TpuEff nD τ sig (Elt F) Λ₀ (V d (cV L) (jV L)).2) α) (R : sProp 𝕄)
    (hk : iprop(R ∗ ptA d L fA) ⊢ wp frame (wpE (defs₀ (F := F)) 𝒱₀ (V d (cV L) (jV L)) none) Set.univ (k (loadIdx fA ![idx] h)) Q) :
    iprop(R ∗ ptA d L fA) ⊢ wp frame (wpE (defs₀ (F := F)) 𝒱₀ (V d (cV L) (jV L)) none) Set.univ
      (SparseCore.vectorLoadIdx (sA1 : Memref sig .scVector .vmem S51200 .f32) ![idx] h hl >>= k) Q := by
  iintro ⟨HR, HA⟩
  iapply (SparseCore.wp_vectorLoadIdx 𝒱₀ (V d (cV L) (jV L)) none Set.univ (base := (sA1 : Memref sig .scVector .vmem S51200 .f32)) (S := Finset.univ) (q := fullShare) (Finset.subset_univ _)) $$ HA
  iintro HA
  rw [show ((sA1 : Memref sig .scVector .vmem S51200 .f32).access (.whole S51200)).read (Elt F) fA = fA from Memref.read_access_whole (Elt F) cc1_scratch0 fA]
  iapply hk
  isplitl [HR]
  · iexact HR
  · iexact HA

/-- A scatter into the node scratch. -/
theorem stB_step {α : Type} {Q : α → sProp 𝕄} (fB : Buf (Elt F) ((V d (cV L) (jV L)).loc cc1_scratch1)) (idx : IVec S16 32) (v : Vec F S16 .f32)
    (mask : IVec S16 1) (add : Bool)
    (h : ∀ a x, ((![idx] : Fin 1 → IVec S16 32) a x).toNat < S12400.size a)
    (hs : ((sB1 : Memref sig .scVector .vmem S12400 .f32).access (.whole S12400)).Stores Finset.univ)
    (k : PUnit → Prog (TpuEff nD τ sig (Elt F) Λ₀ (V d (cV L) (jV L)).2) α) (R : sProp 𝕄)
    (hk : iprop(R ∗ ptB d L (storeIdx fB ![idx] v mask add h)) ⊢ wp frame (wpE (defs₀ (F := F)) 𝒱₀ (V d (cV L) (jV L)) none) Set.univ (k ⟨⟩) Q) :
    iprop(R ∗ ptB d L fB) ⊢ wp frame (wpE (defs₀ (F := F)) 𝒱₀ (V d (cV L) (jV L)) none) Set.univ
      (SparseCore.vectorStoreIdx (sB1 : Memref sig .scVector .vmem S12400 .f32) ![idx] v mask add h hs >>= k) Q := by
  iintro ⟨HR, HB⟩
  have e1 : ((sB1 : Memref sig .scVector .vmem S12400 .f32).access (.whole S12400)).set = Finset.univ := Memref.set_access_whole cc1_scratch1
  ihave HB' := (Entails.of_eq (show (ptB d L fB : sProp 𝕄)
      = (((sB1 : Memref sig .scVector .vmem S12400 .f32).access (.whole S12400)).loc (V d (cV L) (jV L)) ↦[((sB1 : Memref sig .scVector .vmem S12400 .f32).access (.whole S12400)).set]{fullShare} fB) from by rw [e1])) $$ HB
  iapply (SparseCore.wp_vectorStoreIdx 𝒱₀ (V d (cV L) (jV L)) none Set.univ (base := (sB1 : Memref sig .scVector .vmem S12400 .f32))) $$ HB'
  iintro HB
  rw [e1, show ((sB1 : Memref sig .scVector .vmem S12400 .f32).access (.whole S12400)).read (Elt F) fB = fB from Memref.read_access_whole (Elt F) cc1_scratch1 fB,
    show ∀ w, ((sB1 : Memref sig .scVector .vmem S12400 .f32).access (.whole S12400)).write (Elt F) fB w Finset.univ = w from fun w => Memref.write_access_whole_univ (Elt F) cc1_scratch1 fB w]
  iapply hk
  isplitl [HR]
  · iexact HR
  · iexact HB

end StepsV

end Cert.Proof.KI.Body

end
-- ==== Proof.KIBodyW.lean ====
/-
  What an unmasked, non-adding scatter leaves: the lanes are written in ascending order, each at the
  element its index names.  An element no lane names keeps its value; an element exactly one lane names
  holds that lane's value.
-/
import proofs.«209939_g34969623724736_cont_8to1_b_5_19_alg».proof.Proof.KIBody0

noncomputable section

namespace Cert.Proof.KI.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section StoreIdx
variable {s : Shape} {e : EltTy} {dd : Fin 1 → Nat}

/-- Lane `k` names element `j`. -/
def hitsAt (idxs : Fin s.rank → IVec ⟨1, dd⟩ 32) (k : Fin (dd 0)) (j : s.Idx) : Prop :=
  ∀ a, (j a).val = (idxs a (Shape.ofLane k)).toNat

/-- One lane's write. -/
def laneStep (idxs : Fin s.rank → IVec ⟨1, dd⟩ 32) (v : Vec F ⟨1, dd⟩ e) (h : ∀ a x, (idxs a x).toNat < s.size a)
    (g : Vec F s e) (k : Fin (dd 0)) : Vec F s e :=
  fun j => if (∀ a, (j a).val = (idxAt idxs h (Shape.ofLane k) a).val) then v (Shape.ofLane k) else g j

theorem storeIdx_eq_foldl (f : Vec F s e) (idxs : Fin s.rank → IVec ⟨1, dd⟩ 32) (v : Vec F ⟨1, dd⟩ e) (h : ∀ a x, (idxs a x).toNat < s.size a) :
    storeIdx f idxs v (fun _ => 1#1) false h = (List.finRange (dd 0)).foldl (laneStep idxs v h) f := by
  unfold storeIdx
  congr 1
  funext g k
  have h1 : ((1#1 : BitVec 1) = 1) = True := by decide
  have h2 : (false = true) = False := by decide
  simp only [h1, h2, if_true, if_false]
  rfl

theorem fold_miss (idxs : Fin s.rank → IVec ⟨1, dd⟩ 32) (v : Vec F ⟨1, dd⟩ e) (h : ∀ a x, (idxs a x).toNat < s.size a) (j : s.Idx) :
    ∀ (l : List (Fin (dd 0))) (f : Vec F s e), (∀ k ∈ l, ¬ hitsAt idxs k j) → l.foldl (laneStep idxs v h) f j = f j := by
  intro l
  induction l with
  | nil => intro f _; rfl
  | cons k l ih =>
    intro f hm
    rw [List.foldl_cons, ih _ fun k' hk' => hm k' (List.mem_cons_of_mem _ hk')]
    unfold laneStep
    exact if_neg (hm k List.mem_cons_self)

theorem fold_hit (idxs : Fin s.rank → IVec ⟨1, dd⟩ 32) (v : Vec F ⟨1, dd⟩ e) (h : ∀ a x, (idxs a x).toNat < s.size a) (j : s.Idx) (k : Fin (dd 0))
    (hk : hitsAt idxs k j) :
    ∀ (l : List (Fin (dd 0))) (f : Vec F s e), (∀ k' ∈ l, hitsAt idxs k' j → k' = k) → (f j = v (Shape.ofLane k) ∨ k ∈ l) →
      l.foldl (laneStep idxs v h) f j = v (Shape.ofLane k) := by
  intro l
  induction l with
  | nil => intro f _ h0; rcases h0 with h0 | h0
           · exact h0
           · exact absurd h0 List.not_mem_nil
  | cons k0 l ih =>
    intro f hu h0
    rw [List.foldl_cons]
    refine ih _ (fun k' hk' => hu k' (List.mem_cons_of_mem _ hk')) ?_
    by_cases hh : hitsAt idxs k0 j
    · have e0 : k0 = k := hu k0 List.mem_cons_self hh
      left; unfold laneStep; exact (if_pos hh).trans (by rw [e0])
    · rcases h0 with h0 | h0
      · left; unfold laneStep; exact (if_neg hh).trans h0
      · rcases List.mem_cons.mp h0 with h0 | h0
        · exact absurd (h0 ▸ hk) hh
        · exact .inr h0

theorem storeIdx_miss (f : Vec F s e) (idxs : Fin s.rank → IVec ⟨1, dd⟩ 32) (v : Vec F ⟨1, dd⟩ e) (h : ∀ a x, (idxs a x).toNat < s.size a) (j : s.Idx)
    (hm : ∀ k, ¬ hitsAt idxs k j) : storeIdx f idxs v (fun _ => 1#1) false h j = f j := by
  rw [storeIdx_eq_foldl]; exact fold_miss idxs v h j _ f fun k _ => hm k

theorem storeIdx_hit (f : Vec F s e) (idxs : Fin s.rank → IVec ⟨1, dd⟩ 32) (v : Vec F ⟨1, dd⟩ e) (h : ∀ a x, (idxs a x).toNat < s.size a) (j : s.Idx)
    (k : Fin (dd 0)) (hk : hitsAt idxs k j) (hu : ∀ k', hitsAt idxs k' j → k' = k) :
    storeIdx f idxs v (fun _ => 1#1) false h j = v (Shape.ofLane k) := by
  rw [storeIdx_eq_foldl]; exact fold_hit idxs v h j k hk _ f (fun k' _ => hu k') (.inr (List.mem_finRange k))

end StoreIdx

/-! ## On the node scratch: sixteen lanes, one index vector -/

theorem ofLane_S16 (x : S16.Idx) : (Shape.ofLane (d := ![16]) (x 0) : S16.Idx) = x := by
  funext a; obtain rfl : a = 0 := Subsingleton.elim _ _; rfl

theorem storeB_miss (f : Vec F S12400 .f32) (idx : IVec S16 32) (v : Vec F S16 .f32) (h : ∀ a x, ((![idx] : Fin 1 → IVec S16 32) a x).toNat < S12400.size a)
    (j : S12400.Idx) (hm : ∀ x : S16.Idx, (idx x).toNat ≠ (j 0).val) : storeIdx f ![idx] v (fun _ => 1#1) false h j = f j :=
  storeIdx_miss f ![idx] v h j fun k hk => hm (Shape.ofLane k) (hk 0).symm

theorem storeB_hit (f : Vec F S12400 .f32) (idx : IVec S16 32) (v : Vec F S16 .f32) (h : ∀ a x, ((![idx] : Fin 1 → IVec S16 32) a x).toNat < S12400.size a)
    (j : S12400.Idx) (x : S16.Idx) (hj : (j 0).val = (idx x).toNat) (hu : ∀ x' : S16.Idx, (idx x').toNat = (idx x).toNat → x' = x) :
    storeIdx f ![idx] v (fun _ => 1#1) false h j = v x := by
  have hx := ofLane_S16 x
  rw [storeIdx_hit f ![idx] v h j (x 0) (fun a => by obtain rfl : a = 0 := Subsingleton.elim _ _; rw [hx]; exact hj)
    (fun k' hk' => by
      have := hu (Shape.ofLane k') ((hk' 0).symm.trans hj)
      rw [← this]; rfl), hx]

end Cert.Proof.KI.Body

end
-- ==== Proof.KIBodyVal.lean ====
/-
  The values of one group.  Lane `x` of group `g` works on local row `16 g + x`: its fifteen gathered
  words are that row's first fifteen projections in the fetched chunk, and the thirty-one words it
  scatters are the row's node values — node `0` is one, node `n ≥ 1` the minimum along the path from
  the root cut off below at zero —, each at word `(16 g + x) * 31 + n` of the node scratch.  After the
  thirty-one scatters the scratch holds, on the group's rows, the node values of the chunk's rows, and
  elsewhere what it held.
-/
import proofs.«209939_g34969623724736_cont_8to1_b_5_19_alg».proof.Proof.KIBodyW
import proofs.«209939_g34969623724736_cont_8to1_b_5_19_alg».proof.Proof.KIBodyIx

noncomputable section

namespace Cert.Proof.KI.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.ValueIdx

variable [FloatOps F]

local notation "io" => (iota Kind.scVector S16 32 [0] iota_S16_d0_w32_scVector : IVec S16 32)

/-! ## The tree recursion at each node number -/

theorem nv1 (a : ℕ → F .f32) : KTree.nodeVal a 1 = FloatOps.minimumf (KTree.nodeVal a 0) (a 0) := KTree.nodeVal_left a 0
theorem nv2 (a : ℕ → F .f32) : KTree.nodeVal a 2 = FloatOps.minimumf (KTree.nodeVal a 0) (FloatOps.subf KTree.zero (a 0)) := KTree.nodeVal_right a 0
theorem nv3 (a : ℕ → F .f32) : KTree.nodeVal a 3 = FloatOps.minimumf (KTree.nodeVal a 1) (a 1) := KTree.nodeVal_left a 1
theorem nv4 (a : ℕ → F .f32) : KTree.nodeVal a 4 = FloatOps.minimumf (KTree.nodeVal a 1) (FloatOps.subf KTree.zero (a 1)) := KTree.nodeVal_right a 1
theorem nv5 (a : ℕ → F .f32) : KTree.nodeVal a 5 = FloatOps.minimumf (KTree.nodeVal a 2) (a 2) := KTree.nodeVal_left a 2
theorem nv6 (a : ℕ → F .f32) : KTree.nodeVal a 6 = FloatOps.minimumf (KTree.nodeVal a 2) (FloatOps.subf KTree.zero (a 2)) := KTree.nodeVal_right a 2
theorem nv7 (a : ℕ → F .f32) : KTree.nodeVal a 7 = FloatOps.minimumf (KTree.nodeVal a 3) (a 3) := KTree.nodeVal_left a 3
theorem nv8 (a : ℕ → F .f32) : KTree.nodeVal a 8 = FloatOps.minimumf (KTree.nodeVal a 3) (FloatOps.subf KTree.zero (a 3)) := KTree.nodeVal_right a 3
theorem nv9 (a : ℕ → F .f32) : KTree.nodeVal a 9 = FloatOps.minimumf (KTree.nodeVal a 4) (a 4) := KTree.nodeVal_left a 4
theorem nv10 (a : ℕ → F .f32) : KTree.nodeVal a 10 = FloatOps.minimumf (KTree.nodeVal a 4) (FloatOps.subf KTree.zero (a 4)) := KTree.nodeVal_right a 4
theorem nv11 (a : ℕ → F .f32) : KTree.nodeVal a 11 = FloatOps.minimumf (KTree.nodeVal a 5) (a 5) := KTree.nodeVal_left a 5
theorem nv12 (a : ℕ → F .f32) : KTree.nodeVal a 12 = FloatOps.minimumf (KTree.nodeVal a 5) (FloatOps.subf KTree.zero (a 5)) := KTree.nodeVal_right a 5
theorem nv13 (a : ℕ → F .f32) : KTree.nodeVal a 13 = FloatOps.minimumf (KTree.nodeVal a 6) (a 6) := KTree.nodeVal_left a 6
theorem nv14 (a : ℕ → F .f32) : KTree.nodeVal a 14 = FloatOps.minimumf (KTree.nodeVal a 6) (FloatOps.subf KTree.zero (a 6)) := KTree.nodeVal_right a 6
theorem nv15 (a : ℕ → F .f32) : KTree.nodeVal a 15 = FloatOps.minimumf (KTree.nodeVal a 7) (a 7) := KTree.nodeVal_left a 7
theorem nv16 (a : ℕ → F .f32) : KTree.nodeVal a 16 = FloatOps.minimumf (KTree.nodeVal a 7) (FloatOps.subf KTree.zero (a 7)) := KTree.nodeVal_right a 7
theorem nv17 (a : ℕ → F .f32) : KTree.nodeVal a 17 = FloatOps.minimumf (KTree.nodeVal a 8) (a 8) := KTree.nodeVal_left a 8
theorem nv18 (a : ℕ → F .f32) : KTree.nodeVal a 18 = FloatOps.minimumf (KTree.nodeVal a 8) (FloatOps.subf KTree.zero (a 8)) := KTree.nodeVal_right a 8
theorem nv19 (a : ℕ → F .f32) : KTree.nodeVal a 19 = FloatOps.minimumf (KTree.nodeVal a 9) (a 9) := KTree.nodeVal_left a 9
theorem nv20 (a : ℕ → F .f32) : KTree.nodeVal a 20 = FloatOps.minimumf (KTree.nodeVal a 9) (FloatOps.subf KTree.zero (a 9)) := KTree.nodeVal_right a 9
theorem nv21 (a : ℕ → F .f32) : KTree.nodeVal a 21 = FloatOps.minimumf (KTree.nodeVal a 10) (a 10) := KTree.nodeVal_left a 10
theorem nv22 (a : ℕ → F .f32) : KTree.nodeVal a 22 = FloatOps.minimumf (KTree.nodeVal a 10) (FloatOps.subf KTree.zero (a 10)) := KTree.nodeVal_right a 10
theorem nv23 (a : ℕ → F .f32) : KTree.nodeVal a 23 = FloatOps.minimumf (KTree.nodeVal a 11) (a 11) := KTree.nodeVal_left a 11
theorem nv24 (a : ℕ → F .f32) : KTree.nodeVal a 24 = FloatOps.minimumf (KTree.nodeVal a 11) (FloatOps.subf KTree.zero (a 11)) := KTree.nodeVal_right a 11
theorem nv25 (a : ℕ → F .f32) : KTree.nodeVal a 25 = FloatOps.minimumf (KTree.nodeVal a 12) (a 12) := KTree.nodeVal_left a 12
theorem nv26 (a : ℕ → F .f32) : KTree.nodeVal a 26 = FloatOps.minimumf (KTree.nodeVal a 12) (FloatOps.subf KTree.zero (a 12)) := KTree.nodeVal_right a 12
theorem nv27 (a : ℕ → F .f32) : KTree.nodeVal a 27 = FloatOps.minimumf (KTree.nodeVal a 13) (a 13) := KTree.nodeVal_left a 13
theorem nv28 (a : ℕ → F .f32) : KTree.nodeVal a 28 = FloatOps.minimumf (KTree.nodeVal a 13) (FloatOps.subf KTree.zero (a 13)) := KTree.nodeVal_right a 13
theorem nv29 (a : ℕ → F .f32) : KTree.nodeVal a 29 = FloatOps.minimumf (KTree.nodeVal a 14) (a 14) := KTree.nodeVal_left a 14
theorem nv30 (a : ℕ → F .f32) : KTree.nodeVal a 30 = FloatOps.minimumf (KTree.nodeVal a 14) (FloatOps.subf KTree.zero (a 14)) := KTree.nodeVal_right a 14

/-! ## What the lanes scatter, over any fifteen gathered vectors -/

theorem pay_node0 (x : S16.Idx) : (k1_pay1 (F := F)) x = KTree.one := rfl

theorem pay_node1 (a : ℕ → Vec F S16 .f32) (x : S16.Idx) :
    (k1_pay83 ((k1_pay2 (F := F))) ((k1_pay51 ((k1_pay1 (F := F))) (a 0)))) x = FloatOps.maximumf (KTree.nodeVal (fun i => a i x) 1) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node2 (a : ℕ → Vec F S16 .f32) (x : S16.Idx) :
    (k1_pay85 ((k1_pay2 (F := F))) ((k1_pay52 ((k1_pay1 (F := F))) (a 0)))) x = FloatOps.maximumf (KTree.nodeVal (fun i => a i x) 2) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node3 (a : ℕ → Vec F S16 .f32) (x : S16.Idx) :
    ((k1_pay87 ((k1_pay2 (F := F))) ((k1_pay53 ((k1_pay1 (F := F))) (a 0) (a 1))))) x = FloatOps.maximumf (KTree.nodeVal (fun i => a i x) 3) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node4 (a : ℕ → Vec F S16 .f32) (x : S16.Idx) :
    (k1_pay89 ((k1_pay2 (F := F))) ((k1_pay54 ((k1_pay1 (F := F))) (a 0) (a 1)))) x = FloatOps.maximumf (KTree.nodeVal (fun i => a i x) 4) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node5 (a : ℕ → Vec F S16 .f32) (x : S16.Idx) :
    (k1_pay91 ((k1_pay2 (F := F))) ((k1_pay55 ((k1_pay1 (F := F))) (a 0) (a 2)))) x = FloatOps.maximumf (KTree.nodeVal (fun i => a i x) 5) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node6 (a : ℕ → Vec F S16 .f32) (x : S16.Idx) :
    (k1_pay93 ((k1_pay2 (F := F))) ((k1_pay56 ((k1_pay1 (F := F))) (a 0) (a 2)))) x = FloatOps.maximumf (KTree.nodeVal (fun i => a i x) 6) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node7 (a : ℕ → Vec F S16 .f32) (x : S16.Idx) :
    (k1_pay95 ((k1_pay2 (F := F))) ((k1_pay57 ((k1_pay1 (F := F))) (a 0) (a 1) (a 3)))) x = FloatOps.maximumf (KTree.nodeVal (fun i => a i x) 7) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node8 (a : ℕ → Vec F S16 .f32) (x : S16.Idx) :
    (k1_pay97 ((k1_pay2 (F := F))) ((k1_pay58 ((k1_pay1 (F := F))) (a 0) (a 1) (a 3)))) x = FloatOps.maximumf (KTree.nodeVal (fun i => a i x) 8) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node9 (a : ℕ → Vec F S16 .f32) (x : S16.Idx) :
    (k1_pay99 ((k1_pay2 (F := F))) ((k1_pay59 ((k1_pay1 (F := F))) (a 0) (a 1) (a 4)))) x = FloatOps.maximumf (KTree.nodeVal (fun i => a i x) 9) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node10 (a : ℕ → Vec F S16 .f32) (x : S16.Idx) :
    (k1_pay101 ((k1_pay2 (F := F))) ((k1_pay60 ((k1_pay1 (F := F))) (a 0) (a 1) (a 4)))) x = FloatOps.maximumf (KTree.nodeVal (fun i => a i x) 10) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node11 (a : ℕ → Vec F S16 .f32) (x : S16.Idx) :
    (k1_pay103 ((k1_pay2 (F := F))) ((k1_pay61 ((k1_pay1 (F := F))) (a 0) (a 2) (a 5)))) x = FloatOps.maximumf (KTree.nodeVal (fun i => a i x) 11) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node12 (a : ℕ → Vec F S16 .f32) (x : S16.Idx) :
    (k1_pay105 ((k1_pay2 (F := F))) ((k1_pay62 ((k1_pay1 (F := F))) (a 0) (a 2) (a 5)))) x = FloatOps.maximumf (KTree.nodeVal (fun i => a i x) 12) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node13 (a : ℕ → Vec F S16 .f32) (x : S16.Idx) :
    ((k1_pay107 ((k1_pay2 (F := F))) ((k1_pay63 ((k1_pay1 (F := F))) (a 0) (a 2) (a 6))))) x = FloatOps.maximumf (KTree.nodeVal (fun i => a i x) 13) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node14 (a : ℕ → Vec F S16 .f32) (x : S16.Idx) :
    (k1_pay109 ((k1_pay2 (F := F))) ((k1_pay65 (a 6) ((k1_pay56 ((k1_pay1 (F := F))) (a 0) (a 2))) ((k1_pay64 (F := F)))))) x = FloatOps.maximumf (KTree.nodeVal (fun i => a i x) 14) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node15 (a : ℕ → Vec F S16 .f32) (x : S16.Idx) :
    (k1_pay111 ((k1_pay2 (F := F))) ((k1_pay66 (a 7) ((k1_pay57 ((k1_pay1 (F := F))) (a 0) (a 1) (a 3)))))) x = FloatOps.maximumf (KTree.nodeVal (fun i => a i x) 15) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node16 (a : ℕ → Vec F S16 .f32) (x : S16.Idx) :
    (k1_pay113 ((k1_pay2 (F := F))) ((k1_pay67 (a 7) ((k1_pay57 ((k1_pay1 (F := F))) (a 0) (a 1) (a 3)))))) x = FloatOps.maximumf (KTree.nodeVal (fun i => a i x) 16) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node17 (a : ℕ → Vec F S16 .f32) (x : S16.Idx) :
    (k1_pay115 ((k1_pay2 (F := F))) ((k1_pay68 (a 8) ((k1_pay58 ((k1_pay1 (F := F))) (a 0) (a 1) (a 3)))))) x = FloatOps.maximumf (KTree.nodeVal (fun i => a i x) 17) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node18 (a : ℕ → Vec F S16 .f32) (x : S16.Idx) :
    (k1_pay117 ((k1_pay2 (F := F))) ((k1_pay69 (a 8) ((k1_pay58 ((k1_pay1 (F := F))) (a 0) (a 1) (a 3)))))) x = FloatOps.maximumf (KTree.nodeVal (fun i => a i x) 18) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node19 (a : ℕ → Vec F S16 .f32) (x : S16.Idx) :
    (k1_pay119 ((k1_pay2 (F := F))) ((k1_pay70 (a 9) ((k1_pay59 ((k1_pay1 (F := F))) (a 0) (a 1) (a 4)))))) x = FloatOps.maximumf (KTree.nodeVal (fun i => a i x) 19) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node20 (a : ℕ → Vec F S16 .f32) (x : S16.Idx) :
    (k1_pay121 ((k1_pay2 (F := F))) ((k1_pay71 (a 9) ((k1_pay59 ((k1_pay1 (F := F))) (a 0) (a 1) (a 4)))))) x = FloatOps.maximumf (KTree.nodeVal (fun i => a i x) 20) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node21 (a : ℕ → Vec F S16 .f32) (x : S16.Idx) :
    (k1_pay123 ((k1_pay2 (F := F))) ((k1_pay72 (a 10) ((k1_pay60 ((k1_pay1 (F := F))) (a 0) (a 1) (a 4)))))) x = FloatOps.maximumf (KTree.nodeVal (fun i => a i x) 21) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node22 (a : ℕ → Vec F S16 .f32) (x : S16.Idx) :
    (k1_pay125 ((k1_pay2 (F := F))) ((k1_pay73 (a 10) ((k1_pay60 ((k1_pay1 (F := F))) (a 0) (a 1) (a 4)))))) x = FloatOps.maximumf (KTree.nodeVal (fun i => a i x) 22) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node23 (a : ℕ → Vec F S16 .f32) (x : S16.Idx) :
    (k1_pay127 ((k1_pay2 (F := F))) ((k1_pay74 (a 11) ((k1_pay61 ((k1_pay1 (F := F))) (a 0) (a 2) (a 5)))))) x = FloatOps.maximumf (KTree.nodeVal (fun i => a i x) 23) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node24 (a : ℕ → Vec F S16 .f32) (x : S16.Idx) :
    (k1_pay4 (k1_pay75 (a 11) ((k1_pay61 ((k1_pay1 (F := F))) (a 0) (a 2) (a 5))))) x = FloatOps.maximumf (KTree.nodeVal (fun i => a i x) 24) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node25 (a : ℕ → Vec F S16 .f32) (x : S16.Idx) :
    (k1_pay6 (k1_pay76 (a 12) ((k1_pay62 ((k1_pay1 (F := F))) (a 0) (a 2) (a 5))))) x = FloatOps.maximumf (KTree.nodeVal (fun i => a i x) 25) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node26 (a : ℕ → Vec F S16 .f32) (x : S16.Idx) :
    (k1_pay8 (k1_pay77 (a 12) ((k1_pay62 ((k1_pay1 (F := F))) (a 0) (a 2) (a 5))))) x = FloatOps.maximumf (KTree.nodeVal (fun i => a i x) 26) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node27 (a : ℕ → Vec F S16 .f32) (x : S16.Idx) :
    (k1_pay10 (k1_pay78 (a 13) ((k1_pay63 ((k1_pay1 (F := F))) (a 0) (a 2) (a 6))))) x = FloatOps.maximumf (KTree.nodeVal (fun i => a i x) 27) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node28 (a : ℕ → Vec F S16 .f32) (x : S16.Idx) :
    (k1_pay12 (k1_pay79 (a 13) ((k1_pay63 ((k1_pay1 (F := F))) (a 0) (a 2) (a 6))))) x = FloatOps.maximumf (KTree.nodeVal (fun i => a i x) 28) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node29 (a : ℕ → Vec F S16 .f32) (x : S16.Idx) :
    (k1_pay14 (k1_pay80 (a 6) (a 14) ((k1_pay56 ((k1_pay1 (F := F))) (a 0) (a 2))) ((k1_pay64 (F := F))))) x = FloatOps.maximumf (KTree.nodeVal (fun i => a i x) 29) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node30 (a : ℕ → Vec F S16 .f32) (x : S16.Idx) :
    (k1_pay16 (k1_pay81 (a 6) (a 14) ((k1_pay56 ((k1_pay1 (F := F))) (a 0) (a 2))) ((k1_pay64 (F := F))))) x = FloatOps.maximumf (KTree.nodeVal (fun i => a i x) 30) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl

/-! ## The rows of a fetched chunk -/

/-- Projection `i` of local row `r` in a chunk's 51200 words (total: positions wrap at the chunk's length). -/
def rowA (fA : Vec F S51200 .f32) (r i : ℕ) : F .f32 := fA (ix1 ⟨(r * 128 + i) % 51200, Nat.mod_lt _ (by decide)⟩)

/-- The gathered vectors of group `g`. -/
def gat (fA : Vec F S51200 .f32) (g : ℕ) (i : ℕ) : Vec F S16 .f32 := fun x => rowA fA (16 * g + (x 0).val) i

/-- What the node scratch is to hold at word `p`: node `p % 31` of local row `p / 31`. -/
def tgtB (fA : Vec F S51200 .f32) (p : S12400.Idx) : F .f32 :=
  if (p 0).val % 31 = 0 then KTree.one
  else FloatOps.maximumf (KTree.nodeVal (rowA fA ((p 0).val / 31)) ((p 0).val % 31)) KTree.zero

/-- Node `n` over the lanes of group `g`. -/
def nodeV (fA : Vec F S51200 .f32) (g : ℕ) (n : ℕ) : Vec F S16 .f32 := fun x =>
  if n = 0 then KTree.one else FloatOps.maximumf (KTree.nodeVal (fun i => gat fA g i x) n) KTree.zero

theorem nodeV_ne (fA : Vec F S51200 .f32) (g n : ℕ) (hn : n ≠ 0) (x : S16.Idx) :
    nodeV fA g n x = FloatOps.maximumf (KTree.nodeVal (fun i => gat fA g i x) n) KTree.zero := if_neg hn
theorem nodeV_zero (fA : Vec F S51200 .f32) (g : ℕ) (x : S16.Idx) : nodeV fA g 0 x = KTree.one := if_pos rfl

theorem nodeV_eq_tgtB (fA : Vec F S51200 .f32) (g : ℕ) (n : ℕ) (hn : n < 31) (x : S16.Idx) (p : S12400.Idx)
    (hp : (p 0).val = (16 * g + (x 0).val) * 31 + n) : nodeV fA g n x = tgtB fA p := by
  have h1 : (p 0).val % 31 = n := by rw [hp]; omega
  have h2 : (p 0).val / 31 = 16 * g + (x 0).val := by rw [hp]; omega
  unfold nodeV tgtB
  rw [h1, h2]; rfl

/-- A gather at projection `i`'s words reads the rows' projection `i`. -/
theorem load_eq_gat (fA : Vec F S51200 .f32) (g : Fin k1_t2_loop.trips) (i : ℕ) (hi : i < 15) (idx : IVec S16 32)
    (hidx : ∀ x, (idx x).toNat = (16 * g.val + (x 0).val) * 128 + i)
    (h : ∀ a x, ((![idx] : Fin 1 → IVec S16 32) a x).toNat < S51200.size a) :
    loadIdx fA ![idx] h = gat fA g.val i := by
  funext x
  have hg := trips2_le g
  have hx := lane_lt x
  show fA (idxAt ![idx] h x) = fA _
  congr 1
  funext a; obtain rfl : a = 0 := Subsingleton.elim _ _
  apply Fin.ext
  show (idx x).toNat = ((16 * g.val + (x 0).val) * 128 + i) % 51200
  rw [hidx x]; omega

/-! ## Thirty-one scatters -/

section Stores
variable (fA : Vec F S51200 .f32) (g : Fin k1_t2_loop.trips) (fB : Vec F S12400 .f32)

/-- After the first `n` scatters of group `g`: words of no row of the group are as before, and nodes below `n` of
    the group's rows are in place. -/
def Good (n : ℕ) (f' : Vec F S12400 .f32) : Prop :=
  (∀ p : S12400.Idx, (∀ x : S16.Idx, ∀ m, m < 31 → (p 0).val ≠ (16 * g.val + (x 0).val) * 31 + m) → f' p = fB p)
  ∧ ∀ (x : S16.Idx) (m : ℕ), m < n → ∀ p : S12400.Idx, (p 0).val = (16 * g.val + (x 0).val) * 31 + m → f' p = nodeV fA g.val m x

theorem good_zero : Good fA g fB 0 fB := ⟨fun _ _ => rfl, fun _ m hm => absurd hm (Nat.not_lt_zero m)⟩

theorem good_step (n : ℕ) (hn : n < 31) (f' : Vec F S12400 .f32) (hG : Good fA g fB n f') (idx : IVec S16 32)
    (hidx : ∀ x, (idx x).toNat = (16 * g.val + (x 0).val) * 31 + n) (v : Vec F S16 .f32) (hv : ∀ x, v x = nodeV fA g.val n x)
    (h : ∀ a x, ((![idx] : Fin 1 → IVec S16 32) a x).toNat < S12400.size a) :
    Good fA g fB (n + 1) (storeIdx f' ![idx] v (fun _ => 1#1) false h) := by
  refine ⟨fun p hp => ?_, fun x m hm p hp => ?_⟩
  · rw [storeB_miss f' idx v h p fun x' => by rw [hidx x']; exact (hp x' n hn).symm]
    exact hG.1 p hp
  · rcases Nat.lt_succ_iff_lt_or_eq.mp hm with hm | rfl
    · rw [storeB_miss f' idx v h p fun x' => by
        have hx := lane_lt x; have hx' := lane_lt x'
        rw [hidx x', hp]; omega]
      exact hG.2 x m hm p hp
    · rw [storeB_hit f' idx v h p x (by rw [hidx x]; exact hp) fun x' hx' => by
        rw [hidx x', hidx x] at hx'
        have e : (x' 0).val = (x 0).val := by omega
        funext a; obtain rfl : a = 0 := Subsingleton.elim _ _
        exact Fin.ext e]
      exact hv x

/-- The group done, the scratch agrees with its target one group further. -/
theorem good_inv (f' : Vec F S12400 .f32) (hG : Good fA g fB 31 f')
    (hI : ∀ p : S12400.Idx, (p 0).val < 496 * g.val → fB p = tgtB fA p) :
    ∀ p : S12400.Idx, (p 0).val < 496 * (g.val + 1) → f' p = tgtB fA p := by
  intro p hp
  by_cases hr : (p 0).val < 496 * g.val
  · rw [hG.1 p fun x m hm => by have hx := lane_lt x; omega]
    exact hI p hr
  · have hx : (p 0).val / 31 - 16 * g.val < 16 := by omega
    let x : S16.Idx := ix1 ⟨(p 0).val / 31 - 16 * g.val, hx⟩
    have hx0 : (x 0).val = (p 0).val / 31 - 16 * g.val := rfl
    have hpos : (p 0).val = (16 * g.val + (x 0).val) * 31 + (p 0).val % 31 := by rw [hx0]; omega
    rw [hG.2 x ((p 0).val % 31) (Nat.mod_lt _ (by decide)) p hpos]
    exact nodeV_eq_tgtB fA g.val _ (Nat.mod_lt _ (by decide)) x p hpos

end Stores

end Cert.Proof.KI.Body

end
-- ==== Proof.KIBodyGrpV.lean ====
/-
  One group of sixteen rows, with its values: the fifteen gathers read the rows' projections off the
  fetched chunk, and after the thirty-one scatters the node scratch holds the rows' node values on the
  group's words and what it held elsewhere.
-/
import proofs.«209939_g34969623724736_cont_8to1_b_5_19_alg».proof.Proof.KIBodySt
import proofs.«209939_g34969623724736_cont_8to1_b_5_19_alg».proof.Proof.KIBodyVal

noncomputable section

namespace Cert.Proof.KI.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

local notation "io" => (iota Kind.scVector S16 32 [0] iota_S16_d0_w32_scVector : IVec S16 32)

section Group
variable (d : Dev nD) (L : grid1.Coords)

/-- A gather out of the fetched chunk, its result named. -/
theorem ldA_stepV {α : Type} {Q : α → sProp 𝕄} (fA : Buf (Elt F) ((V d (cV L) (jV L)).loc cc1_scratch0)) (idx : IVec S16 32)
    (h : ∀ a x, ((![idx] : Fin 1 → IVec S16 32) a x).toNat < S51200.size a) (hl : (sA1 : Memref sig .scVector .vmem S51200 .f32).view.Loads)
    (k : Vec F S16 .f32 → Prog (TpuEff nD τ sig (Elt F) Λ₀ (V d (cV L) (jV L)).2) α) (R : sProp 𝕄)
    (a : Vec F S16 .f32) (ha : loadIdx fA ![idx] h = a)
    (hk : iprop(R ∗ ptA d L fA) ⊢ wp frame (wpE (defs₀ (F := F)) 𝒱₀ (V d (cV L) (jV L)) none) Set.univ (k a) Q) :
    iprop(R ∗ ptA d L fA) ⊢ wp frame (wpE (defs₀ (F := F)) 𝒱₀ (V d (cV L) (jV L)) none) Set.univ
      (SparseCore.vectorLoadIdx (sA1 : Memref sig .scVector .vmem S51200 .f32) ![idx] h hl >>= k) Q := by
  subst ha; exact ldA_step d L fA idx h hl k R hk

set_option maxHeartbeats 4000000 in
theorem group_val (g : Fin k1_t2_loop.trips) (fA : Buf (Elt F) ((V d (cV L) (jV L)).loc cc1_scratch0)) (fB : Buf (Elt F) ((V d (cV L) (jV L)).loc cc1_scratch1)) :
    iprop(ptB d L fB ∗ ptA d L fA) ⊢ wp frame (wpE (defs₀ (F := F)) 𝒱₀ (V d (cV L) (jV L)) none) Set.univ
      (k1_t2_body L in0V (Memref.isWhole_whole _) out0V (Memref.isWhole_whole _) sA1 (Memref.isWhole_whole _) sB1 (Memref.isWhole_whole _)
        cc1_scoped0 cc1_scoped1 cc1_scoped2 cc1_scoped3 io g ())
      fun _ => iprop(ptA d L fA ∗ ∃ fB', ptB d L fB' ∗ ⌜Good fA g fB 31 fB'⌝) := by
  unfold k1_t2_body
  -- the first nine gathers
  rw [k1_part1_eq_skeleton]; unfold k1_part1_skel
  simp only [Prog.lift, Prog.bind_op, Prog.bind_ret, Prog.pure_eq_ret, Prog.bind_assoc]
  rw [wp_assume_of _ _ _ _ (chk16_ok g)]
  rw [wp_assume_of _ _ _ _ (chk1_ok g)]
  refine ldA_stepV d L _ _ _ _ _ _ (gat fA g.val 0) (load_eq_gat fA g 0 (by decide) _ (fun x => aIdx_toNat g 0 (by decide) x) _) ?_
  rw [wp_assume_of _ _ _ _ (chk2_ok g)]
  refine ldA_stepV d L _ _ _ _ _ _ (gat fA g.val 1) (load_eq_gat fA g 1 (by decide) _ (fun x => aIdx_toNat g 1 (by decide) x) _) ?_
  rw [wp_assume_of _ _ _ _ (chk3_ok g)]
  refine ldA_stepV d L _ _ _ _ _ _ (gat fA g.val 2) (load_eq_gat fA g 2 (by decide) _ (fun x => aIdx_toNat g 2 (by decide) x) _) ?_
  rw [wp_assume_of _ _ _ _ (chk4_ok g)]
  refine ldA_stepV d L _ _ _ _ _ _ (gat fA g.val 3) (load_eq_gat fA g 3 (by decide) _ (fun x => aIdx_toNat g 3 (by decide) x) _) ?_
  rw [wp_assume_of _ _ _ _ (chk5_ok g)]
  refine ldA_stepV d L _ _ _ _ _ _ (gat fA g.val 4) (load_eq_gat fA g 4 (by decide) _ (fun x => aIdx_toNat g 4 (by decide) x) _) ?_
  rw [wp_assume_of _ _ _ _ (chk6_ok g)]
  refine ldA_stepV d L _ _ _ _ _ _ (gat fA g.val 5) (load_eq_gat fA g 5 (by decide) _ (fun x => aIdx_toNat g 5 (by decide) x) _) ?_
  rw [wp_assume_of _ _ _ _ (chk7_ok g)]
  refine ldA_stepV d L _ _ _ _ _ _ (gat fA g.val 6) (load_eq_gat fA g 6 (by decide) _ (fun x => aIdx_toNat g 6 (by decide) x) _) ?_
  rw [wp_assume_of _ _ _ _ (chk8_ok g)]
  refine ldA_stepV d L _ _ _ _ _ _ (gat fA g.val 7) (load_eq_gat fA g 7 (by decide) _ (fun x => aIdx_toNat g 7 (by decide) x) _) ?_
  rw [wp_assume_of _ _ _ _ (chk9_ok g)]
  refine ldA_stepV d L _ _ _ _ _ _ (gat fA g.val 8) (load_eq_gat fA g 8 (by decide) _ (fun x => aIdx_toNat g 8 (by decide) x) _) ?_
  -- the other six
  rw [k1_part2_eq_skeleton]; unfold k1_part2_skel
  simp only [Prog.lift, Prog.bind_op, Prog.bind_ret, Prog.pure_eq_ret, Prog.bind_assoc]
  rw [wp_assume_of _ _ _ _ (chk10_ok g)]
  refine ldA_stepV d L _ _ _ _ _ _ (gat fA g.val 9) (load_eq_gat fA g 9 (by decide) _ (fun x => aIdx_toNat g 9 (by decide) x) _) ?_
  rw [wp_assume_of _ _ _ _ (chk11_ok g)]
  refine ldA_stepV d L _ _ _ _ _ _ (gat fA g.val 10) (load_eq_gat fA g 10 (by decide) _ (fun x => aIdx_toNat g 10 (by decide) x) _) ?_
  rw [wp_assume_of _ _ _ _ (chk12_ok g)]
  refine ldA_stepV d L _ _ _ _ _ _ (gat fA g.val 11) (load_eq_gat fA g 11 (by decide) _ (fun x => aIdx_toNat g 11 (by decide) x) _) ?_
  rw [wp_assume_of _ _ _ _ (chk13_ok g)]
  refine ldA_stepV d L _ _ _ _ _ _ (gat fA g.val 12) (load_eq_gat fA g 12 (by decide) _ (fun x => aIdx_toNat g 12 (by decide) x) _) ?_
  rw [wp_assume_of _ _ _ _ (chk14_ok g)]
  refine ldA_stepV d L _ _ _ _ _ _ (gat fA g.val 13) (load_eq_gat fA g 13 (by decide) _ (fun x => aIdx_toNat g 13 (by decide) x) _) ?_
  rw [wp_assume_of _ _ _ _ (chk15_ok g)]
  refine ldA_stepV d L _ _ _ _ _ _ (gat fA g.val 14) (load_eq_gat fA g 14 (by decide) _ (fun x => aIdx_toNat g 14 (by decide) x) _) ?_
  refine sep_comm.trans ?_
  -- the scatters
  rw [k1_part3_eq_skeleton]; unfold k1_part3_skel
  simp only [Prog.lift, Prog.bind_op, Prog.bind_ret, Prog.pure_eq_ret, Prog.bind_assoc]
  refine stB_step d L _ _ _ _ _ _ _ _ _ ?_
  rw [wp_assume_of _ _ _ _ (chk17_ok g)]
  refine stB_step d L _ _ _ _ _ _ _ _ _ ?_
  rw [wp_assume_of _ _ _ _ (chk18_ok g)]
  refine stB_step d L _ _ _ _ _ _ _ _ _ ?_
  rw [wp_assume_of _ _ _ _ (chk19_ok g)]
  rw [k1_part4_eq_skeleton]; unfold k1_part4_skel
  simp only [Prog.lift, Prog.bind_op, Prog.bind_ret, Prog.pure_eq_ret, Prog.bind_assoc]
  refine stB_step d L _ _ _ _ _ _ _ _ _ ?_
  rw [wp_assume_of _ _ _ _ (chk20_ok g)]
  refine stB_step d L _ _ _ _ _ _ _ _ _ ?_
  rw [wp_assume_of _ _ _ _ (chk21_ok g)]
  refine stB_step d L _ _ _ _ _ _ _ _ _ ?_
  rw [wp_assume_of _ _ _ _ (chk22_ok g)]
  refine stB_step d L _ _ _ _ _ _ _ _ _ ?_
  rw [wp_assume_of _ _ _ _ (chk23_ok g)]
  refine stB_step d L _ _ _ _ _ _ _ _ _ ?_
  rw [wp_assume_of _ _ _ _ (chk24_ok g)]
  refine stB_step d L _ _ _ _ _ _ _ _ _ ?_
  rw [wp_assume_of _ _ _ _ (chk25_ok g)]
  refine stB_step d L _ _ _ _ _ _ _ _ _ ?_
  rw [wp_assume_of _ _ _ _ (chk26_ok g)]
  refine stB_step d L _ _ _ _ _ _ _ _ _ ?_
  rw [wp_assume_of _ _ _ _ (chk27_ok g)]
  refine stB_step d L _ _ _ _ _ _ _ _ _ ?_
  rw [wp_assume_of _ _ _ _ (chk28_ok g)]
  refine stB_step d L _ _ _ _ _ _ _ _ _ ?_
  rw [wp_assume_of _ _ _ _ (chk29_ok g)]
  rw [k1_part5_eq_skeleton]; unfold k1_part5_skel
  simp only [Prog.lift, Prog.bind_op, Prog.bind_ret, Prog.pure_eq_ret, Prog.bind_assoc]
  refine stB_step d L _ _ _ _ _ _ _ _ _ ?_
  rw [wp_assume_of _ _ _ _ (chk30_ok g)]
  refine stB_step d L _ _ _ _ _ _ _ _ _ ?_
  rw [wp_assume_of _ _ _ _ (chk31_ok g)]
  refine stB_step d L _ _ _ _ _ _ _ _ _ ?_
  rw [wp_assume_of _ _ _ _ (chk32_ok g)]
  refine stB_step d L _ _ _ _ _ _ _ _ _ ?_
  rw [wp_assume_of _ _ _ _ (chk33_ok g)]
  refine stB_step d L _ _ _ _ _ _ _ _ _ ?_
  rw [wp_assume_of _ _ _ _ (chk34_ok g)]
  refine stB_step d L _ _ _ _ _ _ _ _ _ ?_
  rw [wp_assume_of _ _ _ _ (chk35_ok g)]
  refine stB_step d L _ _ _ _ _ _ _ _ _ ?_
  rw [wp_assume_of _ _ _ _ (chk36_ok g)]
  refine stB_step d L _ _ _ _ _ _ _ _ _ ?_
  rw [wp_assume_of _ _ _ _ (chk37_ok g)]
  refine stB_step d L _ _ _ _ _ _ _ _ _ ?_
  rw [wp_assume_of _ _ _ _ (chk38_ok g)]
  refine stB_step d L _ _ _ _ _ _ _ _ _ ?_
  rw [wp_assume_of _ _ _ _ (chk39_ok g)]
  refine stB_step d L _ _ _ _ _ _ _ _ _ ?_
  rw [wp_assume_of _ _ _ _ (chk40_ok g)]
  refine stB_step d L _ _ _ _ _ _ _ _ _ ?_
  rw [wp_assume_of _ _ _ _ (chk41_ok g)]
  refine stB_step d L _ _ _ _ _ _ _ _ _ ?_
  rw [wp_assume_of _ _ _ _ (chk42_ok g)]
  refine stB_step d L _ _ _ _ _ _ _ _ _ ?_
  rw [wp_assume_of _ _ _ _ (chk43_ok g)]
  refine stB_step d L _ _ _ _ _ _ _ _ _ ?_
  rw [wp_assume_of _ _ _ _ (chk44_ok g)]
  refine stB_step d L _ _ _ _ _ _ _ _ _ ?_
  rw [wp_assume_of _ _ _ _ (chk45_ok g)]
  refine stB_step d L _ _ _ _ _ _ _ _ _ ?_
  rw [wp_assume_of _ _ _ _ (chk46_ok g)]
  refine stB_step d L _ _ _ _ _ _ _ _ _ ?_
  rw [wp_ret]
  iintro ⟨HA, HB⟩
  imodintro
  isplitl [HA]
  · iexact HA
  iexists _
  isplitl [HB]
  · iexact HB
  ipureintro
  -- the thirty-one scatters, last first
  refine good_step fA g fB 30 (by decide) _ ?_ _ (fun x => bIdx_toNat g 30 (by decide) x) _ (fun x => (pay_node30 (gat fA g.val) x).trans (nodeV_ne fA g.val 30 (by decide) x).symm) _
  refine good_step fA g fB 29 (by decide) _ ?_ _ (fun x => bIdx_toNat g 29 (by decide) x) _ (fun x => (pay_node29 (gat fA g.val) x).trans (nodeV_ne fA g.val 29 (by decide) x).symm) _
  refine good_step fA g fB 28 (by decide) _ ?_ _ (fun x => bIdx_toNat g 28 (by decide) x) _ (fun x => (pay_node28 (gat fA g.val) x).trans (nodeV_ne fA g.val 28 (by decide) x).symm) _
  refine good_step fA g fB 27 (by decide) _ ?_ _ (fun x => bIdx_toNat g 27 (by decide) x) _ (fun x => (pay_node27 (gat fA g.val) x).trans (nodeV_ne fA g.val 27 (by decide) x).symm) _
  refine good_step fA g fB 26 (by decide) _ ?_ _ (fun x => bIdx_toNat g 26 (by decide) x) _ (fun x => (pay_node26 (gat fA g.val) x).trans (nodeV_ne fA g.val 26 (by decide) x).symm) _
  refine good_step fA g fB 25 (by decide) _ ?_ _ (fun x => bIdx_toNat g 25 (by decide) x) _ (fun x => (pay_node25 (gat fA g.val) x).trans (nodeV_ne fA g.val 25 (by decide) x).symm) _
  refine good_step fA g fB 24 (by decide) _ ?_ _ (fun x => bIdx_toNat g 24 (by decide) x) _ (fun x => (pay_node24 (gat fA g.val) x).trans (nodeV_ne fA g.val 24 (by decide) x).symm) _
  refine good_step fA g fB 23 (by decide) _ ?_ _ (fun x => bIdx_toNat g 23 (by decide) x) _ (fun x => (pay_node23 (gat fA g.val) x).trans (nodeV_ne fA g.val 23 (by decide) x).symm) _
  refine good_step fA g fB 22 (by decide) _ ?_ _ (fun x => bIdx_toNat g 22 (by decide) x) _ (fun x => (pay_node22 (gat fA g.val) x).trans (nodeV_ne fA g.val 22 (by decide) x).symm) _
  refine good_step fA g fB 21 (by decide) _ ?_ _ (fun x => bIdx_toNat g 21 (by decide) x) _ (fun x => (pay_node21 (gat fA g.val) x).trans (nodeV_ne fA g.val 21 (by decide) x).symm) _
  refine good_step fA g fB 20 (by decide) _ ?_ _ (fun x => bIdx_toNat g 20 (by decide) x) _ (fun x => (pay_node20 (gat fA g.val) x).trans (nodeV_ne fA g.val 20 (by decide) x).symm) _
  refine good_step fA g fB 19 (by decide) _ ?_ _ (fun x => bIdx_toNat g 19 (by decide) x) _ (fun x => (pay_node19 (gat fA g.val) x).trans (nodeV_ne fA g.val 19 (by decide) x).symm) _
  refine good_step fA g fB 18 (by decide) _ ?_ _ (fun x => bIdx_toNat g 18 (by decide) x) _ (fun x => (pay_node18 (gat fA g.val) x).trans (nodeV_ne fA g.val 18 (by decide) x).symm) _
  refine good_step fA g fB 17 (by decide) _ ?_ _ (fun x => bIdx_toNat g 17 (by decide) x) _ (fun x => (pay_node17 (gat fA g.val) x).trans (nodeV_ne fA g.val 17 (by decide) x).symm) _
  refine good_step fA g fB 16 (by decide) _ ?_ _ (fun x => bIdx_toNat g 16 (by decide) x) _ (fun x => (pay_node16 (gat fA g.val) x).trans (nodeV_ne fA g.val 16 (by decide) x).symm) _
  refine good_step fA g fB 15 (by decide) _ ?_ _ (fun x => bIdx_toNat g 15 (by decide) x) _ (fun x => (pay_node15 (gat fA g.val) x).trans (nodeV_ne fA g.val 15 (by decide) x).symm) _
  refine good_step fA g fB 14 (by decide) _ ?_ _ (fun x => bIdx_toNat g 14 (by decide) x) _ (fun x => (pay_node14 (gat fA g.val) x).trans (nodeV_ne fA g.val 14 (by decide) x).symm) _
  refine good_step fA g fB 13 (by decide) _ ?_ _ (fun x => bIdx_toNat g 13 (by decide) x) _ (fun x => (pay_node13 (gat fA g.val) x).trans (nodeV_ne fA g.val 13 (by decide) x).symm) _
  refine good_step fA g fB 12 (by decide) _ ?_ _ (fun x => bIdx_toNat g 12 (by decide) x) _ (fun x => (pay_node12 (gat fA g.val) x).trans (nodeV_ne fA g.val 12 (by decide) x).symm) _
  refine good_step fA g fB 11 (by decide) _ ?_ _ (fun x => bIdx_toNat g 11 (by decide) x) _ (fun x => (pay_node11 (gat fA g.val) x).trans (nodeV_ne fA g.val 11 (by decide) x).symm) _
  refine good_step fA g fB 10 (by decide) _ ?_ _ (fun x => bIdx_toNat g 10 (by decide) x) _ (fun x => (pay_node10 (gat fA g.val) x).trans (nodeV_ne fA g.val 10 (by decide) x).symm) _
  refine good_step fA g fB 9 (by decide) _ ?_ _ (fun x => bIdx_toNat g 9 (by decide) x) _ (fun x => (pay_node9 (gat fA g.val) x).trans (nodeV_ne fA g.val 9 (by decide) x).symm) _
  refine good_step fA g fB 8 (by decide) _ ?_ _ (fun x => bIdx_toNat g 8 (by decide) x) _ (fun x => (pay_node8 (gat fA g.val) x).trans (nodeV_ne fA g.val 8 (by decide) x).symm) _
  refine good_step fA g fB 7 (by decide) _ ?_ _ (fun x => bIdx_toNat g 7 (by decide) x) _ (fun x => (pay_node7 (gat fA g.val) x).trans (nodeV_ne fA g.val 7 (by decide) x).symm) _
  refine good_step fA g fB 6 (by decide) _ ?_ _ (fun x => bIdx_toNat g 6 (by decide) x) _ (fun x => (pay_node6 (gat fA g.val) x).trans (nodeV_ne fA g.val 6 (by decide) x).symm) _
  refine good_step fA g fB 5 (by decide) _ ?_ _ (fun x => bIdx_toNat g 5 (by decide) x) _ (fun x => (pay_node5 (gat fA g.val) x).trans (nodeV_ne fA g.val 5 (by decide) x).symm) _
  refine good_step fA g fB 4 (by decide) _ ?_ _ (fun x => bIdx_toNat g 4 (by decide) x) _ (fun x => (pay_node4 (gat fA g.val) x).trans (nodeV_ne fA g.val 4 (by decide) x).symm) _
  refine good_step fA g fB 3 (by decide) _ ?_ _ (fun x => bIdx_toNat g 3 (by decide) x) _ (fun x => (pay_node3 (gat fA g.val) x).trans (nodeV_ne fA g.val 3 (by decide) x).symm) _
  refine good_step fA g fB 2 (by decide) _ ?_ _ (fun x => bIdx_toNat g 2 (by decide) x) _ (fun x => (pay_node2 (gat fA g.val) x).trans (nodeV_ne fA g.val 2 (by decide) x).symm) _
  refine good_step fA g fB 1 (by decide) _ ?_ _ (fun x => bIdx_toNat g 1 (by decide) x) _ (fun x => (pay_node1 (gat fA g.val) x).trans (nodeV_ne fA g.val 1 (by decide) x).symm) _
  refine good_step fA g fB 0 (by decide) _ ?_ _ (fun x => bBase_toNat g x) _ (fun x => (pay_node0 x).trans (nodeV_zero fA g.val x).symm) _
  exact good_zero fA g fB

end Group

end Cert.Proof.KI.Body

end
-- ==== Proof.KIBody.lean ====
/-
  One tile's whole task of the first tree launch, with its values.  Per chunk: the chunk's 51200 input
  words are fetched into the first scratch; twenty-five groups of sixteen rows fill the second scratch
  with the rows' node values (every word written exactly once); the second scratch is written out to
  the chunk's row of the output.  Every output row of the tile ends at the one whole-array function of
  the input.  The second chunk loop never runs.
-/
import proofs.«209939_g34969623724736_cont_8to1_b_5_19_alg».proof.Proof.KIBodyGrpV
import Idealize.ShloMosaic.Lib.Pipeline.Value

noncomputable section

namespace Cert.Proof.KI.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.ValueIdx

variable [FloatOps F]

local notation "io" => (iota Kind.scVector S16 32 [0] iota_S16_d0_w32_scVector : IVec S16 32)

/-- A node's value reads only the projections below its number. -/
theorem nodeVal_congr (a a' : ℕ → F .f32) : ∀ n, (∀ i, i < n → a i = a' i) → KTree.nodeVal a n = KTree.nodeVal a' n := by
  intro n
  induction n using Nat.strong_induction_on with
  | _ n ih =>
    intro h
    cases n with
    | zero => rw [KTree.nodeVal_zero, KTree.nodeVal_zero]
    | succ m =>
      rw [KTree.nodeVal, KTree.nodeVal, ih (m / 2) (by omega) (fun i hi => h i (by omega)), h (m / 2) (by omega)]

section Tile
variable (d : Dev nD) (L : grid1.Coords)

/-! ## The fetched chunk and the written row, as words of the whole arrays -/

theorem chunk_lt (k : Fin (k1_t1_loop L).trips) : 2 * (L 1).val + (L 0).val + 32 * k.val < 125 := by
  rw [← chunk_val]; exact (chunk L k).isLt

/-- Word `j` of the slice trip `k` fetches is word `51200 * chunk + j` of the flat input. -/
theorem aSl_emb (k : Fin (k1_t1_loop L).trips) (j : S51200.Idx) :
    (((aSl L k).view.emb j) 0).val = 51200 * (chunk L k).val + (j 0).val := by
  have h1 := congrFun (k1_off1_eq L k) 0
  show k1_off1 L k 0 + 1 * (j 0).val = _
  rw [h1, chunk_val]
  show 102400 * (L 1).val + 51200 * (L 0).val + 1638400 * k.val + 1 * (j 0).val = _
  omega

/-- The fetched chunk's rows are the input's rows of that chunk. -/
theorem chunk_row (X : Buf (Elt F) (in0Loc d)) (k : Fin (k1_t1_loop L).trips) (r i : ℕ) (hr : r < 400) (hi : i < 128) :
    rowA ((aSl L k).view.read (Elt F) X) r i = KTree.projAt X (chunk L k).val r i := by
  have hc := (chunk L k).isLt
  unfold rowA KTree.projAt
  have e : ((aSl L k).view.emb (ix1 ⟨(r * 128 + i) % 51200, Nat.mod_lt _ (by decide)⟩) : S6400000.Idx)
      = ix1 ⟨(((chunk L k).val * 400 + r) * 128 + i) % 6400000, Nat.mod_lt _ (by decide)⟩ := by
    refine (eq_ix1 _).trans ?_
    congr 1
    apply Fin.ext
    rw [aSl_emb]
    show 51200 * (chunk L k).val + (r * 128 + i) % 51200 = (((chunk L k).val * 400 + r) * 128 + i) % 6400000
    omega
  exact ((View.read_apply _ _).trans (cast_eq _ _)).trans (congrArg X e)

theorem tgtB_chunk (X : Buf (Elt F) (in0Loc d)) (k : Fin (k1_t1_loop L).trips) (p : S12400.Idx) :
    tgtB ((aSl L k).view.read (Elt F) X) p = KTree.outFlat X (ix2 (chunk L k) ⟨(p 0).val, (p 0).isLt⟩) := by
  have hp : (p 0).val < 12400 := (p 0).isLt
  unfold tgtB KTree.outFlat
  show (if (p 0).val % 31 = 0 then KTree.one else FloatOps.maximumf (KTree.nodeVal (rowA ((aSl L k).view.read (Elt F) X) ((p 0).val / 31)) ((p 0).val % 31)) KTree.zero)
    = (if (p 0).val % 31 = 0 then KTree.one else FloatOps.maximumf (KTree.nodeVal (KTree.projAt X (chunk L k).val ((p 0).val / 31)) ((p 0).val % 31)) KTree.zero)
  rw [nodeVal_congr _ _ _ fun i hi => chunk_row d L X k ((p 0).val / 31) i (by omega) (by omega)]

/-- Word `y` of the row trip `k` writes is word `y` of row `chunk` of the output. -/
theorem oRow_emb (k : Fin (k1_t1_loop L).trips) (y : S12400.Idx) :
    (oRowK L k).view.emb y = ix2 (chunk L k) ⟨(y 0).val, (y 0).isLt⟩ := by
  have h2 := k1_off2_eq L k
  show (Rect.unit (s := S125x12400) (k1_off2 L k) S1x12400.size (k1_off2_inb L k)).emb (Shape.reshapeEquiv squeezes_S1x12400_S12400.numel_eq y) = _
  rw [Shape.reshapeEquiv_cons_one]
  funext a
  match a with
  | ⟨0, _⟩ => apply Fin.ext; show k1_off2 L k 0 + 1 * 0 = (chunk L k).val; rfl
  | ⟨1, _⟩ => apply Fin.ext; show k1_off2 L k 1 + 1 * (y 0).val = (y 0).val; rw [h2]; show 0 + 1 * (y 0).val = _; omega

/-- The row written out from a scratch that holds the chunk's node values is the output function's row. -/
theorem out_row_eq (X : Buf (Elt F) (in0Loc d)) (k : Fin (k1_t1_loop L).trips) (fo : Buf (Elt F) (out0Loc d)) (w : S12400.Idx → Elt F .f32)
    (hw : ∀ y : S12400.Idx, w y = KTree.outFlat X (ix2 (chunk L k) ⟨(y 0).val, (y 0).isLt⟩)) :
    ((oRowK L k).view.loc (V d (cV L) (jV L)) ↦[(oRowK L k).view.set]{fullShare} (oRowK L k).view.write (Elt F) fo w Finset.univ : sProp 𝕄)
      = out0Loc d ↦[rowSet (chunk L k)]{fullShare} KTree.outFlat X := by
  rw [pts_oRowK, ← set_oRowK]
  refine pointsTo_congr fun i hi => ?_
  obtain ⟨y, rfl⟩ := View.exists_emb_of_mem_set _ hi
  rw [View.write_emb_of_mem _ _ (Finset.mem_univ y)]
  exact (cast_eq _ _).trans ((hw y).trans (congrArg (KTree.outFlat X) (oRow_emb L k y).symm))

/-- The same, for the row written as one listed piece. -/
theorem out_row_eqW (X : Buf (Elt F) (in0Loc d)) (k : Fin (k1_t1_loop L).trips) (fo : Buf (Elt F) (out0Loc d)) (w : S12400.Idx → Elt F .f32)
    (hw : ∀ y : S12400.Idx, w y = KTree.outFlat X (ix2 (chunk L k) ⟨(y 0).val, (y 0).isLt⟩)) :
    ((oRowK L k).view.loc (V d (cV L) (jV L)) ↦[(oRowK L k).view.set]{fullShare}
        (oRowK L k).view.writes (Elt F) fo [⟨Rect.whole S12400, w⟩] : sProp 𝕄)
      = out0Loc d ↦[rowSet (chunk L k)]{fullShare} KTree.outFlat X := by
  rw [pts_oRowK, ← set_oRowK]
  refine pointsTo_congr fun i hi => ?_
  obtain ⟨y, rfl⟩ := View.exists_emb_of_mem_set _ hi
  have e : ((oRowK L k).view.slice (Rect.whole S12400)).emb y = (oRowK L k).view.emb y := by
    show (oRowK L k).view.emb ((Rect.whole S12400).emb y) = _
    rw [Rect.emb_whole_apply]
  have h1 := View.write_emb_of_mem (v := (oRowK L k).view.slice (Rect.whole S12400)) (Val := Elt F) fo w (M := Finset.univ) (x := y) (Finset.mem_univ y)
  rw [e] at h1
  refine h1.trans ((cast_eq _ _).trans ?_)
  exact (hw y).trans (congrArg (KTree.outFlat X) (oRow_emb L k y).symm)

/-! ## The invariants -/

/-- Between groups: the fetched chunk unchanged, the node scratch right on the words of the groups done. -/
def inv2v (fA : Buf (Elt F) ((V d (cV L) (jV L)).loc cc1_scratch0)) (g : ℕ) (_ : Unit) : sProp 𝕄 :=
  iprop(((sA1 : Memref sig .scVector .vmem S51200 .f32).view.loc (V d (cV L) (jV L)) ↦{fullShare} fA)
    ∗ ∃ fB, ((sB1 : Memref sig .scVector .vmem S12400 .f32).view.loc (V d (cV L) (jV L)) ↦{fullShare} fB)
        ∗ ⌜∀ p : S12400.Idx, (p 0).val < 496 * g → fB p = tgtB fA p⌝)

theorem group_invV (fA : Buf (Elt F) ((V d (cV L) (jV L)).loc cc1_scratch0)) (g : Fin k1_t2_loop.trips) (acc : Unit) :
    inv2v (F := F) d L fA g.val acc ⊢ wp frame (wpE (defs₀ (F := F)) 𝒱₀ (V d (cV L) (jV L)) none) Set.univ
      (k1_t2_body L in0V (Memref.isWhole_whole _) out0V (Memref.isWhole_whole _) sA1 (Memref.isWhole_whole _) sB1 (Memref.isWhole_whole _)
        cc1_scoped0 cc1_scoped1 cc1_scoped2 cc1_scoped3 io g acc)
      (inv2v (F := F) d L fA (g.val + 1)) := by
  unfold inv2v
  iintro ⟨HA, %fB, HB, %hI⟩
  ihave H := (group_val d L g fA fB) $$ [HA HB]
  · isplitl [HB]
    · iexact HB
    · iexact HA
  iapply (wp_wand_r frame _ _)
  isplitl [H]
  · iexact H
  iintro %_ ⟨HA, %fB', HB, %hG⟩
  isplitl [HA]
  · iexact HA
  iexists fB'
  isplitl [HB]
  · iexact HB
  ipureintro
  exact good_inv fA g fB fB' hG hI

/-- A row of the tile before trip `k`: done if its trip is past, at some contents otherwise. -/
def rowΦ (X : Buf (Elt F) (in0Loc d)) (k : ℕ) (j : Fin (k1_t1_loop L).trips) : sProp 𝕄 :=
  if j.val < k then out0Loc d ↦[rowSet (chunk L j)]{fullShare} KTree.outFlat X
  else iprop(∃ f, out0Loc d ↦[rowSet (chunk L j)]{fullShare} f)

theorem rowΦ_zero (X : Buf (Elt F) (in0Loc d)) :
    (bigSep Finset.univ fun j : Fin (k1_t1_loop L).trips => iprop(∃ f, out0Loc d ↦[rowSet (chunk L j)]{fullShare} f) : sProp 𝕄)
      = bigSep Finset.univ (rowΦ (F := F) d L X 0) :=
  bigSep_congr fun j _ => (if_neg (Nat.not_lt_zero _)).symm
theorem rowΦ_all (X : Buf (Elt F) (in0Loc d)) :
    (bigSep Finset.univ (rowΦ (F := F) d L X (k1_t1_loop L).trips) : sProp 𝕄)
      = bigSep Finset.univ fun j : Fin (k1_t1_loop L).trips => out0Loc d ↦[rowSet (chunk L j)]{fullShare} KTree.outFlat X :=
  bigSep_congr fun j _ => if_pos j.isLt
theorem rowΦ_open (X : Buf (Elt F) (in0Loc d)) (k : Fin (k1_t1_loop L).trips) :
    (bigSep Finset.univ (rowΦ (F := F) d L X k.val) : sProp 𝕄)
      = iprop((∃ f, out0Loc d ↦[rowSet (chunk L k)]{fullShare} f) ∗ bigSep (Finset.univ.erase k) (rowΦ (F := F) d L X k.val)) := by
  rw [SparseCore.bigSep_erase' (Finset.mem_univ k)]
  congr 1
  exact if_neg (Nat.lt_irrefl _)
theorem rowΦ_close (X : Buf (Elt F) (in0Loc d)) (k : Fin (k1_t1_loop L).trips) :
    (bigSep Finset.univ (rowΦ (F := F) d L X (k.val + 1)) : sProp 𝕄)
      = iprop((out0Loc d ↦[rowSet (chunk L k)]{fullShare} KTree.outFlat X) ∗ bigSep (Finset.univ.erase k) (rowΦ (F := F) d L X k.val)) := by
  rw [SparseCore.bigSep_erase' (Finset.mem_univ k)]
  congr 1
  · exact if_pos (Nat.lt_succ_self _)
  · refine bigSep_congr fun j hj => ?_
    have hne : j.val ≠ k.val := fun e => (Finset.mem_erase.mp hj).1 (Fin.ext e)
    unfold rowΦ
    by_cases h : j.val < k.val
    · rw [if_pos h, if_pos (by omega)]
    · rw [if_neg h, if_neg (by omega)]

/-- Between chunks. -/
def inv1v (q : PosShare TreeShare) (X : Buf (Elt F) (in0Loc d)) (O : CellTallies nD τ sig (HIx 2)) (W : Waits sig (HIx 2)) (k : ℕ) (_ : Unit) : sProp 𝕄 :=
  iprop(Transfers.MayWaits (V d (cV L) (jV L)) (none : HIx 2) O
    ∗ ((in0V : Memref sig .scVector .hbm S6400000 .f32).view.loc (V d (cV L) (jV L)) ↦{q} X)
    ∗ bigSep Finset.univ (rowΦ (F := F) d L X k)
    ∗ (∃ fA, (sA1 : Memref sig .scVector .vmem S51200 .f32).view.loc (V d (cV L) (jV L)) ↦{fullShare} fA)
    ∗ (∃ fB, (sB1 : Memref sig .scVector .vmem S12400 .f32).view.loc (V d (cV L) (jV L)) ↦{fullShare} fB)
    ∗ semVal ((V d (cV L) (jV L)), SemLoc.dma cc1_scoped0.sem) 0 ∗ semVal ((V d (cV L) (jV L)), SemLoc.dma cc1_scoped1.sem) 0
    ∗ ∃ W', ⌜∀ p ∈ W', p ∈ W ∨ p.2 = none⌝ ∗ owes (V d (cV L) (jV L)) O W')

end Tile

end Cert.Proof.KI.Body

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Body

variable {F : FTy → Type} [FloatOps F]

local notation "𝕄" => MT nD τ sig (HIx 2) (Elt F) ℕ UU ℕ

theorem body_k1_trips2_eq : k1_t2_loop.trips = 25 := by decide

set_option maxHeartbeats 4000000 in
/-- The task of the tile at grid coordinates `L`: from a read share of the flat input and the tile's output rows, it
    ends with every one of those rows at the output function of the input. -/
theorem tile_body1 (d : Dev nD) (L : grid1.Coords) (hF : (K (F := F)).Facts) (q : PosShare TreeShare) (X : Buf (Elt F) (in0Loc d))
    (O : CellTallies nD τ sig (HIx 2)) (W : Waits sig (HIx 2)) (hO : ∀ g, O g none = 0) :
    (iprop(levAts (K (F := F)).L (K (F := F)).lev
        ∗ (in0Loc d ↦{q} X)
        ∗ (bigSep Finset.univ fun k : Fin (k1_t1_loop L).trips => iprop(∃ f, out0Loc d ↦[rowSet (chunk L k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_tree_sc L in0V (Memref.isWhole_whole _) out0V (Memref.isWhole_whole _) sA1 (Memref.isWhole_whole _) sB1 (Memref.isWhole_whole _) cc1_scoped0 cc1_scoped1 cc1_scoped2 cc1_scoped3)
          fun _ => iprop((in0Loc d ↦{q} X)
            ∗ (bigSep Finset.univ fun k : Fin (k1_t1_loop L).trips => out0Loc d ↦[rowSet (chunk L k)]{fullShare} (KTree.outFlat X))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_tree_sc_eq_skeleton]; unfold cc1_tree_sc_skel
  rw [(K (F := F)).scopedBufs_V hF d (cV L) (jV L), SparseCore.Cfg.scopedSems0_V (Val := Elt F) d (cV L) (jV L), ownSems0_V, ownBufs_V]
  iintro ⟨#Hlv, HX, Hrows, ⟨⟨%fA, HA⟩, ⟨%fB, HB⟩, Hbufs⟩, ⟨Hs0, Hs1, Hsems⟩, HO⟩
  ihave Hmw := ((K (F := F)).mayWaits_none (thr := (V d (cV L) (jV L))) hO) $$ Hlv
  ihave HX' := (Entails.of_eq (pts_in0 (F := F) d L q _).symm) $$ HX
  ihave HA' := (Entails.of_eq (pts_sA (F := F) d L _).symm) $$ HA
  ihave HB' := (Entails.of_eq (pts_sB (F := F) d L _).symm) $$ HB
  ihave Hrows' := (Entails.of_eq (rowΦ_zero (F := F) d L X)) $$ Hrows
  sl_for (inv1v d L q X O W) $$ [Hmw HX' Hrows' HA' HB' Hs0 Hs1 HO]
  case region =>
    intro k _
    unfold inv1v
    iintro ⟨Hmw, HX, Hrows, ⟨%fA, HA⟩, ⟨%fB, HB⟩, Hs0, Hs1, %W', %hW', HO⟩
    ihave Hr := (Entails.of_eq (rowΦ_open (F := F) d L X k)) $$ Hrows
    icases Hr with ⟨⟨%fo, Ho⟩, Hrest⟩
    ihave Ho' := (Entails.of_eq (pts_oRowK (F := F) d L k fo).symm) $$ Ho
    -- the fetch and its wait: the first scratch holds the chunk
    sl_exec
    ihave HA2 := (Entails.of_eq (congrArg (fun f => ((sA1 : Memref sig .scVector .vmem S51200 .f32).view.loc (V d (cV L) (jV L)) ↦{fullShare} f : sProp 𝕄))
      (View.write_whole_univ cc1_scratch0 fA _))) $$ HA
    -- the groups
    sl_for (inv2v d L ((aSl L k).view.read (Elt F) X)) $$ [HA2 HB]
    case region =>
      intro g acc
      exact group_invV d L _ g acc
    · unfold inv2v
      isplitl [HA2]
      · iexact HA2
      · iexists _; isplitl [HB]
        · iexact HB
        · ipureintro; intro p hp; exact absurd hp (by omega)
    iintro %_ HI
    unfold inv2v
    icases HI with ⟨HA, %fB2, HB, %hB⟩
    have hB' : ∀ y : S12400.Idx, fB2 y = KTree.outFlat X (ix2 (chunk L k) ⟨(y 0).val, (y 0).isLt⟩) := fun y =>
      (hB y (by have hy : (y 0).val < 12400 := (y 0).isLt; have e : Scf.trips k1_t2_loop.lb k1_t2_loop.ub k1_t2_loop.st = 25 := body_k1_trips2_eq; rw [e]; omega)).trans (tgtB_chunk d L X k y)
    -- the write-out and its wait
    sl_exec
    have hB'' : ∀ y : S12400.Idx, tile_body1.sl.dma0_1 d L fB2 y = KTree.outFlat X (ix2 (chunk L k) ⟨(y 0).val, (y 0).isLt⟩) := fun y =>
      ((View.read_apply _ _).trans (cast_eq _ _)).trans (hB' y)
    ihave Ho2 := (Entails.of_eq (out_row_eqW (F := F) d L X k fo (tile_body1.sl.dma0_1 d L fB2) hB'')) $$ Ho'
    sl_step
    isplitl [Hmw]; · iexact Hmw
    isplitl [HX]; · iexact HX
    isplitl [Ho2 Hrest]
    · iapply (Entails.of_eq (rowΦ_close (F := F) d L X k).symm)
      isplitl [Ho2]
      · iexact Ho2
      · iexact Hrest
    isplitl [HA]; · iexists _; iexact HA
    isplitl [HB]; · iexists _; iexact HB
    isplitl [Hs0]; · iexact Hs0
    isplitl [Hs1]; · iexact Hs1
    iexists _; isplitr
    rotate_left
    · iexact HO
    · ipureintro; intro p hp
      rcases Finset.mem_insert.mp hp with hp | hp
      · exact .inr (by subst hp; rfl)
      rcases Finset.mem_insert.mp hp with hp | hp
      · exact .inr (by subst hp; rfl)
      · exact hW' p hp
  · unfold inv1v
    isplitr; · iexact Hmw
    isplitl [HX']; · iexact HX'
    isplitl [Hrows']; · iexact Hrows'
    isplitl [HA']; · iexists _; iexact HA'
    isplitl [HB']; · iexists _; iexact HB'
    isplitl [Hs0]; · iexact Hs0
    isplitl [Hs1]; · iexact Hs1
    iexists W; isplitr
    · ipureintro; exact fun p hp => .inl hp
    · iexact HO
  iintro %_ HI
  -- the second chunk loop has no trip
  sl_for (fun (_ : ℕ) => inv1v d L q X O W (k1_t1_loop L).trips) $$ [HI]
  case region =>
    intro k _
    exact (Nat.not_lt_zero _ (lt_of_lt_of_le k.isLt (k1_t3_abs L).2.1)).elim
  · iexact HI
  iintro %_ HI
  unfold inv1v
  icases HI with ⟨-, HX, Hrows, ⟨%fA, HA⟩, ⟨%fB, HB⟩, Hs0, Hs1, %W', %hW', HO⟩
  sl_step
  isplitl [HX]; · iapply (Entails.of_eq (pts_in0 (F := F) d L q _)); iexact HX
  isplitl [Hrows]; · iapply (Entails.of_eq (rowΦ_all (F := F) d L X)); iexact Hrows
  isplitl [HA HB Hbufs]
  · isplitl [HA]; · iexists _; iexact HA
    isplitl [HB]; · iexists _; iexact HB
    iexact Hbufs
  isplitl [Hs0 Hs1 Hsems]
  · isplitl [Hs0]; · iexact Hs0
    isplitl [Hs1]; · iexact Hs1
    iexact Hsems
  iexists W'; isplitr
  · ipureintro; exact hW'
  · iexact HO

end Cert.Proof.KI

end
-- ==== Proof.KIBody30.lean ====
/-
  One tile's task of the second tree launch: the names of its thread, its chunks, the slices its copies
  move, and the respellings between the arrays as the TensorCore names them and as the tile's memrefs
  address them.
-/
import proofs.«209939_g34969623724736_cont_8to1_b_5_19_alg».proof.Proof.KIBase
import proofs.«209939_g34969623724736_cont_8to1_b_5_19_alg».proof.Proof.KITile
import proofs.«209939_g34969623724736_cont_8to1_b_5_19_alg».proof.Proof.Gen.KernelIdeal.Skeleton
import Idealize.ShloMosaic.Lib.Tactic

noncomputable section

namespace Cert.Proof.KI.Body3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The tile and its chunks -/

/-- The chunk of trip `k` in closed form: the tile's worker number plus thirty-two per trip. -/
theorem chunk_val (L : grid3.Coords) (k : Fin (k3_t1_loop L).trips) :
    (chunk3 L k).val = 2 * (L 1).val + (L 0).val + 32 * k.val := by
  show k3_off2 L k 0 = _
  rw [k3_off2_eq]; rfl

/-- The slice of the flat input that trip `k` fetches, and the output row it writes, as the program slices them. -/
abbrev aSl (L : grid3.Coords) (k : Fin (k3_t1_loop L).trips) : Memref sig .scVector .hbm S51200 .f32 :=
  (in1V : Memref sig .scVector .hbm S6400000 .f32).slice (Rect.unit (s := S6400000) (k3_off1 L k) S51200.size (k3_off1_inb L k)) (fun _ => rfl)
abbrev oRowK (L : grid3.Coords) (k : Fin (k3_t1_loop L).trips) : Memref sig .scVector .hbm S12400 .f32 :=
  ((out1V : Memref sig .scVector .hbm S125x12400 .f32).slice (Rect.unit (s := S125x12400) (k3_off2 L k) S1x12400.size (k3_off2_inb L k)) (fun _ => rfl)).squeeze S12400 squeezes_S1x12400_S12400

theorem rowK_eq (L : grid3.Coords) (k : Fin (k3_t1_loop L).trips) :
    Rect.unit (s := S125x12400) (k3_off2 L k) S1x12400.size (k3_off2_inb L k) = row (chunk3 L k) := by
  unfold row Rect.part Rect.block
  congr 1 <;> funext a
  · match a with
    | 0 => simp [Shape.partIx, Shape.partSize, chunk3]
    | 1 => rw [k3_off2_eq]; simp [Shape.partIx, Shape.partSize]
  · match a with
    | 0 => simp [Shape.partSize]
    | 1 => simp [Shape.partSize]

theorem set_oRowK (L : grid3.Coords) (k : Fin (k3_t1_loop L).trips) : (oRowK L k).view.set = rowSet (chunk3 L k) := by
  show (((out1V : Memref sig .scVector .hbm S125x12400 .f32).view.slice (Rect.unit (s := S125x12400) (k3_off2 L k) S1x12400.size (k3_off2_inb L k))).reshape S12400 squeezes_S1x12400_S12400.numel_eq).set
    = ((out1V : Memref sig .scVector .hbm S125x12400 .f32).view.slice (row (chunk3 L k))).set
  rw [View.set_reshape]
  exact rowK_eq L k ▸ rfl

section Pts
variable (d : Dev nD) (L : grid3.Coords)

theorem pts_oRowK (k : Fin (k3_t1_loop L).trips) (f : Buf (Elt F) (out1Loc d)) :
    ((oRowK L k).view.loc (V d (cV3 L) (jV3 L)) ↦[(oRowK L k).view.set]{fullShare} f : sProp 𝕄) = out1Loc d ↦[rowSet (chunk3 L k)]{fullShare} f := by
  rw [set_oRowK]
theorem pts_in0 (q : PosShare TreeShare) (f : Buf (Elt F) (in1Loc d)) :
    ((in1V : Memref sig .scVector .hbm S6400000 .f32).view.loc (V d (cV3 L) (jV3 L)) ↦{q} f : sProp 𝕄) = in1Loc d ↦{q} f := by
  simp only [Memref.view_whole, View.set_whole]
theorem pts_sA (f : Buf (Elt F) ((V d (cV3 L) (jV3 L)).loc cc3_scratch0)) :
    ((sA3 : Memref sig .scVector .vmem S51200 .f32).view.loc (V d (cV3 L) (jV3 L)) ↦{fullShare} f : sProp 𝕄) = (V d (cV3 L) (jV3 L)).loc cc3_scratch0 ↦{fullShare} f := rfl
theorem pts_sB (f : Buf (Elt F) ((V d (cV3 L) (jV3 L)).loc cc3_scratch1)) :
    ((sB3 : Memref sig .scVector .vmem S12400 .f32).view.loc (V d (cV3 L) (jV3 L)) ↦{fullShare} f : sProp 𝕄) = (V d (cV3 L) (jV3 L)).loc cc3_scratch1 ↦{fullShare} f := rfl

abbrev c0cell : GSem nD τ sig := (V d (cV3 L) (jV3 L), .dma cc3_scoped0.sem)
abbrev c1cell : GSem nD τ sig := (V d (cV3 L) (jV3 L), .dma cc3_scoped1.sem)

theorem ownSems0_V :
    (ownSems0 (V d (cV3 L) (jV3 L)) : sProp 𝕄)
      = iprop(semVal (c0cell d L) 0 ∗ semVal (c1cell d L) 0
          ∗ bigSep (((ownCells (V d (cV3 L) (jV3 L))).erase (c0cell d L)).erase (c1cell d L)) fun g => semVal g 0) := by
  unfold SparseCore.Cfg.ownSems0
  rw [SparseCore.bigSep_erase' ((mem_ownCells (g := c0cell d L)).mpr ⟨rfl, by
      show (SemLoc.dma cc3_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc3_scoped1.sem : SemLoc sig).isScoped .scVector = true; decide⟩⟩)]

/-- The two scratches are among the subcore's own buffers. -/
theorem ownBufs_V :
    (ownBufs (V d (cV3 L) (jV3 L)) : sProp 𝕄)
      = iprop((∃ f, (V d (cV3 L) (jV3 L)).loc cc3_scratch0 ↦{fullShare} f) ∗ (∃ f, (V d (cV3 L) (jV3 L)).loc cc3_scratch1 ↦{fullShare} f)
          ∗ bigSep (((ownRefs (τ := τ) (.scVector (cV3 L) (jV3 L))).erase ((Proc.scVector (cV3 L) (jV3 L)).devRef cc3_scratch0)).erase
              ((Proc.scVector (cV3 L) (jV3 L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV3 L) (jV3 L))
    (b := (Proc.scVector (cV3 L) (jV3 L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV3 L) (jV3 L)) (b := (Proc.scVector (cV3 L) (jV3 L)).devRef cc3_scratch1) rfl⟩)]

end Pts

end Cert.Proof.KI.Body3

end
-- ==== Proof.KIBody3Ix.lean ====
/-
  The index vectors of one group of sixteen rows: lane `x` of group `g` is local row `16 g + x`; its
  projection `i` sits at word `(16 g + x) * 128 + i` of the fetched chunk and its node `n` at word
  `(16 g + x) * 31 + n` of the node scratch.  None of these wraps in 32 bits, and each is inside its
  scratch: the side conditions of the fifteen gathers and the thirty-one scatters.
-/
import proofs.«209939_g34969623724736_cont_8to1_b_5_19_alg».proof.Proof.KIBody30

noncomputable section

namespace Cert.Proof.KI.Body3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- The lanes' own numbers. -/
local notation "io" => (iota Kind.scVector S16 32 [0] iota_S16_d0_w32_scVector : IVec S16 32)

theorem trips2_le (g : Fin k3_t2_loop.trips) : g.val < 25 := lt_of_lt_of_le g.isLt k3_t2_abs.2.1

theorem lane_lt (x : S16.Idx) : (x 0).val < 16 := (x 0).isLt

/-- Lane `x` of group `g` is row `16 g + x`. -/
theorem rowv_toNat (g : Fin k3_t2_loop.trips) (x : S16.Idx) :
    (k3_pay33 io 0#32 1#32 g x).toNat = 16 * g.val + (x 0).val := by
  have hg := trips2_le g
  have hx := lane_lt x
  simp only [k3_pay33, addi, muli, broadcast, IntOp.addi, IntOp.muli, Scalar.muli, Scf.iv, iota, List.foldl,
    BitVec.toNat_add, BitVec.toNat_mul, BitVec.toNat_ofNat]
  omega

theorem aBase_toNat (g : Fin k3_t2_loop.trips) (x : S16.Idx) :
    (k3_pay34 io 0#32 1#32 g x).toNat = (16 * g.val + (x 0).val) * 128 := by
  have hg := trips2_le g
  have hx := lane_lt x
  have h := rowv_toNat g x
  show (IntOp.muli (k3_pay33 io 0#32 1#32 g x) (128#32)).toNat = _
  simp only [IntOp.muli, BitVec.toNat_mul, BitVec.toNat_ofNat, h]
  omega

theorem bBase_toNat (g : Fin k3_t2_loop.trips) (x : S16.Idx) :
    (k3_pay35 io 0#32 1#32 g x).toNat = (16 * g.val + (x 0).val) * 31 := by
  have hg := trips2_le g
  have hx := lane_lt x
  have h := rowv_toNat g x
  show (IntOp.muli (k3_pay33 io 0#32 1#32 g x) (31#32)).toNat = _
  simp only [IntOp.muli, BitVec.toNat_mul, BitVec.toNat_ofNat, h]
  omega

/-- Projection `i`'s word. -/
theorem aIdx_toNat (g : Fin k3_t2_loop.trips) (i : ℕ) (hi : i < 15) (x : S16.Idx) :
    (addi (k3_pay34 io 0#32 1#32 g) (broadcast S16 (BitVec.ofNat 32 i)) x).toNat = (16 * g.val + (x 0).val) * 128 + i := by
  have hg := trips2_le g
  have hx := lane_lt x
  have h := aBase_toNat g x
  show (IntOp.addi (k3_pay34 io 0#32 1#32 g x) (BitVec.ofNat 32 i)).toNat = _
  simp only [IntOp.addi, BitVec.toNat_add, BitVec.toNat_ofNat, h]
  omega

/-- Node `n`'s word. -/
theorem bIdx_toNat (g : Fin k3_t2_loop.trips) (n : ℕ) (hn : n < 31) (x : S16.Idx) :
    (addi (k3_pay35 io 0#32 1#32 g) (broadcast S16 (BitVec.ofNat 32 n)) x).toNat = (16 * g.val + (x 0).val) * 31 + n := by
  have hg := trips2_le g
  have hx := lane_lt x
  have h := bBase_toNat g x
  show (IntOp.addi (k3_pay35 io 0#32 1#32 g x) (BitVec.ofNat 32 n)).toNat = _
  simp only [IntOp.addi, BitVec.toNat_add, BitVec.toNat_ofNat, h]
  omega

theorem inA (v : IVec S16 32) (h : ∀ x, (v x).toNat < 51200) :
    ∀ a x, ((![v] : Fin 1 → IVec S16 32) a x).toNat < S51200.size a := by
  intro a x; obtain rfl : a = 0 := Subsingleton.elim _ _; exact h x
theorem inB (v : IVec S16 32) (h : ∀ x, (v x).toNat < 12400) :
    ∀ a x, ((![v] : Fin 1 → IVec S16 32) a x).toNat < S12400.size a := by
  intro a x; obtain rfl : a = 0 := Subsingleton.elim _ _; exact h x

theorem aIdx_lt (g : Fin k3_t2_loop.trips) (i : ℕ) (hi : i < 15) (x : S16.Idx) :
    (addi (k3_pay34 io 0#32 1#32 g) (broadcast S16 (BitVec.ofNat 32 i)) x).toNat < 51200 := by
  have hg := trips2_le g
  have hx := lane_lt x
  rw [aIdx_toNat g i hi x]; omega
theorem bIdx_lt (g : Fin k3_t2_loop.trips) (n : ℕ) (hn : n < 31) (x : S16.Idx) :
    (addi (k3_pay35 io 0#32 1#32 g) (broadcast S16 (BitVec.ofNat 32 n)) x).toNat < 12400 := by
  have hg := trips2_le g
  have hx := lane_lt x
  rw [bIdx_toNat g n hn x]; omega
theorem bBase_lt (g : Fin k3_t2_loop.trips) (x : S16.Idx) : (k3_pay35 io 0#32 1#32 g x).toNat < 12400 := by
  have hg := trips2_le g
  have hx := lane_lt x
  rw [bBase_toNat g x]; omega

/-! ## The side conditions, one per gather and per scatter -/

section Checks
variable (g : Fin k3_t2_loop.trips)
theorem chk1_ok : k3_chk1 (k3_pay36 io 0#32 1#32 g) := inA _ (aIdx_lt g 0 (by decide))
theorem chk2_ok : k3_chk2 (k3_pay37 io 0#32 1#32 g) := inA _ (aIdx_lt g 1 (by decide))
theorem chk3_ok : k3_chk3 (k3_pay38 io 0#32 1#32 g) := inA _ (aIdx_lt g 2 (by decide))
theorem chk4_ok : k3_chk4 (k3_pay39 io 0#32 1#32 g) := inA _ (aIdx_lt g 3 (by decide))
theorem chk5_ok : k3_chk5 (k3_pay40 io 0#32 1#32 g) := inA _ (aIdx_lt g 4 (by decide))
theorem chk6_ok : k3_chk6 (k3_pay41 io 0#32 1#32 g) := inA _ (aIdx_lt g 5 (by decide))
theorem chk7_ok : k3_chk7 (k3_pay42 io 0#32 1#32 g) := inA _ (aIdx_lt g 6 (by decide))
theorem chk8_ok : k3_chk8 (k3_pay43 io 0#32 1#32 g) := inA _ (aIdx_lt g 7 (by decide))
theorem chk9_ok : k3_chk9 (k3_pay44 io 0#32 1#32 g) := inA _ (aIdx_lt g 8 (by decide))
theorem chk10_ok : k3_chk10 (k3_pay45 io 0#32 1#32 g) := inA _ (aIdx_lt g 9 (by decide))
theorem chk11_ok : k3_chk11 (k3_pay46 (k3_pay34 io 0#32 1#32 g)) := inA _ (aIdx_lt g 10 (by decide))
theorem chk12_ok : k3_chk12 (k3_pay47 (k3_pay34 io 0#32 1#32 g)) := inA _ (aIdx_lt g 11 (by decide))
theorem chk13_ok : k3_chk13 (k3_pay48 (k3_pay34 io 0#32 1#32 g)) := inA _ (aIdx_lt g 12 (by decide))
theorem chk14_ok : k3_chk14 (k3_pay49 (k3_pay34 io 0#32 1#32 g)) := inA _ (aIdx_lt g 13 (by decide))
theorem chk15_ok : k3_chk15 (k3_pay50 (k3_pay34 io 0#32 1#32 g)) := inA _ (aIdx_lt g 14 (by decide))
theorem chk16_ok : k3_chk16 (k3_pay35 io 0#32 1#32 g) := inB _ (bBase_lt g)
theorem chk17_ok : k3_chk17 (k3_pay82 (k3_pay35 io 0#32 1#32 g)) := inB _ (bIdx_lt g 1 (by decide))
theorem chk18_ok : k3_chk18 (k3_pay84 (k3_pay35 io 0#32 1#32 g)) := inB _ (bIdx_lt g 2 (by decide))
theorem chk19_ok : k3_chk19 (k3_pay86 (k3_pay35 io 0#32 1#32 g)) := inB _ (bIdx_lt g 3 (by decide))
theorem chk20_ok : k3_chk20 (k3_pay88 (k3_pay35 io 0#32 1#32 g)) := inB _ (bIdx_lt g 4 (by decide))
theorem chk21_ok : k3_chk21 (k3_pay90 (k3_pay35 io 0#32 1#32 g)) := inB _ (bIdx_lt g 5 (by decide))
theorem chk22_ok : k3_chk22 (k3_pay92 (k3_pay35 io 0#32 1#32 g)) := inB _ (bIdx_lt g 6 (by decide))
theorem chk23_ok : k3_chk23 (k3_pay94 (k3_pay35 io 0#32 1#32 g)) := inB _ (bIdx_lt g 7 (by decide))
theorem chk24_ok : k3_chk24 (k3_pay96 (k3_pay35 io 0#32 1#32 g)) := inB _ (bIdx_lt g 8 (by decide))
theorem chk25_ok : k3_chk25 (k3_pay98 (k3_pay35 io 0#32 1#32 g)) := inB _ (bIdx_lt g 9 (by decide))
theorem chk26_ok : k3_chk26 (k3_pay100 (k3_pay35 io 0#32 1#32 g)) := inB _ (bIdx_lt g 10 (by decide))
theorem chk27_ok : k3_chk27 (k3_pay102 (k3_pay35 io 0#32 1#32 g)) := inB _ (bIdx_lt g 11 (by decide))
theorem chk28_ok : k3_chk28 (k3_pay104 (k3_pay35 io 0#32 1#32 g)) := inB _ (bIdx_lt g 12 (by decide))
theorem chk29_ok : k3_chk29 (k3_pay106 (k3_pay35 io 0#32 1#32 g)) := inB _ (bIdx_lt g 13 (by decide))
theorem chk30_ok : k3_chk30 (k3_pay108 (k3_pay35 io 0#32 1#32 g)) := inB _ (bIdx_lt g 14 (by decide))
theorem chk31_ok : k3_chk31 (k3_pay110 (k3_pay35 io 0#32 1#32 g)) := inB _ (bIdx_lt g 15 (by decide))
theorem chk32_ok : k3_chk32 (k3_pay112 (k3_pay35 io 0#32 1#32 g)) := inB _ (bIdx_lt g 16 (by decide))
theorem chk33_ok : k3_chk33 (k3_pay114 (k3_pay35 io 0#32 1#32 g)) := inB _ (bIdx_lt g 17 (by decide))
theorem chk34_ok : k3_chk34 (k3_pay116 (k3_pay35 io 0#32 1#32 g)) := inB _ (bIdx_lt g 18 (by decide))
theorem chk35_ok : k3_chk35 (k3_pay118 (k3_pay35 io 0#32 1#32 g)) := inB _ (bIdx_lt g 19 (by decide))
theorem chk36_ok : k3_chk36 (k3_pay120 (k3_pay35 io 0#32 1#32 g)) := inB _ (bIdx_lt g 20 (by decide))
theorem chk37_ok : k3_chk37 (k3_pay122 (k3_pay35 io 0#32 1#32 g)) := inB _ (bIdx_lt g 21 (by decide))
theorem chk38_ok : k3_chk38 (k3_pay124 (k3_pay35 io 0#32 1#32 g)) := inB _ (bIdx_lt g 22 (by decide))
theorem chk39_ok : k3_chk39 (k3_pay126 (k3_pay35 io 0#32 1#32 g)) := inB _ (bIdx_lt g 23 (by decide))
theorem chk40_ok : k3_chk40 (k3_pay3 (k3_pay35 io 0#32 1#32 g)) := inB _ (bIdx_lt g 24 (by decide))
theorem chk41_ok : k3_chk41 (k3_pay5 (k3_pay35 io 0#32 1#32 g)) := inB _ (bIdx_lt g 25 (by decide))
theorem chk42_ok : k3_chk42 (k3_pay7 (k3_pay35 io 0#32 1#32 g)) := inB _ (bIdx_lt g 26 (by decide))
theorem chk43_ok : k3_chk43 (k3_pay9 (k3_pay35 io 0#32 1#32 g)) := inB _ (bIdx_lt g 27 (by decide))
theorem chk44_ok : k3_chk44 (k3_pay11 (k3_pay35 io 0#32 1#32 g)) := inB _ (bIdx_lt g 28 (by decide))
theorem chk45_ok : k3_chk45 (k3_pay13 (k3_pay35 io 0#32 1#32 g)) := inB _ (bIdx_lt g 29 (by decide))
theorem chk46_ok : k3_chk46 (k3_pay15 (k3_pay35 io 0#32 1#32 g)) := inB _ (bIdx_lt g 30 (by decide))
end Checks

end Cert.Proof.KI.Body3

end
-- ==== Proof.KIBody3St.lean ====
/-
  The two indexed operations of a tile on its own scratches, as steps of a run that holds the two
  scratches whole: a gather out of the fetched chunk reads `loadIdx` of its contents; a scatter into
  the node scratch leaves `storeIdx` of its contents.
-/
import proofs.«209939_g34969623724736_cont_8to1_b_5_19_alg».proof.Proof.KIBody3Ix

noncomputable section

namespace Cert.Proof.KI.Body3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section StepsV
variable (d : Dev nD) (L : grid3.Coords)

/-- The fetched chunk and the node scratch of the tile at `L`, whole, at given contents. -/
abbrev ptA (fA : Buf (Elt F) ((V d (cV3 L) (jV3 L)).loc cc3_scratch0)) : sProp 𝕄 := (V d (cV3 L) (jV3 L)).loc cc3_scratch0 ↦{fullShare} fA
abbrev ptB (fB : Buf (Elt F) ((V d (cV3 L) (jV3 L)).loc cc3_scratch1)) : sProp 𝕄 := (V d (cV3 L) (jV3 L)).loc cc3_scratch1 ↦{fullShare} fB

/-- A gather out of the fetched chunk. -/
theorem ldA_step {α : Type} {Q : α → sProp 𝕄} (fA : Buf (Elt F) ((V d (cV3 L) (jV3 L)).loc cc3_scratch0)) (idx : IVec S16 32)
    (h : ∀ a x, ((![idx] : Fin 1 → IVec S16 32) a x).toNat < S51200.size a) (hl : (sA3 : Memref sig .scVector .vmem S51200 .f32).view.Loads)
    (k : Vec F S16 .f32 → Prog (TpuEff nD τ sig (Elt F) Λ₀ (V d (cV3 L) (jV3 L)).2) α) (R : sProp 𝕄)
    (hk : iprop(R ∗ ptA d L fA) ⊢ wp frame (wpE (defs₀ (F := F)) 𝒱₀ (V d (cV3 L) (jV3 L)) none) Set.univ (k (loadIdx fA ![idx] h)) Q) :
    iprop(R ∗ ptA d L fA) ⊢ wp frame (wpE (defs₀ (F := F)) 𝒱₀ (V d (cV3 L) (jV3 L)) none) Set.univ
      (SparseCore.vectorLoadIdx (sA3 : Memref sig .scVector .vmem S51200 .f32) ![idx] h hl >>= k) Q := by
  iintro ⟨HR, HA⟩
  iapply (SparseCore.wp_vectorLoadIdx 𝒱₀ (V d (cV3 L) (jV3 L)) none Set.univ (base := (sA3 : Memref sig .scVector .vmem S51200 .f32)) (S := Finset.univ) (q := fullShare) (Finset.subset_univ _)) $$ HA
  iintro HA
  rw [show ((sA3 : Memref sig .scVector .vmem S51200 .f32).access (.whole S51200)).read (Elt F) fA = fA from Memref.read_access_whole (Elt F) cc3_scratch0 fA]
  iapply hk
  isplitl [HR]
  · iexact HR
  · iexact HA

/-- A scatter into the node scratch. -/
theorem stB_step {α : Type} {Q : α → sProp 𝕄} (fB : Buf (Elt F) ((V d (cV3 L) (jV3 L)).loc cc3_scratch1)) (idx : IVec S16 32) (v : Vec F S16 .f32)
    (mask : IVec S16 1) (add : Bool)
    (h : ∀ a x, ((![idx] : Fin 1 → IVec S16 32) a x).toNat < S12400.size a)
    (hs : ((sB3 : Memref sig .scVector .vmem S12400 .f32).access (.whole S12400)).Stores Finset.univ)
    (k : PUnit → Prog (TpuEff nD τ sig (Elt F) Λ₀ (V d (cV3 L) (jV3 L)).2) α) (R : sProp 𝕄)
    (hk : iprop(R ∗ ptB d L (storeIdx fB ![idx] v mask add h)) ⊢ wp frame (wpE (defs₀ (F := F)) 𝒱₀ (V d (cV3 L) (jV3 L)) none) Set.univ (k ⟨⟩) Q) :
    iprop(R ∗ ptB d L fB) ⊢ wp frame (wpE (defs₀ (F := F)) 𝒱₀ (V d (cV3 L) (jV3 L)) none) Set.univ
      (SparseCore.vectorStoreIdx (sB3 : Memref sig .scVector .vmem S12400 .f32) ![idx] v mask add h hs >>= k) Q := by
  iintro ⟨HR, HB⟩
  have e1 : ((sB3 : Memref sig .scVector .vmem S12400 .f32).access (.whole S12400)).set = Finset.univ := Memref.set_access_whole cc3_scratch1
  ihave HB' := (Entails.of_eq (show (ptB d L fB : sProp 𝕄)
      = (((sB3 : Memref sig .scVector .vmem S12400 .f32).access (.whole S12400)).loc (V d (cV3 L) (jV3 L)) ↦[((sB3 : Memref sig .scVector .vmem S12400 .f32).access (.whole S12400)).set]{fullShare} fB) from by rw [e1])) $$ HB
  iapply (SparseCore.wp_vectorStoreIdx 𝒱₀ (V d (cV3 L) (jV3 L)) none Set.univ (base := (sB3 : Memref sig .scVector .vmem S12400 .f32))) $$ HB'
  iintro HB
  rw [e1, show ((sB3 : Memref sig .scVector .vmem S12400 .f32).access (.whole S12400)).read (Elt F) fB = fB from Memref.read_access_whole (Elt F) cc3_scratch1 fB,
    show ∀ w, ((sB3 : Memref sig .scVector .vmem S12400 .f32).access (.whole S12400)).write (Elt F) fB w Finset.univ = w from fun w => Memref.write_access_whole_univ (Elt F) cc3_scratch1 fB w]
  iapply hk
  isplitl [HR]
  · iexact HR
  · iexact HB

end StepsV

end Cert.Proof.KI.Body3

end
-- ==== Proof.KIBody3W.lean ====
/-
  What an unmasked, non-adding scatter leaves: the lanes are written in ascending order, each at the
  element its index names.  An element no lane names keeps its value; an element exactly one lane names
  holds that lane's value.
-/
import proofs.«209939_g34969623724736_cont_8to1_b_5_19_alg».proof.Proof.KIBody30

noncomputable section

namespace Cert.Proof.KI.Body3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section StoreIdx
variable {s : Shape} {e : EltTy} {dd : Fin 1 → Nat}

/-- Lane `k` names element `j`. -/
def hitsAt (idxs : Fin s.rank → IVec ⟨1, dd⟩ 32) (k : Fin (dd 0)) (j : s.Idx) : Prop :=
  ∀ a, (j a).val = (idxs a (Shape.ofLane k)).toNat

/-- One lane's write. -/
def laneStep (idxs : Fin s.rank → IVec ⟨1, dd⟩ 32) (v : Vec F ⟨1, dd⟩ e) (h : ∀ a x, (idxs a x).toNat < s.size a)
    (g : Vec F s e) (k : Fin (dd 0)) : Vec F s e :=
  fun j => if (∀ a, (j a).val = (idxAt idxs h (Shape.ofLane k) a).val) then v (Shape.ofLane k) else g j

theorem storeIdx_eq_foldl (f : Vec F s e) (idxs : Fin s.rank → IVec ⟨1, dd⟩ 32) (v : Vec F ⟨1, dd⟩ e) (h : ∀ a x, (idxs a x).toNat < s.size a) :
    storeIdx f idxs v (fun _ => 1#1) false h = (List.finRange (dd 0)).foldl (laneStep idxs v h) f := by
  unfold storeIdx
  congr 1
  funext g k
  have h1 : ((1#1 : BitVec 1) = 1) = True := by decide
  have h2 : (false = true) = False := by decide
  simp only [h1, h2, if_true, if_false]
  rfl

theorem fold_miss (idxs : Fin s.rank → IVec ⟨1, dd⟩ 32) (v : Vec F ⟨1, dd⟩ e) (h : ∀ a x, (idxs a x).toNat < s.size a) (j : s.Idx) :
    ∀ (l : List (Fin (dd 0))) (f : Vec F s e), (∀ k ∈ l, ¬ hitsAt idxs k j) → l.foldl (laneStep idxs v h) f j = f j := by
  intro l
  induction l with
  | nil => intro f _; rfl
  | cons k l ih =>
    intro f hm
    rw [List.foldl_cons, ih _ fun k' hk' => hm k' (List.mem_cons_of_mem _ hk')]
    unfold laneStep
    exact if_neg (hm k List.mem_cons_self)

theorem fold_hit (idxs : Fin s.rank → IVec ⟨1, dd⟩ 32) (v : Vec F ⟨1, dd⟩ e) (h : ∀ a x, (idxs a x).toNat < s.size a) (j : s.Idx) (k : Fin (dd 0))
    (hk : hitsAt idxs k j) :
    ∀ (l : List (Fin (dd 0))) (f : Vec F s e), (∀ k' ∈ l, hitsAt idxs k' j → k' = k) → (f j = v (Shape.ofLane k) ∨ k ∈ l) →
      l.foldl (laneStep idxs v h) f j = v (Shape.ofLane k) := by
  intro l
  induction l with
  | nil => intro f _ h0; rcases h0 with h0 | h0
           · exact h0
           · exact absurd h0 List.not_mem_nil
  | cons k0 l ih =>
    intro f hu h0
    rw [List.foldl_cons]
    refine ih _ (fun k' hk' => hu k' (List.mem_cons_of_mem _ hk')) ?_
    by_cases hh : hitsAt idxs k0 j
    · have e0 : k0 = k := hu k0 List.mem_cons_self hh
      left; unfold laneStep; exact (if_pos hh).trans (by rw [e0])
    · rcases h0 with h0 | h0
      · left; unfold laneStep; exact (if_neg hh).trans h0
      · rcases List.mem_cons.mp h0 with h0 | h0
        · exact absurd (h0 ▸ hk) hh
        · exact .inr h0

theorem storeIdx_miss (f : Vec F s e) (idxs : Fin s.rank → IVec ⟨1, dd⟩ 32) (v : Vec F ⟨1, dd⟩ e) (h : ∀ a x, (idxs a x).toNat < s.size a) (j : s.Idx)
    (hm : ∀ k, ¬ hitsAt idxs k j) : storeIdx f idxs v (fun _ => 1#1) false h j = f j := by
  rw [storeIdx_eq_foldl]; exact fold_miss idxs v h j _ f fun k _ => hm k

theorem storeIdx_hit (f : Vec F s e) (idxs : Fin s.rank → IVec ⟨1, dd⟩ 32) (v : Vec F ⟨1, dd⟩ e) (h : ∀ a x, (idxs a x).toNat < s.size a) (j : s.Idx)
    (k : Fin (dd 0)) (hk : hitsAt idxs k j) (hu : ∀ k', hitsAt idxs k' j → k' = k) :
    storeIdx f idxs v (fun _ => 1#1) false h j = v (Shape.ofLane k) := by
  rw [storeIdx_eq_foldl]; exact fold_hit idxs v h j k hk _ f (fun k' _ => hu k') (.inr (List.mem_finRange k))

end StoreIdx

/-! ## On the node scratch: sixteen lanes, one index vector -/

theorem ofLane_S16 (x : S16.Idx) : (Shape.ofLane (d := ![16]) (x 0) : S16.Idx) = x := by
  funext a; obtain rfl : a = 0 := Subsingleton.elim _ _; rfl

theorem storeB_miss (f : Vec F S12400 .f32) (idx : IVec S16 32) (v : Vec F S16 .f32) (h : ∀ a x, ((![idx] : Fin 1 → IVec S16 32) a x).toNat < S12400.size a)
    (j : S12400.Idx) (hm : ∀ x : S16.Idx, (idx x).toNat ≠ (j 0).val) : storeIdx f ![idx] v (fun _ => 1#1) false h j = f j :=
  storeIdx_miss f ![idx] v h j fun k hk => hm (Shape.ofLane k) (hk 0).symm

theorem storeB_hit (f : Vec F S12400 .f32) (idx : IVec S16 32) (v : Vec F S16 .f32) (h : ∀ a x, ((![idx] : Fin 1 → IVec S16 32) a x).toNat < S12400.size a)
    (j : S12400.Idx) (x : S16.Idx) (hj : (j 0).val = (idx x).toNat) (hu : ∀ x' : S16.Idx, (idx x').toNat = (idx x).toNat → x' = x) :
    storeIdx f ![idx] v (fun _ => 1#1) false h j = v x := by
  have hx := ofLane_S16 x
  rw [storeIdx_hit f ![idx] v h j (x 0) (fun a => by obtain rfl : a = 0 := Subsingleton.elim _ _; rw [hx]; exact hj)
    (fun k' hk' => by
      have := hu (Shape.ofLane k') ((hk' 0).symm.trans hj)
      rw [← this]; rfl), hx]

end Cert.Proof.KI.Body3

end
-- ==== Proof.KIBody3Val.lean ====
/-
  The values of one group.  Lane `x` of group `g` works on local row `16 g + x`: its fifteen gathered
  words are that row's first fifteen projections in the fetched chunk, and the thirty-one words it
  scatters are the row's node values — node `0` is one, node `n ≥ 1` the minimum along the path from
  the root cut off below at zero —, each at word `(16 g + x) * 31 + n` of the node scratch.  After the
  thirty-one scatters the scratch holds, on the group's rows, the node values of the chunk's rows, and
  elsewhere what it held.
-/
import proofs.«209939_g34969623724736_cont_8to1_b_5_19_alg».proof.Proof.KIBody3W
import proofs.«209939_g34969623724736_cont_8to1_b_5_19_alg».proof.Proof.KIBody3Ix

noncomputable section

namespace Cert.Proof.KI.Body3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.ValueIdx

variable [FloatOps F]

local notation "io" => (iota Kind.scVector S16 32 [0] iota_S16_d0_w32_scVector : IVec S16 32)

/-! ## The tree recursion at each node number -/

theorem nv1 (a : ℕ → F .f32) : KTree.nodeVal a 1 = FloatOps.minimumf (KTree.nodeVal a 0) (a 0) := KTree.nodeVal_left a 0
theorem nv2 (a : ℕ → F .f32) : KTree.nodeVal a 2 = FloatOps.minimumf (KTree.nodeVal a 0) (FloatOps.subf KTree.zero (a 0)) := KTree.nodeVal_right a 0
theorem nv3 (a : ℕ → F .f32) : KTree.nodeVal a 3 = FloatOps.minimumf (KTree.nodeVal a 1) (a 1) := KTree.nodeVal_left a 1
theorem nv4 (a : ℕ → F .f32) : KTree.nodeVal a 4 = FloatOps.minimumf (KTree.nodeVal a 1) (FloatOps.subf KTree.zero (a 1)) := KTree.nodeVal_right a 1
theorem nv5 (a : ℕ → F .f32) : KTree.nodeVal a 5 = FloatOps.minimumf (KTree.nodeVal a 2) (a 2) := KTree.nodeVal_left a 2
theorem nv6 (a : ℕ → F .f32) : KTree.nodeVal a 6 = FloatOps.minimumf (KTree.nodeVal a 2) (FloatOps.subf KTree.zero (a 2)) := KTree.nodeVal_right a 2
theorem nv7 (a : ℕ → F .f32) : KTree.nodeVal a 7 = FloatOps.minimumf (KTree.nodeVal a 3) (a 3) := KTree.nodeVal_left a 3
theorem nv8 (a : ℕ → F .f32) : KTree.nodeVal a 8 = FloatOps.minimumf (KTree.nodeVal a 3) (FloatOps.subf KTree.zero (a 3)) := KTree.nodeVal_right a 3
theorem nv9 (a : ℕ → F .f32) : KTree.nodeVal a 9 = FloatOps.minimumf (KTree.nodeVal a 4) (a 4) := KTree.nodeVal_left a 4
theorem nv10 (a : ℕ → F .f32) : KTree.nodeVal a 10 = FloatOps.minimumf (KTree.nodeVal a 4) (FloatOps.subf KTree.zero (a 4)) := KTree.nodeVal_right a 4
theorem nv11 (a : ℕ → F .f32) : KTree.nodeVal a 11 = FloatOps.minimumf (KTree.nodeVal a 5) (a 5) := KTree.nodeVal_left a 5
theorem nv12 (a : ℕ → F .f32) : KTree.nodeVal a 12 = FloatOps.minimumf (KTree.nodeVal a 5) (FloatOps.subf KTree.zero (a 5)) := KTree.nodeVal_right a 5
theorem nv13 (a : ℕ → F .f32) : KTree.nodeVal a 13 = FloatOps.minimumf (KTree.nodeVal a 6) (a 6) := KTree.nodeVal_left a 6
theorem nv14 (a : ℕ → F .f32) : KTree.nodeVal a 14 = FloatOps.minimumf (KTree.nodeVal a 6) (FloatOps.subf KTree.zero (a 6)) := KTree.nodeVal_right a 6
theorem nv15 (a : ℕ → F .f32) : KTree.nodeVal a 15 = FloatOps.minimumf (KTree.nodeVal a 7) (a 7) := KTree.nodeVal_left a 7
theorem nv16 (a : ℕ → F .f32) : KTree.nodeVal a 16 = FloatOps.minimumf (KTree.nodeVal a 7) (FloatOps.subf KTree.zero (a 7)) := KTree.nodeVal_right a 7
theorem nv17 (a : ℕ → F .f32) : KTree.nodeVal a 17 = FloatOps.minimumf (KTree.nodeVal a 8) (a 8) := KTree.nodeVal_left a 8
theorem nv18 (a : ℕ → F .f32) : KTree.nodeVal a 18 = FloatOps.minimumf (KTree.nodeVal a 8) (FloatOps.subf KTree.zero (a 8)) := KTree.nodeVal_right a 8
theorem nv19 (a : ℕ → F .f32) : KTree.nodeVal a 19 = FloatOps.minimumf (KTree.nodeVal a 9) (a 9) := KTree.nodeVal_left a 9
theorem nv20 (a : ℕ → F .f32) : KTree.nodeVal a 20 = FloatOps.minimumf (KTree.nodeVal a 9) (FloatOps.subf KTree.zero (a 9)) := KTree.nodeVal_right a 9
theorem nv21 (a : ℕ → F .f32) : KTree.nodeVal a 21 = FloatOps.minimumf (KTree.nodeVal a 10) (a 10) := KTree.nodeVal_left a 10
theorem nv22 (a : ℕ → F .f32) : KTree.nodeVal a 22 = FloatOps.minimumf (KTree.nodeVal a 10) (FloatOps.subf KTree.zero (a 10)) := KTree.nodeVal_right a 10
theorem nv23 (a : ℕ → F .f32) : KTree.nodeVal a 23 = FloatOps.minimumf (KTree.nodeVal a 11) (a 11) := KTree.nodeVal_left a 11
theorem nv24 (a : ℕ → F .f32) : KTree.nodeVal a 24 = FloatOps.minimumf (KTree.nodeVal a 11) (FloatOps.subf KTree.zero (a 11)) := KTree.nodeVal_right a 11
theorem nv25 (a : ℕ → F .f32) : KTree.nodeVal a 25 = FloatOps.minimumf (KTree.nodeVal a 12) (a 12) := KTree.nodeVal_left a 12
theorem nv26 (a : ℕ → F .f32) : KTree.nodeVal a 26 = FloatOps.minimumf (KTree.nodeVal a 12) (FloatOps.subf KTree.zero (a 12)) := KTree.nodeVal_right a 12
theorem nv27 (a : ℕ → F .f32) : KTree.nodeVal a 27 = FloatOps.minimumf (KTree.nodeVal a 13) (a 13) := KTree.nodeVal_left a 13
theorem nv28 (a : ℕ → F .f32) : KTree.nodeVal a 28 = FloatOps.minimumf (KTree.nodeVal a 13) (FloatOps.subf KTree.zero (a 13)) := KTree.nodeVal_right a 13
theorem nv29 (a : ℕ → F .f32) : KTree.nodeVal a 29 = FloatOps.minimumf (KTree.nodeVal a 14) (a 14) := KTree.nodeVal_left a 14
theorem nv30 (a : ℕ → F .f32) : KTree.nodeVal a 30 = FloatOps.minimumf (KTree.nodeVal a 14) (FloatOps.subf KTree.zero (a 14)) := KTree.nodeVal_right a 14

/-! ## What the lanes scatter, over any fifteen gathered vectors -/

theorem pay_node0 (x : S16.Idx) : (k3_pay1 (F := F)) x = KTree.one := rfl

theorem pay_node1 (a : ℕ → Vec F S16 .f32) (x : S16.Idx) :
    (k3_pay83 ((k3_pay2 (F := F))) ((k3_pay51 ((k3_pay1 (F := F))) (a 0)))) x = FloatOps.maximumf (KTree.nodeVal (fun i => a i x) 1) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node2 (a : ℕ → Vec F S16 .f32) (x : S16.Idx) :
    (k3_pay85 ((k3_pay2 (F := F))) ((k3_pay52 ((k3_pay1 (F := F))) (a 0)))) x = FloatOps.maximumf (KTree.nodeVal (fun i => a i x) 2) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node3 (a : ℕ → Vec F S16 .f32) (x : S16.Idx) :
    ((k3_pay87 ((k3_pay2 (F := F))) ((k3_pay53 ((k3_pay1 (F := F))) (a 0) (a 1))))) x = FloatOps.maximumf (KTree.nodeVal (fun i => a i x) 3) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node4 (a : ℕ → Vec F S16 .f32) (x : S16.Idx) :
    (k3_pay89 ((k3_pay2 (F := F))) ((k3_pay54 ((k3_pay1 (F := F))) (a 0) (a 1)))) x = FloatOps.maximumf (KTree.nodeVal (fun i => a i x) 4) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node5 (a : ℕ → Vec F S16 .f32) (x : S16.Idx) :
    (k3_pay91 ((k3_pay2 (F := F))) ((k3_pay55 ((k3_pay1 (F := F))) (a 0) (a 2)))) x = FloatOps.maximumf (KTree.nodeVal (fun i => a i x) 5) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node6 (a : ℕ → Vec F S16 .f32) (x : S16.Idx) :
    (k3_pay93 ((k3_pay2 (F := F))) ((k3_pay56 ((k3_pay1 (F := F))) (a 0) (a 2)))) x = FloatOps.maximumf (KTree.nodeVal (fun i => a i x) 6) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node7 (a : ℕ → Vec F S16 .f32) (x : S16.Idx) :
    (k3_pay95 ((k3_pay2 (F := F))) ((k3_pay57 ((k3_pay1 (F := F))) (a 0) (a 1) (a 3)))) x = FloatOps.maximumf (KTree.nodeVal (fun i => a i x) 7) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node8 (a : ℕ → Vec F S16 .f32) (x : S16.Idx) :
    (k3_pay97 ((k3_pay2 (F := F))) ((k3_pay58 ((k3_pay1 (F := F))) (a 0) (a 1) (a 3)))) x = FloatOps.maximumf (KTree.nodeVal (fun i => a i x) 8) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node9 (a : ℕ → Vec F S16 .f32) (x : S16.Idx) :
    (k3_pay99 ((k3_pay2 (F := F))) ((k3_pay59 ((k3_pay1 (F := F))) (a 0) (a 1) (a 4)))) x = FloatOps.maximumf (KTree.nodeVal (fun i => a i x) 9) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node10 (a : ℕ → Vec F S16 .f32) (x : S16.Idx) :
    (k3_pay101 ((k3_pay2 (F := F))) ((k3_pay60 ((k3_pay1 (F := F))) (a 0) (a 1) (a 4)))) x = FloatOps.maximumf (KTree.nodeVal (fun i => a i x) 10) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node11 (a : ℕ → Vec F S16 .f32) (x : S16.Idx) :
    (k3_pay103 ((k3_pay2 (F := F))) ((k3_pay61 ((k3_pay1 (F := F))) (a 0) (a 2) (a 5)))) x = FloatOps.maximumf (KTree.nodeVal (fun i => a i x) 11) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node12 (a : ℕ → Vec F S16 .f32) (x : S16.Idx) :
    (k3_pay105 ((k3_pay2 (F := F))) ((k3_pay62 ((k3_pay1 (F := F))) (a 0) (a 2) (a 5)))) x = FloatOps.maximumf (KTree.nodeVal (fun i => a i x) 12) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node13 (a : ℕ → Vec F S16 .f32) (x : S16.Idx) :
    ((k3_pay107 ((k3_pay2 (F := F))) ((k3_pay63 ((k3_pay1 (F := F))) (a 0) (a 2) (a 6))))) x = FloatOps.maximumf (KTree.nodeVal (fun i => a i x) 13) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node14 (a : ℕ → Vec F S16 .f32) (x : S16.Idx) :
    (k3_pay109 ((k3_pay2 (F := F))) ((k3_pay65 (a 6) ((k3_pay56 ((k3_pay1 (F := F))) (a 0) (a 2))) ((k3_pay64 (F := F)))))) x = FloatOps.maximumf (KTree.nodeVal (fun i => a i x) 14) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node15 (a : ℕ → Vec F S16 .f32) (x : S16.Idx) :
    (k3_pay111 ((k3_pay2 (F := F))) ((k3_pay66 (a 7) ((k3_pay57 ((k3_pay1 (F := F))) (a 0) (a 1) (a 3)))))) x = FloatOps.maximumf (KTree.nodeVal (fun i => a i x) 15) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node16 (a : ℕ → Vec F S16 .f32) (x : S16.Idx) :
    (k3_pay113 ((k3_pay2 (F := F))) ((k3_pay67 (a 7) ((k3_pay57 ((k3_pay1 (F := F))) (a 0) (a 1) (a 3)))))) x = FloatOps.maximumf (KTree.nodeVal (fun i => a i x) 16) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node17 (a : ℕ → Vec F S16 .f32) (x : S16.Idx) :
    (k3_pay115 ((k3_pay2 (F := F))) ((k3_pay68 (a 8) ((k3_pay58 ((k3_pay1 (F := F))) (a 0) (a 1) (a 3)))))) x = FloatOps.maximumf (KTree.nodeVal (fun i => a i x) 17) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node18 (a : ℕ → Vec F S16 .f32) (x : S16.Idx) :
    (k3_pay117 ((k3_pay2 (F := F))) ((k3_pay69 (a 8) ((k3_pay58 ((k3_pay1 (F := F))) (a 0) (a 1) (a 3)))))) x = FloatOps.maximumf (KTree.nodeVal (fun i => a i x) 18) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node19 (a : ℕ → Vec F S16 .f32) (x : S16.Idx) :
    (k3_pay119 ((k3_pay2 (F := F))) ((k3_pay70 (a 9) ((k3_pay59 ((k3_pay1 (F := F))) (a 0) (a 1) (a 4)))))) x = FloatOps.maximumf (KTree.nodeVal (fun i => a i x) 19) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node20 (a : ℕ → Vec F S16 .f32) (x : S16.Idx) :
    (k3_pay121 ((k3_pay2 (F := F))) ((k3_pay71 (a 9) ((k3_pay59 ((k3_pay1 (F := F))) (a 0) (a 1) (a 4)))))) x = FloatOps.maximumf (KTree.nodeVal (fun i => a i x) 20) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node21 (a : ℕ → Vec F S16 .f32) (x : S16.Idx) :
    (k3_pay123 ((k3_pay2 (F := F))) ((k3_pay72 (a 10) ((k3_pay60 ((k3_pay1 (F := F))) (a 0) (a 1) (a 4)))))) x = FloatOps.maximumf (KTree.nodeVal (fun i => a i x) 21) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node22 (a : ℕ → Vec F S16 .f32) (x : S16.Idx) :
    (k3_pay125 ((k3_pay2 (F := F))) ((k3_pay73 (a 10) ((k3_pay60 ((k3_pay1 (F := F))) (a 0) (a 1) (a 4)))))) x = FloatOps.maximumf (KTree.nodeVal (fun i => a i x) 22) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node23 (a : ℕ → Vec F S16 .f32) (x : S16.Idx) :
    (k3_pay127 ((k3_pay2 (F := F))) ((k3_pay74 (a 11) ((k3_pay61 ((k3_pay1 (F := F))) (a 0) (a 2) (a 5)))))) x = FloatOps.maximumf (KTree.nodeVal (fun i => a i x) 23) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node24 (a : ℕ → Vec F S16 .f32) (x : S16.Idx) :
    (k3_pay4 (k3_pay75 (a 11) ((k3_pay61 ((k3_pay1 (F := F))) (a 0) (a 2) (a 5))))) x = FloatOps.maximumf (KTree.nodeVal (fun i => a i x) 24) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node25 (a : ℕ → Vec F S16 .f32) (x : S16.Idx) :
    (k3_pay6 (k3_pay76 (a 12) ((k3_pay62 ((k3_pay1 (F := F))) (a 0) (a 2) (a 5))))) x = FloatOps.maximumf (KTree.nodeVal (fun i => a i x) 25) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node26 (a : ℕ → Vec F S16 .f32) (x : S16.Idx) :
    (k3_pay8 (k3_pay77 (a 12) ((k3_pay62 ((k3_pay1 (F := F))) (a 0) (a 2) (a 5))))) x = FloatOps.maximumf (KTree.nodeVal (fun i => a i x) 26) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node27 (a : ℕ → Vec F S16 .f32) (x : S16.Idx) :
    (k3_pay10 (k3_pay78 (a 13) ((k3_pay63 ((k3_pay1 (F := F))) (a 0) (a 2) (a 6))))) x = FloatOps.maximumf (KTree.nodeVal (fun i => a i x) 27) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node28 (a : ℕ → Vec F S16 .f32) (x : S16.Idx) :
    (k3_pay12 (k3_pay79 (a 13) ((k3_pay63 ((k3_pay1 (F := F))) (a 0) (a 2) (a 6))))) x = FloatOps.maximumf (KTree.nodeVal (fun i => a i x) 28) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node29 (a : ℕ → Vec F S16 .f32) (x : S16.Idx) :
    (k3_pay14 (k3_pay80 (a 6) (a 14) ((k3_pay56 ((k3_pay1 (F := F))) (a 0) (a 2))) ((k3_pay64 (F := F))))) x = FloatOps.maximumf (KTree.nodeVal (fun i => a i x) 29) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node30 (a : ℕ → Vec F S16 .f32) (x : S16.Idx) :
    (k3_pay16 (k3_pay81 (a 6) (a 14) ((k3_pay56 ((k3_pay1 (F := F))) (a 0) (a 2))) ((k3_pay64 (F := F))))) x = FloatOps.maximumf (KTree.nodeVal (fun i => a i x) 30) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl

/-! ## The rows of a fetched chunk -/

/-- Projection `i` of local row `r` in a chunk's 51200 words (total: positions wrap at the chunk's length). -/
def rowA (fA : Vec F S51200 .f32) (r i : ℕ) : F .f32 := fA (ix1 ⟨(r * 128 + i) % 51200, Nat.mod_lt _ (by decide)⟩)

/-- The gathered vectors of group `g`. -/
def gat (fA : Vec F S51200 .f32) (g : ℕ) (i : ℕ) : Vec F S16 .f32 := fun x => rowA fA (16 * g + (x 0).val) i

/-- What the node scratch is to hold at word `p`: node `p % 31` of local row `p / 31`. -/
def tgtB (fA : Vec F S51200 .f32) (p : S12400.Idx) : F .f32 :=
  if (p 0).val % 31 = 0 then KTree.one
  else FloatOps.maximumf (KTree.nodeVal (rowA fA ((p 0).val / 31)) ((p 0).val % 31)) KTree.zero

/-- Node `n` over the lanes of group `g`. -/
def nodeV (fA : Vec F S51200 .f32) (g : ℕ) (n : ℕ) : Vec F S16 .f32 := fun x =>
  if n = 0 then KTree.one else FloatOps.maximumf (KTree.nodeVal (fun i => gat fA g i x) n) KTree.zero

theorem nodeV_ne (fA : Vec F S51200 .f32) (g n : ℕ) (hn : n ≠ 0) (x : S16.Idx) :
    nodeV fA g n x = FloatOps.maximumf (KTree.nodeVal (fun i => gat fA g i x) n) KTree.zero := if_neg hn
theorem nodeV_zero (fA : Vec F S51200 .f32) (g : ℕ) (x : S16.Idx) : nodeV fA g 0 x = KTree.one := if_pos rfl

theorem nodeV_eq_tgtB (fA : Vec F S51200 .f32) (g : ℕ) (n : ℕ) (hn : n < 31) (x : S16.Idx) (p : S12400.Idx)
    (hp : (p 0).val = (16 * g + (x 0).val) * 31 + n) : nodeV fA g n x = tgtB fA p := by
  have h1 : (p 0).val % 31 = n := by rw [hp]; omega
  have h2 : (p 0).val / 31 = 16 * g + (x 0).val := by rw [hp]; omega
  unfold nodeV tgtB
  rw [h1, h2]; rfl

/-- A gather at projection `i`'s words reads the rows' projection `i`. -/
theorem load_eq_gat (fA : Vec F S51200 .f32) (g : Fin k3_t2_loop.trips) (i : ℕ) (hi : i < 15) (idx : IVec S16 32)
    (hidx : ∀ x, (idx x).toNat = (16 * g.val + (x 0).val) * 128 + i)
    (h : ∀ a x, ((![idx] : Fin 1 → IVec S16 32) a x).toNat < S51200.size a) :
    loadIdx fA ![idx] h = gat fA g.val i := by
  funext x
  have hg := trips2_le g
  have hx := lane_lt x
  show fA (idxAt ![idx] h x) = fA _
  congr 1
  funext a; obtain rfl : a = 0 := Subsingleton.elim _ _
  apply Fin.ext
  show (idx x).toNat = ((16 * g.val + (x 0).val) * 128 + i) % 51200
  rw [hidx x]; omega

/-! ## Thirty-one scatters -/

section Stores
variable (fA : Vec F S51200 .f32) (g : Fin k3_t2_loop.trips) (fB : Vec F S12400 .f32)

/-- After the first `n` scatters of group `g`: words of no row of the group are as before, and nodes below `n` of
    the group's rows are in place. -/
def Good (n : ℕ) (f' : Vec F S12400 .f32) : Prop :=
  (∀ p : S12400.Idx, (∀ x : S16.Idx, ∀ m, m < 31 → (p 0).val ≠ (16 * g.val + (x 0).val) * 31 + m) → f' p = fB p)
  ∧ ∀ (x : S16.Idx) (m : ℕ), m < n → ∀ p : S12400.Idx, (p 0).val = (16 * g.val + (x 0).val) * 31 + m → f' p = nodeV fA g.val m x

theorem good_zero : Good fA g fB 0 fB := ⟨fun _ _ => rfl, fun _ m hm => absurd hm (Nat.not_lt_zero m)⟩

theorem good_step (n : ℕ) (hn : n < 31) (f' : Vec F S12400 .f32) (hG : Good fA g fB n f') (idx : IVec S16 32)
    (hidx : ∀ x, (idx x).toNat = (16 * g.val + (x 0).val) * 31 + n) (v : Vec F S16 .f32) (hv : ∀ x, v x = nodeV fA g.val n x)
    (h : ∀ a x, ((![idx] : Fin 1 → IVec S16 32) a x).toNat < S12400.size a) :
    Good fA g fB (n + 1) (storeIdx f' ![idx] v (fun _ => 1#1) false h) := by
  refine ⟨fun p hp => ?_, fun x m hm p hp => ?_⟩
  · rw [storeB_miss f' idx v h p fun x' => by rw [hidx x']; exact (hp x' n hn).symm]
    exact hG.1 p hp
  · rcases Nat.lt_succ_iff_lt_or_eq.mp hm with hm | rfl
    · rw [storeB_miss f' idx v h p fun x' => by
        have hx := lane_lt x; have hx' := lane_lt x'
        rw [hidx x', hp]; omega]
      exact hG.2 x m hm p hp
    · rw [storeB_hit f' idx v h p x (by rw [hidx x]; exact hp) fun x' hx' => by
        rw [hidx x', hidx x] at hx'
        have e : (x' 0).val = (x 0).val := by omega
        funext a; obtain rfl : a = 0 := Subsingleton.elim _ _
        exact Fin.ext e]
      exact hv x

/-- The group done, the scratch agrees with its target one group further. -/
theorem good_inv (f' : Vec F S12400 .f32) (hG : Good fA g fB 31 f')
    (hI : ∀ p : S12400.Idx, (p 0).val < 496 * g.val → fB p = tgtB fA p) :
    ∀ p : S12400.Idx, (p 0).val < 496 * (g.val + 1) → f' p = tgtB fA p := by
  intro p hp
  by_cases hr : (p 0).val < 496 * g.val
  · rw [hG.1 p fun x m hm => by have hx := lane_lt x; omega]
    exact hI p hr
  · have hx : (p 0).val / 31 - 16 * g.val < 16 := by omega
    let x : S16.Idx := ix1 ⟨(p 0).val / 31 - 16 * g.val, hx⟩
    have hx0 : (x 0).val = (p 0).val / 31 - 16 * g.val := rfl
    have hpos : (p 0).val = (16 * g.val + (x 0).val) * 31 + (p 0).val % 31 := by rw [hx0]; omega
    rw [hG.2 x ((p 0).val % 31) (Nat.mod_lt _ (by decide)) p hpos]
    exact nodeV_eq_tgtB fA g.val _ (Nat.mod_lt _ (by decide)) x p hpos

end Stores

end Cert.Proof.KI.Body3

end
-- ==== Proof.KIBody3GrpV.lean ====
/-
  One group of sixteen rows, with its values: the fifteen gathers read the rows' projections off the
  fetched chunk, and after the thirty-one scatters the node scratch holds the rows' node values on the
  group's words and what it held elsewhere.
-/
import proofs.«209939_g34969623724736_cont_8to1_b_5_19_alg».proof.Proof.KIBody3St
import proofs.«209939_g34969623724736_cont_8to1_b_5_19_alg».proof.Proof.KIBody3Val

noncomputable section

namespace Cert.Proof.KI.Body3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

local notation "io" => (iota Kind.scVector S16 32 [0] iota_S16_d0_w32_scVector : IVec S16 32)

section Group
variable (d : Dev nD) (L : grid3.Coords)

/-- A gather out of the fetched chunk, its result named. -/
theorem ldA_stepV {α : Type} {Q : α → sProp 𝕄} (fA : Buf (Elt F) ((V d (cV3 L) (jV3 L)).loc cc3_scratch0)) (idx : IVec S16 32)
    (h : ∀ a x, ((![idx] : Fin 1 → IVec S16 32) a x).toNat < S51200.size a) (hl : (sA3 : Memref sig .scVector .vmem S51200 .f32).view.Loads)
    (k : Vec F S16 .f32 → Prog (TpuEff nD τ sig (Elt F) Λ₀ (V d (cV3 L) (jV3 L)).2) α) (R : sProp 𝕄)
    (a : Vec F S16 .f32) (ha : loadIdx fA ![idx] h = a)
    (hk : iprop(R ∗ ptA d L fA) ⊢ wp frame (wpE (defs₀ (F := F)) 𝒱₀ (V d (cV3 L) (jV3 L)) none) Set.univ (k a) Q) :
    iprop(R ∗ ptA d L fA) ⊢ wp frame (wpE (defs₀ (F := F)) 𝒱₀ (V d (cV3 L) (jV3 L)) none) Set.univ
      (SparseCore.vectorLoadIdx (sA3 : Memref sig .scVector .vmem S51200 .f32) ![idx] h hl >>= k) Q := by
  subst ha; exact ldA_step d L fA idx h hl k R hk

set_option maxHeartbeats 4000000 in
theorem group_val (g : Fin k3_t2_loop.trips) (fA : Buf (Elt F) ((V d (cV3 L) (jV3 L)).loc cc3_scratch0)) (fB : Buf (Elt F) ((V d (cV3 L) (jV3 L)).loc cc3_scratch1)) :
    iprop(ptB d L fB ∗ ptA d L fA) ⊢ wp frame (wpE (defs₀ (F := F)) 𝒱₀ (V d (cV3 L) (jV3 L)) none) Set.univ
      (k3_t2_body L in1V (Memref.isWhole_whole _) out1V (Memref.isWhole_whole _) sA3 (Memref.isWhole_whole _) sB3 (Memref.isWhole_whole _)
        cc3_scoped0 cc3_scoped1 cc3_scoped2 cc3_scoped3 io g ())
      fun _ => iprop(ptA d L fA ∗ ∃ fB', ptB d L fB' ∗ ⌜Good fA g fB 31 fB'⌝) := by
  unfold k3_t2_body
  -- the first nine gathers
  rw [k3_part1_eq_skeleton]; unfold k3_part1_skel
  simp only [Prog.lift, Prog.bind_op, Prog.bind_ret, Prog.pure_eq_ret, Prog.bind_assoc]
  rw [wp_assume_of _ _ _ _ (chk16_ok g)]
  rw [wp_assume_of _ _ _ _ (chk1_ok g)]
  refine ldA_stepV d L _ _ _ _ _ _ (gat fA g.val 0) (load_eq_gat fA g 0 (by decide) _ (fun x => aIdx_toNat g 0 (by decide) x) _) ?_
  rw [wp_assume_of _ _ _ _ (chk2_ok g)]
  refine ldA_stepV d L _ _ _ _ _ _ (gat fA g.val 1) (load_eq_gat fA g 1 (by decide) _ (fun x => aIdx_toNat g 1 (by decide) x) _) ?_
  rw [wp_assume_of _ _ _ _ (chk3_ok g)]
  refine ldA_stepV d L _ _ _ _ _ _ (gat fA g.val 2) (load_eq_gat fA g 2 (by decide) _ (fun x => aIdx_toNat g 2 (by decide) x) _) ?_
  rw [wp_assume_of _ _ _ _ (chk4_ok g)]
  refine ldA_stepV d L _ _ _ _ _ _ (gat fA g.val 3) (load_eq_gat fA g 3 (by decide) _ (fun x => aIdx_toNat g 3 (by decide) x) _) ?_
  rw [wp_assume_of _ _ _ _ (chk5_ok g)]
  refine ldA_stepV d L _ _ _ _ _ _ (gat fA g.val 4) (load_eq_gat fA g 4 (by decide) _ (fun x => aIdx_toNat g 4 (by decide) x) _) ?_
  rw [wp_assume_of _ _ _ _ (chk6_ok g)]
  refine ldA_stepV d L _ _ _ _ _ _ (gat fA g.val 5) (load_eq_gat fA g 5 (by decide) _ (fun x => aIdx_toNat g 5 (by decide) x) _) ?_
  rw [wp_assume_of _ _ _ _ (chk7_ok g)]
  refine ldA_stepV d L _ _ _ _ _ _ (gat fA g.val 6) (load_eq_gat fA g 6 (by decide) _ (fun x => aIdx_toNat g 6 (by decide) x) _) ?_
  rw [wp_assume_of _ _ _ _ (chk8_ok g)]
  refine ldA_stepV d L _ _ _ _ _ _ (gat fA g.val 7) (load_eq_gat fA g 7 (by decide) _ (fun x => aIdx_toNat g 7 (by decide) x) _) ?_
  rw [wp_assume_of _ _ _ _ (chk9_ok g)]
  refine ldA_stepV d L _ _ _ _ _ _ (gat fA g.val 8) (load_eq_gat fA g 8 (by decide) _ (fun x => aIdx_toNat g 8 (by decide) x) _) ?_
  -- the other six
  rw [k3_part2_eq_skeleton]; unfold k3_part2_skel
  simp only [Prog.lift, Prog.bind_op, Prog.bind_ret, Prog.pure_eq_ret, Prog.bind_assoc]
  rw [wp_assume_of _ _ _ _ (chk10_ok g)]
  refine ldA_stepV d L _ _ _ _ _ _ (gat fA g.val 9) (load_eq_gat fA g 9 (by decide) _ (fun x => aIdx_toNat g 9 (by decide) x) _) ?_
  rw [wp_assume_of _ _ _ _ (chk11_ok g)]
  refine ldA_stepV d L _ _ _ _ _ _ (gat fA g.val 10) (load_eq_gat fA g 10 (by decide) _ (fun x => aIdx_toNat g 10 (by decide) x) _) ?_
  rw [wp_assume_of _ _ _ _ (chk12_ok g)]
  refine ldA_stepV d L _ _ _ _ _ _ (gat fA g.val 11) (load_eq_gat fA g 11 (by decide) _ (fun x => aIdx_toNat g 11 (by decide) x) _) ?_
  rw [wp_assume_of _ _ _ _ (chk13_ok g)]
  refine ldA_stepV d L _ _ _ _ _ _ (gat fA g.val 12) (load_eq_gat fA g 12 (by decide) _ (fun x => aIdx_toNat g 12 (by decide) x) _) ?_
  rw [wp_assume_of _ _ _ _ (chk14_ok g)]
  refine ldA_stepV d L _ _ _ _ _ _ (gat fA g.val 13) (load_eq_gat fA g 13 (by decide) _ (fun x => aIdx_toNat g 13 (by decide) x) _) ?_
  rw [wp_assume_of _ _ _ _ (chk15_ok g)]
  refine ldA_stepV d L _ _ _ _ _ _ (gat fA g.val 14) (load_eq_gat fA g 14 (by decide) _ (fun x => aIdx_toNat g 14 (by decide) x) _) ?_
  refine sep_comm.trans ?_
  -- the scatters
  rw [k3_part3_eq_skeleton]; unfold k3_part3_skel
  simp only [Prog.lift, Prog.bind_op, Prog.bind_ret, Prog.pure_eq_ret, Prog.bind_assoc]
  refine stB_step d L _ _ _ _ _ _ _ _ _ ?_
  rw [wp_assume_of _ _ _ _ (chk17_ok g)]
  refine stB_step d L _ _ _ _ _ _ _ _ _ ?_
  rw [wp_assume_of _ _ _ _ (chk18_ok g)]
  refine stB_step d L _ _ _ _ _ _ _ _ _ ?_
  rw [wp_assume_of _ _ _ _ (chk19_ok g)]
  rw [k3_part4_eq_skeleton]; unfold k3_part4_skel
  simp only [Prog.lift, Prog.bind_op, Prog.bind_ret, Prog.pure_eq_ret, Prog.bind_assoc]
  refine stB_step d L _ _ _ _ _ _ _ _ _ ?_
  rw [wp_assume_of _ _ _ _ (chk20_ok g)]
  refine stB_step d L _ _ _ _ _ _ _ _ _ ?_
  rw [wp_assume_of _ _ _ _ (chk21_ok g)]
  refine stB_step d L _ _ _ _ _ _ _ _ _ ?_
  rw [wp_assume_of _ _ _ _ (chk22_ok g)]
  refine stB_step d L _ _ _ _ _ _ _ _ _ ?_
  rw [wp_assume_of _ _ _ _ (chk23_ok g)]
  refine stB_step d L _ _ _ _ _ _ _ _ _ ?_
  rw [wp_assume_of _ _ _ _ (chk24_ok g)]
  refine stB_step d L _ _ _ _ _ _ _ _ _ ?_
  rw [wp_assume_of _ _ _ _ (chk25_ok g)]
  refine stB_step d L _ _ _ _ _ _ _ _ _ ?_
  rw [wp_assume_of _ _ _ _ (chk26_ok g)]
  refine stB_step d L _ _ _ _ _ _ _ _ _ ?_
  rw [wp_assume_of _ _ _ _ (chk27_ok g)]
  refine stB_step d L _ _ _ _ _ _ _ _ _ ?_
  rw [wp_assume_of _ _ _ _ (chk28_ok g)]
  refine stB_step d L _ _ _ _ _ _ _ _ _ ?_
  rw [wp_assume_of _ _ _ _ (chk29_ok g)]
  rw [k3_part5_eq_skeleton]; unfold k3_part5_skel
  simp only [Prog.lift, Prog.bind_op, Prog.bind_ret, Prog.pure_eq_ret, Prog.bind_assoc]
  refine stB_step d L _ _ _ _ _ _ _ _ _ ?_
  rw [wp_assume_of _ _ _ _ (chk30_ok g)]
  refine stB_step d L _ _ _ _ _ _ _ _ _ ?_
  rw [wp_assume_of _ _ _ _ (chk31_ok g)]
  refine stB_step d L _ _ _ _ _ _ _ _ _ ?_
  rw [wp_assume_of _ _ _ _ (chk32_ok g)]
  refine stB_step d L _ _ _ _ _ _ _ _ _ ?_
  rw [wp_assume_of _ _ _ _ (chk33_ok g)]
  refine stB_step d L _ _ _ _ _ _ _ _ _ ?_
  rw [wp_assume_of _ _ _ _ (chk34_ok g)]
  refine stB_step d L _ _ _ _ _ _ _ _ _ ?_
  rw [wp_assume_of _ _ _ _ (chk35_ok g)]
  refine stB_step d L _ _ _ _ _ _ _ _ _ ?_
  rw [wp_assume_of _ _ _ _ (chk36_ok g)]
  refine stB_step d L _ _ _ _ _ _ _ _ _ ?_
  rw [wp_assume_of _ _ _ _ (chk37_ok g)]
  refine stB_step d L _ _ _ _ _ _ _ _ _ ?_
  rw [wp_assume_of _ _ _ _ (chk38_ok g)]
  refine stB_step d L _ _ _ _ _ _ _ _ _ ?_
  rw [wp_assume_of _ _ _ _ (chk39_ok g)]
  refine stB_step d L _ _ _ _ _ _ _ _ _ ?_
  rw [wp_assume_of _ _ _ _ (chk40_ok g)]
  refine stB_step d L _ _ _ _ _ _ _ _ _ ?_
  rw [wp_assume_of _ _ _ _ (chk41_ok g)]
  refine stB_step d L _ _ _ _ _ _ _ _ _ ?_
  rw [wp_assume_of _ _ _ _ (chk42_ok g)]
  refine stB_step d L _ _ _ _ _ _ _ _ _ ?_
  rw [wp_assume_of _ _ _ _ (chk43_ok g)]
  refine stB_step d L _ _ _ _ _ _ _ _ _ ?_
  rw [wp_assume_of _ _ _ _ (chk44_ok g)]
  refine stB_step d L _ _ _ _ _ _ _ _ _ ?_
  rw [wp_assume_of _ _ _ _ (chk45_ok g)]
  refine stB_step d L _ _ _ _ _ _ _ _ _ ?_
  rw [wp_assume_of _ _ _ _ (chk46_ok g)]
  refine stB_step d L _ _ _ _ _ _ _ _ _ ?_
  rw [wp_ret]
  iintro ⟨HA, HB⟩
  imodintro
  isplitl [HA]
  · iexact HA
  iexists _
  isplitl [HB]
  · iexact HB
  ipureintro
  -- the thirty-one scatters, last first
  refine good_step fA g fB 30 (by decide) _ ?_ _ (fun x => bIdx_toNat g 30 (by decide) x) _ (fun x => (pay_node30 (gat fA g.val) x).trans (nodeV_ne fA g.val 30 (by decide) x).symm) _
  refine good_step fA g fB 29 (by decide) _ ?_ _ (fun x => bIdx_toNat g 29 (by decide) x) _ (fun x => (pay_node29 (gat fA g.val) x).trans (nodeV_ne fA g.val 29 (by decide) x).symm) _
  refine good_step fA g fB 28 (by decide) _ ?_ _ (fun x => bIdx_toNat g 28 (by decide) x) _ (fun x => (pay_node28 (gat fA g.val) x).trans (nodeV_ne fA g.val 28 (by decide) x).symm) _
  refine good_step fA g fB 27 (by decide) _ ?_ _ (fun x => bIdx_toNat g 27 (by decide) x) _ (fun x => (pay_node27 (gat fA g.val) x).trans (nodeV_ne fA g.val 27 (by decide) x).symm) _
  refine good_step fA g fB 26 (by decide) _ ?_ _ (fun x => bIdx_toNat g 26 (by decide) x) _ (fun x => (pay_node26 (gat fA g.val) x).trans (nodeV_ne fA g.val 26 (by decide) x).symm) _
  refine good_step fA g fB 25 (by decide) _ ?_ _ (fun x => bIdx_toNat g 25 (by decide) x) _ (fun x => (pay_node25 (gat fA g.val) x).trans (nodeV_ne fA g.val 25 (by decide) x).symm) _
  refine good_step fA g fB 24 (by decide) _ ?_ _ (fun x => bIdx_toNat g 24 (by decide) x) _ (fun x => (pay_node24 (gat fA g.val) x).trans (nodeV_ne fA g.val 24 (by decide) x).symm) _
  refine good_step fA g fB 23 (by decide) _ ?_ _ (fun x => bIdx_toNat g 23 (by decide) x) _ (fun x => (pay_node23 (gat fA g.val) x).trans (nodeV_ne fA g.val 23 (by decide) x).symm) _
  refine good_step fA g fB 22 (by decide) _ ?_ _ (fun x => bIdx_toNat g 22 (by decide) x) _ (fun x => (pay_node22 (gat fA g.val) x).trans (nodeV_ne fA g.val 22 (by decide) x).symm) _
  refine good_step fA g fB 21 (by decide) _ ?_ _ (fun x => bIdx_toNat g 21 (by decide) x) _ (fun x => (pay_node21 (gat fA g.val) x).trans (nodeV_ne fA g.val 21 (by decide) x).symm) _
  refine good_step fA g fB 20 (by decide) _ ?_ _ (fun x => bIdx_toNat g 20 (by decide) x) _ (fun x => (pay_node20 (gat fA g.val) x).trans (nodeV_ne fA g.val 20 (by decide) x).symm) _
  refine good_step fA g fB 19 (by decide) _ ?_ _ (fun x => bIdx_toNat g 19 (by decide) x) _ (fun x => (pay_node19 (gat fA g.val) x).trans (nodeV_ne fA g.val 19 (by decide) x).symm) _
  refine good_step fA g fB 18 (by decide) _ ?_ _ (fun x => bIdx_toNat g 18 (by decide) x) _ (fun x => (pay_node18 (gat fA g.val) x).trans (nodeV_ne fA g.val 18 (by decide) x).symm) _
  refine good_step fA g fB 17 (by decide) _ ?_ _ (fun x => bIdx_toNat g 17 (by decide) x) _ (fun x => (pay_node17 (gat fA g.val) x).trans (nodeV_ne fA g.val 17 (by decide) x).symm) _
  refine good_step fA g fB 16 (by decide) _ ?_ _ (fun x => bIdx_toNat g 16 (by decide) x) _ (fun x => (pay_node16 (gat fA g.val) x).trans (nodeV_ne fA g.val 16 (by decide) x).symm) _
  refine good_step fA g fB 15 (by decide) _ ?_ _ (fun x => bIdx_toNat g 15 (by decide) x) _ (fun x => (pay_node15 (gat fA g.val) x).trans (nodeV_ne fA g.val 15 (by decide) x).symm) _
  refine good_step fA g fB 14 (by decide) _ ?_ _ (fun x => bIdx_toNat g 14 (by decide) x) _ (fun x => (pay_node14 (gat fA g.val) x).trans (nodeV_ne fA g.val 14 (by decide) x).symm) _
  refine good_step fA g fB 13 (by decide) _ ?_ _ (fun x => bIdx_toNat g 13 (by decide) x) _ (fun x => (pay_node13 (gat fA g.val) x).trans (nodeV_ne fA g.val 13 (by decide) x).symm) _
  refine good_step fA g fB 12 (by decide) _ ?_ _ (fun x => bIdx_toNat g 12 (by decide) x) _ (fun x => (pay_node12 (gat fA g.val) x).trans (nodeV_ne fA g.val 12 (by decide) x).symm) _
  refine good_step fA g fB 11 (by decide) _ ?_ _ (fun x => bIdx_toNat g 11 (by decide) x) _ (fun x => (pay_node11 (gat fA g.val) x).trans (nodeV_ne fA g.val 11 (by decide) x).symm) _
  refine good_step fA g fB 10 (by decide) _ ?_ _ (fun x => bIdx_toNat g 10 (by decide) x) _ (fun x => (pay_node10 (gat fA g.val) x).trans (nodeV_ne fA g.val 10 (by decide) x).symm) _
  refine good_step fA g fB 9 (by decide) _ ?_ _ (fun x => bIdx_toNat g 9 (by decide) x) _ (fun x => (pay_node9 (gat fA g.val) x).trans (nodeV_ne fA g.val 9 (by decide) x).symm) _
  refine good_step fA g fB 8 (by decide) _ ?_ _ (fun x => bIdx_toNat g 8 (by decide) x) _ (fun x => (pay_node8 (gat fA g.val) x).trans (nodeV_ne fA g.val 8 (by decide) x).symm) _
  refine good_step fA g fB 7 (by decide) _ ?_ _ (fun x => bIdx_toNat g 7 (by decide) x) _ (fun x => (pay_node7 (gat fA g.val) x).trans (nodeV_ne fA g.val 7 (by decide) x).symm) _
  refine good_step fA g fB 6 (by decide) _ ?_ _ (fun x => bIdx_toNat g 6 (by decide) x) _ (fun x => (pay_node6 (gat fA g.val) x).trans (nodeV_ne fA g.val 6 (by decide) x).symm) _
  refine good_step fA g fB 5 (by decide) _ ?_ _ (fun x => bIdx_toNat g 5 (by decide) x) _ (fun x => (pay_node5 (gat fA g.val) x).trans (nodeV_ne fA g.val 5 (by decide) x).symm) _
  refine good_step fA g fB 4 (by decide) _ ?_ _ (fun x => bIdx_toNat g 4 (by decide) x) _ (fun x => (pay_node4 (gat fA g.val) x).trans (nodeV_ne fA g.val 4 (by decide) x).symm) _
  refine good_step fA g fB 3 (by decide) _ ?_ _ (fun x => bIdx_toNat g 3 (by decide) x) _ (fun x => (pay_node3 (gat fA g.val) x).trans (nodeV_ne fA g.val 3 (by decide) x).symm) _
  refine good_step fA g fB 2 (by decide) _ ?_ _ (fun x => bIdx_toNat g 2 (by decide) x) _ (fun x => (pay_node2 (gat fA g.val) x).trans (nodeV_ne fA g.val 2 (by decide) x).symm) _
  refine good_step fA g fB 1 (by decide) _ ?_ _ (fun x => bIdx_toNat g 1 (by decide) x) _ (fun x => (pay_node1 (gat fA g.val) x).trans (nodeV_ne fA g.val 1 (by decide) x).symm) _
  refine good_step fA g fB 0 (by decide) _ ?_ _ (fun x => bBase_toNat g x) _ (fun x => (pay_node0 x).trans (nodeV_zero fA g.val x).symm) _
  exact good_zero fA g fB

end Group

end Cert.Proof.KI.Body3

end
-- ==== Proof.KIBody3.lean ====
/-
  One tile's whole task of the second tree launch, with its values.  Per chunk: the chunk's 51200 input
  words are fetched into the first scratch; twenty-five groups of sixteen rows fill the second scratch
  with the rows' node values (every word written exactly once); the second scratch is written out to
  the chunk's row of the output.  Every output row of the tile ends at the one whole-array function of
  the input.  The second chunk loop never runs.
-/
import proofs.«209939_g34969623724736_cont_8to1_b_5_19_alg».proof.Proof.KIBody3GrpV
import Idealize.ShloMosaic.Lib.Pipeline.Value

noncomputable section

namespace Cert.Proof.KI.Body3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.ValueIdx

variable [FloatOps F]

local notation "io" => (iota Kind.scVector S16 32 [0] iota_S16_d0_w32_scVector : IVec S16 32)

/-- A node's value reads only the projections below its number. -/
theorem nodeVal_congr (a a' : ℕ → F .f32) : ∀ n, (∀ i, i < n → a i = a' i) → KTree.nodeVal a n = KTree.nodeVal a' n := by
  intro n
  induction n using Nat.strong_induction_on with
  | _ n ih =>
    intro h
    cases n with
    | zero => rw [KTree.nodeVal_zero, KTree.nodeVal_zero]
    | succ m =>
      rw [KTree.nodeVal, KTree.nodeVal, ih (m / 2) (by omega) (fun i hi => h i (by omega)), h (m / 2) (by omega)]

section Tile
variable (d : Dev nD) (L : grid3.Coords)

/-! ## The fetched chunk and the written row, as words of the whole arrays -/

theorem chunk_lt (k : Fin (k3_t1_loop L).trips) : 2 * (L 1).val + (L 0).val + 32 * k.val < 125 := by
  rw [← chunk_val]; exact (chunk3 L k).isLt

/-- Word `j` of the slice trip `k` fetches is word `51200 * chunk + j` of the flat input. -/
theorem aSl_emb (k : Fin (k3_t1_loop L).trips) (j : S51200.Idx) :
    (((aSl L k).view.emb j) 0).val = 51200 * (chunk3 L k).val + (j 0).val := by
  have h1 := congrFun (k3_off1_eq L k) 0
  show k3_off1 L k 0 + 1 * (j 0).val = _
  rw [h1, chunk_val]
  show 102400 * (L 1).val + 51200 * (L 0).val + 1638400 * k.val + 1 * (j 0).val = _
  omega

/-- The fetched chunk's rows are the input's rows of that chunk. -/
theorem chunk_row (X : Buf (Elt F) (in1Loc d)) (k : Fin (k3_t1_loop L).trips) (r i : ℕ) (hr : r < 400) (hi : i < 128) :
    rowA ((aSl L k).view.read (Elt F) X) r i = KTree.projAt X (chunk3 L k).val r i := by
  have hc := (chunk3 L k).isLt
  unfold rowA KTree.projAt
  have e : ((aSl L k).view.emb (ix1 ⟨(r * 128 + i) % 51200, Nat.mod_lt _ (by decide)⟩) : S6400000.Idx)
      = ix1 ⟨(((chunk3 L k).val * 400 + r) * 128 + i) % 6400000, Nat.mod_lt _ (by decide)⟩ := by
    refine (eq_ix1 _).trans ?_
    congr 1
    apply Fin.ext
    rw [aSl_emb]
    show 51200 * (chunk3 L k).val + (r * 128 + i) % 51200 = (((chunk3 L k).val * 400 + r) * 128 + i) % 6400000
    omega
  exact ((View.read_apply _ _).trans (cast_eq _ _)).trans (congrArg X e)

theorem tgtB_chunk (X : Buf (Elt F) (in1Loc d)) (k : Fin (k3_t1_loop L).trips) (p : S12400.Idx) :
    tgtB ((aSl L k).view.read (Elt F) X) p = KTree.outFlat X (ix2 (chunk3 L k) ⟨(p 0).val, (p 0).isLt⟩) := by
  have hp : (p 0).val < 12400 := (p 0).isLt
  unfold tgtB KTree.outFlat
  show (if (p 0).val % 31 = 0 then KTree.one else FloatOps.maximumf (KTree.nodeVal (rowA ((aSl L k).view.read (Elt F) X) ((p 0).val / 31)) ((p 0).val % 31)) KTree.zero)
    = (if (p 0).val % 31 = 0 then KTree.one else FloatOps.maximumf (KTree.nodeVal (KTree.projAt X (chunk3 L k).val ((p 0).val / 31)) ((p 0).val % 31)) KTree.zero)
  rw [nodeVal_congr _ _ _ fun i hi => chunk_row d L X k ((p 0).val / 31) i (by omega) (by omega)]

/-- Word `y` of the row trip `k` writes is word `y` of row `chunk` of the output. -/
theorem oRow_emb (k : Fin (k3_t1_loop L).trips) (y : S12400.Idx) :
    (oRowK L k).view.emb y = ix2 (chunk3 L k) ⟨(y 0).val, (y 0).isLt⟩ := by
  have h2 := k3_off2_eq L k
  show (Rect.unit (s := S125x12400) (k3_off2 L k) S1x12400.size (k3_off2_inb L k)).emb (Shape.reshapeEquiv squeezes_S1x12400_S12400.numel_eq y) = _
  rw [Shape.reshapeEquiv_cons_one]
  funext a
  match a with
  | ⟨0, _⟩ => apply Fin.ext; show k3_off2 L k 0 + 1 * 0 = (chunk3 L k).val; rfl
  | ⟨1, _⟩ => apply Fin.ext; show k3_off2 L k 1 + 1 * (y 0).val = (y 0).val; rw [h2]; show 0 + 1 * (y 0).val = _; omega

/-- The row written out from a scratch that holds the chunk's node values is the output function's row. -/
theorem out_row_eq (X : Buf (Elt F) (in1Loc d)) (k : Fin (k3_t1_loop L).trips) (fo : Buf (Elt F) (out1Loc d)) (w : S12400.Idx → Elt F .f32)
    (hw : ∀ y : S12400.Idx, w y = KTree.outFlat X (ix2 (chunk3 L k) ⟨(y 0).val, (y 0).isLt⟩)) :
    ((oRowK L k).view.loc (V d (cV3 L) (jV3 L)) ↦[(oRowK L k).view.set]{fullShare} (oRowK L k).view.write (Elt F) fo w Finset.univ : sProp 𝕄)
      = out1Loc d ↦[rowSet (chunk3 L k)]{fullShare} KTree.outFlat X := by
  rw [pts_oRowK, ← set_oRowK]
  refine pointsTo_congr fun i hi => ?_
  obtain ⟨y, rfl⟩ := View.exists_emb_of_mem_set _ hi
  rw [View.write_emb_of_mem _ _ (Finset.mem_univ y)]
  exact (cast_eq _ _).trans ((hw y).trans (congrArg (KTree.outFlat X) (oRow_emb L k y).symm))

/-- The same, for the row written as one listed piece. -/
theorem out_row_eqW (X : Buf (Elt F) (in1Loc d)) (k : Fin (k3_t1_loop L).trips) (fo : Buf (Elt F) (out1Loc d)) (w : S12400.Idx → Elt F .f32)
    (hw : ∀ y : S12400.Idx, w y = KTree.outFlat X (ix2 (chunk3 L k) ⟨(y 0).val, (y 0).isLt⟩)) :
    ((oRowK L k).view.loc (V d (cV3 L) (jV3 L)) ↦[(oRowK L k).view.set]{fullShare}
        (oRowK L k).view.writes (Elt F) fo [⟨Rect.whole S12400, w⟩] : sProp 𝕄)
      = out1Loc d ↦[rowSet (chunk3 L k)]{fullShare} KTree.outFlat X := by
  rw [pts_oRowK, ← set_oRowK]
  refine pointsTo_congr fun i hi => ?_
  obtain ⟨y, rfl⟩ := View.exists_emb_of_mem_set _ hi
  have e : ((oRowK L k).view.slice (Rect.whole S12400)).emb y = (oRowK L k).view.emb y := by
    show (oRowK L k).view.emb ((Rect.whole S12400).emb y) = _
    rw [Rect.emb_whole_apply]
  have h1 := View.write_emb_of_mem (v := (oRowK L k).view.slice (Rect.whole S12400)) (Val := Elt F) fo w (M := Finset.univ) (x := y) (Finset.mem_univ y)
  rw [e] at h1
  refine h1.trans ((cast_eq _ _).trans ?_)
  exact (hw y).trans (congrArg (KTree.outFlat X) (oRow_emb L k y).symm)

/-! ## The invariants -/

/-- Between groups: the fetched chunk unchanged, the node scratch right on the words of the groups done. -/
def inv2v (fA : Buf (Elt F) ((V d (cV3 L) (jV3 L)).loc cc3_scratch0)) (g : ℕ) (_ : Unit) : sProp 𝕄 :=
  iprop(((sA3 : Memref sig .scVector .vmem S51200 .f32).view.loc (V d (cV3 L) (jV3 L)) ↦{fullShare} fA)
    ∗ ∃ fB, ((sB3 : Memref sig .scVector .vmem S12400 .f32).view.loc (V d (cV3 L) (jV3 L)) ↦{fullShare} fB)
        ∗ ⌜∀ p : S12400.Idx, (p 0).val < 496 * g → fB p = tgtB fA p⌝)

theorem group_invV (fA : Buf (Elt F) ((V d (cV3 L) (jV3 L)).loc cc3_scratch0)) (g : Fin k3_t2_loop.trips) (acc : Unit) :
    inv2v (F := F) d L fA g.val acc ⊢ wp frame (wpE (defs₀ (F := F)) 𝒱₀ (V d (cV3 L) (jV3 L)) none) Set.univ
      (k3_t2_body L in1V (Memref.isWhole_whole _) out1V (Memref.isWhole_whole _) sA3 (Memref.isWhole_whole _) sB3 (Memref.isWhole_whole _)
        cc3_scoped0 cc3_scoped1 cc3_scoped2 cc3_scoped3 io g acc)
      (inv2v (F := F) d L fA (g.val + 1)) := by
  unfold inv2v
  iintro ⟨HA, %fB, HB, %hI⟩
  ihave H := (group_val d L g fA fB) $$ [HA HB]
  · isplitl [HB]
    · iexact HB
    · iexact HA
  iapply (wp_wand_r frame _ _)
  isplitl [H]
  · iexact H
  iintro %_ ⟨HA, %fB', HB, %hG⟩
  isplitl [HA]
  · iexact HA
  iexists fB'
  isplitl [HB]
  · iexact HB
  ipureintro
  exact good_inv fA g fB fB' hG hI

/-- A row of the tile before trip `k`: done if its trip is past, at some contents otherwise. -/
def rowΦ (X : Buf (Elt F) (in1Loc d)) (k : ℕ) (j : Fin (k3_t1_loop L).trips) : sProp 𝕄 :=
  if j.val < k then out1Loc d ↦[rowSet (chunk3 L j)]{fullShare} KTree.outFlat X
  else iprop(∃ f, out1Loc d ↦[rowSet (chunk3 L j)]{fullShare} f)

theorem rowΦ_zero (X : Buf (Elt F) (in1Loc d)) :
    (bigSep Finset.univ fun j : Fin (k3_t1_loop L).trips => iprop(∃ f, out1Loc d ↦[rowSet (chunk3 L j)]{fullShare} f) : sProp 𝕄)
      = bigSep Finset.univ (rowΦ (F := F) d L X 0) :=
  bigSep_congr fun j _ => (if_neg (Nat.not_lt_zero _)).symm
theorem rowΦ_all (X : Buf (Elt F) (in1Loc d)) :
    (bigSep Finset.univ (rowΦ (F := F) d L X (k3_t1_loop L).trips) : sProp 𝕄)
      = bigSep Finset.univ fun j : Fin (k3_t1_loop L).trips => out1Loc d ↦[rowSet (chunk3 L j)]{fullShare} KTree.outFlat X :=
  bigSep_congr fun j _ => if_pos j.isLt
theorem rowΦ_open (X : Buf (Elt F) (in1Loc d)) (k : Fin (k3_t1_loop L).trips) :
    (bigSep Finset.univ (rowΦ (F := F) d L X k.val) : sProp 𝕄)
      = iprop((∃ f, out1Loc d ↦[rowSet (chunk3 L k)]{fullShare} f) ∗ bigSep (Finset.univ.erase k) (rowΦ (F := F) d L X k.val)) := by
  rw [SparseCore.bigSep_erase' (Finset.mem_univ k)]
  congr 1
  exact if_neg (Nat.lt_irrefl _)
theorem rowΦ_close (X : Buf (Elt F) (in1Loc d)) (k : Fin (k3_t1_loop L).trips) :
    (bigSep Finset.univ (rowΦ (F := F) d L X (k.val + 1)) : sProp 𝕄)
      = iprop((out1Loc d ↦[rowSet (chunk3 L k)]{fullShare} KTree.outFlat X) ∗ bigSep (Finset.univ.erase k) (rowΦ (F := F) d L X k.val)) := by
  rw [SparseCore.bigSep_erase' (Finset.mem_univ k)]
  congr 1
  · exact if_pos (Nat.lt_succ_self _)
  · refine bigSep_congr fun j hj => ?_
    have hne : j.val ≠ k.val := fun e => (Finset.mem_erase.mp hj).1 (Fin.ext e)
    unfold rowΦ
    by_cases h : j.val < k.val
    · rw [if_pos h, if_pos (by omega)]
    · rw [if_neg h, if_neg (by omega)]

/-- Between chunks. -/
def inv1v (q : PosShare TreeShare) (X : Buf (Elt F) (in1Loc d)) (O : CellTallies nD τ sig (HIx 2)) (W : Waits sig (HIx 2)) (k : ℕ) (_ : Unit) : sProp 𝕄 :=
  iprop(Transfers.MayWaits (V d (cV3 L) (jV3 L)) (none : HIx 2) O
    ∗ ((in1V : Memref sig .scVector .hbm S6400000 .f32).view.loc (V d (cV3 L) (jV3 L)) ↦{q} X)
    ∗ bigSep Finset.univ (rowΦ (F := F) d L X k)
    ∗ (∃ fA, (sA3 : Memref sig .scVector .vmem S51200 .f32).view.loc (V d (cV3 L) (jV3 L)) ↦{fullShare} fA)
    ∗ (∃ fB, (sB3 : Memref sig .scVector .vmem S12400 .f32).view.loc (V d (cV3 L) (jV3 L)) ↦{fullShare} fB)
    ∗ semVal ((V d (cV3 L) (jV3 L)), SemLoc.dma cc3_scoped0.sem) 0 ∗ semVal ((V d (cV3 L) (jV3 L)), SemLoc.dma cc3_scoped1.sem) 0
    ∗ ∃ W', ⌜∀ p ∈ W', p ∈ W ∨ p.2 = none⌝ ∗ owes (V d (cV3 L) (jV3 L)) O W')

end Tile

end Cert.Proof.KI.Body3

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Body3

variable {F : FTy → Type} [FloatOps F]

local notation "𝕄" => MT nD τ sig (HIx 2) (Elt F) ℕ UU ℕ

theorem body_k3_trips2_eq : k3_t2_loop.trips = 25 := by decide

set_option maxHeartbeats 4000000 in
/-- The task of the tile at grid coordinates `L`: from a read share of the flat input and the tile's output rows, it
    ends with every one of those rows at the output function of the input. -/
theorem tile_body3 (d : Dev nD) (L : grid3.Coords) (hF : (K (F := F)).Facts) (q : PosShare TreeShare) (X : Buf (Elt F) (in1Loc d))
    (O : CellTallies nD τ sig (HIx 2)) (W : Waits sig (HIx 2)) (hO : ∀ g, O g none = 0) :
    (iprop(levAts (K (F := F)).L (K (F := F)).lev
        ∗ (in1Loc d ↦{q} X)
        ∗ (bigSep Finset.univ fun k : Fin (k3_t1_loop L).trips => iprop(∃ f, out1Loc d ↦[rowSet (chunk3 L k)]{fullShare} f))
        ∗ scopedBufs (V d (cV3 L) (jV3 L)) ∗ scopedSems0 (V d (cV3 L) (jV3 L)) ∗ owes (V d (cV3 L) (jV3 L)) O W) : sProp 𝕄)
      ⊢ wp frame (wpE (defs₀ (F := F)) 𝒱₀ (V d (cV3 L) (jV3 L)) none) Set.univ
          (cc3_tree_sc L in1V (Memref.isWhole_whole _) out1V (Memref.isWhole_whole _) sA3 (Memref.isWhole_whole _) sB3 (Memref.isWhole_whole _) cc3_scoped0 cc3_scoped1 cc3_scoped2 cc3_scoped3)
          fun _ => iprop((in1Loc d ↦{q} X)
            ∗ (bigSep Finset.univ fun k : Fin (k3_t1_loop L).trips => out1Loc d ↦[rowSet (chunk3 L k)]{fullShare} (KTree.outFlat X))
            ∗ scopedBufs (V d (cV3 L) (jV3 L)) ∗ scopedSems0 (V d (cV3 L) (jV3 L))
            ∗ ∃ W', ⌜∀ p ∈ W', p ∈ W ∨ p.2 = none⌝ ∗ owes (V d (cV3 L) (jV3 L)) O W') := by
  simp only [cc3_tree_sc_eq_skeleton]; unfold cc3_tree_sc_skel
  rw [(K (F := F)).scopedBufs_V hF d (cV3 L) (jV3 L), SparseCore.Cfg.scopedSems0_V (Val := Elt F) d (cV3 L) (jV3 L), ownSems0_V, ownBufs_V]
  iintro ⟨#Hlv, HX, Hrows, ⟨⟨%fA, HA⟩, ⟨%fB, HB⟩, Hbufs⟩, ⟨Hs0, Hs1, Hsems⟩, HO⟩
  ihave Hmw := ((K (F := F)).mayWaits_none (thr := (V d (cV3 L) (jV3 L))) hO) $$ Hlv
  ihave HX' := (Entails.of_eq (pts_in0 (F := F) d L q _).symm) $$ HX
  ihave HA' := (Entails.of_eq (pts_sA (F := F) d L _).symm) $$ HA
  ihave HB' := (Entails.of_eq (pts_sB (F := F) d L _).symm) $$ HB
  ihave Hrows' := (Entails.of_eq (rowΦ_zero (F := F) d L X)) $$ Hrows
  sl_for (inv1v d L q X O W) $$ [Hmw HX' Hrows' HA' HB' Hs0 Hs1 HO]
  case region =>
    intro k _
    unfold inv1v
    iintro ⟨Hmw, HX, Hrows, ⟨%fA, HA⟩, ⟨%fB, HB⟩, Hs0, Hs1, %W', %hW', HO⟩
    ihave Hr := (Entails.of_eq (rowΦ_open (F := F) d L X k)) $$ Hrows
    icases Hr with ⟨⟨%fo, Ho⟩, Hrest⟩
    ihave Ho' := (Entails.of_eq (pts_oRowK (F := F) d L k fo).symm) $$ Ho
    -- the fetch and its wait: the first scratch holds the chunk
    sl_exec
    ihave HA2 := (Entails.of_eq (congrArg (fun f => ((sA3 : Memref sig .scVector .vmem S51200 .f32).view.loc (V d (cV3 L) (jV3 L)) ↦{fullShare} f : sProp 𝕄))
      (View.write_whole_univ cc3_scratch0 fA _))) $$ HA
    -- the groups
    sl_for (inv2v d L ((aSl L k).view.read (Elt F) X)) $$ [HA2 HB]
    case region =>
      intro g acc
      exact group_invV d L _ g acc
    · unfold inv2v
      isplitl [HA2]
      · iexact HA2
      · iexists _; isplitl [HB]
        · iexact HB
        · ipureintro; intro p hp; exact absurd hp (by omega)
    iintro %_ HI
    unfold inv2v
    icases HI with ⟨HA, %fB2, HB, %hB⟩
    have hB' : ∀ y : S12400.Idx, fB2 y = KTree.outFlat X (ix2 (chunk3 L k) ⟨(y 0).val, (y 0).isLt⟩) := fun y =>
      (hB y (by have hy : (y 0).val < 12400 := (y 0).isLt; have e : Scf.trips k3_t2_loop.lb k3_t2_loop.ub k3_t2_loop.st = 25 := body_k3_trips2_eq; rw [e]; omega)).trans (tgtB_chunk d L X k y)
    -- the write-out and its wait
    sl_exec
    have hB'' : ∀ y : S12400.Idx, tile_body3.sl.dma0_1 d L fB2 y = KTree.outFlat X (ix2 (chunk3 L k) ⟨(y 0).val, (y 0).isLt⟩) := fun y =>
      ((View.read_apply _ _).trans (cast_eq _ _)).trans (hB' y)
    ihave Ho2 := (Entails.of_eq (out_row_eqW (F := F) d L X k fo (tile_body3.sl.dma0_1 d L fB2) hB'')) $$ Ho'
    sl_step
    isplitl [Hmw]; · iexact Hmw
    isplitl [HX]; · iexact HX
    isplitl [Ho2 Hrest]
    · iapply (Entails.of_eq (rowΦ_close (F := F) d L X k).symm)
      isplitl [Ho2]
      · iexact Ho2
      · iexact Hrest
    isplitl [HA]; · iexists _; iexact HA
    isplitl [HB]; · iexists _; iexact HB
    isplitl [Hs0]; · iexact Hs0
    isplitl [Hs1]; · iexact Hs1
    iexists _; isplitr
    rotate_left
    · iexact HO
    · ipureintro; intro p hp
      rcases Finset.mem_insert.mp hp with hp | hp
      · exact .inr (by subst hp; rfl)
      rcases Finset.mem_insert.mp hp with hp | hp
      · exact .inr (by subst hp; rfl)
      · exact hW' p hp
  · unfold inv1v
    isplitr; · iexact Hmw
    isplitl [HX']; · iexact HX'
    isplitl [Hrows']; · iexact Hrows'
    isplitl [HA']; · iexists _; iexact HA'
    isplitl [HB']; · iexists _; iexact HB'
    isplitl [Hs0]; · iexact Hs0
    isplitl [Hs1]; · iexact Hs1
    iexists W; isplitr
    · ipureintro; exact fun p hp => .inl hp
    · iexact HO
  iintro %_ HI
  -- the second chunk loop has no trip
  sl_for (fun (_ : ℕ) => inv1v d L q X O W (k3_t1_loop L).trips) $$ [HI]
  case region =>
    intro k _
    exact (Nat.not_lt_zero _ (lt_of_lt_of_le k.isLt (k3_t3_abs L).2.1)).elim
  · iexact HI
  iintro %_ HI
  unfold inv1v
  icases HI with ⟨-, HX, Hrows, ⟨%fA, HA⟩, ⟨%fB, HB⟩, Hs0, Hs1, %W', %hW', HO⟩
  sl_step
  isplitl [HX]; · iapply (Entails.of_eq (pts_in0 (F := F) d L q _)); iexact HX
  isplitl [Hrows]; · iapply (Entails.of_eq (rowΦ_all (F := F) d L X)); iexact Hrows
  isplitl [HA HB Hbufs]
  · isplitl [HA]; · iexists _; iexact HA
    isplitl [HB]; · iexists _; iexact HB
    iexact Hbufs
  isplitl [Hs0 Hs1 Hsems]
  · isplitl [Hs0]; · iexact Hs0
    isplitl [Hs1]; · iexact Hs1
    iexact Hsems
  iexists W'; isplitr
  · ipureintro; exact hW'
  · iexact HO

end Cert.Proof.KI

end
-- ==== Proof.KIBodies.lean ====
/-
  The two tree launches' tile bodies, in the shape the launch's obligations take them: the first
  launch's kernel function at every grid coordinate, and the second's, which is the first's text over
  the second call's names.
-/
import proofs.«209939_g34969623724736_cont_8to1_b_5_19_alg».proof.Proof.KIBody
import proofs.«209939_g34969623724736_cont_8to1_b_5_19_alg».proof.Proof.KIBody3
import proofs.«209939_g34969623724736_cont_8to1_b_5_19_alg».proof.Proof.KISplit

noncomputable section

namespace Cert.Proof.KI

open Cert.KernelIdeal Cert.KernelIdeal.Gen
open Idealize.ShloMosaic

variable {F : FTy → Type} [FloatOps F]

theorem tileBody0 : TileBody0 (F := F) := fun d L q x O W hO => tile_body1 d L facts q x O W hO
theorem tileBody1 : TileBody1 (F := F) := fun d L q x O W hO => tile_body3 d L facts q x O W hO

end Cert.Proof.KI

end
-- ==== Proof.KBBody0.lean ====
/-
  One tile's task of the first tree launch: the names of its thread, its chunks, the slices its copies
  move, and the respellings between the arrays as the TensorCore names them and as the tile's memrefs
  address them.
-/
import proofs.«209939_g34969623724736_cont_8to1_b_5_19_alg».proof.Proof.KBBase
import proofs.«209939_g34969623724736_cont_8to1_b_5_19_alg».proof.Proof.KBTile
import proofs.«209939_g34969623724736_cont_8to1_b_5_19_alg».proof.Proof.Gen.Kernel.Skeleton
import Idealize.ShloMosaic.Lib.Tactic

noncomputable section

namespace Cert.Proof.KB.Body

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The tile and its chunks -/

/-- The chunk of trip `k` in closed form: the tile's worker number plus thirty-two per trip. -/
theorem chunk_val (L : grid1.Coords) (k : Fin (k1_t1_loop L).trips) :
    (chunk L k).val = 2 * (L 1).val + (L 0).val + 32 * k.val := by
  show k1_off2 L k 0 = _
  rw [k1_off2_eq]; rfl

/-- The slice of the flat input that trip `k` fetches, and the output row it writes, as the program slices them. -/
abbrev aSl (L : grid1.Coords) (k : Fin (k1_t1_loop L).trips) : Memref sig .scVector .hbm S51200 .f32 :=
  (in0V : Memref sig .scVector .hbm S6400000 .f32).slice (Rect.unit (s := S6400000) (k1_off1 L k) S51200.size (k1_off1_inb L k)) (fun _ => rfl)
abbrev oRowK (L : grid1.Coords) (k : Fin (k1_t1_loop L).trips) : Memref sig .scVector .hbm S12400 .f32 :=
  ((out0V : Memref sig .scVector .hbm S125x12400 .f32).slice (Rect.unit (s := S125x12400) (k1_off2 L k) S1x12400.size (k1_off2_inb L k)) (fun _ => rfl)).squeeze S12400 squeezes_S1x12400_S12400

theorem rowK_eq (L : grid1.Coords) (k : Fin (k1_t1_loop L).trips) :
    Rect.unit (s := S125x12400) (k1_off2 L k) S1x12400.size (k1_off2_inb L k) = row (chunk L k) := by
  unfold row Rect.part Rect.block
  congr 1 <;> funext a
  · match a with
    | 0 => simp [Shape.partIx, Shape.partSize, chunk]
    | 1 => rw [k1_off2_eq]; simp [Shape.partIx, Shape.partSize]
  · match a with
    | 0 => simp [Shape.partSize]
    | 1 => simp [Shape.partSize]

theorem set_oRowK (L : grid1.Coords) (k : Fin (k1_t1_loop L).trips) : (oRowK L k).view.set = rowSet (chunk L k) := by
  show (((out0V : Memref sig .scVector .hbm S125x12400 .f32).view.slice (Rect.unit (s := S125x12400) (k1_off2 L k) S1x12400.size (k1_off2_inb L k))).reshape S12400 squeezes_S1x12400_S12400.numel_eq).set
    = ((out0V : Memref sig .scVector .hbm S125x12400 .f32).view.slice (row (chunk L k))).set
  rw [View.set_reshape]
  exact rowK_eq L k ▸ rfl

section Pts
variable (d : Dev nD) (L : grid1.Coords)

theorem pts_oRowK (k : Fin (k1_t1_loop L).trips) (f : Buf (Elt F) (out0Loc d)) :
    ((oRowK L k).view.loc (V d (cV L) (jV L)) ↦[(oRowK L k).view.set]{fullShare} f : sProp 𝕄) = out0Loc d ↦[rowSet (chunk L k)]{fullShare} f := by
  rw [set_oRowK]
theorem pts_in0 (q : PosShare TreeShare) (f : Buf (Elt F) (in0Loc d)) :
    ((in0V : Memref sig .scVector .hbm S6400000 .f32).view.loc (V d (cV L) (jV L)) ↦{q} f : sProp 𝕄) = in0Loc d ↦{q} f := by
  simp only [Memref.view_whole, View.set_whole]
theorem pts_sA (f : Buf (Elt F) ((V d (cV L) (jV L)).loc cc1_scratch0)) :
    ((sA1 : Memref sig .scVector .vmem S51200 .f32).view.loc (V d (cV L) (jV L)) ↦{fullShare} f : sProp 𝕄) = (V d (cV L) (jV L)).loc cc1_scratch0 ↦{fullShare} f := rfl
theorem pts_sB (f : Buf (Elt F) ((V d (cV L) (jV L)).loc cc1_scratch1)) :
    ((sB1 : Memref sig .scVector .vmem S12400 .f32).view.loc (V d (cV L) (jV L)) ↦{fullShare} f : sProp 𝕄) = (V d (cV L) (jV L)).loc cc1_scratch1 ↦{fullShare} f := rfl

abbrev c0cell : GSem nD τ sig := (V d (cV L) (jV L), .dma cc1_scoped0.sem)
abbrev c1cell : GSem nD τ sig := (V d (cV L) (jV L), .dma cc1_scoped1.sem)

theorem ownSems0_V :
    (ownSems0 (V d (cV L) (jV L)) : sProp 𝕄)
      = iprop(semVal (c0cell d L) 0 ∗ semVal (c1cell d L) 0
          ∗ bigSep (((ownCells (V d (cV L) (jV L))).erase (c0cell d L)).erase (c1cell d L)) fun g => semVal g 0) := by
  unfold SparseCore.Cfg.ownSems0
  rw [SparseCore.bigSep_erase' ((mem_ownCells (g := c0cell d L)).mpr ⟨rfl, by
      show (SemLoc.dma cc1_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc1_scoped1.sem : SemLoc sig).isScoped .scVector = true; decide⟩⟩)]

/-- The two scratches are among the subcore's own buffers. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Pts

end Cert.Proof.KB.Body

end
-- ==== Proof.KBBodyIx.lean ====
/-
  The index vectors of one group of sixteen rows: lane `x` of group `g` is local row `16 g + x`; its
  projection `i` sits at word `(16 g + x) * 128 + i` of the fetched chunk and its node `n` at word
  `(16 g + x) * 31 + n` of the node scratch.  None of these wraps in 32 bits, and each is inside its
  scratch: the side conditions of the fifteen gathers and the thirty-one scatters.
-/
import proofs.«209939_g34969623724736_cont_8to1_b_5_19_alg».proof.Proof.KBBody0

noncomputable section

namespace Cert.Proof.KB.Body

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- The lanes' own numbers. -/
local notation "io" => (iota Kind.scVector S16 32 [0] iota_S16_d0_w32_scVector : IVec S16 32)

theorem trips2_le (g : Fin k1_t2_loop.trips) : g.val < 25 := lt_of_lt_of_le g.isLt k1_t2_abs.2.1

theorem lane_lt (x : S16.Idx) : (x 0).val < 16 := (x 0).isLt

/-- Lane `x` of group `g` is row `16 g + x`. -/
theorem rowv_toNat (g : Fin k1_t2_loop.trips) (x : S16.Idx) :
    (k1_pay33 io 0#32 1#32 g x).toNat = 16 * g.val + (x 0).val := by
  have hg := trips2_le g
  have hx := lane_lt x
  simp only [k1_pay33, addi, muli, broadcast, IntOp.addi, IntOp.muli, Scalar.muli, Scf.iv, iota, List.foldl,
    BitVec.toNat_add, BitVec.toNat_mul, BitVec.toNat_ofNat]
  omega

theorem aBase_toNat (g : Fin k1_t2_loop.trips) (x : S16.Idx) :
    (k1_pay34 io 0#32 1#32 g x).toNat = (16 * g.val + (x 0).val) * 128 := by
  have hg := trips2_le g
  have hx := lane_lt x
  have h := rowv_toNat g x
  show (IntOp.muli (k1_pay33 io 0#32 1#32 g x) (128#32)).toNat = _
  simp only [IntOp.muli, BitVec.toNat_mul, BitVec.toNat_ofNat, h]
  omega

theorem bBase_toNat (g : Fin k1_t2_loop.trips) (x : S16.Idx) :
    (k1_pay35 io 0#32 1#32 g x).toNat = (16 * g.val + (x 0).val) * 31 := by
  have hg := trips2_le g
  have hx := lane_lt x
  have h := rowv_toNat g x
  show (IntOp.muli (k1_pay33 io 0#32 1#32 g x) (31#32)).toNat = _
  simp only [IntOp.muli, BitVec.toNat_mul, BitVec.toNat_ofNat, h]
  omega

/-- Projection `i`'s word. -/
theorem aIdx_toNat (g : Fin k1_t2_loop.trips) (i : ℕ) (hi : i < 15) (x : S16.Idx) :
    (addi (k1_pay34 io 0#32 1#32 g) (broadcast S16 (BitVec.ofNat 32 i)) x).toNat = (16 * g.val + (x 0).val) * 128 + i := by
  have hg := trips2_le g
  have hx := lane_lt x
  have h := aBase_toNat g x
  show (IntOp.addi (k1_pay34 io 0#32 1#32 g x) (BitVec.ofNat 32 i)).toNat = _
  simp only [IntOp.addi, BitVec.toNat_add, BitVec.toNat_ofNat, h]
  omega

/-- Node `n`'s word. -/
theorem bIdx_toNat (g : Fin k1_t2_loop.trips) (n : ℕ) (hn : n < 31) (x : S16.Idx) :
    (addi (k1_pay35 io 0#32 1#32 g) (broadcast S16 (BitVec.ofNat 32 n)) x).toNat = (16 * g.val + (x 0).val) * 31 + n := by
  have hg := trips2_le g
  have hx := lane_lt x
  have h := bBase_toNat g x
  show (IntOp.addi (k1_pay35 io 0#32 1#32 g x) (BitVec.ofNat 32 n)).toNat = _
  simp only [IntOp.addi, BitVec.toNat_add, BitVec.toNat_ofNat, h]
  omega

theorem inA (v : IVec S16 32) (h : ∀ x, (v x).toNat < 51200) :
    ∀ a x, ((![v] : Fin 1 → IVec S16 32) a x).toNat < S51200.size a := by
  intro a x; obtain rfl : a = 0 := Subsingleton.elim _ _; exact h x
theorem inB (v : IVec S16 32) (h : ∀ x, (v x).toNat < 12400) :
    ∀ a x, ((![v] : Fin 1 → IVec S16 32) a x).toNat < S12400.size a := by
  intro a x; obtain rfl : a = 0 := Subsingleton.elim _ _; exact h x

theorem aIdx_lt (g : Fin k1_t2_loop.trips) (i : ℕ) (hi : i < 15) (x : S16.Idx) :
    (addi (k1_pay34 io 0#32 1#32 g) (broadcast S16 (BitVec.ofNat 32 i)) x).toNat < 51200 := by
  have hg := trips2_le g
  have hx := lane_lt x
  rw [aIdx_toNat g i hi x]; omega
theorem bIdx_lt (g : Fin k1_t2_loop.trips) (n : ℕ) (hn : n < 31) (x : S16.Idx) :
    (addi (k1_pay35 io 0#32 1#32 g) (broadcast S16 (BitVec.ofNat 32 n)) x).toNat < 12400 := by
  have hg := trips2_le g
  have hx := lane_lt x
  rw [bIdx_toNat g n hn x]; omega
theorem bBase_lt (g : Fin k1_t2_loop.trips) (x : S16.Idx) : (k1_pay35 io 0#32 1#32 g x).toNat < 12400 := by
  have hg := trips2_le g
  have hx := lane_lt x
  rw [bBase_toNat g x]; omega

/-! ## The side conditions, one per gather and per scatter -/

section Checks
variable (g : Fin k1_t2_loop.trips)
theorem chk1_ok : k1_chk1 (k1_pay36 io 0#32 1#32 g) := inA _ (aIdx_lt g 0 (by decide))
theorem chk2_ok : k1_chk2 (k1_pay37 io 0#32 1#32 g) := inA _ (aIdx_lt g 1 (by decide))
theorem chk3_ok : k1_chk3 (k1_pay38 io 0#32 1#32 g) := inA _ (aIdx_lt g 2 (by decide))
theorem chk4_ok : k1_chk4 (k1_pay39 io 0#32 1#32 g) := inA _ (aIdx_lt g 3 (by decide))
theorem chk5_ok : k1_chk5 (k1_pay40 io 0#32 1#32 g) := inA _ (aIdx_lt g 4 (by decide))
theorem chk6_ok : k1_chk6 (k1_pay41 io 0#32 1#32 g) := inA _ (aIdx_lt g 5 (by decide))
theorem chk7_ok : k1_chk7 (k1_pay42 io 0#32 1#32 g) := inA _ (aIdx_lt g 6 (by decide))
theorem chk8_ok : k1_chk8 (k1_pay43 io 0#32 1#32 g) := inA _ (aIdx_lt g 7 (by decide))
theorem chk9_ok : k1_chk9 (k1_pay44 io 0#32 1#32 g) := inA _ (aIdx_lt g 8 (by decide))
theorem chk10_ok : k1_chk10 (k1_pay45 io 0#32 1#32 g) := inA _ (aIdx_lt g 9 (by decide))
theorem chk11_ok : k1_chk11 (k1_pay46 (k1_pay34 io 0#32 1#32 g)) := inA _ (aIdx_lt g 10 (by decide))
theorem chk12_ok : k1_chk12 (k1_pay47 (k1_pay34 io 0#32 1#32 g)) := inA _ (aIdx_lt g 11 (by decide))
theorem chk13_ok : k1_chk13 (k1_pay48 (k1_pay34 io 0#32 1#32 g)) := inA _ (aIdx_lt g 12 (by decide))
theorem chk14_ok : k1_chk14 (k1_pay49 (k1_pay34 io 0#32 1#32 g)) := inA _ (aIdx_lt g 13 (by decide))
theorem chk15_ok : k1_chk15 (k1_pay50 (k1_pay34 io 0#32 1#32 g)) := inA _ (aIdx_lt g 14 (by decide))
theorem chk16_ok : k1_chk16 (k1_pay35 io 0#32 1#32 g) := inB _ (bBase_lt g)
theorem chk17_ok : k1_chk17 (k1_pay82 (k1_pay35 io 0#32 1#32 g)) := inB _ (bIdx_lt g 1 (by decide))
theorem chk18_ok : k1_chk18 (k1_pay84 (k1_pay35 io 0#32 1#32 g)) := inB _ (bIdx_lt g 2 (by decide))
theorem chk19_ok : k1_chk19 (k1_pay86 (k1_pay35 io 0#32 1#32 g)) := inB _ (bIdx_lt g 3 (by decide))
theorem chk20_ok : k1_chk20 (k1_pay88 (k1_pay35 io 0#32 1#32 g)) := inB _ (bIdx_lt g 4 (by decide))
theorem chk21_ok : k1_chk21 (k1_pay90 (k1_pay35 io 0#32 1#32 g)) := inB _ (bIdx_lt g 5 (by decide))
theorem chk22_ok : k1_chk22 (k1_pay92 (k1_pay35 io 0#32 1#32 g)) := inB _ (bIdx_lt g 6 (by decide))
theorem chk23_ok : k1_chk23 (k1_pay94 (k1_pay35 io 0#32 1#32 g)) := inB _ (bIdx_lt g 7 (by decide))
theorem chk24_ok : k1_chk24 (k1_pay96 (k1_pay35 io 0#32 1#32 g)) := inB _ (bIdx_lt g 8 (by decide))
theorem chk25_ok : k1_chk25 (k1_pay98 (k1_pay35 io 0#32 1#32 g)) := inB _ (bIdx_lt g 9 (by decide))
theorem chk26_ok : k1_chk26 (k1_pay100 (k1_pay35 io 0#32 1#32 g)) := inB _ (bIdx_lt g 10 (by decide))
theorem chk27_ok : k1_chk27 (k1_pay102 (k1_pay35 io 0#32 1#32 g)) := inB _ (bIdx_lt g 11 (by decide))
theorem chk28_ok : k1_chk28 (k1_pay104 (k1_pay35 io 0#32 1#32 g)) := inB _ (bIdx_lt g 12 (by decide))
theorem chk29_ok : k1_chk29 (k1_pay106 (k1_pay35 io 0#32 1#32 g)) := inB _ (bIdx_lt g 13 (by decide))
theorem chk30_ok : k1_chk30 (k1_pay108 (k1_pay35 io 0#32 1#32 g)) := inB _ (bIdx_lt g 14 (by decide))
theorem chk31_ok : k1_chk31 (k1_pay110 (k1_pay35 io 0#32 1#32 g)) := inB _ (bIdx_lt g 15 (by decide))
theorem chk32_ok : k1_chk32 (k1_pay112 (k1_pay35 io 0#32 1#32 g)) := inB _ (bIdx_lt g 16 (by decide))
theorem chk33_ok : k1_chk33 (k1_pay114 (k1_pay35 io 0#32 1#32 g)) := inB _ (bIdx_lt g 17 (by decide))
theorem chk34_ok : k1_chk34 (k1_pay116 (k1_pay35 io 0#32 1#32 g)) := inB _ (bIdx_lt g 18 (by decide))
theorem chk35_ok : k1_chk35 (k1_pay118 (k1_pay35 io 0#32 1#32 g)) := inB _ (bIdx_lt g 19 (by decide))
theorem chk36_ok : k1_chk36 (k1_pay120 (k1_pay35 io 0#32 1#32 g)) := inB _ (bIdx_lt g 20 (by decide))
theorem chk37_ok : k1_chk37 (k1_pay122 (k1_pay35 io 0#32 1#32 g)) := inB _ (bIdx_lt g 21 (by decide))
theorem chk38_ok : k1_chk38 (k1_pay124 (k1_pay35 io 0#32 1#32 g)) := inB _ (bIdx_lt g 22 (by decide))
theorem chk39_ok : k1_chk39 (k1_pay126 (k1_pay35 io 0#32 1#32 g)) := inB _ (bIdx_lt g 23 (by decide))
theorem chk40_ok : k1_chk40 (k1_pay3 (k1_pay35 io 0#32 1#32 g)) := inB _ (bIdx_lt g 24 (by decide))
theorem chk41_ok : k1_chk41 (k1_pay5 (k1_pay35 io 0#32 1#32 g)) := inB _ (bIdx_lt g 25 (by decide))
theorem chk42_ok : k1_chk42 (k1_pay7 (k1_pay35 io 0#32 1#32 g)) := inB _ (bIdx_lt g 26 (by decide))
theorem chk43_ok : k1_chk43 (k1_pay9 (k1_pay35 io 0#32 1#32 g)) := inB _ (bIdx_lt g 27 (by decide))
theorem chk44_ok : k1_chk44 (k1_pay11 (k1_pay35 io 0#32 1#32 g)) := inB _ (bIdx_lt g 28 (by decide))
theorem chk45_ok : k1_chk45 (k1_pay13 (k1_pay35 io 0#32 1#32 g)) := inB _ (bIdx_lt g 29 (by decide))
theorem chk46_ok : k1_chk46 (k1_pay15 (k1_pay35 io 0#32 1#32 g)) := inB _ (bIdx_lt g 30 (by decide))
end Checks

end Cert.Proof.KB.Body

end
-- ==== Proof.KBBodySt.lean ====
/-
  The two indexed operations of a tile on its own scratches, as steps of a run that holds the two
  scratches whole: a gather out of the fetched chunk reads `loadIdx` of its contents; a scatter into
  the node scratch leaves `storeIdx` of its contents.
-/
import proofs.«209939_g34969623724736_cont_8to1_b_5_19_alg».proof.Proof.KBBodyIx

noncomputable section

namespace Cert.Proof.KB.Body

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section StepsV
variable (d : Dev nD) (L : grid1.Coords)

/-- The fetched chunk and the node scratch of the tile at `L`, whole, at given contents. -/
abbrev ptA (fA : Buf (Elt F) ((V d (cV L) (jV L)).loc cc1_scratch0)) : sProp 𝕄 := (V d (cV L) (jV L)).loc cc1_scratch0 ↦{fullShare} fA
abbrev ptB (fB : Buf (Elt F) ((V d (cV L) (jV L)).loc cc1_scratch1)) : sProp 𝕄 := (V d (cV L) (jV L)).loc cc1_scratch1 ↦{fullShare} fB

/-- A gather out of the fetched chunk. -/
theorem ldA_step {α : Type} {Q : α → sProp 𝕄} (fA : Buf (Elt F) ((V d (cV L) (jV L)).loc cc1_scratch0)) (idx : IVec S16 32)
    (h : ∀ a x, ((![idx] : Fin 1 → IVec S16 32) a x).toNat < S51200.size a) (hl : (sA1 : Memref sig .scVector .vmem S51200 .f32).view.Loads)
    (k : Vec F S16 .f32 → Prog (TpuEff nD τ sig (Elt F) Λ₀ (V d (cV L) (jV L)).2) α) (R : sProp 𝕄)
    (hk : iprop(R ∗ ptA d L fA) ⊢ wp frame (wpE (defs₀ (F := F)) 𝒱₀ (V d (cV L) (jV L)) none) Set.univ (k (loadIdx fA ![idx] h)) Q) :
    iprop(R ∗ ptA d L fA) ⊢ wp frame (wpE (defs₀ (F := F)) 𝒱₀ (V d (cV L) (jV L)) none) Set.univ
      (SparseCore.vectorLoadIdx (sA1 : Memref sig .scVector .vmem S51200 .f32) ![idx] h hl >>= k) Q := by
  iintro ⟨HR, HA⟩
  iapply (SparseCore.wp_vectorLoadIdx 𝒱₀ (V d (cV L) (jV L)) none Set.univ (base := (sA1 : Memref sig .scVector .vmem S51200 .f32)) (S := Finset.univ) (q := fullShare) (Finset.subset_univ _)) $$ HA
  iintro HA
  rw [show ((sA1 : Memref sig .scVector .vmem S51200 .f32).access (.whole S51200)).read (Elt F) fA = fA from Memref.read_access_whole (Elt F) cc1_scratch0 fA]
  iapply hk
  isplitl [HR]
  · iexact HR
  · iexact HA

/-- A scatter into the node scratch. -/
theorem stB_step {α : Type} {Q : α → sProp 𝕄} (fB : Buf (Elt F) ((V d (cV L) (jV L)).loc cc1_scratch1)) (idx : IVec S16 32) (v : Vec F S16 .f32)
    (mask : IVec S16 1) (add : Bool)
    (h : ∀ a x, ((![idx] : Fin 1 → IVec S16 32) a x).toNat < S12400.size a)
    (hs : ((sB1 : Memref sig .scVector .vmem S12400 .f32).access (.whole S12400)).Stores Finset.univ)
    (k : PUnit → Prog (TpuEff nD τ sig (Elt F) Λ₀ (V d (cV L) (jV L)).2) α) (R : sProp 𝕄)
    (hk : iprop(R ∗ ptB d L (storeIdx fB ![idx] v mask add h)) ⊢ wp frame (wpE (defs₀ (F := F)) 𝒱₀ (V d (cV L) (jV L)) none) Set.univ (k ⟨⟩) Q) :
    iprop(R ∗ ptB d L fB) ⊢ wp frame (wpE (defs₀ (F := F)) 𝒱₀ (V d (cV L) (jV L)) none) Set.univ
      (SparseCore.vectorStoreIdx (sB1 : Memref sig .scVector .vmem S12400 .f32) ![idx] v mask add h hs >>= k) Q := by
  iintro ⟨HR, HB⟩
  have e1 : ((sB1 : Memref sig .scVector .vmem S12400 .f32).access (.whole S12400)).set = Finset.univ := Memref.set_access_whole cc1_scratch1
  ihave HB' := (Entails.of_eq (show (ptB d L fB : sProp 𝕄)
      = (((sB1 : Memref sig .scVector .vmem S12400 .f32).access (.whole S12400)).loc (V d (cV L) (jV L)) ↦[((sB1 : Memref sig .scVector .vmem S12400 .f32).access (.whole S12400)).set]{fullShare} fB) from by rw [e1])) $$ HB
  iapply (SparseCore.wp_vectorStoreIdx 𝒱₀ (V d (cV L) (jV L)) none Set.univ (base := (sB1 : Memref sig .scVector .vmem S12400 .f32))) $$ HB'
  iintro HB
  rw [e1, show ((sB1 : Memref sig .scVector .vmem S12400 .f32).access (.whole S12400)).read (Elt F) fB = fB from Memref.read_access_whole (Elt F) cc1_scratch1 fB,
    show ∀ w, ((sB1 : Memref sig .scVector .vmem S12400 .f32).access (.whole S12400)).write (Elt F) fB w Finset.univ = w from fun w => Memref.write_access_whole_univ (Elt F) cc1_scratch1 fB w]
  iapply hk
  isplitl [HR]
  · iexact HR
  · iexact HB

end StepsV

end Cert.Proof.KB.Body

end
-- ==== Proof.KBBodyW.lean ====
/-
  What an unmasked, non-adding scatter leaves: the lanes are written in ascending order, each at the
  element its index names.  An element no lane names keeps its value; an element exactly one lane names
  holds that lane's value.
-/
import proofs.«209939_g34969623724736_cont_8to1_b_5_19_alg».proof.Proof.KBBody0

noncomputable section

namespace Cert.Proof.KB.Body

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section StoreIdx
variable {s : Shape} {e : EltTy} {dd : Fin 1 → Nat}

/-- Lane `k` names element `j`. -/
def hitsAt (idxs : Fin s.rank → IVec ⟨1, dd⟩ 32) (k : Fin (dd 0)) (j : s.Idx) : Prop :=
  ∀ a, (j a).val = (idxs a (Shape.ofLane k)).toNat

/-- One lane's write. -/
def laneStep (idxs : Fin s.rank → IVec ⟨1, dd⟩ 32) (v : Vec F ⟨1, dd⟩ e) (h : ∀ a x, (idxs a x).toNat < s.size a)
    (g : Vec F s e) (k : Fin (dd 0)) : Vec F s e :=
  fun j => if (∀ a, (j a).val = (idxAt idxs h (Shape.ofLane k) a).val) then v (Shape.ofLane k) else g j

theorem storeIdx_eq_foldl (f : Vec F s e) (idxs : Fin s.rank → IVec ⟨1, dd⟩ 32) (v : Vec F ⟨1, dd⟩ e) (h : ∀ a x, (idxs a x).toNat < s.size a) :
    storeIdx f idxs v (fun _ => 1#1) false h = (List.finRange (dd 0)).foldl (laneStep idxs v h) f := by
  unfold storeIdx
  congr 1
  funext g k
  have h1 : ((1#1 : BitVec 1) = 1) = True := by decide
  have h2 : (false = true) = False := by decide
  simp only [h1, h2, if_true, if_false]
  rfl

theorem fold_miss (idxs : Fin s.rank → IVec ⟨1, dd⟩ 32) (v : Vec F ⟨1, dd⟩ e) (h : ∀ a x, (idxs a x).toNat < s.size a) (j : s.Idx) :
    ∀ (l : List (Fin (dd 0))) (f : Vec F s e), (∀ k ∈ l, ¬ hitsAt idxs k j) → l.foldl (laneStep idxs v h) f j = f j := by
  intro l
  induction l with
  | nil => intro f _; rfl
  | cons k l ih =>
    intro f hm
    rw [List.foldl_cons, ih _ fun k' hk' => hm k' (List.mem_cons_of_mem _ hk')]
    unfold laneStep
    exact if_neg (hm k List.mem_cons_self)

theorem fold_hit (idxs : Fin s.rank → IVec ⟨1, dd⟩ 32) (v : Vec F ⟨1, dd⟩ e) (h : ∀ a x, (idxs a x).toNat < s.size a) (j : s.Idx) (k : Fin (dd 0))
    (hk : hitsAt idxs k j) :
    ∀ (l : List (Fin (dd 0))) (f : Vec F s e), (∀ k' ∈ l, hitsAt idxs k' j → k' = k) → (f j = v (Shape.ofLane k) ∨ k ∈ l) →
      l.foldl (laneStep idxs v h) f j = v (Shape.ofLane k) := by
  intro l
  induction l with
  | nil => intro f _ h0; rcases h0 with h0 | h0
           · exact h0
           · exact absurd h0 List.not_mem_nil
  | cons k0 l ih =>
    intro f hu h0
    rw [List.foldl_cons]
    refine ih _ (fun k' hk' => hu k' (List.mem_cons_of_mem _ hk')) ?_
    by_cases hh : hitsAt idxs k0 j
    · have e0 : k0 = k := hu k0 List.mem_cons_self hh
      left; unfold laneStep; exact (if_pos hh).trans (by rw [e0])
    · rcases h0 with h0 | h0
      · left; unfold laneStep; exact (if_neg hh).trans h0
      · rcases List.mem_cons.mp h0 with h0 | h0
        · exact absurd (h0 ▸ hk) hh
        · exact .inr h0

theorem storeIdx_miss (f : Vec F s e) (idxs : Fin s.rank → IVec ⟨1, dd⟩ 32) (v : Vec F ⟨1, dd⟩ e) (h : ∀ a x, (idxs a x).toNat < s.size a) (j : s.Idx)
    (hm : ∀ k, ¬ hitsAt idxs k j) : storeIdx f idxs v (fun _ => 1#1) false h j = f j := by
  rw [storeIdx_eq_foldl]; exact fold_miss idxs v h j _ f fun k _ => hm k

theorem storeIdx_hit (f : Vec F s e) (idxs : Fin s.rank → IVec ⟨1, dd⟩ 32) (v : Vec F ⟨1, dd⟩ e) (h : ∀ a x, (idxs a x).toNat < s.size a) (j : s.Idx)
    (k : Fin (dd 0)) (hk : hitsAt idxs k j) (hu : ∀ k', hitsAt idxs k' j → k' = k) :
    storeIdx f idxs v (fun _ => 1#1) false h j = v (Shape.ofLane k) := by
  rw [storeIdx_eq_foldl]; exact fold_hit idxs v h j k hk _ f (fun k' _ => hu k') (.inr (List.mem_finRange k))

end StoreIdx

/-! ## On the node scratch: sixteen lanes, one index vector -/

theorem ofLane_S16 (x : S16.Idx) : (Shape.ofLane (d := ![16]) (x 0) : S16.Idx) = x := by
  funext a; obtain rfl : a = 0 := Subsingleton.elim _ _; rfl

theorem storeB_miss (f : Vec F S12400 .f32) (idx : IVec S16 32) (v : Vec F S16 .f32) (h : ∀ a x, ((![idx] : Fin 1 → IVec S16 32) a x).toNat < S12400.size a)
    (j : S12400.Idx) (hm : ∀ x : S16.Idx, (idx x).toNat ≠ (j 0).val) : storeIdx f ![idx] v (fun _ => 1#1) false h j = f j :=
  storeIdx_miss f ![idx] v h j fun k hk => hm (Shape.ofLane k) (hk 0).symm

theorem storeB_hit (f : Vec F S12400 .f32) (idx : IVec S16 32) (v : Vec F S16 .f32) (h : ∀ a x, ((![idx] : Fin 1 → IVec S16 32) a x).toNat < S12400.size a)
    (j : S12400.Idx) (x : S16.Idx) (hj : (j 0).val = (idx x).toNat) (hu : ∀ x' : S16.Idx, (idx x').toNat = (idx x).toNat → x' = x) :
    storeIdx f ![idx] v (fun _ => 1#1) false h j = v x := by
  have hx := ofLane_S16 x
  rw [storeIdx_hit f ![idx] v h j (x 0) (fun a => by obtain rfl : a = 0 := Subsingleton.elim _ _; rw [hx]; exact hj)
    (fun k' hk' => by
      have := hu (Shape.ofLane k') ((hk' 0).symm.trans hj)
      rw [← this]; rfl), hx]

end Cert.Proof.KB.Body

end
-- ==== Proof.KBBodyVal.lean ====
/-
  The values of one group.  Lane `x` of group `g` works on local row `16 g + x`: its fifteen gathered
  words are that row's first fifteen projections in the fetched chunk, and the thirty-one words it
  scatters are the row's node values — node `0` is one, node `n ≥ 1` the minimum along the path from
  the root cut off below at zero —, each at word `(16 g + x) * 31 + n` of the node scratch.  After the
  thirty-one scatters the scratch holds, on the group's rows, the node values of the chunk's rows, and
  elsewhere what it held.
-/
import proofs.«209939_g34969623724736_cont_8to1_b_5_19_alg».proof.Proof.KBBodyW
import proofs.«209939_g34969623724736_cont_8to1_b_5_19_alg».proof.Proof.KBBodyIx

noncomputable section

namespace Cert.Proof.KB.Body

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.ValueIdx

variable [FloatOps F]

local notation "io" => (iota Kind.scVector S16 32 [0] iota_S16_d0_w32_scVector : IVec S16 32)

/-! ## The tree recursion at each node number -/

theorem nv1 (a : ℕ → F .f32) : KTree.nodeVal a 1 = FloatOps.minimumf (KTree.nodeVal a 0) (a 0) := KTree.nodeVal_left a 0
theorem nv2 (a : ℕ → F .f32) : KTree.nodeVal a 2 = FloatOps.minimumf (KTree.nodeVal a 0) (FloatOps.subf KTree.zero (a 0)) := KTree.nodeVal_right a 0
theorem nv3 (a : ℕ → F .f32) : KTree.nodeVal a 3 = FloatOps.minimumf (KTree.nodeVal a 1) (a 1) := KTree.nodeVal_left a 1
theorem nv4 (a : ℕ → F .f32) : KTree.nodeVal a 4 = FloatOps.minimumf (KTree.nodeVal a 1) (FloatOps.subf KTree.zero (a 1)) := KTree.nodeVal_right a 1
theorem nv5 (a : ℕ → F .f32) : KTree.nodeVal a 5 = FloatOps.minimumf (KTree.nodeVal a 2) (a 2) := KTree.nodeVal_left a 2
theorem nv6 (a : ℕ → F .f32) : KTree.nodeVal a 6 = FloatOps.minimumf (KTree.nodeVal a 2) (FloatOps.subf KTree.zero (a 2)) := KTree.nodeVal_right a 2
theorem nv7 (a : ℕ → F .f32) : KTree.nodeVal a 7 = FloatOps.minimumf (KTree.nodeVal a 3) (a 3) := KTree.nodeVal_left a 3
theorem nv8 (a : ℕ → F .f32) : KTree.nodeVal a 8 = FloatOps.minimumf (KTree.nodeVal a 3) (FloatOps.subf KTree.zero (a 3)) := KTree.nodeVal_right a 3
theorem nv9 (a : ℕ → F .f32) : KTree.nodeVal a 9 = FloatOps.minimumf (KTree.nodeVal a 4) (a 4) := KTree.nodeVal_left a 4
theorem nv10 (a : ℕ → F .f32) : KTree.nodeVal a 10 = FloatOps.minimumf (KTree.nodeVal a 4) (FloatOps.subf KTree.zero (a 4)) := KTree.nodeVal_right a 4
theorem nv11 (a : ℕ → F .f32) : KTree.nodeVal a 11 = FloatOps.minimumf (KTree.nodeVal a 5) (a 5) := KTree.nodeVal_left a 5
theorem nv12 (a : ℕ → F .f32) : KTree.nodeVal a 12 = FloatOps.minimumf (KTree.nodeVal a 5) (FloatOps.subf KTree.zero (a 5)) := KTree.nodeVal_right a 5
theorem nv13 (a : ℕ → F .f32) : KTree.nodeVal a 13 = FloatOps.minimumf (KTree.nodeVal a 6) (a 6) := KTree.nodeVal_left a 6
theorem nv14 (a : ℕ → F .f32) : KTree.nodeVal a 14 = FloatOps.minimumf (KTree.nodeVal a 6) (FloatOps.subf KTree.zero (a 6)) := KTree.nodeVal_right a 6
theorem nv15 (a : ℕ → F .f32) : KTree.nodeVal a 15 = FloatOps.minimumf (KTree.nodeVal a 7) (a 7) := KTree.nodeVal_left a 7
theorem nv16 (a : ℕ → F .f32) : KTree.nodeVal a 16 = FloatOps.minimumf (KTree.nodeVal a 7) (FloatOps.subf KTree.zero (a 7)) := KTree.nodeVal_right a 7
theorem nv17 (a : ℕ → F .f32) : KTree.nodeVal a 17 = FloatOps.minimumf (KTree.nodeVal a 8) (a 8) := KTree.nodeVal_left a 8
theorem nv18 (a : ℕ → F .f32) : KTree.nodeVal a 18 = FloatOps.minimumf (KTree.nodeVal a 8) (FloatOps.subf KTree.zero (a 8)) := KTree.nodeVal_right a 8
theorem nv19 (a : ℕ → F .f32) : KTree.nodeVal a 19 = FloatOps.minimumf (KTree.nodeVal a 9) (a 9) := KTree.nodeVal_left a 9
theorem nv20 (a : ℕ → F .f32) : KTree.nodeVal a 20 = FloatOps.minimumf (KTree.nodeVal a 9) (FloatOps.subf KTree.zero (a 9)) := KTree.nodeVal_right a 9
theorem nv21 (a : ℕ → F .f32) : KTree.nodeVal a 21 = FloatOps.minimumf (KTree.nodeVal a 10) (a 10) := KTree.nodeVal_left a 10
theorem nv22 (a : ℕ → F .f32) : KTree.nodeVal a 22 = FloatOps.minimumf (KTree.nodeVal a 10) (FloatOps.subf KTree.zero (a 10)) := KTree.nodeVal_right a 10
theorem nv23 (a : ℕ → F .f32) : KTree.nodeVal a 23 = FloatOps.minimumf (KTree.nodeVal a 11) (a 11) := KTree.nodeVal_left a 11
theorem nv24 (a : ℕ → F .f32) : KTree.nodeVal a 24 = FloatOps.minimumf (KTree.nodeVal a 11) (FloatOps.subf KTree.zero (a 11)) := KTree.nodeVal_right a 11
theorem nv25 (a : ℕ → F .f32) : KTree.nodeVal a 25 = FloatOps.minimumf (KTree.nodeVal a 12) (a 12) := KTree.nodeVal_left a 12
theorem nv26 (a : ℕ → F .f32) : KTree.nodeVal a 26 = FloatOps.minimumf (KTree.nodeVal a 12) (FloatOps.subf KTree.zero (a 12)) := KTree.nodeVal_right a 12
theorem nv27 (a : ℕ → F .f32) : KTree.nodeVal a 27 = FloatOps.minimumf (KTree.nodeVal a 13) (a 13) := KTree.nodeVal_left a 13
theorem nv28 (a : ℕ → F .f32) : KTree.nodeVal a 28 = FloatOps.minimumf (KTree.nodeVal a 13) (FloatOps.subf KTree.zero (a 13)) := KTree.nodeVal_right a 13
theorem nv29 (a : ℕ → F .f32) : KTree.nodeVal a 29 = FloatOps.minimumf (KTree.nodeVal a 14) (a 14) := KTree.nodeVal_left a 14
theorem nv30 (a : ℕ → F .f32) : KTree.nodeVal a 30 = FloatOps.minimumf (KTree.nodeVal a 14) (FloatOps.subf KTree.zero (a 14)) := KTree.nodeVal_right a 14

/-! ## What the lanes scatter, over any fifteen gathered vectors -/

theorem pay_node0 (x : S16.Idx) : (k1_pay1 (F := F)) x = KTree.one := rfl

theorem pay_node1 (a : ℕ → Vec F S16 .f32) (x : S16.Idx) :
    (k1_pay83 ((k1_pay2 (F := F))) ((k1_pay51 ((k1_pay1 (F := F))) (a 0)))) x = FloatOps.maximumf (KTree.nodeVal (fun i => a i x) 1) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node2 (a : ℕ → Vec F S16 .f32) (x : S16.Idx) :
    (k1_pay85 ((k1_pay2 (F := F))) ((k1_pay52 ((k1_pay1 (F := F))) (a 0)))) x = FloatOps.maximumf (KTree.nodeVal (fun i => a i x) 2) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node3 (a : ℕ → Vec F S16 .f32) (x : S16.Idx) :
    ((k1_pay87 ((k1_pay2 (F := F))) ((k1_pay53 ((k1_pay1 (F := F))) (a 0) (a 1))))) x = FloatOps.maximumf (KTree.nodeVal (fun i => a i x) 3) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node4 (a : ℕ → Vec F S16 .f32) (x : S16.Idx) :
    (k1_pay89 ((k1_pay2 (F := F))) ((k1_pay54 ((k1_pay1 (F := F))) (a 0) (a 1)))) x = FloatOps.maximumf (KTree.nodeVal (fun i => a i x) 4) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node5 (a : ℕ → Vec F S16 .f32) (x : S16.Idx) :
    (k1_pay91 ((k1_pay2 (F := F))) ((k1_pay55 ((k1_pay1 (F := F))) (a 0) (a 2)))) x = FloatOps.maximumf (KTree.nodeVal (fun i => a i x) 5) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node6 (a : ℕ → Vec F S16 .f32) (x : S16.Idx) :
    (k1_pay93 ((k1_pay2 (F := F))) ((k1_pay56 ((k1_pay1 (F := F))) (a 0) (a 2)))) x = FloatOps.maximumf (KTree.nodeVal (fun i => a i x) 6) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node7 (a : ℕ → Vec F S16 .f32) (x : S16.Idx) :
    (k1_pay95 ((k1_pay2 (F := F))) ((k1_pay57 ((k1_pay1 (F := F))) (a 0) (a 1) (a 3)))) x = FloatOps.maximumf (KTree.nodeVal (fun i => a i x) 7) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node8 (a : ℕ → Vec F S16 .f32) (x : S16.Idx) :
    (k1_pay97 ((k1_pay2 (F := F))) ((k1_pay58 ((k1_pay1 (F := F))) (a 0) (a 1) (a 3)))) x = FloatOps.maximumf (KTree.nodeVal (fun i => a i x) 8) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node9 (a : ℕ → Vec F S16 .f32) (x : S16.Idx) :
    (k1_pay99 ((k1_pay2 (F := F))) ((k1_pay59 ((k1_pay1 (F := F))) (a 0) (a 1) (a 4)))) x = FloatOps.maximumf (KTree.nodeVal (fun i => a i x) 9) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node10 (a : ℕ → Vec F S16 .f32) (x : S16.Idx) :
    (k1_pay101 ((k1_pay2 (F := F))) ((k1_pay60 ((k1_pay1 (F := F))) (a 0) (a 1) (a 4)))) x = FloatOps.maximumf (KTree.nodeVal (fun i => a i x) 10) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node11 (a : ℕ → Vec F S16 .f32) (x : S16.Idx) :
    (k1_pay103 ((k1_pay2 (F := F))) ((k1_pay61 ((k1_pay1 (F := F))) (a 0) (a 2) (a 5)))) x = FloatOps.maximumf (KTree.nodeVal (fun i => a i x) 11) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node12 (a : ℕ → Vec F S16 .f32) (x : S16.Idx) :
    (k1_pay105 ((k1_pay2 (F := F))) ((k1_pay62 ((k1_pay1 (F := F))) (a 0) (a 2) (a 5)))) x = FloatOps.maximumf (KTree.nodeVal (fun i => a i x) 12) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node13 (a : ℕ → Vec F S16 .f32) (x : S16.Idx) :
    ((k1_pay107 ((k1_pay2 (F := F))) ((k1_pay63 ((k1_pay1 (F := F))) (a 0) (a 2) (a 6))))) x = FloatOps.maximumf (KTree.nodeVal (fun i => a i x) 13) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node14 (a : ℕ → Vec F S16 .f32) (x : S16.Idx) :
    (k1_pay109 ((k1_pay2 (F := F))) ((k1_pay65 (a 6) ((k1_pay56 ((k1_pay1 (F := F))) (a 0) (a 2))) ((k1_pay64 (F := F)))))) x = FloatOps.maximumf (KTree.nodeVal (fun i => a i x) 14) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node15 (a : ℕ → Vec F S16 .f32) (x : S16.Idx) :
    (k1_pay111 ((k1_pay2 (F := F))) ((k1_pay66 (a 7) ((k1_pay57 ((k1_pay1 (F := F))) (a 0) (a 1) (a 3)))))) x = FloatOps.maximumf (KTree.nodeVal (fun i => a i x) 15) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node16 (a : ℕ → Vec F S16 .f32) (x : S16.Idx) :
    (k1_pay113 ((k1_pay2 (F := F))) ((k1_pay67 (a 7) ((k1_pay57 ((k1_pay1 (F := F))) (a 0) (a 1) (a 3)))))) x = FloatOps.maximumf (KTree.nodeVal (fun i => a i x) 16) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node17 (a : ℕ → Vec F S16 .f32) (x : S16.Idx) :
    (k1_pay115 ((k1_pay2 (F := F))) ((k1_pay68 (a 8) ((k1_pay58 ((k1_pay1 (F := F))) (a 0) (a 1) (a 3)))))) x = FloatOps.maximumf (KTree.nodeVal (fun i => a i x) 17) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node18 (a : ℕ → Vec F S16 .f32) (x : S16.Idx) :
    (k1_pay117 ((k1_pay2 (F := F))) ((k1_pay69 (a 8) ((k1_pay58 ((k1_pay1 (F := F))) (a 0) (a 1) (a 3)))))) x = FloatOps.maximumf (KTree.nodeVal (fun i => a i x) 18) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node19 (a : ℕ → Vec F S16 .f32) (x : S16.Idx) :
    (k1_pay119 ((k1_pay2 (F := F))) ((k1_pay70 (a 9) ((k1_pay59 ((k1_pay1 (F := F))) (a 0) (a 1) (a 4)))))) x = FloatOps.maximumf (KTree.nodeVal (fun i => a i x) 19) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node20 (a : ℕ → Vec F S16 .f32) (x : S16.Idx) :
    (k1_pay121 ((k1_pay2 (F := F))) ((k1_pay71 (a 9) ((k1_pay59 ((k1_pay1 (F := F))) (a 0) (a 1) (a 4)))))) x = FloatOps.maximumf (KTree.nodeVal (fun i => a i x) 20) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node21 (a : ℕ → Vec F S16 .f32) (x : S16.Idx) :
    (k1_pay123 ((k1_pay2 (F := F))) ((k1_pay72 (a 10) ((k1_pay60 ((k1_pay1 (F := F))) (a 0) (a 1) (a 4)))))) x = FloatOps.maximumf (KTree.nodeVal (fun i => a i x) 21) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node22 (a : ℕ → Vec F S16 .f32) (x : S16.Idx) :
    (k1_pay125 ((k1_pay2 (F := F))) ((k1_pay73 (a 10) ((k1_pay60 ((k1_pay1 (F := F))) (a 0) (a 1) (a 4)))))) x = FloatOps.maximumf (KTree.nodeVal (fun i => a i x) 22) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node23 (a : ℕ → Vec F S16 .f32) (x : S16.Idx) :
    (k1_pay127 ((k1_pay2 (F := F))) ((k1_pay74 (a 11) ((k1_pay61 ((k1_pay1 (F := F))) (a 0) (a 2) (a 5)))))) x = FloatOps.maximumf (KTree.nodeVal (fun i => a i x) 23) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node24 (a : ℕ → Vec F S16 .f32) (x : S16.Idx) :
    (k1_pay4 (k1_pay75 (a 11) ((k1_pay61 ((k1_pay1 (F := F))) (a 0) (a 2) (a 5))))) x = FloatOps.maximumf (KTree.nodeVal (fun i => a i x) 24) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node25 (a : ℕ → Vec F S16 .f32) (x : S16.Idx) :
    (k1_pay6 (k1_pay76 (a 12) ((k1_pay62 ((k1_pay1 (F := F))) (a 0) (a 2) (a 5))))) x = FloatOps.maximumf (KTree.nodeVal (fun i => a i x) 25) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node26 (a : ℕ → Vec F S16 .f32) (x : S16.Idx) :
    (k1_pay8 (k1_pay77 (a 12) ((k1_pay62 ((k1_pay1 (F := F))) (a 0) (a 2) (a 5))))) x = FloatOps.maximumf (KTree.nodeVal (fun i => a i x) 26) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node27 (a : ℕ → Vec F S16 .f32) (x : S16.Idx) :
    (k1_pay10 (k1_pay78 (a 13) ((k1_pay63 ((k1_pay1 (F := F))) (a 0) (a 2) (a 6))))) x = FloatOps.maximumf (KTree.nodeVal (fun i => a i x) 27) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node28 (a : ℕ → Vec F S16 .f32) (x : S16.Idx) :
    (k1_pay12 (k1_pay79 (a 13) ((k1_pay63 ((k1_pay1 (F := F))) (a 0) (a 2) (a 6))))) x = FloatOps.maximumf (KTree.nodeVal (fun i => a i x) 28) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node29 (a : ℕ → Vec F S16 .f32) (x : S16.Idx) :
    (k1_pay14 (k1_pay80 (a 6) (a 14) ((k1_pay56 ((k1_pay1 (F := F))) (a 0) (a 2))) ((k1_pay64 (F := F))))) x = FloatOps.maximumf (KTree.nodeVal (fun i => a i x) 29) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node30 (a : ℕ → Vec F S16 .f32) (x : S16.Idx) :
    (k1_pay16 (k1_pay81 (a 6) (a 14) ((k1_pay56 ((k1_pay1 (F := F))) (a 0) (a 2))) ((k1_pay64 (F := F))))) x = FloatOps.maximumf (KTree.nodeVal (fun i => a i x) 30) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl

/-! ## The rows of a fetched chunk -/

/-- Projection `i` of local row `r` in a chunk's 51200 words (total: positions wrap at the chunk's length). -/
def rowA (fA : Vec F S51200 .f32) (r i : ℕ) : F .f32 := fA (ix1 ⟨(r * 128 + i) % 51200, Nat.mod_lt _ (by decide)⟩)

/-- The gathered vectors of group `g`. -/
def gat (fA : Vec F S51200 .f32) (g : ℕ) (i : ℕ) : Vec F S16 .f32 := fun x => rowA fA (16 * g + (x 0).val) i

/-- What the node scratch is to hold at word `p`: node `p % 31` of local row `p / 31`. -/
def tgtB (fA : Vec F S51200 .f32) (p : S12400.Idx) : F .f32 :=
  if (p 0).val % 31 = 0 then KTree.one
  else FloatOps.maximumf (KTree.nodeVal (rowA fA ((p 0).val / 31)) ((p 0).val % 31)) KTree.zero

/-- Node `n` over the lanes of group `g`. -/
def nodeV (fA : Vec F S51200 .f32) (g : ℕ) (n : ℕ) : Vec F S16 .f32 := fun x =>
  if n = 0 then KTree.one else FloatOps.maximumf (KTree.nodeVal (fun i => gat fA g i x) n) KTree.zero

theorem nodeV_ne (fA : Vec F S51200 .f32) (g n : ℕ) (hn : n ≠ 0) (x : S16.Idx) :
    nodeV fA g n x = FloatOps.maximumf (KTree.nodeVal (fun i => gat fA g i x) n) KTree.zero := if_neg hn
theorem nodeV_zero (fA : Vec F S51200 .f32) (g : ℕ) (x : S16.Idx) : nodeV fA g 0 x = KTree.one := if_pos rfl

theorem nodeV_eq_tgtB (fA : Vec F S51200 .f32) (g : ℕ) (n : ℕ) (hn : n < 31) (x : S16.Idx) (p : S12400.Idx)
    (hp : (p 0).val = (16 * g + (x 0).val) * 31 + n) : nodeV fA g n x = tgtB fA p := by
  have h1 : (p 0).val % 31 = n := by rw [hp]; omega
  have h2 : (p 0).val / 31 = 16 * g + (x 0).val := by rw [hp]; omega
  unfold nodeV tgtB
  rw [h1, h2]; rfl

/-- A gather at projection `i`'s words reads the rows' projection `i`. -/
theorem load_eq_gat (fA : Vec F S51200 .f32) (g : Fin k1_t2_loop.trips) (i : ℕ) (hi : i < 15) (idx : IVec S16 32)
    (hidx : ∀ x, (idx x).toNat = (16 * g.val + (x 0).val) * 128 + i)
    (h : ∀ a x, ((![idx] : Fin 1 → IVec S16 32) a x).toNat < S51200.size a) :
    loadIdx fA ![idx] h = gat fA g.val i := by
  funext x
  have hg := trips2_le g
  have hx := lane_lt x
  show fA (idxAt ![idx] h x) = fA _
  congr 1
  funext a; obtain rfl : a = 0 := Subsingleton.elim _ _
  apply Fin.ext
  show (idx x).toNat = ((16 * g.val + (x 0).val) * 128 + i) % 51200
  rw [hidx x]; omega

/-! ## Thirty-one scatters -/

section Stores
variable (fA : Vec F S51200 .f32) (g : Fin k1_t2_loop.trips) (fB : Vec F S12400 .f32)

/-- After the first `n` scatters of group `g`: words of no row of the group are as before, and nodes below `n` of
    the group's rows are in place. -/
def Good (n : ℕ) (f' : Vec F S12400 .f32) : Prop :=
  (∀ p : S12400.Idx, (∀ x : S16.Idx, ∀ m, m < 31 → (p 0).val ≠ (16 * g.val + (x 0).val) * 31 + m) → f' p = fB p)
  ∧ ∀ (x : S16.Idx) (m : ℕ), m < n → ∀ p : S12400.Idx, (p 0).val = (16 * g.val + (x 0).val) * 31 + m → f' p = nodeV fA g.val m x

theorem good_zero : Good fA g fB 0 fB := ⟨fun _ _ => rfl, fun _ m hm => absurd hm (Nat.not_lt_zero m)⟩

theorem good_step (n : ℕ) (hn : n < 31) (f' : Vec F S12400 .f32) (hG : Good fA g fB n f') (idx : IVec S16 32)
    (hidx : ∀ x, (idx x).toNat = (16 * g.val + (x 0).val) * 31 + n) (v : Vec F S16 .f32) (hv : ∀ x, v x = nodeV fA g.val n x)
    (h : ∀ a x, ((![idx] : Fin 1 → IVec S16 32) a x).toNat < S12400.size a) :
    Good fA g fB (n + 1) (storeIdx f' ![idx] v (fun _ => 1#1) false h) := by
  refine ⟨fun p hp => ?_, fun x m hm p hp => ?_⟩
  · rw [storeB_miss f' idx v h p fun x' => by rw [hidx x']; exact (hp x' n hn).symm]
    exact hG.1 p hp
  · rcases Nat.lt_succ_iff_lt_or_eq.mp hm with hm | rfl
    · rw [storeB_miss f' idx v h p fun x' => by
        have hx := lane_lt x; have hx' := lane_lt x'
        rw [hidx x', hp]; omega]
      exact hG.2 x m hm p hp
    · rw [storeB_hit f' idx v h p x (by rw [hidx x]; exact hp) fun x' hx' => by
        rw [hidx x', hidx x] at hx'
        have e : (x' 0).val = (x 0).val := by omega
        funext a; obtain rfl : a = 0 := Subsingleton.elim _ _
        exact Fin.ext e]
      exact hv x

/-- The group done, the scratch agrees with its target one group further. -/
theorem good_inv (f' : Vec F S12400 .f32) (hG : Good fA g fB 31 f')
    (hI : ∀ p : S12400.Idx, (p 0).val < 496 * g.val → fB p = tgtB fA p) :
    ∀ p : S12400.Idx, (p 0).val < 496 * (g.val + 1) → f' p = tgtB fA p := by
  intro p hp
  by_cases hr : (p 0).val < 496 * g.val
  · rw [hG.1 p fun x m hm => by have hx := lane_lt x; omega]
    exact hI p hr
  · have hx : (p 0).val / 31 - 16 * g.val < 16 := by omega
    let x : S16.Idx := ix1 ⟨(p 0).val / 31 - 16 * g.val, hx⟩
    have hx0 : (x 0).val = (p 0).val / 31 - 16 * g.val := rfl
    have hpos : (p 0).val = (16 * g.val + (x 0).val) * 31 + (p 0).val % 31 := by rw [hx0]; omega
    rw [hG.2 x ((p 0).val % 31) (Nat.mod_lt _ (by decide)) p hpos]
    exact nodeV_eq_tgtB fA g.val _ (Nat.mod_lt _ (by decide)) x p hpos

end Stores

end Cert.Proof.KB.Body

end
-- ==== Proof.KBBodyGrpV.lean ====
/-
  One group of sixteen rows, with its values: the fifteen gathers read the rows' projections off the
  fetched chunk, and after the thirty-one scatters the node scratch holds the rows' node values on the
  group's words and what it held elsewhere.
-/
import proofs.«209939_g34969623724736_cont_8to1_b_5_19_alg».proof.Proof.KBBodySt
import proofs.«209939_g34969623724736_cont_8to1_b_5_19_alg».proof.Proof.KBBodyVal

noncomputable section

namespace Cert.Proof.KB.Body

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

local notation "io" => (iota Kind.scVector S16 32 [0] iota_S16_d0_w32_scVector : IVec S16 32)

section Group
variable (d : Dev nD) (L : grid1.Coords)

/-- A gather out of the fetched chunk, its result named. -/
theorem ldA_stepV {α : Type} {Q : α → sProp 𝕄} (fA : Buf (Elt F) ((V d (cV L) (jV L)).loc cc1_scratch0)) (idx : IVec S16 32)
    (h : ∀ a x, ((![idx] : Fin 1 → IVec S16 32) a x).toNat < S51200.size a) (hl : (sA1 : Memref sig .scVector .vmem S51200 .f32).view.Loads)
    (k : Vec F S16 .f32 → Prog (TpuEff nD τ sig (Elt F) Λ₀ (V d (cV L) (jV L)).2) α) (R : sProp 𝕄)
    (a : Vec F S16 .f32) (ha : loadIdx fA ![idx] h = a)
    (hk : iprop(R ∗ ptA d L fA) ⊢ wp frame (wpE (defs₀ (F := F)) 𝒱₀ (V d (cV L) (jV L)) none) Set.univ (k a) Q) :
    iprop(R ∗ ptA d L fA) ⊢ wp frame (wpE (defs₀ (F := F)) 𝒱₀ (V d (cV L) (jV L)) none) Set.univ
      (SparseCore.vectorLoadIdx (sA1 : Memref sig .scVector .vmem S51200 .f32) ![idx] h hl >>= k) Q := by
  subst ha; exact ldA_step d L fA idx h hl k R hk

set_option maxHeartbeats 4000000 in
theorem group_val (g : Fin k1_t2_loop.trips) (fA : Buf (Elt F) ((V d (cV L) (jV L)).loc cc1_scratch0)) (fB : Buf (Elt F) ((V d (cV L) (jV L)).loc cc1_scratch1)) :
    iprop(ptB d L fB ∗ ptA d L fA) ⊢ wp frame (wpE (defs₀ (F := F)) 𝒱₀ (V d (cV L) (jV L)) none) Set.univ
      (k1_t2_body L in0V (Memref.isWhole_whole _) out0V (Memref.isWhole_whole _) sA1 (Memref.isWhole_whole _) sB1 (Memref.isWhole_whole _)
        cc1_scoped0 cc1_scoped1 cc1_scoped2 cc1_scoped3 io g ())
      fun _ => iprop(ptA d L fA ∗ ∃ fB', ptB d L fB' ∗ ⌜Good fA g fB 31 fB'⌝) := by
  unfold k1_t2_body
  -- the first nine gathers
  rw [k1_part1_eq_skeleton]; unfold k1_part1_skel
  simp only [Prog.lift, Prog.bind_op, Prog.bind_ret, Prog.pure_eq_ret, Prog.bind_assoc]
  rw [wp_assume_of _ _ _ _ (chk16_ok g)]
  rw [wp_assume_of _ _ _ _ (chk1_ok g)]
  refine ldA_stepV d L _ _ _ _ _ _ (gat fA g.val 0) (load_eq_gat fA g 0 (by decide) _ (fun x => aIdx_toNat g 0 (by decide) x) _) ?_
  rw [wp_assume_of _ _ _ _ (chk2_ok g)]
  refine ldA_stepV d L _ _ _ _ _ _ (gat fA g.val 1) (load_eq_gat fA g 1 (by decide) _ (fun x => aIdx_toNat g 1 (by decide) x) _) ?_
  rw [wp_assume_of _ _ _ _ (chk3_ok g)]
  refine ldA_stepV d L _ _ _ _ _ _ (gat fA g.val 2) (load_eq_gat fA g 2 (by decide) _ (fun x => aIdx_toNat g 2 (by decide) x) _) ?_
  rw [wp_assume_of _ _ _ _ (chk4_ok g)]
  refine ldA_stepV d L _ _ _ _ _ _ (gat fA g.val 3) (load_eq_gat fA g 3 (by decide) _ (fun x => aIdx_toNat g 3 (by decide) x) _) ?_
  rw [wp_assume_of _ _ _ _ (chk5_ok g)]
  refine ldA_stepV d L _ _ _ _ _ _ (gat fA g.val 4) (load_eq_gat fA g 4 (by decide) _ (fun x => aIdx_toNat g 4 (by decide) x) _) ?_
  rw [wp_assume_of _ _ _ _ (chk6_ok g)]
  refine ldA_stepV d L _ _ _ _ _ _ (gat fA g.val 5) (load_eq_gat fA g 5 (by decide) _ (fun x => aIdx_toNat g 5 (by decide) x) _) ?_
  rw [wp_assume_of _ _ _ _ (chk7_ok g)]
  refine ldA_stepV d L _ _ _ _ _ _ (gat fA g.val 6) (load_eq_gat fA g 6 (by decide) _ (fun x => aIdx_toNat g 6 (by decide) x) _) ?_
  rw [wp_assume_of _ _ _ _ (chk8_ok g)]
  refine ldA_stepV d L _ _ _ _ _ _ (gat fA g.val 7) (load_eq_gat fA g 7 (by decide) _ (fun x => aIdx_toNat g 7 (by decide) x) _) ?_
  rw [wp_assume_of _ _ _ _ (chk9_ok g)]
  refine ldA_stepV d L _ _ _ _ _ _ (gat fA g.val 8) (load_eq_gat fA g 8 (by decide) _ (fun x => aIdx_toNat g 8 (by decide) x) _) ?_
  -- the other six
  rw [k1_part2_eq_skeleton]; unfold k1_part2_skel
  simp only [Prog.lift, Prog.bind_op, Prog.bind_ret, Prog.pure_eq_ret, Prog.bind_assoc]
  rw [wp_assume_of _ _ _ _ (chk10_ok g)]
  refine ldA_stepV d L _ _ _ _ _ _ (gat fA g.val 9) (load_eq_gat fA g 9 (by decide) _ (fun x => aIdx_toNat g 9 (by decide) x) _) ?_
  rw [wp_assume_of _ _ _ _ (chk11_ok g)]
  refine ldA_stepV d L _ _ _ _ _ _ (gat fA g.val 10) (load_eq_gat fA g 10 (by decide) _ (fun x => aIdx_toNat g 10 (by decide) x) _) ?_
  rw [wp_assume_of _ _ _ _ (chk12_ok g)]
  refine ldA_stepV d L _ _ _ _ _ _ (gat fA g.val 11) (load_eq_gat fA g 11 (by decide) _ (fun x => aIdx_toNat g 11 (by decide) x) _) ?_
  rw [wp_assume_of _ _ _ _ (chk13_ok g)]
  refine ldA_stepV d L _ _ _ _ _ _ (gat fA g.val 12) (load_eq_gat fA g 12 (by decide) _ (fun x => aIdx_toNat g 12 (by decide) x) _) ?_
  rw [wp_assume_of _ _ _ _ (chk14_ok g)]
  refine ldA_stepV d L _ _ _ _ _ _ (gat fA g.val 13) (load_eq_gat fA g 13 (by decide) _ (fun x => aIdx_toNat g 13 (by decide) x) _) ?_
  rw [wp_assume_of _ _ _ _ (chk15_ok g)]
  refine ldA_stepV d L _ _ _ _ _ _ (gat fA g.val 14) (load_eq_gat fA g 14 (by decide) _ (fun x => aIdx_toNat g 14 (by decide) x) _) ?_
  refine sep_comm.trans ?_
  -- the scatters
  rw [k1_part3_eq_skeleton]; unfold k1_part3_skel
  simp only [Prog.lift, Prog.bind_op, Prog.bind_ret, Prog.pure_eq_ret, Prog.bind_assoc]
  refine stB_step d L _ _ _ _ _ _ _ _ _ ?_
  rw [wp_assume_of _ _ _ _ (chk17_ok g)]
  refine stB_step d L _ _ _ _ _ _ _ _ _ ?_
  rw [wp_assume_of _ _ _ _ (chk18_ok g)]
  refine stB_step d L _ _ _ _ _ _ _ _ _ ?_
  rw [wp_assume_of _ _ _ _ (chk19_ok g)]
  rw [k1_part4_eq_skeleton]; unfold k1_part4_skel
  simp only [Prog.lift, Prog.bind_op, Prog.bind_ret, Prog.pure_eq_ret, Prog.bind_assoc]
  refine stB_step d L _ _ _ _ _ _ _ _ _ ?_
  rw [wp_assume_of _ _ _ _ (chk20_ok g)]
  refine stB_step d L _ _ _ _ _ _ _ _ _ ?_
  rw [wp_assume_of _ _ _ _ (chk21_ok g)]
  refine stB_step d L _ _ _ _ _ _ _ _ _ ?_
  rw [wp_assume_of _ _ _ _ (chk22_ok g)]
  refine stB_step d L _ _ _ _ _ _ _ _ _ ?_
  rw [wp_assume_of _ _ _ _ (chk23_ok g)]
  refine stB_step d L _ _ _ _ _ _ _ _ _ ?_
  rw [wp_assume_of _ _ _ _ (chk24_ok g)]
  refine stB_step d L _ _ _ _ _ _ _ _ _ ?_
  rw [wp_assume_of _ _ _ _ (chk25_ok g)]
  refine stB_step d L _ _ _ _ _ _ _ _ _ ?_
  rw [wp_assume_of _ _ _ _ (chk26_ok g)]
  refine stB_step d L _ _ _ _ _ _ _ _ _ ?_
  rw [wp_assume_of _ _ _ _ (chk27_ok g)]
  refine stB_step d L _ _ _ _ _ _ _ _ _ ?_
  rw [wp_assume_of _ _ _ _ (chk28_ok g)]
  refine stB_step d L _ _ _ _ _ _ _ _ _ ?_
  rw [wp_assume_of _ _ _ _ (chk29_ok g)]
  rw [k1_part5_eq_skeleton]; unfold k1_part5_skel
  simp only [Prog.lift, Prog.bind_op, Prog.bind_ret, Prog.pure_eq_ret, Prog.bind_assoc]
  refine stB_step d L _ _ _ _ _ _ _ _ _ ?_
  rw [wp_assume_of _ _ _ _ (chk30_ok g)]
  refine stB_step d L _ _ _ _ _ _ _ _ _ ?_
  rw [wp_assume_of _ _ _ _ (chk31_ok g)]
  refine stB_step d L _ _ _ _ _ _ _ _ _ ?_
  rw [wp_assume_of _ _ _ _ (chk32_ok g)]
  refine stB_step d L _ _ _ _ _ _ _ _ _ ?_
  rw [wp_assume_of _ _ _ _ (chk33_ok g)]
  refine stB_step d L _ _ _ _ _ _ _ _ _ ?_
  rw [wp_assume_of _ _ _ _ (chk34_ok g)]
  refine stB_step d L _ _ _ _ _ _ _ _ _ ?_
  rw [wp_assume_of _ _ _ _ (chk35_ok g)]
  refine stB_step d L _ _ _ _ _ _ _ _ _ ?_
  rw [wp_assume_of _ _ _ _ (chk36_ok g)]
  refine stB_step d L _ _ _ _ _ _ _ _ _ ?_
  rw [wp_assume_of _ _ _ _ (chk37_ok g)]
  refine stB_step d L _ _ _ _ _ _ _ _ _ ?_
  rw [wp_assume_of _ _ _ _ (chk38_ok g)]
  refine stB_step d L _ _ _ _ _ _ _ _ _ ?_
  rw [wp_assume_of _ _ _ _ (chk39_ok g)]
  refine stB_step d L _ _ _ _ _ _ _ _ _ ?_
  rw [wp_assume_of _ _ _ _ (chk40_ok g)]
  refine stB_step d L _ _ _ _ _ _ _ _ _ ?_
  rw [wp_assume_of _ _ _ _ (chk41_ok g)]
  refine stB_step d L _ _ _ _ _ _ _ _ _ ?_
  rw [wp_assume_of _ _ _ _ (chk42_ok g)]
  refine stB_step d L _ _ _ _ _ _ _ _ _ ?_
  rw [wp_assume_of _ _ _ _ (chk43_ok g)]
  refine stB_step d L _ _ _ _ _ _ _ _ _ ?_
  rw [wp_assume_of _ _ _ _ (chk44_ok g)]
  refine stB_step d L _ _ _ _ _ _ _ _ _ ?_
  rw [wp_assume_of _ _ _ _ (chk45_ok g)]
  refine stB_step d L _ _ _ _ _ _ _ _ _ ?_
  rw [wp_assume_of _ _ _ _ (chk46_ok g)]
  refine stB_step d L _ _ _ _ _ _ _ _ _ ?_
  rw [wp_ret]
  iintro ⟨HA, HB⟩
  imodintro
  isplitl [HA]
  · iexact HA
  iexists _
  isplitl [HB]
  · iexact HB
  ipureintro
  -- the thirty-one scatters, last first
  refine good_step fA g fB 30 (by decide) _ ?_ _ (fun x => bIdx_toNat g 30 (by decide) x) _ (fun x => (pay_node30 (gat fA g.val) x).trans (nodeV_ne fA g.val 30 (by decide) x).symm) _
  refine good_step fA g fB 29 (by decide) _ ?_ _ (fun x => bIdx_toNat g 29 (by decide) x) _ (fun x => (pay_node29 (gat fA g.val) x).trans (nodeV_ne fA g.val 29 (by decide) x).symm) _
  refine good_step fA g fB 28 (by decide) _ ?_ _ (fun x => bIdx_toNat g 28 (by decide) x) _ (fun x => (pay_node28 (gat fA g.val) x).trans (nodeV_ne fA g.val 28 (by decide) x).symm) _
  refine good_step fA g fB 27 (by decide) _ ?_ _ (fun x => bIdx_toNat g 27 (by decide) x) _ (fun x => (pay_node27 (gat fA g.val) x).trans (nodeV_ne fA g.val 27 (by decide) x).symm) _
  refine good_step fA g fB 26 (by decide) _ ?_ _ (fun x => bIdx_toNat g 26 (by decide) x) _ (fun x => (pay_node26 (gat fA g.val) x).trans (nodeV_ne fA g.val 26 (by decide) x).symm) _
  refine good_step fA g fB 25 (by decide) _ ?_ _ (fun x => bIdx_toNat g 25 (by decide) x) _ (fun x => (pay_node25 (gat fA g.val) x).trans (nodeV_ne fA g.val 25 (by decide) x).symm) _
  refine good_step fA g fB 24 (by decide) _ ?_ _ (fun x => bIdx_toNat g 24 (by decide) x) _ (fun x => (pay_node24 (gat fA g.val) x).trans (nodeV_ne fA g.val 24 (by decide) x).symm) _
  refine good_step fA g fB 23 (by decide) _ ?_ _ (fun x => bIdx_toNat g 23 (by decide) x) _ (fun x => (pay_node23 (gat fA g.val) x).trans (nodeV_ne fA g.val 23 (by decide) x).symm) _
  refine good_step fA g fB 22 (by decide) _ ?_ _ (fun x => bIdx_toNat g 22 (by decide) x) _ (fun x => (pay_node22 (gat fA g.val) x).trans (nodeV_ne fA g.val 22 (by decide) x).symm) _
  refine good_step fA g fB 21 (by decide) _ ?_ _ (fun x => bIdx_toNat g 21 (by decide) x) _ (fun x => (pay_node21 (gat fA g.val) x).trans (nodeV_ne fA g.val 21 (by decide) x).symm) _
  refine good_step fA g fB 20 (by decide) _ ?_ _ (fun x => bIdx_toNat g 20 (by decide) x) _ (fun x => (pay_node20 (gat fA g.val) x).trans (nodeV_ne fA g.val 20 (by decide) x).symm) _
  refine good_step fA g fB 19 (by decide) _ ?_ _ (fun x => bIdx_toNat g 19 (by decide) x) _ (fun x => (pay_node19 (gat fA g.val) x).trans (nodeV_ne fA g.val 19 (by decide) x).symm) _
  refine good_step fA g fB 18 (by decide) _ ?_ _ (fun x => bIdx_toNat g 18 (by decide) x) _ (fun x => (pay_node18 (gat fA g.val) x).trans (nodeV_ne fA g.val 18 (by decide) x).symm) _
  refine good_step fA g fB 17 (by decide) _ ?_ _ (fun x => bIdx_toNat g 17 (by decide) x) _ (fun x => (pay_node17 (gat fA g.val) x).trans (nodeV_ne fA g.val 17 (by decide) x).symm) _
  refine good_step fA g fB 16 (by decide) _ ?_ _ (fun x => bIdx_toNat g 16 (by decide) x) _ (fun x => (pay_node16 (gat fA g.val) x).trans (nodeV_ne fA g.val 16 (by decide) x).symm) _
  refine good_step fA g fB 15 (by decide) _ ?_ _ (fun x => bIdx_toNat g 15 (by decide) x) _ (fun x => (pay_node15 (gat fA g.val) x).trans (nodeV_ne fA g.val 15 (by decide) x).symm) _
  refine good_step fA g fB 14 (by decide) _ ?_ _ (fun x => bIdx_toNat g 14 (by decide) x) _ (fun x => (pay_node14 (gat fA g.val) x).trans (nodeV_ne fA g.val 14 (by decide) x).symm) _
  refine good_step fA g fB 13 (by decide) _ ?_ _ (fun x => bIdx_toNat g 13 (by decide) x) _ (fun x => (pay_node13 (gat fA g.val) x).trans (nodeV_ne fA g.val 13 (by decide) x).symm) _
  refine good_step fA g fB 12 (by decide) _ ?_ _ (fun x => bIdx_toNat g 12 (by decide) x) _ (fun x => (pay_node12 (gat fA g.val) x).trans (nodeV_ne fA g.val 12 (by decide) x).symm) _
  refine good_step fA g fB 11 (by decide) _ ?_ _ (fun x => bIdx_toNat g 11 (by decide) x) _ (fun x => (pay_node11 (gat fA g.val) x).trans (nodeV_ne fA g.val 11 (by decide) x).symm) _
  refine good_step fA g fB 10 (by decide) _ ?_ _ (fun x => bIdx_toNat g 10 (by decide) x) _ (fun x => (pay_node10 (gat fA g.val) x).trans (nodeV_ne fA g.val 10 (by decide) x).symm) _
  refine good_step fA g fB 9 (by decide) _ ?_ _ (fun x => bIdx_toNat g 9 (by decide) x) _ (fun x => (pay_node9 (gat fA g.val) x).trans (nodeV_ne fA g.val 9 (by decide) x).symm) _
  refine good_step fA g fB 8 (by decide) _ ?_ _ (fun x => bIdx_toNat g 8 (by decide) x) _ (fun x => (pay_node8 (gat fA g.val) x).trans (nodeV_ne fA g.val 8 (by decide) x).symm) _
  refine good_step fA g fB 7 (by decide) _ ?_ _ (fun x => bIdx_toNat g 7 (by decide) x) _ (fun x => (pay_node7 (gat fA g.val) x).trans (nodeV_ne fA g.val 7 (by decide) x).symm) _
  refine good_step fA g fB 6 (by decide) _ ?_ _ (fun x => bIdx_toNat g 6 (by decide) x) _ (fun x => (pay_node6 (gat fA g.val) x).trans (nodeV_ne fA g.val 6 (by decide) x).symm) _
  refine good_step fA g fB 5 (by decide) _ ?_ _ (fun x => bIdx_toNat g 5 (by decide) x) _ (fun x => (pay_node5 (gat fA g.val) x).trans (nodeV_ne fA g.val 5 (by decide) x).symm) _
  refine good_step fA g fB 4 (by decide) _ ?_ _ (fun x => bIdx_toNat g 4 (by decide) x) _ (fun x => (pay_node4 (gat fA g.val) x).trans (nodeV_ne fA g.val 4 (by decide) x).symm) _
  refine good_step fA g fB 3 (by decide) _ ?_ _ (fun x => bIdx_toNat g 3 (by decide) x) _ (fun x => (pay_node3 (gat fA g.val) x).trans (nodeV_ne fA g.val 3 (by decide) x).symm) _
  refine good_step fA g fB 2 (by decide) _ ?_ _ (fun x => bIdx_toNat g 2 (by decide) x) _ (fun x => (pay_node2 (gat fA g.val) x).trans (nodeV_ne fA g.val 2 (by decide) x).symm) _
  refine good_step fA g fB 1 (by decide) _ ?_ _ (fun x => bIdx_toNat g 1 (by decide) x) _ (fun x => (pay_node1 (gat fA g.val) x).trans (nodeV_ne fA g.val 1 (by decide) x).symm) _
  refine good_step fA g fB 0 (by decide) _ ?_ _ (fun x => bBase_toNat g x) _ (fun x => (pay_node0 x).trans (nodeV_zero fA g.val x).symm) _
  exact good_zero fA g fB

end Group

end Cert.Proof.KB.Body

end
-- ==== Proof.KBBody.lean ====
/-
  One tile's whole task of the first tree launch, with its values.  Per chunk: the chunk's 51200 input
  words are fetched into the first scratch; twenty-five groups of sixteen rows fill the second scratch
  with the rows' node values (every word written exactly once); the second scratch is written out to
  the chunk's row of the output.  Every output row of the tile ends at the one whole-array function of
  the input.  The second chunk loop never runs.
-/
import proofs.«209939_g34969623724736_cont_8to1_b_5_19_alg».proof.Proof.KBBodyGrpV
import Idealize.ShloMosaic.Lib.Pipeline.Value

noncomputable section

namespace Cert.Proof.KB.Body

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.ValueIdx

variable [FloatOps F]

local notation "io" => (iota Kind.scVector S16 32 [0] iota_S16_d0_w32_scVector : IVec S16 32)

/-- A node's value reads only the projections below its number. -/
theorem nodeVal_congr (a a' : ℕ → F .f32) : ∀ n, (∀ i, i < n → a i = a' i) → KTree.nodeVal a n = KTree.nodeVal a' n := by
  intro n
  induction n using Nat.strong_induction_on with
  | _ n ih =>
    intro h
    cases n with
    | zero => rw [KTree.nodeVal_zero, KTree.nodeVal_zero]
    | succ m =>
      rw [KTree.nodeVal, KTree.nodeVal, ih (m / 2) (by omega) (fun i hi => h i (by omega)), h (m / 2) (by omega)]

section Tile
variable (d : Dev nD) (L : grid1.Coords)

/-! ## The fetched chunk and the written row, as words of the whole arrays -/

theorem chunk_lt (k : Fin (k1_t1_loop L).trips) : 2 * (L 1).val + (L 0).val + 32 * k.val < 125 := by
  rw [← chunk_val]; exact (chunk L k).isLt

/-- Word `j` of the slice trip `k` fetches is word `51200 * chunk + j` of the flat input. -/
theorem aSl_emb (k : Fin (k1_t1_loop L).trips) (j : S51200.Idx) :
    (((aSl L k).view.emb j) 0).val = 51200 * (chunk L k).val + (j 0).val := by
  have h1 := congrFun (k1_off1_eq L k) 0
  show k1_off1 L k 0 + 1 * (j 0).val = _
  rw [h1, chunk_val]
  show 102400 * (L 1).val + 51200 * (L 0).val + 1638400 * k.val + 1 * (j 0).val = _
  omega

/-- The fetched chunk's rows are the input's rows of that chunk. -/
theorem chunk_row (X : Buf (Elt F) (in0Loc d)) (k : Fin (k1_t1_loop L).trips) (r i : ℕ) (hr : r < 400) (hi : i < 128) :
    rowA ((aSl L k).view.read (Elt F) X) r i = KTree.projAt X (chunk L k).val r i := by
  have hc := (chunk L k).isLt
  unfold rowA KTree.projAt
  have e : ((aSl L k).view.emb (ix1 ⟨(r * 128 + i) % 51200, Nat.mod_lt _ (by decide)⟩) : S6400000.Idx)
      = ix1 ⟨(((chunk L k).val * 400 + r) * 128 + i) % 6400000, Nat.mod_lt _ (by decide)⟩ := by
    refine (eq_ix1 _).trans ?_
    congr 1
    apply Fin.ext
    rw [aSl_emb]
    show 51200 * (chunk L k).val + (r * 128 + i) % 51200 = (((chunk L k).val * 400 + r) * 128 + i) % 6400000
    omega
  exact ((View.read_apply _ _).trans (cast_eq _ _)).trans (congrArg X e)

theorem tgtB_chunk (X : Buf (Elt F) (in0Loc d)) (k : Fin (k1_t1_loop L).trips) (p : S12400.Idx) :
    tgtB ((aSl L k).view.read (Elt F) X) p = KTree.outFlat X (ix2 (chunk L k) ⟨(p 0).val, (p 0).isLt⟩) := by
  have hp : (p 0).val < 12400 := (p 0).isLt
  unfold tgtB KTree.outFlat
  show (if (p 0).val % 31 = 0 then KTree.one else FloatOps.maximumf (KTree.nodeVal (rowA ((aSl L k).view.read (Elt F) X) ((p 0).val / 31)) ((p 0).val % 31)) KTree.zero)
    = (if (p 0).val % 31 = 0 then KTree.one else FloatOps.maximumf (KTree.nodeVal (KTree.projAt X (chunk L k).val ((p 0).val / 31)) ((p 0).val % 31)) KTree.zero)
  rw [nodeVal_congr _ _ _ fun i hi => chunk_row d L X k ((p 0).val / 31) i (by omega) (by omega)]

/-- Word `y` of the row trip `k` writes is word `y` of row `chunk` of the output. -/
theorem oRow_emb (k : Fin (k1_t1_loop L).trips) (y : S12400.Idx) :
    (oRowK L k).view.emb y = ix2 (chunk L k) ⟨(y 0).val, (y 0).isLt⟩ := by
  have h2 := k1_off2_eq L k
  show (Rect.unit (s := S125x12400) (k1_off2 L k) S1x12400.size (k1_off2_inb L k)).emb (Shape.reshapeEquiv squeezes_S1x12400_S12400.numel_eq y) = _
  rw [Shape.reshapeEquiv_cons_one]
  funext a
  match a with
  | ⟨0, _⟩ => apply Fin.ext; show k1_off2 L k 0 + 1 * 0 = (chunk L k).val; rfl
  | ⟨1, _⟩ => apply Fin.ext; show k1_off2 L k 1 + 1 * (y 0).val = (y 0).val; rw [h2]; show 0 + 1 * (y 0).val = _; omega

/-- The row written out from a scratch that holds the chunk's node values is the output function's row. -/
theorem out_row_eq (X : Buf (Elt F) (in0Loc d)) (k : Fin (k1_t1_loop L).trips) (fo : Buf (Elt F) (out0Loc d)) (w : S12400.Idx → Elt F .f32)
    (hw : ∀ y : S12400.Idx, w y = KTree.outFlat X (ix2 (chunk L k) ⟨(y 0).val, (y 0).isLt⟩)) :
    ((oRowK L k).view.loc (V d (cV L) (jV L)) ↦[(oRowK L k).view.set]{fullShare} (oRowK L k).view.write (Elt F) fo w Finset.univ : sProp 𝕄)
      = out0Loc d ↦[rowSet (chunk L k)]{fullShare} KTree.outFlat X := by
  rw [pts_oRowK, ← set_oRowK]
  refine pointsTo_congr fun i hi => ?_
  obtain ⟨y, rfl⟩ := View.exists_emb_of_mem_set _ hi
  rw [View.write_emb_of_mem _ _ (Finset.mem_univ y)]
  exact (cast_eq _ _).trans ((hw y).trans (congrArg (KTree.outFlat X) (oRow_emb L k y).symm))

/-- The same, for the row written as one listed piece. -/
theorem out_row_eqW (X : Buf (Elt F) (in0Loc d)) (k : Fin (k1_t1_loop L).trips) (fo : Buf (Elt F) (out0Loc d)) (w : S12400.Idx → Elt F .f32)
    (hw : ∀ y : S12400.Idx, w y = KTree.outFlat X (ix2 (chunk L k) ⟨(y 0).val, (y 0).isLt⟩)) :
    ((oRowK L k).view.loc (V d (cV L) (jV L)) ↦[(oRowK L k).view.set]{fullShare}
        (oRowK L k).view.writes (Elt F) fo [⟨Rect.whole S12400, w⟩] : sProp 𝕄)
      = out0Loc d ↦[rowSet (chunk L k)]{fullShare} KTree.outFlat X := by
  rw [pts_oRowK, ← set_oRowK]
  refine pointsTo_congr fun i hi => ?_
  obtain ⟨y, rfl⟩ := View.exists_emb_of_mem_set _ hi
  have e : ((oRowK L k).view.slice (Rect.whole S12400)).emb y = (oRowK L k).view.emb y := by
    show (oRowK L k).view.emb ((Rect.whole S12400).emb y) = _
    rw [Rect.emb_whole_apply]
  have h1 := View.write_emb_of_mem (v := (oRowK L k).view.slice (Rect.whole S12400)) (Val := Elt F) fo w (M := Finset.univ) (x := y) (Finset.mem_univ y)
  rw [e] at h1
  refine h1.trans ((cast_eq _ _).trans ?_)
  exact (hw y).trans (congrArg (KTree.outFlat X) (oRow_emb L k y).symm)

/-! ## The invariants -/

/-- Between groups: the fetched chunk unchanged, the node scratch right on the words of the groups done. -/
def inv2v (fA : Buf (Elt F) ((V d (cV L) (jV L)).loc cc1_scratch0)) (g : ℕ) (_ : Unit) : sProp 𝕄 :=
  iprop(((sA1 : Memref sig .scVector .vmem S51200 .f32).view.loc (V d (cV L) (jV L)) ↦{fullShare} fA)
    ∗ ∃ fB, ((sB1 : Memref sig .scVector .vmem S12400 .f32).view.loc (V d (cV L) (jV L)) ↦{fullShare} fB)
        ∗ ⌜∀ p : S12400.Idx, (p 0).val < 496 * g → fB p = tgtB fA p⌝)

theorem group_invV (fA : Buf (Elt F) ((V d (cV L) (jV L)).loc cc1_scratch0)) (g : Fin k1_t2_loop.trips) (acc : Unit) :
    inv2v (F := F) d L fA g.val acc ⊢ wp frame (wpE (defs₀ (F := F)) 𝒱₀ (V d (cV L) (jV L)) none) Set.univ
      (k1_t2_body L in0V (Memref.isWhole_whole _) out0V (Memref.isWhole_whole _) sA1 (Memref.isWhole_whole _) sB1 (Memref.isWhole_whole _)
        cc1_scoped0 cc1_scoped1 cc1_scoped2 cc1_scoped3 io g acc)
      (inv2v (F := F) d L fA (g.val + 1)) := by
  unfold inv2v
  iintro ⟨HA, %fB, HB, %hI⟩
  ihave H := (group_val d L g fA fB) $$ [HA HB]
  · isplitl [HB]
    · iexact HB
    · iexact HA
  iapply (wp_wand_r frame _ _)
  isplitl [H]
  · iexact H
  iintro %_ ⟨HA, %fB', HB, %hG⟩
  isplitl [HA]
  · iexact HA
  iexists fB'
  isplitl [HB]
  · iexact HB
  ipureintro
  exact good_inv fA g fB fB' hG hI

/-- A row of the tile before trip `k`: done if its trip is past, at some contents otherwise. -/
def rowΦ (X : Buf (Elt F) (in0Loc d)) (k : ℕ) (j : Fin (k1_t1_loop L).trips) : sProp 𝕄 :=
  if j.val < k then out0Loc d ↦[rowSet (chunk L j)]{fullShare} KTree.outFlat X
  else iprop(∃ f, out0Loc d ↦[rowSet (chunk L j)]{fullShare} f)

theorem rowΦ_zero (X : Buf (Elt F) (in0Loc d)) :
    (bigSep Finset.univ fun j : Fin (k1_t1_loop L).trips => iprop(∃ f, out0Loc d ↦[rowSet (chunk L j)]{fullShare} f) : sProp 𝕄)
      = bigSep Finset.univ (rowΦ (F := F) d L X 0) :=
  bigSep_congr fun j _ => (if_neg (Nat.not_lt_zero _)).symm
theorem rowΦ_all (X : Buf (Elt F) (in0Loc d)) :
    (bigSep Finset.univ (rowΦ (F := F) d L X (k1_t1_loop L).trips) : sProp 𝕄)
      = bigSep Finset.univ fun j : Fin (k1_t1_loop L).trips => out0Loc d ↦[rowSet (chunk L j)]{fullShare} KTree.outFlat X :=
  bigSep_congr fun j _ => if_pos j.isLt
theorem rowΦ_open (X : Buf (Elt F) (in0Loc d)) (k : Fin (k1_t1_loop L).trips) :
    (bigSep Finset.univ (rowΦ (F := F) d L X k.val) : sProp 𝕄)
      = iprop((∃ f, out0Loc d ↦[rowSet (chunk L k)]{fullShare} f) ∗ bigSep (Finset.univ.erase k) (rowΦ (F := F) d L X k.val)) := by
  rw [SparseCore.bigSep_erase' (Finset.mem_univ k)]
  congr 1
  exact if_neg (Nat.lt_irrefl _)
theorem rowΦ_close (X : Buf (Elt F) (in0Loc d)) (k : Fin (k1_t1_loop L).trips) :
    (bigSep Finset.univ (rowΦ (F := F) d L X (k.val + 1)) : sProp 𝕄)
      = iprop((out0Loc d ↦[rowSet (chunk L k)]{fullShare} KTree.outFlat X) ∗ bigSep (Finset.univ.erase k) (rowΦ (F := F) d L X k.val)) := by
  rw [SparseCore.bigSep_erase' (Finset.mem_univ k)]
  congr 1
  · exact if_pos (Nat.lt_succ_self _)
  · refine bigSep_congr fun j hj => ?_
    have hne : j.val ≠ k.val := fun e => (Finset.mem_erase.mp hj).1 (Fin.ext e)
    unfold rowΦ
    by_cases h : j.val < k.val
    · rw [if_pos h, if_pos (by omega)]
    · rw [if_neg h, if_neg (by omega)]

/-- Between chunks. -/
def inv1v (q : PosShare TreeShare) (X : Buf (Elt F) (in0Loc d)) (O : CellTallies nD τ sig (HIx 2)) (W : Waits sig (HIx 2)) (k : ℕ) (_ : Unit) : sProp 𝕄 :=
  iprop(Transfers.MayWaits (V d (cV L) (jV L)) (none : HIx 2) O
    ∗ ((in0V : Memref sig .scVector .hbm S6400000 .f32).view.loc (V d (cV L) (jV L)) ↦{q} X)
    ∗ bigSep Finset.univ (rowΦ (F := F) d L X k)
    ∗ (∃ fA, (sA1 : Memref sig .scVector .vmem S51200 .f32).view.loc (V d (cV L) (jV L)) ↦{fullShare} fA)
    ∗ (∃ fB, (sB1 : Memref sig .scVector .vmem S12400 .f32).view.loc (V d (cV L) (jV L)) ↦{fullShare} fB)
    ∗ semVal ((V d (cV L) (jV L)), SemLoc.dma cc1_scoped0.sem) 0 ∗ semVal ((V d (cV L) (jV L)), SemLoc.dma cc1_scoped1.sem) 0
    ∗ ∃ W', ⌜∀ p ∈ W', p ∈ W ∨ p.2 = none⌝ ∗ owes (V d (cV L) (jV L)) O W')

end Tile

end Cert.Proof.KB.Body

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Body

variable {F : FTy → Type} [FloatOps F]

local notation "𝕄" => MT nD τ sig (HIx 2) (Elt F) ℕ UU ℕ

theorem body_k1_trips2_eq : k1_t2_loop.trips = 25 := by decide

set_option maxHeartbeats 4000000 in
/-- The task of the tile at grid coordinates `L`: from a read share of the flat input and the tile's output rows, it
    ends with every one of those rows at the output function of the input. -/
theorem tile_body1 (d : Dev nD) (L : grid1.Coords) (hF : (K (F := F)).Facts) (q : PosShare TreeShare) (X : Buf (Elt F) (in0Loc d))
    (O : CellTallies nD τ sig (HIx 2)) (W : Waits sig (HIx 2)) (hO : ∀ g, O g none = 0) :
    (iprop(levAts (K (F := F)).L (K (F := F)).lev
        ∗ (in0Loc d ↦{q} X)
        ∗ (bigSep Finset.univ fun k : Fin (k1_t1_loop L).trips => iprop(∃ f, out0Loc d ↦[rowSet (chunk L k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_tree_sc L in0V (Memref.isWhole_whole _) out0V (Memref.isWhole_whole _) sA1 (Memref.isWhole_whole _) sB1 (Memref.isWhole_whole _) cc1_scoped0 cc1_scoped1 cc1_scoped2 cc1_scoped3)
          fun _ => iprop((in0Loc d ↦{q} X)
            ∗ (bigSep Finset.univ fun k : Fin (k1_t1_loop L).trips => out0Loc d ↦[rowSet (chunk L k)]{fullShare} (KTree.outFlat X))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_tree_sc_eq_skeleton]; unfold cc1_tree_sc_skel
  rw [(K (F := F)).scopedBufs_V hF d (cV L) (jV L), SparseCore.Cfg.scopedSems0_V (Val := Elt F) d (cV L) (jV L), ownSems0_V, ownBufs_V]
  iintro ⟨#Hlv, HX, Hrows, ⟨⟨%fA, HA⟩, ⟨%fB, HB⟩, Hbufs⟩, ⟨Hs0, Hs1, Hsems⟩, HO⟩
  ihave Hmw := ((K (F := F)).mayWaits_none (thr := (V d (cV L) (jV L))) hO) $$ Hlv
  ihave HX' := (Entails.of_eq (pts_in0 (F := F) d L q _).symm) $$ HX
  ihave HA' := (Entails.of_eq (pts_sA (F := F) d L _).symm) $$ HA
  ihave HB' := (Entails.of_eq (pts_sB (F := F) d L _).symm) $$ HB
  ihave Hrows' := (Entails.of_eq (rowΦ_zero (F := F) d L X)) $$ Hrows
  sl_for (inv1v d L q X O W) $$ [Hmw HX' Hrows' HA' HB' Hs0 Hs1 HO]
  case region =>
    intro k _
    unfold inv1v
    iintro ⟨Hmw, HX, Hrows, ⟨%fA, HA⟩, ⟨%fB, HB⟩, Hs0, Hs1, %W', %hW', HO⟩
    ihave Hr := (Entails.of_eq (rowΦ_open (F := F) d L X k)) $$ Hrows
    icases Hr with ⟨⟨%fo, Ho⟩, Hrest⟩
    ihave Ho' := (Entails.of_eq (pts_oRowK (F := F) d L k fo).symm) $$ Ho
    -- the fetch and its wait: the first scratch holds the chunk
    sl_exec
    ihave HA2 := (Entails.of_eq (congrArg (fun f => ((sA1 : Memref sig .scVector .vmem S51200 .f32).view.loc (V d (cV L) (jV L)) ↦{fullShare} f : sProp 𝕄))
      (View.write_whole_univ cc1_scratch0 fA _))) $$ HA
    -- the groups
    sl_for (inv2v d L ((aSl L k).view.read (Elt F) X)) $$ [HA2 HB]
    case region =>
      intro g acc
      exact group_invV d L _ g acc
    · unfold inv2v
      isplitl [HA2]
      · iexact HA2
      · iexists _; isplitl [HB]
        · iexact HB
        · ipureintro; intro p hp; exact absurd hp (by omega)
    iintro %_ HI
    unfold inv2v
    icases HI with ⟨HA, %fB2, HB, %hB⟩
    have hB' : ∀ y : S12400.Idx, fB2 y = KTree.outFlat X (ix2 (chunk L k) ⟨(y 0).val, (y 0).isLt⟩) := fun y =>
      (hB y (by have hy : (y 0).val < 12400 := (y 0).isLt; have e : Scf.trips k1_t2_loop.lb k1_t2_loop.ub k1_t2_loop.st = 25 := body_k1_trips2_eq; rw [e]; omega)).trans (tgtB_chunk d L X k y)
    -- the write-out and its wait
    sl_exec
    have hB'' : ∀ y : S12400.Idx, tile_body1.sl.dma0_1 d L fB2 y = KTree.outFlat X (ix2 (chunk L k) ⟨(y 0).val, (y 0).isLt⟩) := fun y =>
      ((View.read_apply _ _).trans (cast_eq _ _)).trans (hB' y)
    ihave Ho2 := (Entails.of_eq (out_row_eqW (F := F) d L X k fo (tile_body1.sl.dma0_1 d L fB2) hB'')) $$ Ho'
    sl_step
    isplitl [Hmw]; · iexact Hmw
    isplitl [HX]; · iexact HX
    isplitl [Ho2 Hrest]
    · iapply (Entails.of_eq (rowΦ_close (F := F) d L X k).symm)
      isplitl [Ho2]
      · iexact Ho2
      · iexact Hrest
    isplitl [HA]; · iexists _; iexact HA
    isplitl [HB]; · iexists _; iexact HB
    isplitl [Hs0]; · iexact Hs0
    isplitl [Hs1]; · iexact Hs1
    iexists _; isplitr
    rotate_left
    · iexact HO
    · ipureintro; intro p hp
      rcases Finset.mem_insert.mp hp with hp | hp
      · exact .inr (by subst hp; rfl)
      rcases Finset.mem_insert.mp hp with hp | hp
      · exact .inr (by subst hp; rfl)
      · exact hW' p hp
  · unfold inv1v
    isplitr; · iexact Hmw
    isplitl [HX']; · iexact HX'
    isplitl [Hrows']; · iexact Hrows'
    isplitl [HA']; · iexists _; iexact HA'
    isplitl [HB']; · iexists _; iexact HB'
    isplitl [Hs0]; · iexact Hs0
    isplitl [Hs1]; · iexact Hs1
    iexists W; isplitr
    · ipureintro; exact fun p hp => .inl hp
    · iexact HO
  iintro %_ HI
  -- the second chunk loop has no trip
  sl_for (fun (_ : ℕ) => inv1v d L q X O W (k1_t1_loop L).trips) $$ [HI]
  case region =>
    intro k _
    exact (Nat.not_lt_zero _ (lt_of_lt_of_le k.isLt (k1_t3_abs L).2.1)).elim
  · iexact HI
  iintro %_ HI
  unfold inv1v
  icases HI with ⟨-, HX, Hrows, ⟨%fA, HA⟩, ⟨%fB, HB⟩, Hs0, Hs1, %W', %hW', HO⟩
  sl_step
  isplitl [HX]; · iapply (Entails.of_eq (pts_in0 (F := F) d L q _)); iexact HX
  isplitl [Hrows]; · iapply (Entails.of_eq (rowΦ_all (F := F) d L X)); iexact Hrows
  isplitl [HA HB Hbufs]
  · isplitl [HA]; · iexists _; iexact HA
    isplitl [HB]; · iexists _; iexact HB
    iexact Hbufs
  isplitl [Hs0 Hs1 Hsems]
  · isplitl [Hs0]; · iexact Hs0
    isplitl [Hs1]; · iexact Hs1
    iexact Hsems
  iexists W'; isplitr
  · ipureintro; exact hW'
  · iexact HO

end Cert.Proof.KB

end
-- ==== Proof.KBBody30.lean ====
/-
  One tile's task of the second tree launch: the names of its thread, its chunks, the slices its copies
  move, and the respellings between the arrays as the TensorCore names them and as the tile's memrefs
  address them.
-/
import proofs.«209939_g34969623724736_cont_8to1_b_5_19_alg».proof.Proof.KBBase
import proofs.«209939_g34969623724736_cont_8to1_b_5_19_alg».proof.Proof.KBTile
import proofs.«209939_g34969623724736_cont_8to1_b_5_19_alg».proof.Proof.Gen.Kernel.Skeleton
import Idealize.ShloMosaic.Lib.Tactic

noncomputable section

namespace Cert.Proof.KB.Body3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The tile and its chunks -/

/-- The chunk of trip `k` in closed form: the tile's worker number plus thirty-two per trip. -/
theorem chunk_val (L : grid3.Coords) (k : Fin (k3_t1_loop L).trips) :
    (chunk3 L k).val = 2 * (L 1).val + (L 0).val + 32 * k.val := by
  show k3_off2 L k 0 = _
  rw [k3_off2_eq]; rfl

/-- The slice of the flat input that trip `k` fetches, and the output row it writes, as the program slices them. -/
abbrev aSl (L : grid3.Coords) (k : Fin (k3_t1_loop L).trips) : Memref sig .scVector .hbm S51200 .f32 :=
  (in1V : Memref sig .scVector .hbm S6400000 .f32).slice (Rect.unit (s := S6400000) (k3_off1 L k) S51200.size (k3_off1_inb L k)) (fun _ => rfl)
abbrev oRowK (L : grid3.Coords) (k : Fin (k3_t1_loop L).trips) : Memref sig .scVector .hbm S12400 .f32 :=
  ((out1V : Memref sig .scVector .hbm S125x12400 .f32).slice (Rect.unit (s := S125x12400) (k3_off2 L k) S1x12400.size (k3_off2_inb L k)) (fun _ => rfl)).squeeze S12400 squeezes_S1x12400_S12400

theorem rowK_eq (L : grid3.Coords) (k : Fin (k3_t1_loop L).trips) :
    Rect.unit (s := S125x12400) (k3_off2 L k) S1x12400.size (k3_off2_inb L k) = row (chunk3 L k) := by
  unfold row Rect.part Rect.block
  congr 1 <;> funext a
  · match a with
    | 0 => simp [Shape.partIx, Shape.partSize, chunk3]
    | 1 => rw [k3_off2_eq]; simp [Shape.partIx, Shape.partSize]
  · match a with
    | 0 => simp [Shape.partSize]
    | 1 => simp [Shape.partSize]

theorem set_oRowK (L : grid3.Coords) (k : Fin (k3_t1_loop L).trips) : (oRowK L k).view.set = rowSet (chunk3 L k) := by
  show (((out1V : Memref sig .scVector .hbm S125x12400 .f32).view.slice (Rect.unit (s := S125x12400) (k3_off2 L k) S1x12400.size (k3_off2_inb L k))).reshape S12400 squeezes_S1x12400_S12400.numel_eq).set
    = ((out1V : Memref sig .scVector .hbm S125x12400 .f32).view.slice (row (chunk3 L k))).set
  rw [View.set_reshape]
  exact rowK_eq L k ▸ rfl

section Pts
variable (d : Dev nD) (L : grid3.Coords)

theorem pts_oRowK (k : Fin (k3_t1_loop L).trips) (f : Buf (Elt F) (out1Loc d)) :
    ((oRowK L k).view.loc (V d (cV3 L) (jV3 L)) ↦[(oRowK L k).view.set]{fullShare} f : sProp 𝕄) = out1Loc d ↦[rowSet (chunk3 L k)]{fullShare} f := by
  rw [set_oRowK]
theorem pts_in0 (q : PosShare TreeShare) (f : Buf (Elt F) (in1Loc d)) :
    ((in1V : Memref sig .scVector .hbm S6400000 .f32).view.loc (V d (cV3 L) (jV3 L)) ↦{q} f : sProp 𝕄) = in1Loc d ↦{q} f := by
  simp only [Memref.view_whole, View.set_whole]
theorem pts_sA (f : Buf (Elt F) ((V d (cV3 L) (jV3 L)).loc cc3_scratch0)) :
    ((sA3 : Memref sig .scVector .vmem S51200 .f32).view.loc (V d (cV3 L) (jV3 L)) ↦{fullShare} f : sProp 𝕄) = (V d (cV3 L) (jV3 L)).loc cc3_scratch0 ↦{fullShare} f := rfl
theorem pts_sB (f : Buf (Elt F) ((V d (cV3 L) (jV3 L)).loc cc3_scratch1)) :
    ((sB3 : Memref sig .scVector .vmem S12400 .f32).view.loc (V d (cV3 L) (jV3 L)) ↦{fullShare} f : sProp 𝕄) = (V d (cV3 L) (jV3 L)).loc cc3_scratch1 ↦{fullShare} f := rfl

abbrev c0cell : GSem nD τ sig := (V d (cV3 L) (jV3 L), .dma cc3_scoped0.sem)
abbrev c1cell : GSem nD τ sig := (V d (cV3 L) (jV3 L), .dma cc3_scoped1.sem)

theorem ownSems0_V :
    (ownSems0 (V d (cV3 L) (jV3 L)) : sProp 𝕄)
      = iprop(semVal (c0cell d L) 0 ∗ semVal (c1cell d L) 0
          ∗ bigSep (((ownCells (V d (cV3 L) (jV3 L))).erase (c0cell d L)).erase (c1cell d L)) fun g => semVal g 0) := by
  unfold SparseCore.Cfg.ownSems0
  rw [SparseCore.bigSep_erase' ((mem_ownCells (g := c0cell d L)).mpr ⟨rfl, by
      show (SemLoc.dma cc3_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc3_scoped1.sem : SemLoc sig).isScoped .scVector = true; decide⟩⟩)]

/-- The two scratches are among the subcore's own buffers. -/
theorem ownBufs_V :
    (ownBufs (V d (cV3 L) (jV3 L)) : sProp 𝕄)
      = iprop((∃ f, (V d (cV3 L) (jV3 L)).loc cc3_scratch0 ↦{fullShare} f) ∗ (∃ f, (V d (cV3 L) (jV3 L)).loc cc3_scratch1 ↦{fullShare} f)
          ∗ bigSep (((ownRefs (τ := τ) (.scVector (cV3 L) (jV3 L))).erase ((Proc.scVector (cV3 L) (jV3 L)).devRef cc3_scratch0)).erase
              ((Proc.scVector (cV3 L) (jV3 L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV3 L) (jV3 L))
    (b := (Proc.scVector (cV3 L) (jV3 L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV3 L) (jV3 L)) (b := (Proc.scVector (cV3 L) (jV3 L)).devRef cc3_scratch1) rfl⟩)]

end Pts

end Cert.Proof.KB.Body3

end
-- ==== Proof.KBBody3Ix.lean ====
/-
  The index vectors of one group of sixteen rows: lane `x` of group `g` is local row `16 g + x`; its
  projection `i` sits at word `(16 g + x) * 128 + i` of the fetched chunk and its node `n` at word
  `(16 g + x) * 31 + n` of the node scratch.  None of these wraps in 32 bits, and each is inside its
  scratch: the side conditions of the fifteen gathers and the thirty-one scatters.
-/
import proofs.«209939_g34969623724736_cont_8to1_b_5_19_alg».proof.Proof.KBBody30

noncomputable section

namespace Cert.Proof.KB.Body3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- The lanes' own numbers. -/
local notation "io" => (iota Kind.scVector S16 32 [0] iota_S16_d0_w32_scVector : IVec S16 32)

theorem trips2_le (g : Fin k3_t2_loop.trips) : g.val < 25 := lt_of_lt_of_le g.isLt k3_t2_abs.2.1

theorem lane_lt (x : S16.Idx) : (x 0).val < 16 := (x 0).isLt

/-- Lane `x` of group `g` is row `16 g + x`. -/
theorem rowv_toNat (g : Fin k3_t2_loop.trips) (x : S16.Idx) :
    (k3_pay33 io 0#32 1#32 g x).toNat = 16 * g.val + (x 0).val := by
  have hg := trips2_le g
  have hx := lane_lt x
  simp only [k3_pay33, addi, muli, broadcast, IntOp.addi, IntOp.muli, Scalar.muli, Scf.iv, iota, List.foldl,
    BitVec.toNat_add, BitVec.toNat_mul, BitVec.toNat_ofNat]
  omega

theorem aBase_toNat (g : Fin k3_t2_loop.trips) (x : S16.Idx) :
    (k3_pay34 io 0#32 1#32 g x).toNat = (16 * g.val + (x 0).val) * 128 := by
  have hg := trips2_le g
  have hx := lane_lt x
  have h := rowv_toNat g x
  show (IntOp.muli (k3_pay33 io 0#32 1#32 g x) (128#32)).toNat = _
  simp only [IntOp.muli, BitVec.toNat_mul, BitVec.toNat_ofNat, h]
  omega

theorem bBase_toNat (g : Fin k3_t2_loop.trips) (x : S16.Idx) :
    (k3_pay35 io 0#32 1#32 g x).toNat = (16 * g.val + (x 0).val) * 31 := by
  have hg := trips2_le g
  have hx := lane_lt x
  have h := rowv_toNat g x
  show (IntOp.muli (k3_pay33 io 0#32 1#32 g x) (31#32)).toNat = _
  simp only [IntOp.muli, BitVec.toNat_mul, BitVec.toNat_ofNat, h]
  omega

/-- Projection `i`'s word. -/
theorem aIdx_toNat (g : Fin k3_t2_loop.trips) (i : ℕ) (hi : i < 15) (x : S16.Idx) :
    (addi (k3_pay34 io 0#32 1#32 g) (broadcast S16 (BitVec.ofNat 32 i)) x).toNat = (16 * g.val + (x 0).val) * 128 + i := by
  have hg := trips2_le g
  have hx := lane_lt x
  have h := aBase_toNat g x
  show (IntOp.addi (k3_pay34 io 0#32 1#32 g x) (BitVec.ofNat 32 i)).toNat = _
  simp only [IntOp.addi, BitVec.toNat_add, BitVec.toNat_ofNat, h]
  omega

/-- Node `n`'s word. -/
theorem bIdx_toNat (g : Fin k3_t2_loop.trips) (n : ℕ) (hn : n < 31) (x : S16.Idx) :
    (addi (k3_pay35 io 0#32 1#32 g) (broadcast S16 (BitVec.ofNat 32 n)) x).toNat = (16 * g.val + (x 0).val) * 31 + n := by
  have hg := trips2_le g
  have hx := lane_lt x
  have h := bBase_toNat g x
  show (IntOp.addi (k3_pay35 io 0#32 1#32 g x) (BitVec.ofNat 32 n)).toNat = _
  simp only [IntOp.addi, BitVec.toNat_add, BitVec.toNat_ofNat, h]
  omega

theorem inA (v : IVec S16 32) (h : ∀ x, (v x).toNat < 51200) :
    ∀ a x, ((![v] : Fin 1 → IVec S16 32) a x).toNat < S51200.size a := by
  intro a x; obtain rfl : a = 0 := Subsingleton.elim _ _; exact h x
theorem inB (v : IVec S16 32) (h : ∀ x, (v x).toNat < 12400) :
    ∀ a x, ((![v] : Fin 1 → IVec S16 32) a x).toNat < S12400.size a := by
  intro a x; obtain rfl : a = 0 := Subsingleton.elim _ _; exact h x

theorem aIdx_lt (g : Fin k3_t2_loop.trips) (i : ℕ) (hi : i < 15) (x : S16.Idx) :
    (addi (k3_pay34 io 0#32 1#32 g) (broadcast S16 (BitVec.ofNat 32 i)) x).toNat < 51200 := by
  have hg := trips2_le g
  have hx := lane_lt x
  rw [aIdx_toNat g i hi x]; omega
theorem bIdx_lt (g : Fin k3_t2_loop.trips) (n : ℕ) (hn : n < 31) (x : S16.Idx) :
    (addi (k3_pay35 io 0#32 1#32 g) (broadcast S16 (BitVec.ofNat 32 n)) x).toNat < 12400 := by
  have hg := trips2_le g
  have hx := lane_lt x
  rw [bIdx_toNat g n hn x]; omega
theorem bBase_lt (g : Fin k3_t2_loop.trips) (x : S16.Idx) : (k3_pay35 io 0#32 1#32 g x).toNat < 12400 := by
  have hg := trips2_le g
  have hx := lane_lt x
  rw [bBase_toNat g x]; omega

/-! ## The side conditions, one per gather and per scatter -/

section Checks
variable (g : Fin k3_t2_loop.trips)
theorem chk1_ok : k3_chk1 (k3_pay36 io 0#32 1#32 g) := inA _ (aIdx_lt g 0 (by decide))
theorem chk2_ok : k3_chk2 (k3_pay37 io 0#32 1#32 g) := inA _ (aIdx_lt g 1 (by decide))
theorem chk3_ok : k3_chk3 (k3_pay38 io 0#32 1#32 g) := inA _ (aIdx_lt g 2 (by decide))
theorem chk4_ok : k3_chk4 (k3_pay39 io 0#32 1#32 g) := inA _ (aIdx_lt g 3 (by decide))
theorem chk5_ok : k3_chk5 (k3_pay40 io 0#32 1#32 g) := inA _ (aIdx_lt g 4 (by decide))
theorem chk6_ok : k3_chk6 (k3_pay41 io 0#32 1#32 g) := inA _ (aIdx_lt g 5 (by decide))
theorem chk7_ok : k3_chk7 (k3_pay42 io 0#32 1#32 g) := inA _ (aIdx_lt g 6 (by decide))
theorem chk8_ok : k3_chk8 (k3_pay43 io 0#32 1#32 g) := inA _ (aIdx_lt g 7 (by decide))
theorem chk9_ok : k3_chk9 (k3_pay44 io 0#32 1#32 g) := inA _ (aIdx_lt g 8 (by decide))
theorem chk10_ok : k3_chk10 (k3_pay45 io 0#32 1#32 g) := inA _ (aIdx_lt g 9 (by decide))
theorem chk11_ok : k3_chk11 (k3_pay46 (k3_pay34 io 0#32 1#32 g)) := inA _ (aIdx_lt g 10 (by decide))
theorem chk12_ok : k3_chk12 (k3_pay47 (k3_pay34 io 0#32 1#32 g)) := inA _ (aIdx_lt g 11 (by decide))
theorem chk13_ok : k3_chk13 (k3_pay48 (k3_pay34 io 0#32 1#32 g)) := inA _ (aIdx_lt g 12 (by decide))
theorem chk14_ok : k3_chk14 (k3_pay49 (k3_pay34 io 0#32 1#32 g)) := inA _ (aIdx_lt g 13 (by decide))
theorem chk15_ok : k3_chk15 (k3_pay50 (k3_pay34 io 0#32 1#32 g)) := inA _ (aIdx_lt g 14 (by decide))
theorem chk16_ok : k3_chk16 (k3_pay35 io 0#32 1#32 g) := inB _ (bBase_lt g)
theorem chk17_ok : k3_chk17 (k3_pay82 (k3_pay35 io 0#32 1#32 g)) := inB _ (bIdx_lt g 1 (by decide))
theorem chk18_ok : k3_chk18 (k3_pay84 (k3_pay35 io 0#32 1#32 g)) := inB _ (bIdx_lt g 2 (by decide))
theorem chk19_ok : k3_chk19 (k3_pay86 (k3_pay35 io 0#32 1#32 g)) := inB _ (bIdx_lt g 3 (by decide))
theorem chk20_ok : k3_chk20 (k3_pay88 (k3_pay35 io 0#32 1#32 g)) := inB _ (bIdx_lt g 4 (by decide))
theorem chk21_ok : k3_chk21 (k3_pay90 (k3_pay35 io 0#32 1#32 g)) := inB _ (bIdx_lt g 5 (by decide))
theorem chk22_ok : k3_chk22 (k3_pay92 (k3_pay35 io 0#32 1#32 g)) := inB _ (bIdx_lt g 6 (by decide))
theorem chk23_ok : k3_chk23 (k3_pay94 (k3_pay35 io 0#32 1#32 g)) := inB _ (bIdx_lt g 7 (by decide))
theorem chk24_ok : k3_chk24 (k3_pay96 (k3_pay35 io 0#32 1#32 g)) := inB _ (bIdx_lt g 8 (by decide))
theorem chk25_ok : k3_chk25 (k3_pay98 (k3_pay35 io 0#32 1#32 g)) := inB _ (bIdx_lt g 9 (by decide))
theorem chk26_ok : k3_chk26 (k3_pay100 (k3_pay35 io 0#32 1#32 g)) := inB _ (bIdx_lt g 10 (by decide))
theorem chk27_ok : k3_chk27 (k3_pay102 (k3_pay35 io 0#32 1#32 g)) := inB _ (bIdx_lt g 11 (by decide))
theorem chk28_ok : k3_chk28 (k3_pay104 (k3_pay35 io 0#32 1#32 g)) := inB _ (bIdx_lt g 12 (by decide))
theorem chk29_ok : k3_chk29 (k3_pay106 (k3_pay35 io 0#32 1#32 g)) := inB _ (bIdx_lt g 13 (by decide))
theorem chk30_ok : k3_chk30 (k3_pay108 (k3_pay35 io 0#32 1#32 g)) := inB _ (bIdx_lt g 14 (by decide))
theorem chk31_ok : k3_chk31 (k3_pay110 (k3_pay35 io 0#32 1#32 g)) := inB _ (bIdx_lt g 15 (by decide))
theorem chk32_ok : k3_chk32 (k3_pay112 (k3_pay35 io 0#32 1#32 g)) := inB _ (bIdx_lt g 16 (by decide))
theorem chk33_ok : k3_chk33 (k3_pay114 (k3_pay35 io 0#32 1#32 g)) := inB _ (bIdx_lt g 17 (by decide))
theorem chk34_ok : k3_chk34 (k3_pay116 (k3_pay35 io 0#32 1#32 g)) := inB _ (bIdx_lt g 18 (by decide))
theorem chk35_ok : k3_chk35 (k3_pay118 (k3_pay35 io 0#32 1#32 g)) := inB _ (bIdx_lt g 19 (by decide))
theorem chk36_ok : k3_chk36 (k3_pay120 (k3_pay35 io 0#32 1#32 g)) := inB _ (bIdx_lt g 20 (by decide))
theorem chk37_ok : k3_chk37 (k3_pay122 (k3_pay35 io 0#32 1#32 g)) := inB _ (bIdx_lt g 21 (by decide))
theorem chk38_ok : k3_chk38 (k3_pay124 (k3_pay35 io 0#32 1#32 g)) := inB _ (bIdx_lt g 22 (by decide))
theorem chk39_ok : k3_chk39 (k3_pay126 (k3_pay35 io 0#32 1#32 g)) := inB _ (bIdx_lt g 23 (by decide))
theorem chk40_ok : k3_chk40 (k3_pay3 (k3_pay35 io 0#32 1#32 g)) := inB _ (bIdx_lt g 24 (by decide))
theorem chk41_ok : k3_chk41 (k3_pay5 (k3_pay35 io 0#32 1#32 g)) := inB _ (bIdx_lt g 25 (by decide))
theorem chk42_ok : k3_chk42 (k3_pay7 (k3_pay35 io 0#32 1#32 g)) := inB _ (bIdx_lt g 26 (by decide))
theorem chk43_ok : k3_chk43 (k3_pay9 (k3_pay35 io 0#32 1#32 g)) := inB _ (bIdx_lt g 27 (by decide))
theorem chk44_ok : k3_chk44 (k3_pay11 (k3_pay35 io 0#32 1#32 g)) := inB _ (bIdx_lt g 28 (by decide))
theorem chk45_ok : k3_chk45 (k3_pay13 (k3_pay35 io 0#32 1#32 g)) := inB _ (bIdx_lt g 29 (by decide))
theorem chk46_ok : k3_chk46 (k3_pay15 (k3_pay35 io 0#32 1#32 g)) := inB _ (bIdx_lt g 30 (by decide))
end Checks

end Cert.Proof.KB.Body3

end
-- ==== Proof.KBBody3St.lean ====
/-
  The two indexed operations of a tile on its own scratches, as steps of a run that holds the two
  scratches whole: a gather out of the fetched chunk reads `loadIdx` of its contents; a scatter into
  the node scratch leaves `storeIdx` of its contents.
-/
import proofs.«209939_g34969623724736_cont_8to1_b_5_19_alg».proof.Proof.KBBody3Ix

noncomputable section

namespace Cert.Proof.KB.Body3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section StepsV
variable (d : Dev nD) (L : grid3.Coords)

/-- The fetched chunk and the node scratch of the tile at `L`, whole, at given contents. -/
abbrev ptA (fA : Buf (Elt F) ((V d (cV3 L) (jV3 L)).loc cc3_scratch0)) : sProp 𝕄 := (V d (cV3 L) (jV3 L)).loc cc3_scratch0 ↦{fullShare} fA
abbrev ptB (fB : Buf (Elt F) ((V d (cV3 L) (jV3 L)).loc cc3_scratch1)) : sProp 𝕄 := (V d (cV3 L) (jV3 L)).loc cc3_scratch1 ↦{fullShare} fB

/-- A gather out of the fetched chunk. -/
theorem ldA_step {α : Type} {Q : α → sProp 𝕄} (fA : Buf (Elt F) ((V d (cV3 L) (jV3 L)).loc cc3_scratch0)) (idx : IVec S16 32)
    (h : ∀ a x, ((![idx] : Fin 1 → IVec S16 32) a x).toNat < S51200.size a) (hl : (sA3 : Memref sig .scVector .vmem S51200 .f32).view.Loads)
    (k : Vec F S16 .f32 → Prog (TpuEff nD τ sig (Elt F) Λ₀ (V d (cV3 L) (jV3 L)).2) α) (R : sProp 𝕄)
    (hk : iprop(R ∗ ptA d L fA) ⊢ wp frame (wpE (defs₀ (F := F)) 𝒱₀ (V d (cV3 L) (jV3 L)) none) Set.univ (k (loadIdx fA ![idx] h)) Q) :
    iprop(R ∗ ptA d L fA) ⊢ wp frame (wpE (defs₀ (F := F)) 𝒱₀ (V d (cV3 L) (jV3 L)) none) Set.univ
      (SparseCore.vectorLoadIdx (sA3 : Memref sig .scVector .vmem S51200 .f32) ![idx] h hl >>= k) Q := by
  iintro ⟨HR, HA⟩
  iapply (SparseCore.wp_vectorLoadIdx 𝒱₀ (V d (cV3 L) (jV3 L)) none Set.univ (base := (sA3 : Memref sig .scVector .vmem S51200 .f32)) (S := Finset.univ) (q := fullShare) (Finset.subset_univ _)) $$ HA
  iintro HA
  rw [show ((sA3 : Memref sig .scVector .vmem S51200 .f32).access (.whole S51200)).read (Elt F) fA = fA from Memref.read_access_whole (Elt F) cc3_scratch0 fA]
  iapply hk
  isplitl [HR]
  · iexact HR
  · iexact HA

/-- A scatter into the node scratch. -/
theorem stB_step {α : Type} {Q : α → sProp 𝕄} (fB : Buf (Elt F) ((V d (cV3 L) (jV3 L)).loc cc3_scratch1)) (idx : IVec S16 32) (v : Vec F S16 .f32)
    (mask : IVec S16 1) (add : Bool)
    (h : ∀ a x, ((![idx] : Fin 1 → IVec S16 32) a x).toNat < S12400.size a)
    (hs : ((sB3 : Memref sig .scVector .vmem S12400 .f32).access (.whole S12400)).Stores Finset.univ)
    (k : PUnit → Prog (TpuEff nD τ sig (Elt F) Λ₀ (V d (cV3 L) (jV3 L)).2) α) (R : sProp 𝕄)
    (hk : iprop(R ∗ ptB d L (storeIdx fB ![idx] v mask add h)) ⊢ wp frame (wpE (defs₀ (F := F)) 𝒱₀ (V d (cV3 L) (jV3 L)) none) Set.univ (k ⟨⟩) Q) :
    iprop(R ∗ ptB d L fB) ⊢ wp frame (wpE (defs₀ (F := F)) 𝒱₀ (V d (cV3 L) (jV3 L)) none) Set.univ
      (SparseCore.vectorStoreIdx (sB3 : Memref sig .scVector .vmem S12400 .f32) ![idx] v mask add h hs >>= k) Q := by
  iintro ⟨HR, HB⟩
  have e1 : ((sB3 : Memref sig .scVector .vmem S12400 .f32).access (.whole S12400)).set = Finset.univ := Memref.set_access_whole cc3_scratch1
  ihave HB' := (Entails.of_eq (show (ptB d L fB : sProp 𝕄)
      = (((sB3 : Memref sig .scVector .vmem S12400 .f32).access (.whole S12400)).loc (V d (cV3 L) (jV3 L)) ↦[((sB3 : Memref sig .scVector .vmem S12400 .f32).access (.whole S12400)).set]{fullShare} fB) from by rw [e1])) $$ HB
  iapply (SparseCore.wp_vectorStoreIdx 𝒱₀ (V d (cV3 L) (jV3 L)) none Set.univ (base := (sB3 : Memref sig .scVector .vmem S12400 .f32))) $$ HB'
  iintro HB
  rw [e1, show ((sB3 : Memref sig .scVector .vmem S12400 .f32).access (.whole S12400)).read (Elt F) fB = fB from Memref.read_access_whole (Elt F) cc3_scratch1 fB,
    show ∀ w, ((sB3 : Memref sig .scVector .vmem S12400 .f32).access (.whole S12400)).write (Elt F) fB w Finset.univ = w from fun w => Memref.write_access_whole_univ (Elt F) cc3_scratch1 fB w]
  iapply hk
  isplitl [HR]
  · iexact HR
  · iexact HB

end StepsV

end Cert.Proof.KB.Body3

end
-- ==== Proof.KBBody3W.lean ====
/-
  What an unmasked, non-adding scatter leaves: the lanes are written in ascending order, each at the
  element its index names.  An element no lane names keeps its value; an element exactly one lane names
  holds that lane's value.
-/
import proofs.«209939_g34969623724736_cont_8to1_b_5_19_alg».proof.Proof.KBBody30

noncomputable section

namespace Cert.Proof.KB.Body3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

section StoreIdx
variable {s : Shape} {e : EltTy} {dd : Fin 1 → Nat}

/-- Lane `k` names element `j`. -/
def hitsAt (idxs : Fin s.rank → IVec ⟨1, dd⟩ 32) (k : Fin (dd 0)) (j : s.Idx) : Prop :=
  ∀ a, (j a).val = (idxs a (Shape.ofLane k)).toNat

/-- One lane's write. -/
def laneStep (idxs : Fin s.rank → IVec ⟨1, dd⟩ 32) (v : Vec F ⟨1, dd⟩ e) (h : ∀ a x, (idxs a x).toNat < s.size a)
    (g : Vec F s e) (k : Fin (dd 0)) : Vec F s e :=
  fun j => if (∀ a, (j a).val = (idxAt idxs h (Shape.ofLane k) a).val) then v (Shape.ofLane k) else g j

theorem storeIdx_eq_foldl (f : Vec F s e) (idxs : Fin s.rank → IVec ⟨1, dd⟩ 32) (v : Vec F ⟨1, dd⟩ e) (h : ∀ a x, (idxs a x).toNat < s.size a) :
    storeIdx f idxs v (fun _ => 1#1) false h = (List.finRange (dd 0)).foldl (laneStep idxs v h) f := by
  unfold storeIdx
  congr 1
  funext g k
  have h1 : ((1#1 : BitVec 1) = 1) = True := by decide
  have h2 : (false = true) = False := by decide
  simp only [h1, h2, if_true, if_false]
  rfl

theorem fold_miss (idxs : Fin s.rank → IVec ⟨1, dd⟩ 32) (v : Vec F ⟨1, dd⟩ e) (h : ∀ a x, (idxs a x).toNat < s.size a) (j : s.Idx) :
    ∀ (l : List (Fin (dd 0))) (f : Vec F s e), (∀ k ∈ l, ¬ hitsAt idxs k j) → l.foldl (laneStep idxs v h) f j = f j := by
  intro l
  induction l with
  | nil => intro f _; rfl
  | cons k l ih =>
    intro f hm
    rw [List.foldl_cons, ih _ fun k' hk' => hm k' (List.mem_cons_of_mem _ hk')]
    unfold laneStep
    exact if_neg (hm k List.mem_cons_self)

theorem fold_hit (idxs : Fin s.rank → IVec ⟨1, dd⟩ 32) (v : Vec F ⟨1, dd⟩ e) (h : ∀ a x, (idxs a x).toNat < s.size a) (j : s.Idx) (k : Fin (dd 0))
    (hk : hitsAt idxs k j) :
    ∀ (l : List (Fin (dd 0))) (f : Vec F s e), (∀ k' ∈ l, hitsAt idxs k' j → k' = k) → (f j = v (Shape.ofLane k) ∨ k ∈ l) →
      l.foldl (laneStep idxs v h) f j = v (Shape.ofLane k) := by
  intro l
  induction l with
  | nil => intro f _ h0; rcases h0 with h0 | h0
           · exact h0
           · exact absurd h0 List.not_mem_nil
  | cons k0 l ih =>
    intro f hu h0
    rw [List.foldl_cons]
    refine ih _ (fun k' hk' => hu k' (List.mem_cons_of_mem _ hk')) ?_
    by_cases hh : hitsAt idxs k0 j
    · have e0 : k0 = k := hu k0 List.mem_cons_self hh
      left; unfold laneStep; exact (if_pos hh).trans (by rw [e0])
    · rcases h0 with h0 | h0
      · left; unfold laneStep; exact (if_neg hh).trans h0
      · rcases List.mem_cons.mp h0 with h0 | h0
        · exact absurd (h0 ▸ hk) hh
        · exact .inr h0

theorem storeIdx_miss (f : Vec F s e) (idxs : Fin s.rank → IVec ⟨1, dd⟩ 32) (v : Vec F ⟨1, dd⟩ e) (h : ∀ a x, (idxs a x).toNat < s.size a) (j : s.Idx)
    (hm : ∀ k, ¬ hitsAt idxs k j) : storeIdx f idxs v (fun _ => 1#1) false h j = f j := by
  rw [storeIdx_eq_foldl]; exact fold_miss idxs v h j _ f fun k _ => hm k

theorem storeIdx_hit (f : Vec F s e) (idxs : Fin s.rank → IVec ⟨1, dd⟩ 32) (v : Vec F ⟨1, dd⟩ e) (h : ∀ a x, (idxs a x).toNat < s.size a) (j : s.Idx)
    (k : Fin (dd 0)) (hk : hitsAt idxs k j) (hu : ∀ k', hitsAt idxs k' j → k' = k) :
    storeIdx f idxs v (fun _ => 1#1) false h j = v (Shape.ofLane k) := by
  rw [storeIdx_eq_foldl]; exact fold_hit idxs v h j k hk _ f (fun k' _ => hu k') (.inr (List.mem_finRange k))

end StoreIdx

/-! ## On the node scratch: sixteen lanes, one index vector -/

theorem ofLane_S16 (x : S16.Idx) : (Shape.ofLane (d := ![16]) (x 0) : S16.Idx) = x := by
  funext a; obtain rfl : a = 0 := Subsingleton.elim _ _; rfl

theorem storeB_miss (f : Vec F S12400 .f32) (idx : IVec S16 32) (v : Vec F S16 .f32) (h : ∀ a x, ((![idx] : Fin 1 → IVec S16 32) a x).toNat < S12400.size a)
    (j : S12400.Idx) (hm : ∀ x : S16.Idx, (idx x).toNat ≠ (j 0).val) : storeIdx f ![idx] v (fun _ => 1#1) false h j = f j :=
  storeIdx_miss f ![idx] v h j fun k hk => hm (Shape.ofLane k) (hk 0).symm

theorem storeB_hit (f : Vec F S12400 .f32) (idx : IVec S16 32) (v : Vec F S16 .f32) (h : ∀ a x, ((![idx] : Fin 1 → IVec S16 32) a x).toNat < S12400.size a)
    (j : S12400.Idx) (x : S16.Idx) (hj : (j 0).val = (idx x).toNat) (hu : ∀ x' : S16.Idx, (idx x').toNat = (idx x).toNat → x' = x) :
    storeIdx f ![idx] v (fun _ => 1#1) false h j = v x := by
  have hx := ofLane_S16 x
  rw [storeIdx_hit f ![idx] v h j (x 0) (fun a => by obtain rfl : a = 0 := Subsingleton.elim _ _; rw [hx]; exact hj)
    (fun k' hk' => by
      have := hu (Shape.ofLane k') ((hk' 0).symm.trans hj)
      rw [← this]; rfl), hx]

end Cert.Proof.KB.Body3

end
-- ==== Proof.KBBody3Val.lean ====
/-
  The values of one group.  Lane `x` of group `g` works on local row `16 g + x`: its fifteen gathered
  words are that row's first fifteen projections in the fetched chunk, and the thirty-one words it
  scatters are the row's node values — node `0` is one, node `n ≥ 1` the minimum along the path from
  the root cut off below at zero —, each at word `(16 g + x) * 31 + n` of the node scratch.  After the
  thirty-one scatters the scratch holds, on the group's rows, the node values of the chunk's rows, and
  elsewhere what it held.
-/
import proofs.«209939_g34969623724736_cont_8to1_b_5_19_alg».proof.Proof.KBBody3W
import proofs.«209939_g34969623724736_cont_8to1_b_5_19_alg».proof.Proof.KBBody3Ix

noncomputable section

namespace Cert.Proof.KB.Body3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.ValueIdx

variable [FloatOps F]

local notation "io" => (iota Kind.scVector S16 32 [0] iota_S16_d0_w32_scVector : IVec S16 32)

/-! ## The tree recursion at each node number -/

theorem nv1 (a : ℕ → F .f32) : KTree.nodeVal a 1 = FloatOps.minimumf (KTree.nodeVal a 0) (a 0) := KTree.nodeVal_left a 0
theorem nv2 (a : ℕ → F .f32) : KTree.nodeVal a 2 = FloatOps.minimumf (KTree.nodeVal a 0) (FloatOps.subf KTree.zero (a 0)) := KTree.nodeVal_right a 0
theorem nv3 (a : ℕ → F .f32) : KTree.nodeVal a 3 = FloatOps.minimumf (KTree.nodeVal a 1) (a 1) := KTree.nodeVal_left a 1
theorem nv4 (a : ℕ → F .f32) : KTree.nodeVal a 4 = FloatOps.minimumf (KTree.nodeVal a 1) (FloatOps.subf KTree.zero (a 1)) := KTree.nodeVal_right a 1
theorem nv5 (a : ℕ → F .f32) : KTree.nodeVal a 5 = FloatOps.minimumf (KTree.nodeVal a 2) (a 2) := KTree.nodeVal_left a 2
theorem nv6 (a : ℕ → F .f32) : KTree.nodeVal a 6 = FloatOps.minimumf (KTree.nodeVal a 2) (FloatOps.subf KTree.zero (a 2)) := KTree.nodeVal_right a 2
theorem nv7 (a : ℕ → F .f32) : KTree.nodeVal a 7 = FloatOps.minimumf (KTree.nodeVal a 3) (a 3) := KTree.nodeVal_left a 3
theorem nv8 (a : ℕ → F .f32) : KTree.nodeVal a 8 = FloatOps.minimumf (KTree.nodeVal a 3) (FloatOps.subf KTree.zero (a 3)) := KTree.nodeVal_right a 3
theorem nv9 (a : ℕ → F .f32) : KTree.nodeVal a 9 = FloatOps.minimumf (KTree.nodeVal a 4) (a 4) := KTree.nodeVal_left a 4
theorem nv10 (a : ℕ → F .f32) : KTree.nodeVal a 10 = FloatOps.minimumf (KTree.nodeVal a 4) (FloatOps.subf KTree.zero (a 4)) := KTree.nodeVal_right a 4
theorem nv11 (a : ℕ → F .f32) : KTree.nodeVal a 11 = FloatOps.minimumf (KTree.nodeVal a 5) (a 5) := KTree.nodeVal_left a 5
theorem nv12 (a : ℕ → F .f32) : KTree.nodeVal a 12 = FloatOps.minimumf (KTree.nodeVal a 5) (FloatOps.subf KTree.zero (a 5)) := KTree.nodeVal_right a 5
theorem nv13 (a : ℕ → F .f32) : KTree.nodeVal a 13 = FloatOps.minimumf (KTree.nodeVal a 6) (a 6) := KTree.nodeVal_left a 6
theorem nv14 (a : ℕ → F .f32) : KTree.nodeVal a 14 = FloatOps.minimumf (KTree.nodeVal a 6) (FloatOps.subf KTree.zero (a 6)) := KTree.nodeVal_right a 6
theorem nv15 (a : ℕ → F .f32) : KTree.nodeVal a 15 = FloatOps.minimumf (KTree.nodeVal a 7) (a 7) := KTree.nodeVal_left a 7
theorem nv16 (a : ℕ → F .f32) : KTree.nodeVal a 16 = FloatOps.minimumf (KTree.nodeVal a 7) (FloatOps.subf KTree.zero (a 7)) := KTree.nodeVal_right a 7
theorem nv17 (a : ℕ → F .f32) : KTree.nodeVal a 17 = FloatOps.minimumf (KTree.nodeVal a 8) (a 8) := KTree.nodeVal_left a 8
theorem nv18 (a : ℕ → F .f32) : KTree.nodeVal a 18 = FloatOps.minimumf (KTree.nodeVal a 8) (FloatOps.subf KTree.zero (a 8)) := KTree.nodeVal_right a 8
theorem nv19 (a : ℕ → F .f32) : KTree.nodeVal a 19 = FloatOps.minimumf (KTree.nodeVal a 9) (a 9) := KTree.nodeVal_left a 9
theorem nv20 (a : ℕ → F .f32) : KTree.nodeVal a 20 = FloatOps.minimumf (KTree.nodeVal a 9) (FloatOps.subf KTree.zero (a 9)) := KTree.nodeVal_right a 9
theorem nv21 (a : ℕ → F .f32) : KTree.nodeVal a 21 = FloatOps.minimumf (KTree.nodeVal a 10) (a 10) := KTree.nodeVal_left a 10
theorem nv22 (a : ℕ → F .f32) : KTree.nodeVal a 22 = FloatOps.minimumf (KTree.nodeVal a 10) (FloatOps.subf KTree.zero (a 10)) := KTree.nodeVal_right a 10
theorem nv23 (a : ℕ → F .f32) : KTree.nodeVal a 23 = FloatOps.minimumf (KTree.nodeVal a 11) (a 11) := KTree.nodeVal_left a 11
theorem nv24 (a : ℕ → F .f32) : KTree.nodeVal a 24 = FloatOps.minimumf (KTree.nodeVal a 11) (FloatOps.subf KTree.zero (a 11)) := KTree.nodeVal_right a 11
theorem nv25 (a : ℕ → F .f32) : KTree.nodeVal a 25 = FloatOps.minimumf (KTree.nodeVal a 12) (a 12) := KTree.nodeVal_left a 12
theorem nv26 (a : ℕ → F .f32) : KTree.nodeVal a 26 = FloatOps.minimumf (KTree.nodeVal a 12) (FloatOps.subf KTree.zero (a 12)) := KTree.nodeVal_right a 12
theorem nv27 (a : ℕ → F .f32) : KTree.nodeVal a 27 = FloatOps.minimumf (KTree.nodeVal a 13) (a 13) := KTree.nodeVal_left a 13
theorem nv28 (a : ℕ → F .f32) : KTree.nodeVal a 28 = FloatOps.minimumf (KTree.nodeVal a 13) (FloatOps.subf KTree.zero (a 13)) := KTree.nodeVal_right a 13
theorem nv29 (a : ℕ → F .f32) : KTree.nodeVal a 29 = FloatOps.minimumf (KTree.nodeVal a 14) (a 14) := KTree.nodeVal_left a 14
theorem nv30 (a : ℕ → F .f32) : KTree.nodeVal a 30 = FloatOps.minimumf (KTree.nodeVal a 14) (FloatOps.subf KTree.zero (a 14)) := KTree.nodeVal_right a 14

/-! ## What the lanes scatter, over any fifteen gathered vectors -/

theorem pay_node0 (x : S16.Idx) : (k3_pay1 (F := F)) x = KTree.one := rfl

theorem pay_node1 (a : ℕ → Vec F S16 .f32) (x : S16.Idx) :
    (k3_pay83 ((k3_pay2 (F := F))) ((k3_pay51 ((k3_pay1 (F := F))) (a 0)))) x = FloatOps.maximumf (KTree.nodeVal (fun i => a i x) 1) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node2 (a : ℕ → Vec F S16 .f32) (x : S16.Idx) :
    (k3_pay85 ((k3_pay2 (F := F))) ((k3_pay52 ((k3_pay1 (F := F))) (a 0)))) x = FloatOps.maximumf (KTree.nodeVal (fun i => a i x) 2) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node3 (a : ℕ → Vec F S16 .f32) (x : S16.Idx) :
    ((k3_pay87 ((k3_pay2 (F := F))) ((k3_pay53 ((k3_pay1 (F := F))) (a 0) (a 1))))) x = FloatOps.maximumf (KTree.nodeVal (fun i => a i x) 3) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node4 (a : ℕ → Vec F S16 .f32) (x : S16.Idx) :
    (k3_pay89 ((k3_pay2 (F := F))) ((k3_pay54 ((k3_pay1 (F := F))) (a 0) (a 1)))) x = FloatOps.maximumf (KTree.nodeVal (fun i => a i x) 4) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node5 (a : ℕ → Vec F S16 .f32) (x : S16.Idx) :
    (k3_pay91 ((k3_pay2 (F := F))) ((k3_pay55 ((k3_pay1 (F := F))) (a 0) (a 2)))) x = FloatOps.maximumf (KTree.nodeVal (fun i => a i x) 5) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node6 (a : ℕ → Vec F S16 .f32) (x : S16.Idx) :
    (k3_pay93 ((k3_pay2 (F := F))) ((k3_pay56 ((k3_pay1 (F := F))) (a 0) (a 2)))) x = FloatOps.maximumf (KTree.nodeVal (fun i => a i x) 6) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node7 (a : ℕ → Vec F S16 .f32) (x : S16.Idx) :
    (k3_pay95 ((k3_pay2 (F := F))) ((k3_pay57 ((k3_pay1 (F := F))) (a 0) (a 1) (a 3)))) x = FloatOps.maximumf (KTree.nodeVal (fun i => a i x) 7) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node8 (a : ℕ → Vec F S16 .f32) (x : S16.Idx) :
    (k3_pay97 ((k3_pay2 (F := F))) ((k3_pay58 ((k3_pay1 (F := F))) (a 0) (a 1) (a 3)))) x = FloatOps.maximumf (KTree.nodeVal (fun i => a i x) 8) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node9 (a : ℕ → Vec F S16 .f32) (x : S16.Idx) :
    (k3_pay99 ((k3_pay2 (F := F))) ((k3_pay59 ((k3_pay1 (F := F))) (a 0) (a 1) (a 4)))) x = FloatOps.maximumf (KTree.nodeVal (fun i => a i x) 9) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node10 (a : ℕ → Vec F S16 .f32) (x : S16.Idx) :
    (k3_pay101 ((k3_pay2 (F := F))) ((k3_pay60 ((k3_pay1 (F := F))) (a 0) (a 1) (a 4)))) x = FloatOps.maximumf (KTree.nodeVal (fun i => a i x) 10) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node11 (a : ℕ → Vec F S16 .f32) (x : S16.Idx) :
    (k3_pay103 ((k3_pay2 (F := F))) ((k3_pay61 ((k3_pay1 (F := F))) (a 0) (a 2) (a 5)))) x = FloatOps.maximumf (KTree.nodeVal (fun i => a i x) 11) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node12 (a : ℕ → Vec F S16 .f32) (x : S16.Idx) :
    (k3_pay105 ((k3_pay2 (F := F))) ((k3_pay62 ((k3_pay1 (F := F))) (a 0) (a 2) (a 5)))) x = FloatOps.maximumf (KTree.nodeVal (fun i => a i x) 12) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node13 (a : ℕ → Vec F S16 .f32) (x : S16.Idx) :
    ((k3_pay107 ((k3_pay2 (F := F))) ((k3_pay63 ((k3_pay1 (F := F))) (a 0) (a 2) (a 6))))) x = FloatOps.maximumf (KTree.nodeVal (fun i => a i x) 13) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node14 (a : ℕ → Vec F S16 .f32) (x : S16.Idx) :
    (k3_pay109 ((k3_pay2 (F := F))) ((k3_pay65 (a 6) ((k3_pay56 ((k3_pay1 (F := F))) (a 0) (a 2))) ((k3_pay64 (F := F)))))) x = FloatOps.maximumf (KTree.nodeVal (fun i => a i x) 14) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node15 (a : ℕ → Vec F S16 .f32) (x : S16.Idx) :
    (k3_pay111 ((k3_pay2 (F := F))) ((k3_pay66 (a 7) ((k3_pay57 ((k3_pay1 (F := F))) (a 0) (a 1) (a 3)))))) x = FloatOps.maximumf (KTree.nodeVal (fun i => a i x) 15) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node16 (a : ℕ → Vec F S16 .f32) (x : S16.Idx) :
    (k3_pay113 ((k3_pay2 (F := F))) ((k3_pay67 (a 7) ((k3_pay57 ((k3_pay1 (F := F))) (a 0) (a 1) (a 3)))))) x = FloatOps.maximumf (KTree.nodeVal (fun i => a i x) 16) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node17 (a : ℕ → Vec F S16 .f32) (x : S16.Idx) :
    (k3_pay115 ((k3_pay2 (F := F))) ((k3_pay68 (a 8) ((k3_pay58 ((k3_pay1 (F := F))) (a 0) (a 1) (a 3)))))) x = FloatOps.maximumf (KTree.nodeVal (fun i => a i x) 17) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node18 (a : ℕ → Vec F S16 .f32) (x : S16.Idx) :
    (k3_pay117 ((k3_pay2 (F := F))) ((k3_pay69 (a 8) ((k3_pay58 ((k3_pay1 (F := F))) (a 0) (a 1) (a 3)))))) x = FloatOps.maximumf (KTree.nodeVal (fun i => a i x) 18) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node19 (a : ℕ → Vec F S16 .f32) (x : S16.Idx) :
    (k3_pay119 ((k3_pay2 (F := F))) ((k3_pay70 (a 9) ((k3_pay59 ((k3_pay1 (F := F))) (a 0) (a 1) (a 4)))))) x = FloatOps.maximumf (KTree.nodeVal (fun i => a i x) 19) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node20 (a : ℕ → Vec F S16 .f32) (x : S16.Idx) :
    (k3_pay121 ((k3_pay2 (F := F))) ((k3_pay71 (a 9) ((k3_pay59 ((k3_pay1 (F := F))) (a 0) (a 1) (a 4)))))) x = FloatOps.maximumf (KTree.nodeVal (fun i => a i x) 20) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node21 (a : ℕ → Vec F S16 .f32) (x : S16.Idx) :
    (k3_pay123 ((k3_pay2 (F := F))) ((k3_pay72 (a 10) ((k3_pay60 ((k3_pay1 (F := F))) (a 0) (a 1) (a 4)))))) x = FloatOps.maximumf (KTree.nodeVal (fun i => a i x) 21) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node22 (a : ℕ → Vec F S16 .f32) (x : S16.Idx) :
    (k3_pay125 ((k3_pay2 (F := F))) ((k3_pay73 (a 10) ((k3_pay60 ((k3_pay1 (F := F))) (a 0) (a 1) (a 4)))))) x = FloatOps.maximumf (KTree.nodeVal (fun i => a i x) 22) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node23 (a : ℕ → Vec F S16 .f32) (x : S16.Idx) :
    (k3_pay127 ((k3_pay2 (F := F))) ((k3_pay74 (a 11) ((k3_pay61 ((k3_pay1 (F := F))) (a 0) (a 2) (a 5)))))) x = FloatOps.maximumf (KTree.nodeVal (fun i => a i x) 23) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node24 (a : ℕ → Vec F S16 .f32) (x : S16.Idx) :
    (k3_pay4 (k3_pay75 (a 11) ((k3_pay61 ((k3_pay1 (F := F))) (a 0) (a 2) (a 5))))) x = FloatOps.maximumf (KTree.nodeVal (fun i => a i x) 24) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node25 (a : ℕ → Vec F S16 .f32) (x : S16.Idx) :
    (k3_pay6 (k3_pay76 (a 12) ((k3_pay62 ((k3_pay1 (F := F))) (a 0) (a 2) (a 5))))) x = FloatOps.maximumf (KTree.nodeVal (fun i => a i x) 25) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node26 (a : ℕ → Vec F S16 .f32) (x : S16.Idx) :
    (k3_pay8 (k3_pay77 (a 12) ((k3_pay62 ((k3_pay1 (F := F))) (a 0) (a 2) (a 5))))) x = FloatOps.maximumf (KTree.nodeVal (fun i => a i x) 26) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node27 (a : ℕ → Vec F S16 .f32) (x : S16.Idx) :
    (k3_pay10 (k3_pay78 (a 13) ((k3_pay63 ((k3_pay1 (F := F))) (a 0) (a 2) (a 6))))) x = FloatOps.maximumf (KTree.nodeVal (fun i => a i x) 27) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node28 (a : ℕ → Vec F S16 .f32) (x : S16.Idx) :
    (k3_pay12 (k3_pay79 (a 13) ((k3_pay63 ((k3_pay1 (F := F))) (a 0) (a 2) (a 6))))) x = FloatOps.maximumf (KTree.nodeVal (fun i => a i x) 28) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node29 (a : ℕ → Vec F S16 .f32) (x : S16.Idx) :
    (k3_pay14 (k3_pay80 (a 6) (a 14) ((k3_pay56 ((k3_pay1 (F := F))) (a 0) (a 2))) ((k3_pay64 (F := F))))) x = FloatOps.maximumf (KTree.nodeVal (fun i => a i x) 29) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl
theorem pay_node30 (a : ℕ → Vec F S16 .f32) (x : S16.Idx) :
    (k3_pay16 (k3_pay81 (a 6) (a 14) ((k3_pay56 ((k3_pay1 (F := F))) (a 0) (a 2))) ((k3_pay64 (F := F))))) x = FloatOps.maximumf (KTree.nodeVal (fun i => a i x) 30) KTree.zero := by
  simp only [nv1, nv2, nv3, nv4, nv5, nv6, nv7, nv8, nv9, nv10, nv11, nv12, nv13, nv14, nv15, nv16, nv17, nv18, nv19, nv20, nv21, nv22, nv23, nv24, nv25, nv26, nv27, nv28, nv29, nv30, KTree.nodeVal_zero]; rfl

/-! ## The rows of a fetched chunk -/

/-- Projection `i` of local row `r` in a chunk's 51200 words (total: positions wrap at the chunk's length). -/
def rowA (fA : Vec F S51200 .f32) (r i : ℕ) : F .f32 := fA (ix1 ⟨(r * 128 + i) % 51200, Nat.mod_lt _ (by decide)⟩)

/-- The gathered vectors of group `g`. -/
def gat (fA : Vec F S51200 .f32) (g : ℕ) (i : ℕ) : Vec F S16 .f32 := fun x => rowA fA (16 * g + (x 0).val) i

/-- What the node scratch is to hold at word `p`: node `p % 31` of local row `p / 31`. -/
def tgtB (fA : Vec F S51200 .f32) (p : S12400.Idx) : F .f32 :=
  if (p 0).val % 31 = 0 then KTree.one
  else FloatOps.maximumf (KTree.nodeVal (rowA fA ((p 0).val / 31)) ((p 0).val % 31)) KTree.zero

/-- Node `n` over the lanes of group `g`. -/
def nodeV (fA : Vec F S51200 .f32) (g : ℕ) (n : ℕ) : Vec F S16 .f32 := fun x =>
  if n = 0 then KTree.one else FloatOps.maximumf (KTree.nodeVal (fun i => gat fA g i x) n) KTree.zero

theorem nodeV_ne (fA : Vec F S51200 .f32) (g n : ℕ) (hn : n ≠ 0) (x : S16.Idx) :
    nodeV fA g n x = FloatOps.maximumf (KTree.nodeVal (fun i => gat fA g i x) n) KTree.zero := if_neg hn
theorem nodeV_zero (fA : Vec F S51200 .f32) (g : ℕ) (x : S16.Idx) : nodeV fA g 0 x = KTree.one := if_pos rfl

theorem nodeV_eq_tgtB (fA : Vec F S51200 .f32) (g : ℕ) (n : ℕ) (hn : n < 31) (x : S16.Idx) (p : S12400.Idx)
    (hp : (p 0).val = (16 * g + (x 0).val) * 31 + n) : nodeV fA g n x = tgtB fA p := by
  have h1 : (p 0).val % 31 = n := by rw [hp]; omega
  have h2 : (p 0).val / 31 = 16 * g + (x 0).val := by rw [hp]; omega
  unfold nodeV tgtB
  rw [h1, h2]; rfl

/-- A gather at projection `i`'s words reads the rows' projection `i`. -/
theorem load_eq_gat (fA : Vec F S51200 .f32) (g : Fin k3_t2_loop.trips) (i : ℕ) (hi : i < 15) (idx : IVec S16 32)
    (hidx : ∀ x, (idx x).toNat = (16 * g.val + (x 0).val) * 128 + i)
    (h : ∀ a x, ((![idx] : Fin 1 → IVec S16 32) a x).toNat < S51200.size a) :
    loadIdx fA ![idx] h = gat fA g.val i := by
  funext x
  have hg := trips2_le g
  have hx := lane_lt x
  show fA (idxAt ![idx] h x) = fA _
  congr 1
  funext a; obtain rfl : a = 0 := Subsingleton.elim _ _
  apply Fin.ext
  show (idx x).toNat = ((16 * g.val + (x 0).val) * 128 + i) % 51200
  rw [hidx x]; omega

/-! ## Thirty-one scatters -/

section Stores
variable (fA : Vec F S51200 .f32) (g : Fin k3_t2_loop.trips) (fB : Vec F S12400 .f32)

/-- After the first `n` scatters of group `g`: words of no row of the group are as before, and nodes below `n` of
    the group's rows are in place. -/
def Good (n : ℕ) (f' : Vec F S12400 .f32) : Prop :=
  (∀ p : S12400.Idx, (∀ x : S16.Idx, ∀ m, m < 31 → (p 0).val ≠ (16 * g.val + (x 0).val) * 31 + m) → f' p = fB p)
  ∧ ∀ (x : S16.Idx) (m : ℕ), m < n → ∀ p : S12400.Idx, (p 0).val = (16 * g.val + (x 0).val) * 31 + m → f' p = nodeV fA g.val m x

theorem good_zero : Good fA g fB 0 fB := ⟨fun _ _ => rfl, fun _ m hm => absurd hm (Nat.not_lt_zero m)⟩

theorem good_step (n : ℕ) (hn : n < 31) (f' : Vec F S12400 .f32) (hG : Good fA g fB n f') (idx : IVec S16 32)
    (hidx : ∀ x, (idx x).toNat = (16 * g.val + (x 0).val) * 31 + n) (v : Vec F S16 .f32) (hv : ∀ x, v x = nodeV fA g.val n x)
    (h : ∀ a x, ((![idx] : Fin 1 → IVec S16 32) a x).toNat < S12400.size a) :
    Good fA g fB (n + 1) (storeIdx f' ![idx] v (fun _ => 1#1) false h) := by
  refine ⟨fun p hp => ?_, fun x m hm p hp => ?_⟩
  · rw [storeB_miss f' idx v h p fun x' => by rw [hidx x']; exact (hp x' n hn).symm]
    exact hG.1 p hp
  · rcases Nat.lt_succ_iff_lt_or_eq.mp hm with hm | rfl
    · rw [storeB_miss f' idx v h p fun x' => by
        have hx := lane_lt x; have hx' := lane_lt x'
        rw [hidx x', hp]; omega]
      exact hG.2 x m hm p hp
    · rw [storeB_hit f' idx v h p x (by rw [hidx x]; exact hp) fun x' hx' => by
        rw [hidx x', hidx x] at hx'
        have e : (x' 0).val = (x 0).val := by omega
        funext a; obtain rfl : a = 0 := Subsingleton.elim _ _
        exact Fin.ext e]
      exact hv x

/-- The group done, the scratch agrees with its target one group further. -/
theorem good_inv (f' : Vec F S12400 .f32) (hG : Good fA g fB 31 f')
    (hI : ∀ p : S12400.Idx, (p 0).val < 496 * g.val → fB p = tgtB fA p) :
    ∀ p : S12400.Idx, (p 0).val < 496 * (g.val + 1) → f' p = tgtB fA p := by
  intro p hp
  by_cases hr : (p 0).val < 496 * g.val
  · rw [hG.1 p fun x m hm => by have hx := lane_lt x; omega]
    exact hI p hr
  · have hx : (p 0).val / 31 - 16 * g.val < 16 := by omega
    let x : S16.Idx := ix1 ⟨(p 0).val / 31 - 16 * g.val, hx⟩
    have hx0 : (x 0).val = (p 0).val / 31 - 16 * g.val := rfl
    have hpos : (p 0).val = (16 * g.val + (x 0).val) * 31 + (p 0).val % 31 := by rw [hx0]; omega
    rw [hG.2 x ((p 0).val % 31) (Nat.mod_lt _ (by decide)) p hpos]
    exact nodeV_eq_tgtB fA g.val _ (Nat.mod_lt _ (by decide)) x p hpos

end Stores

end Cert.Proof.KB.Body3

end
-- ==== Proof.KBBody3GrpV.lean ====
/-
  One group of sixteen rows, with its values: the fifteen gathers read the rows' projections off the
  fetched chunk, and after the thirty-one scatters the node scratch holds the rows' node values on the
  group's words and what it held elsewhere.
-/
import proofs.«209939_g34969623724736_cont_8to1_b_5_19_alg».proof.Proof.KBBody3St
import proofs.«209939_g34969623724736_cont_8to1_b_5_19_alg».proof.Proof.KBBody3Val

noncomputable section

namespace Cert.Proof.KB.Body3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

local notation "io" => (iota Kind.scVector S16 32 [0] iota_S16_d0_w32_scVector : IVec S16 32)

section Group
variable (d : Dev nD) (L : grid3.Coords)

/-- A gather out of the fetched chunk, its result named. -/
theorem ldA_stepV {α : Type} {Q : α → sProp 𝕄} (fA : Buf (Elt F) ((V d (cV3 L) (jV3 L)).loc cc3_scratch0)) (idx : IVec S16 32)
    (h : ∀ a x, ((![idx] : Fin 1 → IVec S16 32) a x).toNat < S51200.size a) (hl : (sA3 : Memref sig .scVector .vmem S51200 .f32).view.Loads)
    (k : Vec F S16 .f32 → Prog (TpuEff nD τ sig (Elt F) Λ₀ (V d (cV3 L) (jV3 L)).2) α) (R : sProp 𝕄)
    (a : Vec F S16 .f32) (ha : loadIdx fA ![idx] h = a)
    (hk : iprop(R ∗ ptA d L fA) ⊢ wp frame (wpE (defs₀ (F := F)) 𝒱₀ (V d (cV3 L) (jV3 L)) none) Set.univ (k a) Q) :
    iprop(R ∗ ptA d L fA) ⊢ wp frame (wpE (defs₀ (F := F)) 𝒱₀ (V d (cV3 L) (jV3 L)) none) Set.univ
      (SparseCore.vectorLoadIdx (sA3 : Memref sig .scVector .vmem S51200 .f32) ![idx] h hl >>= k) Q := by
  subst ha; exact ldA_step d L fA idx h hl k R hk

set_option maxHeartbeats 4000000 in
theorem group_val (g : Fin k3_t2_loop.trips) (fA : Buf (Elt F) ((V d (cV3 L) (jV3 L)).loc cc3_scratch0)) (fB : Buf (Elt F) ((V d (cV3 L) (jV3 L)).loc cc3_scratch1)) :
    iprop(ptB d L fB ∗ ptA d L fA) ⊢ wp frame (wpE (defs₀ (F := F)) 𝒱₀ (V d (cV3 L) (jV3 L)) none) Set.univ
      (k3_t2_body L in1V (Memref.isWhole_whole _) out1V (Memref.isWhole_whole _) sA3 (Memref.isWhole_whole _) sB3 (Memref.isWhole_whole _)
        cc3_scoped0 cc3_scoped1 cc3_scoped2 cc3_scoped3 io g ())
      fun _ => iprop(ptA d L fA ∗ ∃ fB', ptB d L fB' ∗ ⌜Good fA g fB 31 fB'⌝) := by
  unfold k3_t2_body
  -- the first nine gathers
  rw [k3_part1_eq_skeleton]; unfold k3_part1_skel
  simp only [Prog.lift, Prog.bind_op, Prog.bind_ret, Prog.pure_eq_ret, Prog.bind_assoc]
  rw [wp_assume_of _ _ _ _ (chk16_ok g)]
  rw [wp_assume_of _ _ _ _ (chk1_ok g)]
  refine ldA_stepV d L _ _ _ _ _ _ (gat fA g.val 0) (load_eq_gat fA g 0 (by decide) _ (fun x => aIdx_toNat g 0 (by decide) x) _) ?_
  rw [wp_assume_of _ _ _ _ (chk2_ok g)]
  refine ldA_stepV d L _ _ _ _ _ _ (gat fA g.val 1) (load_eq_gat fA g 1 (by decide) _ (fun x => aIdx_toNat g 1 (by decide) x) _) ?_
  rw [wp_assume_of _ _ _ _ (chk3_ok g)]
  refine ldA_stepV d L _ _ _ _ _ _ (gat fA g.val 2) (load_eq_gat fA g 2 (by decide) _ (fun x => aIdx_toNat g 2 (by decide) x) _) ?_
  rw [wp_assume_of _ _ _ _ (chk4_ok g)]
  refine ldA_stepV d L _ _ _ _ _ _ (gat fA g.val 3) (load_eq_gat fA g 3 (by decide) _ (fun x => aIdx_toNat g 3 (by decide) x) _) ?_
  rw [wp_assume_of _ _ _ _ (chk5_ok g)]
  refine ldA_stepV d L _ _ _ _ _ _ (gat fA g.val 4) (load_eq_gat fA g 4 (by decide) _ (fun x => aIdx_toNat g 4 (by decide) x) _) ?_
  rw [wp_assume_of _ _ _ _ (chk6_ok g)]
  refine ldA_stepV d L _ _ _ _ _ _ (gat fA g.val 5) (load_eq_gat fA g 5 (by decide) _ (fun x => aIdx_toNat g 5 (by decide) x) _) ?_
  rw [wp_assume_of _ _ _ _ (chk7_ok g)]
  refine ldA_stepV d L _ _ _ _ _ _ (gat fA g.val 6) (load_eq_gat fA g 6 (by decide) _ (fun x => aIdx_toNat g 6 (by decide) x) _) ?_
  rw [wp_assume_of _ _ _ _ (chk8_ok g)]
  refine ldA_stepV d L _ _ _ _ _ _ (gat fA g.val 7) (load_eq_gat fA g 7 (by decide) _ (fun x => aIdx_toNat g 7 (by decide) x) _) ?_
  rw [wp_assume_of _ _ _ _ (chk9_ok g)]
  refine ldA_stepV d L _ _ _ _ _ _ (gat fA g.val 8) (load_eq_gat fA g 8 (by decide) _ (fun x => aIdx_toNat g 8 (by decide) x) _) ?_
  -- the other six
  rw [k3_part2_eq_skeleton]; unfold k3_part2_skel
  simp only [Prog.lift, Prog.bind_op, Prog.bind_ret, Prog.pure_eq_ret, Prog.bind_assoc]
  rw [wp_assume_of _ _ _ _ (chk10_ok g)]
  refine ldA_stepV d L _ _ _ _ _ _ (gat fA g.val 9) (load_eq_gat fA g 9 (by decide) _ (fun x => aIdx_toNat g 9 (by decide) x) _) ?_
  rw [wp_assume_of _ _ _ _ (chk11_ok g)]
  refine ldA_stepV d L _ _ _ _ _ _ (gat fA g.val 10) (load_eq_gat fA g 10 (by decide) _ (fun x => aIdx_toNat g 10 (by decide) x) _) ?_
  rw [wp_assume_of _ _ _ _ (chk12_ok g)]
  refine ldA_stepV d L _ _ _ _ _ _ (gat fA g.val 11) (load_eq_gat fA g 11 (by decide) _ (fun x => aIdx_toNat g 11 (by decide) x) _) ?_
  rw [wp_assume_of _ _ _ _ (chk13_ok g)]
  refine ldA_stepV d L _ _ _ _ _ _ (gat fA g.val 12) (load_eq_gat fA g 12 (by decide) _ (fun x => aIdx_toNat g 12 (by decide) x) _) ?_
  rw [wp_assume_of _ _ _ _ (chk14_ok g)]
  refine ldA_stepV d L _ _ _ _ _ _ (gat fA g.val 13) (load_eq_gat fA g 13 (by decide) _ (fun x => aIdx_toNat g 13 (by decide) x) _) ?_
  rw [wp_assume_of _ _ _ _ (chk15_ok g)]
  refine ldA_stepV d L _ _ _ _ _ _ (gat fA g.val 14) (load_eq_gat fA g 14 (by decide) _ (fun x => aIdx_toNat g 14 (by decide) x) _) ?_
  refine sep_comm.trans ?_
  -- the scatters
  rw [k3_part3_eq_skeleton]; unfold k3_part3_skel
  simp only [Prog.lift, Prog.bind_op, Prog.bind_ret, Prog.pure_eq_ret, Prog.bind_assoc]
  refine stB_step d L _ _ _ _ _ _ _ _ _ ?_
  rw [wp_assume_of _ _ _ _ (chk17_ok g)]
  refine stB_step d L _ _ _ _ _ _ _ _ _ ?_
  rw [wp_assume_of _ _ _ _ (chk18_ok g)]
  refine stB_step d L _ _ _ _ _ _ _ _ _ ?_
  rw [wp_assume_of _ _ _ _ (chk19_ok g)]
  rw [k3_part4_eq_skeleton]; unfold k3_part4_skel
  simp only [Prog.lift, Prog.bind_op, Prog.bind_ret, Prog.pure_eq_ret, Prog.bind_assoc]
  refine stB_step d L _ _ _ _ _ _ _ _ _ ?_
  rw [wp_assume_of _ _ _ _ (chk20_ok g)]
  refine stB_step d L _ _ _ _ _ _ _ _ _ ?_
  rw [wp_assume_of _ _ _ _ (chk21_ok g)]
  refine stB_step d L _ _ _ _ _ _ _ _ _ ?_
  rw [wp_assume_of _ _ _ _ (chk22_ok g)]
  refine stB_step d L _ _ _ _ _ _ _ _ _ ?_
  rw [wp_assume_of _ _ _ _ (chk23_ok g)]
  refine stB_step d L _ _ _ _ _ _ _ _ _ ?_
  rw [wp_assume_of _ _ _ _ (chk24_ok g)]
  refine stB_step d L _ _ _ _ _ _ _ _ _ ?_
  rw [wp_assume_of _ _ _ _ (chk25_ok g)]
  refine stB_step d L _ _ _ _ _ _ _ _ _ ?_
  rw [wp_assume_of _ _ _ _ (chk26_ok g)]
  refine stB_step d L _ _ _ _ _ _ _ _ _ ?_
  rw [wp_assume_of _ _ _ _ (chk27_ok g)]
  refine stB_step d L _ _ _ _ _ _ _ _ _ ?_
  rw [wp_assume_of _ _ _ _ (chk28_ok g)]
  refine stB_step d L _ _ _ _ _ _ _ _ _ ?_
  rw [wp_assume_of _ _ _ _ (chk29_ok g)]
  rw [k3_part5_eq_skeleton]; unfold k3_part5_skel
  simp only [Prog.lift, Prog.bind_op, Prog.bind_ret, Prog.pure_eq_ret, Prog.bind_assoc]
  refine stB_step d L _ _ _ _ _ _ _ _ _ ?_
  rw [wp_assume_of _ _ _ _ (chk30_ok g)]
  refine stB_step d L _ _ _ _ _ _ _ _ _ ?_
  rw [wp_assume_of _ _ _ _ (chk31_ok g)]
  refine stB_step d L _ _ _ _ _ _ _ _ _ ?_
  rw [wp_assume_of _ _ _ _ (chk32_ok g)]
  refine stB_step d L _ _ _ _ _ _ _ _ _ ?_
  rw [wp_assume_of _ _ _ _ (chk33_ok g)]
  refine stB_step d L _ _ _ _ _ _ _ _ _ ?_
  rw [wp_assume_of _ _ _ _ (chk34_ok g)]
  refine stB_step d L _ _ _ _ _ _ _ _ _ ?_
  rw [wp_assume_of _ _ _ _ (chk35_ok g)]
  refine stB_step d L _ _ _ _ _ _ _ _ _ ?_
  rw [wp_assume_of _ _ _ _ (chk36_ok g)]
  refine stB_step d L _ _ _ _ _ _ _ _ _ ?_
  rw [wp_assume_of _ _ _ _ (chk37_ok g)]
  refine stB_step d L _ _ _ _ _ _ _ _ _ ?_
  rw [wp_assume_of _ _ _ _ (chk38_ok g)]
  refine stB_step d L _ _ _ _ _ _ _ _ _ ?_
  rw [wp_assume_of _ _ _ _ (chk39_ok g)]
  refine stB_step d L _ _ _ _ _ _ _ _ _ ?_
  rw [wp_assume_of _ _ _ _ (chk40_ok g)]
  refine stB_step d L _ _ _ _ _ _ _ _ _ ?_
  rw [wp_assume_of _ _ _ _ (chk41_ok g)]
  refine stB_step d L _ _ _ _ _ _ _ _ _ ?_
  rw [wp_assume_of _ _ _ _ (chk42_ok g)]
  refine stB_step d L _ _ _ _ _ _ _ _ _ ?_
  rw [wp_assume_of _ _ _ _ (chk43_ok g)]
  refine stB_step d L _ _ _ _ _ _ _ _ _ ?_
  rw [wp_assume_of _ _ _ _ (chk44_ok g)]
  refine stB_step d L _ _ _ _ _ _ _ _ _ ?_
  rw [wp_assume_of _ _ _ _ (chk45_ok g)]
  refine stB_step d L _ _ _ _ _ _ _ _ _ ?_
  rw [wp_assume_of _ _ _ _ (chk46_ok g)]
  refine stB_step d L _ _ _ _ _ _ _ _ _ ?_
  rw [wp_ret]
  iintro ⟨HA, HB⟩
  imodintro
  isplitl [HA]
  · iexact HA
  iexists _
  isplitl [HB]
  · iexact HB
  ipureintro
  -- the thirty-one scatters, last first
  refine good_step fA g fB 30 (by decide) _ ?_ _ (fun x => bIdx_toNat g 30 (by decide) x) _ (fun x => (pay_node30 (gat fA g.val) x).trans (nodeV_ne fA g.val 30 (by decide) x).symm) _
  refine good_step fA g fB 29 (by decide) _ ?_ _ (fun x => bIdx_toNat g 29 (by decide) x) _ (fun x => (pay_node29 (gat fA g.val) x).trans (nodeV_ne fA g.val 29 (by decide) x).symm) _
  refine good_step fA g fB 28 (by decide) _ ?_ _ (fun x => bIdx_toNat g 28 (by decide) x) _ (fun x => (pay_node28 (gat fA g.val) x).trans (nodeV_ne fA g.val 28 (by decide) x).symm) _
  refine good_step fA g fB 27 (by decide) _ ?_ _ (fun x => bIdx_toNat g 27 (by decide) x) _ (fun x => (pay_node27 (gat fA g.val) x).trans (nodeV_ne fA g.val 27 (by decide) x).symm) _
  refine good_step fA g fB 26 (by decide) _ ?_ _ (fun x => bIdx_toNat g 26 (by decide) x) _ (fun x => (pay_node26 (gat fA g.val) x).trans (nodeV_ne fA g.val 26 (by decide) x).symm) _
  refine good_step fA g fB 25 (by decide) _ ?_ _ (fun x => bIdx_toNat g 25 (by decide) x) _ (fun x => (pay_node25 (gat fA g.val) x).trans (nodeV_ne fA g.val 25 (by decide) x).symm) _
  refine good_step fA g fB 24 (by decide) _ ?_ _ (fun x => bIdx_toNat g 24 (by decide) x) _ (fun x => (pay_node24 (gat fA g.val) x).trans (nodeV_ne fA g.val 24 (by decide) x).symm) _
  refine good_step fA g fB 23 (by decide) _ ?_ _ (fun x => bIdx_toNat g 23 (by decide) x) _ (fun x => (pay_node23 (gat fA g.val) x).trans (nodeV_ne fA g.val 23 (by decide) x).symm) _
  refine good_step fA g fB 22 (by decide) _ ?_ _ (fun x => bIdx_toNat g 22 (by decide) x) _ (fun x => (pay_node22 (gat fA g.val) x).trans (nodeV_ne fA g.val 22 (by decide) x).symm) _
  refine good_step fA g fB 21 (by decide) _ ?_ _ (fun x => bIdx_toNat g 21 (by decide) x) _ (fun x => (pay_node21 (gat fA g.val) x).trans (nodeV_ne fA g.val 21 (by decide) x).symm) _
  refine good_step fA g fB 20 (by decide) _ ?_ _ (fun x => bIdx_toNat g 20 (by decide) x) _ (fun x => (pay_node20 (gat fA g.val) x).trans (nodeV_ne fA g.val 20 (by decide) x).symm) _
  refine good_step fA g fB 19 (by decide) _ ?_ _ (fun x => bIdx_toNat g 19 (by decide) x) _ (fun x => (pay_node19 (gat fA g.val) x).trans (nodeV_ne fA g.val 19 (by decide) x).symm) _
  refine good_step fA g fB 18 (by decide) _ ?_ _ (fun x => bIdx_toNat g 18 (by decide) x) _ (fun x => (pay_node18 (gat fA g.val) x).trans (nodeV_ne fA g.val 18 (by decide) x).symm) _
  refine good_step fA g fB 17 (by decide) _ ?_ _ (fun x => bIdx_toNat g 17 (by decide) x) _ (fun x => (pay_node17 (gat fA g.val) x).trans (nodeV_ne fA g.val 17 (by decide) x).symm) _
  refine good_step fA g fB 16 (by decide) _ ?_ _ (fun x => bIdx_toNat g 16 (by decide) x) _ (fun x => (pay_node16 (gat fA g.val) x).trans (nodeV_ne fA g.val 16 (by decide) x).symm) _
  refine good_step fA g fB 15 (by decide) _ ?_ _ (fun x => bIdx_toNat g 15 (by decide) x) _ (fun x => (pay_node15 (gat fA g.val) x).trans (nodeV_ne fA g.val 15 (by decide) x).symm) _
  refine good_step fA g fB 14 (by decide) _ ?_ _ (fun x => bIdx_toNat g 14 (by decide) x) _ (fun x => (pay_node14 (gat fA g.val) x).trans (nodeV_ne fA g.val 14 (by decide) x).symm) _
  refine good_step fA g fB 13 (by decide) _ ?_ _ (fun x => bIdx_toNat g 13 (by decide) x) _ (fun x => (pay_node13 (gat fA g.val) x).trans (nodeV_ne fA g.val 13 (by decide) x).symm) _
  refine good_step fA g fB 12 (by decide) _ ?_ _ (fun x => bIdx_toNat g 12 (by decide) x) _ (fun x => (pay_node12 (gat fA g.val) x).trans (nodeV_ne fA g.val 12 (by decide) x).symm) _
  refine good_step fA g fB 11 (by decide) _ ?_ _ (fun x => bIdx_toNat g 11 (by decide) x) _ (fun x => (pay_node11 (gat fA g.val) x).trans (nodeV_ne fA g.val 11 (by decide) x).symm) _
  refine good_step fA g fB 10 (by decide) _ ?_ _ (fun x => bIdx_toNat g 10 (by decide) x) _ (fun x => (pay_node10 (gat fA g.val) x).trans (nodeV_ne fA g.val 10 (by decide) x).symm) _
  refine good_step fA g fB 9 (by decide) _ ?_ _ (fun x => bIdx_toNat g 9 (by decide) x) _ (fun x => (pay_node9 (gat fA g.val) x).trans (nodeV_ne fA g.val 9 (by decide) x).symm) _
  refine good_step fA g fB 8 (by decide) _ ?_ _ (fun x => bIdx_toNat g 8 (by decide) x) _ (fun x => (pay_node8 (gat fA g.val) x).trans (nodeV_ne fA g.val 8 (by decide) x).symm) _
  refine good_step fA g fB 7 (by decide) _ ?_ _ (fun x => bIdx_toNat g 7 (by decide) x) _ (fun x => (pay_node7 (gat fA g.val) x).trans (nodeV_ne fA g.val 7 (by decide) x).symm) _
  refine good_step fA g fB 6 (by decide) _ ?_ _ (fun x => bIdx_toNat g 6 (by decide) x) _ (fun x => (pay_node6 (gat fA g.val) x).trans (nodeV_ne fA g.val 6 (by decide) x).symm) _
  refine good_step fA g fB 5 (by decide) _ ?_ _ (fun x => bIdx_toNat g 5 (by decide) x) _ (fun x => (pay_node5 (gat fA g.val) x).trans (nodeV_ne fA g.val 5 (by decide) x).symm) _
  refine good_step fA g fB 4 (by decide) _ ?_ _ (fun x => bIdx_toNat g 4 (by decide) x) _ (fun x => (pay_node4 (gat fA g.val) x).trans (nodeV_ne fA g.val 4 (by decide) x).symm) _
  refine good_step fA g fB 3 (by decide) _ ?_ _ (fun x => bIdx_toNat g 3 (by decide) x) _ (fun x => (pay_node3 (gat fA g.val) x).trans (nodeV_ne fA g.val 3 (by decide) x).symm) _
  refine good_step fA g fB 2 (by decide) _ ?_ _ (fun x => bIdx_toNat g 2 (by decide) x) _ (fun x => (pay_node2 (gat fA g.val) x).trans (nodeV_ne fA g.val 2 (by decide) x).symm) _
  refine good_step fA g fB 1 (by decide) _ ?_ _ (fun x => bIdx_toNat g 1 (by decide) x) _ (fun x => (pay_node1 (gat fA g.val) x).trans (nodeV_ne fA g.val 1 (by decide) x).symm) _
  refine good_step fA g fB 0 (by decide) _ ?_ _ (fun x => bBase_toNat g x) _ (fun x => (pay_node0 x).trans (nodeV_zero fA g.val x).symm) _
  exact good_zero fA g fB

end Group

end Cert.Proof.KB.Body3

end
-- ==== Proof.KBBody3.lean ====
/-
  One tile's whole task of the second tree launch, with its values.  Per chunk: the chunk's 51200 input
  words are fetched into the first scratch; twenty-five groups of sixteen rows fill the second scratch
  with the rows' node values (every word written exactly once); the second scratch is written out to
  the chunk's row of the output.  Every output row of the tile ends at the one whole-array function of
  the input.  The second chunk loop never runs.
-/
import proofs.«209939_g34969623724736_cont_8to1_b_5_19_alg».proof.Proof.KBBody3GrpV
import Idealize.ShloMosaic.Lib.Pipeline.Value

noncomputable section

namespace Cert.Proof.KB.Body3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.ValueIdx

variable [FloatOps F]

local notation "io" => (iota Kind.scVector S16 32 [0] iota_S16_d0_w32_scVector : IVec S16 32)

/-- A node's value reads only the projections below its number. -/
theorem nodeVal_congr (a a' : ℕ → F .f32) : ∀ n, (∀ i, i < n → a i = a' i) → KTree.nodeVal a n = KTree.nodeVal a' n := by
  intro n
  induction n using Nat.strong_induction_on with
  | _ n ih =>
    intro h
    cases n with
    | zero => rw [KTree.nodeVal_zero, KTree.nodeVal_zero]
    | succ m =>
      rw [KTree.nodeVal, KTree.nodeVal, ih (m / 2) (by omega) (fun i hi => h i (by omega)), h (m / 2) (by omega)]

section Tile
variable (d : Dev nD) (L : grid3.Coords)

/-! ## The fetched chunk and the written row, as words of the whole arrays -/

theorem chunk_lt (k : Fin (k3_t1_loop L).trips) : 2 * (L 1).val + (L 0).val + 32 * k.val < 125 := by
  rw [← chunk_val]; exact (chunk3 L k).isLt

/-- Word `j` of the slice trip `k` fetches is word `51200 * chunk + j` of the flat input. -/
theorem aSl_emb (k : Fin (k3_t1_loop L).trips) (j : S51200.Idx) :
    (((aSl L k).view.emb j) 0).val = 51200 * (chunk3 L k).val + (j 0).val := by
  have h1 := congrFun (k3_off1_eq L k) 0
  show k3_off1 L k 0 + 1 * (j 0).val = _
  rw [h1, chunk_val]
  show 102400 * (L 1).val + 51200 * (L 0).val + 1638400 * k.val + 1 * (j 0).val = _
  omega

/-- The fetched chunk's rows are the input's rows of that chunk. -/
theorem chunk_row (X : Buf (Elt F) (in1Loc d)) (k : Fin (k3_t1_loop L).trips) (r i : ℕ) (hr : r < 400) (hi : i < 128) :
    rowA ((aSl L k).view.read (Elt F) X) r i = KTree.projAt X (chunk3 L k).val r i := by
  have hc := (chunk3 L k).isLt
  unfold rowA KTree.projAt
  have e : ((aSl L k).view.emb (ix1 ⟨(r * 128 + i) % 51200, Nat.mod_lt _ (by decide)⟩) : S6400000.Idx)
      = ix1 ⟨(((chunk3 L k).val * 400 + r) * 128 + i) % 6400000, Nat.mod_lt _ (by decide)⟩ := by
    refine (eq_ix1 _).trans ?_
    congr 1
    apply Fin.ext
    rw [aSl_emb]
    show 51200 * (chunk3 L k).val + (r * 128 + i) % 51200 = (((chunk3 L k).val * 400 + r) * 128 + i) % 6400000
    omega
  exact ((View.read_apply _ _).trans (cast_eq _ _)).trans (congrArg X e)

theorem tgtB_chunk (X : Buf (Elt F) (in1Loc d)) (k : Fin (k3_t1_loop L).trips) (p : S12400.Idx) :
    tgtB ((aSl L k).view.read (Elt F) X) p = KTree.outFlat X (ix2 (chunk3 L k) ⟨(p 0).val, (p 0).isLt⟩) := by
  have hp : (p 0).val < 12400 := (p 0).isLt
  unfold tgtB KTree.outFlat
  show (if (p 0).val % 31 = 0 then KTree.one else FloatOps.maximumf (KTree.nodeVal (rowA ((aSl L k).view.read (Elt F) X) ((p 0).val / 31)) ((p 0).val % 31)) KTree.zero)
    = (if (p 0).val % 31 = 0 then KTree.one else FloatOps.maximumf (KTree.nodeVal (KTree.projAt X (chunk3 L k).val ((p 0).val / 31)) ((p 0).val % 31)) KTree.zero)
  rw [nodeVal_congr _ _ _ fun i hi => chunk_row d L X k ((p 0).val / 31) i (by omega) (by omega)]

/-- Word `y` of the row trip `k` writes is word `y` of row `chunk` of the output. -/
theorem oRow_emb (k : Fin (k3_t1_loop L).trips) (y : S12400.Idx) :
    (oRowK L k).view.emb y = ix2 (chunk3 L k) ⟨(y 0).val, (y 0).isLt⟩ := by
  have h2 := k3_off2_eq L k
  show (Rect.unit (s := S125x12400) (k3_off2 L k) S1x12400.size (k3_off2_inb L k)).emb (Shape.reshapeEquiv squeezes_S1x12400_S12400.numel_eq y) = _
  rw [Shape.reshapeEquiv_cons_one]
  funext a
  match a with
  | ⟨0, _⟩ => apply Fin.ext; show k3_off2 L k 0 + 1 * 0 = (chunk3 L k).val; rfl
  | ⟨1, _⟩ => apply Fin.ext; show k3_off2 L k 1 + 1 * (y 0).val = (y 0).val; rw [h2]; show 0 + 1 * (y 0).val = _; omega

/-- The row written out from a scratch that holds the chunk's node values is the output function's row. -/
theorem out_row_eq (X : Buf (Elt F) (in1Loc d)) (k : Fin (k3_t1_loop L).trips) (fo : Buf (Elt F) (out1Loc d)) (w : S12400.Idx → Elt F .f32)
    (hw : ∀ y : S12400.Idx, w y = KTree.outFlat X (ix2 (chunk3 L k) ⟨(y 0).val, (y 0).isLt⟩)) :
    ((oRowK L k).view.loc (V d (cV3 L) (jV3 L)) ↦[(oRowK L k).view.set]{fullShare} (oRowK L k).view.write (Elt F) fo w Finset.univ : sProp 𝕄)
      = out1Loc d ↦[rowSet (chunk3 L k)]{fullShare} KTree.outFlat X := by
  rw [pts_oRowK, ← set_oRowK]
  refine pointsTo_congr fun i hi => ?_
  obtain ⟨y, rfl⟩ := View.exists_emb_of_mem_set _ hi
  rw [View.write_emb_of_mem _ _ (Finset.mem_univ y)]
  exact (cast_eq _ _).trans ((hw y).trans (congrArg (KTree.outFlat X) (oRow_emb L k y).symm))

/-- The same, for the row written as one listed piece. -/
theorem out_row_eqW (X : Buf (Elt F) (in1Loc d)) (k : Fin (k3_t1_loop L).trips) (fo : Buf (Elt F) (out1Loc d)) (w : S12400.Idx → Elt F .f32)
    (hw : ∀ y : S12400.Idx, w y = KTree.outFlat X (ix2 (chunk3 L k) ⟨(y 0).val, (y 0).isLt⟩)) :
    ((oRowK L k).view.loc (V d (cV3 L) (jV3 L)) ↦[(oRowK L k).view.set]{fullShare}
        (oRowK L k).view.writes (Elt F) fo [⟨Rect.whole S12400, w⟩] : sProp 𝕄)
      = out1Loc d ↦[rowSet (chunk3 L k)]{fullShare} KTree.outFlat X := by
  rw [pts_oRowK, ← set_oRowK]
  refine pointsTo_congr fun i hi => ?_
  obtain ⟨y, rfl⟩ := View.exists_emb_of_mem_set _ hi
  have e : ((oRowK L k).view.slice (Rect.whole S12400)).emb y = (oRowK L k).view.emb y := by
    show (oRowK L k).view.emb ((Rect.whole S12400).emb y) = _
    rw [Rect.emb_whole_apply]
  have h1 := View.write_emb_of_mem (v := (oRowK L k).view.slice (Rect.whole S12400)) (Val := Elt F) fo w (M := Finset.univ) (x := y) (Finset.mem_univ y)
  rw [e] at h1
  refine h1.trans ((cast_eq _ _).trans ?_)
  exact (hw y).trans (congrArg (KTree.outFlat X) (oRow_emb L k y).symm)

/-! ## The invariants -/

/-- Between groups: the fetched chunk unchanged, the node scratch right on the words of the groups done. -/
def inv2v (fA : Buf (Elt F) ((V d (cV3 L) (jV3 L)).loc cc3_scratch0)) (g : ℕ) (_ : Unit) : sProp 𝕄 :=
  iprop(((sA3 : Memref sig .scVector .vmem S51200 .f32).view.loc (V d (cV3 L) (jV3 L)) ↦{fullShare} fA)
    ∗ ∃ fB, ((sB3 : Memref sig .scVector .vmem S12400 .f32).view.loc (V d (cV3 L) (jV3 L)) ↦{fullShare} fB)
        ∗ ⌜∀ p : S12400.Idx, (p 0).val < 496 * g → fB p = tgtB fA p⌝)

theorem group_invV (fA : Buf (Elt F) ((V d (cV3 L) (jV3 L)).loc cc3_scratch0)) (g : Fin k3_t2_loop.trips) (acc : Unit) :
    inv2v (F := F) d L fA g.val acc ⊢ wp frame (wpE (defs₀ (F := F)) 𝒱₀ (V d (cV3 L) (jV3 L)) none) Set.univ
      (k3_t2_body L in1V (Memref.isWhole_whole _) out1V (Memref.isWhole_whole _) sA3 (Memref.isWhole_whole _) sB3 (Memref.isWhole_whole _)
        cc3_scoped0 cc3_scoped1 cc3_scoped2 cc3_scoped3 io g acc)
      (inv2v (F := F) d L fA (g.val + 1)) := by
  unfold inv2v
  iintro ⟨HA, %fB, HB, %hI⟩
  ihave H := (group_val d L g fA fB) $$ [HA HB]
  · isplitl [HB]
    · iexact HB
    · iexact HA
  iapply (wp_wand_r frame _ _)
  isplitl [H]
  · iexact H
  iintro %_ ⟨HA, %fB', HB, %hG⟩
  isplitl [HA]
  · iexact HA
  iexists fB'
  isplitl [HB]
  · iexact HB
  ipureintro
  exact good_inv fA g fB fB' hG hI

/-- A row of the tile before trip `k`: done if its trip is past, at some contents otherwise. -/
def rowΦ (X : Buf (Elt F) (in1Loc d)) (k : ℕ) (j : Fin (k3_t1_loop L).trips) : sProp 𝕄 :=
  if j.val < k then out1Loc d ↦[rowSet (chunk3 L j)]{fullShare} KTree.outFlat X
  else iprop(∃ f, out1Loc d ↦[rowSet (chunk3 L j)]{fullShare} f)

theorem rowΦ_zero (X : Buf (Elt F) (in1Loc d)) :
    (bigSep Finset.univ fun j : Fin (k3_t1_loop L).trips => iprop(∃ f, out1Loc d ↦[rowSet (chunk3 L j)]{fullShare} f) : sProp 𝕄)
      = bigSep Finset.univ (rowΦ (F := F) d L X 0) :=
  bigSep_congr fun j _ => (if_neg (Nat.not_lt_zero _)).symm
theorem rowΦ_all (X : Buf (Elt F) (in1Loc d)) :
    (bigSep Finset.univ (rowΦ (F := F) d L X (k3_t1_loop L).trips) : sProp 𝕄)
      = bigSep Finset.univ fun j : Fin (k3_t1_loop L).trips => out1Loc d ↦[rowSet (chunk3 L j)]{fullShare} KTree.outFlat X :=
  bigSep_congr fun j _ => if_pos j.isLt
theorem rowΦ_open (X : Buf (Elt F) (in1Loc d)) (k : Fin (k3_t1_loop L).trips) :
    (bigSep Finset.univ (rowΦ (F := F) d L X k.val) : sProp 𝕄)
      = iprop((∃ f, out1Loc d ↦[rowSet (chunk3 L k)]{fullShare} f) ∗ bigSep (Finset.univ.erase k) (rowΦ (F := F) d L X k.val)) := by
  rw [SparseCore.bigSep_erase' (Finset.mem_univ k)]
  congr 1
  exact if_neg (Nat.lt_irrefl _)
theorem rowΦ_close (X : Buf (Elt F) (in1Loc d)) (k : Fin (k3_t1_loop L).trips) :
    (bigSep Finset.univ (rowΦ (F := F) d L X (k.val + 1)) : sProp 𝕄)
      = iprop((out1Loc d ↦[rowSet (chunk3 L k)]{fullShare} KTree.outFlat X) ∗ bigSep (Finset.univ.erase k) (rowΦ (F := F) d L X k.val)) := by
  rw [SparseCore.bigSep_erase' (Finset.mem_univ k)]
  congr 1
  · exact if_pos (Nat.lt_succ_self _)
  · refine bigSep_congr fun j hj => ?_
    have hne : j.val ≠ k.val := fun e => (Finset.mem_erase.mp hj).1 (Fin.ext e)
    unfold rowΦ
    by_cases h : j.val < k.val
    · rw [if_pos h, if_pos (by omega)]
    · rw [if_neg h, if_neg (by omega)]

/-- Between chunks. -/
def inv1v (q : PosShare TreeShare) (X : Buf (Elt F) (in1Loc d)) (O : CellTallies nD τ sig (HIx 2)) (W : Waits sig (HIx 2)) (k : ℕ) (_ : Unit) : sProp 𝕄 :=
  iprop(Transfers.MayWaits (V d (cV3 L) (jV3 L)) (none : HIx 2) O
    ∗ ((in1V : Memref sig .scVector .hbm S6400000 .f32).view.loc (V d (cV3 L) (jV3 L)) ↦{q} X)
    ∗ bigSep Finset.univ (rowΦ (F := F) d L X k)
    ∗ (∃ fA, (sA3 : Memref sig .scVector .vmem S51200 .f32).view.loc (V d (cV3 L) (jV3 L)) ↦{fullShare} fA)
    ∗ (∃ fB, (sB3 : Memref sig .scVector .vmem S12400 .f32).view.loc (V d (cV3 L) (jV3 L)) ↦{fullShare} fB)
    ∗ semVal ((V d (cV3 L) (jV3 L)), SemLoc.dma cc3_scoped0.sem) 0 ∗ semVal ((V d (cV3 L) (jV3 L)), SemLoc.dma cc3_scoped1.sem) 0
    ∗ ∃ W', ⌜∀ p ∈ W', p ∈ W ∨ p.2 = none⌝ ∗ owes (V d (cV3 L) (jV3 L)) O W')

end Tile

end Cert.Proof.KB.Body3

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Body3

variable {F : FTy → Type} [FloatOps F]

local notation "𝕄" => MT nD τ sig (HIx 2) (Elt F) ℕ UU ℕ

theorem body_k3_trips2_eq : k3_t2_loop.trips = 25 := by decide

set_option maxHeartbeats 4000000 in
/-- The task of the tile at grid coordinates `L`: from a read share of the flat input and the tile's output rows, it
    ends with every one of those rows at the output function of the input. -/
theorem tile_body3 (d : Dev nD) (L : grid3.Coords) (hF : (K (F := F)).Facts) (q : PosShare TreeShare) (X : Buf (Elt F) (in1Loc d))
    (O : CellTallies nD τ sig (HIx 2)) (W : Waits sig (HIx 2)) (hO : ∀ g, O g none = 0) :
    (iprop(levAts (K (F := F)).L (K (F := F)).lev
        ∗ (in1Loc d ↦{q} X)
        ∗ (bigSep Finset.univ fun k : Fin (k3_t1_loop L).trips => iprop(∃ f, out1Loc d ↦[rowSet (chunk3 L k)]{fullShare} f))
        ∗ scopedBufs (V d (cV3 L) (jV3 L)) ∗ scopedSems0 (V d (cV3 L) (jV3 L)) ∗ owes (V d (cV3 L) (jV3 L)) O W) : sProp 𝕄)
      ⊢ wp frame (wpE (defs₀ (F := F)) 𝒱₀ (V d (cV3 L) (jV3 L)) none) Set.univ
          (cc3_tree_sc L in1V (Memref.isWhole_whole _) out1V (Memref.isWhole_whole _) sA3 (Memref.isWhole_whole _) sB3 (Memref.isWhole_whole _) cc3_scoped0 cc3_scoped1 cc3_scoped2 cc3_scoped3)
          fun _ => iprop((in1Loc d ↦{q} X)
            ∗ (bigSep Finset.univ fun k : Fin (k3_t1_loop L).trips => out1Loc d ↦[rowSet (chunk3 L k)]{fullShare} (KTree.outFlat X))
            ∗ scopedBufs (V d (cV3 L) (jV3 L)) ∗ scopedSems0 (V d (cV3 L) (jV3 L))
            ∗ ∃ W', ⌜∀ p ∈ W', p ∈ W ∨ p.2 = none⌝ ∗ owes (V d (cV3 L) (jV3 L)) O W') := by
  simp only [cc3_tree_sc_eq_skeleton]; unfold cc3_tree_sc_skel
  rw [(K (F := F)).scopedBufs_V hF d (cV3 L) (jV3 L), SparseCore.Cfg.scopedSems0_V (Val := Elt F) d (cV3 L) (jV3 L), ownSems0_V, ownBufs_V]
  iintro ⟨#Hlv, HX, Hrows, ⟨⟨%fA, HA⟩, ⟨%fB, HB⟩, Hbufs⟩, ⟨Hs0, Hs1, Hsems⟩, HO⟩
  ihave Hmw := ((K (F := F)).mayWaits_none (thr := (V d (cV3 L) (jV3 L))) hO) $$ Hlv
  ihave HX' := (Entails.of_eq (pts_in0 (F := F) d L q _).symm) $$ HX
  ihave HA' := (Entails.of_eq (pts_sA (F := F) d L _).symm) $$ HA
  ihave HB' := (Entails.of_eq (pts_sB (F := F) d L _).symm) $$ HB
  ihave Hrows' := (Entails.of_eq (rowΦ_zero (F := F) d L X)) $$ Hrows
  sl_for (inv1v d L q X O W) $$ [Hmw HX' Hrows' HA' HB' Hs0 Hs1 HO]
  case region =>
    intro k _
    unfold inv1v
    iintro ⟨Hmw, HX, Hrows, ⟨%fA, HA⟩, ⟨%fB, HB⟩, Hs0, Hs1, %W', %hW', HO⟩
    ihave Hr := (Entails.of_eq (rowΦ_open (F := F) d L X k)) $$ Hrows
    icases Hr with ⟨⟨%fo, Ho⟩, Hrest⟩
    ihave Ho' := (Entails.of_eq (pts_oRowK (F := F) d L k fo).symm) $$ Ho
    -- the fetch and its wait: the first scratch holds the chunk
    sl_exec
    ihave HA2 := (Entails.of_eq (congrArg (fun f => ((sA3 : Memref sig .scVector .vmem S51200 .f32).view.loc (V d (cV3 L) (jV3 L)) ↦{fullShare} f : sProp 𝕄))
      (View.write_whole_univ cc3_scratch0 fA _))) $$ HA
    -- the groups
    sl_for (inv2v d L ((aSl L k).view.read (Elt F) X)) $$ [HA2 HB]
    case region =>
      intro g acc
      exact group_invV d L _ g acc
    · unfold inv2v
      isplitl [HA2]
      · iexact HA2
      · iexists _; isplitl [HB]
        · iexact HB
        · ipureintro; intro p hp; exact absurd hp (by omega)
    iintro %_ HI
    unfold inv2v
    icases HI with ⟨HA, %fB2, HB, %hB⟩
    have hB' : ∀ y : S12400.Idx, fB2 y = KTree.outFlat X (ix2 (chunk3 L k) ⟨(y 0).val, (y 0).isLt⟩) := fun y =>
      (hB y (by have hy : (y 0).val < 12400 := (y 0).isLt; have e : Scf.trips k3_t2_loop.lb k3_t2_loop.ub k3_t2_loop.st = 25 := body_k3_trips2_eq; rw [e]; omega)).trans (tgtB_chunk d L X k y)
    -- the write-out and its wait
    sl_exec
    have hB'' : ∀ y : S12400.Idx, tile_body3.sl.dma0_1 d L fB2 y = KTree.outFlat X (ix2 (chunk3 L k) ⟨(y 0).val, (y 0).isLt⟩) := fun y =>
      ((View.read_apply _ _).trans (cast_eq _ _)).trans (hB' y)
    ihave Ho2 := (Entails.of_eq (out_row_eqW (F := F) d L X k fo (tile_body3.sl.dma0_1 d L fB2) hB'')) $$ Ho'
    sl_step
    isplitl [Hmw]; · iexact Hmw
    isplitl [HX]; · iexact HX
    isplitl [Ho2 Hrest]
    · iapply (Entails.of_eq (rowΦ_close (F := F) d L X k).symm)
      isplitl [Ho2]
      · iexact Ho2
      · iexact Hrest
    isplitl [HA]; · iexists _; iexact HA
    isplitl [HB]; · iexists _; iexact HB
    isplitl [Hs0]; · iexact Hs0
    isplitl [Hs1]; · iexact Hs1
    iexists _; isplitr
    rotate_left
    · iexact HO
    · ipureintro; intro p hp
      rcases Finset.mem_insert.mp hp with hp | hp
      · exact .inr (by subst hp; rfl)
      rcases Finset.mem_insert.mp hp with hp | hp
      · exact .inr (by subst hp; rfl)
      · exact hW' p hp
  · unfold inv1v
    isplitr; · iexact Hmw
    isplitl [HX']; · iexact HX'
    isplitl [Hrows']; · iexact Hrows'
    isplitl [HA']; · iexists _; iexact HA'
    isplitl [HB']; · iexists _; iexact HB'
    isplitl [Hs0]; · iexact Hs0
    isplitl [Hs1]; · iexact Hs1
    iexists W; isplitr
    · ipureintro; exact fun p hp => .inl hp
    · iexact HO
  iintro %_ HI
  -- the second chunk loop has no trip
  sl_for (fun (_ : ℕ) => inv1v d L q X O W (k3_t1_loop L).trips) $$ [HI]
  case region =>
    intro k _
    exact (Nat.not_lt_zero _ (lt_of_lt_of_le k.isLt (k3_t3_abs L).2.1)).elim
  · iexact HI
  iintro %_ HI
  unfold inv1v
  icases HI with ⟨-, HX, Hrows, ⟨%fA, HA⟩, ⟨%fB, HB⟩, Hs0, Hs1, %W', %hW', HO⟩
  sl_step
  isplitl [HX]; · iapply (Entails.of_eq (pts_in0 (F := F) d L q _)); iexact HX
  isplitl [Hrows]; · iapply (Entails.of_eq (rowΦ_all (F := F) d L X)); iexact Hrows
  isplitl [HA HB Hbufs]
  · isplitl [HA]; · iexists _; iexact HA
    isplitl [HB]; · iexists _; iexact HB
    iexact Hbufs
  isplitl [Hs0 Hs1 Hsems]
  · isplitl [Hs0]; · iexact Hs0
    isplitl [Hs1]; · iexact Hs1
    iexact Hsems
  iexists W'; isplitr
  · ipureintro; exact hW'
  · iexact HO

end Cert.Proof.KB

end
-- ==== Proof.KBBodies.lean ====
/-
  The two tree launches' tile bodies, in the shape the launch's obligations take them: the first
  launch's kernel function at every grid coordinate, and the second's, which is the first's text over
  the second call's names.
-/
import proofs.«209939_g34969623724736_cont_8to1_b_5_19_alg».proof.Proof.KBBody
import proofs.«209939_g34969623724736_cont_8to1_b_5_19_alg».proof.Proof.KBBody3
import proofs.«209939_g34969623724736_cont_8to1_b_5_19_alg».proof.Proof.KBSplit

noncomputable section

namespace Cert.Proof.KB

open Cert.Kernel Cert.Kernel.Gen
open Idealize.ShloMosaic

variable {F : FTy → Type} [FloatOps F]

theorem tileBody0 : TileBody0 (F := F) := fun d L q x O W hO => tile_body1 d L facts q x O W hO
theorem tileBody1 : TileBody1 (F := F) := fun d L q x O W hO => tile_body3 d L facts q x O W hO

end Cert.Proof.KB

end
-- ==== Proof.lean ====
/-
  The five conjuncts of `Cert.Claim` for the tree-routing kernel against its reference.

  Both programs compute, for every row `r` of `x` and every node `n` of a complete binary tree of depth
  four, the minimum along the root path of node `n` of `1` and of the projections `± (x r · A p)` of
  the parents `p` on the path, cut off below at `0` (column `0` is `1`): `Cert.TreeSpec.tree`.
  The reference does it by fifteen-column gathers and scatters repeated four times; the kernel by a
  matrix product of each half of the rows against the weight rows, then one launch per half of
  thirty-two vector subcores that walk the tree explicitly, sixteen rows at a time.  Only minima,
  maxima, a subtraction from zero and one sum of 128 products occur, and that sum is the same on both
  sides, so the two results agree on all extended reals and the precondition is never used.

  The kernel program's run — all thirty-five threads of the device: the TensorCore's host operations
  and two pipelined matrix products, the two SparseCores' sequencers and tiles — is proved once,
  generic in the float instance, and read at the word-level instance for the first frame and at the
  ideal instance for the second frame and for the value.
-/
import proofs.«209939_g34969623724736_cont_8to1_b_5_19_alg».proof.Proof.KIClaim
import proofs.«209939_g34969623724736_cont_8to1_b_5_19_alg».proof.Proof.KIBodies
import proofs.«209939_g34969623724736_cont_8to1_b_5_19_alg».proof.Proof.KBBodies

noncomputable section

namespace Cert.Proof

open Idealize.ShloMosaic Idealize.SL.Sem

theorem claim : Cert.Claim :=
  Cert.Proof.KI.claim_of Cert.Proof.KI.tileBody0 Cert.Proof.KI.tileBody1 Cert.Proof.KB.tileBody0 Cert.Proof.KB.tileBody1

end Cert.Proof

end
